-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S3 : Shape := ⟨1, ![3]⟩
abbrev S3x128x128 : Shape := ⟨3, ![3, 128, 128]⟩
abbrev S3x128 : Shape := ⟨2, ![3, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S3 : S_.BroadcastsInDim S3 (![] : Fin 0 → Fin S3.rank)
  reducesTo_S3_S_d0 : S3.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  main_v53

def fn_part2 {F : FTy → Type} [FloatOps F] (main_arg9 : FVec F S3x128x128 .f32) (main_arg10 : FVec F S3x128 .f32) (main_arg11 : FVec F S3x128 .f32) (main_arg12 : FVec F S3x128 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_v48 main_v49 main_v50

def fn_part1 {F : FTy → Type} [FloatOps F] (main_arg6 : FVec F S3x128 .f32) (main_arg7 : FVec F S3x128 .f32) (main_arg8 : FVec F S3x128 .f32) (main_arg9 : FVec F S3x128x128 .f32) (main_arg10 : FVec F S3x128 .f32) (main_arg11 : FVec F S3x128 .f32) (main_arg12 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S40000x128 .f32) (main_arg1 : IVec S640000 32) (main_arg2 : IVec S640000 32) (main_arg3 : FVec F S640000 .f32) (main_arg4 : FVec F S3 .f32) (main_arg5 : FVec F S3x128x128 .f32) (main_arg6 : FVec F S3x128 .f32) (main_arg7 : FVec F S3x128 .f32) (main_arg8 : FVec F S3x128 .f32) (main_arg9 : FVec F S3x128x128 .f32) (main_arg10 : FVec F S3x128 .f32) (main_arg11 : FVec F S3x128 .f32) (main_arg12 : FVec F S3x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S3 .f32 := Host.absf main_arg4
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S40000x128 : Shape := ⟨2, ![40000, 128]⟩
abbrev S640000 : Shape := ⟨1, ![640000]⟩
abbrev S3 : Shape := ⟨1, ![3]⟩
abbrev S3x128x128 : Shape := ⟨3, ![3, 128, 128]⟩
abbrev S3x128 : Shape := ⟨2, ![3, 128]⟩
abbrev S640000x1 : Shape := ⟨2, ![640000, 1]⟩
abbrev S_ : Shape := ⟨0, ![]⟩
abbrev S640000x128 : Shape := ⟨2, ![640000, 128]⟩
abbrev S1 : Shape := ⟨1, ![1]⟩
abbrev S1x1 : Shape := ⟨2, ![1, 1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2x128 : Shape := ⟨2, ![2, 128]⟩
abbrev S5000x128 : Shape := ⟨2, ![5000, 128]⟩

abbrev nBuf : Space → Nat
  | .hbm => 157
  | .vmem => 93
  | .smem => 0
  | _ => 0

abbrev hbmTy0_0 (i : Nat) : BufTy := match i % 128 with
  | 0 => ⟨S40000x128, .f32⟩
  | 1 => ⟨S640000, .i32⟩
  | 2 => ⟨S640000, .i32⟩
  | 3 => ⟨S640000, .f32⟩
  | 4 => ⟨S3, .f32⟩
  | 5 => ⟨S3x128x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S3x128, .f32⟩
  | 12 => ⟨S3x128, .f32⟩
  | 13 => ⟨S640000x1, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x128, .f32⟩
  | 23 => ⟨S640000x128, .f32⟩
  | 24 => ⟨S640000x128, .f32⟩
  | 25 => ⟨S_, .f32⟩
  | 26 => ⟨S40000x128, .f32⟩
  | 27 => ⟨S640000x1, .i32⟩
  | 28 => ⟨S40000x128, .f32⟩
  | 29 => ⟨S1, .f32⟩
  | 30 => ⟨S_, .f32⟩
  | 31 => ⟨S_, .f32⟩
  | 32 => ⟨S_, .f32⟩
  | 33 => ⟨S1x1, .f32⟩
  | 34 => ⟨S1x128, .f32⟩
  | 35 => ⟨S128, .f32⟩
  | 36 => ⟨S1x128, .f32⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S1x128x128, .f32⟩
  | 53 => ⟨S128x128, .f32⟩
  | 54 => ⟨S40000x128, .f32⟩
  | 55 => ⟨S2x128, .f32⟩
  | 56 => ⟨S1x128x128, .f32⟩
  | 57 => ⟨S128x128, .f32⟩
  | 58 => ⟨S40000x128, .f32⟩
  | 59 => ⟨S2x128, .f32⟩
  | 60 => ⟨S40000x128, .f32⟩
  | 61 => ⟨S640000x1, .f32⟩
  | 62 => ⟨S_, .i32⟩
  | 63 => ⟨S640000, .i32⟩
  | 64 => ⟨S640000, .i1⟩
  | 65 => ⟨S_, .i32⟩
  | 66 => ⟨S640000, .i32⟩
  | 67 => ⟨S640000, .i32⟩
  | 68 => ⟨S640000, .i32⟩
  | 69 => ⟨S640000x1, .i32⟩
  | 70 => ⟨S640000x128, .f32⟩
  | 71 => ⟨S640000x128, .f32⟩
  | 72 => ⟨S640000x128, .f32⟩
  | 73 => ⟨S_, .f32⟩
  | 74 => ⟨S40000x128, .f32⟩
  | 75 => ⟨S640000x1, .i32⟩
  | 76 => ⟨S40000x128, .f32⟩
  | 77 => ⟨S1, .f32⟩
  | 78 => ⟨S_, .f32⟩
  | 79 => ⟨S_, .f32⟩
  | 80 => ⟨S_, .f32⟩
  | 81 => ⟨S1x1, .f32⟩
  | 82 => ⟨S1x128, .f32⟩
  | 83 => ⟨S128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S1x128, .f32⟩
  | 98 => ⟨S128, .f32⟩
  | 99 => ⟨S1x128, .f32⟩
  | 100 => ⟨S1x128x128, .f32⟩
  | 101 => ⟨S128x128, .f32⟩
  | 102 => ⟨S40000x128, .f32⟩
  | 103 => ⟨S2x128, .f32⟩
  | 104 => ⟨S1x128x128, .f32⟩
  | 105 => ⟨S128x128, .f32⟩
  | 106 => ⟨S40000x128, .f32⟩
  | 107 => ⟨S2x128, .f32⟩
  | 108 => ⟨S40000x128, .f32⟩
  | 109 => ⟨S640000x1, .f32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S640000x128, .f32⟩
  | 119 => ⟨S640000x128, .f32⟩
  | 120 => ⟨S640000x128, .f32⟩
  | 121 => ⟨S_, .f32⟩
  | 122 => ⟨S40000x128, .f32⟩
  | 123 => ⟨S640000x1, .i32⟩
  | 124 => ⟨S40000x128, .f32⟩
  | 125 => ⟨S1, .f32⟩
  | 126 => ⟨S_, .f32⟩
  | 127 => ⟨S_, .f32⟩
  | _ => ⟨S40000x128, .f32⟩

abbrev hbmTy0_1 (i : Nat) : BufTy := match i % 128 with
  | 0 => ⟨S_, .f32⟩
  | 1 => ⟨S1x1, .f32⟩
  | 2 => ⟨S1x128, .f32⟩
  | 3 => ⟨S128, .f32⟩
  | 4 => ⟨S1x128, .f32⟩
  | 5 => ⟨S1x128, .f32⟩
  | 6 => ⟨S128, .f32⟩
  | 7 => ⟨S1x128, .f32⟩
  | 8 => ⟨S1x128, .f32⟩
  | 9 => ⟨S128, .f32⟩
  | 10 => ⟨S1x128, .f32⟩
  | 11 => ⟨S1x128, .f32⟩
  | 12 => ⟨S128, .f32⟩
  | 13 => ⟨S1x128, .f32⟩
  | 14 => ⟨S1x128, .f32⟩
  | 15 => ⟨S128, .f32⟩
  | 16 => ⟨S1x128, .f32⟩
  | 17 => ⟨S1x128, .f32⟩
  | 18 => ⟨S128, .f32⟩
  | 19 => ⟨S1x128, .f32⟩
  | 20 => ⟨S1x128x128, .f32⟩
  | 21 => ⟨S128x128, .f32⟩
  | 22 => ⟨S40000x128, .f32⟩
  | 23 => ⟨S2x128, .f32⟩
  | 24 => ⟨S1x128x128, .f32⟩
  | 25 => ⟨S128x128, .f32⟩
  | 26 => ⟨S40000x128, .f32⟩
  | 27 => ⟨S2x128, .f32⟩
  | 28 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x1, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S2x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S2x128, .f32⟩
  | .local _ .vmem, ⟨15, _⟩ => ⟨S1x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S2x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S2x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x1, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S2x128, .f32⟩
  | .local _ .vmem, ⟨41, _⟩ => ⟨S1x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S2x128, .f32⟩
  | .local _ .vmem, ⟨46, _⟩ => ⟨S1x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S2x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S2x128, .f32⟩
  | .local _ .vmem, ⟨58, _⟩ => ⟨S1x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S1x1, .f32⟩
  | .local _ .vmem, ⟨67, _⟩ => ⟨S128x128, .f32⟩
  | .local _ .vmem, ⟨68, _⟩ => ⟨S1x128, .f32⟩
  | .local _ .vmem, ⟨69, _⟩ => ⟨S5000x128, .f32⟩
  | .local _ .vmem, ⟨70, _⟩ => ⟨S5000x128, .f32⟩
  | .local _ .vmem, ⟨71, _⟩ => ⟨S2x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S2x128, .f32⟩
  | .local _ .vmem, ⟨77, _⟩ => ⟨S1x128, .f32⟩
  | .local _ .vmem, ⟨78, _⟩ => ⟨S1x128, .f32⟩
  | .local _ .vmem, ⟨79, _⟩ => ⟨S128x128, .f32⟩
  | .local _ .vmem, ⟨80, _⟩ => ⟨S1x128, .f32⟩
  | .local _ .vmem, ⟨81, _⟩ => ⟨S5000x128, .f32⟩
  | .local _ .vmem, ⟨82, _⟩ => ⟨S5000x128, .f32⟩
  | .local _ .vmem, ⟨83, _⟩ => ⟨S2x128, .f32⟩
  | .local _ .vmem, ⟨84, _⟩ => ⟨S1x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S2x128, .f32⟩
  | .local _ .vmem, ⟨89, _⟩ => ⟨S1x128, .f32⟩
  | .local _ .vmem, ⟨90, _⟩ => ⟨S1x128, .f32⟩
  | .local _ .vmem, ⟨91, _⟩ => ⟨S5000x128, .f32⟩
  | .local _ .vmem, ⟨92, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev main_v41 : Ref sig .tc := ⟨.hbm, 60, rfl⟩
abbrev main_v42 : Ref sig .tc := ⟨.hbm, 61, rfl⟩
abbrev main_c_2 : Ref sig .tc := ⟨.hbm, 62, rfl⟩
abbrev main_v43 : Ref sig .tc := ⟨.hbm, 63, rfl⟩
abbrev main_v44 : Ref sig .tc := ⟨.hbm, 64, rfl⟩
abbrev main_c_3 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_4 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_5 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79_0 : Ref sig .tc := ⟨.hbm, 102, rfl⟩
abbrev main_v79_1 : Ref sig .tc := ⟨.hbm, 103, rfl⟩
abbrev main_v80 : Ref sig .tc := ⟨.hbm, 104, rfl⟩
abbrev main_v81 : Ref sig .tc := ⟨.hbm, 105, rfl⟩
abbrev main_v82_0 : Ref sig .tc := ⟨.hbm, 106, rfl⟩
abbrev main_v82_1 : Ref sig .tc := ⟨.hbm, 107, rfl⟩
abbrev main_v83 : Ref sig .tc := ⟨.hbm, 108, rfl⟩
abbrev main_v84 : Ref sig .tc := ⟨.hbm, 109, rfl⟩
abbrev main_c_6 : Ref sig .tc := ⟨.hbm, 110, rfl⟩
abbrev main_v85 : Ref sig .tc := ⟨.hbm, 111, rfl⟩
abbrev main_v86 : Ref sig .tc := ⟨.hbm, 112, rfl⟩
abbrev main_c_7 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_8 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_9 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121_0 : Ref sig .tc := ⟨.hbm, 150, rfl⟩
abbrev main_v121_1 : Ref sig .tc := ⟨.hbm, 151, rfl⟩
abbrev main_v122 : Ref sig .tc := ⟨.hbm, 152, rfl⟩
abbrev main_v123 : Ref sig .tc := ⟨.hbm, 153, rfl⟩
abbrev main_v124_0 : Ref sig .tc := ⟨.hbm, 154, rfl⟩
abbrev main_v124_1 : Ref sig .tc := ⟨.hbm, 155, rfl⟩
abbrev main_v125 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_scratch0 : Ref sig .tc := ⟨.vmem, 41, rfl⟩
abbrev cc3_scratch1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg6_1 : Ref sig .tc := ⟨.vmem, 51, rfl⟩
abbrev cc4_stg7_0 : Ref sig .tc := ⟨.vmem, 52, rfl⟩
abbrev cc4_scratch0 : Ref sig .tc := ⟨.vmem, 53, rfl⟩
abbrev cc4_scratch1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg4_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg5_1 : Ref sig .tc := ⟨.vmem, 70, rfl⟩
abbrev cc6_stg6_0 : Ref sig .tc := ⟨.vmem, 71, rfl⟩
abbrev cc6_scratch0 : Ref sig .tc := ⟨.vmem, 72, rfl⟩
abbrev cc6_scratch1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg4_0 : Ref sig .tc := ⟨.vmem, 79, rfl⟩
abbrev cc7_stg5_0 : Ref sig .tc := ⟨.vmem, 80, rfl⟩
abbrev cc7_stg6_0 : Ref sig .tc := ⟨.vmem, 81, rfl⟩
abbrev cc7_stg6_1 : Ref sig .tc := ⟨.vmem, 82, rfl⟩
abbrev cc7_stg7_0 : Ref sig .tc := ⟨.vmem, 83, rfl⟩
abbrev cc7_scratch0 : Ref sig .tc := ⟨.vmem, 84, rfl⟩
abbrev cc7_scratch1 : Ref sig .tc := ⟨.vmem, 85, rfl⟩
abbrev cc8_stg0_0 : Ref sig .tc := ⟨.vmem, 86, rfl⟩
abbrev cc8_stg0_1 : Ref sig .tc := ⟨.vmem, 87, rfl⟩
abbrev cc8_stg1_0 : Ref sig .tc := ⟨.vmem, 88, rfl⟩
abbrev cc8_stg2_0 : Ref sig .tc := ⟨.vmem, 89, rfl⟩
abbrev cc8_stg3_0 : Ref sig .tc := ⟨.vmem, 90, rfl⟩
abbrev cc8_stg4_0 : Ref sig .tc := ⟨.vmem, 91, rfl⟩
abbrev cc8_stg4_1 : Ref sig .tc := ⟨.vmem, 92, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem3_0 : DmaSem sig := 51
abbrev cc5_sem4_0 : DmaSem sig := 52
abbrev cc5_sem4_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc6_sem6_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem6_0 : DmaSem sig := 71
abbrev cc7_sem6_1 : DmaSem sig := 72
abbrev cc7_sem7_0 : DmaSem sig := 73
abbrev cc8_sem0_0 : DmaSem sig := 74
abbrev cc8_sem0_1 : DmaSem sig := 75
abbrev cc8_sem1_0 : DmaSem sig := 76
abbrev cc8_sem2_0 : DmaSem sig := 77
abbrev cc8_sem3_0 : DmaSem sig := 78
abbrev cc8_sem4_0 : DmaSem sig := 79
abbrev cc8_sem4_1 : DmaSem sig := 80

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_22 : BitVec 32 := 0#32
  let v36 : BitVec 1 := Scalar.cmpi .ne v35 c0_i32_22
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v51 : BitVec 1 := Scalar.cmpi .eq arg0 c7_i32
  let v52 : BitVec 32 := Scalar.extui v51
  let c0_i32_28 : BitVec 32 := 0#32
  let v53 : BitVec 1 := Scalar.cmpi .ne v52 c0_i32_28
  v53

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_22 : BitVec 32 := 0#32
  let v37 : BitVec 1 := Scalar.cmpi .ne v36 c0_i32_22
  v37

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S2x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v51 : BitVec 1 := Scalar.cmpi .eq arg0 c7_i32
  let v52 : BitVec 32 := Scalar.extui v51
  let c0_i32_28 : BitVec 32 := 0#32
  let v53 : BitVec 1 := Scalar.cmpi .ne v52 c0_i32_28
  v53

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S2x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![8], ![false]⟩

def k6_cond2 (i : grid6.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_22 : BitVec 32 := 0#32
  let v37 : BitVec 1 := Scalar.cmpi .ne v36 c0_i32_22
  v37

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S2x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![8], ![false]⟩

def k7_cond2 (i : grid7.Coords) : BitVec 1 :=
  let arg0 : BitVec 32 := BitVec.ofNat 32 (i 0).val
  let c7_i32 : BitVec 32 := 7#32
  let v51 : BitVec 1 := Scalar.cmpi .eq arg0 c7_i32
  let v52 : BitVec 32 := Scalar.extui v51
  let c0_i32_28 : BitVec 32 := 0#32
  let v53 : BitVec 1 := Scalar.cmpi .ne v52 c0_i32_28
  v53

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S2x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  slices_S3_S1_0 : S3.Slices ![0] S1
  shapeCasts_S1_S_ : S1.ShapeCasts S_
  shapeCasts_S_S1x1 : S_.ShapeCasts S1x1
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  broadcasts_S1x1_S5000x128 : S1x1.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S3_S1_1 : S3.Slices ![1] S1
  slices_S3x128_S1x128_1_0 : S3x128.Slices ![1, 0] S1x128
  slices_S3x128x128_S1x128x128_1_0_0 : S3x128x128.Slices ![1, 0, 0] S1x128x128
  slices_S3_S1_2 : S3.Slices ![2] S1
  slices_S3x128_S1x128_2_0 : S3x128.Slices ![2, 0] S1x128
  slices_S3x128x128_S1x128x128_2_0_0 : S3x128x128.Slices ![2, 0, 0] S1x128x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S40000x128.size a
  hwx1_6 : ∀ i : grid1.Coords, EltTy.bits .f32 = 32 ∨ (Rect.block (s := S40000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x128.size a ≤ S2x128.size a
  hwx1_7 : ∀ i : grid1.Coords, EltTy.bits .f32 = 32 ∨ (Rect.block (s := S2x128) S2x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128.size a ≤ S2x128.size a
  hwx2_1 : ∀ i : grid2.Coords, EltTy.bits .f32 = 32 ∨ (Rect.block (s := S2x128) S2x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S40000x128.size a
  hwx2_4 : ∀ i : grid2.Coords, EltTy.bits .f32 = 32 ∨ (Rect.block (s := S40000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S40000x128.size a
  hwx3_1 : ∀ i : grid3.Coords, EltTy.bits .f32 = 32 ∨ (Rect.block (s := S40000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S40000x128.size a
  hwx3_5 : ∀ i : grid3.Coords, EltTy.bits .f32 = 32 ∨ (Rect.block (s := S40000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2x128.size a ≤ S2x128.size a
  hwx3_6 : ∀ i : grid3.Coords, EltTy.bits .f32 = 32 ∨ (Rect.block (s := S2x128) S2x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x128.size a ≤ S2x128.size a
  hwx4_1 : ∀ i : grid4.Coords, EltTy.bits .f32 = 32 ∨ (Rect.block (s := S2x128) S2x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S40000x128.size a
  hwx4_6 : ∀ i : grid4.Coords, EltTy.bits .f32 = 32 ∨ (Rect.block (s := S40000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S2x128.size a ≤ S2x128.size a
  hwx4_7 : ∀ i : grid4.Coords, EltTy.bits .f32 = 32 ∨ (Rect.block (s := S2x128) S2x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S40000x128.size a
  hwx5_0 : ∀ i : grid5.Coords, EltTy.bits .f32 = 32 ∨ (Rect.block (s := S40000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2x128.size a ≤ S2x128.size a
  hwx5_1 : ∀ i : grid5.Coords, EltTy.bits .f32 = 32 ∨ (Rect.block (s := S2x128) S2x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S40000x128.size a
  hwx5_4 : ∀ i : grid5.Coords, EltTy.bits .f32 = 32 ∨ (Rect.block (s := S40000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S40000x128.size a
  hwx6_0 : ∀ i : grid6.Coords, EltTy.bits .f32 = 32 ∨ (Rect.block (s := S40000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S40000x128.size a
  hwx6_1 : ∀ i : grid6.Coords, EltTy.bits .f32 = 32 ∨ (Rect.block (s := S40000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S40000x128.size a
  hwx6_5 : ∀ i : grid6.Coords, EltTy.bits .f32 = 32 ∨ (Rect.block (s := S40000x128) S5000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S2x128.size a ≤ S2x128.size a
  hwx6_6 : ∀ i : grid6.Coords, EltTy.bits .f32 = 32 ∨ (Rect.block (s := S2x128) S2x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S40000x128.size a
  hwx7_0 : ∀ i : grid7.Coords, EltTy.bits .f32 = 32 ∨ (Rect.block (s := S40000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2x128.size a ≤ S2x128.size a
  hwx7_1 : ∀ i : grid7.Coords, EltTy.bits .f32 = 32 ∨ (Rect.block (s := S2x128) S2x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S40000x128.size a
  hwx7_6 : ∀ i : grid7.Coords, EltTy.bits .f32 = 32 ∨ (Rect.block (s := S40000x128) S5000x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S2x128.size a ≤ S2x128.size a
  hwx7_7 : ∀ i : grid7.Coords, EltTy.bits .f32 = 32 ∨ (Rect.block (s := S2x128) S2x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S40000x128.size a
  hwx8_0 : ∀ i : grid8.Coords, EltTy.bits .f32 = 32 ∨ (Rect.block (s := S40000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2x128.size a ≤ S2x128.size a
  hwx8_1 : ∀ i : grid8.Coords, EltTy.bits .f32 = 32 ∨ (Rect.block (s := S2x128) S2x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S40000x128.size a
  hwx8_4 : ∀ i : grid8.Coords, EltTy.bits .f32 = 32 ∨ (Rect.block (s := S40000x128) S5000x128.size (cc8_transform_4 i) (hinb8_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37_1) S2x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v37_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37_1) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v40_1) S2x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v40_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_1) S2x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v79_1) S2x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v79_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79_1) S2x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v82_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v82_1) S2x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun _ => false | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v82_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82_1) S2x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v83) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v100) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v120) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v121_0) S5000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v121_1) S2x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun _ => false | 6 => fun i => !(k6_cond2 i == 1#1) | ⟨_ + 7, h⟩ => absurd h (Nat.not_lt.2 (Nat.le_add_left _ _))

abbrev win7_0 : Pipeline.Window sig grid7 :=
  Pipeline.Window.ofSpec (Memref.whole main_v121_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v121_1) S2x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v109) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v123) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v112) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v124_0) S5000x128.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v124_1) S2x128.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev idle7 : Fin 8 → grid7.Coords → Bool := fun | 0 => fun _ => false | 1 => fun _ => false | 2 => fun _ => false | 3 => fun _ => false | 4 => fun _ => false | 5 => fun _ => false | 6 => fun _ => false | 7 => fun i => !(k7_cond2 i == 1#1) | ⟨_ + 8, h⟩ => absurd h (Nat.not_lt.2 (Nat.le_add_left _ _))

abbrev win8_0 : Pipeline.Window sig grid8 :=
  Pipeline.Window.ofSpec (Memref.whole main_v124_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v124_1) S2x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v115) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v118) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v125) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S40000x128 : Shape := ⟨2, ![40000, 128]⟩
abbrev S640000 : Shape := ⟨1, ![640000]⟩
abbrev S3 : Shape := ⟨1, ![3]⟩
abbrev S3x128x128 : Shape := ⟨3, ![3, 128, 128]⟩
abbrev S3x128 : Shape := ⟨2, ![3, 128]⟩
abbrev S640000x1 : Shape := ⟨2, ![640000, 1]⟩
abbrev S_ : Shape := ⟨0, ![]⟩
abbrev S640000x128 : Shape := ⟨2, ![640000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 445
  | .vmem => 0
  | .smem => 0
  | _ => 0

abbrev hbmTy0_0 (i : Nat) : BufTy := match i % 128 with
  | 0 => ⟨S40000x128, .f32⟩
  | 1 => ⟨S640000, .i32⟩
  | 2 => ⟨S640000, .i32⟩
  | 3 => ⟨S640000, .f32⟩
  | 4 => ⟨S3, .f32⟩
  | 5 => ⟨S3x128x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S3x128, .f32⟩
  | 12 => ⟨S3x128, .f32⟩
  | 13 => ⟨S640000x1, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x128, .f32⟩
  | 23 => ⟨S640000x128, .f32⟩
  | 24 => ⟨S640000x128, .f32⟩
  | 25 => ⟨S_, .f32⟩
  | 26 => ⟨S40000x128, .f32⟩
  | 27 => ⟨S640000x1, .i32⟩
  | 28 => ⟨S40000x128, .f32⟩
  | 29 => ⟨S1, .f32⟩
  | 30 => ⟨S_, .f32⟩
  | 31 => ⟨S_, .f32⟩
  | 32 => ⟨S_, .f32⟩
  | 33 => ⟨S40000x128, .f32⟩
  | 34 => ⟨S40000x128, .f32⟩
  | 35 => ⟨S40000x128, .f32⟩
  | 36 => ⟨S1x128x128, .f32⟩
  | 37 => ⟨S128x128, .f32⟩
  | 38 => ⟨S40000x128, .f32⟩
  | 39 => ⟨S1x128, .f32⟩
  | 40 => ⟨S128, .f32⟩
  | 41 => ⟨S1x128, .f32⟩
  | 42 => ⟨S40000x128, .f32⟩
  | 43 => ⟨S40000x128, .f32⟩
  | 44 => ⟨S1x128, .f32⟩
  | 45 => ⟨S128, .f32⟩
  | 46 => ⟨S1x128, .f32⟩
  | 47 => ⟨S128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S40000x128, .f32⟩
  | 61 => ⟨S40000x128, .f32⟩
  | 62 => ⟨S40000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S40000x128, .f32⟩
  | 78 => ⟨S40000x128, .f32⟩
  | 79 => ⟨S1x128, .f32⟩
  | 80 => ⟨S40000x128, .f32⟩
  | 81 => ⟨S40000x128, .f32⟩
  | 82 => ⟨S_, .f32⟩
  | 83 => ⟨S128, .f32⟩
  | 84 => ⟨S128, .f32⟩
  | 85 => ⟨S128, .f32⟩
  | 86 => ⟨S1x128, .f32⟩
  | 87 => ⟨S40000x128, .f32⟩
  | 88 => ⟨S40000x128, .f32⟩
  | 89 => ⟨S1x128, .f32⟩
  | 90 => ⟨S40000x128, .f32⟩
  | 91 => ⟨S40000x128, .f32⟩
  | 92 => ⟨S_, .f32⟩
  | 93 => ⟨S40000x128, .f32⟩
  | 94 => ⟨S40000x128, .f32⟩
  | 95 => ⟨S1x128x128, .f32⟩
  | 96 => ⟨S128x128, .f32⟩
  | 97 => ⟨S40000x128, .f32⟩
  | 98 => ⟨S1x128, .f32⟩
  | 99 => ⟨S128, .f32⟩
  | 100 => ⟨S1x128, .f32⟩
  | 101 => ⟨S40000x128, .f32⟩
  | 102 => ⟨S40000x128, .f32⟩
  | 103 => ⟨S_, .f32⟩
  | 104 => ⟨S40000x128, .f32⟩
  | 105 => ⟨S40000x128, .f32⟩
  | 106 => ⟨S1x128, .f32⟩
  | 107 => ⟨S128, .f32⟩
  | 108 => ⟨S1x128, .f32⟩
  | 109 => ⟨S128, .f32⟩
  | 110 => ⟨S_, .f32⟩
  | 111 => ⟨S128, .f32⟩
  | 112 => ⟨S_, .f32⟩
  | 113 => ⟨S128, .f32⟩
  | 114 => ⟨S128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S40000x128, .f32⟩
  | 123 => ⟨S40000x128, .f32⟩
  | 124 => ⟨S40000x128, .f32⟩
  | 125 => ⟨S_, .f32⟩
  | 126 => ⟨S_, .f32⟩
  | 127 => ⟨S_, .f32⟩
  | _ => ⟨S40000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S_, .i1⟩
  | 6 => ⟨S_, .f32⟩
  | 7 => ⟨S_, .f32⟩
  | 8 => ⟨S128, .f32⟩
  | 9 => ⟨S128, .f32⟩
  | 10 => ⟨S1x128, .f32⟩
  | 11 => ⟨S40000x128, .f32⟩
  | 12 => ⟨S40000x128, .f32⟩
  | 13 => ⟨S1x128, .f32⟩
  | 14 => ⟨S40000x128, .f32⟩
  | 15 => ⟨S40000x128, .f32⟩
  | 16 => ⟨S_, .f32⟩
  | 17 => ⟨S128, .f32⟩
  | 18 => ⟨S128, .f32⟩
  | 19 => ⟨S128, .f32⟩
  | 20 => ⟨S1x128, .f32⟩
  | 21 => ⟨S40000x128, .f32⟩
  | 22 => ⟨S40000x128, .f32⟩
  | 23 => ⟨S1x128, .f32⟩
  | 24 => ⟨S40000x128, .f32⟩
  | 25 => ⟨S40000x128, .f32⟩
  | 26 => ⟨S_, .f32⟩
  | 27 => ⟨S40000x128, .f32⟩
  | 28 => ⟨S40000x128, .f32⟩
  | 29 => ⟨S640000x1, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x128, .f32⟩
  | 39 => ⟨S640000x128, .f32⟩
  | 40 => ⟨S640000x128, .f32⟩
  | 41 => ⟨S_, .f32⟩
  | 42 => ⟨S40000x128, .f32⟩
  | 43 => ⟨S640000x1, .i32⟩
  | 44 => ⟨S40000x128, .f32⟩
  | 45 => ⟨S1, .f32⟩
  | 46 => ⟨S_, .f32⟩
  | 47 => ⟨S_, .f32⟩
  | 48 => ⟨S_, .f32⟩
  | 49 => ⟨S40000x128, .f32⟩
  | 50 => ⟨S40000x128, .f32⟩
  | 51 => ⟨S40000x128, .f32⟩
  | 52 => ⟨S1x128x128, .f32⟩
  | 53 => ⟨S128x128, .f32⟩
  | 54 => ⟨S40000x128, .f32⟩
  | 55 => ⟨S1x128, .f32⟩
  | 56 => ⟨S128, .f32⟩
  | 57 => ⟨S1x128, .f32⟩
  | 58 => ⟨S40000x128, .f32⟩
  | 59 => ⟨S40000x128, .f32⟩
  | 60 => ⟨S1x128, .f32⟩
  | 61 => ⟨S128, .f32⟩
  | 62 => ⟨S1x128, .f32⟩
  | 63 => ⟨S128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S40000x128, .f32⟩
  | 77 => ⟨S40000x128, .f32⟩
  | 78 => ⟨S40000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S40000x128, .f32⟩
  | 94 => ⟨S40000x128, .f32⟩
  | 95 => ⟨S1x128, .f32⟩
  | 96 => ⟨S40000x128, .f32⟩
  | 97 => ⟨S40000x128, .f32⟩
  | 98 => ⟨S_, .f32⟩
  | 99 => ⟨S128, .f32⟩
  | 100 => ⟨S128, .f32⟩
  | 101 => ⟨S128, .f32⟩
  | 102 => ⟨S1x128, .f32⟩
  | 103 => ⟨S40000x128, .f32⟩
  | 104 => ⟨S40000x128, .f32⟩
  | 105 => ⟨S1x128, .f32⟩
  | 106 => ⟨S40000x128, .f32⟩
  | 107 => ⟨S40000x128, .f32⟩
  | 108 => ⟨S_, .f32⟩
  | 109 => ⟨S40000x128, .f32⟩
  | 110 => ⟨S40000x128, .f32⟩
  | 111 => ⟨S1x128x128, .f32⟩
  | 112 => ⟨S128x128, .f32⟩
  | 113 => ⟨S40000x128, .f32⟩
  | 114 => ⟨S1x128, .f32⟩
  | 115 => ⟨S128, .f32⟩
  | 116 => ⟨S1x128, .f32⟩
  | 117 => ⟨S40000x128, .f32⟩
  | 118 => ⟨S40000x128, .f32⟩
  | 119 => ⟨S_, .f32⟩
  | 120 => ⟨S40000x128, .f32⟩
  | 121 => ⟨S40000x128, .f32⟩
  | 122 => ⟨S1x128, .f32⟩
  | 123 => ⟨S128, .f32⟩
  | 124 => ⟨S1x128, .f32⟩
  | 125 => ⟨S128, .f32⟩
  | 126 => ⟨S_, .f32⟩
  | 127 => ⟨S128, .f32⟩
  | _ => ⟨S40000x128, .f32⟩

abbrev hbmTy0_2 (i : Nat) : BufTy := match i % 128 with
  | 0 => ⟨S_, .f32⟩
  | 1 => ⟨S128, .f32⟩
  | 2 => ⟨S128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S40000x128, .f32⟩
  | 11 => ⟨S40000x128, .f32⟩
  | 12 => ⟨S40000x128, .f32⟩
  | 13 => ⟨S_, .f32⟩
  | 14 => ⟨S_, .f32⟩
  | 15 => ⟨S_, .f32⟩
  | 16 => ⟨S_, .f32⟩
  | 17 => ⟨S128, .f32⟩
  | 18 => ⟨S128, .f32⟩
  | 19 => ⟨S128, .f32⟩
  | 20 => ⟨S_, .f32⟩
  | 21 => ⟨S_, .i1⟩
  | 22 => ⟨S_, .f32⟩
  | 23 => ⟨S_, .f32⟩
  | 24 => ⟨S128, .f32⟩
  | 25 => ⟨S128, .f32⟩
  | 26 => ⟨S1x128, .f32⟩
  | 27 => ⟨S40000x128, .f32⟩
  | 28 => ⟨S40000x128, .f32⟩
  | 29 => ⟨S1x128, .f32⟩
  | 30 => ⟨S40000x128, .f32⟩
  | 31 => ⟨S40000x128, .f32⟩
  | 32 => ⟨S_, .f32⟩
  | 33 => ⟨S128, .f32⟩
  | 34 => ⟨S128, .f32⟩
  | 35 => ⟨S128, .f32⟩
  | 36 => ⟨S1x128, .f32⟩
  | 37 => ⟨S40000x128, .f32⟩
  | 38 => ⟨S40000x128, .f32⟩
  | 39 => ⟨S1x128, .f32⟩
  | 40 => ⟨S40000x128, .f32⟩
  | 41 => ⟨S40000x128, .f32⟩
  | 42 => ⟨S_, .f32⟩
  | 43 => ⟨S40000x128, .f32⟩
  | 44 => ⟨S40000x128, .f32⟩
  | 45 => ⟨S640000x1, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x128, .f32⟩
  | 55 => ⟨S640000x128, .f32⟩
  | 56 => ⟨S640000x128, .f32⟩
  | 57 => ⟨S_, .f32⟩
  | 58 => ⟨S40000x128, .f32⟩
  | 59 => ⟨S640000x1, .i32⟩
  | 60 => ⟨S40000x128, .f32⟩
  | 61 => ⟨S1, .f32⟩
  | 62 => ⟨S_, .f32⟩
  | 63 => ⟨S_, .f32⟩
  | 64 => ⟨S_, .f32⟩
  | 65 => ⟨S40000x128, .f32⟩
  | 66 => ⟨S40000x128, .f32⟩
  | 67 => ⟨S40000x128, .f32⟩
  | 68 => ⟨S1x128x128, .f32⟩
  | 69 => ⟨S128x128, .f32⟩
  | 70 => ⟨S40000x128, .f32⟩
  | 71 => ⟨S1x128, .f32⟩
  | 72 => ⟨S128, .f32⟩
  | 73 => ⟨S1x128, .f32⟩
  | 74 => ⟨S40000x128, .f32⟩
  | 75 => ⟨S40000x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S40000x128, .f32⟩
  | 93 => ⟨S40000x128, .f32⟩
  | 94 => ⟨S40000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S40000x128, .f32⟩
  | 110 => ⟨S40000x128, .f32⟩
  | 111 => ⟨S1x128, .f32⟩
  | 112 => ⟨S40000x128, .f32⟩
  | 113 => ⟨S40000x128, .f32⟩
  | 114 => ⟨S_, .f32⟩
  | 115 => ⟨S128, .f32⟩
  | 116 => ⟨S128, .f32⟩
  | 117 => ⟨S128, .f32⟩
  | 118 => ⟨S1x128, .f32⟩
  | 119 => ⟨S40000x128, .f32⟩
  | 120 => ⟨S40000x128, .f32⟩
  | 121 => ⟨S1x128, .f32⟩
  | 122 => ⟨S40000x128, .f32⟩
  | 123 => ⟨S40000x128, .f32⟩
  | 124 => ⟨S_, .f32⟩
  | 125 => ⟨S40000x128, .f32⟩
  | 126 => ⟨S40000x128, .f32⟩
  | 127 => ⟨S1x128x128, .f32⟩
  | _ => ⟨S40000x128, .f32⟩

abbrev hbmTy0_3 (i : Nat) : BufTy := match i % 128 with
  | 0 => ⟨S128x128, .f32⟩
  | 1 => ⟨S40000x128, .f32⟩
  | 2 => ⟨S1x128, .f32⟩
  | 3 => ⟨S128, .f32⟩
  | 4 => ⟨S1x128, .f32⟩
  | 5 => ⟨S40000x128, .f32⟩
  | 6 => ⟨S40000x128, .f32⟩
  | 7 => ⟨S_, .f32⟩
  | 8 => ⟨S40000x128, .f32⟩
  | 9 => ⟨S40000x128, .f32⟩
  | 10 => ⟨S1x128, .f32⟩
  | 11 => ⟨S128, .f32⟩
  | 12 => ⟨S1x128, .f32⟩
  | 13 => ⟨S128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S40000x128, .f32⟩
  | 27 => ⟨S40000x128, .f32⟩
  | 28 => ⟨S40000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S40000x128, .f32⟩
  | 44 => ⟨S40000x128, .f32⟩
  | 45 => ⟨S1x128, .f32⟩
  | 46 => ⟨S40000x128, .f32⟩
  | 47 => ⟨S40000x128, .f32⟩
  | 48 => ⟨S_, .f32⟩
  | 49 => ⟨S128, .f32⟩
  | 50 => ⟨S128, .f32⟩
  | 51 => ⟨S128, .f32⟩
  | 52 => ⟨S1x128, .f32⟩
  | 53 => ⟨S40000x128, .f32⟩
  | 54 => ⟨S40000x128, .f32⟩
  | 55 => ⟨S1x128, .f32⟩
  | 56 => ⟨S40000x128, .f32⟩
  | 57 => ⟨S40000x128, .f32⟩
  | 58 => ⟨S_, .f32⟩
  | 59 => ⟨S40000x128, .f32⟩
  | 60 => ⟨S40000x128, .f32⟩
  | _ => ⟨S40000x128, .f32⟩

abbrev hbmTy (i : Nat) : BufTy := match i / 128 with
  | 0 => hbmTy0_0 i
  | 1 => hbmTy0_1 i
  | 2 => hbmTy0_2 i
  | 3 => hbmTy0_3 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call1_cst : Ref sig .tc := ⟨.hbm, 92, rfl⟩
abbrev main_call1_v0 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call2_cst : Ref sig .tc := ⟨.hbm, 103, rfl⟩
abbrev main_call2_v0 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_6 : Ref sig .tc := ⟨.hbm, 110, rfl⟩
abbrev main_v64 : Ref sig .tc := ⟨.hbm, 111, rfl⟩
abbrev main_cst_7 : Ref sig .tc := ⟨.hbm, 112, rfl⟩
abbrev main_v65 : Ref sig .tc := ⟨.hbm, 113, rfl⟩
abbrev main_v66 : Ref sig .tc := ⟨.hbm, 114, rfl⟩
abbrev main_c_8 : Ref sig .tc := ⟨.hbm, 115, rfl⟩
abbrev main_call3_cst : Ref sig .tc := ⟨.hbm, 116, rfl⟩
abbrev main_call3_v0 : Ref sig .tc := ⟨.hbm, 117, rfl⟩
abbrev main_call3_v1 : Ref sig .tc := ⟨.hbm, 118, rfl⟩
abbrev main_call3_cst_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_v7 : Ref sig .tc := ⟨.hbm, 125, rfl⟩
abbrev main_call3_cst_1 : Ref sig .tc := ⟨.hbm, 126, rfl⟩
abbrev main_call3_v8 : Ref sig .tc := ⟨.hbm, 127, rfl⟩
abbrev main_call3_cst_2 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_cst_3 : Ref sig .tc := ⟨.hbm, 132, rfl⟩
abbrev main_call3_v12 : Ref sig .tc := ⟨.hbm, 133, rfl⟩
abbrev main_call3_cst_4 : Ref sig .tc := ⟨.hbm, 134, rfl⟩
abbrev main_call3_call0_v0 : Ref sig .tc := ⟨.hbm, 135, rfl⟩
abbrev main_call3_call0_v1 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_cst_9 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_call4_cst : Ref sig .tc := ⟨.hbm, 154, rfl⟩
abbrev main_call4_v0 : Ref sig .tc := ⟨.hbm, 155, rfl⟩
abbrev main_v83 : Ref sig .tc := ⟨.hbm, 156, rfl⟩
abbrev main_v84 : Ref sig .tc := ⟨.hbm, 157, rfl⟩
abbrev main_c_10 : Ref sig .tc := ⟨.hbm, 158, rfl⟩
abbrev main_v85 : Ref sig .tc := ⟨.hbm, 159, rfl⟩
abbrev main_v86 : Ref sig .tc := ⟨.hbm, 160, rfl⟩
abbrev main_c_11 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_12 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_13 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_cst_14 : Ref sig .tc := ⟨.hbm, 192, rfl⟩
abbrev main_v115 : Ref sig .tc := ⟨.hbm, 193, rfl⟩
abbrev main_cst_15 : Ref sig .tc := ⟨.hbm, 194, rfl⟩
abbrev main_v116 : Ref sig .tc := ⟨.hbm, 195, rfl⟩
abbrev main_v117 : Ref sig .tc := ⟨.hbm, 196, rfl⟩
abbrev main_c_16 : Ref sig .tc := ⟨.hbm, 197, rfl⟩
abbrev main_call5_cst : Ref sig .tc := ⟨.hbm, 198, rfl⟩
abbrev main_call5_v0 : Ref sig .tc := ⟨.hbm, 199, rfl⟩
abbrev main_call5_v1 : Ref sig .tc := ⟨.hbm, 200, rfl⟩
abbrev main_call5_cst_0 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_v6 : Ref sig .tc := ⟨.hbm, 206, rfl⟩
abbrev main_call5_v7 : Ref sig .tc := ⟨.hbm, 207, rfl⟩
abbrev main_call5_cst_1 : Ref sig .tc := ⟨.hbm, 208, rfl⟩
abbrev main_call5_v8 : Ref sig .tc := ⟨.hbm, 209, rfl⟩
abbrev main_call5_cst_2 : Ref sig .tc := ⟨.hbm, 210, rfl⟩
abbrev main_call5_v9 : Ref sig .tc := ⟨.hbm, 211, rfl⟩
abbrev main_call5_v10 : Ref sig .tc := ⟨.hbm, 212, rfl⟩
abbrev main_call5_v11 : Ref sig .tc := ⟨.hbm, 213, rfl⟩
abbrev main_call5_cst_3 : Ref sig .tc := ⟨.hbm, 214, rfl⟩
abbrev main_call5_v12 : Ref sig .tc := ⟨.hbm, 215, rfl⟩
abbrev main_call5_cst_4 : Ref sig .tc := ⟨.hbm, 216, rfl⟩
abbrev main_call5_call0_v0 : Ref sig .tc := ⟨.hbm, 217, rfl⟩
abbrev main_call5_call0_v1 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_cst_17 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_call6_cst : Ref sig .tc := ⟨.hbm, 236, rfl⟩
abbrev main_call6_v0 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_call7_cst : Ref sig .tc := ⟨.hbm, 247, rfl⟩
abbrev main_call7_v0 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_cst_18 : Ref sig .tc := ⟨.hbm, 254, rfl⟩
abbrev main_v148 : Ref sig .tc := ⟨.hbm, 255, rfl⟩
abbrev main_cst_19 : Ref sig .tc := ⟨.hbm, 256, rfl⟩
abbrev main_v149 : Ref sig .tc := ⟨.hbm, 257, rfl⟩
abbrev main_v150 : Ref sig .tc := ⟨.hbm, 258, rfl⟩
abbrev main_c_20 : Ref sig .tc := ⟨.hbm, 259, rfl⟩
abbrev main_call8_cst : Ref sig .tc := ⟨.hbm, 260, rfl⟩
abbrev main_call8_v0 : Ref sig .tc := ⟨.hbm, 261, rfl⟩
abbrev main_call8_v1 : Ref sig .tc := ⟨.hbm, 262, rfl⟩
abbrev main_call8_cst_0 : Ref sig .tc := ⟨.hbm, 263, rfl⟩
abbrev main_call8_v2 : Ref sig .tc := ⟨.hbm, 264, rfl⟩
abbrev main_call8_v3 : Ref sig .tc := ⟨.hbm, 265, rfl⟩
abbrev main_call8_v4 : Ref sig .tc := ⟨.hbm, 266, rfl⟩
abbrev main_call8_v5 : Ref sig .tc := ⟨.hbm, 267, rfl⟩
abbrev main_call8_v6 : Ref sig .tc := ⟨.hbm, 268, rfl⟩
abbrev main_call8_v7 : Ref sig .tc := ⟨.hbm, 269, rfl⟩
abbrev main_call8_cst_1 : Ref sig .tc := ⟨.hbm, 270, rfl⟩
abbrev main_call8_v8 : Ref sig .tc := ⟨.hbm, 271, rfl⟩
abbrev main_call8_cst_2 : Ref sig .tc := ⟨.hbm, 272, rfl⟩
abbrev main_call8_v9 : Ref sig .tc := ⟨.hbm, 273, rfl⟩
abbrev main_call8_v10 : Ref sig .tc := ⟨.hbm, 274, rfl⟩
abbrev main_call8_v11 : Ref sig .tc := ⟨.hbm, 275, rfl⟩
abbrev main_call8_cst_3 : Ref sig .tc := ⟨.hbm, 276, rfl⟩
abbrev main_call8_v12 : Ref sig .tc := ⟨.hbm, 277, rfl⟩
abbrev main_call8_cst_4 : Ref sig .tc := ⟨.hbm, 278, rfl⟩
abbrev main_call8_call0_v0 : Ref sig .tc := ⟨.hbm, 279, rfl⟩
abbrev main_call8_call0_v1 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_v155 : Ref sig .tc := ⟨.hbm, 285, rfl⟩
abbrev main_v156 : Ref sig .tc := ⟨.hbm, 286, rfl⟩
abbrev main_v157 : Ref sig .tc := ⟨.hbm, 287, rfl⟩
abbrev main_cst_21 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_v166 : Ref sig .tc := ⟨.hbm, 297, rfl⟩
abbrev main_call9_cst : Ref sig .tc := ⟨.hbm, 298, rfl⟩
abbrev main_call9_v0 : Ref sig .tc := ⟨.hbm, 299, rfl⟩
abbrev main_v167 : Ref sig .tc := ⟨.hbm, 300, rfl⟩
abbrev main_v168 : Ref sig .tc := ⟨.hbm, 301, rfl⟩
abbrev main_c_22 : Ref sig .tc := ⟨.hbm, 302, rfl⟩
abbrev main_v169 : Ref sig .tc := ⟨.hbm, 303, rfl⟩
abbrev main_v170 : Ref sig .tc := ⟨.hbm, 304, rfl⟩
abbrev main_c_23 : Ref sig .tc := ⟨.hbm, 305, rfl⟩
abbrev main_v171 : Ref sig .tc := ⟨.hbm, 306, rfl⟩
abbrev main_v172 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_cst_24 : Ref sig .tc := ⟨.hbm, 313, rfl⟩
abbrev main_v178 : Ref sig .tc := ⟨.hbm, 314, rfl⟩
abbrev main_v179 : Ref sig .tc := ⟨.hbm, 315, rfl⟩
abbrev main_v180 : Ref sig .tc := ⟨.hbm, 316, rfl⟩
abbrev main_v181 : Ref sig .tc := ⟨.hbm, 317, rfl⟩
abbrev main_v182 : Ref sig .tc := ⟨.hbm, 318, rfl⟩
abbrev main_cst_25 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_v186 : Ref sig .tc := ⟨.hbm, 323, rfl⟩
abbrev main_v187 : Ref sig .tc := ⟨.hbm, 324, rfl⟩
abbrev main_v188 : Ref sig .tc := ⟨.hbm, 325, rfl⟩
abbrev main_v189 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_v196 : Ref sig .tc := ⟨.hbm, 333, rfl⟩
abbrev main_v197 : Ref sig .tc := ⟨.hbm, 334, rfl⟩
abbrev main_v198 : Ref sig .tc := ⟨.hbm, 335, rfl⟩
abbrev main_cst_26 : Ref sig .tc := ⟨.hbm, 336, rfl⟩
abbrev main_v199 : Ref sig .tc := ⟨.hbm, 337, rfl⟩
abbrev main_cst_27 : Ref sig .tc := ⟨.hbm, 338, rfl⟩
abbrev main_v200 : Ref sig .tc := ⟨.hbm, 339, rfl⟩
abbrev main_v201 : Ref sig .tc := ⟨.hbm, 340, rfl⟩
abbrev main_c_28 : Ref sig .tc := ⟨.hbm, 341, rfl⟩
abbrev main_call10_cst : Ref sig .tc := ⟨.hbm, 342, rfl⟩
abbrev main_call10_v0 : Ref sig .tc := ⟨.hbm, 343, rfl⟩
abbrev main_call10_v1 : Ref sig .tc := ⟨.hbm, 344, rfl⟩
abbrev main_call10_cst_0 : Ref sig .tc := ⟨.hbm, 345, rfl⟩
abbrev main_call10_v2 : Ref sig .tc := ⟨.hbm, 346, rfl⟩
abbrev main_call10_v3 : Ref sig .tc := ⟨.hbm, 347, rfl⟩
abbrev main_call10_v4 : Ref sig .tc := ⟨.hbm, 348, rfl⟩
abbrev main_call10_v5 : Ref sig .tc := ⟨.hbm, 349, rfl⟩
abbrev main_call10_v6 : Ref sig .tc := ⟨.hbm, 350, rfl⟩
abbrev main_call10_v7 : Ref sig .tc := ⟨.hbm, 351, rfl⟩
abbrev main_call10_cst_1 : Ref sig .tc := ⟨.hbm, 352, rfl⟩
abbrev main_call10_v8 : Ref sig .tc := ⟨.hbm, 353, rfl⟩
abbrev main_call10_cst_2 : Ref sig .tc := ⟨.hbm, 354, rfl⟩
abbrev main_call10_v9 : Ref sig .tc := ⟨.hbm, 355, rfl⟩
abbrev main_call10_v10 : Ref sig .tc := ⟨.hbm, 356, rfl⟩
abbrev main_call10_v11 : Ref sig .tc := ⟨.hbm, 357, rfl⟩
abbrev main_call10_cst_3 : Ref sig .tc := ⟨.hbm, 358, rfl⟩
abbrev main_call10_v12 : Ref sig .tc := ⟨.hbm, 359, rfl⟩
abbrev main_call10_cst_4 : Ref sig .tc := ⟨.hbm, 360, rfl⟩
abbrev main_call10_call0_v0 : Ref sig .tc := ⟨.hbm, 361, rfl⟩
abbrev main_call10_call0_v1 : Ref sig .tc := ⟨.hbm, 362, rfl⟩
abbrev main_v202 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_cst_29 : Ref sig .tc := ⟨.hbm, 370, rfl⟩
abbrev main_v209 : Ref sig .tc := ⟨.hbm, 371, rfl⟩
abbrev main_v210 : Ref sig .tc := ⟨.hbm, 372, rfl⟩
abbrev main_v211 : Ref sig .tc := ⟨.hbm, 373, rfl⟩
abbrev main_v212 : Ref sig .tc := ⟨.hbm, 374, rfl⟩
abbrev main_v213 : Ref sig .tc := ⟨.hbm, 375, rfl⟩
abbrev main_v214 : Ref sig .tc := ⟨.hbm, 376, rfl⟩
abbrev main_v215 : Ref sig .tc := ⟨.hbm, 377, rfl⟩
abbrev main_v216 : Ref sig .tc := ⟨.hbm, 378, rfl⟩
abbrev main_v217 : Ref sig .tc := ⟨.hbm, 379, rfl⟩
abbrev main_call11_cst : Ref sig .tc := ⟨.hbm, 380, rfl⟩
abbrev main_call11_v0 : Ref sig .tc := ⟨.hbm, 381, rfl⟩
abbrev main_v218 : Ref sig .tc := ⟨.hbm, 382, rfl⟩
abbrev main_v219 : Ref sig .tc := ⟨.hbm, 383, rfl⟩
abbrev main_v220 : Ref sig .tc := ⟨.hbm, 384, rfl⟩
abbrev main_v221 : Ref sig .tc := ⟨.hbm, 385, rfl⟩
abbrev main_v222 : Ref sig .tc := ⟨.hbm, 386, rfl⟩
abbrev main_v223 : Ref sig .tc := ⟨.hbm, 387, rfl⟩
abbrev main_v224 : Ref sig .tc := ⟨.hbm, 388, rfl⟩
abbrev main_v225 : Ref sig .tc := ⟨.hbm, 389, rfl⟩
abbrev main_v226 : Ref sig .tc := ⟨.hbm, 390, rfl⟩
abbrev main_call12_cst : Ref sig .tc := ⟨.hbm, 391, rfl⟩
abbrev main_call12_v0 : Ref sig .tc := ⟨.hbm, 392, rfl⟩
abbrev main_v227 : Ref sig .tc := ⟨.hbm, 393, rfl⟩
abbrev main_v228 : Ref sig .tc := ⟨.hbm, 394, rfl⟩
abbrev main_v229 : Ref sig .tc := ⟨.hbm, 395, rfl⟩
abbrev main_v230 : Ref sig .tc := ⟨.hbm, 396, rfl⟩
abbrev main_v231 : Ref sig .tc := ⟨.hbm, 397, rfl⟩
abbrev main_cst_30 : Ref sig .tc := ⟨.hbm, 398, rfl⟩
abbrev main_v232 : Ref sig .tc := ⟨.hbm, 399, rfl⟩
abbrev main_cst_31 : Ref sig .tc := ⟨.hbm, 400, rfl⟩
abbrev main_v233 : Ref sig .tc := ⟨.hbm, 401, rfl⟩
abbrev main_v234 : Ref sig .tc := ⟨.hbm, 402, rfl⟩
abbrev main_c_32 : Ref sig .tc := ⟨.hbm, 403, rfl⟩
abbrev main_call13_cst : Ref sig .tc := ⟨.hbm, 404, rfl⟩
abbrev main_call13_v0 : Ref sig .tc := ⟨.hbm, 405, rfl⟩
abbrev main_call13_v1 : Ref sig .tc := ⟨.hbm, 406, rfl⟩
abbrev main_call13_cst_0 : Ref sig .tc := ⟨.hbm, 407, rfl⟩
abbrev main_call13_v2 : Ref sig .tc := ⟨.hbm, 408, rfl⟩
abbrev main_call13_v3 : Ref sig .tc := ⟨.hbm, 409, rfl⟩
abbrev main_call13_v4 : Ref sig .tc := ⟨.hbm, 410, rfl⟩
abbrev main_call13_v5 : Ref sig .tc := ⟨.hbm, 411, rfl⟩
abbrev main_call13_v6 : Ref sig .tc := ⟨.hbm, 412, rfl⟩
abbrev main_call13_v7 : Ref sig .tc := ⟨.hbm, 413, rfl⟩
abbrev main_call13_cst_1 : Ref sig .tc := ⟨.hbm, 414, rfl⟩
abbrev main_call13_v8 : Ref sig .tc := ⟨.hbm, 415, rfl⟩
abbrev main_call13_cst_2 : Ref sig .tc := ⟨.hbm, 416, rfl⟩
abbrev main_call13_v9 : Ref sig .tc := ⟨.hbm, 417, rfl⟩
abbrev main_call13_v10 : Ref sig .tc := ⟨.hbm, 418, rfl⟩
abbrev main_call13_v11 : Ref sig .tc := ⟨.hbm, 419, rfl⟩
abbrev main_call13_cst_3 : Ref sig .tc := ⟨.hbm, 420, rfl⟩
abbrev main_call13_v12 : Ref sig .tc := ⟨.hbm, 421, rfl⟩
abbrev main_call13_cst_4 : Ref sig .tc := ⟨.hbm, 422, rfl⟩
abbrev main_call13_call0_v0 : Ref sig .tc := ⟨.hbm, 423, rfl⟩
abbrev main_call13_call0_v1 : Ref sig .tc := ⟨.hbm, 424, rfl⟩
abbrev main_v235 : Ref sig .tc := ⟨.hbm, 425, rfl⟩
abbrev main_v236 : Ref sig .tc := ⟨.hbm, 426, rfl⟩
abbrev main_v237 : Ref sig .tc := ⟨.hbm, 427, rfl⟩
abbrev main_v238 : Ref sig .tc := ⟨.hbm, 428, rfl⟩
abbrev main_v239 : Ref sig .tc := ⟨.hbm, 429, rfl⟩
abbrev main_v240 : Ref sig .tc := ⟨.hbm, 430, rfl⟩
abbrev main_v241 : Ref sig .tc := ⟨.hbm, 431, rfl⟩
abbrev main_cst_33 : Ref sig .tc := ⟨.hbm, 432, rfl⟩
abbrev main_v242 : Ref sig .tc := ⟨.hbm, 433, rfl⟩
abbrev main_v243 : Ref sig .tc := ⟨.hbm, 434, rfl⟩
abbrev main_v244 : Ref sig .tc := ⟨.hbm, 435, rfl⟩
abbrev main_v245 : Ref sig .tc := ⟨.hbm, 436, rfl⟩
abbrev main_v246 : Ref sig .tc := ⟨.hbm, 437, rfl⟩
abbrev main_v247 : Ref sig .tc := ⟨.hbm, 438, rfl⟩
abbrev main_v248 : Ref sig .tc := ⟨.hbm, 439, rfl⟩
abbrev main_v249 : Ref sig .tc := ⟨.hbm, 440, rfl⟩
abbrev main_v250 : Ref sig .tc := ⟨.hbm, 441, rfl⟩
abbrev main_call14_cst : Ref sig .tc := ⟨.hbm, 442, rfl⟩
abbrev main_call14_v0 : Ref sig .tc := ⟨.hbm, 443, rfl⟩
abbrev main_v251 : Ref sig .tc := ⟨.hbm, 444, rfl⟩

abbrev nD : Nat := 1
abbrev τ : Topo := Topo.v7x

variable {F : FTy → Type} [FloatOps F]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Preserves.lean ====
/-
  The idealised kernel names one constant, twelve times: the single-precision word 0x37D1B717 printed for 1/40000 in the
  six statistics kernels (two uses each) is read as the rational 1/40000.
-/
import proofs.«110361_j29403346109051_2_alg».proof.Defs

noncomputable section

namespace Cert.Proof.Preserves

open Idealize.ShloMosaic

/-- One use of the named reciprocal of the node count. -/
theorem one : IdealRules.named_const.Statement Cert.KernelIdeal.κ "inv_40000" .f32 0x37D1B717#32 ((1 / 40000 : ℝ) : EReal) :=
  IdealRules.named_const.statement Cert.KernelIdeal.κ "inv_40000" .f32 0x37D1B717#32 ((1 / 40000 : ℝ) : EReal) rfl

/-- All twelve uses. -/
theorem preserves : Cert.preserves_Kernel_KernelIdeal :=
  ⟨one, one, one, one, one, one, one, one, one, one, one, one⟩

end Cert.Proof.Preserves

end
-- ==== Proof.KI.Base.lean ====
import proofs.«110361_j29403346109051_2_alg».proof.Proof.Gen.KernelIdeal.Launch

noncomputable section

namespace Cert.KernelIdeal.Hand

open Cert.KernelIdeal
open Idealize.ShloMosaic Idealize.ShloMosaic.TcCoe

/-- The contents of every TensorCore buffer on every core at the moment a region is entered. -/
abbrev EntryVal (F : FTy → Type) : Type :=
  (c : Dev nD) → (b : Ref sig .tc) → Buf (Elt F) ((c : Thread nD τ).loc b)

end Cert.KernelIdeal.Hand

end
-- ==== Proof.KI.Reg0.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The frame of kernel region 0: the affine map of the combined rows, block by block, with its column statistics

The kernel runs over 8 row blocks. At each point it stores the block's affine image and adds the block's column
sums and column sums of squares to two running sums it carries between the points in two scratch buffers, which it
resets at the first point; at the last point it stores the mean and the clamped variance computed from the two
running sums. The proof data names what the two scratch buffers hold before each point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions, from the grid coordinate -/

/-- The condition of the first `scf.if` (the grid coordinate is 0), as the kernel's scalar chain computes it. -/
abbrev condA0 (i : grid0.Coords) : Prop := (Scalar.cmpi .ne (Scalar.extui (Scalar.cmpi .eq (BitVec.ofNat 32 (i 0).val) 0#32)) 0#32) = 1#1
/-- The condition of the second `scf.if` (the grid coordinate is 7). -/
abbrev condB0 (i : grid0.Coords) : Prop := k0_cond2 i = 1#1

/-! ## The rectangles of the body's accesses and what a whole-buffer access reads and leaves -/

theorem zz0 : (![0, 0] : Fin 2 → Nat) = fun _ => 0 := by funext a; fin_cases a <;> rfl

abbrev rBlk0 : Rect S5000x128 := Rect.unit (s := S5000x128) ![0, 0] S5000x128.size inb_S5000x128_S5000x128_0_0
abbrev rRow0 : Rect S1x128 := Rect.unit (s := S1x128) ![0, 0] S1x128.size inb_S1x128_S1x128_0_0
abbrev rOne0 : Rect S1x1 := Rect.unit (s := S1x1) ![0, 0] S1x1.size inb_S1x1_S1x1_0_0
abbrev rWt0 : Rect S128x128 := Rect.unit (s := S128x128) ![0, 0] S128x128.size inb_S128x128_S128x128_0_0
abbrev rSt0_0 : Rect S2x128 := Rect.unit (s := S2x128) ![0, 0] S1x128.size inb_S2x128_S1x128_0_0
abbrev rSt0_1 : Rect S2x128 := Rect.unit (s := S2x128) ![1, 0] S1x128.size inb_S2x128_S1x128_1_0

/-- A load through the whole buffer reads its contents. -/
theorem ldBlk0 (X : Vec F S5000x128 .f32) : View.ld X rBlk0 = X := View.ld_unit_zero zz0 _ X
theorem ldRow0 (X : Vec F S1x128 .f32) : View.ld X rRow0 = X := View.ld_unit_zero zz0 _ X
theorem ldOne0 (X : Vec F S1x1 .f32) : View.ld X rOne0 = X := View.ld_unit_zero zz0 _ X
theorem ldWt0 (X : Vec F S128x128 .f32) : View.ld X rWt0 = X := View.ld_unit_zero zz0 _ X

/-! ## What the body leaves, from what it reads -/

/-- The output block: the affine map of the combined input rows. -/
def yOut0 (x0 x1 : Vec F S5000x128 .f32) (x2 : Vec F S1x1 .f32) (x3 : Vec F S128x128 .f32) (x4 : Vec F S1x128 .f32) : Vec F S5000x128 .f32 :=
  k0_pay6 (View.ld x2 rOne0) (View.ld x0 rBlk0) (View.ld x1 rBlk0) (View.ld x3 rWt0) (View.ld x4 rRow0)
/-- The running column sums after the block is added to `s`. -/
def sOut0 (x0 x1 : Vec F S5000x128 .f32) (x2 : Vec F S1x1 .f32) (x3 : Vec F S128x128 .f32) (x4 : Vec F S1x128 .f32) (s : Vec F S1x128 .f32) : Vec F S1x128 .f32 :=
  k0_pay7 (View.ld x2 rOne0) (View.ld x0 rBlk0) (View.ld x1 rBlk0) (View.ld x3 rWt0) (View.ld x4 rRow0) (View.ld s rRow0)
/-- The running column sums of squares after the block's squares are added to `q`. -/
def qOut0 (x0 x1 : Vec F S5000x128 .f32) (x2 : Vec F S1x1 .f32) (x3 : Vec F S128x128 .f32) (x4 : Vec F S1x128 .f32) (q : Vec F S1x128 .f32) : Vec F S1x128 .f32 :=
  k0_pay1 (k0_pay8 (View.ld x2 rOne0) (View.ld x0 rBlk0) (View.ld x1 rBlk0) (View.ld x3 rWt0) (View.ld x4 rRow0) (View.ld q rRow0))
/-- The statistics block from the two running sums: row 0 the mean, row 1 the clamped variance (the two row stores, last first). -/
def stOut0 (s q : Vec F S1x128 .f32) : Vec F S2x128 .f32 :=
  View.canon [⟨rSt0_1, k0_pay3 (View.ld s rRow0) (View.ld q rRow0)⟩, ⟨rSt0_0, k0_pay2 (View.ld s rRow0)⟩]

theorem yOut0_eq (x0 x1 : Vec F S5000x128 .f32) (x2 : Vec F S1x1 .f32) (x3 : Vec F S128x128 .f32) (x4 : Vec F S1x128 .f32) :
    yOut0 x0 x1 x2 x3 x4 = k0_pay6 x2 x0 x1 x3 x4 := by
  unfold yOut0; rw [ldOne0, ldBlk0, ldBlk0, ldWt0, ldRow0]
theorem sOut0_eq (x0 x1 : Vec F S5000x128 .f32) (x2 : Vec F S1x1 .f32) (x3 : Vec F S128x128 .f32) (x4 : Vec F S1x128 .f32) (s : Vec F S1x128 .f32) :
    sOut0 x0 x1 x2 x3 x4 s = k0_pay7 x2 x0 x1 x3 x4 s := by
  unfold sOut0; rw [ldOne0, ldBlk0, ldBlk0, ldWt0, ldRow0, ldRow0]
theorem qOut0_eq (x0 x1 : Vec F S5000x128 .f32) (x2 : Vec F S1x1 .f32) (x3 : Vec F S128x128 .f32) (x4 : Vec F S1x128 .f32) (q : Vec F S1x128 .f32) :
    qOut0 x0 x1 x2 x3 x4 q = k0_pay1 (k0_pay8 x2 x0 x1 x3 x4 q) := by
  unfold qOut0; rw [ldOne0, ldBlk0, ldBlk0, ldWt0, ldRow0, ldRow0]
theorem stOut0_eq (s q : Vec F S1x128 .f32) :
    stOut0 s q = View.canon [⟨rSt0_1, k0_pay3 s q⟩, ⟨rSt0_0, k0_pay2 s⟩] := by
  unfold stOut0; rw [ldRow0, ldRow0]

/-- The two row stores cover the statistics block. -/
theorem coverSt0 (p1 p0 : Vec F S1x128 .f32) (y : S2x128.Idx) :
    ∃ pc ∈ ([⟨rSt0_1, p1⟩, ⟨rSt0_0, p0⟩] : List (View.Piece (Elt F) S2x128 .f32)), y ∈ pc.1.set :=
  View.cover_of_tiled [⟨rSt0_1, p1⟩, ⟨rSt0_0, p0⟩] S1x128.size (by rfl) y

/-- One store through the whole buffer leaves its payload, whatever the buffer held. -/
theorem wrBlk0 {κ : Kind} {sp : Space} (v : View sig κ sp S5000x128 .f32) (f : v.ty.Contents (Elt F)) (w : Vec F S5000x128 .f32) :
    v.read (Elt F) (v.writes (Elt F) f [⟨rBlk0, w⟩]) = w :=
  (View.read_writes_eq_canon v f _ (View.cover_of_tiled [⟨rBlk0, w⟩] S5000x128.size (by rfl))).trans (View.canon_unit_zero zz0 _ w)
theorem wrRow0 {κ : Kind} {sp : Space} (v : View sig κ sp S1x128 .f32) (f : v.ty.Contents (Elt F)) (w : Vec F S1x128 .f32) :
    v.read (Elt F) (v.writes (Elt F) f [⟨rRow0, w⟩]) = w :=
  (View.read_writes_eq_canon v f _ (View.cover_of_tiled [⟨rRow0, w⟩] S1x128.size (by rfl))).trans (View.canon_unit_zero zz0 _ w)
/-- Two stores through the whole buffer leave the later payload. -/
theorem wrRowTwo0 {κ : Kind} {sp : Space} (v : View sig κ sp S1x128 .f32) (f : v.ty.Contents (Elt F)) (w w' : Vec F S1x128 .f32) :
    v.read (Elt F) (v.writes (Elt F) f [⟨rRow0, w⟩, ⟨rRow0, w'⟩]) = w :=
  (View.read_writes_eq_canon v f _ (fun y => by
    obtain ⟨p, hp, hy⟩ := View.cover_of_tiled [(⟨rRow0, w⟩ : View.Piece (Elt F) S1x128 .f32)] S1x128.size (by rfl) y
    exact ⟨p, List.mem_cons.mpr (Or.inl (List.mem_singleton.mp hp)), hy⟩)).trans (View.canon_cons_unit_zero zz0 _ w _)
/-- A load through the whole buffer after one store through it reads the payload. -/
theorem rcRow0 {κ : Kind} {sp : Space} (v : View sig κ sp S1x128 .f32) (w : Vec F S1x128 .f32) :
    v.readCov [(⟨rRow0, w⟩ : View.Piece (Elt F) S1x128 .f32)] rRow0.toLoadRect = View.ld w rRow0 :=
  (View.readCov_unit_zero v zz0 _ w).trans (ldRow0 w).symm

/-- A store through the whole buffer, LAST, leaves its payload whatever the earlier stores were. -/
theorem wrRowCons0 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow0, w⟩ :: L)) = w :=
  (View.read_writes_eq_canon v f _ (fun y => by
    obtain ⟨p, hp, hy⟩ := View.cover_of_tiled [(⟨rRow0, w⟩ : View.Piece (Elt F) S1x128 .f32)] S1x128.size (by rfl) y
    exact ⟨p, List.mem_cons.mpr (Or.inl (List.mem_singleton.mp hp)), hy⟩)).trans (View.canon_cons_unit_zero zz0 _ w L)

/-! ## The windows' blocks -/

/-- Window `w`'s block at point `t`, read off its array as the region finds it (`V`). -/
def iblk0 (V : EntryVal F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five input blocks at point `t`, at their literal vector types. -/
def xb0_0 (V : EntryVal F) (c : Dev nD) (t : Fin cfg0.N) : Vec F S5000x128 .f32 := iblk0 V c 0 t
def xb0_1 (V : EntryVal F) (c : Dev nD) (t : Fin cfg0.N) : Vec F S5000x128 .f32 := iblk0 V c 1 t
def xb0_2 (V : EntryVal F) (c : Dev nD) (t : Fin cfg0.N) : Vec F S1x1 .f32 := iblk0 V c 2 t
def xb0_3 (V : EntryVal F) (c : Dev nD) (t : Fin cfg0.N) : Vec F S128x128 .f32 := iblk0 V c 3 t
def xb0_4 (V : EntryVal F) (c : Dev nD) (t : Fin cfg0.N) : Vec F S1x128 .f32 := iblk0 V c 4 t

/-! ## The two running sums, point by point -/

/-- What the two scratch buffers hold BEFORE the accumulation at position `n`: zeros at the first point (the body
    resets them there), afterwards what the point before left. -/
def SQ0 (V : EntryVal F) (c : Dev nD) : ℕ → Vec F S1x128 .f32 × Vec F S1x128 .f32
  | 0 => (k0_pay4, k0_pay5)
  | n + 1 =>
    if h : n < cfg0.N then
      (sOut0 (xb0_0 V c ⟨n, h⟩) (xb0_1 V c ⟨n, h⟩) (xb0_2 V c ⟨n, h⟩) (xb0_3 V c ⟨n, h⟩) (xb0_4 V c ⟨n, h⟩) (SQ0 V c n).1,
       qOut0 (xb0_0 V c ⟨n, h⟩) (xb0_1 V c ⟨n, h⟩) (xb0_2 V c ⟨n, h⟩) (xb0_3 V c ⟨n, h⟩) (xb0_4 V c ⟨n, h⟩) (SQ0 V c n).2)
    else SQ0 V c n

theorem SQ0_zero (V : EntryVal F) (c : Dev nD) : SQ0 V c 0 = (k0_pay4, k0_pay5) := rfl

theorem SQ0_succ (V : EntryVal F) (c : Dev nD) (t : Fin cfg0.N) :
    SQ0 V c (t.val + 1) =
      (sOut0 (xb0_0 V c t) (xb0_1 V c t) (xb0_2 V c t) (xb0_3 V c t) (xb0_4 V c t) (SQ0 V c t.val).1,
       qOut0 (xb0_0 V c t) (xb0_1 V c t) (xb0_2 V c t) (xb0_3 V c t) (xb0_4 V c t) (SQ0 V c t.val).2) := by
  rw [SQ0, dif_pos t.isLt]

/-! ## The invariant -/

abbrev scr0_0 : Memref sig .tc .vmem S1x128 .f32 := Memref.whole cc0_scratch0
abbrev scr0_1 : Memref sig .tc .vmem S1x128 .f32 := Memref.whole cc0_scratch1

/-- The region invariant before position `n`: before the first point the generator register and the scoped rest
    (the two scratch buffers at anything); afterwards the two scratch buffers at the running sums and the scoped rest
    without them. -/
def Phi0 (V : EntryVal F) (c : Dev nD) : ℕ → sProp 𝕄
  | 0 => iprop((∃ r, prngReg c r) ∗ Pipeline.scopedRest (Ix := Unit) (Name := ℕ) (U := UR sig nD τ) (Lvl := ℕ) (Val := Elt F) spec0 c)
  | n + 1 => iprop((∃ r, prngReg c r)
      ∗ iprop(owns (c : Thread nD τ) scr0_0 fullShare (SQ0 V c (n + 1)).1 ∗ owns (c : Thread nD τ) scr0_1 fullShare (SQ0 V c (n + 1)).2)
      ∗ Pipeline.scopedRestBut (Ix := Unit) (Name := ℕ) (U := UR sig nD τ) (Lvl := ℕ) (Val := Elt F) spec0 c [cc0_scratch0, cc0_scratch1])

theorem Phi0_zero (V : EntryVal F) (c : Dev nD) :
    Phi0 V c 0 = iprop((∃ r, prngReg c r) ∗ Pipeline.scopedRest (Ix := Unit) (Name := ℕ) (U := UR sig nD τ) (Lvl := ℕ) (Val := Elt F) spec0 c) := rfl

theorem Phi0_succ (V : EntryVal F) (c : Dev nD) (n : ℕ) :
    Phi0 V c (n + 1) = iprop((∃ r, prngReg c r)
      ∗ iprop(owns (c : Thread nD τ) scr0_0 fullShare (SQ0 V c (n + 1)).1 ∗ owns (c : Thread nD τ) scr0_1 fullShare (SQ0 V c (n + 1)).2)
      ∗ Pipeline.scopedRestBut (Ix := Unit) (Name := ℕ) (U := UR sig nD τ) (Lvl := ℕ) (Val := Elt F) spec0 c [cc0_scratch0, cc0_scratch1]) := rfl

/-- The scoped rest with the two scratch operands as memrefs owned at some contents. -/
theorem scopedRest0_owns (c : Dev nD) :
    (Pipeline.scopedRest (Ix := Unit) (Name := ℕ) (U := UR sig nD τ) (Lvl := ℕ) (Val := Elt F) spec0 c : sProp 𝕄)
      = iprop(iprop((∃ d, owns (c : Thread nD τ) scr0_0 fullShare d) ∗ (∃ d, owns (c : Thread nD τ) scr0_1 fullShare d))
          ∗ Pipeline.scopedRestBut (Ix := Unit) (Name := ℕ) (U := UR sig nD τ) (Lvl := ℕ) (Val := Elt F) spec0 c [cc0_scratch0, cc0_scratch1]) := by
  rw [scopedRest0_split]; simp only [scr0_0, scr0_1, owns_whole]; try rfl

/-! ## The pipeline's proof data -/

/-- Region 0's proof data on core `c`, at the contents `V` the region is entered with: the arrays as the region
    finds them; after the body at point `t` each input's buffer at its block, the output block at the affine map of
    the input blocks, the statistics block at the statistics of the two running sums after the point; the invariant
    carries the two running sums; nothing owed; full shares. -/
def dat0 (V : EntryVal F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => yOut0 (xb0_0 V c t) (xb0_1 V c t) (xb0_2 V c t) (xb0_3 V c t) (xb0_4 V c t)
    | ⟨6, _⟩ => stOut0 (SQ0 V c (t.val + 1)).1 (SQ0 V c (t.val + 1)).2
  Φ t := Phi0 V c t.val
  q _ := fullShare
  owed _ := 0

theorem A_eq0 (V : EntryVal F) (c : Dev nD) (w : Fin cfg0.W) : (dat0 V c).A w = V c (Pipeline.arrRef spec0 w) := by
  dsimp only [dat0]

theorem q_eq0 (V : EntryVal F) (c : Dev nD) (w : Fin cfg0.W) : (dat0 V c).q w = fullShare := by
  dsimp only [dat0]

theorem owed_eq0 (V : EntryVal F) (c : Dev nD) (t : Fin (cfg0.N + 1)) : (dat0 V c).owed t = 0 := by
  dsimp only [dat0]

theorem Phi_eq0 (V : EntryVal F) (c : Dev nD) (t : Fin (cfg0.N + 1)) : (dat0 V c).Φ t = Phi0 V c t.val := by
  dsimp only [dat0]

/-- What the launch hands the region is the invariant before the first point. -/
theorem hin0 (V : EntryVal F) (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [Phi_eq0, Fin.val_zero, Phi0_zero]

/-- After the last point the invariant gives it back: the running sums' named contents are forgotten. -/
theorem hout0 (V : EntryVal F) (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [Phi_eq0, Fin.val_last, show cfg0.N = 7 + 1 from N_0, Phi0_succ, scopedRest0_owns]
  iintro ⟨Hg, ⟨HS0, HS1⟩, Hr⟩
  isplitl [Hg]; · iexact Hg
  isplitr [Hr]
  · isplitl [HS0]
    · iexists _; iexact HS0
    · iexists _; iexact HS1
  · iexact Hr

/-! ## The conditions and the schedule, decided over the grid -/

/-- The first condition holds at the first point only. -/
theorem hcondA0 : ∀ t : Fin cfg0.N, condA0 (grid0.coords t) ↔ t.val % 8 = 0 :=
  (by decide +kernel : ∀ t : Fin grid0.N, condA0 (grid0.coords t) ↔ t.val % 8 = 0)
/-- The second condition holds at the last point only. -/
theorem hcondB0 : ∀ t : Fin cfg0.N, condB0 (grid0.coords t) ↔ t.val % 8 = 7 :=
  (by decide +kernel : ∀ t : Fin grid0.N, condB0 (grid0.coords t) ↔ t.val % 8 = 7)

/-- Windows 0–5 are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the second condition fails the statistics window is idle and not written back; where it holds, live. -/
theorem idleAt0_6 : ∀ t : Fin cfg0.N, ¬condB0 (grid0.coords t) → cfg0.idle 6 (grid0.coords t) = true := by decide +kernel
theorem noFlush0_6 : ∀ t : Fin cfg0.N, ¬condB0 (grid0.coords t) → (cfg0.win 6).flush t = false := by decide +kernel
theorem liveAt0_6 : ∀ t : Fin cfg0.N, condB0 (grid0.coords t) → cfg0.idle 6 (grid0.coords t) = false := by decide +kernel

/-- What the body leaves, window by window. -/
theorem after0_0 (V : EntryVal F) (c : Dev nD) (t : Fin cfg0.N) : (dat0 V c).after 0 t = iblk0 V c 0 t := by dsimp only [dat0]
theorem after0_1 (V : EntryVal F) (c : Dev nD) (t : Fin cfg0.N) : (dat0 V c).after 1 t = iblk0 V c 1 t := by dsimp only [dat0]
theorem after0_2 (V : EntryVal F) (c : Dev nD) (t : Fin cfg0.N) : (dat0 V c).after 2 t = iblk0 V c 2 t := by dsimp only [dat0]
theorem after0_3 (V : EntryVal F) (c : Dev nD) (t : Fin cfg0.N) : (dat0 V c).after 3 t = iblk0 V c 3 t := by dsimp only [dat0]
theorem after0_4 (V : EntryVal F) (c : Dev nD) (t : Fin cfg0.N) : (dat0 V c).after 4 t = iblk0 V c 4 t := by dsimp only [dat0]
theorem after0_5 (V : EntryVal F) (c : Dev nD) (t : Fin cfg0.N) :
    (dat0 V c).after 5 t = yOut0 (xb0_0 V c t) (xb0_1 V c t) (xb0_2 V c t) (xb0_3 V c t) (xb0_4 V c t) := by dsimp only [dat0]
theorem after0_6 (V : EntryVal F) (c : Dev nD) (t : Fin cfg0.N) :
    (dat0 V c).after 6 t = stOut0 (SQ0 V c (t.val + 1)).1 (SQ0 V c (t.val + 1)).2 := by dsimp only [dat0]

/-- Each input's current staging buffer holds its block at every point, fetched there or not: an input window of a body
    that leaves its block in place, uncut and never idle. -/
theorem before0_0 (V : EntryVal F) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (V : EntryVal F) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (V : EntryVal F) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (V : EntryVal F) (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (V : EntryVal F) (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

theorem SQ0_succ_fst (V : EntryVal F) (c : Dev nD) (t : Fin cfg0.N) :
    (SQ0 V c (t.val + 1)).1 = sOut0 (xb0_0 V c t) (xb0_1 V c t) (xb0_2 V c t) (xb0_3 V c t) (xb0_4 V c t) (SQ0 V c t.val).1 := by
  rw [SQ0_succ]
theorem SQ0_succ_snd (V : EntryVal F) (c : Dev nD) (t : Fin cfg0.N) :
    (SQ0 V c (t.val + 1)).2 = qOut0 (xb0_0 V c t) (xb0_1 V c t) (xb0_2 V c t) (xb0_3 V c t) (xb0_4 V c t) (SQ0 V c t.val).2 := by
  rw [SQ0_succ]

theorem Phi0_pos (V : EntryVal F) (c : Dev nD) (n : ℕ) (hn : n ≠ 0) :
    Phi0 V c n = iprop((∃ r, prngReg c r)
      ∗ iprop(owns (c : Thread nD τ) scr0_0 fullShare (SQ0 V c n).1 ∗ owns (c : Thread nD τ) scr0_1 fullShare (SQ0 V c n).2)
      ∗ Pipeline.scopedRestBut (Ix := Unit) (Name := ℕ) (U := UR sig nD τ) (Lvl := ℕ) (Val := Elt F) spec0 c [cc0_scratch0, cc0_scratch1]) := by
  cases n with
  | zero => exact absurd rfl hn
  | succ n => rfl

/-! ## The body's triple, case by case -/

set_option maxHeartbeats 1000000 in
/-- The body at a middle point (neither condition holds): the block is computed and stored, the two running sums are
    advanced; the statistics block is not touched. -/
theorem runMid0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA0 i) (hc2 : ¬condB0 i)
    (x0 x1 : Vec F S5000x128 .f32) (x2 : Vec F S1x1 .f32) (x3 : Vec F S128x128 .f32) (x4 : Vec F S1x128 .f32) (x6 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut0 x0 x1 x2 x3 x4) ∗ owns (c : Thread nD τ) arg7 fullShare x6 ∗ owns (c : Thread nD τ) arg8 fullShare (sOut0 x0 x1 x2 x3 x4 s) ∗ owns (c : Thread nD τ) arg9 fullShare (qOut0 x0 x1 x2 x3 x4 q)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf0; subst hf1; subst hf2; subst hf3; subst hf4; subst hf6; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk0 _ _ _).trans ?_
    rfl
  isplitl [H6]; · iexists f6; isplitr; · ipureintro; rfl
                  iexact H6
  isplitl [H7]
  · iexists _; isplitr
    swap; · iexact H7
    ipureintro
    refine (wrRow0 _ _ _).trans ?_
    rfl
  · iexists _; isplitr
    swap; · iexact H8
    ipureintro
    refine (wrRow0 _ _ _).trans ?_
    rfl

set_option maxHeartbeats 1000000 in
/-- The body at the first point: the two running sums are reset to zero, whatever they held, then as at a middle point. -/
theorem runFirst0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : condA0 i) (hc2 : ¬condB0 i)
    (x0 x1 : Vec F S5000x128 .f32) (x2 : Vec F S1x1 .f32) (x3 : Vec F S128x128 .f32) (x4 : Vec F S1x128 .f32) (x6 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut0 x0 x1 x2 x3 x4) ∗ owns (c : Thread nD τ) arg7 fullShare x6 ∗ owns (c : Thread nD τ) arg8 fullShare (sOut0 x0 x1 x2 x3 x4 k0_pay4) ∗ owns (c : Thread nD τ) arg9 fullShare (qOut0 x0 x1 x2 x3 x4 k0_pay5)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  subst hf0; subst hf1; subst hf2; subst hf3; subst hf4; subst hf6
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk0 _ _ _).trans ?_
    rfl
  isplitl [H6]; · iexists f6; isplitr; · ipureintro; rfl
                  iexact H6
  isplitl [H7]
  · iexists _; isplitr
    swap; · iexact H7
    ipureintro
    refine (wrRowCons0 _ _ _ _).trans ?_
    sl_unfold_run_names
    first | rfl | (rw [rcRow0]; rfl)
  · iexists _; isplitr
    swap; · iexact H8
    ipureintro
    refine (wrRowCons0 _ _ _ _).trans ?_
    sl_unfold_run_names
    first | rfl | (rw [rcRow0]; rfl)

set_option maxHeartbeats 1000000 in
/-- The body at the last point: as at a middle point, then the statistics are computed from the two running sums and
    stored as the two rows of the statistics block, whatever it held. -/
theorem runLast0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA0 i) (hc2 : condB0 i)
    (x0 x1 : Vec F S5000x128 .f32) (x2 : Vec F S1x1 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut0 x0 x1 x2 x3 x4) ∗ owns (c : Thread nD τ) arg7 fullShare (stOut0 (sOut0 x0 x1 x2 x3 x4 s) (qOut0 x0 x1 x2 x3 x4 q)) ∗ owns (c : Thread nD τ) arg8 fullShare (sOut0 x0 x1 x2 x3 x4 s) ∗ owns (c : Thread nD τ) arg9 fullShare (qOut0 x0 x1 x2 x3 x4 q)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk0 _ _ _).trans ?_
    rfl
  isplitl [H6]
  · iexists _; isplitr
    swap; · iexact H6
    ipureintro
    refine (View.read_writes_eq_canon _ _ _ (coverSt0 _ _)).trans ?_
    sl_unfold_run_names
    first | rfl | (rw [rcRow0, rcRow0]; rfl)
  isplitl [H7]
  · iexists _; isplitr
    swap; · iexact H7
    ipureintro
    refine (wrRow0 _ _ _).trans ?_
    rfl
  · iexists _; isplitr
    swap; · iexact H8
    ipureintro
    refine (wrRow0 _ _ _).trans ?_
    rfl

/-! ## The body obligation, at a generic point -/

/-- What the body is called with at point `t` (the body obligation's precondition, the windows one by one), -/
def bodyPre0 (V : EntryVal F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (V : EntryVal F) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point: the inputs' memrefs hold their blocks; the closed forms of the two conditions say which case
    the point is in; the invariant hands the body the two running sums at what the point before left (at anything at the
    first point) and takes them back advanced; the statistics window is handed back as found where it is idle, and at
    the statistics of the two running sums at the last point; the core owes nothing throughout. -/
theorem sound_body0 (V : EntryVal F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [Phi_eq0 V c t.succ, Phi_eq0 V c t.castSucc, Fin.val_succ, Fin.val_castSucc, Phi0_succ, SQ0_succ_fst, SQ0_succ_snd]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  have hN : t.val < 8 := lt_of_lt_of_eq t.isLt (show cfg0.N = 8 from N_0)
  by_cases h0 : t.val % 8 = 0
  · have hA : condA0 (grid0.coords t) := (hcondA0 t).mpr h0
    have hB : ¬condB0 (grid0.coords t) := fun h => by have := (hcondB0 t).mp h; omega
    have hz : t.val = 0 := by omega
    rw [Dat.leavesExact_idle (dat0 V c) 6 t (idleAt0_6 t hB) (noFlush0_6 t hB)]
    rw [hz, Phi0_zero, SQ0_zero, scopedRest0_owns]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (runFirst0 c Set.univ (grid0.coords t) _ _ _ _ _ _ _ _ _ _ _ _ _ _ _ _ _ _ hA hB (xb0_0 V c t) (xb0_1 V c t) (xb0_2 V c t) (xb0_3 V c t) (xb0_4 V c t) ((dat0 V c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, H5, H6, HS0, HS1⟩
    isplitl [Hg HS0 HS1 Hr]
    · isplitl [Hg]; · iexact Hg
      isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hA : ¬condA0 (grid0.coords t) := fun h => h0 ((hcondA0 t).mp h)
    have hz : t.val ≠ 0 := fun h => h0 (by rw [h])
    rw [Phi0_pos V c t.val hz]
    by_cases h7 : t.val % 8 = 7
    · have hB : condB0 (grid0.coords t) := (hcondB0 t).mpr h7
      rw [show (dat0 V c).leavesExact 6 t = owns (c : Thread nD τ) (st0_6 t) fullShare ((dat0 V c).after 6 t) from by
        unfold Dat.leavesExact; rw [liveAt0_6 t hB], after0_6, SQ0_succ_fst, SQ0_succ_snd]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runLast0 c Set.univ (grid0.coords t) _ _ _ _ _ _ _ _ _ _ _ _ _ _ _ _ _ _ hA hB (xb0_0 V c t) (xb0_1 V c t) (xb0_2 V c t) (xb0_3 V c t) (xb0_4 V c t) (SQ0 V c t.val).1 (SQ0 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hB : ¬condB0 (grid0.coords t) := fun h => h7 ((hcondB0 t).mp h)
      rw [Dat.leavesExact_idle (dat0 V c) 6 t (idleAt0_6 t hB) (noFlush0_6 t hB)]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runMid0 c Set.univ (grid0.coords t) _ _ _ _ _ _ _ _ _ _ _ _ _ _ _ _ _ _ hA hB (xb0_0 V c t) (xb0_1 V c t) (xb0_2 V c t) (xb0_3 V c t) (xb0_4 V c t) ((dat0 V c).before 6 t d6) (SQ0 V c t.val).1 (SQ0 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (V : EntryVal F) (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: the second kernel of a layer (normalise, relu, linear, relu, column statistics) -/

/-! ## The windows' blocks -/

/-- Window `w`'s block at point `t`, read off its array as the region finds it (`V`). -/
def iblk1 (V : EntryVal F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev rA1 : Rect S5000x128 := Rect.unit (s := S5000x128) ![0, 0] S5000x128.size inb_S5000x128_S5000x128_0_0
abbrev rR1 : Rect S1x128 := Rect.unit (s := S1x128) ![0, 0] S1x128.size inb_S1x128_S1x128_0_0
abbrev rW1 : Rect S128x128 := Rect.unit (s := S128x128) ![0, 0] S128x128.size inb_S128x128_S128x128_0_0
abbrev rS1_0 : Rect S2x128 := Rect.unit (s := S2x128) ![0, 0] S1x128.size inb_S2x128_S1x128_0_0
abbrev rS1_1 : Rect S2x128 := Rect.unit (s := S2x128) ![1, 0] S1x128.size inb_S2x128_S1x128_1_0

/-- The scratch operands: whole scoped buffers of the kernel's own, passed beside the windows. -/
abbrev scM1_0 : Memref sig .tc .vmem S1x128 .f32 := Memref.whole cc1_scratch0
abbrev scM1_1 : Memref sig .tc .vmem S1x128 .f32 := Memref.whole cc1_scratch1

/-! ## What the body computes -/

/-- The block of the output the body stores at a point, from the input windows' blocks. -/
def blk1 (x0 : Vec F S5000x128 .f32) (x1 : Vec F S2x128 .f32) (x2 x3 : Vec F S1x128 .f32) (x4 : Vec F S128x128 .f32) (x5 : Vec F S1x128 .f32) : FVec F S5000x128 .f32 :=
  k1_pay7 (View.ld x1 rS1_0) (View.ld x1 rS1_1) (View.ld x2 rR1) (View.ld x0 rA1) (View.ld x3 rR1) (View.ld x4 rW1) (View.ld x5 rR1)

/-- The running column sums after a point, from the block stored there and what they were before. -/
def sumStep1 (y : FVec F S5000x128 .f32) (s : Vec F S1x128 .f32) : Vec F S1x128 .f32 :=
  View.canon [⟨rR1, k1_pay1 y (View.ld s rR1)⟩]

/-- The running column sums of squares after a point. -/
def sqStep1 (y : FVec F S5000x128 .f32) (s : Vec F S1x128 .f32) : Vec F S1x128 .f32 :=
  View.canon [⟨rR1, k1_pay2 y (View.ld s rR1)⟩]

/-- What the first point resets the two accumulators to. -/
def sum0_1 : Vec F S1x128 .f32 := View.canon [⟨rR1, k1_pay5 (F := F)⟩]
def sq0_1 : Vec F S1x128 .f32 := View.canon [⟨rR1, k1_pay6 (F := F)⟩]

/-- The statistics the last point stores, from the two accumulators: row 0 then row 1. -/
def stats1 (s q : Vec F S1x128 .f32) : Vec F S2x128 .f32 :=
  View.canon [⟨rS1_1, k1_pay4 (View.ld s rR1) (View.ld q rR1)⟩, ⟨rS1_0, k1_pay3 (View.ld s rR1)⟩]

/-- The block stored at point `t`, from the arrays as the region finds them. -/
def tblk1 (V : EntryVal F) (c : Dev nD) (t : Fin cfg1.N) : FVec F S5000x128 .f32 :=
  blk1 (iblk1 V c 0 t) (iblk1 V c 1 t) (iblk1 V c 2 t) (iblk1 V c 3 t) (iblk1 V c 4 t) (iblk1 V c 5 t)

/-- The two accumulators after the body at position `n`: reset at the first point, then each point's block added. -/
def acc1 (V : EntryVal F) (c : Dev nD) : (n : ℕ) → n < cfg1.N → Vec F S1x128 .f32 × Vec F S1x128 .f32
  | 0, hn => (sumStep1 (tblk1 V c ⟨0, hn⟩) sum0_1, sqStep1 (tblk1 V c ⟨0, hn⟩) sq0_1)
  | n + 1, hn => (sumStep1 (tblk1 V c ⟨n + 1, hn⟩) (acc1 V c n (Nat.lt_of_succ_lt hn)).1,
      sqStep1 (tblk1 V c ⟨n + 1, hn⟩) (acc1 V c n (Nat.lt_of_succ_lt hn)).2)

/-! ## The region invariant -/

/-- Before the first point: the generator register at some state and the scoped rest, as the launch hands them;
    afterwards the two accumulators at what the point before left, the remainder of the scoped rest unopened. -/
def Phi1 (V : EntryVal F) (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r)
      ∗ iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1])

theorem Phi1_zero (V : EntryVal F) (c : Dev nD) (n : ℕ) (h : n ≤ cfg1.N) (hz : n = 0) :
    Phi1 V c n h = iprop((∃ r, prngReg c r) ∗ Pipeline.scopedRest (Ix := Unit) (Name := ℕ) (U := UR sig nD τ) (Lvl := ℕ) (Val := Elt F) spec1 c) := by
  subst hz; rfl

theorem Phi1_succ (V : EntryVal F) (c : Dev nD) (n : ℕ) (hn : n < cfg1.N) :
    Phi1 V c (n + 1) hn = iprop((∃ r, prngReg c r)
      ∗ iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) := rfl

theorem Phi1_pos (V : EntryVal F) (c : Dev nD) (n : ℕ) (h : n ≤ cfg1.N) (hz : n ≠ 0) :
    Phi1 V c n h = iprop((∃ r, prngReg c r)
      ∗ iprop(owns (c : Thread nD τ) scM1_0 fullShare (acc1 V c (n - 1) (by omega)).1 ∗ owns (c : Thread nD τ) scM1_1 fullShare (acc1 V c (n - 1) (by omega)).2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-! ## The pipeline's proof data -/

/-- Region 1's proof data on core `c`, at the contents `V` the region is entered with. -/
def dat1 (V : EntryVal F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => View.canon [⟨rA1, tblk1 V c t⟩]
    | ⟨7, _⟩ => stats1 (acc1 V c t.val t.isLt).1 (acc1 V c t.val t.isLt).2
  Φ t := Phi1 V c t.val (Nat.le_of_lt_succ t.isLt)
  q _ := fullShare
  owed _ := 0

theorem A_eq1 (V : EntryVal F) (c : Dev nD) (w : Fin cfg1.W) : (dat1 V c).A w = V c (Pipeline.arrRef spec1 w) := by
  dsimp only [dat1]

theorem q_eq1 (V : EntryVal F) (c : Dev nD) (w : Fin cfg1.W) : (dat1 V c).q w = fullShare := by
  dsimp only [dat1]

theorem owed_eq1 (V : EntryVal F) (c : Dev nD) (t : Fin (cfg1.N + 1)) : (dat1 V c).owed t = 0 := by
  dsimp only [dat1]

theorem hin1 (V : EntryVal F) (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = Phi1 V c 0 (Nat.zero_le _) from rfl, Phi1_zero V c 0 _ rfl]
  try exact Idealize.SL.BI.Entails.refl _

/-- After any point the invariant gives the launch's form back: the accumulators' named contents are forgotten. -/
theorem Phi1_out (V : EntryVal F) (c : Dev nD) (t : Fin (cfg1.N + 1)) (ht : t.val ≠ 0) :
    ((dat1 V c).Φ t : sProp 𝕄)
      ⊢ iprop((∃ r, prngReg c r) ∗ Pipeline.scopedRest (Ix := Unit) (Name := ℕ) (U := UR sig nD τ) (Lvl := ℕ) (Val := Elt F) spec1 c) := by
  rw [show (dat1 V c).Φ t = Phi1 V c t.val (Nat.le_of_lt_succ t.isLt) from rfl, Phi1_pos V c _ _ ht, scopedRest1_split]
  simp only [scM1_0, scM1_1, owns_whole]
  iintro ⟨Hg, ⟨HS0, HS1⟩, Hr⟩
  isplitl [Hg]; · iexact Hg
  isplitl [HS0 HS1]
  · isplitl [HS0]
    · iexists _; iexact HS0
    · iexists _; iexact HS1
  iexact Hr

theorem hout1 (V : EntryVal F) (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) :=
  Phi1_out V c _ (by rw [Fin.val_last]; have : cfg1.N = 8 := N_1; omega)

/-! ## The body's branch conditions -/

/-- The condition of the body's first `scf.if` (the accumulators are reset), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (the statistics are stored). -/
abbrev cond1_1 (i : grid1.Coords) : Prop := k1_cond2 i = 1#1
/-- It holds at the last point only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Where the statistics are not stored the statistics window is idle and not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The body's stores cover their buffers -/

theorem cover1_A (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

theorem cover1_R (p0 : Vec F S1x128 .f32) (y : S1x128.Idx) :
    ∃ pc ∈ ([⟨rR1, p0⟩] : List (View.Piece (Elt F) S1x128 .f32)), y ∈ pc.1.set :=
  View.cover_of_tiled [⟨rR1, p0⟩] S1x128.size (by rfl) y

theorem cover1_R2 (p0 p1 : Vec F S1x128 .f32) (y : S1x128.Idx) :
    ∃ pc ∈ ([⟨rR1, p0⟩, ⟨rR1, p1⟩] : List (View.Piece (Elt F) S1x128 .f32)), y ∈ pc.1.set :=
  View.cover_of_tiled [⟨rR1, p0⟩, ⟨rR1, p1⟩] S1x128.size (by rfl) y

theorem cover1_S (p0 p1 : Vec F S1x128 .f32) (y : S2x128.Idx) :
    ∃ pc ∈ ([⟨rS1_1, p1⟩, ⟨rS1_0, p0⟩] : List (View.Piece (Elt F) S2x128 .f32)), y ∈ pc.1.set :=
  View.cover_of_tiled [⟨rS1_1, p1⟩, ⟨rS1_0, p0⟩] S1x128.size (by rfl) y

/-- A whole-buffer store shadows whatever was stored before it. -/
theorem canon1_R_cons (p : Vec F S1x128 .f32) (L : List (View.Piece (Elt F) S1x128 .f32)) :
    View.canon (⟨rR1, p⟩ :: L) = View.canon [⟨rR1, p⟩] := by
  funext y
  obtain ⟨pc, hpc, hy⟩ := cover1_R p y
  simp only [List.mem_cons, List.not_mem_nil, or_false] at hpc
  subst hpc
  obtain ⟨x, rfl⟩ : ∃ x, (rR1).emb x = y := (rR1).exists_idx_of_mem hy
  rw [View.canon_cons_emb, View.canon_cons_emb]

/-- A load of an accumulator after a whole-buffer store into it reads what the store leaves. -/
theorem readCov1_R (v : View sig .tc .vmem S1x128 .f32) (p : Vec F S1x128 .f32) :
    v.readCov [⟨rR1, p⟩] (rR1).toLoadRect = View.ld (View.canon [⟨rR1, p⟩]) rR1 :=
  View.readCov_eq_canon_ld v _ rR1 (cover1_R p)

/-- The first point's accumulators, with the load that follows the reset spelt as the run finds it. -/
theorem sumStep1_first (v : View sig .tc .vmem S1x128 .f32) (y : FVec F S5000x128 .f32) :
    sumStep1 y (sum0_1 (F := F)) = View.canon [⟨rR1, k1_pay1 y (v.readCov [⟨rR1, k1_pay5 (F := F)⟩] (rR1).toLoadRect)⟩] := by
  unfold sumStep1 sum0_1; rw [readCov1_R]

theorem sqStep1_first (v : View sig .tc .vmem S1x128 .f32) (y : FVec F S5000x128 .f32) :
    sqStep1 y (sq0_1 (F := F)) = View.canon [⟨rR1, k1_pay2 y (v.readCov [⟨rR1, k1_pay6 (F := F)⟩] (rR1).toLoadRect)⟩] := by
  unfold sqStep1 sq0_1; rw [readCov1_R]

/-- The statistics, with the loads of the two accumulators after their last stores spelt as the run finds them. -/
theorem stats1_eq (v9 v10 : View sig .tc .vmem S1x128 .f32) (y : FVec F S5000x128 .f32) (s q : Vec F S1x128 .f32) :
    stats1 (sumStep1 y s) (sqStep1 y q)
      = View.canon [⟨rS1_1, k1_pay4 (v9.readCov [⟨rR1, k1_pay1 y (View.ld s rR1)⟩] (rR1).toLoadRect) (v10.readCov [⟨rR1, k1_pay2 y (View.ld q rR1)⟩] (rR1).toLoadRect)⟩,
          ⟨rS1_0, k1_pay3 (v9.readCov [⟨rR1, k1_pay1 y (View.ld s rR1)⟩] (rR1).toLoadRect)⟩] := by
  unfold stats1 sumStep1 sqStep1; rw [readCov1_R, readCov1_R]

set_option maxHeartbeats 1000000 in
/-- The body at the first point: both accumulators are reset, then the block is stored and added; the statistics
    window is handed back untouched. -/
theorem run1_first (c : Dev nD) (E : Set ℕ) (i : grid1.Coords) (hc0 : cond1_0 i) (hc1 : ¬cond1_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA1, blk1 x0 x1 x2 x3 x4 x5⟩]) ∗ owns (c : Thread nD τ) arg8 fullShare xi7
            ∗ owns (c : Thread nD τ) arg9 fullShare (sumStep1 (blk1 x0 x1 x2 x3 x4 x5) sum0_1) ∗ owns (c : Thread nD τ) arg10 fullShare (sqStep1 (blk1 x0 x1 x2 x3 x4 x5) sq0_1)) -∗ K ⟨⟩))
      ⊢ wp frame (wpE (defs₀ (F := F)) Variants.none c none) E (cc1__bn_relu_linear_stats_kernel i arg1 harg1 arg2 harg2 arg3 harg3 arg4 harg4 arg5 harg5 arg6 harg6 arg7 harg7 arg8 harg8 arg9 harg9 arg10 harg10) K := by
  simp only [cc1__bn_relu_linear_stats_kernel_eq_skeleton]; unfold cc1__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_A _)).trans ?_
    sl_unfold_run_names
    rfl
  isplitl [H7]
  · iexists f7; isplitr; · ipureintro; rfl
    iexact H7
  isplitl [H8]
  · iexists _; isplitr
    swap; · iexact H8
    ipureintro
    sl_unfold_run_names
    refine (View.read_writes_eq_canon _ _ _ (cover1_R2 _ _)).trans ?_
    refine (canon1_R_cons _ _).trans ?_
    refine Eq.trans ?_ (sumStep1_first arg9.view _).symm
    rfl
  · iexists _; isplitr
    swap; · iexact H9
    ipureintro
    sl_unfold_run_names
    refine (View.read_writes_eq_canon _ _ _ (cover1_R2 _ _)).trans ?_
    refine (canon1_R_cons _ _).trans ?_
    refine Eq.trans ?_ (sqStep1_first arg10.view _).symm
    rfl

set_option maxHeartbeats 1000000 in
/-- The body at a point that is neither the first nor the last: the block is stored, the accumulators grow, the
    statistics window is handed back untouched. -/
theorem run1_mid (c : Dev nD) (E : Set ℕ) (i : grid1.Coords) (hc0 : ¬cond1_0 i) (hc1 : ¬cond1_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA1, blk1 x0 x1 x2 x3 x4 x5⟩]) ∗ owns (c : Thread nD τ) arg8 fullShare xi7
            ∗ owns (c : Thread nD τ) arg9 fullShare (sumStep1 (blk1 x0 x1 x2 x3 x4 x5) s) ∗ owns (c : Thread nD τ) arg10 fullShare (sqStep1 (blk1 x0 x1 x2 x3 x4 x5) q)) -∗ K ⟨⟩))
      ⊢ wp frame (wpE (defs₀ (F := F)) Variants.none c none) E (cc1__bn_relu_linear_stats_kernel i arg1 harg1 arg2 harg2 arg3 harg3 arg4 harg4 arg5 harg5 arg6 harg6 arg7 harg7 arg8 harg8 arg9 harg9 arg10 harg10) K := by
  simp only [cc1__bn_relu_linear_stats_kernel_eq_skeleton]; unfold cc1__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_A _)).trans ?_
    sl_unfold_run_names
    rfl
  isplitl [H7]
  · iexists f7; isplitr; · ipureintro; rfl
    iexact H7
  isplitl [H8]
  · iexists _; isplitr
    swap; · iexact H8
    ipureintro
    refine (View.read_writes_eq_canon _ _ _ (cover1_R _)).trans ?_
    sl_unfold_run_names
    rfl
  · iexists _; isplitr
    swap; · iexact H9
    ipureintro
    refine (View.read_writes_eq_canon _ _ _ (cover1_R _)).trans ?_
    sl_unfold_run_names
    rfl

set_option maxHeartbeats 1000000 in
/-- The body at the last point: the block is stored and added, then the statistics are computed from the two
    accumulators and stored as the two rows of the statistics window. -/
theorem run1_last (c : Dev nD) (E : Set ℕ) (i : grid1.Coords) (hc0 : ¬cond1_0 i) (hc1 : cond1_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA1, blk1 x0 x1 x2 x3 x4 x5⟩])
            ∗ owns (c : Thread nD τ) arg8 fullShare (stats1 (sumStep1 (blk1 x0 x1 x2 x3 x4 x5) s) (sqStep1 (blk1 x0 x1 x2 x3 x4 x5) q))
            ∗ owns (c : Thread nD τ) arg9 fullShare (sumStep1 (blk1 x0 x1 x2 x3 x4 x5) s) ∗ owns (c : Thread nD τ) arg10 fullShare (sqStep1 (blk1 x0 x1 x2 x3 x4 x5) q)) -∗ K ⟨⟩))
      ⊢ wp frame (wpE (defs₀ (F := F)) Variants.none c none) E (cc1__bn_relu_linear_stats_kernel i arg1 harg1 arg2 harg2 arg3 harg3 arg4 harg4 arg5 harg5 arg6 harg6 arg7 harg7 arg8 harg8 arg9 harg9 arg10 harg10) K := by
  simp only [cc1__bn_relu_linear_stats_kernel_eq_skeleton]; unfold cc1__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0 hf1 hf2 hf3 hf4 hf5 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_A _)).trans ?_
    sl_unfold_run_names
    rfl
  isplitl [H7]
  · iexists _; isplitr
    swap; · iexact H7
    ipureintro
    sl_unfold_run_names
    refine (View.read_writes_eq_canon _ _ _ (cover1_S _ _)).trans ?_
    refine Eq.trans ?_ (stats1_eq arg9.view arg10.view _ _ _).symm
    rfl
  isplitl [H8]
  · iexists _; isplitr
    swap; · iexact H8
    ipureintro
    refine (View.read_writes_eq_canon _ _ _ (cover1_R _)).trans ?_
    sl_unfold_run_names
    rfl
  · iexists _; isplitr
    swap; · iexact H9
    ipureintro
    refine (View.read_writes_eq_canon _ _ _ (cover1_R _)).trans ?_
    sl_unfold_run_names
    rfl

/-! ## What the inputs' staging buffers hold at a point -/

theorem before1_0_of (V : EntryVal F) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of (V : EntryVal F) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of (V : EntryVal F) {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of (V : EntryVal F) {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of (V : EntryVal F) {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of (V : EntryVal F) {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem after1_0 (V : EntryVal F) (c : Dev nD) (t : Fin cfg1.N) : (dat1 V c).after 0 t = iblk1 V c 0 t := by dsimp only [dat1]
theorem after1_1 (V : EntryVal F) (c : Dev nD) (t : Fin cfg1.N) : (dat1 V c).after 1 t = iblk1 V c 1 t := by dsimp only [dat1]
theorem after1_2 (V : EntryVal F) (c : Dev nD) (t : Fin cfg1.N) : (dat1 V c).after 2 t = iblk1 V c 2 t := by dsimp only [dat1]
theorem after1_3 (V : EntryVal F) (c : Dev nD) (t : Fin cfg1.N) : (dat1 V c).after 3 t = iblk1 V c 3 t := by dsimp only [dat1]
theorem after1_4 (V : EntryVal F) (c : Dev nD) (t : Fin cfg1.N) : (dat1 V c).after 4 t = iblk1 V c 4 t := by dsimp only [dat1]
theorem after1_5 (V : EntryVal F) (c : Dev nD) (t : Fin cfg1.N) : (dat1 V c).after 5 t = iblk1 V c 5 t := by dsimp only [dat1]
theorem after1_6 (V : EntryVal F) (c : Dev nD) (t : Fin cfg1.N) : (dat1 V c).after 6 t = View.canon [⟨rA1, tblk1 V c t⟩] := by dsimp only [dat1]
theorem after1_7 (V : EntryVal F) (c : Dev nD) (t : Fin cfg1.N) : (dat1 V c).after 7 t = stats1 (acc1 V c t.val t.isLt).1 (acc1 V c t.val t.isLt).2 := by dsimp only [dat1]

theorem before1_0 (V : EntryVal F) (c : Dev nD) (t : Fin cfg1.N) (d) : (dat1 V c).before 0 t d = iblk1 V c 0 t :=
  before1_0_of V (dat1 V c) (A_eq1 V c 0) (after1_0 V c) t d
theorem before1_1 (V : EntryVal F) (c : Dev nD) (t : Fin cfg1.N) (d) : (dat1 V c).before 1 t d = iblk1 V c 1 t :=
  before1_1_of V (dat1 V c) (A_eq1 V c 1) (after1_1 V c) t d
theorem before1_2 (V : EntryVal F) (c : Dev nD) (t : Fin cfg1.N) (d) : (dat1 V c).before 2 t d = iblk1 V c 2 t :=
  before1_2_of V (dat1 V c) (A_eq1 V c 2) (after1_2 V c) t d
theorem before1_3 (V : EntryVal F) (c : Dev nD) (t : Fin cfg1.N) (d) : (dat1 V c).before 3 t d = iblk1 V c 3 t :=
  before1_3_of V (dat1 V c) (A_eq1 V c 3) (after1_3 V c) t d
theorem before1_4 (V : EntryVal F) (c : Dev nD) (t : Fin cfg1.N) (d) : (dat1 V c).before 4 t d = iblk1 V c 4 t :=
  before1_4_of V (dat1 V c) (A_eq1 V c 4) (after1_4 V c) t d
theorem before1_5 (V : EntryVal F) (c : Dev nD) (t : Fin cfg1.N) (d) : (dat1 V c).before 5 t d = iblk1 V c 5 t :=
  before1_5_of V (dat1 V c) (A_eq1 V c 5) (after1_5 V c) t d

/-! ## The accumulators, point by point -/

theorem acc1_first (V : EntryVal F) (c : Dev nD) (t : Fin cfg1.N) (hz : t.val = 0) :
    acc1 V c t.val t.isLt = (sumStep1 (tblk1 V c t) sum0_1, sqStep1 (tblk1 V c t) sq0_1) := by
  obtain ⟨n, hn⟩ := t
  cases n with
  | zero => rfl
  | succ n => exact absurd hz (Nat.succ_ne_zero n)

theorem acc1_pos (V : EntryVal F) (c : Dev nD) (t : Fin cfg1.N) (hz : t.val ≠ 0) :
    acc1 V c t.val t.isLt = (sumStep1 (tblk1 V c t) (acc1 V c (t.val - 1) (Nat.lt_of_le_of_lt (Nat.sub_le _ _) t.isLt)).1,
      sqStep1 (tblk1 V c t) (acc1 V c (t.val - 1) (Nat.lt_of_le_of_lt (Nat.sub_le _ _) t.isLt)).2) := by
  obtain ⟨n, hn⟩ := t
  cases n with
  | zero => exact absurd rfl hz
  | succ n => rfl

/-- The launch's form of the invariant with the two accumulators as memrefs owned at some contents. -/
theorem Phi1_first_eq (c : Dev nD) :
    (iprop((∃ r, prngReg c r) ∗ Pipeline.scopedRest (Ix := Unit) (Name := ℕ) (U := UR sig nD τ) (Lvl := ℕ) (Val := Elt F) spec1 c) : sProp 𝕄)
      = iprop((∃ r, prngReg c r)
          ∗ iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

theorem Phi1_castSucc (V : EntryVal F) (c : Dev nD) (t : Fin cfg1.N) :
    (dat1 V c).Φ t.castSucc = Phi1 V c t.val (Nat.le_of_lt t.isLt) := by
  dsimp only [dat1]; simp only [Fin.coe_castSucc]

/-! ## The body obligation, at a generic point -/

def bodyPre1 (V : EntryVal F) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (V : EntryVal F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the point's position says which case it is in; the
    invariant hands the body the two accumulators at what the point before left (at anything at the first point) and
    takes them back at this point's contents; the core owes nothing throughout. -/
theorem sound_body1 (V : EntryVal F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  have hN : t.val < 8 := lt_of_lt_of_eq t.isLt (show cfg1.N = 8 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  by_cases h0 : t.val % 8 = 0
  · have hz : t.val = 0 := by omega
    have h1 : ¬t.val % 8 = 7 := by omega
    rw [Dat.leavesExact_idle (dat1 V c) 7 t (idleAt1_7 t (fun h => h1 ((hcond1_1 t).mp h))) (noFlush1_7 t (fun h => h1 ((hcond1_1 t).mp h)))]
    rw [acc1_first V c t hz]
    rw [Phi1_castSucc V c t, Phi1_zero V c _ _ hz, Phi1_first_eq]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_first c Set.univ (grid1.coords t) ((hcond1_0 t).mpr h0) (fun h => h1 ((hcond1_1 t).mp h)) _ _ _ _ _ _ _ _ _ _ _ _ _ _ _ _ _ _ _ _
      (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 8 = 7
    · have hz : t.val ≠ 0 := by omega
      rw [show (dat1 V c).leavesExact 7 t = owns (c : Thread nD τ) (st1_7 t) fullShare ((dat1 V c).after 7 t) from by
        unfold Dat.leavesExact; rw [liveAt1_7 t ((hcond1_1 t).mpr h1)], after1_7]
      rw [acc1_pos V c t hz]
      rw [Phi1_castSucc V c t, Phi1_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_last c Set.univ (grid1.coords t) (fun h => h0 ((hcond1_0 t).mp h)) ((hcond1_1 t).mpr h1) _ _ _ _ _ _ _ _ _ _ _ _ _ _ _ _ _ _ _ _
        (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hz : t.val ≠ 0 := by omega
      rw [Dat.leavesExact_idle (dat1 V c) 7 t (idleAt1_7 t (fun h => h1 ((hcond1_1 t).mp h))) (noFlush1_7 t (fun h => h1 ((hcond1_1 t).mp h)))]
      rw [acc1_pos V c t hz]
      rw [Phi1_castSucc V c t, Phi1_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_mid c Set.univ (grid1.coords t) (fun h => h0 ((hcond1_0 t).mp h)) (fun h => h1 ((hcond1_1 t).mp h)) _ _ _ _ _ _ _ _ _ _ _ _ _ _ _ _ _ _ _ _
        (iblk1 V c 0 t) (iblk1 V c 1 t) (iblk1 V c 2 t) (iblk1 V c 3 t) (iblk1 V c 4 t) (iblk1 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (V : EntryVal F) (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 2: the final batch-normalisation kernel (five windows: the activations' row block, the two statistics
rows, the scale row, the shift row; the output's row block) -/

/-! ## The windows' blocks -/

/-- Window `w`'s block at point `t`, read off its array as the region finds it. -/
def iblk2 (V : EntryVal F) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is the entry contents and whose body leaves the
    block in place. One lemma per input window. -/
theorem before2_0_of (V : EntryVal F) {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of (V : EntryVal F) {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of (V : EntryVal F) {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of (V : EntryVal F) {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Row 0 of the statistics block (the mean). -/
abbrev r2_m : Rect S2x128 := Rect.unit (s := S2x128) ![0, 0] S1x128.size inb_S2x128_S1x128_0_0
/-- Row 1 of the statistics block (the variance). -/
abbrev r2_v : Rect S2x128 := Rect.unit (s := S2x128) ![1, 0] S1x128.size inb_S2x128_S1x128_1_0
/-- A whole row vector. -/
abbrev r2_r : Rect S1x128 := Rect.unit (s := S1x128) ![0, 0] S1x128.size inb_S1x128_S1x128_0_0
/-- A whole row block. -/
abbrev r2_b : Rect S5000x128 := Rect.unit (s := S5000x128) ![0, 0] S5000x128.size inb_S5000x128_S5000x128_0_0

/-! ## What the body leaves in the output window's buffer -/

/-- The output's staging buffer after the body, from the input windows' blocks: its one store, of the payload
    at the five values loaded. -/
def out2_4 (x0 : Vec F S5000x128 .f32) (x1 : Vec F S2x128 .f32) (x2 : Vec F S1x128 .f32) (x3 : Vec F S1x128 .f32) : Vec F S5000x128 .f32 :=
  View.canon [⟨r2_b, k2_pay1 (View.ld x1 r2_m) (View.ld x1 r2_v) (View.ld x2 r2_r) (View.ld x0 r2_b) (View.ld x3 r2_r)⟩]

/-- The store is of the whole buffer, so it covers it. -/
theorem cover2_4 (p0 : Vec F S5000x128 .f32) (y : S5000x128.Idx) :
    ∃ pc ∈ ([⟨r2_b, p0⟩] : List (View.Piece (Elt F) S5000x128 .f32)), y ∈ pc.1.set :=
  View.cover_of_tiled [⟨r2_b, p0⟩] S5000x128.size (by rfl) y

/-! ## The body's triple -/

set_option maxHeartbeats 1000000 in
/-- The kernel body on whole staging memrefs, the inputs' at read contents and the output's at anything, runs to
    the continuation holding the inputs' as they were and the output's at `out2_4` of the inputs' (the value it
    loads from the output's buffer before storing is not used). -/
theorem sound_kernel2 (c : Dev nD) (E : Set ℕ) (i : grid2.Coords)
    (arg1 : Memref sig .tc .vmem S5000x128 .f32) (harg1 : arg1.IsWhole) (arg2 : Memref sig .tc .vmem S2x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bn_relu_final_kernel i arg1 harg1 arg2 harg2 arg3 harg3 arg4 harg4 arg5 harg5) K := by
  simp only [cc2__bn_relu_final_kernel_eq_skeleton]; unfold cc2__bn_relu_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- Region 2's proof data on core `c`, at the contents `V` the region is entered with: after the body at a point
    each input's buffer holds its block and the output's `out2_4` of the input blocks; the invariant is the scoped
    rest and the generator register, untouched; nothing owed; full shares. -/
def dat2 (V : EntryVal F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (V : EntryVal F) (c : Dev nD) (w : Fin cfg2.W) : (dat2 V c).A w = V c (Pipeline.arrRef spec2 w) := by
  dsimp only [dat2]

theorem q_eq2 (V : EntryVal F) (c : Dev nD) (w : Fin cfg2.W) : (dat2 V c).q w = fullShare := by
  dsimp only [dat2]

theorem owed_eq2 (V : EntryVal F) (c : Dev nD) (t : Fin (cfg2.N + 1)) : (dat2 V c).owed t = 0 := by
  dsimp only [dat2]

/-- What the body leaves, window by window. -/
theorem after2_0 (V : EntryVal F) (c : Dev nD) (t : Fin cfg2.N) : (dat2 V c).after 0 t = iblk2 V c 0 t := by dsimp only [dat2]
theorem after2_1 (V : EntryVal F) (c : Dev nD) (t : Fin cfg2.N) : (dat2 V c).after 1 t = iblk2 V c 1 t := by dsimp only [dat2]
theorem after2_2 (V : EntryVal F) (c : Dev nD) (t : Fin cfg2.N) : (dat2 V c).after 2 t = iblk2 V c 2 t := by dsimp only [dat2]
theorem after2_3 (V : EntryVal F) (c : Dev nD) (t : Fin cfg2.N) : (dat2 V c).after 3 t = iblk2 V c 3 t := by dsimp only [dat2]
theorem after2_4 (V : EntryVal F) (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (V : EntryVal F) (c : Dev nD) (t : Fin cfg2.N) (d) : (dat2 V c).before 0 t d = iblk2 V c 0 t :=
  before2_0_of V (dat2 V c) (A_eq2 V c 0) (after2_0 V c) t d
theorem before2_1 (V : EntryVal F) (c : Dev nD) (t : Fin cfg2.N) (d) : (dat2 V c).before 1 t d = iblk2 V c 1 t :=
  before2_1_of V (dat2 V c) (A_eq2 V c 1) (after2_1 V c) t d
theorem before2_2 (V : EntryVal F) (c : Dev nD) (t : Fin cfg2.N) (d) : (dat2 V c).before 2 t d = iblk2 V c 2 t :=
  before2_2_of V (dat2 V c) (A_eq2 V c 2) (after2_2 V c) t d
theorem before2_3 (V : EntryVal F) (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (V : EntryVal F) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (V : EntryVal F) (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the kernel's triple applies; the invariant and
    the core's tallies pass through unread. -/
theorem sound_body2 (V : EntryVal F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (V : EntryVal F) (c : Dev nD) : BodyObligation (dat2 (F := F) V c) (defs₀ (F := F)) Variants.none () Set.univ := fun t => by
  rw [bigSep_W2, bigSep_W2]
  exact sound_body2 V c t

theorem hin2 (V : EntryVal F) (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp

theorem hout2 (V : EntryVal F) (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

end Cert.KernelIdeal.Hand

end
-- ==== Proof.KI.Reg3.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The frame of kernel region 3: the affine map of the combined rows, block by block, with its column statistics

The kernel runs over 8 row blocks. At each point it stores the block's affine image and adds the block's column
sums and column sums of squares to two running sums it carries between the points in two scratch buffers, which it
resets at the first point; at the last point it stores the mean and the clamped variance computed from the two
running sums. The proof data names what the two scratch buffers hold before each point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions, from the grid coordinate -/

/-- The condition of the first `scf.if` (the grid coordinate is 0), as the kernel's scalar chain computes it. -/
abbrev condA3 (i : grid3.Coords) : Prop := (Scalar.cmpi .ne (Scalar.extui (Scalar.cmpi .eq (BitVec.ofNat 32 (i 0).val) 0#32)) 0#32) = 1#1
/-- The condition of the second `scf.if` (the grid coordinate is 7). -/
abbrev condB3 (i : grid3.Coords) : Prop := k3_cond2 i = 1#1

/-! ## The rectangles of the body's accesses and what a whole-buffer access reads and leaves -/

theorem zz3 : (![0, 0] : Fin 2 → Nat) = fun _ => 0 := by funext a; fin_cases a <;> rfl

abbrev rBlk3 : Rect S5000x128 := Rect.unit (s := S5000x128) ![0, 0] S5000x128.size inb_S5000x128_S5000x128_0_0
abbrev rRow3 : Rect S1x128 := Rect.unit (s := S1x128) ![0, 0] S1x128.size inb_S1x128_S1x128_0_0
abbrev rOne3 : Rect S1x1 := Rect.unit (s := S1x1) ![0, 0] S1x1.size inb_S1x1_S1x1_0_0
abbrev rWt3 : Rect S128x128 := Rect.unit (s := S128x128) ![0, 0] S128x128.size inb_S128x128_S128x128_0_0
abbrev rSt3_0 : Rect S2x128 := Rect.unit (s := S2x128) ![0, 0] S1x128.size inb_S2x128_S1x128_0_0
abbrev rSt3_1 : Rect S2x128 := Rect.unit (s := S2x128) ![1, 0] S1x128.size inb_S2x128_S1x128_1_0

/-- A load through the whole buffer reads its contents. -/
theorem ldBlk3 (X : Vec F S5000x128 .f32) : View.ld X rBlk3 = X := View.ld_unit_zero zz3 _ X
theorem ldRow3 (X : Vec F S1x128 .f32) : View.ld X rRow3 = X := View.ld_unit_zero zz3 _ X
theorem ldOne3 (X : Vec F S1x1 .f32) : View.ld X rOne3 = X := View.ld_unit_zero zz3 _ X
theorem ldWt3 (X : Vec F S128x128 .f32) : View.ld X rWt3 = X := View.ld_unit_zero zz3 _ X

/-! ## What the body leaves, from what it reads -/

/-- The output block: the affine map of the combined input rows. -/
def yOut3 (x0 x1 : Vec F S5000x128 .f32) (x2 : Vec F S1x1 .f32) (x3 : Vec F S128x128 .f32) (x4 : Vec F S1x128 .f32) : Vec F S5000x128 .f32 :=
  k3_pay6 (View.ld x2 rOne3) (View.ld x0 rBlk3) (View.ld x1 rBlk3) (View.ld x3 rWt3) (View.ld x4 rRow3)
/-- The running column sums after the block is added to `s`. -/
def sOut3 (x0 x1 : Vec F S5000x128 .f32) (x2 : Vec F S1x1 .f32) (x3 : Vec F S128x128 .f32) (x4 : Vec F S1x128 .f32) (s : Vec F S1x128 .f32) : Vec F S1x128 .f32 :=
  k3_pay7 (View.ld x2 rOne3) (View.ld x0 rBlk3) (View.ld x1 rBlk3) (View.ld x3 rWt3) (View.ld x4 rRow3) (View.ld s rRow3)
/-- The running column sums of squares after the block's squares are added to `q`. -/
def qOut3 (x0 x1 : Vec F S5000x128 .f32) (x2 : Vec F S1x1 .f32) (x3 : Vec F S128x128 .f32) (x4 : Vec F S1x128 .f32) (q : Vec F S1x128 .f32) : Vec F S1x128 .f32 :=
  k3_pay1 (k3_pay8 (View.ld x2 rOne3) (View.ld x0 rBlk3) (View.ld x1 rBlk3) (View.ld x3 rWt3) (View.ld x4 rRow3) (View.ld q rRow3))
/-- The statistics block from the two running sums: row 0 the mean, row 1 the clamped variance (the two row stores, last first). -/
def stOut3 (s q : Vec F S1x128 .f32) : Vec F S2x128 .f32 :=
  View.canon [⟨rSt3_1, k3_pay3 (View.ld s rRow3) (View.ld q rRow3)⟩, ⟨rSt3_0, k3_pay2 (View.ld s rRow3)⟩]

theorem yOut3_eq (x0 x1 : Vec F S5000x128 .f32) (x2 : Vec F S1x1 .f32) (x3 : Vec F S128x128 .f32) (x4 : Vec F S1x128 .f32) :
    yOut3 x0 x1 x2 x3 x4 = k3_pay6 x2 x0 x1 x3 x4 := by
  unfold yOut3; rw [ldOne3, ldBlk3, ldBlk3, ldWt3, ldRow3]
theorem sOut3_eq (x0 x1 : Vec F S5000x128 .f32) (x2 : Vec F S1x1 .f32) (x3 : Vec F S128x128 .f32) (x4 : Vec F S1x128 .f32) (s : Vec F S1x128 .f32) :
    sOut3 x0 x1 x2 x3 x4 s = k3_pay7 x2 x0 x1 x3 x4 s := by
  unfold sOut3; rw [ldOne3, ldBlk3, ldBlk3, ldWt3, ldRow3, ldRow3]
theorem qOut3_eq (x0 x1 : Vec F S5000x128 .f32) (x2 : Vec F S1x1 .f32) (x3 : Vec F S128x128 .f32) (x4 : Vec F S1x128 .f32) (q : Vec F S1x128 .f32) :
    qOut3 x0 x1 x2 x3 x4 q = k3_pay1 (k3_pay8 x2 x0 x1 x3 x4 q) := by
  unfold qOut3; rw [ldOne3, ldBlk3, ldBlk3, ldWt3, ldRow3, ldRow3]
theorem stOut3_eq (s q : Vec F S1x128 .f32) :
    stOut3 s q = View.canon [⟨rSt3_1, k3_pay3 s q⟩, ⟨rSt3_0, k3_pay2 s⟩] := by
  unfold stOut3; rw [ldRow3, ldRow3]

/-- The two row stores cover the statistics block. -/
theorem coverSt3 (p1 p0 : Vec F S1x128 .f32) (y : S2x128.Idx) :
    ∃ pc ∈ ([⟨rSt3_1, p1⟩, ⟨rSt3_0, p0⟩] : List (View.Piece (Elt F) S2x128 .f32)), y ∈ pc.1.set :=
  View.cover_of_tiled [⟨rSt3_1, p1⟩, ⟨rSt3_0, p0⟩] S1x128.size (by rfl) y

/-- One store through the whole buffer leaves its payload, whatever the buffer held. -/
theorem wrBlk3 {κ : Kind} {sp : Space} (v : View sig κ sp S5000x128 .f32) (f : v.ty.Contents (Elt F)) (w : Vec F S5000x128 .f32) :
    v.read (Elt F) (v.writes (Elt F) f [⟨rBlk3, w⟩]) = w :=
  (View.read_writes_eq_canon v f _ (View.cover_of_tiled [⟨rBlk3, w⟩] S5000x128.size (by rfl))).trans (View.canon_unit_zero zz3 _ w)
theorem wrRow3 {κ : Kind} {sp : Space} (v : View sig κ sp S1x128 .f32) (f : v.ty.Contents (Elt F)) (w : Vec F S1x128 .f32) :
    v.read (Elt F) (v.writes (Elt F) f [⟨rRow3, w⟩]) = w :=
  (View.read_writes_eq_canon v f _ (View.cover_of_tiled [⟨rRow3, w⟩] S1x128.size (by rfl))).trans (View.canon_unit_zero zz3 _ w)
/-- Two stores through the whole buffer leave the later payload. -/
theorem wrRowTwo3 {κ : Kind} {sp : Space} (v : View sig κ sp S1x128 .f32) (f : v.ty.Contents (Elt F)) (w w' : Vec F S1x128 .f32) :
    v.read (Elt F) (v.writes (Elt F) f [⟨rRow3, w⟩, ⟨rRow3, w'⟩]) = w :=
  (View.read_writes_eq_canon v f _ (fun y => by
    obtain ⟨p, hp, hy⟩ := View.cover_of_tiled [(⟨rRow3, w⟩ : View.Piece (Elt F) S1x128 .f32)] S1x128.size (by rfl) y
    exact ⟨p, List.mem_cons.mpr (Or.inl (List.mem_singleton.mp hp)), hy⟩)).trans (View.canon_cons_unit_zero zz3 _ w _)
/-- A load through the whole buffer after one store through it reads the payload. -/
theorem rcRow3 {κ : Kind} {sp : Space} (v : View sig κ sp S1x128 .f32) (w : Vec F S1x128 .f32) :
    v.readCov [(⟨rRow3, w⟩ : View.Piece (Elt F) S1x128 .f32)] rRow3.toLoadRect = View.ld w rRow3 :=
  (View.readCov_unit_zero v zz3 _ w).trans (ldRow3 w).symm

/-- A store through the whole buffer, LAST, leaves its payload whatever the earlier stores were. -/
theorem wrRowCons3 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow3, w⟩ :: L)) = w :=
  (View.read_writes_eq_canon v f _ (fun y => by
    obtain ⟨p, hp, hy⟩ := View.cover_of_tiled [(⟨rRow3, w⟩ : View.Piece (Elt F) S1x128 .f32)] S1x128.size (by rfl) y
    exact ⟨p, List.mem_cons.mpr (Or.inl (List.mem_singleton.mp hp)), hy⟩)).trans (View.canon_cons_unit_zero zz3 _ w L)

/-! ## The windows' blocks -/

/-- Window `w`'s block at point `t`, read off its array as the region finds it (`V`). -/
def iblk3 (V : EntryVal F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The five input blocks at point `t`, at their literal vector types. -/
def xb3_0 (V : EntryVal F) (c : Dev nD) (t : Fin cfg3.N) : Vec F S5000x128 .f32 := iblk3 V c 0 t
def xb3_1 (V : EntryVal F) (c : Dev nD) (t : Fin cfg3.N) : Vec F S5000x128 .f32 := iblk3 V c 1 t
def xb3_2 (V : EntryVal F) (c : Dev nD) (t : Fin cfg3.N) : Vec F S1x1 .f32 := iblk3 V c 2 t
def xb3_3 (V : EntryVal F) (c : Dev nD) (t : Fin cfg3.N) : Vec F S128x128 .f32 := iblk3 V c 3 t
def xb3_4 (V : EntryVal F) (c : Dev nD) (t : Fin cfg3.N) : Vec F S1x128 .f32 := iblk3 V c 4 t

/-! ## The two running sums, point by point -/

/-- What the two scratch buffers hold BEFORE the accumulation at position `n`: zeros at the first point (the body
    resets them there), afterwards what the point before left. -/
def SQ3 (V : EntryVal F) (c : Dev nD) : ℕ → Vec F S1x128 .f32 × Vec F S1x128 .f32
  | 0 => (k3_pay4, k3_pay5)
  | n + 1 =>
    if h : n < cfg3.N then
      (sOut3 (xb3_0 V c ⟨n, h⟩) (xb3_1 V c ⟨n, h⟩) (xb3_2 V c ⟨n, h⟩) (xb3_3 V c ⟨n, h⟩) (xb3_4 V c ⟨n, h⟩) (SQ3 V c n).1,
       qOut3 (xb3_0 V c ⟨n, h⟩) (xb3_1 V c ⟨n, h⟩) (xb3_2 V c ⟨n, h⟩) (xb3_3 V c ⟨n, h⟩) (xb3_4 V c ⟨n, h⟩) (SQ3 V c n).2)
    else SQ3 V c n

theorem SQ3_zero (V : EntryVal F) (c : Dev nD) : SQ3 V c 0 = (k3_pay4, k3_pay5) := rfl

theorem SQ3_succ (V : EntryVal F) (c : Dev nD) (t : Fin cfg3.N) :
    SQ3 V c (t.val + 1) =
      (sOut3 (xb3_0 V c t) (xb3_1 V c t) (xb3_2 V c t) (xb3_3 V c t) (xb3_4 V c t) (SQ3 V c t.val).1,
       qOut3 (xb3_0 V c t) (xb3_1 V c t) (xb3_2 V c t) (xb3_3 V c t) (xb3_4 V c t) (SQ3 V c t.val).2) := by
  rw [SQ3, dif_pos t.isLt]

/-! ## The invariant -/

abbrev scr3_0 : Memref sig .tc .vmem S1x128 .f32 := Memref.whole cc3_scratch0
abbrev scr3_1 : Memref sig .tc .vmem S1x128 .f32 := Memref.whole cc3_scratch1

/-- The region invariant before position `n`: before the first point the generator register and the scoped rest
    (the two scratch buffers at anything); afterwards the two scratch buffers at the running sums and the scoped rest
    without them. -/
def Phi3 (V : EntryVal F) (c : Dev nD) : ℕ → sProp 𝕄
  | 0 => iprop((∃ r, prngReg c r) ∗ Pipeline.scopedRest (Ix := Unit) (Name := ℕ) (U := UR sig nD τ) (Lvl := ℕ) (Val := Elt F) spec3 c)
  | n + 1 => iprop((∃ r, prngReg c r)
      ∗ iprop(owns (c : Thread nD τ) scr3_0 fullShare (SQ3 V c (n + 1)).1 ∗ owns (c : Thread nD τ) scr3_1 fullShare (SQ3 V c (n + 1)).2)
      ∗ Pipeline.scopedRestBut (Ix := Unit) (Name := ℕ) (U := UR sig nD τ) (Lvl := ℕ) (Val := Elt F) spec3 c [cc3_scratch0, cc3_scratch1])

theorem Phi3_zero (V : EntryVal F) (c : Dev nD) :
    Phi3 V c 0 = iprop((∃ r, prngReg c r) ∗ Pipeline.scopedRest (Ix := Unit) (Name := ℕ) (U := UR sig nD τ) (Lvl := ℕ) (Val := Elt F) spec3 c) := rfl

theorem Phi3_succ (V : EntryVal F) (c : Dev nD) (n : ℕ) :
    Phi3 V c (n + 1) = iprop((∃ r, prngReg c r)
      ∗ iprop(owns (c : Thread nD τ) scr3_0 fullShare (SQ3 V c (n + 1)).1 ∗ owns (c : Thread nD τ) scr3_1 fullShare (SQ3 V c (n + 1)).2)
      ∗ Pipeline.scopedRestBut (Ix := Unit) (Name := ℕ) (U := UR sig nD τ) (Lvl := ℕ) (Val := Elt F) spec3 c [cc3_scratch0, cc3_scratch1]) := rfl

/-- The scoped rest with the two scratch operands as memrefs owned at some contents. -/
theorem scopedRest3_owns (c : Dev nD) :
    (Pipeline.scopedRest (Ix := Unit) (Name := ℕ) (U := UR sig nD τ) (Lvl := ℕ) (Val := Elt F) spec3 c : sProp 𝕄)
      = iprop(iprop((∃ d, owns (c : Thread nD τ) scr3_0 fullShare d) ∗ (∃ d, owns (c : Thread nD τ) scr3_1 fullShare d))
          ∗ Pipeline.scopedRestBut (Ix := Unit) (Name := ℕ) (U := UR sig nD τ) (Lvl := ℕ) (Val := Elt F) spec3 c [cc3_scratch0, cc3_scratch1]) := by
  rw [scopedRest3_split]; simp only [scr3_0, scr3_1, owns_whole]; try rfl

/-! ## The pipeline's proof data -/

/-- Region 3's proof data on core `c`, at the contents `V` the region is entered with: the arrays as the region
    finds them; after the body at point `t` each input's buffer at its block, the output block at the affine map of
    the input blocks, the statistics block at the statistics of the two running sums after the point; the invariant
    carries the two running sums; nothing owed; full shares. -/
def dat3 (V : EntryVal F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => yOut3 (xb3_0 V c t) (xb3_1 V c t) (xb3_2 V c t) (xb3_3 V c t) (xb3_4 V c t)
    | ⟨6, _⟩ => stOut3 (SQ3 V c (t.val + 1)).1 (SQ3 V c (t.val + 1)).2
  Φ t := Phi3 V c t.val
  q _ := fullShare
  owed _ := 0

theorem A_eq3 (V : EntryVal F) (c : Dev nD) (w : Fin cfg3.W) : (dat3 V c).A w = V c (Pipeline.arrRef spec3 w) := by
  dsimp only [dat3]

theorem q_eq3 (V : EntryVal F) (c : Dev nD) (w : Fin cfg3.W) : (dat3 V c).q w = fullShare := by
  dsimp only [dat3]

theorem owed_eq3 (V : EntryVal F) (c : Dev nD) (t : Fin (cfg3.N + 1)) : (dat3 V c).owed t = 0 := by
  dsimp only [dat3]

theorem Phi_eq3 (V : EntryVal F) (c : Dev nD) (t : Fin (cfg3.N + 1)) : (dat3 V c).Φ t = Phi3 V c t.val := by
  dsimp only [dat3]

/-- What the launch hands the region is the invariant before the first point. -/
theorem hin3 (V : EntryVal F) (c : Dev nD) :
    iprop((∃ r, prngReg c r) ∗ Pipeline.scopedRest (Ix := Unit) (Name := ℕ) (U := UR sig nD τ) (Lvl := ℕ) (Val := Elt F) spec3 c)
      ⊢ ((dat3 V c).Φ 0 : sProp 𝕄) := by
  rw [Phi_eq3, Fin.val_zero, Phi3_zero]

/-- After the last point the invariant gives it back: the running sums' named contents are forgotten. -/
theorem hout3 (V : EntryVal F) (c : Dev nD) :
    ((dat3 V c).Φ (Fin.last cfg3.N) : sProp 𝕄)
      ⊢ iprop((∃ r, prngReg c r) ∗ Pipeline.scopedRest (Ix := Unit) (Name := ℕ) (U := UR sig nD τ) (Lvl := ℕ) (Val := Elt F) spec3 c) := by
  rw [Phi_eq3, Fin.val_last, show cfg3.N = 7 + 1 from N_3, Phi3_succ, scopedRest3_owns]
  iintro ⟨Hg, ⟨HS0, HS1⟩, Hr⟩
  isplitl [Hg]; · iexact Hg
  isplitr [Hr]
  · isplitl [HS0]
    · iexists _; iexact HS0
    · iexists _; iexact HS1
  · iexact Hr

/-! ## The conditions and the schedule, decided over the grid -/

/-- The first condition holds at the first point only. -/
theorem hcondA3 : ∀ t : Fin cfg3.N, condA3 (grid3.coords t) ↔ t.val % 8 = 0 :=
  (by decide +kernel : ∀ t : Fin grid3.N, condA3 (grid3.coords t) ↔ t.val % 8 = 0)
/-- The second condition holds at the last point only. -/
theorem hcondB3 : ∀ t : Fin cfg3.N, condB3 (grid3.coords t) ↔ t.val % 8 = 7 :=
  (by decide +kernel : ∀ t : Fin grid3.N, condB3 (grid3.coords t) ↔ t.val % 8 = 7)

/-- Windows 0–5 are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
/-- Where the second condition fails the statistics window is idle and not written back; where it holds, live. -/
theorem idleAt3_6 : ∀ t : Fin cfg3.N, ¬condB3 (grid3.coords t) → cfg3.idle 6 (grid3.coords t) = true := by decide +kernel
theorem noFlush3_6 : ∀ t : Fin cfg3.N, ¬condB3 (grid3.coords t) → (cfg3.win 6).flush t = false := by decide +kernel
theorem liveAt3_6 : ∀ t : Fin cfg3.N, condB3 (grid3.coords t) → cfg3.idle 6 (grid3.coords t) = false := by decide +kernel

/-- What the body leaves, window by window. -/
theorem after3_0 (V : EntryVal F) (c : Dev nD) (t : Fin cfg3.N) : (dat3 V c).after 0 t = iblk3 V c 0 t := by dsimp only [dat3]
theorem after3_1 (V : EntryVal F) (c : Dev nD) (t : Fin cfg3.N) : (dat3 V c).after 1 t = iblk3 V c 1 t := by dsimp only [dat3]
theorem after3_2 (V : EntryVal F) (c : Dev nD) (t : Fin cfg3.N) : (dat3 V c).after 2 t = iblk3 V c 2 t := by dsimp only [dat3]
theorem after3_3 (V : EntryVal F) (c : Dev nD) (t : Fin cfg3.N) : (dat3 V c).after 3 t = iblk3 V c 3 t := by dsimp only [dat3]
theorem after3_4 (V : EntryVal F) (c : Dev nD) (t : Fin cfg3.N) : (dat3 V c).after 4 t = iblk3 V c 4 t := by dsimp only [dat3]
theorem after3_5 (V : EntryVal F) (c : Dev nD) (t : Fin cfg3.N) :
    (dat3 V c).after 5 t = yOut3 (xb3_0 V c t) (xb3_1 V c t) (xb3_2 V c t) (xb3_3 V c t) (xb3_4 V c t) := by dsimp only [dat3]
theorem after3_6 (V : EntryVal F) (c : Dev nD) (t : Fin cfg3.N) :
    (dat3 V c).after 6 t = stOut3 (SQ3 V c (t.val + 1)).1 (SQ3 V c (t.val + 1)).2 := by dsimp only [dat3]

/-- Each input's current staging buffer holds its block at every point, fetched there or not: an input window of a body
    that leaves its block in place, uncut and never idle. -/
theorem before3_0 (V : EntryVal F) (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (V : EntryVal F) (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (V : EntryVal F) (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (V : EntryVal F) (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (V : EntryVal F) (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

theorem SQ3_succ_fst (V : EntryVal F) (c : Dev nD) (t : Fin cfg3.N) :
    (SQ3 V c (t.val + 1)).1 = sOut3 (xb3_0 V c t) (xb3_1 V c t) (xb3_2 V c t) (xb3_3 V c t) (xb3_4 V c t) (SQ3 V c t.val).1 := by
  rw [SQ3_succ]
theorem SQ3_succ_snd (V : EntryVal F) (c : Dev nD) (t : Fin cfg3.N) :
    (SQ3 V c (t.val + 1)).2 = qOut3 (xb3_0 V c t) (xb3_1 V c t) (xb3_2 V c t) (xb3_3 V c t) (xb3_4 V c t) (SQ3 V c t.val).2 := by
  rw [SQ3_succ]

theorem Phi3_pos (V : EntryVal F) (c : Dev nD) (n : ℕ) (hn : n ≠ 0) :
    Phi3 V c n = iprop((∃ r, prngReg c r)
      ∗ iprop(owns (c : Thread nD τ) scr3_0 fullShare (SQ3 V c n).1 ∗ owns (c : Thread nD τ) scr3_1 fullShare (SQ3 V c n).2)
      ∗ Pipeline.scopedRestBut (Ix := Unit) (Name := ℕ) (U := UR sig nD τ) (Lvl := ℕ) (Val := Elt F) spec3 c [cc3_scratch0, cc3_scratch1]) := by
  cases n with
  | zero => exact absurd rfl hn
  | succ n => rfl

/-! ## The body's triple, case by case -/

set_option maxHeartbeats 1000000 in
/-- The body at a middle point (neither condition holds): the block is computed and stored, the two running sums are
    advanced; the statistics block is not touched. -/
theorem runMid3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA3 i) (hc2 : ¬condB3 i)
    (x0 x1 : Vec F S5000x128 .f32) (x2 : Vec F S1x1 .f32) (x3 : Vec F S128x128 .f32) (x4 : Vec F S1x128 .f32) (x6 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut3 x0 x1 x2 x3 x4) ∗ owns (c : Thread nD τ) arg7 fullShare x6 ∗ owns (c : Thread nD τ) arg8 fullShare (sOut3 x0 x1 x2 x3 x4 s) ∗ owns (c : Thread nD τ) arg9 fullShare (qOut3 x0 x1 x2 x3 x4 q)) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf0; subst hf1; subst hf2; subst hf3; subst hf4; subst hf6; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk3 _ _ _).trans ?_
    rfl
  isplitl [H6]; · iexists f6; isplitr; · ipureintro; rfl
                  iexact H6
  isplitl [H7]
  · iexists _; isplitr
    swap; · iexact H7
    ipureintro
    refine (wrRow3 _ _ _).trans ?_
    rfl
  · iexists _; isplitr
    swap; · iexact H8
    ipureintro
    refine (wrRow3 _ _ _).trans ?_
    rfl

set_option maxHeartbeats 1000000 in
/-- The body at the first point: the two running sums are reset to zero, whatever they held, then as at a middle point. -/
theorem runFirst3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : condA3 i) (hc2 : ¬condB3 i)
    (x0 x1 : Vec F S5000x128 .f32) (x2 : Vec F S1x1 .f32) (x3 : Vec F S128x128 .f32) (x4 : Vec F S1x128 .f32) (x6 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut3 x0 x1 x2 x3 x4) ∗ owns (c : Thread nD τ) arg7 fullShare x6 ∗ owns (c : Thread nD τ) arg8 fullShare (sOut3 x0 x1 x2 x3 x4 k3_pay4) ∗ owns (c : Thread nD τ) arg9 fullShare (qOut3 x0 x1 x2 x3 x4 k3_pay5)) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  subst hf0; subst hf1; subst hf2; subst hf3; subst hf4; subst hf6
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk3 _ _ _).trans ?_
    rfl
  isplitl [H6]; · iexists f6; isplitr; · ipureintro; rfl
                  iexact H6
  isplitl [H7]
  · iexists _; isplitr
    swap; · iexact H7
    ipureintro
    refine (wrRowCons3 _ _ _ _).trans ?_
    sl_unfold_run_names
    first | rfl | (rw [rcRow3]; rfl)
  · iexists _; isplitr
    swap; · iexact H8
    ipureintro
    refine (wrRowCons3 _ _ _ _).trans ?_
    sl_unfold_run_names
    first | rfl | (rw [rcRow3]; rfl)

set_option maxHeartbeats 1000000 in
/-- The body at the last point: as at a middle point, then the statistics are computed from the two running sums and
    stored as the two rows of the statistics block, whatever it held. -/
theorem runLast3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA3 i) (hc2 : condB3 i)
    (x0 x1 : Vec F S5000x128 .f32) (x2 : Vec F S1x1 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut3 x0 x1 x2 x3 x4) ∗ owns (c : Thread nD τ) arg7 fullShare (stOut3 (sOut3 x0 x1 x2 x3 x4 s) (qOut3 x0 x1 x2 x3 x4 q)) ∗ owns (c : Thread nD τ) arg8 fullShare (sOut3 x0 x1 x2 x3 x4 s) ∗ owns (c : Thread nD τ) arg9 fullShare (qOut3 x0 x1 x2 x3 x4 q)) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk3 _ _ _).trans ?_
    rfl
  isplitl [H6]
  · iexists _; isplitr
    swap; · iexact H6
    ipureintro
    refine (View.read_writes_eq_canon _ _ _ (coverSt3 _ _)).trans ?_
    sl_unfold_run_names
    first | rfl | (rw [rcRow3, rcRow3]; rfl)
  isplitl [H7]
  · iexists _; isplitr
    swap; · iexact H7
    ipureintro
    refine (wrRow3 _ _ _).trans ?_
    rfl
  · iexists _; isplitr
    swap; · iexact H8
    ipureintro
    refine (wrRow3 _ _ _).trans ?_
    rfl

/-! ## The body obligation, at a generic point -/

/-- What the body is called with at point `t` (the body obligation's precondition, the windows one by one), -/
def bodyPre3 (V : EntryVal F) (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (V : EntryVal F) (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
/-- The body at any point: the inputs' memrefs hold their blocks; the closed forms of the two conditions say which case
    the point is in; the invariant hands the body the two running sums at what the point before left (at anything at the
    first point) and takes them back advanced; the statistics window is handed back as found where it is idle, and at
    the statistics of the two running sums at the last point; the core owes nothing throughout. -/
theorem sound_body3 (V : EntryVal F) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [Phi_eq3 V c t.succ, Phi_eq3 V c t.castSucc, Fin.val_succ, Fin.val_castSucc, Phi3_succ, SQ3_succ_fst, SQ3_succ_snd]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 8 := lt_of_lt_of_eq t.isLt (show cfg3.N = 8 from N_3)
  by_cases h0 : t.val % 8 = 0
  · have hA : condA3 (grid3.coords t) := (hcondA3 t).mpr h0
    have hB : ¬condB3 (grid3.coords t) := fun h => by have := (hcondB3 t).mp h; omega
    have hz : t.val = 0 := by omega
    rw [Dat.leavesExact_idle (dat3 V c) 6 t (idleAt3_6 t hB) (noFlush3_6 t hB)]
    rw [hz, Phi3_zero, SQ3_zero, scopedRest3_owns]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (runFirst3 c Set.univ (grid3.coords t) _ _ _ _ _ _ _ _ _ _ _ _ _ _ _ _ _ _ hA hB (xb3_0 V c t) (xb3_1 V c t) (xb3_2 V c t) (xb3_3 V c t) (xb3_4 V c t) ((dat3 V c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, H5, H6, HS0, HS1⟩
    isplitl [Hg HS0 HS1 Hr]
    · isplitl [Hg]; · iexact Hg
      isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hA : ¬condA3 (grid3.coords t) := fun h => h0 ((hcondA3 t).mp h)
    have hz : t.val ≠ 0 := fun h => h0 (by rw [h])
    rw [Phi3_pos V c t.val hz]
    by_cases h7 : t.val % 8 = 7
    · have hB : condB3 (grid3.coords t) := (hcondB3 t).mpr h7
      rw [show (dat3 V c).leavesExact 6 t = owns (c : Thread nD τ) (st3_6 t) fullShare ((dat3 V c).after 6 t) from by
        unfold Dat.leavesExact; rw [liveAt3_6 t hB], after3_6, SQ3_succ_fst, SQ3_succ_snd]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runLast3 c Set.univ (grid3.coords t) _ _ _ _ _ _ _ _ _ _ _ _ _ _ _ _ _ _ hA hB (xb3_0 V c t) (xb3_1 V c t) (xb3_2 V c t) (xb3_3 V c t) (xb3_4 V c t) (SQ3 V c t.val).1 (SQ3 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hB : ¬condB3 (grid3.coords t) := fun h => h7 ((hcondB3 t).mp h)
      rw [Dat.leavesExact_idle (dat3 V c) 6 t (idleAt3_6 t hB) (noFlush3_6 t hB)]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runMid3 c Set.univ (grid3.coords t) _ _ _ _ _ _ _ _ _ _ _ _ _ _ _ _ _ _ hA hB (xb3_0 V c t) (xb3_1 V c t) (xb3_2 V c t) (xb3_3 V c t) (xb3_4 V c t) ((dat3 V c).before 6 t d6) (SQ3 V c t.val).1 (SQ3 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (V : EntryVal F) (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 4: the second kernel of a layer (normalise, relu, linear, relu, column statistics) -/

/-! ## The windows' blocks -/

/-- Window `w`'s block at point `t`, read off its array as the region finds it (`V`). -/
def iblk4 (V : EntryVal F) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses -/

abbrev rA4 : Rect S5000x128 := Rect.unit (s := S5000x128) ![0, 0] S5000x128.size inb_S5000x128_S5000x128_0_0
abbrev rR4 : Rect S1x128 := Rect.unit (s := S1x128) ![0, 0] S1x128.size inb_S1x128_S1x128_0_0
abbrev rW4 : Rect S128x128 := Rect.unit (s := S128x128) ![0, 0] S128x128.size inb_S128x128_S128x128_0_0
abbrev rS4_0 : Rect S2x128 := Rect.unit (s := S2x128) ![0, 0] S1x128.size inb_S2x128_S1x128_0_0
abbrev rS4_1 : Rect S2x128 := Rect.unit (s := S2x128) ![1, 0] S1x128.size inb_S2x128_S1x128_1_0

/-- The scratch operands: whole scoped buffers of the kernel's own, passed beside the windows. -/
abbrev scM4_0 : Memref sig .tc .vmem S1x128 .f32 := Memref.whole cc4_scratch0
abbrev scM4_1 : Memref sig .tc .vmem S1x128 .f32 := Memref.whole cc4_scratch1

/-! ## What the body computes -/

/-- The block of the output the body stores at a point, from the input windows' blocks. -/
def blk4 (x0 : Vec F S5000x128 .f32) (x1 : Vec F S2x128 .f32) (x2 x3 : Vec F S1x128 .f32) (x4 : Vec F S128x128 .f32) (x5 : Vec F S1x128 .f32) : FVec F S5000x128 .f32 :=
  k4_pay7 (View.ld x1 rS4_0) (View.ld x1 rS4_1) (View.ld x2 rR4) (View.ld x0 rA4) (View.ld x3 rR4) (View.ld x4 rW4) (View.ld x5 rR4)

/-- The running column sums after a point, from the block stored there and what they were before. -/
def sumStep4 (y : FVec F S5000x128 .f32) (s : Vec F S1x128 .f32) : Vec F S1x128 .f32 :=
  View.canon [⟨rR4, k4_pay1 y (View.ld s rR4)⟩]

/-- The running column sums of squares after a point. -/
def sqStep4 (y : FVec F S5000x128 .f32) (s : Vec F S1x128 .f32) : Vec F S1x128 .f32 :=
  View.canon [⟨rR4, k4_pay2 y (View.ld s rR4)⟩]

/-- What the first point resets the two accumulators to. -/
def sum0_4 : Vec F S1x128 .f32 := View.canon [⟨rR4, k4_pay5 (F := F)⟩]
def sq0_4 : Vec F S1x128 .f32 := View.canon [⟨rR4, k4_pay6 (F := F)⟩]

/-- The statistics the last point stores, from the two accumulators: row 0 then row 1. -/
def stats4 (s q : Vec F S1x128 .f32) : Vec F S2x128 .f32 :=
  View.canon [⟨rS4_1, k4_pay4 (View.ld s rR4) (View.ld q rR4)⟩, ⟨rS4_0, k4_pay3 (View.ld s rR4)⟩]

/-- The block stored at point `t`, from the arrays as the region finds them. -/
def tblk4 (V : EntryVal F) (c : Dev nD) (t : Fin cfg4.N) : FVec F S5000x128 .f32 :=
  blk4 (iblk4 V c 0 t) (iblk4 V c 1 t) (iblk4 V c 2 t) (iblk4 V c 3 t) (iblk4 V c 4 t) (iblk4 V c 5 t)

/-- The two accumulators after the body at position `n`: reset at the first point, then each point's block added. -/
def acc4 (V : EntryVal F) (c : Dev nD) : (n : ℕ) → n < cfg4.N → Vec F S1x128 .f32 × Vec F S1x128 .f32
  | 0, hn => (sumStep4 (tblk4 V c ⟨0, hn⟩) sum0_4, sqStep4 (tblk4 V c ⟨0, hn⟩) sq0_4)
  | n + 1, hn => (sumStep4 (tblk4 V c ⟨n + 1, hn⟩) (acc4 V c n (Nat.lt_of_succ_lt hn)).1,
      sqStep4 (tblk4 V c ⟨n + 1, hn⟩) (acc4 V c n (Nat.lt_of_succ_lt hn)).2)

/-! ## The region invariant -/

/-- Before the first point: the generator register at some state and the scoped rest, as the launch hands them;
    afterwards the two accumulators at what the point before left, the remainder of the scoped rest unopened. -/
def Phi4 (V : EntryVal F) (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r)
      ∗ iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1])

theorem Phi4_zero (V : EntryVal F) (c : Dev nD) (n : ℕ) (h : n ≤ cfg4.N) (hz : n = 0) :
    Phi4 V c n h = iprop((∃ r, prngReg c r) ∗ Pipeline.scopedRest (Ix := Unit) (Name := ℕ) (U := UR sig nD τ) (Lvl := ℕ) (Val := Elt F) spec4 c) := by
  subst hz; rfl

theorem Phi4_succ (V : EntryVal F) (c : Dev nD) (n : ℕ) (hn : n < cfg4.N) :
    Phi4 V c (n + 1) hn = iprop((∃ r, prngReg c r)
      ∗ iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) := rfl

theorem Phi4_pos (V : EntryVal F) (c : Dev nD) (n : ℕ) (h : n ≤ cfg4.N) (hz : n ≠ 0) :
    Phi4 V c n h = iprop((∃ r, prngReg c r)
      ∗ iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The pipeline's proof data -/

/-- Region 4's proof data on core `c`, at the contents `V` the region is entered with. -/
def dat4 (V : EntryVal F) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => View.canon [⟨rA4, tblk4 V c t⟩]
    | ⟨7, _⟩ => stats4 (acc4 V c t.val t.isLt).1 (acc4 V c t.val t.isLt).2
  Φ t := Phi4 V c t.val (Nat.le_of_lt_succ t.isLt)
  q _ := fullShare
  owed _ := 0

theorem A_eq4 (V : EntryVal F) (c : Dev nD) (w : Fin cfg4.W) : (dat4 V c).A w = V c (Pipeline.arrRef spec4 w) := by
  dsimp only [dat4]

theorem q_eq4 (V : EntryVal F) (c : Dev nD) (w : Fin cfg4.W) : (dat4 V c).q w = fullShare := by
  dsimp only [dat4]

theorem owed_eq4 (V : EntryVal F) (c : Dev nD) (t : Fin (cfg4.N + 1)) : (dat4 V c).owed t = 0 := by
  dsimp only [dat4]

theorem hin4 (V : EntryVal F) (c : Dev nD) :
    iprop((∃ r, prngReg c r) ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = Phi4 V c 0 (Nat.zero_le _) from rfl, Phi4_zero V c 0 _ rfl]
  try exact Idealize.SL.BI.Entails.refl _

/-- After any point the invariant gives the launch's form back: the accumulators' named contents are forgotten. -/
theorem Phi4_out (V : EntryVal F) (c : Dev nD) (t : Fin (cfg4.N + 1)) (ht : t.val ≠ 0) :
    ((dat4 V c).Φ t : sProp 𝕄)
      ⊢ iprop((∃ r, prngReg c r) ∗ Pipeline.scopedRest (Ix := Unit) (Name := ℕ) (U := UR sig nD τ) (Lvl := ℕ) (Val := Elt F) spec4 c) := by
  rw [show (dat4 V c).Φ t = Phi4 V c t.val (Nat.le_of_lt_succ t.isLt) from rfl, Phi4_pos V c _ _ ht, scopedRest4_split]
  simp only [scM4_0, scM4_1, owns_whole]
  iintro ⟨Hg, ⟨HS0, HS1⟩, Hr⟩
  isplitl [Hg]; · iexact Hg
  isplitl [HS0 HS1]
  · isplitl [HS0]
    · iexists _; iexact HS0
    · iexists _; iexact HS1
  iexact Hr

theorem hout4 (V : EntryVal F) (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) :=
  Phi4_out V c _ (by rw [Fin.val_last]; have : cfg4.N = 8 := N_4; omega)

/-! ## The body's branch conditions -/

/-- The condition of the body's first `scf.if` (the accumulators are reset), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's second `scf.if` (the statistics are stored). -/
abbrev cond4_1 (i : grid4.Coords) : Prop := k4_cond2 i = 1#1
/-- It holds at the last point only. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
/-- Where the statistics are not stored the statistics window is idle and not written back. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7 : ∀ t : Fin cfg4.N, cond4_1 (grid4.coords t) → cfg4.idle 7 (grid4.coords t) = false := by decide +kernel

/-! ## The body's stores cover their buffers -/

theorem cover4_A (p0 : Vec F S5000x128 .f32) (y : S5000x128.Idx) :
    ∃ pc ∈ ([⟨rA4, p0⟩] : List (View.Piece (Elt F) S5000x128 .f32)), y ∈ pc.1.set :=
  View.cover_of_tiled [⟨rA4, p0⟩] S5000x128.size (by rfl) y

theorem cover4_R (p0 : Vec F S1x128 .f32) (y : S1x128.Idx) :
    ∃ pc ∈ ([⟨rR4, p0⟩] : List (View.Piece (Elt F) S1x128 .f32)), y ∈ pc.1.set :=
  View.cover_of_tiled [⟨rR4, p0⟩] S1x128.size (by rfl) y

theorem cover4_R2 (p0 p1 : Vec F S1x128 .f32) (y : S1x128.Idx) :
    ∃ pc ∈ ([⟨rR4, p0⟩, ⟨rR4, p1⟩] : List (View.Piece (Elt F) S1x128 .f32)), y ∈ pc.1.set :=
  View.cover_of_tiled [⟨rR4, p0⟩, ⟨rR4, p1⟩] S1x128.size (by rfl) y

theorem cover4_S (p0 p1 : Vec F S1x128 .f32) (y : S2x128.Idx) :
    ∃ pc ∈ ([⟨rS4_1, p1⟩, ⟨rS4_0, p0⟩] : List (View.Piece (Elt F) S2x128 .f32)), y ∈ pc.1.set :=
  View.cover_of_tiled [⟨rS4_1, p1⟩, ⟨rS4_0, p0⟩] S1x128.size (by rfl) y

/-- A whole-buffer store shadows whatever was stored before it. -/
theorem canon4_R_cons (p : Vec F S1x128 .f32) (L : List (View.Piece (Elt F) S1x128 .f32)) :
    View.canon (⟨rR4, p⟩ :: L) = View.canon [⟨rR4, p⟩] := by
  funext y
  obtain ⟨pc, hpc, hy⟩ := cover4_R p y
  simp only [List.mem_cons, List.not_mem_nil, or_false] at hpc
  subst hpc
  obtain ⟨x, rfl⟩ : ∃ x, (rR4).emb x = y := (rR4).exists_idx_of_mem hy
  rw [View.canon_cons_emb, View.canon_cons_emb]

/-- A load of an accumulator after a whole-buffer store into it reads what the store leaves. -/
theorem readCov4_R (v : View sig .tc .vmem S1x128 .f32) (p : Vec F S1x128 .f32) :
    v.readCov [⟨rR4, p⟩] (rR4).toLoadRect = View.ld (View.canon [⟨rR4, p⟩]) rR4 :=
  View.readCov_eq_canon_ld v _ rR4 (cover4_R p)

/-- The first point's accumulators, with the load that follows the reset spelt as the run finds it. -/
theorem sumStep4_first (v : View sig .tc .vmem S1x128 .f32) (y : FVec F S5000x128 .f32) :
    sumStep4 y (sum0_4 (F := F)) = View.canon [⟨rR4, k4_pay1 y (v.readCov [⟨rR4, k4_pay5 (F := F)⟩] (rR4).toLoadRect)⟩] := by
  unfold sumStep4 sum0_4; rw [readCov4_R]

theorem sqStep4_first (v : View sig .tc .vmem S1x128 .f32) (y : FVec F S5000x128 .f32) :
    sqStep4 y (sq0_4 (F := F)) = View.canon [⟨rR4, k4_pay2 y (v.readCov [⟨rR4, k4_pay6 (F := F)⟩] (rR4).toLoadRect)⟩] := by
  unfold sqStep4 sq0_4; rw [readCov4_R]

/-- The statistics, with the loads of the two accumulators after their last stores spelt as the run finds them. -/
theorem stats4_eq (v9 v10 : View sig .tc .vmem S1x128 .f32) (y : FVec F S5000x128 .f32) (s q : Vec F S1x128 .f32) :
    stats4 (sumStep4 y s) (sqStep4 y q)
      = View.canon [⟨rS4_1, k4_pay4 (v9.readCov [⟨rR4, k4_pay1 y (View.ld s rR4)⟩] (rR4).toLoadRect) (v10.readCov [⟨rR4, k4_pay2 y (View.ld q rR4)⟩] (rR4).toLoadRect)⟩,
          ⟨rS4_0, k4_pay3 (v9.readCov [⟨rR4, k4_pay1 y (View.ld s rR4)⟩] (rR4).toLoadRect)⟩] := by
  unfold stats4 sumStep4 sqStep4; rw [readCov4_R, readCov4_R]

set_option maxHeartbeats 1000000 in
/-- The body at the first point: both accumulators are reset, then the block is stored and added; the statistics
    window is handed back untouched. -/
theorem run4_first (c : Dev nD) (E : Set ℕ) (i : grid4.Coords) (hc0 : cond4_0 i) (hc1 : ¬cond4_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA4, blk4 x0 x1 x2 x3 x4 x5⟩]) ∗ owns (c : Thread nD τ) arg8 fullShare xi7
            ∗ owns (c : Thread nD τ) arg9 fullShare (sumStep4 (blk4 x0 x1 x2 x3 x4 x5) sum0_4) ∗ owns (c : Thread nD τ) arg10 fullShare (sqStep4 (blk4 x0 x1 x2 x3 x4 x5) sq0_4)) -∗ K ⟨⟩))
      ⊢ wp frame (wpE (defs₀ (F := F)) Variants.none c none) E (cc4__bn_relu_linear_stats_kernel i arg1 harg1 arg2 harg2 arg3 harg3 arg4 harg4 arg5 harg5 arg6 harg6 arg7 harg7 arg8 harg8 arg9 harg9 arg10 harg10) K := by
  simp only [cc4__bn_relu_linear_stats_kernel_eq_skeleton]; unfold cc4__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4_A _)).trans ?_
    sl_unfold_run_names
    rfl
  isplitl [H7]
  · iexists f7; isplitr; · ipureintro; rfl
    iexact H7
  isplitl [H8]
  · iexists _; isplitr
    swap; · iexact H8
    ipureintro
    sl_unfold_run_names
    refine (View.read_writes_eq_canon _ _ _ (cover4_R2 _ _)).trans ?_
    refine (canon4_R_cons _ _).trans ?_
    refine Eq.trans ?_ (sumStep4_first arg9.view _).symm
    rfl
  · iexists _; isplitr
    swap; · iexact H9
    ipureintro
    sl_unfold_run_names
    refine (View.read_writes_eq_canon _ _ _ (cover4_R2 _ _)).trans ?_
    refine (canon4_R_cons _ _).trans ?_
    refine Eq.trans ?_ (sqStep4_first arg10.view _).symm
    rfl

set_option maxHeartbeats 1000000 in
/-- The body at a point that is neither the first nor the last: the block is stored, the accumulators grow, the
    statistics window is handed back untouched. -/
theorem run4_mid (c : Dev nD) (E : Set ℕ) (i : grid4.Coords) (hc0 : ¬cond4_0 i) (hc1 : ¬cond4_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA4, blk4 x0 x1 x2 x3 x4 x5⟩]) ∗ owns (c : Thread nD τ) arg8 fullShare xi7
            ∗ owns (c : Thread nD τ) arg9 fullShare (sumStep4 (blk4 x0 x1 x2 x3 x4 x5) s) ∗ owns (c : Thread nD τ) arg10 fullShare (sqStep4 (blk4 x0 x1 x2 x3 x4 x5) q)) -∗ K ⟨⟩))
      ⊢ wp frame (wpE (defs₀ (F := F)) Variants.none c none) E (cc4__bn_relu_linear_stats_kernel i arg1 harg1 arg2 harg2 arg3 harg3 arg4 harg4 arg5 harg5 arg6 harg6 arg7 harg7 arg8 harg8 arg9 harg9 arg10 harg10) K := by
  simp only [cc4__bn_relu_linear_stats_kernel_eq_skeleton]; unfold cc4__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4_A _)).trans ?_
    sl_unfold_run_names
    rfl
  isplitl [H7]
  · iexists f7; isplitr; · ipureintro; rfl
    iexact H7
  isplitl [H8]
  · iexists _; isplitr
    swap; · iexact H8
    ipureintro
    refine (View.read_writes_eq_canon _ _ _ (cover4_R _)).trans ?_
    sl_unfold_run_names
    rfl
  · iexists _; isplitr
    swap; · iexact H9
    ipureintro
    refine (View.read_writes_eq_canon _ _ _ (cover4_R _)).trans ?_
    sl_unfold_run_names
    rfl

set_option maxHeartbeats 1000000 in
/-- The body at the last point: the block is stored and added, then the statistics are computed from the two
    accumulators and stored as the two rows of the statistics window. -/
theorem run4_last (c : Dev nD) (E : Set ℕ) (i : grid4.Coords) (hc0 : ¬cond4_0 i) (hc1 : cond4_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA4, blk4 x0 x1 x2 x3 x4 x5⟩])
            ∗ owns (c : Thread nD τ) arg8 fullShare (stats4 (sumStep4 (blk4 x0 x1 x2 x3 x4 x5) s) (sqStep4 (blk4 x0 x1 x2 x3 x4 x5) q))
            ∗ owns (c : Thread nD τ) arg9 fullShare (sumStep4 (blk4 x0 x1 x2 x3 x4 x5) s) ∗ owns (c : Thread nD τ) arg10 fullShare (sqStep4 (blk4 x0 x1 x2 x3 x4 x5) q)) -∗ K ⟨⟩))
      ⊢ wp frame (wpE (defs₀ (F := F)) Variants.none c none) E (cc4__bn_relu_linear_stats_kernel i arg1 harg1 arg2 harg2 arg3 harg3 arg4 harg4 arg5 harg5 arg6 harg6 arg7 harg7 arg8 harg8 arg9 harg9 arg10 harg10) K := by
  simp only [cc4__bn_relu_linear_stats_kernel_eq_skeleton]; unfold cc4__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0 hf1 hf2 hf3 hf4 hf5 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4_A _)).trans ?_
    sl_unfold_run_names
    rfl
  isplitl [H7]
  · iexists _; isplitr
    swap; · iexact H7
    ipureintro
    sl_unfold_run_names
    refine (View.read_writes_eq_canon _ _ _ (cover4_S _ _)).trans ?_
    refine Eq.trans ?_ (stats4_eq arg9.view arg10.view _ _ _).symm
    rfl
  isplitl [H8]
  · iexists _; isplitr
    swap; · iexact H8
    ipureintro
    refine (View.read_writes_eq_canon _ _ _ (cover4_R _)).trans ?_
    sl_unfold_run_names
    rfl
  · iexists _; isplitr
    swap; · iexact H9
    ipureintro
    refine (View.read_writes_eq_canon _ _ _ (cover4_R _)).trans ?_
    sl_unfold_run_names
    rfl

/-! ## What the inputs' staging buffers hold at a point -/

theorem before4_0_of (V : EntryVal F) {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of (V : EntryVal F) {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of (V : EntryVal F) {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of (V : EntryVal F) {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of (V : EntryVal F) {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of (V : EntryVal F) {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem after4_0 (V : EntryVal F) (c : Dev nD) (t : Fin cfg4.N) : (dat4 V c).after 0 t = iblk4 V c 0 t := by dsimp only [dat4]
theorem after4_1 (V : EntryVal F) (c : Dev nD) (t : Fin cfg4.N) : (dat4 V c).after 1 t = iblk4 V c 1 t := by dsimp only [dat4]
theorem after4_2 (V : EntryVal F) (c : Dev nD) (t : Fin cfg4.N) : (dat4 V c).after 2 t = iblk4 V c 2 t := by dsimp only [dat4]
theorem after4_3 (V : EntryVal F) (c : Dev nD) (t : Fin cfg4.N) : (dat4 V c).after 3 t = iblk4 V c 3 t := by dsimp only [dat4]
theorem after4_4 (V : EntryVal F) (c : Dev nD) (t : Fin cfg4.N) : (dat4 V c).after 4 t = iblk4 V c 4 t := by dsimp only [dat4]
theorem after4_5 (V : EntryVal F) (c : Dev nD) (t : Fin cfg4.N) : (dat4 V c).after 5 t = iblk4 V c 5 t := by dsimp only [dat4]
theorem after4_6 (V : EntryVal F) (c : Dev nD) (t : Fin cfg4.N) : (dat4 V c).after 6 t = View.canon [⟨rA4, tblk4 V c t⟩] := by dsimp only [dat4]
theorem after4_7 (V : EntryVal F) (c : Dev nD) (t : Fin cfg4.N) : (dat4 V c).after 7 t = stats4 (acc4 V c t.val t.isLt).1 (acc4 V c t.val t.isLt).2 := by dsimp only [dat4]

theorem before4_0 (V : EntryVal F) (c : Dev nD) (t : Fin cfg4.N) (d) : (dat4 V c).before 0 t d = iblk4 V c 0 t :=
  before4_0_of V (dat4 V c) (A_eq4 V c 0) (after4_0 V c) t d
theorem before4_1 (V : EntryVal F) (c : Dev nD) (t : Fin cfg4.N) (d) : (dat4 V c).before 1 t d = iblk4 V c 1 t :=
  before4_1_of V (dat4 V c) (A_eq4 V c 1) (after4_1 V c) t d
theorem before4_2 (V : EntryVal F) (c : Dev nD) (t : Fin cfg4.N) (d) : (dat4 V c).before 2 t d = iblk4 V c 2 t :=
  before4_2_of V (dat4 V c) (A_eq4 V c 2) (after4_2 V c) t d
theorem before4_3 (V : EntryVal F) (c : Dev nD) (t : Fin cfg4.N) (d) : (dat4 V c).before 3 t d = iblk4 V c 3 t :=
  before4_3_of V (dat4 V c) (A_eq4 V c 3) (after4_3 V c) t d
theorem before4_4 (V : EntryVal F) (c : Dev nD) (t : Fin cfg4.N) (d) : (dat4 V c).before 4 t d = iblk4 V c 4 t :=
  before4_4_of V (dat4 V c) (A_eq4 V c 4) (after4_4 V c) t d
theorem before4_5 (V : EntryVal F) (c : Dev nD) (t : Fin cfg4.N) (d) : (dat4 V c).before 5 t d = iblk4 V c 5 t :=
  before4_5_of V (dat4 V c) (A_eq4 V c 5) (after4_5 V c) t d

/-! ## The accumulators, point by point -/

theorem acc4_first (V : EntryVal F) (c : Dev nD) (t : Fin cfg4.N) (hz : t.val = 0) :
    acc4 V c t.val t.isLt = (sumStep4 (tblk4 V c t) sum0_4, sqStep4 (tblk4 V c t) sq0_4) := by
  obtain ⟨n, hn⟩ := t
  cases n with
  | zero => rfl
  | succ n => exact absurd hz (Nat.succ_ne_zero n)

theorem acc4_pos (V : EntryVal F) (c : Dev nD) (t : Fin cfg4.N) (hz : t.val ≠ 0) :
    acc4 V c t.val t.isLt = (sumStep4 (tblk4 V c t) (acc4 V c (t.val - 1) (Nat.lt_of_le_of_lt (Nat.sub_le _ _) t.isLt)).1,
      sqStep4 (tblk4 V c t) (acc4 V c (t.val - 1) (Nat.lt_of_le_of_lt (Nat.sub_le _ _) t.isLt)).2) := by
  obtain ⟨n, hn⟩ := t
  cases n with
  | zero => exact absurd rfl hz
  | succ n => rfl

/-- The launch's form of the invariant with the two accumulators as memrefs owned at some contents. -/
theorem Phi4_first_eq (c : Dev nD) :
    (iprop((∃ r, prngReg c r) ∗ Pipeline.scopedRest (Ix := Unit) (Name := ℕ) (U := UR sig nD τ) (Lvl := ℕ) (Val := Elt F) spec4 c) : sProp 𝕄)
      = iprop((∃ r, prngReg c r)
          ∗ iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

theorem Phi4_castSucc (V : EntryVal F) (c : Dev nD) (t : Fin cfg4.N) :
    (dat4 V c).Φ t.castSucc = Phi4 V c t.val (Nat.le_of_lt t.isLt) := by
  dsimp only [dat4]; simp only [Fin.coe_castSucc]

/-! ## The body obligation, at a generic point -/

def bodyPre4 (V : EntryVal F) (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (V : EntryVal F) (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point: the inputs' memrefs hold their blocks; the point's position says which case it is in; the
    invariant hands the body the two accumulators at what the point before left (at anything at the first point) and
    takes them back at this point's contents; the core owes nothing throughout. -/
theorem sound_body4 (V : EntryVal F) (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  have hN : t.val < 8 := lt_of_lt_of_eq t.isLt (show cfg4.N = 8 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  rw [show (dat4 V c).leavesExact 6 t = owns (c : Thread nD τ) (st4_6 t) fullShare ((dat4 V c).after 6 t) from by
    unfold Dat.leavesExact; rw [liveAt4_6 t], after4_6]
  by_cases h0 : t.val % 8 = 0
  · have hz : t.val = 0 := by omega
    have h1 : ¬t.val % 8 = 7 := by omega
    rw [Dat.leavesExact_idle (dat4 V c) 7 t (idleAt4_7 t (fun h => h1 ((hcond4_1 t).mp h))) (noFlush4_7 t (fun h => h1 ((hcond4_1 t).mp h)))]
    rw [acc4_first V c t hz]
    rw [Phi4_castSucc V c t, Phi4_zero V c _ _ hz, Phi4_first_eq]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run4_first c Set.univ (grid4.coords t) ((hcond4_0 t).mpr h0) (fun h => h1 ((hcond4_1 t).mp h)) _ _ _ _ _ _ _ _ _ _ _ _ _ _ _ _ _ _ _ _
      (iblk4 V c 0 t) (iblk4 V c 1 t) (iblk4 V c 2 t) (iblk4 V c 3 t) (iblk4 V c 4 t) (iblk4 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 8 = 7
    · have hz : t.val ≠ 0 := by omega
      rw [show (dat4 V c).leavesExact 7 t = owns (c : Thread nD τ) (st4_7 t) fullShare ((dat4 V c).after 7 t) from by
        unfold Dat.leavesExact; rw [liveAt4_7 t ((hcond4_1 t).mpr h1)], after4_7]
      rw [acc4_pos V c t hz]
      rw [Phi4_castSucc V c t, Phi4_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run4_last c Set.univ (grid4.coords t) (fun h => h0 ((hcond4_0 t).mp h)) ((hcond4_1 t).mpr h1) _ _ _ _ _ _ _ _ _ _ _ _ _ _ _ _ _ _ _ _
        (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hz : t.val ≠ 0 := by omega
      rw [Dat.leavesExact_idle (dat4 V c) 7 t (idleAt4_7 t (fun h => h1 ((hcond4_1 t).mp h))) (noFlush4_7 t (fun h => h1 ((hcond4_1 t).mp h)))]
      rw [acc4_pos V c t hz]
      rw [Phi4_castSucc V c t, Phi4_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run4_mid c Set.univ (grid4.coords t) (fun h => h0 ((hcond4_0 t).mp h)) (fun h => h1 ((hcond4_1 t).mp h)) _ _ _ _ _ _ _ _ _ _ _ _ _ _ _ _ _ _ _ _
        (iblk4 V c 0 t) (iblk4 V c 1 t) (iblk4 V c 2 t) (iblk4 V c 3 t) (iblk4 V c 4 t) (iblk4 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation4 (V : EntryVal F) (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 5: the final batch-normalisation kernel (five windows: the activations' row block, the two statistics
rows, the scale row, the shift row; the output's row block) -/

/-! ## The windows' blocks -/

/-- Window `w`'s block at point `t`, read off its array as the region finds it. -/
def iblk5 (V : EntryVal F) (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- An input window's current staging buffer holds its block at every point, fetched there or not (unfetched, the
    block index has not moved), for any proof data whose array is the entry contents and whose body leaves the
    block in place. One lemma per input window. -/
theorem before5_0_of (V : EntryVal F) {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of (V : EntryVal F) {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of (V : EntryVal F) {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of (V : EntryVal F) {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- Row 0 of the statistics block (the mean). -/
abbrev r5_m : Rect S2x128 := Rect.unit (s := S2x128) ![0, 0] S1x128.size inb_S2x128_S1x128_0_0
/-- Row 1 of the statistics block (the variance). -/
abbrev r5_v : Rect S2x128 := Rect.unit (s := S2x128) ![1, 0] S1x128.size inb_S2x128_S1x128_1_0
/-- A whole row vector. -/
abbrev r5_r : Rect S1x128 := Rect.unit (s := S1x128) ![0, 0] S1x128.size inb_S1x128_S1x128_0_0
/-- A whole row block. -/
abbrev r5_b : Rect S5000x128 := Rect.unit (s := S5000x128) ![0, 0] S5000x128.size inb_S5000x128_S5000x128_0_0

/-! ## What the body leaves in the output window's buffer -/

/-- The output's staging buffer after the body, from the input windows' blocks: its one store, of the payload
    at the five values loaded. -/
def out5_4 (x0 : Vec F S5000x128 .f32) (x1 : Vec F S2x128 .f32) (x2 : Vec F S1x128 .f32) (x3 : Vec F S1x128 .f32) : Vec F S5000x128 .f32 :=
  View.canon [⟨r5_b, k5_pay1 (View.ld x1 r5_m) (View.ld x1 r5_v) (View.ld x2 r5_r) (View.ld x0 r5_b) (View.ld x3 r5_r)⟩]

/-- The store is of the whole buffer, so it covers it. -/
theorem cover5_4 (p0 : Vec F S5000x128 .f32) (y : S5000x128.Idx) :
    ∃ pc ∈ ([⟨r5_b, p0⟩] : List (View.Piece (Elt F) S5000x128 .f32)), y ∈ pc.1.set :=
  View.cover_of_tiled [⟨r5_b, p0⟩] S5000x128.size (by rfl) y

/-! ## The body's triple -/

set_option maxHeartbeats 1000000 in
/-- The kernel body on whole staging memrefs, the inputs' at read contents and the output's at anything, runs to
    the continuation holding the inputs' as they were and the output's at `out5_4` of the inputs' (the value it
    loads from the output's buffer before storing is not used). -/
theorem sound_kernel5 (c : Dev nD) (E : Set ℕ) (i : grid5.Coords)
    (arg1 : Memref sig .tc .vmem S5000x128 .f32) (harg1 : arg1.IsWhole) (arg2 : Memref sig .tc .vmem S2x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__bn_relu_final_kernel i arg1 harg1 arg2 harg2 arg3 harg3 arg4 harg4 arg5 harg5) K := by
  simp only [cc5__bn_relu_final_kernel_eq_skeleton]; unfold cc5__bn_relu_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- Region 5's proof data on core `c`, at the contents `V` the region is entered with: after the body at a point
    each input's buffer holds its block and the output's `out5_4` of the input blocks; the invariant is the scoped
    rest and the generator register, untouched; nothing owed; full shares. -/
def dat5 (V : EntryVal F) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (V : EntryVal F) (c : Dev nD) (w : Fin cfg5.W) : (dat5 V c).A w = V c (Pipeline.arrRef spec5 w) := by
  dsimp only [dat5]

theorem q_eq5 (V : EntryVal F) (c : Dev nD) (w : Fin cfg5.W) : (dat5 V c).q w = fullShare := by
  dsimp only [dat5]

theorem owed_eq5 (V : EntryVal F) (c : Dev nD) (t : Fin (cfg5.N + 1)) : (dat5 V c).owed t = 0 := by
  dsimp only [dat5]

/-- What the body leaves, window by window. -/
theorem after5_0 (V : EntryVal F) (c : Dev nD) (t : Fin cfg5.N) : (dat5 V c).after 0 t = iblk5 V c 0 t := by dsimp only [dat5]
theorem after5_1 (V : EntryVal F) (c : Dev nD) (t : Fin cfg5.N) : (dat5 V c).after 1 t = iblk5 V c 1 t := by dsimp only [dat5]
theorem after5_2 (V : EntryVal F) (c : Dev nD) (t : Fin cfg5.N) : (dat5 V c).after 2 t = iblk5 V c 2 t := by dsimp only [dat5]
theorem after5_3 (V : EntryVal F) (c : Dev nD) (t : Fin cfg5.N) : (dat5 V c).after 3 t = iblk5 V c 3 t := by dsimp only [dat5]
theorem after5_4 (V : EntryVal F) (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (V : EntryVal F) (c : Dev nD) (t : Fin cfg5.N) (d) : (dat5 V c).before 0 t d = iblk5 V c 0 t :=
  before5_0_of V (dat5 V c) (A_eq5 V c 0) (after5_0 V c) t d
theorem before5_1 (V : EntryVal F) (c : Dev nD) (t : Fin cfg5.N) (d) : (dat5 V c).before 1 t d = iblk5 V c 1 t :=
  before5_1_of V (dat5 V c) (A_eq5 V c 1) (after5_1 V c) t d
theorem before5_2 (V : EntryVal F) (c : Dev nD) (t : Fin cfg5.N) (d) : (dat5 V c).before 2 t d = iblk5 V c 2 t :=
  before5_2_of V (dat5 V c) (A_eq5 V c 2) (after5_2 V c) t d
theorem before5_3 (V : EntryVal F) (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (V : EntryVal F) (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (V : EntryVal F) (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the kernel's triple applies; the invariant and
    the core's tallies pass through unread. -/
theorem sound_body5 (V : EntryVal F) (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (V : EntryVal F) (c : Dev nD) : BodyObligation (dat5 (F := F) V c) (defs₀ (F := F)) Variants.none () Set.univ := fun t => by
  rw [bigSep_W5, bigSep_W5]
  exact sound_body5 V c t

theorem hin5 (V : EntryVal F) (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp 𝕄) := by
  rw [show (dat5 V c).Φ 0 = Pipeline.ΦA spec5 c from rfl]; unfold Pipeline.ΦA
  iintro ⟨Hp, Hr⟩
  isplitl [Hr]; · iexact Hr
  iexact Hp

theorem hout5 (V : EntryVal F) (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end Cert.KernelIdeal.Hand

end
-- ==== Proof.KI.Reg6.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The frame of kernel region 6: the affine map of the combined rows, block by block, with its column statistics

The kernel runs over 8 row blocks. At each point it stores the block's affine image and adds the block's column
sums and column sums of squares to two running sums it carries between the points in two scratch buffers, which it
resets at the first point; at the last point it stores the mean and the clamped variance computed from the two
running sums. The proof data names what the two scratch buffers hold before each point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions, from the grid coordinate -/

/-- The condition of the first `scf.if` (the grid coordinate is 0), as the kernel's scalar chain computes it. -/
abbrev condA6 (i : grid6.Coords) : Prop := (Scalar.cmpi .ne (Scalar.extui (Scalar.cmpi .eq (BitVec.ofNat 32 (i 0).val) 0#32)) 0#32) = 1#1
/-- The condition of the second `scf.if` (the grid coordinate is 7). -/
abbrev condB6 (i : grid6.Coords) : Prop := k6_cond2 i = 1#1

/-! ## The rectangles of the body's accesses and what a whole-buffer access reads and leaves -/

theorem zz6 : (![0, 0] : Fin 2 → Nat) = fun _ => 0 := by funext a; fin_cases a <;> rfl

abbrev rBlk6 : Rect S5000x128 := Rect.unit (s := S5000x128) ![0, 0] S5000x128.size inb_S5000x128_S5000x128_0_0
abbrev rRow6 : Rect S1x128 := Rect.unit (s := S1x128) ![0, 0] S1x128.size inb_S1x128_S1x128_0_0
abbrev rOne6 : Rect S1x1 := Rect.unit (s := S1x1) ![0, 0] S1x1.size inb_S1x1_S1x1_0_0
abbrev rWt6 : Rect S128x128 := Rect.unit (s := S128x128) ![0, 0] S128x128.size inb_S128x128_S128x128_0_0
abbrev rSt6_0 : Rect S2x128 := Rect.unit (s := S2x128) ![0, 0] S1x128.size inb_S2x128_S1x128_0_0
abbrev rSt6_1 : Rect S2x128 := Rect.unit (s := S2x128) ![1, 0] S1x128.size inb_S2x128_S1x128_1_0

/-- A load through the whole buffer reads its contents. -/
theorem ldBlk6 (X : Vec F S5000x128 .f32) : View.ld X rBlk6 = X := View.ld_unit_zero zz6 _ X
theorem ldRow6 (X : Vec F S1x128 .f32) : View.ld X rRow6 = X := View.ld_unit_zero zz6 _ X
theorem ldOne6 (X : Vec F S1x1 .f32) : View.ld X rOne6 = X := View.ld_unit_zero zz6 _ X
theorem ldWt6 (X : Vec F S128x128 .f32) : View.ld X rWt6 = X := View.ld_unit_zero zz6 _ X

/-! ## What the body leaves, from what it reads -/

/-- The output block: the affine map of the combined input rows. -/
def yOut6 (x0 x1 : Vec F S5000x128 .f32) (x2 : Vec F S1x1 .f32) (x3 : Vec F S128x128 .f32) (x4 : Vec F S1x128 .f32) : Vec F S5000x128 .f32 :=
  k6_pay6 (View.ld x2 rOne6) (View.ld x0 rBlk6) (View.ld x1 rBlk6) (View.ld x3 rWt6) (View.ld x4 rRow6)
/-- The running column sums after the block is added to `s`. -/
def sOut6 (x0 x1 : Vec F S5000x128 .f32) (x2 : Vec F S1x1 .f32) (x3 : Vec F S128x128 .f32) (x4 : Vec F S1x128 .f32) (s : Vec F S1x128 .f32) : Vec F S1x128 .f32 :=
  k6_pay7 (View.ld x2 rOne6) (View.ld x0 rBlk6) (View.ld x1 rBlk6) (View.ld x3 rWt6) (View.ld x4 rRow6) (View.ld s rRow6)
/-- The running column sums of squares after the block's squares are added to `q`. -/
def qOut6 (x0 x1 : Vec F S5000x128 .f32) (x2 : Vec F S1x1 .f32) (x3 : Vec F S128x128 .f32) (x4 : Vec F S1x128 .f32) (q : Vec F S1x128 .f32) : Vec F S1x128 .f32 :=
  k6_pay1 (k6_pay8 (View.ld x2 rOne6) (View.ld x0 rBlk6) (View.ld x1 rBlk6) (View.ld x3 rWt6) (View.ld x4 rRow6) (View.ld q rRow6))
/-- The statistics block from the two running sums: row 0 the mean, row 1 the clamped variance (the two row stores, last first). -/
def stOut6 (s q : Vec F S1x128 .f32) : Vec F S2x128 .f32 :=
  View.canon [⟨rSt6_1, k6_pay3 (View.ld s rRow6) (View.ld q rRow6)⟩, ⟨rSt6_0, k6_pay2 (View.ld s rRow6)⟩]

theorem yOut6_eq (x0 x1 : Vec F S5000x128 .f32) (x2 : Vec F S1x1 .f32) (x3 : Vec F S128x128 .f32) (x4 : Vec F S1x128 .f32) :
    yOut6 x0 x1 x2 x3 x4 = k6_pay6 x2 x0 x1 x3 x4 := by
  unfold yOut6; rw [ldOne6, ldBlk6, ldBlk6, ldWt6, ldRow6]
theorem sOut6_eq (x0 x1 : Vec F S5000x128 .f32) (x2 : Vec F S1x1 .f32) (x3 : Vec F S128x128 .f32) (x4 : Vec F S1x128 .f32) (s : Vec F S1x128 .f32) :
    sOut6 x0 x1 x2 x3 x4 s = k6_pay7 x2 x0 x1 x3 x4 s := by
  unfold sOut6; rw [ldOne6, ldBlk6, ldBlk6, ldWt6, ldRow6, ldRow6]
theorem qOut6_eq (x0 x1 : Vec F S5000x128 .f32) (x2 : Vec F S1x1 .f32) (x3 : Vec F S128x128 .f32) (x4 : Vec F S1x128 .f32) (q : Vec F S1x128 .f32) :
    qOut6 x0 x1 x2 x3 x4 q = k6_pay1 (k6_pay8 x2 x0 x1 x3 x4 q) := by
  unfold qOut6; rw [ldOne6, ldBlk6, ldBlk6, ldWt6, ldRow6, ldRow6]
theorem stOut6_eq (s q : Vec F S1x128 .f32) :
    stOut6 s q = View.canon [⟨rSt6_1, k6_pay3 s q⟩, ⟨rSt6_0, k6_pay2 s⟩] := by
  unfold stOut6; rw [ldRow6, ldRow6]

/-- The two row stores cover the statistics block. -/
theorem coverSt6 (p1 p0 : Vec F S1x128 .f32) (y : S2x128.Idx) :
    ∃ pc ∈ ([⟨rSt6_1, p1⟩, ⟨rSt6_0, p0⟩] : List (View.Piece (Elt F) S2x128 .f32)), y ∈ pc.1.set :=
  View.cover_of_tiled [⟨rSt6_1, p1⟩, ⟨rSt6_0, p0⟩] S1x128.size (by rfl) y

/-- One store through the whole buffer leaves its payload, whatever the buffer held. -/
theorem wrBlk6 {κ : Kind} {sp : Space} (v : View sig κ sp S5000x128 .f32) (f : v.ty.Contents (Elt F)) (w : Vec F S5000x128 .f32) :
    v.read (Elt F) (v.writes (Elt F) f [⟨rBlk6, w⟩]) = w :=
  (View.read_writes_eq_canon v f _ (View.cover_of_tiled [⟨rBlk6, w⟩] S5000x128.size (by rfl))).trans (View.canon_unit_zero zz6 _ w)
theorem wrRow6 {κ : Kind} {sp : Space} (v : View sig κ sp S1x128 .f32) (f : v.ty.Contents (Elt F)) (w : Vec F S1x128 .f32) :
    v.read (Elt F) (v.writes (Elt F) f [⟨rRow6, w⟩]) = w :=
  (View.read_writes_eq_canon v f _ (View.cover_of_tiled [⟨rRow6, w⟩] S1x128.size (by rfl))).trans (View.canon_unit_zero zz6 _ w)
/-- Two stores through the whole buffer leave the later payload. -/
theorem wrRowTwo6 {κ : Kind} {sp : Space} (v : View sig κ sp S1x128 .f32) (f : v.ty.Contents (Elt F)) (w w' : Vec F S1x128 .f32) :
    v.read (Elt F) (v.writes (Elt F) f [⟨rRow6, w⟩, ⟨rRow6, w'⟩]) = w :=
  (View.read_writes_eq_canon v f _ (fun y => by
    obtain ⟨p, hp, hy⟩ := View.cover_of_tiled [(⟨rRow6, w⟩ : View.Piece (Elt F) S1x128 .f32)] S1x128.size (by rfl) y
    exact ⟨p, List.mem_cons.mpr (Or.inl (List.mem_singleton.mp hp)), hy⟩)).trans (View.canon_cons_unit_zero zz6 _ w _)
/-- A load through the whole buffer after one store through it reads the payload. -/
theorem rcRow6 {κ : Kind} {sp : Space} (v : View sig κ sp S1x128 .f32) (w : Vec F S1x128 .f32) :
    v.readCov [(⟨rRow6, w⟩ : View.Piece (Elt F) S1x128 .f32)] rRow6.toLoadRect = View.ld w rRow6 :=
  (View.readCov_unit_zero v zz6 _ w).trans (ldRow6 w).symm

/-- A store through the whole buffer, LAST, leaves its payload whatever the earlier stores were. -/
theorem wrRowCons6 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow6, w⟩ :: L)) = w :=
  (View.read_writes_eq_canon v f _ (fun y => by
    obtain ⟨p, hp, hy⟩ := View.cover_of_tiled [(⟨rRow6, w⟩ : View.Piece (Elt F) S1x128 .f32)] S1x128.size (by rfl) y
    exact ⟨p, List.mem_cons.mpr (Or.inl (List.mem_singleton.mp hp)), hy⟩)).trans (View.canon_cons_unit_zero zz6 _ w L)

/-! ## The windows' blocks -/

/-- Window `w`'s block at point `t`, read off its array as the region finds it (`V`). -/
def iblk6 (V : EntryVal F) (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The five input blocks at point `t`, at their literal vector types. -/
def xb6_0 (V : EntryVal F) (c : Dev nD) (t : Fin cfg6.N) : Vec F S5000x128 .f32 := iblk6 V c 0 t
def xb6_1 (V : EntryVal F) (c : Dev nD) (t : Fin cfg6.N) : Vec F S5000x128 .f32 := iblk6 V c 1 t
def xb6_2 (V : EntryVal F) (c : Dev nD) (t : Fin cfg6.N) : Vec F S1x1 .f32 := iblk6 V c 2 t
def xb6_3 (V : EntryVal F) (c : Dev nD) (t : Fin cfg6.N) : Vec F S128x128 .f32 := iblk6 V c 3 t
def xb6_4 (V : EntryVal F) (c : Dev nD) (t : Fin cfg6.N) : Vec F S1x128 .f32 := iblk6 V c 4 t

/-! ## The two running sums, point by point -/

/-- What the two scratch buffers hold BEFORE the accumulation at position `n`: zeros at the first point (the body
    resets them there), afterwards what the point before left. -/
def SQ6 (V : EntryVal F) (c : Dev nD) : ℕ → Vec F S1x128 .f32 × Vec F S1x128 .f32
  | 0 => (k6_pay4, k6_pay5)
  | n + 1 =>
    if h : n < cfg6.N then
      (sOut6 (xb6_0 V c ⟨n, h⟩) (xb6_1 V c ⟨n, h⟩) (xb6_2 V c ⟨n, h⟩) (xb6_3 V c ⟨n, h⟩) (xb6_4 V c ⟨n, h⟩) (SQ6 V c n).1,
       qOut6 (xb6_0 V c ⟨n, h⟩) (xb6_1 V c ⟨n, h⟩) (xb6_2 V c ⟨n, h⟩) (xb6_3 V c ⟨n, h⟩) (xb6_4 V c ⟨n, h⟩) (SQ6 V c n).2)
    else SQ6 V c n

theorem SQ6_zero (V : EntryVal F) (c : Dev nD) : SQ6 V c 0 = (k6_pay4, k6_pay5) := rfl

theorem SQ6_succ (V : EntryVal F) (c : Dev nD) (t : Fin cfg6.N) :
    SQ6 V c (t.val + 1) =
      (sOut6 (xb6_0 V c t) (xb6_1 V c t) (xb6_2 V c t) (xb6_3 V c t) (xb6_4 V c t) (SQ6 V c t.val).1,
       qOut6 (xb6_0 V c t) (xb6_1 V c t) (xb6_2 V c t) (xb6_3 V c t) (xb6_4 V c t) (SQ6 V c t.val).2) := by
  rw [SQ6, dif_pos t.isLt]

/-! ## The invariant -/

abbrev scr6_0 : Memref sig .tc .vmem S1x128 .f32 := Memref.whole cc6_scratch0
abbrev scr6_1 : Memref sig .tc .vmem S1x128 .f32 := Memref.whole cc6_scratch1

/-- The region invariant before position `n`: before the first point the generator register and the scoped rest
    (the two scratch buffers at anything); afterwards the two scratch buffers at the running sums and the scoped rest
    without them. -/
def Phi6 (V : EntryVal F) (c : Dev nD) : ℕ → sProp 𝕄
  | 0 => iprop((∃ r, prngReg c r) ∗ Pipeline.scopedRest (Ix := Unit) (Name := ℕ) (U := UR sig nD τ) (Lvl := ℕ) (Val := Elt F) spec6 c)
  | n + 1 => iprop((∃ r, prngReg c r)
      ∗ iprop(owns (c : Thread nD τ) scr6_0 fullShare (SQ6 V c (n + 1)).1 ∗ owns (c : Thread nD τ) scr6_1 fullShare (SQ6 V c (n + 1)).2)
      ∗ Pipeline.scopedRestBut (Ix := Unit) (Name := ℕ) (U := UR sig nD τ) (Lvl := ℕ) (Val := Elt F) spec6 c [cc6_scratch0, cc6_scratch1])

theorem Phi6_zero (V : EntryVal F) (c : Dev nD) :
    Phi6 V c 0 = iprop((∃ r, prngReg c r) ∗ Pipeline.scopedRest (Ix := Unit) (Name := ℕ) (U := UR sig nD τ) (Lvl := ℕ) (Val := Elt F) spec6 c) := rfl

theorem Phi6_succ (V : EntryVal F) (c : Dev nD) (n : ℕ) :
    Phi6 V c (n + 1) = iprop((∃ r, prngReg c r)
      ∗ iprop(owns (c : Thread nD τ) scr6_0 fullShare (SQ6 V c (n + 1)).1 ∗ owns (c : Thread nD τ) scr6_1 fullShare (SQ6 V c (n + 1)).2)
      ∗ Pipeline.scopedRestBut (Ix := Unit) (Name := ℕ) (U := UR sig nD τ) (Lvl := ℕ) (Val := Elt F) spec6 c [cc6_scratch0, cc6_scratch1]) := rfl

/-- The scoped rest with the two scratch operands as memrefs owned at some contents. -/
theorem scopedRest6_owns (c : Dev nD) :
    (Pipeline.scopedRest (Ix := Unit) (Name := ℕ) (U := UR sig nD τ) (Lvl := ℕ) (Val := Elt F) spec6 c : sProp 𝕄)
      = iprop(iprop((∃ d, owns (c : Thread nD τ) scr6_0 fullShare d) ∗ (∃ d, owns (c : Thread nD τ) scr6_1 fullShare d))
          ∗ Pipeline.scopedRestBut (Ix := Unit) (Name := ℕ) (U := UR sig nD τ) (Lvl := ℕ) (Val := Elt F) spec6 c [cc6_scratch0, cc6_scratch1]) := by
  rw [scopedRest6_split]; simp only [scr6_0, scr6_1, owns_whole]; try rfl

/-! ## The pipeline's proof data -/

/-- Region 6's proof data on core `c`, at the contents `V` the region is entered with: the arrays as the region
    finds them; after the body at point `t` each input's buffer at its block, the output block at the affine map of
    the input blocks, the statistics block at the statistics of the two running sums after the point; the invariant
    carries the two running sums; nothing owed; full shares. -/
def dat6 (V : EntryVal F) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => yOut6 (xb6_0 V c t) (xb6_1 V c t) (xb6_2 V c t) (xb6_3 V c t) (xb6_4 V c t)
    | ⟨6, _⟩ => stOut6 (SQ6 V c (t.val + 1)).1 (SQ6 V c (t.val + 1)).2
  Φ t := Phi6 V c t.val
  q _ := fullShare
  owed _ := 0

theorem A_eq6 (V : EntryVal F) (c : Dev nD) (w : Fin cfg6.W) : (dat6 V c).A w = V c (Pipeline.arrRef spec6 w) := by
  dsimp only [dat6]

theorem q_eq6 (V : EntryVal F) (c : Dev nD) (w : Fin cfg6.W) : (dat6 V c).q w = fullShare := by
  dsimp only [dat6]

theorem owed_eq6 (V : EntryVal F) (c : Dev nD) (t : Fin (cfg6.N + 1)) : (dat6 V c).owed t = 0 := by
  dsimp only [dat6]

theorem Phi_eq6 (V : EntryVal F) (c : Dev nD) (t : Fin (cfg6.N + 1)) : (dat6 V c).Φ t = Phi6 V c t.val := by
  dsimp only [dat6]

/-- What the launch hands the region is the invariant before the first point. -/
theorem hin6 (V : EntryVal F) (c : Dev nD) :
    iprop((∃ r, prngReg c r) ∗ Pipeline.scopedRest (Ix := Unit) (Name := ℕ) (U := UR sig nD τ) (Lvl := ℕ) (Val := Elt F) spec6 c)
      ⊢ ((dat6 V c).Φ 0 : sProp 𝕄) := by
  rw [Phi_eq6, Fin.val_zero, Phi6_zero]

/-- After the last point the invariant gives it back: the running sums' named contents are forgotten. -/
theorem hout6 (V : EntryVal F) (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) (Val := Elt F) spec6 c) := by
  rw [Phi_eq6, Fin.val_last, show cfg6.N = 7 + 1 from N_6, Phi6_succ, scopedRest6_owns]
  iintro ⟨Hg, ⟨HS0, HS1⟩, Hr⟩
  isplitl [Hg]; · iexact Hg
  isplitr [Hr]
  · isplitl [HS0]
    · iexists _; iexact HS0
    · iexists _; iexact HS1
  · iexact Hr

/-! ## The conditions and the schedule, decided over the grid -/

/-- The first condition holds at the first point only. -/
theorem hcondA6 : ∀ t : Fin cfg6.N, condA6 (grid6.coords t) ↔ t.val % 8 = 0 :=
  (by decide +kernel : ∀ t : Fin grid6.N, condA6 (grid6.coords t) ↔ t.val % 8 = 0)
/-- The second condition holds at the last point only. -/
theorem hcondB6 : ∀ t : Fin cfg6.N, condB6 (grid6.coords t) ↔ t.val % 8 = 7 :=
  (by decide +kernel : ∀ t : Fin grid6.N, condB6 (grid6.coords t) ↔ t.val % 8 = 7)

/-- Windows 0–5 are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
/-- Where the second condition fails the statistics window is idle and not written back; where it holds, live. -/
theorem idleAt6_6 : ∀ t : Fin cfg6.N, ¬condB6 (grid6.coords t) → cfg6.idle 6 (grid6.coords t) = true := by decide +kernel
theorem noFlush6_6 : ∀ t : Fin cfg6.N, ¬condB6 (grid6.coords t) → (cfg6.win 6).flush t = false := by decide +kernel
theorem liveAt6_6 : ∀ t : Fin cfg6.N, condB6 (grid6.coords t) → cfg6.idle 6 (grid6.coords t) = false := by decide +kernel

/-- What the body leaves, window by window. -/
theorem after6_0 (V : EntryVal F) (c : Dev nD) (t : Fin cfg6.N) : (dat6 V c).after 0 t = iblk6 V c 0 t := by dsimp only [dat6]
theorem after6_1 (V : EntryVal F) (c : Dev nD) (t : Fin cfg6.N) : (dat6 V c).after 1 t = iblk6 V c 1 t := by dsimp only [dat6]
theorem after6_2 (V : EntryVal F) (c : Dev nD) (t : Fin cfg6.N) : (dat6 V c).after 2 t = iblk6 V c 2 t := by dsimp only [dat6]
theorem after6_3 (V : EntryVal F) (c : Dev nD) (t : Fin cfg6.N) : (dat6 V c).after 3 t = iblk6 V c 3 t := by dsimp only [dat6]
theorem after6_4 (V : EntryVal F) (c : Dev nD) (t : Fin cfg6.N) : (dat6 V c).after 4 t = iblk6 V c 4 t := by dsimp only [dat6]
theorem after6_5 (V : EntryVal F) (c : Dev nD) (t : Fin cfg6.N) :
    (dat6 V c).after 5 t = yOut6 (xb6_0 V c t) (xb6_1 V c t) (xb6_2 V c t) (xb6_3 V c t) (xb6_4 V c t) := by dsimp only [dat6]
theorem after6_6 (V : EntryVal F) (c : Dev nD) (t : Fin cfg6.N) :
    (dat6 V c).after 6 t = stOut6 (SQ6 V c (t.val + 1)).1 (SQ6 V c (t.val + 1)).2 := by dsimp only [dat6]

/-- Each input's current staging buffer holds its block at every point, fetched there or not: an input window of a body
    that leaves its block in place, uncut and never idle. -/
theorem before6_0 (V : EntryVal F) (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (V : EntryVal F) (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (V : EntryVal F) (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (V : EntryVal F) (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)
theorem before6_4 (V : EntryVal F) (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)

theorem SQ6_succ_fst (V : EntryVal F) (c : Dev nD) (t : Fin cfg6.N) :
    (SQ6 V c (t.val + 1)).1 = sOut6 (xb6_0 V c t) (xb6_1 V c t) (xb6_2 V c t) (xb6_3 V c t) (xb6_4 V c t) (SQ6 V c t.val).1 := by
  rw [SQ6_succ]
theorem SQ6_succ_snd (V : EntryVal F) (c : Dev nD) (t : Fin cfg6.N) :
    (SQ6 V c (t.val + 1)).2 = qOut6 (xb6_0 V c t) (xb6_1 V c t) (xb6_2 V c t) (xb6_3 V c t) (xb6_4 V c t) (SQ6 V c t.val).2 := by
  rw [SQ6_succ]

theorem Phi6_pos (V : EntryVal F) (c : Dev nD) (n : ℕ) (hn : n ≠ 0) :
    Phi6 V c n = iprop((∃ r, prngReg c r)
      ∗ iprop(owns (c : Thread nD τ) scr6_0 fullShare (SQ6 V c n).1 ∗ owns (c : Thread nD τ) scr6_1 fullShare (SQ6 V c n).2)
      ∗ Pipeline.scopedRestBut (Ix := Unit) (Name := ℕ) (U := UR sig nD τ) (Lvl := ℕ) (Val := Elt F) spec6 c [cc6_scratch0, cc6_scratch1]) := by
  cases n with
  | zero => exact absurd rfl hn
  | succ n => rfl

/-! ## The body's triple, case by case -/

set_option maxHeartbeats 1000000 in
/-- The body at a middle point (neither condition holds): the block is computed and stored, the two running sums are
    advanced; the statistics block is not touched. -/
theorem runMid6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA6 i) (hc2 : ¬condB6 i)
    (x0 x1 : Vec F S5000x128 .f32) (x2 : Vec F S1x1 .f32) (x3 : Vec F S128x128 .f32) (x4 : Vec F S1x128 .f32) (x6 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut6 x0 x1 x2 x3 x4) ∗ owns (c : Thread nD τ) arg7 fullShare x6 ∗ owns (c : Thread nD τ) arg8 fullShare (sOut6 x0 x1 x2 x3 x4 s) ∗ owns (c : Thread nD τ) arg9 fullShare (qOut6 x0 x1 x2 x3 x4 q)) -∗ K ⟨⟩))
      ⊢ wp frame (wpE (defs₀ (F := F)) Variants.none c none) E (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf0; subst hf1; subst hf2; subst hf3; subst hf4; subst hf6; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk6 _ _ _).trans ?_
    rfl
  isplitl [H6]; · iexists f6; isplitr; · ipureintro; rfl
                  iexact H6
  isplitl [H7]
  · iexists _; isplitr
    swap; · iexact H7
    ipureintro
    refine (wrRow6 _ _ _).trans ?_
    rfl
  · iexists _; isplitr
    swap; · iexact H8
    ipureintro
    refine (wrRow6 _ _ _).trans ?_
    rfl

set_option maxHeartbeats 1000000 in
/-- The body at the first point: the two running sums are reset to zero, whatever they held, then as at a middle point. -/
theorem runFirst6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : condA6 i) (hc2 : ¬condB6 i)
    (x0 x1 : Vec F S5000x128 .f32) (x2 : Vec F S1x1 .f32) (x3 : Vec F S128x128 .f32) (x4 : Vec F S1x128 .f32) (x6 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut6 x0 x1 x2 x3 x4) ∗ owns (c : Thread nD τ) arg7 fullShare x6 ∗ owns (c : Thread nD τ) arg8 fullShare (sOut6 x0 x1 x2 x3 x4 k6_pay4) ∗ owns (c : Thread nD τ) arg9 fullShare (qOut6 x0 x1 x2 x3 x4 k6_pay5)) -∗ K ⟨⟩))
      ⊢ wp frame (wpE (defs₀ (F := F)) Variants.none c none) E (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  subst hf0; subst hf1; subst hf2; subst hf3; subst hf4; subst hf6
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk6 _ _ _).trans ?_
    rfl
  isplitl [H6]; · iexists f6; isplitr; · ipureintro; rfl
                  iexact H6
  isplitl [H7]
  · iexists _; isplitr
    swap; · iexact H7
    ipureintro
    refine (wrRowCons6 _ _ _ _).trans ?_
    sl_unfold_run_names
    first | rfl | (rw [rcRow6]; rfl)
  · iexists _; isplitr
    swap; · iexact H8
    ipureintro
    refine (wrRowCons6 _ _ _ _).trans ?_
    sl_unfold_run_names
    first | rfl | (rw [rcRow6]; rfl)

set_option maxHeartbeats 1000000 in
/-- The body at the last point: as at a middle point, then the statistics are computed from the two running sums and
    stored as the two rows of the statistics block, whatever it held. -/
theorem runLast6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA6 i) (hc2 : condB6 i)
    (x0 x1 : Vec F S5000x128 .f32) (x2 : Vec F S1x1 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut6 x0 x1 x2 x3 x4) ∗ owns (c : Thread nD τ) arg7 fullShare (stOut6 (sOut6 x0 x1 x2 x3 x4 s) (qOut6 x0 x1 x2 x3 x4 q)) ∗ owns (c : Thread nD τ) arg8 fullShare (sOut6 x0 x1 x2 x3 x4 s) ∗ owns (c : Thread nD τ) arg9 fullShare (qOut6 x0 x1 x2 x3 x4 q)) -∗ K ⟨⟩))
      ⊢ wp frame (wpE (defs₀ (F := F)) Variants.none c none) E (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk6 _ _ _).trans ?_
    rfl
  isplitl [H6]
  · iexists _; isplitr
    swap; · iexact H6
    ipureintro
    refine (View.read_writes_eq_canon _ _ _ (coverSt6 _ _)).trans ?_
    sl_unfold_run_names
    first | rfl | (rw [rcRow6, rcRow6]; rfl)
  isplitl [H7]
  · iexists _; isplitr
    swap; · iexact H7
    ipureintro
    refine (wrRow6 _ _ _).trans ?_
    rfl
  · iexists _; isplitr
    swap; · iexact H8
    ipureintro
    refine (wrRow6 _ _ _).trans ?_
    rfl

/-! ## The body obligation, at a generic point -/

/-- What the body is called with at point `t` (the body obligation's precondition, the windows one by one), -/
def bodyPre6 (V : EntryVal F) (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (V : EntryVal F) (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4000000 in
/-- The body at any point: the inputs' memrefs hold their blocks; the closed forms of the two conditions say which case
    the point is in; the invariant hands the body the two running sums at what the point before left (at anything at the
    first point) and takes them back advanced; the statistics window is handed back as found where it is idle, and at
    the statistics of the two running sums at the last point; the core owes nothing throughout. -/
theorem sound_body6 (V : EntryVal F) (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [Phi_eq6 V c t.succ, Phi_eq6 V c t.castSucc, Fin.val_succ, Fin.val_castSucc, Phi6_succ, SQ6_succ_fst, SQ6_succ_snd]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  rw [show (dat6 V c).leavesExact 4 t = owns (c : Thread nD τ) (st6_4 t) fullShare ((dat6 V c).after 4 t) from by
    unfold Dat.leavesExact; rw [liveAt6_4 t], after6_4]
  rw [show (dat6 V c).leavesExact 5 t = owns (c : Thread nD τ) (st6_5 t) fullShare ((dat6 V c).after 5 t) from by
    unfold Dat.leavesExact; rw [liveAt6_5 t], after6_5]
  have hN : t.val < 8 := lt_of_lt_of_eq t.isLt (show cfg6.N = 8 from N_6)
  by_cases h0 : t.val % 8 = 0
  · have hA : condA6 (grid6.coords t) := (hcondA6 t).mpr h0
    have hB : ¬condB6 (grid6.coords t) := fun h => by have := (hcondB6 t).mp h; omega
    have hz : t.val = 0 := by omega
    rw [Dat.leavesExact_idle (dat6 V c) 6 t (idleAt6_6 t hB) (noFlush6_6 t hB)]
    rw [hz, Phi6_zero, SQ6_zero, scopedRest6_owns]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (runFirst6 c Set.univ (grid6.coords t) _ _ _ _ _ _ _ _ _ _ _ _ _ _ _ _ _ _ hA hB (xb6_0 V c t) (xb6_1 V c t) (xb6_2 V c t) (xb6_3 V c t) (xb6_4 V c t) ((dat6 V c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, H5, H6, HS0, HS1⟩
    isplitl [Hg HS0 HS1 Hr]
    · isplitl [Hg]; · iexact Hg
      isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hA : ¬condA6 (grid6.coords t) := fun h => h0 ((hcondA6 t).mp h)
    have hz : t.val ≠ 0 := fun h => h0 (by rw [h])
    rw [Phi6_pos V c t.val hz]
    by_cases h7 : t.val % 8 = 7
    · have hB : condB6 (grid6.coords t) := (hcondB6 t).mpr h7
      rw [show (dat6 V c).leavesExact 6 t = owns (c : Thread nD τ) (st6_6 t) fullShare ((dat6 V c).after 6 t) from by
        unfold Dat.leavesExact; rw [liveAt6_6 t hB], after6_6, SQ6_succ_fst, SQ6_succ_snd]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runLast6 c Set.univ (grid6.coords t) _ _ _ _ _ _ _ _ _ _ _ _ _ _ _ _ _ _ hA hB (xb6_0 V c t) (xb6_1 V c t) (xb6_2 V c t) (xb6_3 V c t) (xb6_4 V c t) (SQ6 V c t.val).1 (SQ6 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hB : ¬condB6 (grid6.coords t) := fun h => h7 ((hcondB6 t).mp h)
      rw [Dat.leavesExact_idle (dat6 V c) 6 t (idleAt6_6 t hB) (noFlush6_6 t hB)]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runMid6 c Set.univ (grid6.coords t) _ _ _ _ _ _ _ _ _ _ _ _ _ _ _ _ _ _ hA hB (xb6_0 V c t) (xb6_1 V c t) (xb6_2 V c t) (xb6_3 V c t) (xb6_4 V c t) ((dat6 V c).before 6 t d6) (SQ6 V c t.val).1 (SQ6 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation6 (V : EntryVal F) (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 7: the second kernel of a layer (normalise, relu, linear, relu, column statistics) -/

/-! ## The windows' blocks -/

/-- Window `w`'s block at point `t`, read off its array as the region finds it (`V`). -/
def iblk7 (V : EntryVal F) (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses -/

abbrev rA7 : Rect S5000x128 := Rect.unit (s := S5000x128) ![0, 0] S5000x128.size inb_S5000x128_S5000x128_0_0
abbrev rR7 : Rect S1x128 := Rect.unit (s := S1x128) ![0, 0] S1x128.size inb_S1x128_S1x128_0_0
abbrev rW7 : Rect S128x128 := Rect.unit (s := S128x128) ![0, 0] S128x128.size inb_S128x128_S128x128_0_0
abbrev rS7_0 : Rect S2x128 := Rect.unit (s := S2x128) ![0, 0] S1x128.size inb_S2x128_S1x128_0_0
abbrev rS7_1 : Rect S2x128 := Rect.unit (s := S2x128) ![1, 0] S1x128.size inb_S2x128_S1x128_1_0

/-- The scratch operands: whole scoped buffers of the kernel's own, passed beside the windows. -/
abbrev scM7_0 : Memref sig .tc .vmem S1x128 .f32 := Memref.whole cc7_scratch0
abbrev scM7_1 : Memref sig .tc .vmem S1x128 .f32 := Memref.whole cc7_scratch1

/-! ## What the body computes -/

/-- The block of the output the body stores at a point, from the input windows' blocks. -/
def blk7 (x0 : Vec F S5000x128 .f32) (x1 : Vec F S2x128 .f32) (x2 x3 : Vec F S1x128 .f32) (x4 : Vec F S128x128 .f32) (x5 : Vec F S1x128 .f32) : FVec F S5000x128 .f32 :=
  k7_pay7 (View.ld x1 rS7_0) (View.ld x1 rS7_1) (View.ld x2 rR7) (View.ld x0 rA7) (View.ld x3 rR7) (View.ld x4 rW7) (View.ld x5 rR7)

/-- The running column sums after a point, from the block stored there and what they were before. -/
def sumStep7 (y : FVec F S5000x128 .f32) (s : Vec F S1x128 .f32) : Vec F S1x128 .f32 :=
  View.canon [⟨rR7, k7_pay1 y (View.ld s rR7)⟩]

/-- The running column sums of squares after a point. -/
def sqStep7 (y : FVec F S5000x128 .f32) (s : Vec F S1x128 .f32) : Vec F S1x128 .f32 :=
  View.canon [⟨rR7, k7_pay2 y (View.ld s rR7)⟩]

/-- What the first point resets the two accumulators to. -/
def sum0_7 : Vec F S1x128 .f32 := View.canon [⟨rR7, k7_pay5 (F := F)⟩]
def sq0_7 : Vec F S1x128 .f32 := View.canon [⟨rR7, k7_pay6 (F := F)⟩]

/-- The statistics the last point stores, from the two accumulators: row 0 then row 1. -/
def stats7 (s q : Vec F S1x128 .f32) : Vec F S2x128 .f32 :=
  View.canon [⟨rS7_1, k7_pay4 (View.ld s rR7) (View.ld q rR7)⟩, ⟨rS7_0, k7_pay3 (View.ld s rR7)⟩]

/-- The block stored at point `t`, from the arrays as the region finds them. -/
def tblk7 (V : EntryVal F) (c : Dev nD) (t : Fin cfg7.N) : FVec F S5000x128 .f32 :=
  blk7 (iblk7 V c 0 t) (iblk7 V c 1 t) (iblk7 V c 2 t) (iblk7 V c 3 t) (iblk7 V c 4 t) (iblk7 V c 5 t)

/-- The two accumulators after the body at position `n`: reset at the first point, then each point's block added. -/
def acc7 (V : EntryVal F) (c : Dev nD) : (n : ℕ) → n < cfg7.N → Vec F S1x128 .f32 × Vec F S1x128 .f32
  | 0, hn => (sumStep7 (tblk7 V c ⟨0, hn⟩) sum0_7, sqStep7 (tblk7 V c ⟨0, hn⟩) sq0_7)
  | n + 1, hn => (sumStep7 (tblk7 V c ⟨n + 1, hn⟩) (acc7 V c n (Nat.lt_of_succ_lt hn)).1,
      sqStep7 (tblk7 V c ⟨n + 1, hn⟩) (acc7 V c n (Nat.lt_of_succ_lt hn)).2)

/-! ## The region invariant -/

/-- Before the first point: the generator register at some state and the scoped rest, as the launch hands them;
    afterwards the two accumulators at what the point before left, the remainder of the scoped rest unopened. -/
def Phi7 (V : EntryVal F) (c : Dev nD) : (n : ℕ) → n ≤ cfg7.N → sProp 𝕄
  | 0, _ => iprop((∃ r, prngReg c r) ∗ Pipeline.scopedRest (Ix := Unit) (Name := ℕ) (U := UR sig nD τ) (Lvl := ℕ) (Val := Elt F) spec7 c)
  | n + 1, hn => iprop((∃ r, prngReg c r)
      ∗ iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1])

theorem Phi7_zero (V : EntryVal F) (c : Dev nD) (n : ℕ) (h : n ≤ cfg7.N) (hz : n = 0) :
    Phi7 V c n h = iprop((∃ r, prngReg c r) ∗ Pipeline.scopedRest (Ix := Unit) (Name := ℕ) (U := UR sig nD τ) (Lvl := ℕ) (Val := Elt F) spec7 c) := by
  subst hz; rfl

theorem Phi7_succ (V : EntryVal F) (c : Dev nD) (n : ℕ) (hn : n < cfg7.N) :
    Phi7 V c (n + 1) hn = iprop((∃ r, prngReg c r)
      ∗ iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) := rfl

theorem Phi7_pos (V : EntryVal F) (c : Dev nD) (n : ℕ) (h : n ≤ cfg7.N) (hz : n ≠ 0) :
    Phi7 V c n h = iprop((∃ r, prngReg c r)
      ∗ iprop(owns (c : Thread nD τ) scM7_0 fullShare (acc7 V c (n - 1) (by omega)).1 ∗ owns (c : Thread nD τ) scM7_1 fullShare (acc7 V c (n - 1) (by omega)).2)
      ∗ Pipeline.scopedRestBut (Ix := Unit) (Name := ℕ) (U := UR sig nD τ) (Lvl := ℕ) (Val := Elt F) spec7 c [cc7_scratch0, cc7_scratch1]) := by
  cases n with
  | zero => exact absurd rfl hz
  | succ n => rfl

/-! ## The pipeline's proof data -/

/-- Region 7's proof data on core `c`, at the contents `V` the region is entered with. -/
def dat7 (V : EntryVal F) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => View.canon [⟨rA7, tblk7 V c t⟩]
    | ⟨7, _⟩ => stats7 (acc7 V c t.val t.isLt).1 (acc7 V c t.val t.isLt).2
  Φ t := Phi7 V c t.val (Nat.le_of_lt_succ t.isLt)
  q _ := fullShare
  owed _ := 0

theorem A_eq7 (V : EntryVal F) (c : Dev nD) (w : Fin cfg7.W) : (dat7 V c).A w = V c (Pipeline.arrRef spec7 w) := by
  dsimp only [dat7]

theorem q_eq7 (V : EntryVal F) (c : Dev nD) (w : Fin cfg7.W) : (dat7 V c).q w = fullShare := by
  dsimp only [dat7]

theorem owed_eq7 (V : EntryVal F) (c : Dev nD) (t : Fin (cfg7.N + 1)) : (dat7 V c).owed t = 0 := by
  dsimp only [dat7]

theorem hin7 (V : EntryVal F) (c : Dev nD) :
    iprop((∃ r, prngReg c r) ∗ Pipeline.scopedRest (Ix := Unit) (Name := ℕ) (U := UR sig nD τ) (Lvl := ℕ) (Val := Elt F) spec7 c)
      ⊢ ((dat7 V c).Φ 0 : sProp 𝕄) := by
  rw [show (dat7 V c).Φ 0 = Phi7 V c 0 (Nat.zero_le _) from rfl, Phi7_zero V c 0 _ rfl]
  try exact Idealize.SL.BI.Entails.refl _

/-- After any point the invariant gives the launch's form back: the accumulators' named contents are forgotten. -/
theorem Phi7_out (V : EntryVal F) (c : Dev nD) (t : Fin (cfg7.N + 1)) (ht : t.val ≠ 0) :
    ((dat7 V c).Φ t : sProp 𝕄)
      ⊢ iprop((∃ r, prngReg c r) ∗ Pipeline.scopedRest (Ix := Unit) (Name := ℕ) (U := UR sig nD τ) (Lvl := ℕ) (Val := Elt F) spec7 c) := by
  rw [show (dat7 V c).Φ t = Phi7 V c t.val (Nat.le_of_lt_succ t.isLt) from rfl, Phi7_pos V c _ _ ht, scopedRest7_split]
  simp only [scM7_0, scM7_1, owns_whole]
  iintro ⟨Hg, ⟨HS0, HS1⟩, Hr⟩
  isplitl [Hg]; · iexact Hg
  isplitl [HS0 HS1]
  · isplitl [HS0]
    · iexists _; iexact HS0
    · iexists _; iexact HS1
  iexact Hr

theorem hout7 (V : EntryVal F) (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) :=
  Phi7_out V c _ (by rw [Fin.val_last]; have : cfg7.N = 8 := N_7; omega)

/-! ## The body's branch conditions -/

/-- The condition of the body's first `scf.if` (the accumulators are reset), from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 8 = 0 :=
  (by decide +kernel : ∀ t : Fin grid7.N, cond7_0 (grid7.coords t) ↔ t.val % 8 = 0)

/-- The condition of the body's second `scf.if` (the statistics are stored). -/
abbrev cond7_1 (i : grid7.Coords) : Prop := k7_cond2 i = 1#1
/-- It holds at the last point only. -/
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl
theorem liveAt7_4 : ∀ t : Fin cfg7.N, cfg7.idle 4 (grid7.coords t) = false := fun _ => rfl
theorem liveAt7_5 : ∀ t : Fin cfg7.N, cfg7.idle 5 (grid7.coords t) = false := fun _ => rfl
theorem liveAt7_6 : ∀ t : Fin cfg7.N, cfg7.idle 6 (grid7.coords t) = false := fun _ => rfl
/-- Where the statistics are not stored the statistics window is idle and not written back. -/
theorem idleAt7_7 : ∀ t : Fin cfg7.N, ¬cond7_1 (grid7.coords t) → cfg7.idle 7 (grid7.coords t) = true := by decide +kernel
theorem noFlush7_7 : ∀ t : Fin cfg7.N, ¬cond7_1 (grid7.coords t) → (cfg7.win 7).flush t = false := by decide +kernel
theorem liveAt7_7 : ∀ t : Fin cfg7.N, cond7_1 (grid7.coords t) → cfg7.idle 7 (grid7.coords t) = false := by decide +kernel

/-! ## The body's stores cover their buffers -/

theorem cover7_A (p0 : Vec F S5000x128 .f32) (y : S5000x128.Idx) :
    ∃ pc ∈ ([⟨rA7, p0⟩] : List (View.Piece (Elt F) S5000x128 .f32)), y ∈ pc.1.set :=
  View.cover_of_tiled [⟨rA7, p0⟩] S5000x128.size (by rfl) y

theorem cover7_R (p0 : Vec F S1x128 .f32) (y : S1x128.Idx) :
    ∃ pc ∈ ([⟨rR7, p0⟩] : List (View.Piece (Elt F) S1x128 .f32)), y ∈ pc.1.set :=
  View.cover_of_tiled [⟨rR7, p0⟩] S1x128.size (by rfl) y

theorem cover7_R2 (p0 p1 : Vec F S1x128 .f32) (y : S1x128.Idx) :
    ∃ pc ∈ ([⟨rR7, p0⟩, ⟨rR7, p1⟩] : List (View.Piece (Elt F) S1x128 .f32)), y ∈ pc.1.set :=
  View.cover_of_tiled [⟨rR7, p0⟩, ⟨rR7, p1⟩] S1x128.size (by rfl) y

theorem cover7_S (p0 p1 : Vec F S1x128 .f32) (y : S2x128.Idx) :
    ∃ pc ∈ ([⟨rS7_1, p1⟩, ⟨rS7_0, p0⟩] : List (View.Piece (Elt F) S2x128 .f32)), y ∈ pc.1.set :=
  View.cover_of_tiled [⟨rS7_1, p1⟩, ⟨rS7_0, p0⟩] S1x128.size (by rfl) y

/-- A whole-buffer store shadows whatever was stored before it. -/
theorem canon7_R_cons (p : Vec F S1x128 .f32) (L : List (View.Piece (Elt F) S1x128 .f32)) :
    View.canon (⟨rR7, p⟩ :: L) = View.canon [⟨rR7, p⟩] := by
  funext y
  obtain ⟨pc, hpc, hy⟩ := cover7_R p y
  simp only [List.mem_cons, List.not_mem_nil, or_false] at hpc
  subst hpc
  obtain ⟨x, rfl⟩ : ∃ x, (rR7).emb x = y := (rR7).exists_idx_of_mem hy
  rw [View.canon_cons_emb, View.canon_cons_emb]

/-- A load of an accumulator after a whole-buffer store into it reads what the store leaves. -/
theorem readCov7_R (v : View sig .tc .vmem S1x128 .f32) (p : Vec F S1x128 .f32) :
    v.readCov [⟨rR7, p⟩] (rR7).toLoadRect = View.ld (View.canon [⟨rR7, p⟩]) rR7 :=
  View.readCov_eq_canon_ld v _ rR7 (cover7_R p)

/-- The first point's accumulators, with the load that follows the reset spelt as the run finds it. -/
theorem sumStep7_first (v : View sig .tc .vmem S1x128 .f32) (y : FVec F S5000x128 .f32) :
    sumStep7 y (sum0_7 (F := F)) = View.canon [⟨rR7, k7_pay1 y (v.readCov [⟨rR7, k7_pay5 (F := F)⟩] (rR7).toLoadRect)⟩] := by
  unfold sumStep7 sum0_7; rw [readCov7_R]

theorem sqStep7_first (v : View sig .tc .vmem S1x128 .f32) (y : FVec F S5000x128 .f32) :
    sqStep7 y (sq0_7 (F := F)) = View.canon [⟨rR7, k7_pay2 y (v.readCov [⟨rR7, k7_pay6 (F := F)⟩] (rR7).toLoadRect)⟩] := by
  unfold sqStep7 sq0_7; rw [readCov7_R]

/-- The statistics, with the loads of the two accumulators after their last stores spelt as the run finds them. -/
theorem stats7_eq (v9 v10 : View sig .tc .vmem S1x128 .f32) (y : FVec F S5000x128 .f32) (s q : Vec F S1x128 .f32) :
    stats7 (sumStep7 y s) (sqStep7 y q)
      = View.canon [⟨rS7_1, k7_pay4 (v9.readCov [⟨rR7, k7_pay1 y (View.ld s rR7)⟩] (rR7).toLoadRect) (v10.readCov [⟨rR7, k7_pay2 y (View.ld q rR7)⟩] (rR7).toLoadRect)⟩,
          ⟨rS7_0, k7_pay3 (v9.readCov [⟨rR7, k7_pay1 y (View.ld s rR7)⟩] (rR7).toLoadRect)⟩] := by
  unfold stats7 sumStep7 sqStep7; rw [readCov7_R, readCov7_R]

set_option maxHeartbeats 1000000 in
/-- The body at the first point: both accumulators are reset, then the block is stored and added; the statistics
    window is handed back untouched. -/
theorem run7_first (c : Dev nD) (E : Set ℕ) (i : grid7.Coords) (hc0 : cond7_0 i) (hc1 : ¬cond7_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA7, blk7 x0 x1 x2 x3 x4 x5⟩]) ∗ owns (c : Thread nD τ) arg8 fullShare xi7
            ∗ owns (c : Thread nD τ) arg9 fullShare (sumStep7 (blk7 x0 x1 x2 x3 x4 x5) sum0_7) ∗ owns (c : Thread nD τ) arg10 fullShare (sqStep7 (blk7 x0 x1 x2 x3 x4 x5) sq0_7)) -∗ K ⟨⟩))
      ⊢ wp frame (wpE (defs₀ (F := F)) Variants.none c none) E (cc7__bn_relu_linear_stats_kernel i arg1 harg1 arg2 harg2 arg3 harg3 arg4 harg4 arg5 harg5 arg6 harg6 arg7 harg7 arg8 harg8 arg9 harg9 arg10 harg10) K := by
  simp only [cc7__bn_relu_linear_stats_kernel_eq_skeleton]; unfold cc7__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover7_A _)).trans ?_
    sl_unfold_run_names
    rfl
  isplitl [H7]
  · iexists f7; isplitr; · ipureintro; rfl
    iexact H7
  isplitl [H8]
  · iexists _; isplitr
    swap; · iexact H8
    ipureintro
    sl_unfold_run_names
    refine (View.read_writes_eq_canon _ _ _ (cover7_R2 _ _)).trans ?_
    refine (canon7_R_cons _ _).trans ?_
    refine Eq.trans ?_ (sumStep7_first arg9.view _).symm
    rfl
  · iexists _; isplitr
    swap; · iexact H9
    ipureintro
    sl_unfold_run_names
    refine (View.read_writes_eq_canon _ _ _ (cover7_R2 _ _)).trans ?_
    refine (canon7_R_cons _ _).trans ?_
    refine Eq.trans ?_ (sqStep7_first arg10.view _).symm
    rfl

set_option maxHeartbeats 1000000 in
/-- The body at a point that is neither the first nor the last: the block is stored, the accumulators grow, the
    statistics window is handed back untouched. -/
theorem run7_mid (c : Dev nD) (E : Set ℕ) (i : grid7.Coords) (hc0 : ¬cond7_0 i) (hc1 : ¬cond7_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA7, blk7 x0 x1 x2 x3 x4 x5⟩]) ∗ owns (c : Thread nD τ) arg8 fullShare xi7
            ∗ owns (c : Thread nD τ) arg9 fullShare (sumStep7 (blk7 x0 x1 x2 x3 x4 x5) s) ∗ owns (c : Thread nD τ) arg10 fullShare (sqStep7 (blk7 x0 x1 x2 x3 x4 x5) q)) -∗ K ⟨⟩))
      ⊢ wp frame (wpE (defs₀ (F := F)) Variants.none c none) E (cc7__bn_relu_linear_stats_kernel i arg1 harg1 arg2 harg2 arg3 harg3 arg4 harg4 arg5 harg5 arg6 harg6 arg7 harg7 arg8 harg8 arg9 harg9 arg10 harg10) K := by
  simp only [cc7__bn_relu_linear_stats_kernel_eq_skeleton]; unfold cc7__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover7_A _)).trans ?_
    sl_unfold_run_names
    rfl
  isplitl [H7]
  · iexists f7; isplitr; · ipureintro; rfl
    iexact H7
  isplitl [H8]
  · iexists _; isplitr
    swap; · iexact H8
    ipureintro
    refine (View.read_writes_eq_canon _ _ _ (cover7_R _)).trans ?_
    sl_unfold_run_names
    rfl
  · iexists _; isplitr
    swap; · iexact H9
    ipureintro
    refine (View.read_writes_eq_canon _ _ _ (cover7_R _)).trans ?_
    sl_unfold_run_names
    rfl

set_option maxHeartbeats 1000000 in
/-- The body at the last point: the block is stored and added, then the statistics are computed from the two
    accumulators and stored as the two rows of the statistics window. -/
theorem run7_last (c : Dev nD) (E : Set ℕ) (i : grid7.Coords) (hc0 : ¬cond7_0 i) (hc1 : cond7_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA7, blk7 x0 x1 x2 x3 x4 x5⟩])
            ∗ owns (c : Thread nD τ) arg8 fullShare (stats7 (sumStep7 (blk7 x0 x1 x2 x3 x4 x5) s) (sqStep7 (blk7 x0 x1 x2 x3 x4 x5) q))
            ∗ owns (c : Thread nD τ) arg9 fullShare (sumStep7 (blk7 x0 x1 x2 x3 x4 x5) s) ∗ owns (c : Thread nD τ) arg10 fullShare (sqStep7 (blk7 x0 x1 x2 x3 x4 x5) q)) -∗ K ⟨⟩))
      ⊢ wp frame (wpE (defs₀ (F := F)) Variants.none c none) E (cc7__bn_relu_linear_stats_kernel i arg1 harg1 arg2 harg2 arg3 harg3 arg4 harg4 arg5 harg5 arg6 harg6 arg7 harg7 arg8 harg8 arg9 harg9 arg10 harg10) K := by
  simp only [cc7__bn_relu_linear_stats_kernel_eq_skeleton]; unfold cc7__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0 hf1 hf2 hf3 hf4 hf5 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover7_A _)).trans ?_
    sl_unfold_run_names
    rfl
  isplitl [H7]
  · iexists _; isplitr
    swap; · iexact H7
    ipureintro
    sl_unfold_run_names
    refine (View.read_writes_eq_canon _ _ _ (cover7_S _ _)).trans ?_
    refine Eq.trans ?_ (stats7_eq arg9.view arg10.view _ _ _).symm
    rfl
  isplitl [H8]
  · iexists _; isplitr
    swap; · iexact H8
    ipureintro
    refine (View.read_writes_eq_canon _ _ _ (cover7_R _)).trans ?_
    sl_unfold_run_names
    rfl
  · iexists _; isplitr
    swap; · iexact H9
    ipureintro
    refine (View.read_writes_eq_canon _ _ _ (cover7_R _)).trans ?_
    sl_unfold_run_names
    rfl

/-! ## What the inputs' staging buffers hold at a point -/

theorem before7_0_of (V : EntryVal F) {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of (V : EntryVal F) {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of (V : EntryVal F) {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of (V : EntryVal F) {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of (V : EntryVal F) {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of (V : EntryVal F) {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem after7_0 (V : EntryVal F) (c : Dev nD) (t : Fin cfg7.N) : (dat7 V c).after 0 t = iblk7 V c 0 t := by dsimp only [dat7]
theorem after7_1 (V : EntryVal F) (c : Dev nD) (t : Fin cfg7.N) : (dat7 V c).after 1 t = iblk7 V c 1 t := by dsimp only [dat7]
theorem after7_2 (V : EntryVal F) (c : Dev nD) (t : Fin cfg7.N) : (dat7 V c).after 2 t = iblk7 V c 2 t := by dsimp only [dat7]
theorem after7_3 (V : EntryVal F) (c : Dev nD) (t : Fin cfg7.N) : (dat7 V c).after 3 t = iblk7 V c 3 t := by dsimp only [dat7]
theorem after7_4 (V : EntryVal F) (c : Dev nD) (t : Fin cfg7.N) : (dat7 V c).after 4 t = iblk7 V c 4 t := by dsimp only [dat7]
theorem after7_5 (V : EntryVal F) (c : Dev nD) (t : Fin cfg7.N) : (dat7 V c).after 5 t = iblk7 V c 5 t := by dsimp only [dat7]
theorem after7_6 (V : EntryVal F) (c : Dev nD) (t : Fin cfg7.N) : (dat7 V c).after 6 t = View.canon [⟨rA7, tblk7 V c t⟩] := by dsimp only [dat7]
theorem after7_7 (V : EntryVal F) (c : Dev nD) (t : Fin cfg7.N) : (dat7 V c).after 7 t = stats7 (acc7 V c t.val t.isLt).1 (acc7 V c t.val t.isLt).2 := by dsimp only [dat7]

theorem before7_0 (V : EntryVal F) (c : Dev nD) (t : Fin cfg7.N) (d) : (dat7 V c).before 0 t d = iblk7 V c 0 t :=
  before7_0_of V (dat7 V c) (A_eq7 V c 0) (after7_0 V c) t d
theorem before7_1 (V : EntryVal F) (c : Dev nD) (t : Fin cfg7.N) (d) : (dat7 V c).before 1 t d = iblk7 V c 1 t :=
  before7_1_of V (dat7 V c) (A_eq7 V c 1) (after7_1 V c) t d
theorem before7_2 (V : EntryVal F) (c : Dev nD) (t : Fin cfg7.N) (d) : (dat7 V c).before 2 t d = iblk7 V c 2 t :=
  before7_2_of V (dat7 V c) (A_eq7 V c 2) (after7_2 V c) t d
theorem before7_3 (V : EntryVal F) (c : Dev nD) (t : Fin cfg7.N) (d) : (dat7 V c).before 3 t d = iblk7 V c 3 t :=
  before7_3_of V (dat7 V c) (A_eq7 V c 3) (after7_3 V c) t d
theorem before7_4 (V : EntryVal F) (c : Dev nD) (t : Fin cfg7.N) (d) : (dat7 V c).before 4 t d = iblk7 V c 4 t :=
  before7_4_of V (dat7 V c) (A_eq7 V c 4) (after7_4 V c) t d
theorem before7_5 (V : EntryVal F) (c : Dev nD) (t : Fin cfg7.N) (d) : (dat7 V c).before 5 t d = iblk7 V c 5 t :=
  before7_5_of V (dat7 V c) (A_eq7 V c 5) (after7_5 V c) t d

/-! ## The accumulators, point by point -/

theorem acc7_first (V : EntryVal F) (c : Dev nD) (t : Fin cfg7.N) (hz : t.val = 0) :
    acc7 V c t.val t.isLt = (sumStep7 (tblk7 V c t) sum0_7, sqStep7 (tblk7 V c t) sq0_7) := by
  obtain ⟨n, hn⟩ := t
  cases n with
  | zero => rfl
  | succ n => exact absurd hz (Nat.succ_ne_zero n)

theorem acc7_pos (V : EntryVal F) (c : Dev nD) (t : Fin cfg7.N) (hz : t.val ≠ 0) :
    acc7 V c t.val t.isLt = (sumStep7 (tblk7 V c t) (acc7 V c (t.val - 1) (Nat.lt_of_le_of_lt (Nat.sub_le _ _) t.isLt)).1,
      sqStep7 (tblk7 V c t) (acc7 V c (t.val - 1) (Nat.lt_of_le_of_lt (Nat.sub_le _ _) t.isLt)).2) := by
  obtain ⟨n, hn⟩ := t
  cases n with
  | zero => exact absurd rfl hz
  | succ n => rfl

/-- The launch's form of the invariant with the two accumulators as memrefs owned at some contents. -/
theorem Phi7_first_eq (c : Dev nD) :
    (iprop((∃ r, prngReg c r) ∗ Pipeline.scopedRest (Ix := Unit) (Name := ℕ) (U := UR sig nD τ) (Lvl := ℕ) (Val := Elt F) spec7 c) : sProp 𝕄)
      = iprop((∃ r, prngReg c r)
          ∗ iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) := by
  rw [scopedRest7_split]; simp only [scM7_0, scM7_1, owns_whole]; try rfl

theorem Phi7_castSucc (V : EntryVal F) (c : Dev nD) (t : Fin cfg7.N) :
    (dat7 V c).Φ t.castSucc = Phi7 V c t.val (Nat.le_of_lt t.isLt) := by
  dsimp only [dat7]; simp only [Fin.coe_castSucc]

/-! ## The body obligation, at a generic point -/

def bodyPre7 (V : EntryVal F) (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (V : EntryVal F) (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4800000 in
/-- The body at any point: the inputs' memrefs hold their blocks; the point's position says which case it is in; the
    invariant hands the body the two accumulators at what the point before left (at anything at the first point) and
    takes them back at this point's contents; the core owes nothing throughout. -/
theorem sound_body7 (V : EntryVal F) (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).owesAt () t.succ = (dat7 V c).owesAt () t.castSucc from rfl]
  rw [show (dat7 V c).Φ t.succ = Phi7 V c (t.val + 1) t.isLt from rfl, Phi7_succ]
  have hN : t.val < 8 := lt_of_lt_of_eq t.isLt (show cfg7.N = 8 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  rw [show (dat7 V c).leavesExact 4 t = owns (c : Thread nD τ) (st7_4 t) fullShare ((dat7 V c).after 4 t) from by
    unfold Dat.leavesExact; rw [liveAt7_4 t], after7_4]
  rw [show (dat7 V c).leavesExact 5 t = owns (c : Thread nD τ) (st7_5 t) fullShare ((dat7 V c).after 5 t) from by
    unfold Dat.leavesExact; rw [liveAt7_5 t], after7_5]
  rw [show (dat7 V c).leavesExact 6 t = owns (c : Thread nD τ) (st7_6 t) fullShare ((dat7 V c).after 6 t) from by
    unfold Dat.leavesExact; rw [liveAt7_6 t], after7_6]
  by_cases h0 : t.val % 8 = 0
  · have hz : t.val = 0 := by omega
    have h1 : ¬t.val % 8 = 7 := by omega
    rw [Dat.leavesExact_idle (dat7 V c) 7 t (idleAt7_7 t (fun h => h1 ((hcond7_1 t).mp h))) (noFlush7_7 t (fun h => h1 ((hcond7_1 t).mp h)))]
    rw [acc7_first V c t hz]
    rw [Phi7_castSucc V c t, Phi7_zero V c _ _ hz, Phi7_first_eq]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run7_first c Set.univ (grid7.coords t) ((hcond7_0 t).mpr h0) (fun h => h1 ((hcond7_1 t).mp h)) _ _ _ _ _ _ _ _ _ _ _ _ _ _ _ _ _ _ _ _
      (iblk7 V c 0 t) (iblk7 V c 1 t) (iblk7 V c 2 t) (iblk7 V c 3 t) (iblk7 V c 4 t) (iblk7 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 8 = 7
    · have hz : t.val ≠ 0 := by omega
      rw [show (dat7 V c).leavesExact 7 t = owns (c : Thread nD τ) (st7_7 t) fullShare ((dat7 V c).after 7 t) from by
        unfold Dat.leavesExact; rw [liveAt7_7 t ((hcond7_1 t).mpr h1)], after7_7]
      rw [acc7_pos V c t hz]
      rw [Phi7_castSucc V c t, Phi7_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run7_last c Set.univ (grid7.coords t) (fun h => h0 ((hcond7_0 t).mp h)) ((hcond7_1 t).mpr h1) _ _ _ _ _ _ _ _ _ _ _ _ _ _ _ _ _ _ _ _
        (iblk7 V c 0 t) (iblk7 V c 1 t) (iblk7 V c 2 t) (iblk7 V c 3 t) (iblk7 V c 4 t) (iblk7 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hz : t.val ≠ 0 := by omega
      rw [Dat.leavesExact_idle (dat7 V c) 7 t (idleAt7_7 t (fun h => h1 ((hcond7_1 t).mp h))) (noFlush7_7 t (fun h => h1 ((hcond7_1 t).mp h)))]
      rw [acc7_pos V c t hz]
      rw [Phi7_castSucc V c t, Phi7_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run7_mid c Set.univ (grid7.coords t) (fun h => h0 ((hcond7_0 t).mp h)) (fun h => h1 ((hcond7_1 t).mp h)) _ _ _ _ _ _ _ _ _ _ _ _ _ _ _ _ _ _ _ _
        (iblk7 V c 0 t) (iblk7 V c 1 t) (iblk7 V c 2 t) (iblk7 V c 3 t) (iblk7 V c 4 t) (iblk7 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation7 (V : EntryVal F) (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«110361_j29403346109051_2_alg».proof.Proof.Gen.KernelIdeal.Launch
import proofs.«110361_j29403346109051_2_alg».proof.Proof.KI.Base
import proofs.«110361_j29403346109051_2_alg».proof.Proof.Gen.KernelIdeal.Skeleton
import proofs.«110361_j29403346109051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 8: the final batch-normalisation kernel (five windows: the activations' row block, the two statistics
rows, the scale row, the shift row; the output's row block) -/

/-! ## The windows' blocks -/

/-- Window `w`'s block at point `t`, read off its array as the region finds it. -/
def iblk8 (V : EntryVal F) (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- An input window's current staging buffer holds its block at every point, fetched there or not (unfetched, the
    block index has not moved), for any proof data whose array is the entry contents and whose body leaves the
    block in place. One lemma per input window. -/
theorem before8_0_of (V : EntryVal F) {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of (V : EntryVal F) {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of (V : EntryVal F) {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of (V : EntryVal F) {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- Row 0 of the statistics block (the mean). -/
abbrev r8_m : Rect S2x128 := Rect.unit (s := S2x128) ![0, 0] S1x128.size inb_S2x128_S1x128_0_0
/-- Row 1 of the statistics block (the variance). -/
abbrev r8_v : Rect S2x128 := Rect.unit (s := S2x128) ![1, 0] S1x128.size inb_S2x128_S1x128_1_0
/-- A whole row vector. -/
abbrev r8_r : Rect S1x128 := Rect.unit (s := S1x128) ![0, 0] S1x128.size inb_S1x128_S1x128_0_0
/-- A whole row block. -/
abbrev r8_b : Rect S5000x128 := Rect.unit (s := S5000x128) ![0, 0] S5000x128.size inb_S5000x128_S5000x128_0_0

/-! ## What the body leaves in the output window's buffer -/

/-- The output's staging buffer after the body, from the input windows' blocks: its one store, of the payload
    at the five values loaded. -/
def out8_4 (x0 : Vec F S5000x128 .f32) (x1 : Vec F S2x128 .f32) (x2 : Vec F S1x128 .f32) (x3 : Vec F S1x128 .f32) : Vec F S5000x128 .f32 :=
  View.canon [⟨r8_b, k8_pay1 (View.ld x1 r8_m) (View.ld x1 r8_v) (View.ld x2 r8_r) (View.ld x0 r8_b) (View.ld x3 r8_r)⟩]

/-- The store is of the whole buffer, so it covers it. -/
theorem cover8_4 (p0 : Vec F S5000x128 .f32) (y : S5000x128.Idx) :
    ∃ pc ∈ ([⟨r8_b, p0⟩] : List (View.Piece (Elt F) S5000x128 .f32)), y ∈ pc.1.set :=
  View.cover_of_tiled [⟨r8_b, p0⟩] S5000x128.size (by rfl) y

/-! ## The body's triple -/

set_option maxHeartbeats 1000000 in
/-- The kernel body on whole staging memrefs, the inputs' at read contents and the output's at anything, runs to
    the continuation holding the inputs' as they were and the output's at `out8_4` of the inputs' (the value it
    loads from the output's buffer before storing is not used). -/
theorem sound_kernel8 (c : Dev nD) (E : Set ℕ) (i : grid8.Coords)
    (arg1 : Memref sig .tc .vmem S5000x128 .f32) (harg1 : arg1.IsWhole) (arg2 : Memref sig .tc .vmem S2x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__bn_relu_final_kernel i arg1 harg1 arg2 harg2 arg3 harg3 arg4 harg4 arg5 harg5) K := by
  simp only [cc8__bn_relu_final_kernel_eq_skeleton]; unfold cc8__bn_relu_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The pipeline's proof data -/

/-- Region 8's proof data on core `c`, at the contents `V` the region is entered with: after the body at a point
    each input's buffer holds its block and the output's `out8_4` of the input blocks; the invariant is the scoped
    rest and the generator register, untouched; nothing owed; full shares. -/
def dat8 (V : EntryVal F) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (V : EntryVal F) (c : Dev nD) (w : Fin cfg8.W) : (dat8 V c).A w = V c (Pipeline.arrRef spec8 w) := by
  dsimp only [dat8]

theorem q_eq8 (V : EntryVal F) (c : Dev nD) (w : Fin cfg8.W) : (dat8 V c).q w = fullShare := by
  dsimp only [dat8]

theorem owed_eq8 (V : EntryVal F) (c : Dev nD) (t : Fin (cfg8.N + 1)) : (dat8 V c).owed t = 0 := by
  dsimp only [dat8]

/-- What the body leaves, window by window. -/
theorem after8_0 (V : EntryVal F) (c : Dev nD) (t : Fin cfg8.N) : (dat8 V c).after 0 t = iblk8 V c 0 t := by dsimp only [dat8]
theorem after8_1 (V : EntryVal F) (c : Dev nD) (t : Fin cfg8.N) : (dat8 V c).after 1 t = iblk8 V c 1 t := by dsimp only [dat8]
theorem after8_2 (V : EntryVal F) (c : Dev nD) (t : Fin cfg8.N) : (dat8 V c).after 2 t = iblk8 V c 2 t := by dsimp only [dat8]
theorem after8_3 (V : EntryVal F) (c : Dev nD) (t : Fin cfg8.N) : (dat8 V c).after 3 t = iblk8 V c 3 t := by dsimp only [dat8]
theorem after8_4 (V : EntryVal F) (c : Dev nD) (t : Fin cfg8.N) :
    (dat8 V c).after 4 t = out8_4 (iblk8 V c 0 t) (iblk8 V c 1 t) (iblk8 V c 2 t) (iblk8 V c 3 t) := by dsimp only [dat8]

/-- Each input's current staging buffer holds its block at every point, fetched there or not. -/
theorem before8_0 (V : EntryVal F) (c : Dev nD) (t : Fin cfg8.N) (d) : (dat8 V c).before 0 t d = iblk8 V c 0 t :=
  before8_0_of V (dat8 V c) (A_eq8 V c 0) (after8_0 V c) t d
theorem before8_1 (V : EntryVal F) (c : Dev nD) (t : Fin cfg8.N) (d) : (dat8 V c).before 1 t d = iblk8 V c 1 t :=
  before8_1_of V (dat8 V c) (A_eq8 V c 1) (after8_1 V c) t d
theorem before8_2 (V : EntryVal F) (c : Dev nD) (t : Fin cfg8.N) (d) : (dat8 V c).before 2 t d = iblk8 V c 2 t :=
  before8_2_of V (dat8 V c) (A_eq8 V c 2) (after8_2 V c) t d
theorem before8_3 (V : EntryVal F) (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t`, the windows one by one, -/
def bodyPre8 (V : EntryVal F) (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (V : EntryVal F) (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks, so the kernel's triple applies; the invariant and
    the core's tallies pass through unread. -/
theorem sound_body8 (V : EntryVal F) (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (V : EntryVal F) (c : Dev nD) : BodyObligation (dat8 (F := F) V c) (defs₀ (F := F)) Variants.none () Set.univ := fun t => by
  rw [bigSep_W8, bigSep_W8]
  exact sound_body8 V c t

theorem hin8 (V : EntryVal F) (c : Dev nD) :
    iprop((∃ r, prngReg c r) ∗ Pipeline.scopedRest (Ix := Unit) (Name := ℕ) (U := UR sig nD τ) (Lvl := ℕ) (Val := Elt F) spec8 c)
      ⊢ ((dat8 V c).Φ 0 : sProp 𝕄) := by
  rw [show (dat8 V c).Φ 0 = Pipeline.ΦA spec8 c from rfl]; unfold Pipeline.ΦA
  iintro ⟨Hp, Hr⟩
  isplitl [Hr]; · iexact Hr
  iexact Hp

theorem hout8 (V : EntryVal F) (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) (Val := Elt F) spec8 c) := by
  rw [show (dat8 V c).Φ (Fin.last _) = Pipeline.ΦA spec8 c from rfl]; unfold Pipeline.ΦA
  iintro ⟨Hr, Hp⟩
  isplitl [Hp]; · iexact Hp
  iexact Hr

end Cert.KernelIdeal.Hand

end
-- ==== Proof.KI.Run1.lean ====
import proofs.«110361_j29403346109051_2_alg».proof.Proof.Gen.KernelIdeal.Regions
import proofs.«110361_j29403346109051_2_alg».proof.Proof.KI.Reg0
import proofs.«110361_j29403346109051_2_alg».proof.Proof.KI.Reg1
import proofs.«110361_j29403346109051_2_alg».proof.Proof.KI.Reg2
import proofs.«110361_j29403346109051_2_alg».proof.Proof.KI.Reg3
import proofs.«110361_j29403346109051_2_alg».proof.Proof.KI.Reg4
import proofs.«110361_j29403346109051_2_alg».proof.Proof.KI.Reg5
import proofs.«110361_j29403346109051_2_alg».proof.Proof.KI.Reg6
import proofs.«110361_j29403346109051_2_alg».proof.Proof.KI.Reg7
import proofs.«110361_j29403346109051_2_alg».proof.Proof.KI.Reg8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The run of @main: what the regions leave in their outputs

Between two items of @main core `c` holds every unscoped buffer at the generated valuation `Gen.VJ m outs c`,
written over unknowns `outs` for what each region leaves in its output arrays. Those unknowns are fixed here, region
by region in @main's order: a region's outputs hold what its write-backs leave (`Dat.arrAt … N` of its proof data at the
contents the region is entered with); the contents a region is entered with are the generated valuation over the
unknowns fixed so far, which is the valuation over all of them because a valuation reads only the unknowns of the
boundaries before it. -/

/-- Two families of unknowns agree up to boundary `n`. -/
def AgreeLe (n : ℕ) (o o' : Outs (F := F)) : Prop := ∀ J, J ≤ n → ∀ r c, o J r c = o' J r c

theorem AgreeLe.mono {n n' : ℕ} {o o' : Outs (F := F)} (h : AgreeLe n o o') (hn : n' ≤ n) : AgreeLe n' o o' :=
  fun J hJ => h J (le_trans hJ hn)

theorem AgreeLe.symm {n : ℕ} {o o' : Outs (F := F)} (h : AgreeLe n o o') : AgreeLe n o' o :=
  fun J hJ r c => (h J hJ r c).symm

/-! ## A boundary's valuation reads only the unknowns of the boundaries before it -/

theorem Vc2 {o o' : Outs (F := F)} (h : AgreeLe 2 o o') (c : Dev nD) : Gen.V2 m o c = Gen.V2 m o' c := by
  unfold Gen.V2
  rw [h 2 (le_refl _) main_v37_0 c, h 2 (le_refl _) main_v37_1 c]
theorem Vc3 {o o' : Outs (F := F)} (h : AgreeLe 2 o o') (c : Dev nD) : Gen.V3 m o c = Gen.V3 m o' c :=
  congrArg (StableHlo.after hostOps1) (Vc2 m h c)
theorem Vc4 {o o' : Outs (F := F)} (h : AgreeLe 4 o o') (c : Dev nD) : Gen.V4 m o c = Gen.V4 m o' c := by
  unfold Gen.V4
  rw [Vc3 m (h.mono (by decide)) c, h 4 (le_refl _) main_v40_0 c, h 4 (le_refl _) main_v40_1 c]
theorem Vc5 {o o' : Outs (F := F)} (h : AgreeLe 5 o o') (c : Dev nD) : Gen.V5 m o c = Gen.V5 m o' c := by
  unfold Gen.V5
  rw [Vc4 m (h.mono (by decide)) c, h 5 (le_refl _) main_v41 c]
theorem Vc6 {o o' : Outs (F := F)} (h : AgreeLe 5 o o') (c : Dev nD) : Gen.V6 m o c = Gen.V6 m o' c :=
  congrArg (StableHlo.after hostOps3) (Vc5 m h c)
theorem Vc7 {o o' : Outs (F := F)} (h : AgreeLe 7 o o') (c : Dev nD) : Gen.V7 m o c = Gen.V7 m o' c := by
  unfold Gen.V7
  rw [Vc6 m (h.mono (by decide)) c, h 7 (le_refl _) main_v79_0 c, h 7 (le_refl _) main_v79_1 c]
theorem Vc8 {o o' : Outs (F := F)} (h : AgreeLe 7 o o') (c : Dev nD) : Gen.V8 m o c = Gen.V8 m o' c :=
  congrArg (StableHlo.after hostOps4) (Vc7 m h c)
theorem Vc9 {o o' : Outs (F := F)} (h : AgreeLe 9 o o') (c : Dev nD) : Gen.V9 m o c = Gen.V9 m o' c := by
  unfold Gen.V9
  rw [Vc8 m (h.mono (by decide)) c, h 9 (le_refl _) main_v82_0 c, h 9 (le_refl _) main_v82_1 c]
theorem Vc10 {o o' : Outs (F := F)} (h : AgreeLe 10 o o') (c : Dev nD) : Gen.V10 m o c = Gen.V10 m o' c := by
  unfold Gen.V10
  rw [Vc9 m (h.mono (by decide)) c, h 10 (le_refl _) main_v83 c]
theorem Vc11 {o o' : Outs (F := F)} (h : AgreeLe 10 o o') (c : Dev nD) : Gen.V11 m o c = Gen.V11 m o' c :=
  congrArg (StableHlo.after hostOps6) (Vc10 m h c)
theorem Vc12 {o o' : Outs (F := F)} (h : AgreeLe 12 o o') (c : Dev nD) : Gen.V12 m o c = Gen.V12 m o' c := by
  unfold Gen.V12
  rw [Vc11 m (h.mono (by decide)) c, h 12 (le_refl _) main_v121_0 c, h 12 (le_refl _) main_v121_1 c]
theorem Vc13 {o o' : Outs (F := F)} (h : AgreeLe 12 o o') (c : Dev nD) : Gen.V13 m o c = Gen.V13 m o' c :=
  congrArg (StableHlo.after hostOps7) (Vc12 m h c)
theorem Vc14 {o o' : Outs (F := F)} (h : AgreeLe 14 o o') (c : Dev nD) : Gen.V14 m o c = Gen.V14 m o' c := by
  unfold Gen.V14
  rw [Vc13 m (h.mono (by decide)) c, h 14 (le_refl _) main_v124_0 c, h 14 (le_refl _) main_v124_1 c]
theorem Vc15 {o o' : Outs (F := F)} (h : AgreeLe 15 o o') (c : Dev nD) : Gen.V15 m o c = Gen.V15 m o' c := by
  unfold Gen.V15
  rw [Vc14 m (h.mono (by decide)) c, h 15 (le_refl _) main_v125 c]

/-! ## The unknowns, region by region -/

/-- The buffers region 0 is entered with. -/
def ent0 : EntryVal F := fun c b => Gen.V1 m c b
/-- At region 0's exit: each output array as its write-backs leave it, every other buffer as entered. -/
def O2 : EntryVal F := fun c =>
  Function.update (Function.update (ent0 m c) main_v37_0 ((dat0 (ent0 m) c).arrAt (5 : Fin 7) cfg0.N)) main_v37_1 ((dat0 (ent0 m) c).arrAt (6 : Fin 7) cfg0.N)
/-- The unknowns up to region 0. -/
def o2 : Outs (F := F) := fun _ r c => O2 m c r

/-- The buffers region 1 is entered with. -/
def ent1 : EntryVal F := fun c b => Gen.V3 m (o2 m) c b
/-- At region 1's exit: each output array as its write-backs leave it, every other buffer as entered. -/
def O4 : EntryVal F := fun c =>
  Function.update (Function.update (ent1 m c) main_v40_0 ((dat1 (ent1 m) c).arrAt (6 : Fin 8) cfg1.N)) main_v40_1 ((dat1 (ent1 m) c).arrAt (7 : Fin 8) cfg1.N)
/-- The unknowns up to region 1. -/
def o4 : Outs (F := F) := fun J r c => if J = 4 then O4 m c r else o2 m J r c

/-- The buffers region 2 is entered with. -/
def ent2 : EntryVal F := fun c b => Gen.V4 m (o4 m) c b
/-- At region 2's exit: each output array as its write-backs leave it, every other buffer as entered. -/
def O5 : EntryVal F := fun c =>
  Function.update (ent2 m c) main_v41 ((dat2 (ent2 m) c).arrAt (4 : Fin 5) cfg2.N)
/-- The unknowns up to region 2. -/
def o5 : Outs (F := F) := fun J r c => if J = 5 then O5 m c r else o4 m J r c

/-- The buffers region 3 is entered with. -/
def ent3 : EntryVal F := fun c b => Gen.V6 m (o5 m) c b
/-- At region 3's exit: each output array as its write-backs leave it, every other buffer as entered. -/
def O7 : EntryVal F := fun c =>
  Function.update (Function.update (ent3 m c) main_v79_0 ((dat3 (ent3 m) c).arrAt (5 : Fin 7) cfg3.N)) main_v79_1 ((dat3 (ent3 m) c).arrAt (6 : Fin 7) cfg3.N)
/-- The unknowns up to region 3. -/
def o7 : Outs (F := F) := fun J r c => if J = 7 then O7 m c r else o5 m J r c

/-- The buffers region 4 is entered with. -/
def ent4 : EntryVal F := fun c b => Gen.V8 m (o7 m) c b
/-- At region 4's exit: each output array as its write-backs leave it, every other buffer as entered. -/
def O9 : EntryVal F := fun c =>
  Function.update (Function.update (ent4 m c) main_v82_0 ((dat4 (ent4 m) c).arrAt (6 : Fin 8) cfg4.N)) main_v82_1 ((dat4 (ent4 m) c).arrAt (7 : Fin 8) cfg4.N)
/-- The unknowns up to region 4. -/
def o9 : Outs (F := F) := fun J r c => if J = 9 then O9 m c r else o7 m J r c

/-- The buffers region 5 is entered with. -/
def ent5 : EntryVal F := fun c b => Gen.V9 m (o9 m) c b
/-- At region 5's exit: each output array as its write-backs leave it, every other buffer as entered. -/
def O10 : EntryVal F := fun c =>
  Function.update (ent5 m c) main_v83 ((dat5 (ent5 m) c).arrAt (4 : Fin 5) cfg5.N)
/-- The unknowns up to region 5. -/
def o10 : Outs (F := F) := fun J r c => if J = 10 then O10 m c r else o9 m J r c

/-- The buffers region 6 is entered with. -/
def ent6 : EntryVal F := fun c b => Gen.V11 m (o10 m) c b
/-- At region 6's exit: each output array as its write-backs leave it, every other buffer as entered. -/
def O12 : EntryVal F := fun c =>
  Function.update (Function.update (ent6 m c) main_v121_0 ((dat6 (ent6 m) c).arrAt (5 : Fin 7) cfg6.N)) main_v121_1 ((dat6 (ent6 m) c).arrAt (6 : Fin 7) cfg6.N)
/-- The unknowns up to region 6. -/
def o12 : Outs (F := F) := fun J r c => if J = 12 then O12 m c r else o10 m J r c

/-- The buffers region 7 is entered with. -/
def ent7 : EntryVal F := fun c b => Gen.V13 m (o12 m) c b
/-- At region 7's exit: each output array as its write-backs leave it, every other buffer as entered. -/
def O14 : EntryVal F := fun c =>
  Function.update (Function.update (ent7 m c) main_v124_0 ((dat7 (ent7 m) c).arrAt (6 : Fin 8) cfg7.N)) main_v124_1 ((dat7 (ent7 m) c).arrAt (7 : Fin 8) cfg7.N)
/-- The unknowns up to region 7. -/
def o14 : Outs (F := F) := fun J r c => if J = 14 then O14 m c r else o12 m J r c

/-- The buffers region 8 is entered with. -/
def ent8 : EntryVal F := fun c b => Gen.V14 m (o14 m) c b
/-- At region 8's exit: each output array as its write-backs leave it, every other buffer as entered. -/
def O15 : EntryVal F := fun c =>
  Function.update (ent8 m c) main_v125 ((dat8 (ent8 m) c).arrAt (4 : Fin 5) cfg8.N)
/-- THE REGIONS' OUTPUT CONTENTS: `outs m J r c` is what buffer `r` holds on core `c` after item J−1, for the nine
    boundaries J a region ends at. -/
def outs : Outs (F := F) := fun J r c => if J = 15 then O15 m c r else o14 m J r c

/-! ## The unknowns fixed up to a region are those of the whole run, up to that region's exit -/

theorem agree14 : AgreeLe 14 (outs m) (o14 m) := fun J hJ r c => by
  unfold outs; exact if_neg (by omega)
theorem agree12 : AgreeLe 12 (outs m) (o12 m) := fun J hJ r c =>
  (agree14 m J (by omega) r c).trans (by unfold o14; exact if_neg (by omega))
theorem agree10 : AgreeLe 10 (outs m) (o10 m) := fun J hJ r c =>
  (agree12 m J (by omega) r c).trans (by unfold o12; exact if_neg (by omega))
theorem agree9 : AgreeLe 9 (outs m) (o9 m) := fun J hJ r c =>
  (agree10 m J (by omega) r c).trans (by unfold o10; exact if_neg (by omega))
theorem agree7 : AgreeLe 7 (outs m) (o7 m) := fun J hJ r c =>
  (agree9 m J (by omega) r c).trans (by unfold o9; exact if_neg (by omega))
theorem agree5 : AgreeLe 5 (outs m) (o5 m) := fun J hJ r c =>
  (agree7 m J (by omega) r c).trans (by unfold o7; exact if_neg (by omega))
theorem agree4 : AgreeLe 4 (outs m) (o4 m) := fun J hJ r c =>
  (agree5 m J (by omega) r c).trans (by unfold o5; exact if_neg (by omega))
theorem agree2 : AgreeLe 2 (outs m) (o2 m) := fun J hJ r c =>
  (agree4 m J (by omega) r c).trans (by unfold o4; exact if_neg (by omega))

/-! ## The boundary contents at the TensorCore's references, and the proof data family -/

/-- Boundary 1's contents read at the TensorCore's references. -/
abbrev val1 : EntryVal F := fun c b => Gen.V1 m c b
/-- Boundary 2's contents read at the TensorCore's references. -/
abbrev val2 : EntryVal F := fun c b => Gen.V2 m (outs m) c b
/-- Boundary 3's contents read at the TensorCore's references. -/
abbrev val3 : EntryVal F := fun c b => Gen.V3 m (outs m) c b
/-- Boundary 4's contents read at the TensorCore's references. -/
abbrev val4 : EntryVal F := fun c b => Gen.V4 m (outs m) c b
/-- Boundary 5's contents read at the TensorCore's references. -/
abbrev val5 : EntryVal F := fun c b => Gen.V5 m (outs m) c b
/-- Boundary 6's contents read at the TensorCore's references. -/
abbrev val6 : EntryVal F := fun c b => Gen.V6 m (outs m) c b
/-- Boundary 7's contents read at the TensorCore's references. -/
abbrev val7 : EntryVal F := fun c b => Gen.V7 m (outs m) c b
/-- Boundary 8's contents read at the TensorCore's references. -/
abbrev val8 : EntryVal F := fun c b => Gen.V8 m (outs m) c b
/-- Boundary 9's contents read at the TensorCore's references. -/
abbrev val9 : EntryVal F := fun c b => Gen.V9 m (outs m) c b
/-- Boundary 10's contents read at the TensorCore's references. -/
abbrev val10 : EntryVal F := fun c b => Gen.V10 m (outs m) c b
/-- Boundary 11's contents read at the TensorCore's references. -/
abbrev val11 : EntryVal F := fun c b => Gen.V11 m (outs m) c b
/-- Boundary 12's contents read at the TensorCore's references. -/
abbrev val12 : EntryVal F := fun c b => Gen.V12 m (outs m) c b
/-- Boundary 13's contents read at the TensorCore's references. -/
abbrev val13 : EntryVal F := fun c b => Gen.V13 m (outs m) c b
/-- Boundary 14's contents read at the TensorCore's references. -/
abbrev val14 : EntryVal F := fun c b => Gen.V14 m (outs m) c b
/-- Boundary 15's contents read at the TensorCore's references. -/
abbrev val15 : EntryVal F := fun c b => Gen.V15 m (outs m) c b

theorem ent0_eq : ent0 m = val1 m := rfl
theorem outs_2 (r : Ref sig .tc) (c : Dev nD) : outs m 2 r c = O2 m c r :=
  agree2 m 2 (le_refl _) r c
theorem ent1_eq : ent1 m = val3 m :=
  funext fun c => funext fun b => congrFun (Vc3 m (agree2 m).symm c) (Proc.devRef .tc b)
theorem outs_4 (r : Ref sig .tc) (c : Dev nD) : outs m 4 r c = O4 m c r :=
  (agree4 m 4 (le_refl _) r c).trans (by unfold o4; exact if_pos rfl)
theorem ent2_eq : ent2 m = val4 m :=
  funext fun c => funext fun b => congrFun (Vc4 m (agree4 m).symm c) (Proc.devRef .tc b)
theorem outs_5 (r : Ref sig .tc) (c : Dev nD) : outs m 5 r c = O5 m c r :=
  (agree5 m 5 (le_refl _) r c).trans (by unfold o5; exact if_pos rfl)
theorem ent3_eq : ent3 m = val6 m :=
  funext fun c => funext fun b => congrFun (Vc6 m (agree5 m).symm c) (Proc.devRef .tc b)
theorem outs_7 (r : Ref sig .tc) (c : Dev nD) : outs m 7 r c = O7 m c r :=
  (agree7 m 7 (le_refl _) r c).trans (by unfold o7; exact if_pos rfl)
theorem ent4_eq : ent4 m = val8 m :=
  funext fun c => funext fun b => congrFun (Vc8 m (agree7 m).symm c) (Proc.devRef .tc b)
theorem outs_9 (r : Ref sig .tc) (c : Dev nD) : outs m 9 r c = O9 m c r :=
  (agree9 m 9 (le_refl _) r c).trans (by unfold o9; exact if_pos rfl)
theorem ent5_eq : ent5 m = val9 m :=
  funext fun c => funext fun b => congrFun (Vc9 m (agree9 m).symm c) (Proc.devRef .tc b)
theorem outs_10 (r : Ref sig .tc) (c : Dev nD) : outs m 10 r c = O10 m c r :=
  (agree10 m 10 (le_refl _) r c).trans (by unfold o10; exact if_pos rfl)
theorem ent6_eq : ent6 m = val11 m :=
  funext fun c => funext fun b => congrFun (Vc11 m (agree10 m).symm c) (Proc.devRef .tc b)
theorem outs_12 (r : Ref sig .tc) (c : Dev nD) : outs m 12 r c = O12 m c r :=
  (agree12 m 12 (le_refl _) r c).trans (by unfold o12; exact if_pos rfl)
theorem ent7_eq : ent7 m = val13 m :=
  funext fun c => funext fun b => congrFun (Vc13 m (agree12 m).symm c) (Proc.devRef .tc b)
theorem outs_14 (r : Ref sig .tc) (c : Dev nD) : outs m 14 r c = O14 m c r :=
  (agree14 m 14 (le_refl _) r c).trans (by unfold o14; exact if_pos rfl)
theorem ent8_eq : ent8 m = val14 m :=
  funext fun c => funext fun b => congrFun (Vc14 m (agree14 m).symm c) (Proc.devRef .tc b)
theorem outs_15 (r : Ref sig .tc) (c : Dev nD) : outs m 15 r c = O15 m c r := by
  unfold outs; exact if_pos rfl

/-- The prefetched tables' admissible contents: no pallas_call has a table. -/
abbrev adm : (p : Fin 9) → (pcfgs (F := F) p).Adm := Gen.adm
/-- Every pipeline's proof data, each at its region's entry contents: a literal match on the pipeline's index. -/
def pdats : (p : Fin 9) → (c : Dev nD) → Dat τ (Elt F) Unit ℕ (UR sig nD τ) ℕ (cfgs p) c
  | ⟨0, _⟩ => fun c => dat0 (val1 m) c
  | ⟨1, _⟩ => fun c => dat1 (val3 m) c
  | ⟨2, _⟩ => fun c => dat2 (val4 m) c
  | ⟨3, _⟩ => fun c => dat3 (val6 m) c
  | ⟨4, _⟩ => fun c => dat4 (val8 m) c
  | ⟨5, _⟩ => fun c => dat5 (val9 m) c
  | ⟨6, _⟩ => fun c => dat6 (val11 m) c
  | ⟨7, _⟩ => fun c => dat7 (val13 m) c
  | ⟨8, _⟩ => fun c => dat8 (val14 m) c

theorem entry0 (c : Dev nD) : pdats m 0 c = dat0 (fun c b => Gen.V1 m c b) c := rfl
theorem entry1 (c : Dev nD) : pdats m 1 c = dat1 (fun c b => Gen.V3 m (outs m) c b) c := rfl
theorem entry2 (c : Dev nD) : pdats m 2 c = dat2 (fun c b => Gen.V4 m (outs m) c b) c := rfl
theorem entry3 (c : Dev nD) : pdats m 3 c = dat3 (fun c b => Gen.V6 m (outs m) c b) c := rfl
theorem entry4 (c : Dev nD) : pdats m 4 c = dat4 (fun c b => Gen.V8 m (outs m) c b) c := rfl
theorem entry5 (c : Dev nD) : pdats m 5 c = dat5 (fun c b => Gen.V9 m (outs m) c b) c := rfl
theorem entry6 (c : Dev nD) : pdats m 6 c = dat6 (fun c b => Gen.V11 m (outs m) c b) c := rfl
theorem entry7 (c : Dev nD) : pdats m 7 c = dat7 (fun c b => Gen.V13 m (outs m) c b) c := rfl
theorem entry8 (c : Dev nD) : pdats m 8 c = dat8 (fun c b => Gen.V14 m (outs m) c b) c := rfl

/-! ## Each region's outputs at its exit boundary -/

theorem arrOut0_5 (c : Dev nD) :
    Gen.V2 m (outs m) c (Pipeline.arrRef spec0 (5 : Fin 7)) = (dat0 (fun c b => Gen.V1 m c b) c).arrAt (5 : Fin 7) cfg0.N := by
  show Gen.V2 m (outs m) c (Proc.devRef .tc main_v37_0) = _
  unfold Gen.V2
  rw [Function.update_of_ne (StableHlo.devRef_ne_of_ne (by decide : main_v37_0 ≠ main_v37_1))]
  rw [Function.update_self, outs_2]
  unfold O2
  rw [Function.update_of_ne (by decide : main_v37_0 ≠ main_v37_1)]
  rw [Function.update_self, ent0_eq]
theorem arrOut0_6 (c : Dev nD) :
    Gen.V2 m (outs m) c (Pipeline.arrRef spec0 (6 : Fin 7)) = (dat0 (fun c b => Gen.V1 m c b) c).arrAt (6 : Fin 7) cfg0.N := by
  show Gen.V2 m (outs m) c (Proc.devRef .tc main_v37_1) = _
  unfold Gen.V2
  rw [Function.update_self, outs_2]
  unfold O2
  rw [Function.update_self, ent0_eq]
theorem arrOut1_6 (c : Dev nD) :
    Gen.V4 m (outs m) c (Pipeline.arrRef spec1 (6 : Fin 8)) = (dat1 (fun c b => Gen.V3 m (outs m) c b) c).arrAt (6 : Fin 8) cfg1.N := by
  show Gen.V4 m (outs m) c (Proc.devRef .tc main_v40_0) = _
  unfold Gen.V4
  rw [Function.update_of_ne (StableHlo.devRef_ne_of_ne (by decide : main_v40_0 ≠ main_v40_1))]
  rw [Function.update_self, outs_4]
  unfold O4
  rw [Function.update_of_ne (by decide : main_v40_0 ≠ main_v40_1)]
  rw [Function.update_self, ent1_eq]
theorem arrOut1_7 (c : Dev nD) :
    Gen.V4 m (outs m) c (Pipeline.arrRef spec1 (7 : Fin 8)) = (dat1 (fun c b => Gen.V3 m (outs m) c b) c).arrAt (7 : Fin 8) cfg1.N := by
  show Gen.V4 m (outs m) c (Proc.devRef .tc main_v40_1) = _
  unfold Gen.V4
  rw [Function.update_self, outs_4]
  unfold O4
  rw [Function.update_self, ent1_eq]
theorem arrOut2_4 (c : Dev nD) :
    Gen.V5 m (outs m) c (Pipeline.arrRef spec2 (4 : Fin 5)) = (dat2 (fun c b => Gen.V4 m (outs m) c b) c).arrAt (4 : Fin 5) cfg2.N := by
  show Gen.V5 m (outs m) c (Proc.devRef .tc main_v41) = _
  unfold Gen.V5
  rw [Function.update_self, outs_5]
  unfold O5
  rw [Function.update_self, ent2_eq]
theorem arrOut3_5 (c : Dev nD) :
    Gen.V7 m (outs m) c (Pipeline.arrRef spec3 (5 : Fin 7)) = (dat3 (fun c b => Gen.V6 m (outs m) c b) c).arrAt (5 : Fin 7) cfg3.N := by
  show Gen.V7 m (outs m) c (Proc.devRef .tc main_v79_0) = _
  unfold Gen.V7
  rw [Function.update_of_ne (StableHlo.devRef_ne_of_ne (by decide : main_v79_0 ≠ main_v79_1))]
  rw [Function.update_self, outs_7]
  unfold O7
  rw [Function.update_of_ne (by decide : main_v79_0 ≠ main_v79_1)]
  rw [Function.update_self, ent3_eq]
theorem arrOut3_6 (c : Dev nD) :
    Gen.V7 m (outs m) c (Pipeline.arrRef spec3 (6 : Fin 7)) = (dat3 (fun c b => Gen.V6 m (outs m) c b) c).arrAt (6 : Fin 7) cfg3.N := by
  show Gen.V7 m (outs m) c (Proc.devRef .tc main_v79_1) = _
  unfold Gen.V7
  rw [Function.update_self, outs_7]
  unfold O7
  rw [Function.update_self, ent3_eq]
theorem arrOut4_6 (c : Dev nD) :
    Gen.V9 m (outs m) c (Pipeline.arrRef spec4 (6 : Fin 8)) = (dat4 (fun c b => Gen.V8 m (outs m) c b) c).arrAt (6 : Fin 8) cfg4.N := by
  show Gen.V9 m (outs m) c (Proc.devRef .tc main_v82_0) = _
  unfold Gen.V9
  rw [Function.update_of_ne (StableHlo.devRef_ne_of_ne (by decide : main_v82_0 ≠ main_v82_1))]
  rw [Function.update_self, outs_9]
  unfold O9
  rw [Function.update_of_ne (by decide : main_v82_0 ≠ main_v82_1)]
  rw [Function.update_self, ent4_eq]
theorem arrOut4_7 (c : Dev nD) :
    Gen.V9 m (outs m) c (Pipeline.arrRef spec4 (7 : Fin 8)) = (dat4 (fun c b => Gen.V8 m (outs m) c b) c).arrAt (7 : Fin 8) cfg4.N := by
  show Gen.V9 m (outs m) c (Proc.devRef .tc main_v82_1) = _
  unfold Gen.V9
  rw [Function.update_self, outs_9]
  unfold O9
  rw [Function.update_self, ent4_eq]
theorem arrOut5_4 (c : Dev nD) :
    Gen.V10 m (outs m) c (Pipeline.arrRef spec5 (4 : Fin 5)) = (dat5 (fun c b => Gen.V9 m (outs m) c b) c).arrAt (4 : Fin 5) cfg5.N := by
  show Gen.V10 m (outs m) c (Proc.devRef .tc main_v83) = _
  unfold Gen.V10
  rw [Function.update_self, outs_10]
  unfold O10
  rw [Function.update_self, ent5_eq]
theorem arrOut6_5 (c : Dev nD) :
    Gen.V12 m (outs m) c (Pipeline.arrRef spec6 (5 : Fin 7)) = (dat6 (fun c b => Gen.V11 m (outs m) c b) c).arrAt (5 : Fin 7) cfg6.N := by
  show Gen.V12 m (outs m) c (Proc.devRef .tc main_v121_0) = _
  unfold Gen.V12
  rw [Function.update_of_ne (StableHlo.devRef_ne_of_ne (by decide : main_v121_0 ≠ main_v121_1))]
  rw [Function.update_self, outs_12]
  unfold O12
  rw [Function.update_of_ne (by decide : main_v121_0 ≠ main_v121_1)]
  rw [Function.update_self, ent6_eq]
theorem arrOut6_6 (c : Dev nD) :
    Gen.V12 m (outs m) c (Pipeline.arrRef spec6 (6 : Fin 7)) = (dat6 (fun c b => Gen.V11 m (outs m) c b) c).arrAt (6 : Fin 7) cfg6.N := by
  show Gen.V12 m (outs m) c (Proc.devRef .tc main_v121_1) = _
  unfold Gen.V12
  rw [Function.update_self, outs_12]
  unfold O12
  rw [Function.update_self, ent6_eq]
theorem arrOut7_6 (c : Dev nD) :
    Gen.V14 m (outs m) c (Pipeline.arrRef spec7 (6 : Fin 8)) = (dat7 (fun c b => Gen.V13 m (outs m) c b) c).arrAt (6 : Fin 8) cfg7.N := by
  show Gen.V14 m (outs m) c (Proc.devRef .tc main_v124_0) = _
  unfold Gen.V14
  rw [Function.update_of_ne (StableHlo.devRef_ne_of_ne (by decide : main_v124_0 ≠ main_v124_1))]
  rw [Function.update_self, outs_14]
  unfold O14
  rw [Function.update_of_ne (by decide : main_v124_0 ≠ main_v124_1)]
  rw [Function.update_self, ent7_eq]
theorem arrOut7_7 (c : Dev nD) :
    Gen.V14 m (outs m) c (Pipeline.arrRef spec7 (7 : Fin 8)) = (dat7 (fun c b => Gen.V13 m (outs m) c b) c).arrAt (7 : Fin 8) cfg7.N := by
  show Gen.V14 m (outs m) c (Proc.devRef .tc main_v124_1) = _
  unfold Gen.V14
  rw [Function.update_self, outs_14]
  unfold O14
  rw [Function.update_self, ent7_eq]
theorem arrOut8_4 (c : Dev nD) :
    Gen.V15 m (outs m) c (Pipeline.arrRef spec8 (4 : Fin 5)) = (dat8 (fun c b => Gen.V14 m (outs m) c b) c).arrAt (4 : Fin 5) cfg8.N := by
  show Gen.V15 m (outs m) c (Proc.devRef .tc main_v125) = _
  unfold Gen.V15
  rw [Function.update_self, outs_15]
  unfold O15
  rw [Function.update_self, ent8_eq]

/-! ## At a region's exit: each of its arrays holds what the pipeline leaves, every other buffer what it held at entry -/

/-- An input array of region 0 holds at the exit what it held at entry. -/
theorem hFin0 (c : Dev nD) (w : Fin 7) (hin : (cfg0.win w).isOut = false)
    (hne : Pipeline.arrRef spec0 w ∉ ([main_v37_0, main_v37_1] : List (Ref sig .tc))) :
    (dat0 (val1 m) c).arrAt w cfg0.N = val2 m c (Pipeline.arrRef spec0 w) :=
  ((dat0 (val1 m) c).arrAt_in w hin _).trans ((A_eq0 (val1 m) c w).trans (Gen.V2_of m (outs m) c _ hne).symm)
set_option maxHeartbeats 1000000 in
theorem hF0 (c : Dev nD) : ∀ w : Fin 7, (dat0 (val1 m) c).arrAt w cfg0.N = val2 m c (Pipeline.arrRef spec0 w)
  | ⟨0, _⟩ => hFin0 m c 0 (by decide +kernel) (by decide +kernel)
  | ⟨1, _⟩ => hFin0 m c 1 (by decide +kernel) (by decide +kernel)
  | ⟨2, _⟩ => hFin0 m c 2 (by decide +kernel) (by decide +kernel)
  | ⟨3, _⟩ => hFin0 m c 3 (by decide +kernel) (by decide +kernel)
  | ⟨4, _⟩ => hFin0 m c 4 (by decide +kernel) (by decide +kernel)
  | ⟨5, _⟩ => (arrOut0_5 m c).symm
  | ⟨6, _⟩ => (arrOut0_6 m c).symm
  | ⟨_ + 7, h⟩ => absurd h (by omega)
theorem hrest0 (c : Dev nD) : ∀ b, b ∉ Finset.univ.image (Pipeline.arrRef spec0) → val2 m c b = val1 m c b :=
  fun b hb => Gen.V2_of m (outs m) c b fun h => hb (by
    rcases List.mem_cons.mp h with rfl | h
    · exact Finset.mem_image.mpr ⟨(5 : Fin 7), Finset.mem_univ _, rfl⟩
    · rcases List.mem_cons.mp h with rfl | h
      · exact Finset.mem_image.mpr ⟨(6 : Fin 7), Finset.mem_univ _, rfl⟩
      · cases h)

/-- An input array of region 1 holds at the exit what it held at entry. -/
theorem hFin1 (c : Dev nD) (w : Fin 8) (hin : (cfg1.win w).isOut = false)
    (hne : Pipeline.arrRef spec1 w ∉ ([main_v40_0, main_v40_1] : List (Ref sig .tc))) :
    (dat1 (val3 m) c).arrAt w cfg1.N = val4 m c (Pipeline.arrRef spec1 w) :=
  ((dat1 (val3 m) c).arrAt_in w hin _).trans ((A_eq1 (val3 m) c w).trans (Gen.V4_of m (outs m) c _ hne).symm)
set_option maxHeartbeats 1000000 in
theorem hF1 (c : Dev nD) : ∀ w : Fin 8, (dat1 (val3 m) c).arrAt w cfg1.N = val4 m c (Pipeline.arrRef spec1 w)
  | ⟨0, _⟩ => hFin1 m c 0 (by decide +kernel) (by decide +kernel)
  | ⟨1, _⟩ => hFin1 m c 1 (by decide +kernel) (by decide +kernel)
  | ⟨2, _⟩ => hFin1 m c 2 (by decide +kernel) (by decide +kernel)
  | ⟨3, _⟩ => hFin1 m c 3 (by decide +kernel) (by decide +kernel)
  | ⟨4, _⟩ => hFin1 m c 4 (by decide +kernel) (by decide +kernel)
  | ⟨5, _⟩ => hFin1 m c 5 (by decide +kernel) (by decide +kernel)
  | ⟨6, _⟩ => (arrOut1_6 m c).symm
  | ⟨7, _⟩ => (arrOut1_7 m c).symm
  | ⟨_ + 8, h⟩ => absurd h (by omega)
theorem hrest1 (c : Dev nD) : ∀ b, b ∉ Finset.univ.image (Pipeline.arrRef spec1) → val4 m c b = val3 m c b :=
  fun b hb => Gen.V4_of m (outs m) c b fun h => hb (by
    rcases List.mem_cons.mp h with rfl | h
    · exact Finset.mem_image.mpr ⟨(6 : Fin 8), Finset.mem_univ _, rfl⟩
    · rcases List.mem_cons.mp h with rfl | h
      · exact Finset.mem_image.mpr ⟨(7 : Fin 8), Finset.mem_univ _, rfl⟩
      · cases h)

/-- An input array of region 2 holds at the exit what it held at entry. -/
theorem hFin2 (c : Dev nD) (w : Fin 5) (hin : (cfg2.win w).isOut = false)
    (hne : Pipeline.arrRef spec2 w ∉ ([main_v41] : List (Ref sig .tc))) :
    (dat2 (val4 m) c).arrAt w cfg2.N = val5 m c (Pipeline.arrRef spec2 w) :=
  ((dat2 (val4 m) c).arrAt_in w hin _).trans ((A_eq2 (val4 m) c w).trans (Gen.V5_of m (outs m) c _ hne).symm)
set_option maxHeartbeats 1000000 in
theorem hF2 (c : Dev nD) : ∀ w : Fin 5, (dat2 (val4 m) c).arrAt w cfg2.N = val5 m c (Pipeline.arrRef spec2 w)
  | ⟨0, _⟩ => hFin2 m c 0 (by decide +kernel) (by decide +kernel)
  | ⟨1, _⟩ => hFin2 m c 1 (by decide +kernel) (by decide +kernel)
  | ⟨2, _⟩ => hFin2 m c 2 (by decide +kernel) (by decide +kernel)
  | ⟨3, _⟩ => hFin2 m c 3 (by decide +kernel) (by decide +kernel)
  | ⟨4, _⟩ => (arrOut2_4 m c).symm
  | ⟨_ + 5, h⟩ => absurd h (by omega)
theorem hrest2 (c : Dev nD) : ∀ b, b ∉ Finset.univ.image (Pipeline.arrRef spec2) → val5 m c b = val4 m c b :=
  fun b hb => Gen.V5_of m (outs m) c b fun h => hb (by
    rcases List.mem_cons.mp h with rfl | h
    · exact Finset.mem_image.mpr ⟨(4 : Fin 5), Finset.mem_univ _, rfl⟩
    · cases h)

/-- An input array of region 3 holds at the exit what it held at entry. -/
theorem hFin3 (c : Dev nD) (w : Fin 7) (hin : (cfg3.win w).isOut = false)
    (hne : Pipeline.arrRef spec3 w ∉ ([main_v79_0, main_v79_1] : List (Ref sig .tc))) :
    (dat3 (val6 m) c).arrAt w cfg3.N = val7 m c (Pipeline.arrRef spec3 w) :=
  ((dat3 (val6 m) c).arrAt_in w hin _).trans ((A_eq3 (val6 m) c w).trans (Gen.V7_of m (outs m) c _ hne).symm)
set_option maxHeartbeats 1000000 in
theorem hF3 (c : Dev nD) : ∀ w : Fin 7, (dat3 (val6 m) c).arrAt w cfg3.N = val7 m c (Pipeline.arrRef spec3 w)
  | ⟨0, _⟩ => hFin3 m c 0 (by decide +kernel) (by decide +kernel)
  | ⟨1, _⟩ => hFin3 m c 1 (by decide +kernel) (by decide +kernel)
  | ⟨2, _⟩ => hFin3 m c 2 (by decide +kernel) (by decide +kernel)
  | ⟨3, _⟩ => hFin3 m c 3 (by decide +kernel) (by decide +kernel)
  | ⟨4, _⟩ => hFin3 m c 4 (by decide +kernel) (by decide +kernel)
  | ⟨5, _⟩ => (arrOut3_5 m c).symm
  | ⟨6, _⟩ => (arrOut3_6 m c).symm
  | ⟨_ + 7, h⟩ => absurd h (by omega)
theorem hrest3 (c : Dev nD) : ∀ b, b ∉ Finset.univ.image (Pipeline.arrRef spec3) → val7 m c b = val6 m c b :=
  fun b hb => Gen.V7_of m (outs m) c b fun h => hb (by
    rcases List.mem_cons.mp h with rfl | h
    · exact Finset.mem_image.mpr ⟨(5 : Fin 7), Finset.mem_univ _, rfl⟩
    · rcases List.mem_cons.mp h with rfl | h
      · exact Finset.mem_image.mpr ⟨(6 : Fin 7), Finset.mem_univ _, rfl⟩
      · cases h)

/-- An input array of region 4 holds at the exit what it held at entry. -/
theorem hFin4 (c : Dev nD) (w : Fin 8) (hin : (cfg4.win w).isOut = false)
    (hne : Pipeline.arrRef spec4 w ∉ ([main_v82_0, main_v82_1] : List (Ref sig .tc))) :
    (dat4 (val8 m) c).arrAt w cfg4.N = val9 m c (Pipeline.arrRef spec4 w) :=
  ((dat4 (val8 m) c).arrAt_in w hin _).trans ((A_eq4 (val8 m) c w).trans (Gen.V9_of m (outs m) c _ hne).symm)
set_option maxHeartbeats 1000000 in
theorem hF4 (c : Dev nD) : ∀ w : Fin 8, (dat4 (val8 m) c).arrAt w cfg4.N = val9 m c (Pipeline.arrRef spec4 w)
  | ⟨0, _⟩ => hFin4 m c 0 (by decide +kernel) (by decide +kernel)
  | ⟨1, _⟩ => hFin4 m c 1 (by decide +kernel) (by decide +kernel)
  | ⟨2, _⟩ => hFin4 m c 2 (by decide +kernel) (by decide +kernel)
  | ⟨3, _⟩ => hFin4 m c 3 (by decide +kernel) (by decide +kernel)
  | ⟨4, _⟩ => hFin4 m c 4 (by decide +kernel) (by decide +kernel)
  | ⟨5, _⟩ => hFin4 m c 5 (by decide +kernel) (by decide +kernel)
  | ⟨6, _⟩ => (arrOut4_6 m c).symm
  | ⟨7, _⟩ => (arrOut4_7 m c).symm
  | ⟨_ + 8, h⟩ => absurd h (by omega)
theorem hrest4 (c : Dev nD) : ∀ b, b ∉ Finset.univ.image (Pipeline.arrRef spec4) → val9 m c b = val8 m c b :=
  fun b hb => Gen.V9_of m (outs m) c b fun h => hb (by
    rcases List.mem_cons.mp h with rfl | h
    · exact Finset.mem_image.mpr ⟨(6 : Fin 8), Finset.mem_univ _, rfl⟩
    · rcases List.mem_cons.mp h with rfl | h
      · exact Finset.mem_image.mpr ⟨(7 : Fin 8), Finset.mem_univ _, rfl⟩
      · cases h)

/-- An input array of region 5 holds at the exit what it held at entry. -/
theorem hFin5 (c : Dev nD) (w : Fin 5) (hin : (cfg5.win w).isOut = false)
    (hne : Pipeline.arrRef spec5 w ∉ ([main_v83] : List (Ref sig .tc))) :
    (dat5 (val9 m) c).arrAt w cfg5.N = val10 m c (Pipeline.arrRef spec5 w) :=
  ((dat5 (val9 m) c).arrAt_in w hin _).trans ((A_eq5 (val9 m) c w).trans (Gen.V10_of m (outs m) c _ hne).symm)
set_option maxHeartbeats 1000000 in
theorem hF5 (c : Dev nD) : ∀ w : Fin 5, (dat5 (val9 m) c).arrAt w cfg5.N = val10 m c (Pipeline.arrRef spec5 w)
  | ⟨0, _⟩ => hFin5 m c 0 (by decide +kernel) (by decide +kernel)
  | ⟨1, _⟩ => hFin5 m c 1 (by decide +kernel) (by decide +kernel)
  | ⟨2, _⟩ => hFin5 m c 2 (by decide +kernel) (by decide +kernel)
  | ⟨3, _⟩ => hFin5 m c 3 (by decide +kernel) (by decide +kernel)
  | ⟨4, _⟩ => (arrOut5_4 m c).symm
  | ⟨_ + 5, h⟩ => absurd h (by omega)
theorem hrest5 (c : Dev nD) : ∀ b, b ∉ Finset.univ.image (Pipeline.arrRef spec5) → val10 m c b = val9 m c b :=
  fun b hb => Gen.V10_of m (outs m) c b fun h => hb (by
    rcases List.mem_cons.mp h with rfl | h
    · exact Finset.mem_image.mpr ⟨(4 : Fin 5), Finset.mem_univ _, rfl⟩
    · cases h)

/-- An input array of region 6 holds at the exit what it held at entry. -/
theorem hFin6 (c : Dev nD) (w : Fin 7) (hin : (cfg6.win w).isOut = false)
    (hne : Pipeline.arrRef spec6 w ∉ ([main_v121_0, main_v121_1] : List (Ref sig .tc))) :
    (dat6 (val11 m) c).arrAt w cfg6.N = val12 m c (Pipeline.arrRef spec6 w) :=
  ((dat6 (val11 m) c).arrAt_in w hin _).trans ((A_eq6 (val11 m) c w).trans (Gen.V12_of m (outs m) c _ hne).symm)
set_option maxHeartbeats 1000000 in
theorem hF6 (c : Dev nD) : ∀ w : Fin 7, (dat6 (val11 m) c).arrAt w cfg6.N = val12 m c (Pipeline.arrRef spec6 w)
  | ⟨0, _⟩ => hFin6 m c 0 (by decide +kernel) (by decide +kernel)
  | ⟨1, _⟩ => hFin6 m c 1 (by decide +kernel) (by decide +kernel)
  | ⟨2, _⟩ => hFin6 m c 2 (by decide +kernel) (by decide +kernel)
  | ⟨3, _⟩ => hFin6 m c 3 (by decide +kernel) (by decide +kernel)
  | ⟨4, _⟩ => hFin6 m c 4 (by decide +kernel) (by decide +kernel)
  | ⟨5, _⟩ => (arrOut6_5 m c).symm
  | ⟨6, _⟩ => (arrOut6_6 m c).symm
  | ⟨_ + 7, h⟩ => absurd h (by omega)
theorem hrest6 (c : Dev nD) : ∀ b, b ∉ Finset.univ.image (Pipeline.arrRef spec6) → val12 m c b = val11 m c b :=
  fun b hb => Gen.V12_of m (outs m) c b fun h => hb (by
    rcases List.mem_cons.mp h with rfl | h
    · exact Finset.mem_image.mpr ⟨(5 : Fin 7), Finset.mem_univ _, rfl⟩
    · rcases List.mem_cons.mp h with rfl | h
      · exact Finset.mem_image.mpr ⟨(6 : Fin 7), Finset.mem_univ _, rfl⟩
      · cases h)

/-- An input array of region 7 holds at the exit what it held at entry. -/
theorem hFin7 (c : Dev nD) (w : Fin 8) (hin : (cfg7.win w).isOut = false)
    (hne : Pipeline.arrRef spec7 w ∉ ([main_v124_0, main_v124_1] : List (Ref sig .tc))) :
    (dat7 (val13 m) c).arrAt w cfg7.N = val14 m c (Pipeline.arrRef spec7 w) :=
  ((dat7 (val13 m) c).arrAt_in w hin _).trans ((A_eq7 (val13 m) c w).trans (Gen.V14_of m (outs m) c _ hne).symm)
set_option maxHeartbeats 1000000 in
theorem hF7 (c : Dev nD) : ∀ w : Fin 8, (dat7 (val13 m) c).arrAt w cfg7.N = val14 m c (Pipeline.arrRef spec7 w)
  | ⟨0, _⟩ => hFin7 m c 0 (by decide +kernel) (by decide +kernel)
  | ⟨1, _⟩ => hFin7 m c 1 (by decide +kernel) (by decide +kernel)
  | ⟨2, _⟩ => hFin7 m c 2 (by decide +kernel) (by decide +kernel)
  | ⟨3, _⟩ => hFin7 m c 3 (by decide +kernel) (by decide +kernel)
  | ⟨4, _⟩ => hFin7 m c 4 (by decide +kernel) (by decide +kernel)
  | ⟨5, _⟩ => hFin7 m c 5 (by decide +kernel) (by decide +kernel)
  | ⟨6, _⟩ => (arrOut7_6 m c).symm
  | ⟨7, _⟩ => (arrOut7_7 m c).symm
  | ⟨_ + 8, h⟩ => absurd h (by omega)
theorem hrest7 (c : Dev nD) : ∀ b, b ∉ Finset.univ.image (Pipeline.arrRef spec7) → val14 m c b = val13 m c b :=
  fun b hb => Gen.V14_of m (outs m) c b fun h => hb (by
    rcases List.mem_cons.mp h with rfl | h
    · exact Finset.mem_image.mpr ⟨(6 : Fin 8), Finset.mem_univ _, rfl⟩
    · rcases List.mem_cons.mp h with rfl | h
      · exact Finset.mem_image.mpr ⟨(7 : Fin 8), Finset.mem_univ _, rfl⟩
      · cases h)

/-- An input array of region 8 holds at the exit what it held at entry. -/
theorem hFin8 (c : Dev nD) (w : Fin 5) (hin : (cfg8.win w).isOut = false)
    (hne : Pipeline.arrRef spec8 w ∉ ([main_v125] : List (Ref sig .tc))) :
    (dat8 (val14 m) c).arrAt w cfg8.N = val15 m c (Pipeline.arrRef spec8 w) :=
  ((dat8 (val14 m) c).arrAt_in w hin _).trans ((A_eq8 (val14 m) c w).trans (Gen.V15_of m (outs m) c _ hne).symm)
set_option maxHeartbeats 1000000 in
theorem hF8 (c : Dev nD) : ∀ w : Fin 5, (dat8 (val14 m) c).arrAt w cfg8.N = val15 m c (Pipeline.arrRef spec8 w)
  | ⟨0, _⟩ => hFin8 m c 0 (by decide +kernel) (by decide +kernel)
  | ⟨1, _⟩ => hFin8 m c 1 (by decide +kernel) (by decide +kernel)
  | ⟨2, _⟩ => hFin8 m c 2 (by decide +kernel) (by decide +kernel)
  | ⟨3, _⟩ => hFin8 m c 3 (by decide +kernel) (by decide +kernel)
  | ⟨4, _⟩ => (arrOut8_4 m c).symm
  | ⟨_ + 5, h⟩ => absurd h (by omega)
theorem hrest8 (c : Dev nD) : ∀ b, b ∉ Finset.univ.image (Pipeline.arrRef spec8) → val15 m c b = val14 m c b :=
  fun b hb => Gen.V15_of m (outs m) c b fun h => hb (by
    rcases List.mem_cons.mp h with rfl | h
    · exact Finset.mem_image.mpr ⟨(4 : Fin 5), Finset.mem_univ _, rfl⟩
    · cases h)

/-! ## The thread state that rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- The same rest at every boundary. -/
abbrev E : Fin 10 → Dev nD → sProp 𝕄 := fun _ c => R c

end Cert.KernelIdeal.Hand

end
-- ==== Proof.KI.Run2a.lean ====
import proofs.«110361_j29403346109051_2_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The regions of @main as segments -/

-- a library lemma stated over the pinned configuration unifies with the printed one only when unification may
-- unfold plain definitions in a metavariable's type
set_option backward.isDefEq.respectTransparency.types false in
/-- REGION 0 over the thread state: entered from every unscoped buffer at boundary 1's contents, left at boundary
    2's. Its arrays are split out of the unscoped buffers and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (val1 m) c).loose
  hwaits := Pipeline.hwaits_of_owed_zero _ _ _ _ L lv 0 fun c t => owed_eq0 (val1 m) c t
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (val1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (val1 m) c w) (val1 m c) fun w => A_eq0 (val1 m) c w
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (val1 m) c)
    iintro ⟨Hp, -, Hr⟩
    isplitl [Hp]; · iexact Hp
    iexact Hr
  hout c := by
    rw [Pipeline.ownSems0_none]
    refine (hout0 (val1 m) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (val1 m) c w)
      (val1 m c) (val2 m c) ((pdats m 0 c).arrAt · cfg0.N) (hF0 m c) (hrest0 m c)
    rw [Pipeline.unscopedBufs_held c (Gen.V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at boundary 3's contents, left at boundary
    4's. Its arrays are split out of the unscoped buffers and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (val3 m) c).loose
  hwaits := Pipeline.hwaits_of_owed_zero _ _ _ _ L lv 1 fun c t => owed_eq1 (val3 m) c t
  pre c := iprop(StableHlo.held (c : Thread nD τ) (Pipeline.ucRefs τ sig) (Gen.V3 m (outs m) c) ∗ E 1 c)
  post c := iprop(StableHlo.held (c : Thread nD τ) (Pipeline.ucRefs τ sig) (Gen.V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (val3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (val3 m) c w) (val3 m c) fun w => A_eq1 (val3 m) c w
    rw [Pipeline.unscopedBufs_held c (Gen.V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (val3 m) c)
    iintro ⟨Hp, -, Hr⟩
    isplitl [Hp]; · iexact Hp
    iexact Hr
  hout c := by
    rw [Pipeline.ownSems0_none]
    refine (hout1 (val3 m) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (val3 m) c w)
      (val3 m c) (val4 m c) ((pdats m 1 c).arrAt · cfg1.N) (hF1 m c) (hrest1 m c)
    rw [Pipeline.unscopedBufs_held c (Gen.V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at boundary 4's contents, left at boundary
    5's. Its arrays are split out of the unscoped buffers and put back at the exit contents; the generator register
    goes into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (val4 m) c).loose
  hwaits := Pipeline.hwaits_of_owed_zero _ _ _ _ L lv 2 fun c t => owed_eq2 (val4 m) c t
  pre c := iprop(StableHlo.held (c : Thread nD τ) (Pipeline.ucRefs τ sig) (Gen.V4 m (outs m) c) ∗ E 2 c)
  post c := iprop(StableHlo.held (c : Thread nD τ) (Pipeline.ucRefs τ sig) (Gen.V5 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (val4 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (val4 m) c w) (val4 m c) fun w => A_eq2 (val4 m) c w
    rw [Pipeline.unscopedBufs_held c (Gen.V4 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (val4 m) c)
    iintro ⟨Hp, -, Hr⟩
    isplitl [Hp]; · iexact Hp
    iexact Hr
  hout c := by
    rw [Pipeline.ownSems0_none]
    refine (hout2 (val4 m) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (val4 m) c w)
      (val4 m c) (val5 m c) ((pdats m 2 c).arrAt · cfg2.N) (hF2 m c) (hrest2 m c)
    rw [Pipeline.unscopedBufs_held c (Gen.V5 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run2b.lean ====
import proofs.«110361_j29403346109051_2_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The regions of @main as segments -/

-- a library lemma stated over the pinned configuration unifies with the printed one only when unification may
-- unfold plain definitions in a metavariable's type
set_option backward.isDefEq.respectTransparency.types false in
/-- REGION 3 over the thread state: entered from every unscoped buffer at boundary 6's contents, left at boundary
    7's. Its arrays are split out of the unscoped buffers and put back at the exit contents; the generator register
    goes into the region's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (val6 m) c).loose
  hwaits := Pipeline.hwaits_of_owed_zero _ _ _ _ L lv 3 fun c t => owed_eq3 (val6 m) c t
  pre c := iprop(StableHlo.held (c : Thread nD τ) (Pipeline.ucRefs τ sig) (Gen.V6 m (outs m) c) ∗ E 3 c)
  post c := iprop(StableHlo.held (c : Thread nD τ) (Pipeline.ucRefs τ sig) (Gen.V7 m (outs m) c) ∗ E 4 c)
  X c := iprop(∃ r, prngReg c r)
  Y c := iprop(∃ r, prngReg c r)
  Z c := Pipeline.unscopedRest (Ix := Unit) (Name := ℕ) (U := UR sig nD τ) (Lvl := ℕ) spec3 c (val6 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (val6 m) c w) (val6 m c) fun w => A_eq3 (val6 m) c w
    rw [Pipeline.unscopedBufs_held c (Gen.V6 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (val6 m) c)
    iintro ⟨Hp, -, Hr⟩
    isplitl [Hp]; · iexact Hp
    iexact Hr
  hout c := by
    rw [Pipeline.ownSems0_none]
    refine (hout3 (val6 m) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (val6 m) c w)
      (val6 m c) (val7 m c) ((pdats m 3 c).arrAt · cfg3.N) (hF3 m c) (hrest3 m c)
    rw [Pipeline.unscopedBufs_held c (Gen.V7 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 4 over the thread state: entered from every unscoped buffer at boundary 8's contents, left at boundary
    9's. Its arrays are split out of the unscoped buffers and put back at the exit contents; the generator register
    goes into the region's invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (val8 m) c).loose
  hwaits := Pipeline.hwaits_of_owed_zero _ _ _ _ L lv 4 fun c t => owed_eq4 (val8 m) c t
  pre c := iprop(StableHlo.held (c : Thread nD τ) (Pipeline.ucRefs τ sig) (Gen.V8 m (outs m) c) ∗ E 4 c)
  post c := iprop(StableHlo.held (c : Thread nD τ) (Pipeline.ucRefs τ sig) (Gen.V9 m (outs m) c) ∗ E 5 c)
  X c := iprop(∃ r, prngReg c r)
  Y c := iprop(∃ r, prngReg c r)
  Z c := Pipeline.unscopedRest (Ix := Unit) (Name := ℕ) (U := UR sig nD τ) (Lvl := ℕ) spec4 c (val8 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (val8 m) c w) (val8 m c) fun w => A_eq4 (val8 m) c w
    rw [Pipeline.unscopedBufs_held c (Gen.V8 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (val8 m) c)
    iintro ⟨Hp, -, Hr⟩
    isplitl [Hp]; · iexact Hp
    iexact Hr
  hout c := by
    rw [Pipeline.ownSems0_none]
    refine (hout4 (val8 m) c).trans ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (val8 m) c w)
      (val8 m c) (val9 m c) ((pdats m 4 c).arrAt · cfg4.N) (hF4 m c) (hrest4 m c)
    rw [Pipeline.unscopedBufs_held c (Gen.V9 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 5 over the thread state: entered from every unscoped buffer at boundary 9's contents, left at boundary
    10's. Its arrays are split out of the unscoped buffers and put back at the exit contents; the generator register
    goes into the region's invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (val9 m) c).loose
  hwaits := Pipeline.hwaits_of_owed_zero _ _ _ _ L lv 5 fun c t => owed_eq5 (val9 m) c t
  pre c := iprop(StableHlo.held (c : Thread nD τ) (Pipeline.ucRefs τ sig) (Gen.V9 m (outs m) c) ∗ E 5 c)
  post c := iprop(StableHlo.held (c : Thread nD τ) (Pipeline.ucRefs τ sig) (Gen.V10 m (outs m) c) ∗ E 6 c)
  X c := iprop(∃ r, prngReg c r)
  Y c := iprop(∃ r, prngReg c r)
  Z c := Pipeline.unscopedRest (Ix := Unit) (Name := ℕ) (U := UR sig nD τ) (Lvl := ℕ) spec5 c (val9 m c)
  hentry c := by
    rw [Pipeline.ownSems0_none]
    have hsplit := Pipeline.arrays_of_unscopedBufs (p := 5) (pcfgs (F := F)) adm (pdats m) launch5.win launch5.arr_whole c
      ((pdats m 5 c).share_full fun w => q_eq5 (val9 m) c w) (val9 m c) fun w => A_eq5 (val9 m) c w
    rw [Pipeline.unscopedBufs_held c (Gen.V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (val9 m) c)
    iintro ⟨Hp, -, Hr⟩
    isplitl [Hp]; · iexact Hp
    iexact Hr
  hout c := by
    rw [Pipeline.ownSems0_none]
    refine (hout5 (val9 m) c).trans ?_
    iintro ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun w => q_eq5 (val9 m) c w)
      (val9 m c) (val10 m c) ((pdats m 5 c).arrAt · cfg5.N) (hF5 m c) (hrest5 m c)
    rw [Pipeline.unscopedBufs_held c (Gen.V10 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run2c.lean ====
import proofs.«110361_j29403346109051_2_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The regions of @main as segments -/

-- a library lemma stated over the pinned configuration unifies with the printed one only when unification may
-- unfold plain definitions in a metavariable's type
set_option backward.isDefEq.respectTransparency.types false in
/-- REGION 6 over the thread state: entered from every unscoped buffer at boundary 11's contents, left at boundary
    12's. Its arrays are split out of the unscoped buffers and put back at the exit contents; the generator register
    goes into the region's invariant and comes out; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (val11 m) c).loose
  hwaits := Pipeline.hwaits_of_owed_zero _ _ _ _ L lv 6 fun c t => owed_eq6 (val11 m) c t
  pre c := iprop(StableHlo.held (c : Thread nD τ) (Pipeline.ucRefs τ sig) (Gen.V11 m (outs m) c) ∗ E 6 c)
  post c := iprop(StableHlo.held (c : Thread nD τ) (Pipeline.ucRefs τ sig) (Gen.V12 m (outs m) c) ∗ E 7 c)
  X c := iprop(∃ r, prngReg c r)
  Y c := iprop(∃ r, prngReg c r)
  Z c := Pipeline.unscopedRest (Ix := Unit) (Name := ℕ) (U := UR sig nD τ) (Lvl := ℕ) spec6 c (val11 m c)
  hentry c := by
    rw [Pipeline.ownSems0_none]
    have hsplit := Pipeline.arrays_of_unscopedBufs (p := 6) (pcfgs (F := F)) adm (pdats m) launch6.win launch6.arr_whole c
      ((pdats m 6 c).share_full fun w => q_eq6 (val11 m) c w) (val11 m c) fun w => A_eq6 (val11 m) c w
    rw [Pipeline.unscopedBufs_held c (Gen.V11 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (val11 m) c)
    iintro ⟨Hp, -, Hr⟩
    isplitl [Hp]; · iexact Hp
    iexact Hr
  hout c := by
    rw [Pipeline.ownSems0_none]
    refine (hout6 (val11 m) c).trans ?_
    iintro ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun w => q_eq6 (val11 m) c w)
      (val11 m c) (val12 m c) ((pdats m 6 c).arrAt · cfg6.N) (hF6 m c) (hrest6 m c)
    rw [Pipeline.unscopedBufs_held c (Gen.V12 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 7 over the thread state: entered from every unscoped buffer at boundary 13's contents, left at boundary
    14's. Its arrays are split out of the unscoped buffers and put back at the exit contents; the generator register
    goes into the region's invariant and comes out; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (val13 m) c).loose
  hwaits := Pipeline.hwaits_of_owed_zero _ _ _ _ L lv 7 fun c t => owed_eq7 (val13 m) c t
  pre c := iprop(StableHlo.held (c : Thread nD τ) (Pipeline.ucRefs τ sig) (Gen.V13 m (outs m) c) ∗ E 7 c)
  post c := iprop(StableHlo.held (c : Thread nD τ) (Pipeline.ucRefs τ sig) (Gen.V14 m (outs m) c) ∗ E 8 c)
  X c := iprop(∃ r, prngReg c r)
  Y c := iprop(∃ r, prngReg c r)
  Z c := Pipeline.unscopedRest (Ix := Unit) (Name := ℕ) (U := UR sig nD τ) (Lvl := ℕ) spec7 c (val13 m c)
  hentry c := by
    rw [Pipeline.ownSems0_none]
    have hsplit := Pipeline.arrays_of_unscopedBufs (p := 7) (pcfgs (F := F)) adm (pdats m) launch7.win launch7.arr_whole c
      ((pdats m 7 c).share_full fun w => q_eq7 (val13 m) c w) (val13 m c) fun w => A_eq7 (val13 m) c w
    rw [Pipeline.unscopedBufs_held c (Gen.V13 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (val13 m) c)
    iintro ⟨Hp, -, Hr⟩
    isplitl [Hp]; · iexact Hp
    iexact Hr
  hout c := by
    rw [Pipeline.ownSems0_none]
    refine (hout7 (val13 m) c).trans ?_
    iintro ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun w => q_eq7 (val13 m) c w)
      (val13 m c) (val14 m c) ((pdats m 7 c).arrAt · cfg7.N) (hF7 m c) (hrest7 m c)
    rw [Pipeline.unscopedBufs_held c (Gen.V14 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 8 over the thread state: entered from every unscoped buffer at boundary 14's contents, left at boundary
    15's. Its arrays are split out of the unscoped buffers and put back at the exit contents; the generator register
    goes into the region's invariant and comes out; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (val14 m) c).loose
  hwaits := Pipeline.hwaits_of_owed_zero _ _ _ _ L lv 8 fun c t => owed_eq8 (val14 m) c t
  pre c := iprop(StableHlo.held (c : Thread nD τ) (Pipeline.ucRefs τ sig) (Gen.V14 m (outs m) c) ∗ E 8 c)
  post c := iprop(StableHlo.held (c : Thread nD τ) (Pipeline.ucRefs τ sig) (Gen.V15 m (outs m) c) ∗ E 9 c)
  X c := iprop(∃ r, prngReg c r)
  Y c := iprop(∃ r, prngReg c r)
  Z c := Pipeline.unscopedRest (Ix := Unit) (Name := ℕ) (U := UR sig nD τ) (Lvl := ℕ) spec8 c (val14 m c)
  hentry c := by
    rw [Pipeline.ownSems0_none]
    have hsplit := Pipeline.arrays_of_unscopedBufs (p := 8) (pcfgs (F := F)) adm (pdats m) launch8.win launch8.arr_whole c
      ((pdats m 8 c).share_full fun w => q_eq8 (val14 m) c w) (val14 m c) fun w => A_eq8 (val14 m) c w
    rw [Pipeline.unscopedBufs_held c (Gen.V14 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (val14 m) c)
    iintro ⟨Hp, -, Hr⟩
    isplitl [Hp]; · iexact Hp
    iexact Hr
  hout c := by
    rw [Pipeline.ownSems0_none]
    refine (hout8 (val14 m) c).trans ?_
    iintro ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun w => q_eq8 (val14 m) c w)
      (val14 m c) (val15 m c) ((pdats m 8 c).arrAt · cfg8.N) (hF8 m c) (hrest8 m c)
    rw [Pipeline.unscopedBufs_held c (Gen.V15 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«110361_j29403346109051_2_alg».proof.Proof.KI.Run2a
import proofs.«110361_j29403346109051_2_alg».proof.Proof.KI.Run2b
import proofs.«110361_j29403346109051_2_alg».proof.Proof.KI.Run2c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The run of @main from the launch to the return -/

/-- At the last boundary nothing is owed: the dues ride in the rest. -/
theorem hE9 (c : Dev nD) : (E (F := F) 9 c) ⊢ (iprop(∃ W, owes (c : Thread nD τ) (0 : CellTallies nD τ sig Unit) W) : sProp 𝕄) := by
  iintro ⟨-, H⟩; iexact H

-- the kit's implicit arguments are found by unifying its conclusion with this one, which takes unfolding plain
-- definitions in a metavariable's type
set_option backward.isDefEq.respectTransparency.types false in
/-- THE RUN. From any memory `m` with zero counters, every weakly fair execution of @main on the TensorCores terminates,
    nothing faulting, and every final memory holds the result buffer at the last boundary's contents and each argument
    array as launched. -/
theorem run_main (ρ : Dev nD → PrngReg) : θ_run defs (onTc (τ := τ) (main (F := F))) ⟨m, fun _ => 0, ρ⟩ (fun r => ∀ c : Dev nD,
      r.2.mem ((c.tc : Thread nD τ).loc main_v125) = Gen.V15 m (outs m) c main_v125
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m) (reg2 m) (reg3 m) (reg4 m) (reg5 m) (reg6 m) (reg7 m) (reg8 m))
    (fun c Q => by
      rewrite [main_chain c, Pipeline.Seg.run_eq_chain,
        show (Gen.segs m (outs m) 𝒱₀ L lv E () (pdats m) (reg0 m) (reg1 m) (reg2 m) (reg3 m) (reg4 m) (reg5 m) (reg6 m) (reg7 m) (reg8 m) c).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V15 m (outs m) c))
    (hch := fun c => ⟨.rfl, .rfl, .rfl, .rfl, .rfl, .rfl, .rfl, .rfl, .rfl, .rfl, .rfl, .rfl, .rfl, .rfl, .rfl, sep_mono .rfl (hE9 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v125) = Gen.V15 m (outs m) c main_v125
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12))
    (hfin := fun c s' => ?_) (hQ := fun _ h => h)
  -- the end: the result buffer and each argument's buffer read off the last valuation
  unfold StableHlo.held
  iintro ⟨Hh, HSI⟩
  ihave Hr := (pointsTo_read_all (Pipeline.ucRefs τ sig) (fun b => ((c : Thread nD τ).1, b)) (Gen.V15 m (outs m) c) s') $$ [Hh HSI]
  · isplitl [Hh] <;> iassumption
  icases Hr with ⟨%h, HSI⟩
  imodintro
  isplitr
  · ipureintro
    exact ⟨h (Proc.devRef .tc main_v125) (Finset.mem_filter.mpr ⟨StableHlo.devRef_mem_tcRefs main_v125, by decide⟩),
      (h (Proc.devRef .tc main_arg0) (Finset.mem_filter.mpr ⟨StableHlo.devRef_mem_tcRefs main_arg0, by decide⟩)).trans (Gen.V15_main_arg0 m (outs m) c),
      (h (Proc.devRef .tc main_arg1) (Finset.mem_filter.mpr ⟨StableHlo.devRef_mem_tcRefs main_arg1, by decide⟩)).trans (Gen.V15_main_arg1 m (outs m) c),
      (h (Proc.devRef .tc main_arg2) (Finset.mem_filter.mpr ⟨StableHlo.devRef_mem_tcRefs main_arg2, by decide⟩)).trans (Gen.V15_main_arg2 m (outs m) c),
      (h (Proc.devRef .tc main_arg3) (Finset.mem_filter.mpr ⟨StableHlo.devRef_mem_tcRefs main_arg3, by decide⟩)).trans (Gen.V15_main_arg3 m (outs m) c),
      (h (Proc.devRef .tc main_arg4) (Finset.mem_filter.mpr ⟨StableHlo.devRef_mem_tcRefs main_arg4, by decide⟩)).trans (Gen.V15_main_arg4 m (outs m) c),
      (h (Proc.devRef .tc main_arg5) (Finset.mem_filter.mpr ⟨StableHlo.devRef_mem_tcRefs main_arg5, by decide⟩)).trans (Gen.V15_main_arg5 m (outs m) c),
      (h (Proc.devRef .tc main_arg6) (Finset.mem_filter.mpr ⟨StableHlo.devRef_mem_tcRefs main_arg6, by decide⟩)).trans (Gen.V15_main_arg6 m (outs m) c),
      (h (Proc.devRef .tc main_arg7) (Finset.mem_filter.mpr ⟨StableHlo.devRef_mem_tcRefs main_arg7, by decide⟩)).trans (Gen.V15_main_arg7 m (outs m) c),
      (h (Proc.devRef .tc main_arg8) (Finset.mem_filter.mpr ⟨StableHlo.devRef_mem_tcRefs main_arg8, by decide⟩)).trans (Gen.V15_main_arg8 m (outs m) c),
      (h (Proc.devRef .tc main_arg9) (Finset.mem_filter.mpr ⟨StableHlo.devRef_mem_tcRefs main_arg9, by decide⟩)).trans (Gen.V15_main_arg9 m (outs m) c),
      (h (Proc.devRef .tc main_arg10) (Finset.mem_filter.mpr ⟨StableHlo.devRef_mem_tcRefs main_arg10, by decide⟩)).trans (Gen.V15_main_arg10 m (outs m) c),
      (h (Proc.devRef .tc main_arg11) (Finset.mem_filter.mpr ⟨StableHlo.devRef_mem_tcRefs main_arg11, by decide⟩)).trans (Gen.V15_main_arg11 m (outs m) c),
      (h (Proc.devRef .tc main_arg12) (Finset.mem_filter.mpr ⟨StableHlo.devRef_mem_tcRefs main_arg12, by decide⟩)).trans (Gen.V15_main_arg12 m (outs m) c)⟩
  · iexact HSI

end Cert.KernelIdeal.Hand

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.LibStats.lean ====
/- Finite calculus on the extended reals. An extended real is called real when it is the image of a real number.
   Sums, differences, products, maxima, finite sums, quotients by a nonzero real and reciprocal square roots of
   positive reals stay real, so that identities of real algebra (which fail at the infinities: distributivity,
   cancellation) can be carried to the extended reals for real-valued data. The main such identity here is the
   one behind batch statistics: the mean of the squared deviations from the mean is the mean of the squares
   minus the square of the mean. Also: 1600000 terms summed as 200 consecutive blocks of 8000. -/
import Mathlib.Data.EReal.Inv
import Mathlib.Algebra.BigOperators.Fin
import Mathlib.Tactic.Ring
import Mathlib.Tactic.FieldSimp
import Mathlib.Tactic.Positivity
import Mathlib.Tactic.NormNum
import Idealize.ShloMosaic.PureOps.Ideal
import proofs.«110361_j29403346109051_2_alg».proof.Proof.LibBlockSum

namespace Cert.Lib

open Idealize.ShloMosaic

/-- An extended real that is (the image of) a real number: neither infinity. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is not the upper infinity. -/
theorem IsReal.ne_top {x : EReal} (h : IsReal x) : x ≠ ⊤ := by
  obtain ⟨r, rfl⟩ := h; exact EReal.coe_ne_top r

/-- A real extended real is not the lower infinity. -/
theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

/-- Being real is being neither infinity. -/
theorem isReal_iff {x : EReal} : IsReal x ↔ x ≠ ⊤ ∧ x ≠ ⊥ :=
  ⟨fun h => ⟨h.ne_top, h.ne_bot⟩, fun h => isReal_of_ne h.1 h.2⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two images of reals is the image of the maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two images of reals is the image of the minimum. -/
theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The maximum of two reals is real. -/
theorem IsReal.max {x y : EReal} (hx : IsReal x) (hy : IsReal y) : IsReal (max x y) := by
  obtain ⟨a, rfl⟩ := hx; obtain ⟨b, rfl⟩ := hy; exact ⟨_, coe_max a b⟩

/-- The minimum of two reals is real. -/
theorem IsReal.min {x y : EReal} (hx : IsReal x) (hy : IsReal y) : IsReal (min x y) := by
  obtain ⟨a, rfl⟩ := hx; obtain ⟨b, rfl⟩ := hy; exact ⟨_, coe_min a b⟩

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

/-- A sum of reals over a whole finite type is real. -/
theorem isReal_sum_univ {ι : Type*} [Fintype ι] (f : ι → EReal) (h : ∀ i, IsReal (f i)) :
    IsReal (∑ i, f i) :=
  isReal_sum Finset.univ f (fun i _ => h i)

/-- A family of reals is the image of a family of real numbers. -/
theorem exists_real_family {ι : Type*} (z : ι → EReal) (h : ∀ i, IsReal (z i)) :
    ∃ a : ι → ℝ, z = fun i => (a i : EReal) := by
  choose a ha using h
  exact ⟨a, funext ha⟩

/-- The quotient of the image of a real by a nonzero real number is the image of the product with the reciprocal. -/
theorem div_coe_coe (a : ℝ) {N : ℝ} (hN : N ≠ 0) :
    Ideal.div (a : EReal) (N : EReal) = ((a * (1 / N) : ℝ) : EReal) := by
  rw [Ideal.div_coe hN, EReal.coe_mul]

/-- The quotient of a real by a nonzero real number is real. -/
theorem IsReal.div {x : EReal} (hx : IsReal x) {N : ℝ} (hN : N ≠ 0) : IsReal (Ideal.div x (N : EReal)) := by
  obtain ⟨a, rfl⟩ := hx; exact ⟨_, div_coe_coe a hN⟩

/-- The reciprocal square root of a positive real number is the image of the reciprocal of its square root. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real number is real. -/
theorem isReal_rsqrt_coe {r : ℝ} (h : 0 < r) : IsReal (Ideal.rsqrt (r : EReal)) :=
  ⟨_, rsqrt_coe_of_pos h⟩

/-- The reciprocal square root of a positive real is real. -/
theorem IsReal.rsqrt {x : EReal} (hx : IsReal x) (h : 0 < x) : IsReal (Ideal.rsqrt x) := by
  obtain ⟨a, rfl⟩ := hx; exact isReal_rsqrt_coe (EReal.coe_pos.mp h)

/-- A nonnegative real number plus a positive one, taken in the extended reals, has a real reciprocal square root. -/
theorem isReal_rsqrt_add {v e : ℝ} (hv : 0 ≤ v) (he : 0 < e) : IsReal (Ideal.rsqrt ((v : EReal) + (e : EReal))) := by
  rw [← EReal.coe_add]; exact isReal_rsqrt_coe (add_pos_of_nonneg_of_pos hv he)

/-- Adding to zero changes nothing (a reduction's initial value 0 in front of its sum). -/
theorem zero_add_ereal (x : EReal) : (0 : EReal) + x = x := zero_add x

/-! ### The mean of squared deviations -/

/-- Over the real numbers, with N the number of terms and mu = (∑ a) / N: the sum of the squared deviations from mu
    is the sum of the squares minus N mu², so their means differ by mu². Division is written as the product with the
    reciprocal. -/
theorem variance_real {n : ℕ} (hn : n ≠ 0) (a : Fin n → ℝ) (N : ℝ) (hN : N = n) :
    (∑ i, (a i - (∑ j, a j) * (1 / N)) * (a i - (∑ j, a j) * (1 / N))) * (1 / N)
      = (∑ i, a i * a i) * (1 / N) - ((∑ j, a j) * (1 / N)) * ((∑ j, a j) * (1 / N)) := by
  have hN0 : N ≠ 0 := by rw [hN]; exact_mod_cast hn
  set S := ∑ j, a j with hS
  have h1 : ∑ i, (a i - S * (1 / N)) * (a i - S * (1 / N))
      = (∑ i, a i * a i) - 2 * (S * (1 / N)) * S + N * ((S * (1 / N)) * (S * (1 / N))) := by
    have : ∀ i, (a i - S * (1 / N)) * (a i - S * (1 / N))
        = a i * a i - 2 * (S * (1 / N)) * a i + (S * (1 / N)) * (S * (1 / N)) := fun i => by ring
    rw [Finset.sum_congr rfl (fun i _ => this i), Finset.sum_add_distrib, Finset.sum_sub_distrib,
      ← Finset.mul_sum, Finset.sum_const, Finset.card_univ, Fintype.card_fin, nsmul_eq_mul, ← hN]
  rw [h1]
  field_simp
  ring

/-- Over the real numbers the mean of the squared deviations is not negative. -/
theorem variance_real_nonneg {n : ℕ} (a : Fin n → ℝ) (mu N : ℝ) (hN : 0 ≤ N) :
    0 ≤ (∑ i, (a i - mu) * (a i - mu)) * (1 / N) :=
  mul_nonneg (Finset.sum_nonneg (fun i _ => mul_self_nonneg _)) (one_div_nonneg.mpr hN)

/-- The identity behind batch statistics, on the extended reals for real-valued data: with N the number n ≠ 0 of terms
    and mu = (∑ z) / N, the mean of the squared deviations from mu is the mean of the squares minus mu², and this
    common value is the image of a real number that is not negative. -/
theorem variance_identity_val {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) ∧
      Ideal.div (∑ i, z i * z i) (N : EReal)
          - Ideal.div (∑ j, z j) (N : EReal) * Ideal.div (∑ j, z j) (N : EReal) = (v : EReal) := by
  have hN0 : N ≠ 0 := by rw [hN]; exact_mod_cast hn
  have hNn : 0 ≤ N := by rw [hN]; exact Nat.cast_nonneg n
  obtain ⟨a, rfl⟩ := exists_real_family z hz
  have hmu : Ideal.div (∑ j, (a j : EReal)) (N : EReal) = (((∑ j, a j) * (1 / N) : ℝ) : EReal) := by
    rw [← coe_finset_sum, div_coe_coe _ hN0]
  have hD : ∀ mu : ℝ, ∑ i, ((a i : EReal) - (mu : EReal)) * ((a i : EReal) - (mu : EReal))
      = ((∑ i, (a i - mu) * (a i - mu) : ℝ) : EReal) := fun mu => by
    rw [coe_finset_sum]
    exact Finset.sum_congr rfl (fun i _ => by rw [EReal.coe_mul, EReal.coe_sub])
  have hQ : ∑ i, (a i : EReal) * (a i : EReal) = ((∑ i, a i * a i : ℝ) : EReal) := by
    rw [coe_finset_sum]
    exact Finset.sum_congr rfl (fun i _ => by rw [EReal.coe_mul])
  refine ⟨(∑ i, (a i - (∑ j, a j) * (1 / N)) * (a i - (∑ j, a j) * (1 / N))) * (1 / N),
    variance_real_nonneg a _ N hNn, ?_, ?_⟩
  · rw [hmu, hD, div_coe_coe _ hN0]
  · rw [hmu, hQ, div_coe_coe _ hN0, ← EReal.coe_mul, ← EReal.coe_sub, variance_real hn a N hN]

/-- The mean of the squared deviations from the mean is the mean of the squares minus the square of the mean
    (extended reals, real-valued data, N the number n ≠ 0 of terms). -/
theorem variance_identity {n : ℕ} (hn : n ≠ 0) (z : Fin n → EReal) (hz : ∀ i, IsReal (z i)) (N : ℝ) (hN : N = n) :
    Ideal.div (∑ i, (z i - Ideal.div (∑ j, z j) (N : EReal)) * (z i - Ideal.div (∑ j, z j) (N : EReal))) (N : EReal)
      = Ideal.div (∑ i, z i * z i) (N : EReal)
          - Ideal.div (∑ j, z j) (N : EReal) * Ideal.div (∑ j, z j) (N : EReal) := by
  obtain ⟨v, _, h1, h2⟩ := variance_identity_val hn z hz N hN
  rw [h1, h2]

/-- The same with the three sums, the mean and the sum of squared deviations named by equations, so that each may be
    given in whatever arrangement it was computed. -/
theorem variance_identity_of_eq {n : ℕ} (hn : n ≠ 0) (z : Fin n → EReal) (hz : ∀ i, IsReal (z i)) (N : ℝ) (hN : N = n)
    {S Q D mu : EReal} (hS : S = ∑ i, z i) (hQ : Q = ∑ i, z i * z i) (hmu : mu = Ideal.div S (N : EReal))
    (hD : D = ∑ i, (z i - mu) * (z i - mu)) :
    Ideal.div D (N : EReal) = Ideal.div Q (N : EReal) - mu * mu := by
  subst hS hQ hmu hD
  exact variance_identity hn z hz N hN

/-- The same with each sum preceded by a reduction's initial value 0. -/
theorem variance_identity_zero_add {n : ℕ} (hn : n ≠ 0) (z : Fin n → EReal) (hz : ∀ i, IsReal (z i)) (N : ℝ)
    (hN : N = n) :
    Ideal.div (0 + ∑ i, (z i - Ideal.div (0 + ∑ j, z j) (N : EReal)) * (z i - Ideal.div (0 + ∑ j, z j) (N : EReal)))
        (N : EReal)
      = Ideal.div (0 + ∑ i, z i * z i) (N : EReal)
          - Ideal.div (0 + ∑ j, z j) (N : EReal) * Ideal.div (0 + ∑ j, z j) (N : EReal) := by
  simp only [zero_add]
  exact variance_identity hn z hz N hN

/-- The mean of real-valued data is real. -/
theorem isReal_mean {n : ℕ} (z : Fin n → EReal) (hz : ∀ i, IsReal (z i)) {N : ℝ} (hN : N ≠ 0) :
    IsReal (Ideal.div (∑ j, z j) (N : EReal)) :=
  (isReal_sum_univ z hz).div hN

/-- The mean of the squared deviations of real-valued data from their mean is the image of a real number that is not
    negative. -/
theorem variance_nonneg_real {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) := by
  obtain ⟨v, hv, h1, _⟩ := variance_identity_val hn z hz N hN
  exact ⟨v, hv, h1⟩

/-- The mean of the squares minus the square of the mean, for real-valued data, is the image of a real number that is
    not negative. -/
theorem variance_nonneg_real' {n : ℕ} (hn : n ≠ 0) (z : Fin n → EReal) (hz : ∀ i, IsReal (z i)) (N : ℝ) (hN : N = n) :
    ∃ v : ℝ, 0 ≤ v ∧
      Ideal.div (∑ i, z i * z i) (N : EReal)
          - Ideal.div (∑ j, z j) (N : EReal) * Ideal.div (∑ j, z j) (N : EReal) = (v : EReal) := by
  obtain ⟨v, hv, _, h2⟩ := variance_identity_val hn z hz N hN
  exact ⟨v, hv, h2⟩

/-- Either form of the variance of real-valued data, plus a positive real number, has a real reciprocal square root. -/
theorem isReal_rsqrt_variance_add {n : ℕ} (hn : n ≠ 0) (z : Fin n → EReal) (hz : ∀ i, IsReal (z i)) (N : ℝ) (hN : N = n)
    {e : ℝ} (he : 0 < e) :
    IsReal (Ideal.rsqrt (Ideal.div (∑ i, z i * z i) (N : EReal)
          - Ideal.div (∑ j, z j) (N : EReal) * Ideal.div (∑ j, z j) (N : EReal) + (e : EReal))) := by
  obtain ⟨v, hv, h⟩ := variance_nonneg_real' hn z hz N hN
  rw [h]; exact isReal_rsqrt_add hv he

/-! ### The programs' two float literals, and the spellings of a literal -/

/-- The single-precision pattern 0x49C35000 is the real number 1600000 = (2²³ + 4411392) · 2⁻³. -/
theorem ofBits_1600000 : Ideal.ofBits .f32 0x49C35000#32 = ((1600000 : ℝ) : EReal) := by
  simp [Ideal.ofBits, Ideal.ieee, -EReal.coe_mul]; norm_num

/-- The single-precision pattern 0x3727C5AC (the float nearest to 10⁻⁵) is a positive real number,
    10995116 · 2⁻⁴⁰. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- 1600000 is the number of terms of a sum over Fin 1600000. -/
theorem cast_1600000 : (1600000 : ℝ) = ((1600000 : ℕ) : ℝ) := by norm_num

/-- A scalar literal, on the extended reals, is what its pattern denotes. -/
theorem scalar_ofBits_ideal (φ : FTy) (w : BitVec φ.bits) : Scalar.ofBits (F := Ideal) φ w = Ideal.ofBits φ w := rfl

/-- A scalar literal spread over a shape is, at every index, what its pattern denotes. -/
theorem broadcast_scalar_ofBits (S : Shape) (φ : FTy) (w : BitVec φ.bits) (i : S.Idx) :
    broadcast S (Scalar.ofBits (F := Ideal) φ w) i = Ideal.ofBits φ w := rfl

/-- A constant array is, at every index, what its pattern denotes. -/
theorem constant_ideal_apply (S : Shape) (φ : FTy) (w : BitVec φ.bits) (i : S.Idx) :
    constant (F := Ideal) S φ w i = Ideal.ofBits φ w := rfl

/-! ### 1600000 terms as 200 blocks of 8000 -/

/-- Place y of block t, for 200 blocks of 8000, lies below 1600000. -/
theorem block_lt_1600000 (t : Fin 200) (y : Fin 8000) : 8000 * t.val + y.val < 1600000 := by omega

/-- 1600000 terms are 200 consecutive blocks of 8000. -/
theorem sum_blocks_1600000 {M : Type*} [AddCommMonoid M] (f : Fin 1600000 → M) :
    ∑ t : Fin 200, ∑ y : Fin 8000, f ⟨8000 * t.val + y.val, by omega⟩ = ∑ r : Fin 1600000, f r :=
  sum_blocks_of_eq (nb := 200) (bs := 8000) (N := 1600000) rfl f

/-- 1600000 terms from a range of 200 block sums. -/
theorem sum_range_blocks_1600000 {M : Type*} [AddCommMonoid M] (f : Fin 1600000 → M) (B : ℕ → M)
    (hB : ∀ (t : ℕ) (ht : t < 200), B t = ∑ y : Fin 8000, f ⟨8000 * t + y.val, by omega⟩) :
    ∑ s ∈ Finset.range 200, B s = ∑ r : Fin 1600000, f r :=
  sum_range_blocks_of_eq (nb := 200) (bs := 8000) (N := 1600000) rfl f B hB

/-- 1600000 terms from 200 block sums indexed by Fin 200. -/
theorem sum_fin_blocks_1600000 {M : Type*} [AddCommMonoid M] (f : Fin 1600000 → M) (B : Fin 200 → M)
    (hB : ∀ t : Fin 200, B t = ∑ y : Fin 8000, f ⟨8000 * t.val + y.val, by omega⟩) :
    ∑ t : Fin 200, B t = ∑ r : Fin 1600000, f r := by
  rw [← sum_blocks_1600000 f]
  exact Finset.sum_congr rfl (fun t _ => hB t)

end Cert.Lib
-- ==== Proof.Spec.lean ====
/-
  The network of this certificate as pure functions on the extended reals, over literal index types: one layer is
  a linear map of the combined features, batch normalisation by column statistics over the 40000 nodes, a rectifier,
  a second linear map and rectifier, and a second batch normalisation and rectifier.  The column statistics come in two
  arrangements: "mean of squares minus square of mean, clamped at 0, with the reciprocal 1/40000 as a factor", and
  "mean of squared deviations, with the quotient by 40000".
-/
import Idealize.ShloMosaic.PureOps.Ideal
import Idealize.ShloMosaic.Lib.ValueIdx
import proofs.«110361_j29403346109051_2_alg».proof.Proof.LibStats

noncomputable section

open Idealize.ShloMosaic Idealize.ShloMosaic.ValueIdx

namespace Cert.Spec

/-- Node features: 40000 rows of 128 entries. -/
abbrev Mat := Fin 40000 → Fin 128 → EReal
/-- A weight matrix. -/
abbrev Wt := Fin 128 → Fin 128 → EReal
/-- A row of per-column parameters or statistics. -/
abbrev Row := Fin 128 → EReal

/-- The reciprocal of the number of nodes. -/
def invN : EReal := ((1 / 40000 : ℝ) : EReal)
/-- The number of nodes. -/
def nN : EReal := ((40000 : ℝ) : EReal)
/-- The stabiliser added to a variance: the single-precision word nearest 1e-5. -/
def epsB : EReal := Ideal.ofBits .f32 0x3727C5AC#32

/-- c · h + agg, entry by entry. -/
def comb (c : EReal) (h agg : Mat) : Mat := fun r k => c * h r k + agg r k
/-- x · w + b. -/
def lin (x : Mat) (w : Wt) (b : Row) : Mat := fun r j => (∑ k : Fin 128, x r k * w k j) + b j
/-- max(x, 0), entry by entry. -/
def relu (x : Mat) : Mat := fun r j => max (x r j) 0
/-- Column sums. -/
def csum (y : Mat) : Row := fun j => ∑ r : Fin 40000, y r j
/-- Column sums of squares. -/
def csumsq (y : Mat) : Row := fun j => ∑ r : Fin 40000, y r j * y r j
/-- Column means, the reciprocal as a factor. -/
def meanK (y : Mat) : Row := fun j => csum y j * invN
/-- Column variances as mean of squares minus square of mean, clamped at 0. -/
def varK (y : Mat) : Row := fun j => max (csumsq y j * invN - meanK y j * meanK y j) 0
/-- Column means as quotients. -/
def meanR (y : Mat) : Row := fun j => Ideal.div (csum y j) nN
/-- Column variances as means of squared deviations. -/
def varR (y : Mat) : Row :=
  fun j => Ideal.div (∑ r : Fin 40000, (y r j - meanR y j) * (y r j - meanR y j)) nN
/-- Batch normalisation with given statistics: g · (y − mu) · (var + eps)^(-1/2) + bt. -/
def bn (y : Mat) (mu var g bt : Row) : Mat :=
  fun r j => g j * (y r j - mu j) * Ideal.rsqrt (var j + epsB) + bt j

/-- A 40000×128 array read as a matrix. -/
def toMat (a : (⟨2, ![40000, 128]⟩ : Shape).Idx → EReal) : Mat := fun r j => a (ix2 r j)
/-- A 128×128 array read as a weight matrix. -/
def toWt (a : (⟨2, ![128, 128]⟩ : Shape).Idx → EReal) : Wt := fun k j => a (ix2 k j)
/-- A 1×128 array read as a row. -/
def toRow (a : (⟨2, ![1, 128]⟩ : Shape).Idx → EReal) : Row := fun j => a (ix2 0 j)

/-- One layer, statistics in the first arrangement. -/
def layerK (c : EReal) (h agg : Mat) (w1 : Wt) (b1 g1 bt1 : Row) (w2 : Wt) (b2 g2 bt2 : Row) : Mat :=
  let y1 := lin (comb c h agg) w1 b1
  let t2 := relu (lin (relu (bn y1 (meanK y1) (varK y1) g1 bt1)) w2 b2)
  relu (bn t2 (meanK t2) (varK t2) g2 bt2)

/-- One layer, statistics in the second arrangement. -/
def layerR (c : EReal) (h agg : Mat) (w1 : Wt) (b1 g1 bt1 : Row) (w2 : Wt) (b2 g2 bt2 : Row) : Mat :=
  let y1 := lin (comb c h agg) w1 b1
  let t2 := relu (lin (relu (bn y1 (meanR y1) (varR y1) g1 bt1)) w2 b2)
  relu (bn t2 (meanR t2) (varR t2) g2 bt2)

end Cert.Spec

end
-- ==== Proof.SpecAgg.lean ====
/-
  The neighbour aggregation of the network as a pure function: node r receives, from every edge p whose destination
  index (read signed) is r, the weight of the edge times the feature row of the edge's source node; a source index below
  zero counts from the end, and the row number is then clamped into [0, 39999].
-/
import proofs.«110361_j29403346109051_2_alg».proof.Proof.Spec

noncomputable section

namespace Cert.Spec

/-- The row a source index names. -/
def srcRow (s : BitVec 32) : Fin 40000 :=
  ⟨min ((if s.toInt < 0 then s + 40000#32 else s).toInt.toNat) 39999, by omega⟩

/-- The edge-weighted sum over incoming edges. -/
def agg (h : Mat) (src dst : Fin 640000 → BitVec 32) (ew : Fin 640000 → EReal) : Mat :=
  fun r k => ∑ p ∈ Finset.univ.filter (fun p : Fin 640000 => (dst p).toInt = (r.val : Int)), ew p * h (srcRow (src p)) k

/-- A sum of real terms is real: the aggregation of real features with real weights is real. -/
theorem isReal_agg (h : Mat) (src dst : Fin 640000 → BitVec 32) (ew : Fin 640000 → EReal)
    (hh : ∀ r k, Cert.Lib.IsReal (h r k)) (hw : ∀ p, Cert.Lib.IsReal (ew p)) (r : Fin 40000) (k : Fin 128) :
    Cert.Lib.IsReal (agg h src dst ew r k) :=
  Cert.Lib.isReal_sum _ _ (fun p _ => (hw p).mul (hh _ _))

end Cert.Spec

end
-- ==== Proof.LibGatherRows.lean ====
/-
  StableHLO's gather of whole rows by row number (`table[idx]` over rows), read at one element: rows of a matrix
  gathered by row number, and elements of a vector gathered by element number.

  The dimension numbers are the ones such a gather is written with: the start indices are an `[N, 1]` array whose
  second axis holds the one-component index vector; that component names the operand's axis 0, which is a collapsed
  axis of slice size 1; the operand's remaining axis (the columns, for rows) is taken whole and is the result's offset
  axis. Result element `(p, k)` is then operand element `(r, k)` where `r` is the start index `idx[p, 0]`, read signed and
  clamped into `[0, R − 1]` (a negative index reads row 0, one past the end reads the last row).
-/
import Idealize.ShloMosaic.PureOps.Ideal
import Idealize.ShloMosaic.Lib.ValueIdx

noncomputable section

namespace Cert.LibGatherRows

open Idealize.ShloMosaic Idealize.ShloMosaic.ValueIdx

section Rows
variable {α : Type} {R N K : Nat}

/-- The dimension numbers of a gather of rows of width `K` by row number. -/
abbrev rowsDims
    (wf : GatherDims.WF (⟨2, ![R, K]⟩ : Shape) (⟨2, ![N, 1]⟩ : Shape) (⟨2, ![N, K]⟩ : Shape) [1] [0] [] [0] [] 1 ![1, K]) :
    GatherDims (⟨2, ![R, K]⟩ : Shape) (⟨2, ![N, 1]⟩ : Shape) (⟨2, ![N, K]⟩ : Shape) where
  offsetDims := [1]
  collapsedSliceDims := [0]
  operandBatchingDims := []
  startIndicesBatchingDims := []
  startIndexMap := [0]
  indexVectorDim := 1
  sliceSizes := ![1, K]
  wf := wf

set_option maxHeartbeats 400000 in
/-- The start of result element `(p, k)`'s slice on the operand's row axis is the `p`-th start index, read signed and
    clamped into `[0, R − 1]`. -/
theorem rows_start_zero (wf) {w : Nat} (idx : IVec (⟨2, ![N, 1]⟩ : Shape) w) (p : Fin N) (k : Fin K) :
    (rowsDims (R := R) wf).start (ix2 p k) idx 0 = min (idx (ix2 p (0 : Fin 1))).toInt.toNat (R - 1) := by
  unfold GatherDims.start
  rw [dif_pos (show (0 : Fin 2) ∈ (rowsDims (R := R) (N := N) (K := K) wf).startIndexMap from List.mem_singleton.mpr rfl)]
  have hsi : (rowsDims (R := R) wf).siIdx (ix2 p k) ⟨List.idxOf (0 : Fin 2) (rowsDims (R := R) (N := N) (K := K) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- The start index map does not name the operand's column axis: the slice starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold GatherDims.start
  rw [dif_neg (show (1 : Fin 2) ∉ [(0 : Fin 2)] from by decide)]

set_option maxHeartbeats 400000 in
/-- The operand's row axis is collapsed: the offset coordinate on it is `0`. -/
theorem rows_offCoord_zero (wf) (j : (⟨2, ![N, K]⟩ : Shape).Idx) :
    (rowsDims (R := R) wf).offCoord j 0 = 0 :=
  GatherDims.offCoord_eq_zero _ _ _ (fun h => ((GatherDims.mem_sKept _ _).mp h).1 (List.mem_singleton.mpr rfl))

set_option maxHeartbeats 400000 in
/-- The offset coordinate on the operand's column axis is the result element's column. -/
theorem rows_offCoord_one (wf) (j : (⟨2, ![N, K]⟩ : Shape).Idx) :
    (rowsDims (R := R) wf).offCoord j 1 = (j 1).val := by
  unfold GatherDims.offCoord
  exact (dif_pos (show (1 : Fin 2) ∈ (List.finRange 2).filter (fun a => a ∉ [(0 : Fin 2)] ++ []) from by decide)).trans rfl

set_option maxHeartbeats 400000 in
/-- Rows gathered by row number, read at one element, for the literal dimension numbers: element `(p, k)` of the result
    is the operand's element `(r, k)`, `r` the `p`-th start index read signed and clamped into `[0, R − 1]`. -/
theorem hostGather_rowsDims_apply (hR : 0 < R)
    (wf : GatherDims.WF (⟨2, ![R, K]⟩ : Shape) (⟨2, ![N, 1]⟩ : Shape) (⟨2, ![N, K]⟩ : Shape) [1] [0] [] [0] [] 1 ![1, K])
    {w : Nat} (x : (⟨2, ![R, K]⟩ : Shape).Idx → α) (idx : IVec (⟨2, ![N, 1]⟩ : Shape) w) (p : Fin N) (k : Fin K) :
    Host.gather (rowsDims wf) x idx (ix2 p k)
      = x (ix2 (⟨min (idx (ix2 p (0 : Fin 1))).toInt.toNat (R - 1), by omega⟩ : Fin R) k) := by
  unfold Host.gather
  congr 1
  funext a
  refine Fin.ext ?_
  match a with
  | ⟨0, _⟩ =>
    show (rowsDims (R := R) wf).start (ix2 p k) idx 0 + (rowsDims (R := R) wf).batchCoord (ix2 p k) 0
        + (rowsDims (R := R) wf).offCoord (ix2 p k) 0 = min (idx (ix2 p (0 : Fin 1))).toInt.toNat (R - 1)
    rw [GatherDims.batchCoord_eq_zero _ _ _ List.not_mem_nil, rows_offCoord_zero, rows_start_zero]
    rfl
  | ⟨1, _⟩ =>
    show (rowsDims (R := R) wf).start (ix2 p k) idx 1 + (rowsDims (R := R) wf).batchCoord (ix2 p k) 1
        + (rowsDims (R := R) wf).offCoord (ix2 p k) 1 = k.val
    rw [GatherDims.batchCoord_eq_zero _ _ _ List.not_mem_nil, rows_offCoord_one, rows_start_one]
    exact Nat.zero_add _

/-- Rows of width `K` gathered by row number (`x[idx]` over rows), read at one element: element `(p, k)` of the
    result is `x (r, k)` where `r` is the `p`-th start index, read signed and clamped into `[0, R − 1]`. -/
theorem hostGather_rows_apply {α : Type} {R N K w : Nat} (hR : 0 < R)
    (d : GatherDims (⟨2, ![R, K]⟩ : Shape) (⟨2, ![N, 1]⟩ : Shape) (⟨2, ![N, K]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, K])
    (x : (⟨2, ![R, K]⟩ : Shape).Idx → α) (idx : IVec (⟨2, ![N, 1]⟩ : Shape) w) (p : Fin N) (k : Fin K) :
    Host.gather d x idx (ix2 p k)
      = x (ix2 (⟨min (idx (ix2 p (0 : Fin 1))).toInt.toNat (R - 1), by omega⟩ : Fin R) k) := by
  obtain ⟨od, cs, ob, sb, sm, iv, ss, wf⟩ := d
  dsimp only at hod hcs hob hsb hsm hiv hss
  subst hod hcs hob hsb hsm hiv hss
  exact hostGather_rowsDims_apply hR wf x idx p k

end Rows

section Vec
variable {α : Type} {R N : Nat}

/-- The dimension numbers of a gather of a vector's elements by element number. -/
abbrev vecDims
    (wf : GatherDims.WF (⟨1, ![R]⟩ : Shape) (⟨2, ![N, 1]⟩ : Shape) (⟨1, ![N]⟩ : Shape) [] [0] [] [0] [] 1 ![1]) :
    GatherDims (⟨1, ![R]⟩ : Shape) (⟨2, ![N, 1]⟩ : Shape) (⟨1, ![N]⟩ : Shape) where
  offsetDims := []
  collapsedSliceDims := [0]
  operandBatchingDims := []
  startIndicesBatchingDims := []
  startIndexMap := [0]
  indexVectorDim := 1
  sliceSizes := ![1]
  wf := wf

set_option maxHeartbeats 400000 in
/-- The start of result element `p`'s slice on the operand's one axis is the `p`-th start index, read signed and
    clamped into `[0, R − 1]`. -/
theorem vec_start_zero (wf) {w : Nat} (idx : IVec (⟨2, ![N, 1]⟩ : Shape) w) (p : Fin N) :
    (vecDims (R := R) wf).start (ix1 p) idx 0 = min (idx (ix2 p (0 : Fin 1))).toInt.toNat (R - 1) := by
  unfold GatherDims.start
  rw [dif_pos (show (0 : Fin 1) ∈ (vecDims (R := R) (N := N) wf).startIndexMap from List.mem_singleton.mpr rfl)]
  have hsi : (vecDims (R := R) wf).siIdx (ix1 p) ⟨List.idxOf (0 : Fin 1) (vecDims (R := R) (N := N) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- A vector's elements gathered by element number, read at one element, for the literal dimension numbers: element
    `p` of the result is the operand's element `r`, `r` the `p`-th start index read signed and clamped into `[0, R − 1]`. -/
theorem hostGather_vecDims_apply (hR : 0 < R)
    (wf : GatherDims.WF (⟨1, ![R]⟩ : Shape) (⟨2, ![N, 1]⟩ : Shape) (⟨1, ![N]⟩ : Shape) [] [0] [] [0] [] 1 ![1])
    {w : Nat} (x : (⟨1, ![R]⟩ : Shape).Idx → α) (idx : IVec (⟨2, ![N, 1]⟩ : Shape) w) (p : Fin N) :
    Host.gather (vecDims wf) x idx (ix1 p)
      = x (ix1 (⟨min (idx (ix2 p (0 : Fin 1))).toInt.toNat (R - 1), by omega⟩ : Fin R)) := by
  unfold Host.gather
  congr 1
  funext a
  refine Fin.ext ?_
  match a with
  | ⟨0, _⟩ =>
    show (vecDims (R := R) wf).start (ix1 p) idx 0 + (vecDims (R := R) wf).batchCoord (ix1 p) 0
        + (vecDims (R := R) wf).offCoord (ix1 p) 0 = min (idx (ix2 p (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl)),
      vec_start_zero]
    rfl

/-- A vector's elements gathered by element number (`x[idx]` of a flat array), read at one element: element `p` of the
    result is `x r` where `r` is the `p`-th start index, read signed and clamped into `[0, R − 1]`. -/
theorem hostGather_vec_apply {α : Type} {R N w : Nat} (hR : 0 < R)
    (d : GatherDims (⟨1, ![R]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![R]⟩ : Shape).Idx → α) (idx : IVec (⟨2, ![N, 1]⟩ : Shape) w) (p : Fin N) :
    Host.gather d x idx (ix1 p)
      = x (ix1 (⟨min (idx (ix2 p (0 : Fin 1))).toInt.toNat (R - 1), by omega⟩ : Fin R)) := by
  obtain ⟨od, cs, ob, sb, sm, iv, ss, wf⟩ := d
  dsimp only at hod hcs hob hsb hsm hiv hss
  subst hod hcs hob hsb hsm hiv hss
  exact hostGather_vecDims_apply hR wf x idx p

end Vec

end Cert.LibGatherRows

end
-- ==== Proof.LibScatterRows.lean ====
/-
  The host's accumulating float scatter (`.at[idx].add`, a segment sum) read at one element, at the ideal instance:
  rows of a matrix scattered by row number, and a vector scattered by element number.

  The dimension numbers are the ones such a scatter is written with: the scatter indices are an `[N, 1]` array whose
  second axis holds the one-component index vector, that component names the operand's axis 0, which is an inserted
  window axis; the update's remaining axis (the columns, for rows) is the window axis. Update element `(p, c)` then
  lands at operand element `(idx[p, 0], c)` (the index read signed, NOT clamped), or nowhere when `idx[p, 0]` is
  outside `[0, R)`; so element `(r, k)` of the result collects exactly the update elements `(p, k)` with
  `idx[p, 0] = r`.
-/
import Idealize.ShloMosaic.PureOps.Ideal
import Idealize.ShloMosaic.Lib.ValueIdx

noncomputable section

namespace Cert.LibScatterRows

open Idealize.ShloMosaic Idealize.ShloMosaic.ValueIdx
open scoped BigOperators

section Rows
variable {R N K : Nat}

/-- The dimension numbers of a scatter of rows by row number. -/
abbrev rowsDims (wf : ScatterDims.WF (⟨2, ![R, K]⟩ : Shape) (⟨2, ![N, 1]⟩ : Shape) (⟨2, ![N, K]⟩ : Shape) [1] [0] [0] 1) :
    ScatterDims (⟨2, ![R, K]⟩ : Shape) (⟨2, ![N, 1]⟩ : Shape) (⟨2, ![N, K]⟩ : Shape) where
  updateWindowDims := [1]
  insertedWindowDims := [0]
  scatterDimsToOperandDims := [0]
  indexVectorDim := 1
  wf := wf

set_option maxHeartbeats 400000 in
/-- The start of update element `(p, c)`'s window on the operand's row axis is the `p`-th scatter index, read signed. -/
theorem rows_start_zero (wf) {w : Nat} (idx : IVec (⟨2, ![N, 1]⟩ : Shape) w) (p : Fin N) (c : Fin K) :
    (rowsDims (R := R) wf).start (ix2 p c) idx 0 = (idx (ix2 p (0 : Fin 1))).toInt := by
  unfold ScatterDims.start
  rw [dif_pos (show (0 : Fin 2) ∈ (rowsDims (R := R) (N := N) (K := K) wf).scatterDimsToOperandDims from List.mem_singleton.mpr rfl)]
  congr 2
  funext b
  refine Fin.ext ?_
  match b with
  | ⟨0, _⟩ => rfl
  | ⟨1, _⟩ => rfl

set_option maxHeartbeats 400000 in
/-- The scatter indices do not name the operand's column axis: the window starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold ScatterDims.start
  rw [dif_neg (show (1 : Fin 2) ∉ [(0 : Fin 2)] from by decide)]

set_option maxHeartbeats 400000 in
/-- The operand's row axis is an inserted window axis: the window coordinate on it is `0`. -/
theorem rows_window_zero (wf) (j : (⟨2, ![N, K]⟩ : Shape).Idx) :
    (rowsDims (R := R) wf).window j 0 = 0 := by
  unfold ScatterDims.window
  exact dif_neg (show (0 : Fin 2) ∉ (List.finRange 2).filter (fun a => a ∉ [(0 : Fin 2)]) from by decide)

set_option maxHeartbeats 400000 in
/-- The window coordinate on the operand's column axis is the update element's column. -/
theorem rows_window_one (wf) (j : (⟨2, ![N, K]⟩ : Shape).Idx) :
    (rowsDims (R := R) wf).window j 1 = (j 1).val := by
  unfold ScatterDims.window
  exact (dif_pos (show (1 : Fin 2) ∈ (List.finRange 2).filter (fun a => a ∉ [(0 : Fin 2)]) from by decide)).trans rfl

set_option maxHeartbeats 400000 in
/-- The landing place of update element `(p, c)` is operand element `(r, k)` exactly when the `p`-th scatter index,
    read signed, is `r` and the column is the same (`c = k`); an index outside `[0, R)` lands nowhere. -/
theorem rows_resultIdx?_eq_some_iff
    (wf : ScatterDims.WF (⟨2, ![R, K]⟩ : Shape) (⟨2, ![N, 1]⟩ : Shape) (⟨2, ![N, K]⟩ : Shape) [1] [0] [0] 1)
    {w : Nat} (idx : IVec (⟨2, ![N, 1]⟩ : Shape) w) (p : Fin N) (c : Fin K) (r : Fin R) (k : Fin K) :
    (rowsDims (R := R) wf).resultIdx? (ix2 p c) idx = some (ix2 r k)
      ↔ (idx (ix2 p (0 : Fin 1))).toInt = (r.val : Int) ∧ c = k := by
  have h0 : (rowsDims (R := R) wf).start (ix2 p c) idx 0 + ((rowsDims (R := R) wf).window (ix2 p c) 0 : Int)
      = (idx (ix2 p (0 : Fin 1))).toInt := by
    rw [rows_start_zero, rows_window_zero]; exact Int.add_zero _
  have h1 : (rowsDims (R := R) wf).start (ix2 p c) idx 1 + ((rowsDims (R := R) wf).window (ix2 p c) 1 : Int)
      = (c.val : Int) := by
    rw [rows_start_one, rows_window_one]; exact Int.zero_add _
  unfold ScatterDims.resultIdx?
  split
  · rename_i h
    rw [Option.some.injEq]
    constructor
    · intro e
      have e0 : ((rowsDims (R := R) wf).start (ix2 p c) idx 0
          + ((rowsDims (R := R) wf).window (ix2 p c) 0 : Int)).toNat = r.val :=
        congrArg (fun f : (⟨2, ![R, K]⟩ : Shape).Idx => (f 0).val) e
      have e1 : ((rowsDims (R := R) wf).start (ix2 p c) idx 1
          + ((rowsDims (R := R) wf).window (ix2 p c) 1 : Int)).toNat = k.val :=
        congrArg (fun f : (⟨2, ![R, K]⟩ : Shape).Idx => (f 1).val) e
      have g0 := (h 0).1
      rw [h0] at e0 g0
      rw [h1] at e1
      exact ⟨by omega, Fin.ext (by omega)⟩
    · rintro ⟨ht, hc⟩
      funext a
      refine Fin.ext ?_
      match a with
      | ⟨0, _⟩ =>
        show ((rowsDims (R := R) wf).start (ix2 p c) idx 0
          + ((rowsDims (R := R) wf).window (ix2 p c) 0 : Int)).toNat = r.val
        rw [h0, ht]; exact Int.toNat_natCast _
      | ⟨1, _⟩ =>
        show ((rowsDims (R := R) wf).start (ix2 p c) idx 1
          + ((rowsDims (R := R) wf).window (ix2 p c) 1 : Int)).toNat = k.val
        rw [h1, hc]; exact Int.toNat_natCast _
  · rename_i h
    constructor
    · intro e; cases e
    · rintro ⟨ht, hc⟩
      exfalso; apply h
      intro a
      match a with
      | ⟨0, _⟩ =>
        show 0 ≤ (rowsDims (R := R) wf).start (ix2 p c) idx 0 + ((rowsDims (R := R) wf).window (ix2 p c) 0 : Int)
          ∧ (rowsDims (R := R) wf).start (ix2 p c) idx 0 + ((rowsDims (R := R) wf).window (ix2 p c) 0 : Int) < (R : Int)
        rw [h0, ht]; have := r.isLt; omega
      | ⟨1, _⟩ =>
        show 0 ≤ (rowsDims (R := R) wf).start (ix2 p c) idx 1 + ((rowsDims (R := R) wf).window (ix2 p c) 1 : Int)
          ∧ (rowsDims (R := R) wf).start (ix2 p c) idx 1 + ((rowsDims (R := R) wf).window (ix2 p c) 1 : Int) < (K : Int)
        rw [h1]; have := c.isLt; omega

set_option maxHeartbeats 400000 in
/-- Rows scattered by row number, read at one element, for the literal dimension numbers: element `(r, k)` of the
    result is the operand's element plus the sum, over the update rows `p` whose scatter index is `r`, of the update's
    element `(p, k)`. -/
theorem hostScatterAdd_rowsDims_apply
    (wf : ScatterDims.WF (⟨2, ![R, K]⟩ : Shape) (⟨2, ![N, 1]⟩ : Shape) (⟨2, ![N, K]⟩ : Shape) [1] [0] [0] 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd (rowsDims wf) x idx upd (ix2 r k)
      = x (ix2 r k) + ∑ p ∈ Finset.univ.filter (fun p : Fin N => (idx (ix2 p (0 : Fin 1))).toInt = (r.val : Int)),
          upd (ix2 p k) := by
  unfold Ideal.hostScatterAdd
  congr 1
  symm
  refine Finset.sum_bij (fun p _ => ix2 p k) ?_ ?_ ?_ ?_
  · intro p hp
    rw [Finset.mem_filter] at hp ⊢
    exact ⟨Finset.mem_univ _, (rows_resultIdx?_eq_some_iff wf idx p k r k).mpr ⟨hp.2, rfl⟩⟩
  · intro p _ q _ e
    exact congrArg (fun f : (⟨2, ![N, K]⟩ : Shape).Idx => f 0) e
  · intro j hj
    rw [Finset.mem_filter] at hj
    obtain ⟨p, c, rfl⟩ : ∃ p c, j = ix2 p c := ⟨j 0, j 1, eq_ix2 j⟩
    have hpc := (rows_resultIdx?_eq_some_iff wf idx p c r k).mp hj.2
    refine ⟨p, Finset.mem_filter.mpr ⟨Finset.mem_univ _, hpc.1⟩, ?_⟩
    rw [hpc.2]
  · intro p _; rfl

/-- Rows of width `K` scattered by row number (`x.at[idx].add(upd)` over rows), read at one element: element
    `(r, k)` of the result is `x (r, k)` plus the sum of `upd (p, k)` over the update rows `p` whose scatter index, read
    signed, is `r`. Update rows whose index is outside `[0, R)` contribute nothing. -/
theorem hostScatterAdd_rows_apply
    (d : ScatterDims (⟨2, ![R, K]⟩ : Shape) (⟨2, ![N, 1]⟩ : Shape) (⟨2, ![N, K]⟩ : Shape))
    (huw : d.updateWindowDims = [1]) (hiw : d.insertedWindowDims = [0]) (hsd : d.scatterDimsToOperandDims = [0])
    (hiv : d.indexVectorDim = 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd d x idx upd (ix2 r k)
      = x (ix2 r k) + ∑ p ∈ Finset.univ.filter (fun p : Fin N => (idx (ix2 p (0 : Fin 1))).toInt = (r.val : Int)),
          upd (ix2 p k) := by
  obtain ⟨uw, iw, sd, iv, wf⟩ := d
  dsimp only at huw hiw hsd hiv
  subst huw hiw hsd hiv
  exact hostScatterAdd_rowsDims_apply wf x idx upd r k

end Rows

section Vec
variable {R N : Nat}

/-- The dimension numbers of a scatter of a vector's elements by element number. -/
abbrev vecDims (wf : ScatterDims.WF (⟨1, ![R]⟩ : Shape) (⟨2, ![N, 1]⟩ : Shape) (⟨1, ![N]⟩ : Shape) [] [0] [0] 1) :
    ScatterDims (⟨1, ![R]⟩ : Shape) (⟨2, ![N, 1]⟩ : Shape) (⟨1, ![N]⟩ : Shape) where
  updateWindowDims := []
  insertedWindowDims := [0]
  scatterDimsToOperandDims := [0]
  indexVectorDim := 1
  wf := wf

set_option maxHeartbeats 400000 in
/-- The start of update element `p`'s window on the operand's one axis is the `p`-th scatter index, read signed. -/
theorem vec_start_zero (wf) {w : Nat} (idx : IVec (⟨2, ![N, 1]⟩ : Shape) w) (p : Fin N) :
    (vecDims (R := R) wf).start (ix1 p) idx 0 = (idx (ix2 p (0 : Fin 1))).toInt := by
  unfold ScatterDims.start
  rw [dif_pos (show (0 : Fin 1) ∈ (vecDims (R := R) (N := N) wf).scatterDimsToOperandDims from List.mem_singleton.mpr rfl)]
  congr 2
  funext b
  refine Fin.ext ?_
  match b with
  | ⟨0, _⟩ => rfl
  | ⟨1, _⟩ => rfl

set_option maxHeartbeats 400000 in
/-- The operand's one axis is an inserted window axis: the window coordinate on it is `0`. -/
theorem vec_window_zero (wf) (j : (⟨1, ![N]⟩ : Shape).Idx) :
    (vecDims (R := R) wf).window j 0 = 0 := by
  unfold ScatterDims.window
  exact dif_neg (show (0 : Fin 1) ∉ (List.finRange 1).filter (fun a => a ∉ [(0 : Fin 1)]) from by decide)

set_option maxHeartbeats 400000 in
/-- The landing place of update element `p` is operand element `r` exactly when the `p`-th scatter index, read
    signed, is `r`; an index outside `[0, R)` lands nowhere. -/
theorem vec_resultIdx?_eq_some_iff
    (wf : ScatterDims.WF (⟨1, ![R]⟩ : Shape) (⟨2, ![N, 1]⟩ : Shape) (⟨1, ![N]⟩ : Shape) [] [0] [0] 1)
    {w : Nat} (idx : IVec (⟨2, ![N, 1]⟩ : Shape) w) (p : Fin N) (r : Fin R) :
    (vecDims (R := R) wf).resultIdx? (ix1 p) idx = some (ix1 r)
      ↔ (idx (ix2 p (0 : Fin 1))).toInt = (r.val : Int) := by
  have h0 : (vecDims (R := R) wf).start (ix1 p) idx 0 + ((vecDims (R := R) wf).window (ix1 p) 0 : Int)
      = (idx (ix2 p (0 : Fin 1))).toInt := by
    rw [vec_start_zero, vec_window_zero]; exact Int.add_zero _
  unfold ScatterDims.resultIdx?
  split
  · rename_i h
    rw [Option.some.injEq]
    constructor
    · intro e
      have e0 : ((vecDims (R := R) wf).start (ix1 p) idx 0
          + ((vecDims (R := R) wf).window (ix1 p) 0 : Int)).toNat = r.val :=
        congrArg (fun f : (⟨1, ![R]⟩ : Shape).Idx => (f 0).val) e
      have g0 := (h 0).1
      rw [h0] at e0 g0
      omega
    · intro ht
      funext a
      refine Fin.ext ?_
      match a with
      | ⟨0, _⟩ =>
        show ((vecDims (R := R) wf).start (ix1 p) idx 0
          + ((vecDims (R := R) wf).window (ix1 p) 0 : Int)).toNat = r.val
        rw [h0, ht]; exact Int.toNat_natCast _
  · rename_i h
    constructor
    · intro e; cases e
    · intro ht
      exfalso; apply h
      intro a
      match a with
      | ⟨0, _⟩ =>
        show 0 ≤ (vecDims (R := R) wf).start (ix1 p) idx 0 + ((vecDims (R := R) wf).window (ix1 p) 0 : Int)
          ∧ (vecDims (R := R) wf).start (ix1 p) idx 0 + ((vecDims (R := R) wf).window (ix1 p) 0 : Int) < (R : Int)
        rw [h0, ht]; have := r.isLt; omega

set_option maxHeartbeats 400000 in
/-- A vector scattered by element number, read at one element, for the literal dimension numbers: element `r` of the
    result is the operand's element plus the sum of the update elements `p` whose scatter index is `r`. -/
theorem hostScatterAdd_vecDims_apply
    (wf : ScatterDims.WF (⟨1, ![R]⟩ : Shape) (⟨2, ![N, 1]⟩ : Shape) (⟨1, ![N]⟩ : Shape) [] [0] [0] 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd (vecDims wf) x idx upd (ix1 r)
      = x (ix1 r) + ∑ p ∈ Finset.univ.filter (fun p : Fin N => (idx (ix2 p (0 : Fin 1))).toInt = (r.val : Int)),
          upd (ix1 p) := by
  unfold Ideal.hostScatterAdd
  congr 1
  symm
  refine Finset.sum_bij (fun p _ => ix1 p) ?_ ?_ ?_ ?_
  · intro p hp
    rw [Finset.mem_filter] at hp ⊢
    exact ⟨Finset.mem_univ _, (vec_resultIdx?_eq_some_iff wf idx p r).mpr hp.2⟩
  · intro p _ q _ e
    exact congrArg (fun f : (⟨1, ![N]⟩ : Shape).Idx => f 0) e
  · intro j hj
    rw [Finset.mem_filter] at hj
    obtain ⟨p, rfl⟩ : ∃ p, j = ix1 p := ⟨j 0, eq_ix1 j⟩
    exact ⟨p, Finset.mem_filter.mpr ⟨Finset.mem_univ _, (vec_resultIdx?_eq_some_iff wf idx p r).mp hj.2⟩, rfl⟩
  · intro p _; rfl

/-- A vector scattered by element number (`x.at[idx].add(upd)`, a segment sum), read at one element: element `r` of
    the result is `x r` plus the sum of `upd p` over the update elements `p` whose scatter index, read signed, is `r`.
    Update elements whose index is outside `[0, R)` contribute nothing. -/
theorem hostScatterAdd_vec_apply
    (d : ScatterDims (⟨1, ![R]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd d x idx upd (ix1 r)
      = x (ix1 r) + ∑ p ∈ Finset.univ.filter (fun p : Fin N => (idx (ix2 p (0 : Fin 1))).toInt = (r.val : Int)),
          upd (ix1 p) := by
  obtain ⟨uw, iw, sd, iv, wf⟩ := d
  dsimp only at huw hiw hsd hiv
  subst huw hiw hsd hiv
  exact hostScatterAdd_vecDims_apply wf x idx upd r

end Vec

end Cert.LibScatterRows

end
-- ==== Proof.KI.HostLib.lean ====
/-
  The host side of the network's program on the extended reals, the parts shared by the three layers: the slices of
  the stacked parameters read at an index, and the neighbour aggregation (indices normalised, rows gathered, scaled by the
  edge weights and added up by destination) read at one entry as the edge-weighted sum over incoming edges.
-/
import proofs.«110361_j29403346109051_2_alg».proof.Proof.Gen.KernelIdeal.Regions
import proofs.«110361_j29403346109051_2_alg».proof.Proof.SpecAgg
import proofs.«110361_j29403346109051_2_alg».proof.Proof.LibGatherRows
import proofs.«110361_j29403346109051_2_alg».proof.Proof.LibScatterRows
import Idealize.ShloMosaic.Lib.Pipeline.Value
import Idealize.ShloMosaic.Lib.ValueLayout

noncomputable section

namespace Cert.KernelIdeal.Hand

open Cert.KernelIdeal
open Idealize.ShloMosaic Idealize.ShloMosaic.TcCoe Idealize.ShloMosaic.ValueIdx
open Cert.Spec
open Facts₀
open Facts₀

/-! ## Slices of the stacked parameters, read at an index -/

section Layout
variable {α : Type}

/-- Row l of a 3×128 table, cut out as a 1×128 slice, flattened and put back as one row, read at column j. -/
theorem rowChain_apply (x : S3x128.Idx → α) (off : Fin 2 → Nat) (h1 : S3x128.Slices off S1x128)
    (h2 : S1x128.ShapeCasts S128) (h3 : S128.ShapeCasts S1x128) (l : Fin 3) (hl : off 0 = l.val) (h0 : off 1 = 0)
    (j : Fin 128) :
    shapeCast S1x128 (shapeCast S128 (extractStridedSlice S1x128 off x h1) h2) h3 (ix2 (0 : Fin 1) j) = x (ix2 l j) := by
  refine (shapeCast_a_1a_apply _ h3 0 j).trans ?_
  refine (shapeCast_1a_a_apply _ h2 j).trans ?_
  refine extractStridedSlice_apply off x h1 _ _ ?_
  intro a
  match a with
  | ⟨0, _⟩ => show l.val = off 0 + 0; rw [hl]; rfl
  | ⟨1, _⟩ => show j.val = off 1 + j.val; rw [h0, Nat.zero_add]

/-- Matrix l of a 3×128×128 table, cut out and read as a 128×128 matrix at (k, j). -/
theorem matChain_apply (x : S3x128x128.Idx → α) (off : Fin 3 → Nat) (h1 : S3x128x128.Slices off S1x128x128)
    (h2 : S1x128x128.ShapeCasts S128x128) (l : Fin 3) (hl : off 0 = l.val) (h0 : off 1 = 0) (h0' : off 2 = 0)
    (k j : Fin 128) :
    shapeCast S128x128 (extractStridedSlice S1x128x128 off x h1) h2 (ix2 k j) = x (ix3 l k j) := by
  refine (shapeCast_1ab_ab_apply _ h2 k j).trans ?_
  refine extractStridedSlice_apply off x h1 _ _ ?_
  intro a
  match a with
  | ⟨0, _⟩ => show l.val = off 0 + 0; rw [hl]; rfl
  | ⟨1, _⟩ => show k.val = off 1 + k.val; rw [h0, Nat.zero_add]
  | ⟨2, _⟩ => show j.val = off 2 + j.val; rw [h0', Nat.zero_add]

end Layout

/-! ## The neighbour aggregation as the host computes it -/

/-- The host's chain of operations for the aggregation: the source indices normalised (a negative index counts from the
    end), the feature rows gathered by them, each scaled by its edge weight, and the scaled rows added up by
    destination index into an array of zeros. -/
def aggTerm (h : FVec Ideal S40000x128 .f32) (src dst : IVec S640000 32) (ew : FVec Ideal S640000 .f32) :
    FVec Ideal S40000x128 .f32 :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 dst)
    (mulf (broadcastInDim S640000x128 ![0, 1] bcast_S640000x1_S640000x128_0_1
            (broadcastInDim S640000x1 ![0] bcast_S640000_S640000x1_0 ew))
      (Host.gather gather_S40000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 40000#32))) src))))

section Reads
variable {α : Type}

/-- A vector spread as a one-column matrix reads, at (p, 0), the vector at p. -/
theorem col_apply (x : S640000.Idx → α) (h : S640000.BroadcastsInDim S640000x1 (![0] : Fin 1 → Fin S640000x1.rank))
    (p : Fin 640000) (u : Fin 1) : broadcastInDim S640000x1 ![0] h x (ix2 p u) = x (ix1 p) := by
  refine broadcastInDim_apply _ h x _ _ ?_
  intro a
  match a with
  | ⟨0, _⟩ => rfl

/-- A one-column matrix spread over 128 columns reads, at (p, k), the column at (p, 0). -/
theorem wide_apply (x : S640000x1.Idx → α)
    (h : S640000x1.BroadcastsInDim S640000x128 (![0, 1] : Fin 2 → Fin S640000x128.rank))
    (p : Fin 640000) (k : Fin 128) : broadcastInDim S640000x128 ![0, 1] h x (ix2 p k) = x (ix2 p (0 : Fin 1)) := by
  refine broadcastInDim_apply _ h x _ _ ?_
  intro a
  match a with
  | ⟨0, _⟩ => rfl
  | ⟨1, _⟩ => rfl

/-- A scalar spread over a shape reads the scalar everywhere. -/
theorem splat_apply {t : Shape} (x : S_.Idx → α) (h : S_.BroadcastsInDim t (![] : Fin 0 → Fin t.rank)) (j : t.Idx) :
    broadcastInDim t ![] h x j = x ix0 := by
  refine broadcastInDim_apply _ h x _ _ ?_
  intro a
  exact a.elim0

end Reads

/-- The single-precision word 0 is the number 0. -/
theorem ofBits_zero : Ideal.ofBits .f32 0x00000000#32 = 0 := by
  simp [Ideal.ofBits, Ideal.ieee]

/-- The single-precision word 0x3F800000 is the number 1. -/
theorem ofBits_one : Ideal.ofBits .f32 0x3F800000#32 = 1 := by
  simp [Ideal.ofBits, Ideal.ieee, -EReal.coe_mul]; norm_num

/-- The normalised source index read as a row number is the row the index names. -/
theorem srcRow_eq (s : BitVec 32) (hlt) :
    (⟨min (Scalar.select (IntOp.cmpi .slt s 0#32) (IntOp.addi s 40000#32) s).toInt.toNat (40000 - 1), hlt⟩ : Fin 40000)
      = srcRow s := by
  refine Fin.ext ?_
  show min (Scalar.select (IntOp.cmpi .slt s 0#32) (IntOp.addi s 40000#32) s).toInt.toNat (40000 - 1)
    = min ((if s.toInt < 0 then s + 40000#32 else s).toInt.toNat) 39999
  have hs : Scalar.select (IntOp.cmpi .slt s 0#32) (IntOp.addi s 40000#32) s = (if s.toInt < 0 then s + 40000#32 else s) := by
    unfold Scalar.select IntOp.cmpi IntOp.addi
    by_cases h : s.toInt < 0
    · have : s.slt 0#32 = true := by rw [BitVec.slt_eq_decide]; simpa using h
      simp [this, h]
    · have : s.slt 0#32 = false := by rw [BitVec.slt_eq_decide]; simpa using h
      simp [this, h]
  rw [hs]

/-- Entry l of a 3-vector, cut out, read as a scalar, added to the single-precision one and put in a 1×1 array. -/
theorem coefChain_apply (x : S3.Idx → EReal) (off : Fin 1 → Nat) (h1 : S3.Slices off S1) (h2 : S1.ShapeCasts S_)
    (h3 : S_.ShapeCasts S1x1) (l : Fin 3) (hl : off 0 = l.val) :
    shapeCast S1x1 (addf (constant (F := Ideal) S_ .f32 0x3F800000#32)
        (shapeCast S_ (extractStridedSlice S1 off x h1) h2)) h3 (ix2 (0 : Fin 1) (0 : Fin 1)) = 1 + x (ix1 l) := by
  have hz : ∀ k : S_.Idx, (S_.rowMajor k).val = 0 := fun k => by
    have h : (S_.rowMajor k).val < 1 := (S_.rowMajor k).isLt
    omega
  refine (shapeCast_apply _ h3 _ ix0 ?_).trans ?_
  · rw [hz]; exact (Shape.rowMajor_val_two (d := ![1, 1]) (ix2 (0 : Fin 1) (0 : Fin 1))).symm
  rw [addf_apply, constant_apply, ofBits_one]
  refine congrArg (fun z => (1 : EReal) + z) ?_
  refine (shapeCast_apply _ h2 _ (ix1 (0 : Fin 1)) ?_).trans ?_
  · rw [hz]; exact Shape.rowMajor_val_one _
  refine extractStridedSlice_apply off x h1 _ _ ?_
  intro a
  match a with
  | ⟨0, _⟩ => show l.val = off 0 + 0; rw [hl]; rfl

/-- Rows added up by destination index into an array of zeros, read at one entry. -/
theorem scatterZero_apply (z : FVec Ideal S40000x128 .f32) (hz : ∀ j, z j = 0) (idx : IVec S640000x1 32)
    (upd : FVec Ideal S640000x128 .f32) (r : Fin 40000) (k : Fin 128) :
    Host.scatterAdd (F := Ideal) scatter_S40000x128_S640000x1_S640000x128_1_0_0_1 z idx upd (ix2 r k)
      = ∑ p ∈ Finset.univ.filter (fun p : Fin 640000 => (idx (ix2 p (0 : Fin 1))).toInt = (r.val : Int)),
          upd (ix2 p k) := by
  have e : Host.scatterAdd (F := Ideal) scatter_S40000x128_S640000x1_S640000x128_1_0_0_1 z idx upd
      = Ideal.hostScatterAdd scatter_S40000x128_S640000x1_S640000x128_1_0_0_1 z idx upd := rfl
  rw [e]
  refine (Cert.LibScatterRows.hostScatterAdd_rows_apply scatter_S40000x128_S640000x1_S640000x128_1_0_0_1
    rfl rfl rfl rfl z idx upd r k).trans ?_
  rw [hz, zero_add]

/-- Feature rows gathered by row number, read at one entry. -/
theorem gatherRows_apply (h : FVec Ideal S40000x128 .f32) (idx : IVec S640000x1 32) (p : Fin 640000) (k : Fin 128) :
    Host.gather gather_S40000x128_S640000x1_S640000x128_1_0_n_n_0_1_1128 h idx (ix2 p k)
      = h (ix2 (⟨min (idx (ix2 p (0 : Fin 1))).toInt.toNat (40000 - 1), by omega⟩ : Fin 40000) k) :=
  Cert.LibGatherRows.hostGather_rows_apply (by omega) gather_S40000x128_S640000x1_S640000x128_1_0_n_n_0_1_1128
    rfl rfl rfl rfl rfl rfl rfl h idx p k

/-- The normalised source index, as the host computes it, read at one edge. -/
theorem srcIdx_apply (src : IVec S640000 32) (p : Fin 640000) :
    (broadcastInDim S640000x1 ![0] bcast_S640000_S640000x1_0
      (select (cmpi .slt src (broadcastInDim S640000 ![] bcast_S_S640000 (constantI S_ 32 0#32)))
        (addi src (broadcastInDim S640000 ![] bcast_S_S640000 (constantI S_ 32 40000#32))) src)) (ix2 p (0 : Fin 1))
      = Scalar.select (IntOp.cmpi .slt (src (ix1 p)) 0#32) (IntOp.addi (src (ix1 p)) 40000#32) (src (ix1 p)) := by
  rw [col_apply, select_apply]
  show Scalar.select (IntOp.cmpi .slt (src (ix1 p)) (broadcastInDim S640000 ![] bcast_S_S640000 (constantI S_ 32 0#32) (ix1 p)))
    (IntOp.addi (src (ix1 p)) (broadcastInDim S640000 ![] bcast_S_S640000 (constantI S_ 32 40000#32) (ix1 p))) (src (ix1 p)) = _
  rw [splat_apply, splat_apply, constantI_apply, constantI_apply]

/-- The host's aggregation chain, read at one entry, is the edge-weighted sum over incoming edges. -/
theorem aggTerm_apply (h : FVec Ideal S40000x128 .f32) (src dst : IVec S640000 32) (ew : FVec Ideal S640000 .f32)
    (r : Fin 40000) (k : Fin 128) :
    aggTerm h src dst ew (ix2 r k)
      = agg (toMat h) (fun p => src (ix1 p)) (fun p => dst (ix1 p)) (fun p => ew (ix1 p)) r k := by
  unfold aggTerm
  refine (scatterZero_apply _ ?_ _ _ r k).trans ?_
  · intro j
    rw [splat_apply, constant_apply, ofBits_zero]
  unfold agg
  refine Finset.sum_congr ?_ ?_
  · refine Finset.filter_congr ?_
    intro p _
    rw [col_apply]
  · intro p _
    rw [mulf_apply, wide_apply, col_apply, gatherRows_apply]
    refine congrArg (fun z => ew (ix1 p) * z) ?_
    refine congrArg (fun z => h (ix2 z k)) ?_
    refine Eq.trans ?_ (srcRow_eq (src (ix1 p)) (by omega))
    refine Fin.ext ?_
    show min _ _ = min _ _
    rw [srcIdx_apply]

/-! ## The contents between the items: what a region leaves, and the arguments unchanged -/

section Between
variable (m : (ℓ : Loc nD τ sig) → Buf (Elt Ideal) ℓ) (outs : Gen.Outs (F := Ideal)) (c : Dev nD)

/-- After the region that writes it, `main_v37_0` holds what the region left there. -/
theorem V2_v37_0 : Gen.V2 m outs c main_v37_0 = outs 2 main_v37_0 c := by
  dsimp only [Gen.V2]
  rw [Function.update_of_ne (StableHlo.devRef_ne_of_ne (by decide) :
    (Proc.devRef .tc main_v37_0 : DevRef τ sig) ≠ Proc.devRef .tc main_v37_1), Function.update_self]
/-- After the region that writes it, `main_v37_1` holds what the region left there. -/
theorem V2_v37_1 : Gen.V2 m outs c main_v37_1 = outs 2 main_v37_1 c := by
  dsimp only [Gen.V2]
  rw [Function.update_self]

/-- After the region that writes it, `main_v40_0` holds what the region left there. -/
theorem V4_v40_0 : Gen.V4 m outs c main_v40_0 = outs 4 main_v40_0 c := by
  dsimp only [Gen.V4]
  rw [Function.update_of_ne (StableHlo.devRef_ne_of_ne (by decide) :
    (Proc.devRef .tc main_v40_0 : DevRef τ sig) ≠ Proc.devRef .tc main_v40_1), Function.update_self]
/-- After the region that writes it, `main_v40_1` holds what the region left there. -/
theorem V4_v40_1 : Gen.V4 m outs c main_v40_1 = outs 4 main_v40_1 c := by
  dsimp only [Gen.V4]
  rw [Function.update_self]

/-- After the region that writes it, `main_v41` holds what the region left there. -/
theorem V5_v41 : Gen.V5 m outs c main_v41 = outs 5 main_v41 c := by
  dsimp only [Gen.V5]
  rw [Function.update_self]

/-- After the region that writes it, `main_v79_0` holds what the region left there. -/
theorem V7_v79_0 : Gen.V7 m outs c main_v79_0 = outs 7 main_v79_0 c := by
  dsimp only [Gen.V7]
  rw [Function.update_of_ne (StableHlo.devRef_ne_of_ne (by decide) :
    (Proc.devRef .tc main_v79_0 : DevRef τ sig) ≠ Proc.devRef .tc main_v79_1), Function.update_self]
/-- After the region that writes it, `main_v79_1` holds what the region left there. -/
theorem V7_v79_1 : Gen.V7 m outs c main_v79_1 = outs 7 main_v79_1 c := by
  dsimp only [Gen.V7]
  rw [Function.update_self]

/-- After the region that writes it, `main_v82_0` holds what the region left there. -/
theorem V9_v82_0 : Gen.V9 m outs c main_v82_0 = outs 9 main_v82_0 c := by
  dsimp only [Gen.V9]
  rw [Function.update_of_ne (StableHlo.devRef_ne_of_ne (by decide) :
    (Proc.devRef .tc main_v82_0 : DevRef τ sig) ≠ Proc.devRef .tc main_v82_1), Function.update_self]
/-- After the region that writes it, `main_v82_1` holds what the region left there. -/
theorem V9_v82_1 : Gen.V9 m outs c main_v82_1 = outs 9 main_v82_1 c := by
  dsimp only [Gen.V9]
  rw [Function.update_self]

/-- After the region that writes it, `main_v83` holds what the region left there. -/
theorem V10_v83 : Gen.V10 m outs c main_v83 = outs 10 main_v83 c := by
  dsimp only [Gen.V10]
  rw [Function.update_self]

/-- After the region that writes it, `main_v121_0` holds what the region left there. -/
theorem V12_v121_0 : Gen.V12 m outs c main_v121_0 = outs 12 main_v121_0 c := by
  dsimp only [Gen.V12]
  rw [Function.update_of_ne (StableHlo.devRef_ne_of_ne (by decide) :
    (Proc.devRef .tc main_v121_0 : DevRef τ sig) ≠ Proc.devRef .tc main_v121_1), Function.update_self]
/-- After the region that writes it, `main_v121_1` holds what the region left there. -/
theorem V12_v121_1 : Gen.V12 m outs c main_v121_1 = outs 12 main_v121_1 c := by
  dsimp only [Gen.V12]
  rw [Function.update_self]

/-- After the region that writes it, `main_v124_0` holds what the region left there. -/
theorem V14_v124_0 : Gen.V14 m outs c main_v124_0 = outs 14 main_v124_0 c := by
  dsimp only [Gen.V14]
  rw [Function.update_of_ne (StableHlo.devRef_ne_of_ne (by decide) :
    (Proc.devRef .tc main_v124_0 : DevRef τ sig) ≠ Proc.devRef .tc main_v124_1), Function.update_self]
/-- After the region that writes it, `main_v124_1` holds what the region left there. -/
theorem V14_v124_1 : Gen.V14 m outs c main_v124_1 = outs 14 main_v124_1 c := by
  dsimp only [Gen.V14]
  rw [Function.update_self]

/-- After the region that writes it, `main_v125` holds what the region left there. -/
theorem V15_v125 : Gen.V15 m outs c main_v125 = outs 15 main_v125 c := by
  dsimp only [Gen.V15]
  rw [Function.update_self]

/-- No item writes an argument: at launch the buffers hold the arguments. -/
theorem V0_arg0 : Gen.V0 m c main_arg0 = m ((c : Thread nD τ).loc main_arg0) := rfl
theorem V0_arg1 : Gen.V0 m c main_arg1 = m ((c : Thread nD τ).loc main_arg1) := rfl
theorem V0_arg2 : Gen.V0 m c main_arg2 = m ((c : Thread nD τ).loc main_arg2) := rfl
theorem V0_arg3 : Gen.V0 m c main_arg3 = m ((c : Thread nD τ).loc main_arg3) := rfl
theorem V0_arg4 : Gen.V0 m c main_arg4 = m ((c : Thread nD τ).loc main_arg4) := rfl
theorem V0_arg5 : Gen.V0 m c main_arg5 = m ((c : Thread nD τ).loc main_arg5) := rfl
theorem V0_arg6 : Gen.V0 m c main_arg6 = m ((c : Thread nD τ).loc main_arg6) := rfl
theorem V0_arg7 : Gen.V0 m c main_arg7 = m ((c : Thread nD τ).loc main_arg7) := rfl
theorem V0_arg8 : Gen.V0 m c main_arg8 = m ((c : Thread nD τ).loc main_arg8) := rfl
theorem V0_arg10 : Gen.V0 m c main_arg10 = m ((c : Thread nD τ).loc main_arg10) := rfl
theorem V0_arg11 : Gen.V0 m c main_arg11 = m ((c : Thread nD τ).loc main_arg11) := rfl
theorem V0_arg12 : Gen.V0 m c main_arg12 = m ((c : Thread nD τ).loc main_arg12) := rfl
theorem V2_arg9 : Gen.V2 m outs c main_arg9 = m ((c : Thread nD τ).loc main_arg9) :=
  (Gen.V2_of m outs c main_arg9 (by decide)).trans <| (Gen.V1_of m c main_arg9 (by decide)).trans rfl
theorem V5_arg1 : Gen.V5 m outs c main_arg1 = m ((c : Thread nD τ).loc main_arg1) :=
  (Gen.V5_of m outs c main_arg1 (by decide)).trans <| (Gen.V4_of m outs c main_arg1 (by decide)).trans <| (Gen.V3_of m outs c main_arg1 (by decide)).trans <| (Gen.V2_of m outs c main_arg1 (by decide)).trans <| (Gen.V1_of m c main_arg1 (by decide)).trans rfl
theorem V5_arg2 : Gen.V5 m outs c main_arg2 = m ((c : Thread nD τ).loc main_arg2) :=
  (Gen.V5_of m outs c main_arg2 (by decide)).trans <| (Gen.V4_of m outs c main_arg2 (by decide)).trans <| (Gen.V3_of m outs c main_arg2 (by decide)).trans <| (Gen.V2_of m outs c main_arg2 (by decide)).trans <| (Gen.V1_of m c main_arg2 (by decide)).trans rfl
theorem V5_arg3 : Gen.V5 m outs c main_arg3 = m ((c : Thread nD τ).loc main_arg3) :=
  (Gen.V5_of m outs c main_arg3 (by decide)).trans <| (Gen.V4_of m outs c main_arg3 (by decide)).trans <| (Gen.V3_of m outs c main_arg3 (by decide)).trans <| (Gen.V2_of m outs c main_arg3 (by decide)).trans <| (Gen.V1_of m c main_arg3 (by decide)).trans rfl
theorem V5_arg4 : Gen.V5 m outs c main_arg4 = m ((c : Thread nD τ).loc main_arg4) :=
  (Gen.V5_of m outs c main_arg4 (by decide)).trans <| (Gen.V4_of m outs c main_arg4 (by decide)).trans <| (Gen.V3_of m outs c main_arg4 (by decide)).trans <| (Gen.V2_of m outs c main_arg4 (by decide)).trans <| (Gen.V1_of m c main_arg4 (by decide)).trans rfl
theorem V5_arg5 : Gen.V5 m outs c main_arg5 = m ((c : Thread nD τ).loc main_arg5) :=
  (Gen.V5_of m outs c main_arg5 (by decide)).trans <| (Gen.V4_of m outs c main_arg5 (by decide)).trans <| (Gen.V3_of m outs c main_arg5 (by decide)).trans <| (Gen.V2_of m outs c main_arg5 (by decide)).trans <| (Gen.V1_of m c main_arg5 (by decide)).trans rfl
theorem V5_arg6 : Gen.V5 m outs c main_arg6 = m ((c : Thread nD τ).loc main_arg6) :=
  (Gen.V5_of m outs c main_arg6 (by decide)).trans <| (Gen.V4_of m outs c main_arg6 (by decide)).trans <| (Gen.V3_of m outs c main_arg6 (by decide)).trans <| (Gen.V2_of m outs c main_arg6 (by decide)).trans <| (Gen.V1_of m c main_arg6 (by decide)).trans rfl
theorem V5_arg7 : Gen.V5 m outs c main_arg7 = m ((c : Thread nD τ).loc main_arg7) :=
  (Gen.V5_of m outs c main_arg7 (by decide)).trans <| (Gen.V4_of m outs c main_arg7 (by decide)).trans <| (Gen.V3_of m outs c main_arg7 (by decide)).trans <| (Gen.V2_of m outs c main_arg7 (by decide)).trans <| (Gen.V1_of m c main_arg7 (by decide)).trans rfl
theorem V5_arg8 : Gen.V5 m outs c main_arg8 = m ((c : Thread nD τ).loc main_arg8) :=
  (Gen.V5_of m outs c main_arg8 (by decide)).trans <| (Gen.V4_of m outs c main_arg8 (by decide)).trans <| (Gen.V3_of m outs c main_arg8 (by decide)).trans <| (Gen.V2_of m outs c main_arg8 (by decide)).trans <| (Gen.V1_of m c main_arg8 (by decide)).trans rfl
theorem V5_arg10 : Gen.V5 m outs c main_arg10 = m ((c : Thread nD τ).loc main_arg10) :=
  (Gen.V5_of m outs c main_arg10 (by decide)).trans <| (Gen.V4_of m outs c main_arg10 (by decide)).trans <| (Gen.V3_of m outs c main_arg10 (by decide)).trans <| (Gen.V2_of m outs c main_arg10 (by decide)).trans <| (Gen.V1_of m c main_arg10 (by decide)).trans rfl
theorem V5_arg11 : Gen.V5 m outs c main_arg11 = m ((c : Thread nD τ).loc main_arg11) :=
  (Gen.V5_of m outs c main_arg11 (by decide)).trans <| (Gen.V4_of m outs c main_arg11 (by decide)).trans <| (Gen.V3_of m outs c main_arg11 (by decide)).trans <| (Gen.V2_of m outs c main_arg11 (by decide)).trans <| (Gen.V1_of m c main_arg11 (by decide)).trans rfl
theorem V5_arg12 : Gen.V5 m outs c main_arg12 = m ((c : Thread nD τ).loc main_arg12) :=
  (Gen.V5_of m outs c main_arg12 (by decide)).trans <| (Gen.V4_of m outs c main_arg12 (by decide)).trans <| (Gen.V3_of m outs c main_arg12 (by decide)).trans <| (Gen.V2_of m outs c main_arg12 (by decide)).trans <| (Gen.V1_of m c main_arg12 (by decide)).trans rfl
theorem V7_arg9 : Gen.V7 m outs c main_arg9 = m ((c : Thread nD τ).loc main_arg9) :=
  (Gen.V7_of m outs c main_arg9 (by decide)).trans <| (Gen.V6_of m outs c main_arg9 (by decide)).trans <| (Gen.V5_of m outs c main_arg9 (by decide)).trans <| (Gen.V4_of m outs c main_arg9 (by decide)).trans <| (Gen.V3_of m outs c main_arg9 (by decide)).trans (V2_arg9 m outs c)
theorem V10_arg1 : Gen.V10 m outs c main_arg1 = m ((c : Thread nD τ).loc main_arg1) :=
  (Gen.V10_of m outs c main_arg1 (by decide)).trans <| (Gen.V9_of m outs c main_arg1 (by decide)).trans <| (Gen.V8_of m outs c main_arg1 (by decide)).trans <| (Gen.V7_of m outs c main_arg1 (by decide)).trans <| (Gen.V6_of m outs c main_arg1 (by decide)).trans (V5_arg1 m outs c)
theorem V10_arg2 : Gen.V10 m outs c main_arg2 = m ((c : Thread nD τ).loc main_arg2) :=
  (Gen.V10_of m outs c main_arg2 (by decide)).trans <| (Gen.V9_of m outs c main_arg2 (by decide)).trans <| (Gen.V8_of m outs c main_arg2 (by decide)).trans <| (Gen.V7_of m outs c main_arg2 (by decide)).trans <| (Gen.V6_of m outs c main_arg2 (by decide)).trans (V5_arg2 m outs c)
theorem V10_arg3 : Gen.V10 m outs c main_arg3 = m ((c : Thread nD τ).loc main_arg3) :=
  (Gen.V10_of m outs c main_arg3 (by decide)).trans <| (Gen.V9_of m outs c main_arg3 (by decide)).trans <| (Gen.V8_of m outs c main_arg3 (by decide)).trans <| (Gen.V7_of m outs c main_arg3 (by decide)).trans <| (Gen.V6_of m outs c main_arg3 (by decide)).trans (V5_arg3 m outs c)
theorem V10_arg4 : Gen.V10 m outs c main_arg4 = m ((c : Thread nD τ).loc main_arg4) :=
  (Gen.V10_of m outs c main_arg4 (by decide)).trans <| (Gen.V9_of m outs c main_arg4 (by decide)).trans <| (Gen.V8_of m outs c main_arg4 (by decide)).trans <| (Gen.V7_of m outs c main_arg4 (by decide)).trans <| (Gen.V6_of m outs c main_arg4 (by decide)).trans (V5_arg4 m outs c)
theorem V10_arg5 : Gen.V10 m outs c main_arg5 = m ((c : Thread nD τ).loc main_arg5) :=
  (Gen.V10_of m outs c main_arg5 (by decide)).trans <| (Gen.V9_of m outs c main_arg5 (by decide)).trans <| (Gen.V8_of m outs c main_arg5 (by decide)).trans <| (Gen.V7_of m outs c main_arg5 (by decide)).trans <| (Gen.V6_of m outs c main_arg5 (by decide)).trans (V5_arg5 m outs c)
theorem V10_arg6 : Gen.V10 m outs c main_arg6 = m ((c : Thread nD τ).loc main_arg6) :=
  (Gen.V10_of m outs c main_arg6 (by decide)).trans <| (Gen.V9_of m outs c main_arg6 (by decide)).trans <| (Gen.V8_of m outs c main_arg6 (by decide)).trans <| (Gen.V7_of m outs c main_arg6 (by decide)).trans <| (Gen.V6_of m outs c main_arg6 (by decide)).trans (V5_arg6 m outs c)
theorem V10_arg7 : Gen.V10 m outs c main_arg7 = m ((c : Thread nD τ).loc main_arg7) :=
  (Gen.V10_of m outs c main_arg7 (by decide)).trans <| (Gen.V9_of m outs c main_arg7 (by decide)).trans <| (Gen.V8_of m outs c main_arg7 (by decide)).trans <| (Gen.V7_of m outs c main_arg7 (by decide)).trans <| (Gen.V6_of m outs c main_arg7 (by decide)).trans (V5_arg7 m outs c)
theorem V10_arg8 : Gen.V10 m outs c main_arg8 = m ((c : Thread nD τ).loc main_arg8) :=
  (Gen.V10_of m outs c main_arg8 (by decide)).trans <| (Gen.V9_of m outs c main_arg8 (by decide)).trans <| (Gen.V8_of m outs c main_arg8 (by decide)).trans <| (Gen.V7_of m outs c main_arg8 (by decide)).trans <| (Gen.V6_of m outs c main_arg8 (by decide)).trans (V5_arg8 m outs c)
theorem V10_arg10 : Gen.V10 m outs c main_arg10 = m ((c : Thread nD τ).loc main_arg10) :=
  (Gen.V10_of m outs c main_arg10 (by decide)).trans <| (Gen.V9_of m outs c main_arg10 (by decide)).trans <| (Gen.V8_of m outs c main_arg10 (by decide)).trans <| (Gen.V7_of m outs c main_arg10 (by decide)).trans <| (Gen.V6_of m outs c main_arg10 (by decide)).trans (V5_arg10 m outs c)
theorem V10_arg11 : Gen.V10 m outs c main_arg11 = m ((c : Thread nD τ).loc main_arg11) :=
  (Gen.V10_of m outs c main_arg11 (by decide)).trans <| (Gen.V9_of m outs c main_arg11 (by decide)).trans <| (Gen.V8_of m outs c main_arg11 (by decide)).trans <| (Gen.V7_of m outs c main_arg11 (by decide)).trans <| (Gen.V6_of m outs c main_arg11 (by decide)).trans (V5_arg11 m outs c)
theorem V10_arg12 : Gen.V10 m outs c main_arg12 = m ((c : Thread nD τ).loc main_arg12) :=
  (Gen.V10_of m outs c main_arg12 (by decide)).trans <| (Gen.V9_of m outs c main_arg12 (by decide)).trans <| (Gen.V8_of m outs c main_arg12 (by decide)).trans <| (Gen.V7_of m outs c main_arg12 (by decide)).trans <| (Gen.V6_of m outs c main_arg12 (by decide)).trans (V5_arg12 m outs c)
theorem V12_arg9 : Gen.V12 m outs c main_arg9 = m ((c : Thread nD τ).loc main_arg9) :=
  (Gen.V12_of m outs c main_arg9 (by decide)).trans <| (Gen.V11_of m outs c main_arg9 (by decide)).trans <| (Gen.V10_of m outs c main_arg9 (by decide)).trans <| (Gen.V9_of m outs c main_arg9 (by decide)).trans <| (Gen.V8_of m outs c main_arg9 (by decide)).trans (V7_arg9 m outs c)

end Between

end Cert.KernelIdeal.Hand

end
-- ==== Proof.KI.Host0.lean ====
/-
  The host side of the first layer on the extended reals: what the layer's three kernel regions find in their operand
  arrays when they are entered, as functions of the argument arrays and of what the earlier regions left, read at an
  index. The layer's input features, the aggregation of them over incoming edges, the factor 1 + eps, and the layer's
  slices of the stacked weights, biases, scales and shifts.
-/
import proofs.«110361_j29403346109051_2_alg».proof.Proof.KI.HostLib

noncomputable section

namespace Cert.KernelIdeal.Hand

open Cert.KernelIdeal
open Idealize.ShloMosaic Idealize.ShloMosaic.TcCoe Idealize.ShloMosaic.ValueIdx
open Cert.Spec
open Facts₀

/-! ## What the layer's two host stretches write, over any contents they start from -/

section Stretch
variable (W : Valuation τ sig (Elt Ideal))

/-- The aggregation buffer holds the host's aggregation chain of the stretch's inputs. -/
theorem after0_agg : (StableHlo.after Gen.hostOps0 W main_v12 : S40000x128.Idx → EReal)
    = aggTerm (W main_arg0) (W main_arg1) (W main_arg2) (W main_arg3) := by
  dsimp only [Gen.hostOps0]
  after_results_simp
  rfl

/-- The aggregation buffer read at one entry: the edge-weighted sum over incoming edges. -/
theorem after0_agg_apply (H : S40000x128.Idx → EReal) (A1 A2 : S640000.Idx → BitVec 32) (A3 : S640000.Idx → EReal)
    (hh : W main_arg0 = H) (h1 : W main_arg1 = A1) (h2 : W main_arg2 = A2) (h3 : W main_arg3 = A3)
    (r : Fin 40000) (k : Fin 128) :
    (StableHlo.after Gen.hostOps0 W main_v12 : S40000x128.Idx → EReal) (ix2 r k)
      = agg (toMat H) (fun p => A1 (ix1 p)) (fun p => A2 (ix1 p)) (fun p => A3 (ix1 p)) r k := by
  subst hh h1 h2 h3
  rw [after0_agg]
  exact aggTerm_apply _ _ _ _ r k

/-- The factor buffer holds one plus the layer's entry of the eps vector. -/
theorem after0_coef : (StableHlo.after Gen.hostOps0 W main_v16 : S1x1.Idx → EReal)
    = shapeCast S1x1 (addf (constant (F := Ideal) S_ .f32 0x3F800000#32)
        (shapeCast S_ (extractStridedSlice S1 ![0] (W main_arg4) slices_S3_S1_0) shapeCasts_S1_S_)) shapeCasts_S_S1x1 := by
  dsimp only [Gen.hostOps0]
  after_results_simp
  rfl

theorem after0_coef_apply (A4 : S3.Idx → EReal) (h4 : W main_arg4 = A4) :
    (StableHlo.after Gen.hostOps0 W main_v16 : S1x1.Idx → EReal) (ix2 (0 : Fin 1) (0 : Fin 1)) = 1 + A4 (ix1 (0 : Fin 3)) := by
  subst h4
  rw [after0_coef]
  exact coefChain_apply _ ![0] _ _ _ 0 rfl

/-- The first weight matrix's buffer holds the layer's slice of the stacked first weights. -/
theorem after0_w1 : (StableHlo.after Gen.hostOps0 W main_v36 : S128x128.Idx → EReal)
    = shapeCast S128x128 (extractStridedSlice S1x128x128 ![0, 0, 0] (W main_arg5) slices_S3x128x128_S1x128x128_0_0_0)
        shapeCasts_S1x128x128_S128x128 := by
  dsimp only [Gen.hostOps0]
  after_results_simp
  rfl

theorem after0_w1_apply (A5 : S3x128x128.Idx → EReal) (h5 : W main_arg5 = A5) (k j : Fin 128) :
    (StableHlo.after Gen.hostOps0 W main_v36 : S128x128.Idx → EReal) (ix2 k j) = A5 (ix3 (0 : Fin 3) k j) := by
  subst h5
  rw [after0_w1]
  exact matChain_apply _ ![0, 0, 0] _ _ 0 rfl rfl rfl k j

/-- The `b1` row's buffer holds the layer's row of its stacked table. -/
theorem after0_b1 : (StableHlo.after Gen.hostOps0 W main_v19 : S1x128.Idx → EReal)
    = shapeCast S1x128 (shapeCast S128 (extractStridedSlice S1x128 ![0, 0] (W main_arg6) slices_S3x128_S1x128_0_0)
        shapeCasts_S1x128_S128) shapeCasts_S128_S1x128 := by
  dsimp only [Gen.hostOps0]
  after_results_simp
  rfl

theorem after0_b1_apply (A : S3x128.Idx → EReal) (h : W main_arg6 = A) (j : Fin 128) :
    (StableHlo.after Gen.hostOps0 W main_v19 : S1x128.Idx → EReal) (ix2 (0 : Fin 1) j) = A (ix2 (0 : Fin 3) j) := by
  subst h
  rw [after0_b1]
  exact rowChain_apply _ ![0, 0] _ _ _ 0 rfl rfl j

/-- The `g1` row's buffer holds the layer's row of its stacked table. -/
theorem after0_g1 : (StableHlo.after Gen.hostOps0 W main_v22 : S1x128.Idx → EReal)
    = shapeCast S1x128 (shapeCast S128 (extractStridedSlice S1x128 ![0, 0] (W main_arg7) slices_S3x128_S1x128_0_0)
        shapeCasts_S1x128_S128) shapeCasts_S128_S1x128 := by
  dsimp only [Gen.hostOps0]
  after_results_simp
  rfl

theorem after0_g1_apply (A : S3x128.Idx → EReal) (h : W main_arg7 = A) (j : Fin 128) :
    (StableHlo.after Gen.hostOps0 W main_v22 : S1x128.Idx → EReal) (ix2 (0 : Fin 1) j) = A (ix2 (0 : Fin 3) j) := by
  subst h
  rw [after0_g1]
  exact rowChain_apply _ ![0, 0] _ _ _ 0 rfl rfl j

/-- The `bt1` row's buffer holds the layer's row of its stacked table. -/
theorem after0_bt1 : (StableHlo.after Gen.hostOps0 W main_v25 : S1x128.Idx → EReal)
    = shapeCast S1x128 (shapeCast S128 (extractStridedSlice S1x128 ![0, 0] (W main_arg8) slices_S3x128_S1x128_0_0)
        shapeCasts_S1x128_S128) shapeCasts_S128_S1x128 := by
  dsimp only [Gen.hostOps0]
  after_results_simp
  rfl

theorem after0_bt1_apply (A : S3x128.Idx → EReal) (h : W main_arg8 = A) (j : Fin 128) :
    (StableHlo.after Gen.hostOps0 W main_v25 : S1x128.Idx → EReal) (ix2 (0 : Fin 1) j) = A (ix2 (0 : Fin 3) j) := by
  subst h
  rw [after0_bt1]
  exact rowChain_apply _ ![0, 0] _ _ _ 0 rfl rfl j

/-- The `b2` row's buffer holds the layer's row of its stacked table. -/
theorem after0_b2 : (StableHlo.after Gen.hostOps0 W main_v28 : S1x128.Idx → EReal)
    = shapeCast S1x128 (shapeCast S128 (extractStridedSlice S1x128 ![0, 0] (W main_arg10) slices_S3x128_S1x128_0_0)
        shapeCasts_S1x128_S128) shapeCasts_S128_S1x128 := by
  dsimp only [Gen.hostOps0]
  after_results_simp
  rfl

theorem after0_b2_apply (A : S3x128.Idx → EReal) (h : W main_arg10 = A) (j : Fin 128) :
    (StableHlo.after Gen.hostOps0 W main_v28 : S1x128.Idx → EReal) (ix2 (0 : Fin 1) j) = A (ix2 (0 : Fin 3) j) := by
  subst h
  rw [after0_b2]
  exact rowChain_apply _ ![0, 0] _ _ _ 0 rfl rfl j

/-- The `g2` row's buffer holds the layer's row of its stacked table. -/
theorem after0_g2 : (StableHlo.after Gen.hostOps0 W main_v31 : S1x128.Idx → EReal)
    = shapeCast S1x128 (shapeCast S128 (extractStridedSlice S1x128 ![0, 0] (W main_arg11) slices_S3x128_S1x128_0_0)
        shapeCasts_S1x128_S128) shapeCasts_S128_S1x128 := by
  dsimp only [Gen.hostOps0]
  after_results_simp
  rfl

theorem after0_g2_apply (A : S3x128.Idx → EReal) (h : W main_arg11 = A) (j : Fin 128) :
    (StableHlo.after Gen.hostOps0 W main_v31 : S1x128.Idx → EReal) (ix2 (0 : Fin 1) j) = A (ix2 (0 : Fin 3) j) := by
  subst h
  rw [after0_g2]
  exact rowChain_apply _ ![0, 0] _ _ _ 0 rfl rfl j

/-- The `bt2` row's buffer holds the layer's row of its stacked table. -/
theorem after0_bt2 : (StableHlo.after Gen.hostOps0 W main_v34 : S1x128.Idx → EReal)
    = shapeCast S1x128 (shapeCast S128 (extractStridedSlice S1x128 ![0, 0] (W main_arg12) slices_S3x128_S1x128_0_0)
        shapeCasts_S1x128_S128) shapeCasts_S128_S1x128 := by
  dsimp only [Gen.hostOps0]
  after_results_simp
  rfl

theorem after0_bt2_apply (A : S3x128.Idx → EReal) (h : W main_arg12 = A) (j : Fin 128) :
    (StableHlo.after Gen.hostOps0 W main_v34 : S1x128.Idx → EReal) (ix2 (0 : Fin 1) j) = A (ix2 (0 : Fin 3) j) := by
  subst h
  rw [after0_bt2]
  exact rowChain_apply _ ![0, 0] _ _ _ 0 rfl rfl j

/-- The second weight matrix's buffer holds the layer's slice of the stacked second weights. -/
theorem after1_w2 : (StableHlo.after Gen.hostOps1 W main_v39 : S128x128.Idx → EReal)
    = shapeCast S128x128 (extractStridedSlice S1x128x128 ![0, 0, 0] (W main_arg9) slices_S3x128x128_S1x128x128_0_0_0)
        shapeCasts_S1x128x128_S128x128 := by
  dsimp only [Gen.hostOps1]
  after_results_simp
  rfl

theorem after1_w2_apply (A9 : S3x128x128.Idx → EReal) (h9 : W main_arg9 = A9) (k j : Fin 128) :
    (StableHlo.after Gen.hostOps1 W main_v39 : S128x128.Idx → EReal) (ix2 k j) = A9 (ix3 (0 : Fin 3) k j) := by
  subst h9
  rw [after1_w2]
  exact matChain_apply _ ![0, 0, 0] _ _ 0 rfl rfl rfl k j

end Stretch

/-! ## What the layer's regions find when they are entered -/

variable (m : (ℓ : Loc nD τ sig) → Buf (Elt Ideal) ℓ) (outs : Gen.Outs (F := Ideal)) (c : Dev nD)

/-! ### The first region: features, aggregation, factor, first weights and bias -/

theorem h0_h : Gen.V1 m c main_arg0 = m ((c : Thread nD τ).loc main_arg0) :=
  (Gen.V1_of m c main_arg0 (by decide)).trans (V0_arg0 m c)

theorem h0_agg : toMat (Gen.V1 m c main_v12)
    = agg (toMat (m ((c : Thread nD τ).loc main_arg0))) (fun p => m ((c : Thread nD τ).loc main_arg1) (ix1 p))
        (fun p => m ((c : Thread nD τ).loc main_arg2) (ix1 p)) (fun p => m ((c : Thread nD τ).loc main_arg3) (ix1 p)) := by
  funext r k
  exact after0_agg_apply (Gen.V0 m c) _ _ _ _ (V0_arg0 m c) (V0_arg1 m c) (V0_arg2 m c) (V0_arg3 m c) r k

theorem h0_coef : (Gen.V1 m c main_v16 : S1x1.Idx → EReal) (ix2 0 0)
    = ((1 : EReal) + (m ((c : Thread nD τ).loc main_arg4) : S3.Idx → EReal) (ix1 0) : EReal) :=
  after0_coef_apply (Gen.V0 m c) _ (V0_arg4 m c)

theorem h0_w1 : toWt (Gen.V1 m c main_v36) = fun k j => m ((c : Thread nD τ).loc main_arg5) (ix3 0 k j) := by
  funext k j
  exact after0_w1_apply (Gen.V0 m c) _ (V0_arg5 m c) k j

theorem h0_b1 : toRow (Gen.V1 m c main_v19) = fun j => m ((c : Thread nD τ).loc main_arg6) (ix2 0 j) := by
  funext j
  exact after0_b1_apply (Gen.V0 m c) _ (V0_arg6 m c) j

/-! ### The second region: the first region's two outputs, first scale and shift, second weights and bias -/

theorem h1_y : Gen.V3 m outs c main_v37_0 = outs 2 main_v37_0 c :=
  (Gen.V3_of m outs c main_v37_0 (by decide)).trans (V2_v37_0 m outs c)

theorem h1_stats : Gen.V3 m outs c main_v37_1 = outs 2 main_v37_1 c :=
  (Gen.V3_of m outs c main_v37_1 (by decide)).trans (V2_v37_1 m outs c)

theorem h1_g : toRow (Gen.V3 m outs c main_v22) = fun j => m ((c : Thread nD τ).loc main_arg7) (ix2 0 j) := by
  funext j
  have e : Gen.V3 m outs c main_v22 = Gen.V1 m c main_v22 :=
    (Gen.V3_of m outs c main_v22 (by decide)).trans <| (Gen.V2_of m outs c main_v22 (by decide))
  unfold toRow
  rw [e]
  exact after0_g1_apply (Gen.V0 m c) _ (V0_arg7 m c) j

theorem h1_bt : toRow (Gen.V3 m outs c main_v25) = fun j => m ((c : Thread nD τ).loc main_arg8) (ix2 0 j) := by
  funext j
  have e : Gen.V3 m outs c main_v25 = Gen.V1 m c main_v25 :=
    (Gen.V3_of m outs c main_v25 (by decide)).trans <| (Gen.V2_of m outs c main_v25 (by decide))
  unfold toRow
  rw [e]
  exact after0_bt1_apply (Gen.V0 m c) _ (V0_arg8 m c) j

theorem h1_w2 : toWt (Gen.V3 m outs c main_v39) = fun k j => m ((c : Thread nD τ).loc main_arg9) (ix3 0 k j) := by
  funext k j
  exact after1_w2_apply (Gen.V2 m outs c) _ (V2_arg9 m outs c) k j

theorem h1_b2 : toRow (Gen.V3 m outs c main_v28) = fun j => m ((c : Thread nD τ).loc main_arg10) (ix2 0 j) := by
  funext j
  have e : Gen.V3 m outs c main_v28 = Gen.V1 m c main_v28 :=
    (Gen.V3_of m outs c main_v28 (by decide)).trans <| (Gen.V2_of m outs c main_v28 (by decide))
  unfold toRow
  rw [e]
  exact after0_b2_apply (Gen.V0 m c) _ (V0_arg10 m c) j

/-! ### The third region: the second region's two outputs, second scale and shift -/

theorem h2_t2 : Gen.V4 m outs c main_v40_0 = outs 4 main_v40_0 c := V4_v40_0 m outs c

theorem h2_stats : Gen.V4 m outs c main_v40_1 = outs 4 main_v40_1 c := V4_v40_1 m outs c

theorem h2_g : toRow (Gen.V4 m outs c main_v31) = fun j => m ((c : Thread nD τ).loc main_arg11) (ix2 0 j) := by
  funext j
  have e : Gen.V4 m outs c main_v31 = Gen.V1 m c main_v31 :=
    (Gen.V4_of m outs c main_v31 (by decide)).trans <| (Gen.V3_of m outs c main_v31 (by decide)).trans <| (Gen.V2_of m outs c main_v31 (by decide))
  unfold toRow
  rw [e]
  exact after0_g2_apply (Gen.V0 m c) _ (V0_arg11 m c) j

theorem h2_bt : toRow (Gen.V4 m outs c main_v34) = fun j => m ((c : Thread nD τ).loc main_arg12) (ix2 0 j) := by
  funext j
  have e : Gen.V4 m outs c main_v34 = Gen.V1 m c main_v34 :=
    (Gen.V4_of m outs c main_v34 (by decide)).trans <| (Gen.V3_of m outs c main_v34 (by decide)).trans <| (Gen.V2_of m outs c main_v34 (by decide))
  unfold toRow
  rw [e]
  exact after0_bt2_apply (Gen.V0 m c) _ (V0_arg12 m c) j

end Cert.KernelIdeal.Hand

end
-- ==== Proof.KI.Host1.lean ====
/-
  The host side of the second layer on the extended reals: what the layer's three kernel regions find in their operand
  arrays when they are entered, as functions of the argument arrays and of what the earlier regions left, read at an
  index. The layer's input features, the aggregation of them over incoming edges, the factor 1 + eps, and the layer's
  slices of the stacked weights, biases, scales and shifts.
-/
import proofs.«110361_j29403346109051_2_alg».proof.Proof.KI.HostLib

noncomputable section

namespace Cert.KernelIdeal.Hand

open Cert.KernelIdeal
open Idealize.ShloMosaic Idealize.ShloMosaic.TcCoe Idealize.ShloMosaic.ValueIdx
open Cert.Spec
open Facts₀

/-! ## What the layer's two host stretches write, over any contents they start from -/

section Stretch
variable (W : Valuation τ sig (Elt Ideal))

/-- The aggregation buffer holds the host's aggregation chain of the stretch's inputs. -/
theorem after3_agg : (StableHlo.after Gen.hostOps3 W main_v54 : S40000x128.Idx → EReal)
    = aggTerm (W main_v41) (W main_arg1) (W main_arg2) (W main_arg3) := by
  dsimp only [Gen.hostOps3]
  after_results_simp
  rfl

/-- The aggregation buffer read at one entry: the edge-weighted sum over incoming edges. -/
theorem after3_agg_apply (H : S40000x128.Idx → EReal) (A1 A2 : S640000.Idx → BitVec 32) (A3 : S640000.Idx → EReal)
    (hh : W main_v41 = H) (h1 : W main_arg1 = A1) (h2 : W main_arg2 = A2) (h3 : W main_arg3 = A3)
    (r : Fin 40000) (k : Fin 128) :
    (StableHlo.after Gen.hostOps3 W main_v54 : S40000x128.Idx → EReal) (ix2 r k)
      = agg (toMat H) (fun p => A1 (ix1 p)) (fun p => A2 (ix1 p)) (fun p => A3 (ix1 p)) r k := by
  subst hh h1 h2 h3
  rw [after3_agg]
  exact aggTerm_apply _ _ _ _ r k

/-- The factor buffer holds one plus the layer's entry of the eps vector. -/
theorem after3_coef : (StableHlo.after Gen.hostOps3 W main_v58 : S1x1.Idx → EReal)
    = shapeCast S1x1 (addf (constant (F := Ideal) S_ .f32 0x3F800000#32)
        (shapeCast S_ (extractStridedSlice S1 ![1] (W main_arg4) slices_S3_S1_1) shapeCasts_S1_S_)) shapeCasts_S_S1x1 := by
  dsimp only [Gen.hostOps3]
  after_results_simp
  rfl

theorem after3_coef_apply (A4 : S3.Idx → EReal) (h4 : W main_arg4 = A4) :
    (StableHlo.after Gen.hostOps3 W main_v58 : S1x1.Idx → EReal) (ix2 (0 : Fin 1) (0 : Fin 1)) = 1 + A4 (ix1 (1 : Fin 3)) := by
  subst h4
  rw [after3_coef]
  exact coefChain_apply _ ![1] _ _ _ 1 rfl

/-- The first weight matrix's buffer holds the layer's slice of the stacked first weights. -/
theorem after3_w1 : (StableHlo.after Gen.hostOps3 W main_v78 : S128x128.Idx → EReal)
    = shapeCast S128x128 (extractStridedSlice S1x128x128 ![1, 0, 0] (W main_arg5) slices_S3x128x128_S1x128x128_1_0_0)
        shapeCasts_S1x128x128_S128x128 := by
  dsimp only [Gen.hostOps3]
  after_results_simp
  rfl

theorem after3_w1_apply (A5 : S3x128x128.Idx → EReal) (h5 : W main_arg5 = A5) (k j : Fin 128) :
    (StableHlo.after Gen.hostOps3 W main_v78 : S128x128.Idx → EReal) (ix2 k j) = A5 (ix3 (1 : Fin 3) k j) := by
  subst h5
  rw [after3_w1]
  exact matChain_apply _ ![1, 0, 0] _ _ 1 rfl rfl rfl k j

/-- The `b1` row's buffer holds the layer's row of its stacked table. -/
theorem after3_b1 : (StableHlo.after Gen.hostOps3 W main_v61 : S1x128.Idx → EReal)
    = shapeCast S1x128 (shapeCast S128 (extractStridedSlice S1x128 ![1, 0] (W main_arg6) slices_S3x128_S1x128_1_0)
        shapeCasts_S1x128_S128) shapeCasts_S128_S1x128 := by
  dsimp only [Gen.hostOps3]
  after_results_simp
  rfl

theorem after3_b1_apply (A : S3x128.Idx → EReal) (h : W main_arg6 = A) (j : Fin 128) :
    (StableHlo.after Gen.hostOps3 W main_v61 : S1x128.Idx → EReal) (ix2 (0 : Fin 1) j) = A (ix2 (1 : Fin 3) j) := by
  subst h
  rw [after3_b1]
  exact rowChain_apply _ ![1, 0] _ _ _ 1 rfl rfl j

/-- The `g1` row's buffer holds the layer's row of its stacked table. -/
theorem after3_g1 : (StableHlo.after Gen.hostOps3 W main_v64 : S1x128.Idx → EReal)
    = shapeCast S1x128 (shapeCast S128 (extractStridedSlice S1x128 ![1, 0] (W main_arg7) slices_S3x128_S1x128_1_0)
        shapeCasts_S1x128_S128) shapeCasts_S128_S1x128 := by
  dsimp only [Gen.hostOps3]
  after_results_simp
  rfl

theorem after3_g1_apply (A : S3x128.Idx → EReal) (h : W main_arg7 = A) (j : Fin 128) :
    (StableHlo.after Gen.hostOps3 W main_v64 : S1x128.Idx → EReal) (ix2 (0 : Fin 1) j) = A (ix2 (1 : Fin 3) j) := by
  subst h
  rw [after3_g1]
  exact rowChain_apply _ ![1, 0] _ _ _ 1 rfl rfl j

/-- The `bt1` row's buffer holds the layer's row of its stacked table. -/
theorem after3_bt1 : (StableHlo.after Gen.hostOps3 W main_v67 : S1x128.Idx → EReal)
    = shapeCast S1x128 (shapeCast S128 (extractStridedSlice S1x128 ![1, 0] (W main_arg8) slices_S3x128_S1x128_1_0)
        shapeCasts_S1x128_S128) shapeCasts_S128_S1x128 := by
  dsimp only [Gen.hostOps3]
  after_results_simp
  rfl

theorem after3_bt1_apply (A : S3x128.Idx → EReal) (h : W main_arg8 = A) (j : Fin 128) :
    (StableHlo.after Gen.hostOps3 W main_v67 : S1x128.Idx → EReal) (ix2 (0 : Fin 1) j) = A (ix2 (1 : Fin 3) j) := by
  subst h
  rw [after3_bt1]
  exact rowChain_apply _ ![1, 0] _ _ _ 1 rfl rfl j

/-- The `b2` row's buffer holds the layer's row of its stacked table. -/
theorem after3_b2 : (StableHlo.after Gen.hostOps3 W main_v70 : S1x128.Idx → EReal)
    = shapeCast S1x128 (shapeCast S128 (extractStridedSlice S1x128 ![1, 0] (W main_arg10) slices_S3x128_S1x128_1_0)
        shapeCasts_S1x128_S128) shapeCasts_S128_S1x128 := by
  dsimp only [Gen.hostOps3]
  after_results_simp
  rfl

theorem after3_b2_apply (A : S3x128.Idx → EReal) (h : W main_arg10 = A) (j : Fin 128) :
    (StableHlo.after Gen.hostOps3 W main_v70 : S1x128.Idx → EReal) (ix2 (0 : Fin 1) j) = A (ix2 (1 : Fin 3) j) := by
  subst h
  rw [after3_b2]
  exact rowChain_apply _ ![1, 0] _ _ _ 1 rfl rfl j

/-- The `g2` row's buffer holds the layer's row of its stacked table. -/
theorem after3_g2 : (StableHlo.after Gen.hostOps3 W main_v73 : S1x128.Idx → EReal)
    = shapeCast S1x128 (shapeCast S128 (extractStridedSlice S1x128 ![1, 0] (W main_arg11) slices_S3x128_S1x128_1_0)
        shapeCasts_S1x128_S128) shapeCasts_S128_S1x128 := by
  dsimp only [Gen.hostOps3]
  after_results_simp
  rfl

theorem after3_g2_apply (A : S3x128.Idx → EReal) (h : W main_arg11 = A) (j : Fin 128) :
    (StableHlo.after Gen.hostOps3 W main_v73 : S1x128.Idx → EReal) (ix2 (0 : Fin 1) j) = A (ix2 (1 : Fin 3) j) := by
  subst h
  rw [after3_g2]
  exact rowChain_apply _ ![1, 0] _ _ _ 1 rfl rfl j

/-- The `bt2` row's buffer holds the layer's row of its stacked table. -/
theorem after3_bt2 : (StableHlo.after Gen.hostOps3 W main_v76 : S1x128.Idx → EReal)
    = shapeCast S1x128 (shapeCast S128 (extractStridedSlice S1x128 ![1, 0] (W main_arg12) slices_S3x128_S1x128_1_0)
        shapeCasts_S1x128_S128) shapeCasts_S128_S1x128 := by
  dsimp only [Gen.hostOps3]
  after_results_simp
  rfl

theorem after3_bt2_apply (A : S3x128.Idx → EReal) (h : W main_arg12 = A) (j : Fin 128) :
    (StableHlo.after Gen.hostOps3 W main_v76 : S1x128.Idx → EReal) (ix2 (0 : Fin 1) j) = A (ix2 (1 : Fin 3) j) := by
  subst h
  rw [after3_bt2]
  exact rowChain_apply _ ![1, 0] _ _ _ 1 rfl rfl j

/-- The second weight matrix's buffer holds the layer's slice of the stacked second weights. -/
theorem after4_w2 : (StableHlo.after Gen.hostOps4 W main_v81 : S128x128.Idx → EReal)
    = shapeCast S128x128 (extractStridedSlice S1x128x128 ![1, 0, 0] (W main_arg9) slices_S3x128x128_S1x128x128_1_0_0)
        shapeCasts_S1x128x128_S128x128 := by
  dsimp only [Gen.hostOps4]
  after_results_simp
  rfl

theorem after4_w2_apply (A9 : S3x128x128.Idx → EReal) (h9 : W main_arg9 = A9) (k j : Fin 128) :
    (StableHlo.after Gen.hostOps4 W main_v81 : S128x128.Idx → EReal) (ix2 k j) = A9 (ix3 (1 : Fin 3) k j) := by
  subst h9
  rw [after4_w2]
  exact matChain_apply _ ![1, 0, 0] _ _ 1 rfl rfl rfl k j

end Stretch

/-! ## What the layer's regions find when they are entered -/

variable (m : (ℓ : Loc nD τ sig) → Buf (Elt Ideal) ℓ) (outs : Gen.Outs (F := Ideal)) (c : Dev nD)

/-! ### The first region: features, aggregation, factor, first weights and bias -/

theorem h3_h : Gen.V6 m outs c main_v41 = outs 5 main_v41 c :=
  (Gen.V6_of m outs c main_v41 (by decide)).trans (V5_v41 m outs c)

theorem h3_agg : toMat (Gen.V6 m outs c main_v54)
    = agg (toMat (outs 5 main_v41 c)) (fun p => m ((c : Thread nD τ).loc main_arg1) (ix1 p))
        (fun p => m ((c : Thread nD τ).loc main_arg2) (ix1 p)) (fun p => m ((c : Thread nD τ).loc main_arg3) (ix1 p)) := by
  funext r k
  exact after3_agg_apply (Gen.V5 m outs c) _ _ _ _ (V5_v41 m outs c) (V5_arg1 m outs c) (V5_arg2 m outs c) (V5_arg3 m outs c) r k

theorem h3_coef : (Gen.V6 m outs c main_v58 : S1x1.Idx → EReal) (ix2 0 0)
    = ((1 : EReal) + (m ((c : Thread nD τ).loc main_arg4) : S3.Idx → EReal) (ix1 1) : EReal) :=
  after3_coef_apply (Gen.V5 m outs c) _ (V5_arg4 m outs c)

theorem h3_w1 : toWt (Gen.V6 m outs c main_v78) = fun k j => m ((c : Thread nD τ).loc main_arg5) (ix3 1 k j) := by
  funext k j
  exact after3_w1_apply (Gen.V5 m outs c) _ (V5_arg5 m outs c) k j

theorem h3_b1 : toRow (Gen.V6 m outs c main_v61) = fun j => m ((c : Thread nD τ).loc main_arg6) (ix2 1 j) := by
  funext j
  exact after3_b1_apply (Gen.V5 m outs c) _ (V5_arg6 m outs c) j

/-! ### The second region: the first region's two outputs, first scale and shift, second weights and bias -/

theorem h4_y : Gen.V8 m outs c main_v79_0 = outs 7 main_v79_0 c :=
  (Gen.V8_of m outs c main_v79_0 (by decide)).trans (V7_v79_0 m outs c)

theorem h4_stats : Gen.V8 m outs c main_v79_1 = outs 7 main_v79_1 c :=
  (Gen.V8_of m outs c main_v79_1 (by decide)).trans (V7_v79_1 m outs c)

theorem h4_g : toRow (Gen.V8 m outs c main_v64) = fun j => m ((c : Thread nD τ).loc main_arg7) (ix2 1 j) := by
  funext j
  have e : Gen.V8 m outs c main_v64 = Gen.V6 m outs c main_v64 :=
    (Gen.V8_of m outs c main_v64 (by decide)).trans <| (Gen.V7_of m outs c main_v64 (by decide))
  unfold toRow
  rw [e]
  exact after3_g1_apply (Gen.V5 m outs c) _ (V5_arg7 m outs c) j

theorem h4_bt : toRow (Gen.V8 m outs c main_v67) = fun j => m ((c : Thread nD τ).loc main_arg8) (ix2 1 j) := by
  funext j
  have e : Gen.V8 m outs c main_v67 = Gen.V6 m outs c main_v67 :=
    (Gen.V8_of m outs c main_v67 (by decide)).trans <| (Gen.V7_of m outs c main_v67 (by decide))
  unfold toRow
  rw [e]
  exact after3_bt1_apply (Gen.V5 m outs c) _ (V5_arg8 m outs c) j

theorem h4_w2 : toWt (Gen.V8 m outs c main_v81) = fun k j => m ((c : Thread nD τ).loc main_arg9) (ix3 1 k j) := by
  funext k j
  exact after4_w2_apply (Gen.V7 m outs c) _ (V7_arg9 m outs c) k j

theorem h4_b2 : toRow (Gen.V8 m outs c main_v70) = fun j => m ((c : Thread nD τ).loc main_arg10) (ix2 1 j) := by
  funext j
  have e : Gen.V8 m outs c main_v70 = Gen.V6 m outs c main_v70 :=
    (Gen.V8_of m outs c main_v70 (by decide)).trans <| (Gen.V7_of m outs c main_v70 (by decide))
  unfold toRow
  rw [e]
  exact after3_b2_apply (Gen.V5 m outs c) _ (V5_arg10 m outs c) j

/-! ### The third region: the second region's two outputs, second scale and shift -/

theorem h5_t2 : Gen.V9 m outs c main_v82_0 = outs 9 main_v82_0 c := V9_v82_0 m outs c

theorem h5_stats : Gen.V9 m outs c main_v82_1 = outs 9 main_v82_1 c := V9_v82_1 m outs c

theorem h5_g : toRow (Gen.V9 m outs c main_v73) = fun j => m ((c : Thread nD τ).loc main_arg11) (ix2 1 j) := by
  funext j
  have e : Gen.V9 m outs c main_v73 = Gen.V6 m outs c main_v73 :=
    (Gen.V9_of m outs c main_v73 (by decide)).trans <| (Gen.V8_of m outs c main_v73 (by decide)).trans <| (Gen.V7_of m outs c main_v73 (by decide))
  unfold toRow
  rw [e]
  exact after3_g2_apply (Gen.V5 m outs c) _ (V5_arg11 m outs c) j

theorem h5_bt : toRow (Gen.V9 m outs c main_v76) = fun j => m ((c : Thread nD τ).loc main_arg12) (ix2 1 j) := by
  funext j
  have e : Gen.V9 m outs c main_v76 = Gen.V6 m outs c main_v76 :=
    (Gen.V9_of m outs c main_v76 (by decide)).trans <| (Gen.V8_of m outs c main_v76 (by decide)).trans <| (Gen.V7_of m outs c main_v76 (by decide))
  unfold toRow
  rw [e]
  exact after3_bt2_apply (Gen.V5 m outs c) _ (V5_arg12 m outs c) j

end Cert.KernelIdeal.Hand

end
-- ==== Proof.KI.Host2.lean ====
/-
  The host side of the third layer on the extended reals: what the layer's three kernel regions find in their operand
  arrays when they are entered, as functions of the argument arrays and of what the earlier regions left, read at an
  index. The layer's input features, the aggregation of them over incoming edges, the factor 1 + eps, and the layer's
  slices of the stacked weights, biases, scales and shifts.
-/
import proofs.«110361_j29403346109051_2_alg».proof.Proof.KI.HostLib

noncomputable section

namespace Cert.KernelIdeal.Hand

open Cert.KernelIdeal
open Idealize.ShloMosaic Idealize.ShloMosaic.TcCoe Idealize.ShloMosaic.ValueIdx
open Cert.Spec
open Facts₀

/-! ## What the layer's two host stretches write, over any contents they start from -/

section Stretch
variable (W : Valuation τ sig (Elt Ideal))

/-- The aggregation buffer holds the host's aggregation chain of the stretch's inputs. -/
theorem after6_agg : (StableHlo.after Gen.hostOps6 W main_v96 : S40000x128.Idx → EReal)
    = aggTerm (W main_v83) (W main_arg1) (W main_arg2) (W main_arg3) := by
  dsimp only [Gen.hostOps6]
  after_results_simp
  rfl

/-- The aggregation buffer read at one entry: the edge-weighted sum over incoming edges. -/
theorem after6_agg_apply (H : S40000x128.Idx → EReal) (A1 A2 : S640000.Idx → BitVec 32) (A3 : S640000.Idx → EReal)
    (hh : W main_v83 = H) (h1 : W main_arg1 = A1) (h2 : W main_arg2 = A2) (h3 : W main_arg3 = A3)
    (r : Fin 40000) (k : Fin 128) :
    (StableHlo.after Gen.hostOps6 W main_v96 : S40000x128.Idx → EReal) (ix2 r k)
      = agg (toMat H) (fun p => A1 (ix1 p)) (fun p => A2 (ix1 p)) (fun p => A3 (ix1 p)) r k := by
  subst hh h1 h2 h3
  rw [after6_agg]
  exact aggTerm_apply _ _ _ _ r k

/-- The factor buffer holds one plus the layer's entry of the eps vector. -/
theorem after6_coef : (StableHlo.after Gen.hostOps6 W main_v100 : S1x1.Idx → EReal)
    = shapeCast S1x1 (addf (constant (F := Ideal) S_ .f32 0x3F800000#32)
        (shapeCast S_ (extractStridedSlice S1 ![2] (W main_arg4) slices_S3_S1_2) shapeCasts_S1_S_)) shapeCasts_S_S1x1 := by
  dsimp only [Gen.hostOps6]
  after_results_simp
  rfl

theorem after6_coef_apply (A4 : S3.Idx → EReal) (h4 : W main_arg4 = A4) :
    (StableHlo.after Gen.hostOps6 W main_v100 : S1x1.Idx → EReal) (ix2 (0 : Fin 1) (0 : Fin 1)) = 1 + A4 (ix1 (2 : Fin 3)) := by
  subst h4
  rw [after6_coef]
  exact coefChain_apply _ ![2] _ _ _ 2 rfl

/-- The first weight matrix's buffer holds the layer's slice of the stacked first weights. -/
theorem after6_w1 : (StableHlo.after Gen.hostOps6 W main_v120 : S128x128.Idx → EReal)
    = shapeCast S128x128 (extractStridedSlice S1x128x128 ![2, 0, 0] (W main_arg5) slices_S3x128x128_S1x128x128_2_0_0)
        shapeCasts_S1x128x128_S128x128 := by
  dsimp only [Gen.hostOps6]
  after_results_simp
  rfl

theorem after6_w1_apply (A5 : S3x128x128.Idx → EReal) (h5 : W main_arg5 = A5) (k j : Fin 128) :
    (StableHlo.after Gen.hostOps6 W main_v120 : S128x128.Idx → EReal) (ix2 k j) = A5 (ix3 (2 : Fin 3) k j) := by
  subst h5
  rw [after6_w1]
  exact matChain_apply _ ![2, 0, 0] _ _ 2 rfl rfl rfl k j

/-- The `b1` row's buffer holds the layer's row of its stacked table. -/
theorem after6_b1 : (StableHlo.after Gen.hostOps6 W main_v103 : S1x128.Idx → EReal)
    = shapeCast S1x128 (shapeCast S128 (extractStridedSlice S1x128 ![2, 0] (W main_arg6) slices_S3x128_S1x128_2_0)
        shapeCasts_S1x128_S128) shapeCasts_S128_S1x128 := by
  dsimp only [Gen.hostOps6]
  after_results_simp
  rfl

theorem after6_b1_apply (A : S3x128.Idx → EReal) (h : W main_arg6 = A) (j : Fin 128) :
    (StableHlo.after Gen.hostOps6 W main_v103 : S1x128.Idx → EReal) (ix2 (0 : Fin 1) j) = A (ix2 (2 : Fin 3) j) := by
  subst h
  rw [after6_b1]
  exact rowChain_apply _ ![2, 0] _ _ _ 2 rfl rfl j

/-- The `g1` row's buffer holds the layer's row of its stacked table. -/
theorem after6_g1 : (StableHlo.after Gen.hostOps6 W main_v106 : S1x128.Idx → EReal)
    = shapeCast S1x128 (shapeCast S128 (extractStridedSlice S1x128 ![2, 0] (W main_arg7) slices_S3x128_S1x128_2_0)
        shapeCasts_S1x128_S128) shapeCasts_S128_S1x128 := by
  dsimp only [Gen.hostOps6]
  after_results_simp
  rfl

theorem after6_g1_apply (A : S3x128.Idx → EReal) (h : W main_arg7 = A) (j : Fin 128) :
    (StableHlo.after Gen.hostOps6 W main_v106 : S1x128.Idx → EReal) (ix2 (0 : Fin 1) j) = A (ix2 (2 : Fin 3) j) := by
  subst h
  rw [after6_g1]
  exact rowChain_apply _ ![2, 0] _ _ _ 2 rfl rfl j

/-- The `bt1` row's buffer holds the layer's row of its stacked table. -/
theorem after6_bt1 : (StableHlo.after Gen.hostOps6 W main_v109 : S1x128.Idx → EReal)
    = shapeCast S1x128 (shapeCast S128 (extractStridedSlice S1x128 ![2, 0] (W main_arg8) slices_S3x128_S1x128_2_0)
        shapeCasts_S1x128_S128) shapeCasts_S128_S1x128 := by
  dsimp only [Gen.hostOps6]
  after_results_simp
  rfl

theorem after6_bt1_apply (A : S3x128.Idx → EReal) (h : W main_arg8 = A) (j : Fin 128) :
    (StableHlo.after Gen.hostOps6 W main_v109 : S1x128.Idx → EReal) (ix2 (0 : Fin 1) j) = A (ix2 (2 : Fin 3) j) := by
  subst h
  rw [after6_bt1]
  exact rowChain_apply _ ![2, 0] _ _ _ 2 rfl rfl j

/-- The `b2` row's buffer holds the layer's row of its stacked table. -/
theorem after6_b2 : (StableHlo.after Gen.hostOps6 W main_v112 : S1x128.Idx → EReal)
    = shapeCast S1x128 (shapeCast S128 (extractStridedSlice S1x128 ![2, 0] (W main_arg10) slices_S3x128_S1x128_2_0)
        shapeCasts_S1x128_S128) shapeCasts_S128_S1x128 := by
  dsimp only [Gen.hostOps6]
  after_results_simp
  rfl

theorem after6_b2_apply (A : S3x128.Idx → EReal) (h : W main_arg10 = A) (j : Fin 128) :
    (StableHlo.after Gen.hostOps6 W main_v112 : S1x128.Idx → EReal) (ix2 (0 : Fin 1) j) = A (ix2 (2 : Fin 3) j) := by
  subst h
  rw [after6_b2]
  exact rowChain_apply _ ![2, 0] _ _ _ 2 rfl rfl j

/-- The `g2` row's buffer holds the layer's row of its stacked table. -/
theorem after6_g2 : (StableHlo.after Gen.hostOps6 W main_v115 : S1x128.Idx → EReal)
    = shapeCast S1x128 (shapeCast S128 (extractStridedSlice S1x128 ![2, 0] (W main_arg11) slices_S3x128_S1x128_2_0)
        shapeCasts_S1x128_S128) shapeCasts_S128_S1x128 := by
  dsimp only [Gen.hostOps6]
  after_results_simp
  rfl

theorem after6_g2_apply (A : S3x128.Idx → EReal) (h : W main_arg11 = A) (j : Fin 128) :
    (StableHlo.after Gen.hostOps6 W main_v115 : S1x128.Idx → EReal) (ix2 (0 : Fin 1) j) = A (ix2 (2 : Fin 3) j) := by
  subst h
  rw [after6_g2]
  exact rowChain_apply _ ![2, 0] _ _ _ 2 rfl rfl j

/-- The `bt2` row's buffer holds the layer's row of its stacked table. -/
theorem after6_bt2 : (StableHlo.after Gen.hostOps6 W main_v118 : S1x128.Idx → EReal)
    = shapeCast S1x128 (shapeCast S128 (extractStridedSlice S1x128 ![2, 0] (W main_arg12) slices_S3x128_S1x128_2_0)
        shapeCasts_S1x128_S128) shapeCasts_S128_S1x128 := by
  dsimp only [Gen.hostOps6]
  after_results_simp
  rfl

theorem after6_bt2_apply (A : S3x128.Idx → EReal) (h : W main_arg12 = A) (j : Fin 128) :
    (StableHlo.after Gen.hostOps6 W main_v118 : S1x128.Idx → EReal) (ix2 (0 : Fin 1) j) = A (ix2 (2 : Fin 3) j) := by
  subst h
  rw [after6_bt2]
  exact rowChain_apply _ ![2, 0] _ _ _ 2 rfl rfl j

/-- The second weight matrix's buffer holds the layer's slice of the stacked second weights. -/
theorem after7_w2 : (StableHlo.after Gen.hostOps7 W main_v123 : S128x128.Idx → EReal)
    = shapeCast S128x128 (extractStridedSlice S1x128x128 ![2, 0, 0] (W main_arg9) slices_S3x128x128_S1x128x128_2_0_0)
        shapeCasts_S1x128x128_S128x128 := by
  dsimp only [Gen.hostOps7]
  after_results_simp
  rfl

theorem after7_w2_apply (A9 : S3x128x128.Idx → EReal) (h9 : W main_arg9 = A9) (k j : Fin 128) :
    (StableHlo.after Gen.hostOps7 W main_v123 : S128x128.Idx → EReal) (ix2 k j) = A9 (ix3 (2 : Fin 3) k j) := by
  subst h9
  rw [after7_w2]
  exact matChain_apply _ ![2, 0, 0] _ _ 2 rfl rfl rfl k j

end Stretch

/-! ## What the layer's regions find when they are entered -/

variable (m : (ℓ : Loc nD τ sig) → Buf (Elt Ideal) ℓ) (outs : Gen.Outs (F := Ideal)) (c : Dev nD)

/-! ### The first region: features, aggregation, factor, first weights and bias -/

theorem h6_h : Gen.V11 m outs c main_v83 = outs 10 main_v83 c :=
  (Gen.V11_of m outs c main_v83 (by decide)).trans (V10_v83 m outs c)

theorem h6_agg : toMat (Gen.V11 m outs c main_v96)
    = agg (toMat (outs 10 main_v83 c)) (fun p => m ((c : Thread nD τ).loc main_arg1) (ix1 p))
        (fun p => m ((c : Thread nD τ).loc main_arg2) (ix1 p)) (fun p => m ((c : Thread nD τ).loc main_arg3) (ix1 p)) := by
  funext r k
  exact after6_agg_apply (Gen.V10 m outs c) _ _ _ _ (V10_v83 m outs c) (V10_arg1 m outs c) (V10_arg2 m outs c) (V10_arg3 m outs c) r k

theorem h6_coef : (Gen.V11 m outs c main_v100 : S1x1.Idx → EReal) (ix2 0 0)
    = ((1 : EReal) + (m ((c : Thread nD τ).loc main_arg4) : S3.Idx → EReal) (ix1 2) : EReal) :=
  after6_coef_apply (Gen.V10 m outs c) _ (V10_arg4 m outs c)

theorem h6_w1 : toWt (Gen.V11 m outs c main_v120) = fun k j => m ((c : Thread nD τ).loc main_arg5) (ix3 2 k j) := by
  funext k j
  exact after6_w1_apply (Gen.V10 m outs c) _ (V10_arg5 m outs c) k j

theorem h6_b1 : toRow (Gen.V11 m outs c main_v103) = fun j => m ((c : Thread nD τ).loc main_arg6) (ix2 2 j) := by
  funext j
  exact after6_b1_apply (Gen.V10 m outs c) _ (V10_arg6 m outs c) j

/-! ### The second region: the first region's two outputs, first scale and shift, second weights and bias -/

theorem h7_y : Gen.V13 m outs c main_v121_0 = outs 12 main_v121_0 c :=
  (Gen.V13_of m outs c main_v121_0 (by decide)).trans (V12_v121_0 m outs c)

theorem h7_stats : Gen.V13 m outs c main_v121_1 = outs 12 main_v121_1 c :=
  (Gen.V13_of m outs c main_v121_1 (by decide)).trans (V12_v121_1 m outs c)

theorem h7_g : toRow (Gen.V13 m outs c main_v106) = fun j => m ((c : Thread nD τ).loc main_arg7) (ix2 2 j) := by
  funext j
  have e : Gen.V13 m outs c main_v106 = Gen.V11 m outs c main_v106 :=
    (Gen.V13_of m outs c main_v106 (by decide)).trans <| (Gen.V12_of m outs c main_v106 (by decide))
  unfold toRow
  rw [e]
  exact after6_g1_apply (Gen.V10 m outs c) _ (V10_arg7 m outs c) j

theorem h7_bt : toRow (Gen.V13 m outs c main_v109) = fun j => m ((c : Thread nD τ).loc main_arg8) (ix2 2 j) := by
  funext j
  have e : Gen.V13 m outs c main_v109 = Gen.V11 m outs c main_v109 :=
    (Gen.V13_of m outs c main_v109 (by decide)).trans <| (Gen.V12_of m outs c main_v109 (by decide))
  unfold toRow
  rw [e]
  exact after6_bt1_apply (Gen.V10 m outs c) _ (V10_arg8 m outs c) j

theorem h7_w2 : toWt (Gen.V13 m outs c main_v123) = fun k j => m ((c : Thread nD τ).loc main_arg9) (ix3 2 k j) := by
  funext k j
  exact after7_w2_apply (Gen.V12 m outs c) _ (V12_arg9 m outs c) k j

theorem h7_b2 : toRow (Gen.V13 m outs c main_v112) = fun j => m ((c : Thread nD τ).loc main_arg10) (ix2 2 j) := by
  funext j
  have e : Gen.V13 m outs c main_v112 = Gen.V11 m outs c main_v112 :=
    (Gen.V13_of m outs c main_v112 (by decide)).trans <| (Gen.V12_of m outs c main_v112 (by decide))
  unfold toRow
  rw [e]
  exact after6_b2_apply (Gen.V10 m outs c) _ (V10_arg10 m outs c) j

/-! ### The third region: the second region's two outputs, second scale and shift -/

theorem h8_t2 : Gen.V14 m outs c main_v124_0 = outs 14 main_v124_0 c := V14_v124_0 m outs c

theorem h8_stats : Gen.V14 m outs c main_v124_1 = outs 14 main_v124_1 c := V14_v124_1 m outs c

theorem h8_g : toRow (Gen.V14 m outs c main_v115) = fun j => m ((c : Thread nD τ).loc main_arg11) (ix2 2 j) := by
  funext j
  have e : Gen.V14 m outs c main_v115 = Gen.V11 m outs c main_v115 :=
    (Gen.V14_of m outs c main_v115 (by decide)).trans <| (Gen.V13_of m outs c main_v115 (by decide)).trans <| (Gen.V12_of m outs c main_v115 (by decide))
  unfold toRow
  rw [e]
  exact after6_g2_apply (Gen.V10 m outs c) _ (V10_arg11 m outs c) j

theorem h8_bt : toRow (Gen.V14 m outs c main_v118) = fun j => m ((c : Thread nD τ).loc main_arg12) (ix2 2 j) := by
  funext j
  have e : Gen.V14 m outs c main_v118 = Gen.V11 m outs c main_v118 :=
    (Gen.V14_of m outs c main_v118 (by decide)).trans <| (Gen.V13_of m outs c main_v118 (by decide)).trans <| (Gen.V12_of m outs c main_v118 (by decide))
  unfold toRow
  rw [e]
  exact after6_bt2_apply (Gen.V10 m outs c) _ (V10_arg12 m outs c) j

end Cert.KernelIdeal.Hand

end
-- ==== Proof.KI.Host.lean ====
/-
  The host side of the program on the extended reals, assembled: the three layers' entry facts, the arrays behind
  each region's windows in order, and the result buffer after the last region.
-/
import proofs.«110361_j29403346109051_2_alg».proof.Proof.KI.Host0
import proofs.«110361_j29403346109051_2_alg».proof.Proof.KI.Host1
import proofs.«110361_j29403346109051_2_alg».proof.Proof.KI.Host2

noncomputable section

namespace Cert.KernelIdeal.Hand

open Cert.KernelIdeal
open Idealize.ShloMosaic Idealize.ShloMosaic.TcCoe

/-! ## The arrays behind each region's windows, operands then results -/

theorem arr0 : ∀ w : Fin 7, Pipeline.arrRef spec0 w
    = ![main_arg0, main_v12, main_v16, main_v36, main_v19, main_v37_0, main_v37_1] w := by decide

theorem arr1 : ∀ w : Fin 8, Pipeline.arrRef spec1 w
    = ![main_v37_0, main_v37_1, main_v22, main_v25, main_v39, main_v28, main_v40_0, main_v40_1] w := by decide

theorem arr2 : ∀ w : Fin 5, Pipeline.arrRef spec2 w
    = ![main_v40_0, main_v40_1, main_v31, main_v34, main_v41] w := by decide

theorem arr3 : ∀ w : Fin 7, Pipeline.arrRef spec3 w
    = ![main_v41, main_v54, main_v58, main_v78, main_v61, main_v79_0, main_v79_1] w := by decide

theorem arr4 : ∀ w : Fin 8, Pipeline.arrRef spec4 w
    = ![main_v79_0, main_v79_1, main_v64, main_v67, main_v81, main_v70, main_v82_0, main_v82_1] w := by decide

theorem arr5 : ∀ w : Fin 5, Pipeline.arrRef spec5 w
    = ![main_v82_0, main_v82_1, main_v73, main_v76, main_v83] w := by decide

theorem arr6 : ∀ w : Fin 7, Pipeline.arrRef spec6 w
    = ![main_v83, main_v96, main_v100, main_v120, main_v103, main_v121_0, main_v121_1] w := by decide

theorem arr7 : ∀ w : Fin 8, Pipeline.arrRef spec7 w
    = ![main_v121_0, main_v121_1, main_v106, main_v109, main_v123, main_v112, main_v124_0, main_v124_1] w := by decide

theorem arr8 : ∀ w : Fin 5, Pipeline.arrRef spec8 w
    = ![main_v124_0, main_v124_1, main_v115, main_v118, main_v125] w := by decide

/-! ## The result -/

/-- After the last region the result buffer holds what that region left there. -/
theorem hres (m : (ℓ : Loc nD τ sig) → Buf (Elt Ideal) ℓ) (outs : Gen.Outs (F := Ideal)) (c : Dev nD) :
    Gen.V15 m outs c main_v125 = outs 15 main_v125 c := V15_v125 m outs c

end Cert.KernelIdeal.Hand

end
-- ==== Proof.KI.Pay0.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec

noncomputable section

open Idealize.ShloMosaic Idealize.ShloMosaic.ValueIdx Cert.KernelIdeal Cert.KernelIdeal.Gen Cert.Spec

namespace Cert.KernelIdeal.Hand

/-- The block product's dimension numbers: rows of the left factor against columns of the right. -/
abbrev dotD := dot_S5000x128_S128x128_S5000x128_1_0_0_1_n_n

/-- The contraction index of the block product is a column of the left factor. -/
abbrev dotK : dotD.contr.Idx ≃ Fin 128 := contrEquiv1 dotD 128 rfl rfl

theorem dot_lhs (p : Fin 5000) (q k : Fin 128) : dotD.lhsIdx (ix2 p q) (dotK.symm k) = ix2 p k := by
  funext a
  match a with
  | ⟨0, _⟩ => exact Fin.ext rfl
  | ⟨1, _⟩ => exact Fin.ext ((dotD.lhsIdx_val_of_single (cl := ⟨1, by decide⟩) rfl _ _).trans (contrEquiv1_symm_val dotD 128 rfl rfl k))

theorem dot_rhs (p : Fin 5000) (q k : Fin 128) : dotD.rhsIdx (ix2 p q) (dotK.symm k) = ix2 k q := by
  funext a
  match a with
  | ⟨0, _⟩ => exact Fin.ext ((dotD.rhsIdx_val_of_single (cr := ⟨0, by decide⟩) rfl _ _).trans (contrEquiv1_symm_val dotD 128 rfl rfl k))
  | ⟨1, _⟩ => exact Fin.ext rfl

/-- A block product into the zero block, at an entry: the sum over the shared index. -/
theorem matmul_zero_apply (x : FVec Ideal S5000x128 .f32) (w : FVec Ideal S128x128 .f32) (p : Fin 5000) (q : Fin 128) :
    matmul dotD none x w (constant S5000x128 .f32 0x00000000#32) (ix2 p q) = ∑ k : Fin 128, x (ix2 p k) * w (ix2 k q) := by
  simp only [matmul]
  refine (Ideal.matmul_constant_zero_apply _ _ _ _ _).trans ?_
  refine (Equiv.sum_comp dotK.symm _).symm.trans ?_
  refine Finset.sum_congr rfl fun k _ => ?_
  rw [dot_lhs, dot_rhs]

/-- A single entry broadcast over a matrix reads that entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The first linear map at an entry: (c · h + agg) · W + b. -/
theorem k0_pay6_apply (coef : Vec Ideal S1x1 .f32) (hb ab : Vec Ideal S5000x128 .f32) (w : Vec Ideal S128x128 .f32)
    (b : Vec Ideal S1x128 .f32) (p : Fin 5000) (q : Fin 128) :
    k0_pay6 coef hb ab w b (ix2 p q)
      = (∑ k : Fin 128, (coef (ix2 0 0) * hb (ix2 p k) + ab (ix2 p k)) * w (ix2 k q)) + b (ix2 0 q) := by
  unfold k0_pay6
  simp only [shapeCast_self]
  rw [addf_apply, broadcastTo_1b_ab_apply]
  refine congrArg (· + b (ix2 0 q)) ?_
  refine (matmul_zero_apply _ _ p q).trans ?_
  refine Finset.sum_congr rfl fun k _ => ?_
  rw [addf_apply, mulf_apply, broadcastTo_11_ab_apply]

/-- The sum of a block's rows, laid out as one row, at a column: the sum of that column. -/
theorem colsum_apply (x : FVec Ideal S5000x128 .f32) (hφ : FKind.Formats .f32)
    (hacc : (0x00000000#32 : BitVec 32) = FKind.add.neutral .f32 hφ) (q : Fin 128) :
    shapeCast S1x128 (multiReduction .add [0] S128 x 0x00000000#32 reduces_S5000x128_S128 hφ hacc) shapeCasts_S128_S1x128 (ix2 0 q)
      = ∑ p : Fin 5000, x (ix2 p q) := by
  refine (shapeCast_a_1a_apply _ _ 0 q).trans ?_
  refine (Ideal.multiReduction_add_single x 0x00000000#32 reduces_S5000x128_S128 hφ hacc (ix1 q)).trans ?_
  show ∑ p : Fin 5000, x (reduces_S5000x128_S128.lift (ix1 q) p) = _
  refine Finset.sum_congr rfl fun p _ => congrArg x ?_
  funext a
  match a with
  | ⟨0, _⟩ => rfl
  | ⟨1, _⟩ => rfl

/-- The running column sums after a block: what was there plus the block's column sums. -/
theorem k0_pay7_apply (coef : Vec Ideal S1x1 .f32) (hb ab : Vec Ideal S5000x128 .f32) (w : Vec Ideal S128x128 .f32)
    (b : Vec Ideal S1x128 .f32) (acc : Vec Ideal S1x128 .f32) (q : Fin 128) :
    k0_pay7 coef hb ab w b acc (ix2 0 q) = acc (ix2 0 q) + ∑ p : Fin 5000, k0_pay6 coef hb ab w b (ix2 p q) := by
  unfold k0_pay7
  simp only [shapeCast_self]
  rw [addf_apply]
  exact congrArg (acc (ix2 0 q) + ·) (colsum_apply _ _ _ q)

/-- The running column sums of squares after a block. -/
theorem k0_pay8_apply (coef : Vec Ideal S1x1 .f32) (hb ab : Vec Ideal S5000x128 .f32) (w : Vec Ideal S128x128 .f32)
    (b : Vec Ideal S1x128 .f32) (acc : Vec Ideal S1x128 .f32) (q : Fin 128) :
    k0_pay8 coef hb ab w b acc (ix2 0 q)
      = acc (ix2 0 q) + ∑ p : Fin 5000, k0_pay6 coef hb ab w b (ix2 p q) * k0_pay6 coef hb ab w b (ix2 p q) := by
  unfold k0_pay8
  simp only [addf_apply]
  refine congrArg (acc (ix2 0 q) + ·) ((colsum_apply _ _ _ q).trans ?_)
  exact Finset.sum_congr rfl fun p _ => mulf_apply _ _ _

/-- The named reciprocal is 1/40000. -/
theorem inv_n : Named.named (F := Ideal) κ "inv_40000" (φ := .f32) 0x37D1B717#32 = invN :=
  IdealRules.named_const.ideal_named_scalar _ _ _ _ rfl

theorem k0_pay1_apply (v : FVec Ideal S1x128 .f32) (i : S1x128.Idx) : k0_pay1 v i = v i := by
  simp only [k0_pay1, shapeCast_self]

theorem k0_pay4_apply (i : S1x128.Idx) : (k0_pay4 (F := Ideal)) i = 0 := by
  simp only [k0_pay4, shapeCast_self, broadcast_apply]
  exact Ideal.ofBits_zero_f32

theorem k0_pay5_apply (i : S1x128.Idx) : (k0_pay5 (F := Ideal)) i = 0 := by
  simp only [k0_pay5, shapeCast_self, broadcast_apply]
  exact Ideal.ofBits_zero_f32

/-- The column mean: the column sum times 1/40000. -/
theorem k0_pay2_apply (s : Vec Ideal S1x128 .f32) (q : Fin 128) : k0_pay2 s (ix2 0 q) = s (ix2 0 q) * invN := by
  simp only [k0_pay2, mulf_apply, broadcast_apply]
  exact congrArg (s (ix2 0 q) * ·) inv_n

/-- The column variance: mean of squares minus square of mean, clamped at 0. -/
theorem k0_pay3_apply (s sq : Vec Ideal S1x128 .f32) (q : Fin 128) :
    k0_pay3 s sq (ix2 0 q) = max (sq (ix2 0 q) * invN - (s (ix2 0 q) * invN) * (s (ix2 0 q) * invN)) 0 := by
  simp only [k0_pay3, maximumf_apply, subf_apply, mulf_apply, broadcast_apply, k0_pay2_apply, inv_n]
  exact congrArg (max _) Ideal.ofBits_zero_f32

end Cert.KernelIdeal.Hand

end
-- ==== Proof.KI.Val0.lean ====
import proofs.«110361_j29403346109051_2_alg».proof.Proof.KI.Reg0
import proofs.«110361_j29403346109051_2_alg».proof.Proof.Spec
import proofs.«110361_j29403346109051_2_alg».proof.Proof.LibBlockSum
import proofs.«110361_j29403346109051_2_alg».proof.Proof.KI.Pay0
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 0's values: the output array is the first linear map of the combined features; the statistics array
holds its column means and clamped column variances -/

/-- The grid has eight points. -/
theorem lsPt0 (t : Fin cfg0.N) : t.val < 8 := lt_of_lt_of_eq t.isLt N_0

/-- The array row that row `p` of point `t`'s block is. -/
def lsRow0 (t : Fin cfg0.N) (p : Fin 5000) : Fin 40000 := ⟨5000 * t.val + p.val, by have := lsPt0 t; have := p.isLt; omega⟩

/-- The whole output matrix as one function of the input arrays. -/
def lsY0 (a0 a1 : S40000x128.Idx → EReal) (a2 : S1x1.Idx → EReal) (a3 : S128x128.Idx → EReal) (a4 : S1x128.Idx → EReal) : Mat :=
  lin (comb (a2 (ix2 0 0)) (toMat a0) (toMat a1)) (toWt a3) (toRow a4)

theorem lsY0_apply (a0 a1 : S40000x128.Idx → EReal) (a2 : S1x1.Idx → EReal) (a3 : S128x128.Idx → EReal) (a4 : S1x128.Idx → EReal)
    (r : Fin 40000) (q : Fin 128) :
    lsY0 a0 a1 a2 a3 a4 r q = (∑ k : Fin 128, (a2 (ix2 0 0) * a0 (ix2 r k) + a1 (ix2 r k)) * a3 (ix2 k q)) + a4 (ix2 0 q) := rfl

/-- That matrix of the arrays as the region finds them. -/
def lsYV0 (V : EntryVal Ideal) (c : Dev nD) : Mat :=
  lsY0 (V c (Pipeline.arrRef spec0 0)) (V c (Pipeline.arrRef spec0 1)) (V c (Pipeline.arrRef spec0 2)) (V c (Pipeline.arrRef spec0 3))
    (V c (Pipeline.arrRef spec0 4))

/-- The printed index maps, decided over the grid: the row-block windows are at block (t, 0), the others at (0, 0). -/
theorem lsIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- The input blocks, read at an entry, are the arrays' entries there. -/
theorem lsRd0_0 (V : EntryVal Ideal) (c : Dev nD) (t : Fin cfg0.N) (p : Fin 5000) (q : Fin 128) :
    xb0_0 V c t (ix2 p q) = V c (Pipeline.arrRef spec0 0) (ix2 (lsRow0 t p) q) := by
  obtain ⟨e0, e1, -⟩ := lsIdx0 t
  show V c (Pipeline.arrRef spec0 0) (((cfg0.win 0).blk t).view.emb (ix2 p q)) = _
  refine congrArg (V c (Pipeline.arrRef spec0 0)) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * q.val = q.val; rw [e1]; omega

theorem lsRd0_1 (V : EntryVal Ideal) (c : Dev nD) (t : Fin cfg0.N) (p : Fin 5000) (q : Fin 128) :
    xb0_1 V c t (ix2 p q) = V c (Pipeline.arrRef spec0 1) (ix2 (lsRow0 t p) q) := by
  obtain ⟨-, -, e0, e1, -⟩ := lsIdx0 t
  show V c (Pipeline.arrRef spec0 1) (((cfg0.win 1).blk t).view.emb (ix2 p q)) = _
  refine congrArg (V c (Pipeline.arrRef spec0 1)) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * q.val = q.val; rw [e1]; omega

theorem lsRd0_2 (V : EntryVal Ideal) (c : Dev nD) (t : Fin cfg0.N) (p : Fin 1) (q : Fin 1) :
    xb0_2 V c t (ix2 p q) = V c (Pipeline.arrRef spec0 2) (ix2 p q) := by
  obtain ⟨-, -, -, -, e0, e1, -⟩ := lsIdx0 t
  show V c (Pipeline.arrRef spec0 2) (((cfg0.win 2).blk t).view.emb (ix2 p q)) = _
  refine congrArg (V c (Pipeline.arrRef spec0 2)) (funext fun a => Fin.ext ?_)
  match a with
  | ⟨0, _⟩ => show win0_2.index t (0 : Fin 2) * 1 + 1 * p.val = p.val; rw [e0]; omega
  | ⟨1, _⟩ => show win0_2.index t (1 : Fin 2) * 1 + 1 * q.val = q.val; rw [e1]; omega

theorem lsRd0_3 (V : EntryVal Ideal) (c : Dev nD) (t : Fin cfg0.N) (p : Fin 128) (q : Fin 128) :
    xb0_3 V c t (ix2 p q) = V c (Pipeline.arrRef spec0 3) (ix2 p q) := by
  obtain ⟨-, -, -, -, -, -, e0, e1, -⟩ := lsIdx0 t
  show V c (Pipeline.arrRef spec0 3) (((cfg0.win 3).blk t).view.emb (ix2 p q)) = _
  refine congrArg (V c (Pipeline.arrRef spec0 3)) (funext fun a => Fin.ext ?_)
  match a with
  | ⟨0, _⟩ => show win0_3.index t (0 : Fin 2) * 128 + 1 * p.val = p.val; rw [e0]; omega
  | ⟨1, _⟩ => show win0_3.index t (1 : Fin 2) * 128 + 1 * q.val = q.val; rw [e1]; omega

theorem lsRd0_4 (V : EntryVal Ideal) (c : Dev nD) (t : Fin cfg0.N) (p : Fin 1) (q : Fin 128) :
    xb0_4 V c t (ix2 p q) = V c (Pipeline.arrRef spec0 4) (ix2 p q) := by
  obtain ⟨-, -, -, -, -, -, -, -, e0, e1, -⟩ := lsIdx0 t
  show V c (Pipeline.arrRef spec0 4) (((cfg0.win 4).blk t).view.emb (ix2 p q)) = _
  refine congrArg (V c (Pipeline.arrRef spec0 4)) (funext fun a => Fin.ext ?_)
  match a with
  | ⟨0, _⟩ => show win0_4.index t (0 : Fin 2) * 1 + 1 * p.val = p.val; rw [e0]; omega
  | ⟨1, _⟩ => show win0_4.index t (1 : Fin 2) * 128 + 1 * q.val = q.val; rw [e1]; omega

/-- The block the body stores at point `t`, at an entry (the payload at the five input blocks). -/
def lsBlk0 (V : EntryVal Ideal) (c : Dev nD) (t : Fin cfg0.N) : FVec Ideal S5000x128 .f32 :=
  k0_pay6 (xb0_2 V c t) (xb0_0 V c t) (xb0_1 V c t) (xb0_3 V c t) (xb0_4 V c t)

/-- It is block `t` of the whole output matrix. -/
theorem lsBlk0_apply (V : EntryVal Ideal) (c : Dev nD) (t : Fin cfg0.N) (p : Fin 5000) (q : Fin 128) :
    lsBlk0 V c t (ix2 p q) = lsYV0 V c (lsRow0 t p) q := by
  unfold lsBlk0
  rw [k0_pay6_apply]
  unfold lsYV0
  rw [lsY0_apply]
  simp only [lsRd0_0, lsRd0_1, lsRd0_2, lsRd0_3, lsRd0_4]

/-! ## The output array -/

/-- The whole output array. -/
def lsG0 (V : EntryVal Ideal) (c : Dev nD) : S40000x128.Idx → EReal := fun i => lsYV0 V c (i 0) (i 1)

/-- Where an entry of point `t`'s output block sits in the array. -/
theorem lsEmb0_5 (t : Fin cfg0.N) (p : Fin 5000) (q : Fin 128) :
    ((cfg0.win 5).blk t).view.emb (ix2 p q) = ix2 (lsRow0 t p) q := by
  obtain ⟨-, -, -, -, -, -, -, -, -, -, e0, e1, -⟩ := lsIdx0 t
  refine funext fun a => Fin.ext ?_
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-- What point `t` writes back of the output is block `t` of the whole output array. -/
theorem lsFlushed0_5 (V : EntryVal Ideal) (c : Dev nD) (t : Fin cfg0.N) :
    (dat0 V c).flushed 5 t = ((cfg0.win 5).blk t).view.read (Elt Ideal) (lsG0 V c) := by
  show (cfg0.win 5).cut (grid0.coords t) ((dat0 V c).after 5 t) = _
  rw [after0_5, yOut0_eq]
  funext j
  obtain ⟨p, q, rfl⟩ : ∃ (p : Fin 5000) (q : Fin 128), j = ix2 p q := ⟨j 0, j 1, eq_ix2 j⟩
  show lsBlk0 V c t (ix2 p q) = lsG0 V c (((cfg0.win 5).blk t).view.emb (ix2 p q))
  rw [lsEmb0_5, lsBlk0_apply]
  rfl

/-- An index of the output array is in point `t`'s block iff each coordinate is in the block's range on its axis. -/
theorem lsMem0_5 (t : Fin cfg0.N) (i : S40000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v37_0).slice (win0_5.rect t)).set ↔ _
  rw [View.set_slice_whole, Rect.mem_set_unit]
  exact Iff.rfl

/-- Every row of the output array is in the block of the point its number divided by 5000 names. -/
theorem lsCover0_5 (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  let t : Fin cfg0.N := ⟨(i 0).val / 5000, by rw [show cfg0.N = 8 from N_0]; omega⟩
  obtain ⟨-, -, -, -, -, -, -, -, -, -, e0, e1, -⟩ := lsIdx0 t
  have ht : t.val = (i 0).val / 5000 := rfl
  refine ⟨t, flush0_5 t, ?_⟩
  rw [lsMem0_5]
  intro a
  match a with
  | ⟨0, _⟩ => show win0_5.index t (0 : Fin 2) * 5000 ≤ (i 0).val ∧ (i 0).val < win0_5.index t (0 : Fin 2) * 5000 + 5000; rw [e0]; omega
  | ⟨1, _⟩ => show win0_5.index t (1 : Fin 2) * 128 ≤ (i 1).val ∧ (i 1).val < win0_5.index t (1 : Fin 2) * 128 + 128; rw [e1]; omega

/-- The output array after the region. -/
theorem final0_y (V : EntryVal Ideal) (c : Dev nD) :
    toMat ((dat0 V c).arrAt 5 cfg0.N)
      = lin (comb (V c (Pipeline.arrRef spec0 2) (ix2 0 0)) (toMat (V c (Pipeline.arrRef spec0 0))) (toMat (V c (Pipeline.arrRef spec0 1))))
          (toWt (V c (Pipeline.arrRef spec0 3))) (toRow (V c (Pipeline.arrRef spec0 4))) := by
  rw [(dat0 V c).arrAt_eq_of_cover 5 (lsG0 V c) (fun t _ => lsFlushed0_5 V c t) lsCover0_5]
  rfl

/-! ## The statistics array -/

/-- Point `t`'s block's column sum, and column sum of squares, at column `q` (zero past the grid). -/
def lsB0 (V : EntryVal Ideal) (c : Dev nD) (q : Fin 128) (t : ℕ) : EReal :=
  if h : t < cfg0.N then ∑ p : Fin 5000, lsBlk0 V c ⟨t, h⟩ (ix2 p q) else 0
def lsBq0 (V : EntryVal Ideal) (c : Dev nD) (q : Fin 128) (t : ℕ) : EReal :=
  if h : t < cfg0.N then ∑ p : Fin 5000, lsBlk0 V c ⟨t, h⟩ (ix2 p q) * lsBlk0 V c ⟨t, h⟩ (ix2 p q) else 0

/-- The accumulators before point `n` hold the sums of the earlier blocks' column sums. -/
theorem lsAcc0 (V : EntryVal Ideal) (c : Dev nD) (q : Fin 128) : ∀ (n : ℕ), n ≤ cfg0.N →
    (SQ0 V c n).1 (ix2 0 q) = ∑ s ∈ Finset.range n, lsB0 V c q s
      ∧ (SQ0 V c n).2 (ix2 0 q) = ∑ s ∈ Finset.range n, lsBq0 V c q s
  | 0, _ => by
    rw [SQ0_zero, Finset.sum_range_zero, Finset.sum_range_zero]
    exact ⟨k0_pay4_apply (ix2 0 q), k0_pay5_apply (ix2 0 q)⟩
  | n + 1, hn => by
    have h : n < cfg0.N := hn
    obtain ⟨h1, h2⟩ := lsAcc0 V c q n (Nat.le_of_lt h)
    have e1 := SQ0_succ_fst V c ⟨n, h⟩
    have e2 := SQ0_succ_snd V c ⟨n, h⟩
    dsimp only at e1 e2
    rw [Finset.sum_range_succ, Finset.sum_range_succ, ← h1, ← h2, e1, e2, sOut0_eq, qOut0_eq]
    unfold lsB0 lsBq0
    rw [dif_pos h, dif_pos h]
    exact ⟨k0_pay7_apply _ _ _ _ _ _ q, (k0_pay1_apply _ _).trans (k0_pay8_apply _ _ _ _ _ _ q)⟩

/-- The eight blocks' column sums add up to the column sums over all rows. -/
theorem lsTotal0 (V : EntryVal Ideal) (c : Dev nD) (q : Fin 128) :
    ∑ s ∈ Finset.range (7 + 1), lsB0 V c q s = csum (lsYV0 V c) q := by
  unfold csum
  refine Cert.Lib.sum_range_blocks_of_eq (nb := 8) (bs := 5000) (N := 40000) rfl (fun r => lsYV0 V c r q) (lsB0 V c q) ?_
  intro t ht
  have ht' : t < cfg0.N := lt_of_lt_of_eq ht N_0.symm
  unfold lsB0
  rw [dif_pos ht']
  exact Finset.sum_congr rfl fun p _ => lsBlk0_apply V c ⟨t, ht'⟩ p q

theorem lsTotalSq0 (V : EntryVal Ideal) (c : Dev nD) (q : Fin 128) :
    ∑ s ∈ Finset.range (7 + 1), lsBq0 V c q s = csumsq (lsYV0 V c) q := by
  unfold csumsq
  refine Cert.Lib.sum_range_blocks_of_eq (nb := 8) (bs := 5000) (N := 40000) rfl (fun r => lsYV0 V c r q * lsYV0 V c r q) (lsBq0 V c q) ?_
  intro t ht
  have ht' : t < cfg0.N := lt_of_lt_of_eq ht N_0.symm
  unfold lsBq0
  rw [dif_pos ht']
  exact Finset.sum_congr rfl fun p _ => by rw [lsBlk0_apply V c ⟨t, ht'⟩ p q]; rfl

/-- Rows 0 and 1 of the statistics block as the images of the row block under the two row rectangles. -/
theorem lsRowEmb0_0 (q : Fin 128) : (ix2 (0 : Fin 2) q : S2x128.Idx) = rSt0_0.emb (ix2 (0 : Fin 1) q) :=
  funext fun a => Fin.ext (by
    match a with
    | ⟨0, _⟩ => rfl
    | ⟨1, _⟩ => show q.val = 0 + 1 * q.val; omega)
theorem lsRowEmb0_1 (q : Fin 128) : (ix2 (1 : Fin 2) q : S2x128.Idx) = rSt0_1.emb (ix2 (0 : Fin 1) q) :=
  funext fun a => Fin.ext (by
    match a with
    | ⟨0, _⟩ => rfl
    | ⟨1, _⟩ => show q.val = 0 + 1 * q.val; omega)

/-- Row 0 is not under the store of row 1. -/
theorem lsRowNot0 (q : Fin 128) : (ix2 (0 : Fin 2) q : S2x128.Idx) ∉ rSt0_1.set := by
  rw [Rect.mem_set_unit]
  intro h
  have h0 : (1 : ℕ) ≤ 0 := (h 0).1
  omega

/-- Off the last store's rectangle, the contents are what the earlier stores left. -/
theorem lsCanonOff0 {S : Shape} {e : EltTy} (r : Rect S) (w : r.shape.Idx → Elt Ideal e) (L : List (View.Piece (Elt Ideal) S e))
    {y : S.Idx} (h : y ∉ r.set) : View.canon (⟨r, w⟩ :: L) y = View.canon L y :=
  View.canon_cons_of_not_mem ⟨r, w⟩ L h

/-- The statistics block the last point stores, row by row, from the accumulators. -/
theorem lsStats0_0 (s sq : Vec Ideal S1x128 .f32) (q : Fin 128) : stOut0 s sq (ix2 (0 : Fin 2) q) = s (ix2 0 q) * invN := by
  rw [stOut0_eq, lsCanonOff0 _ _ _ (lsRowNot0 q), lsRowEmb0_0, View.canon_cons_emb]
  exact k0_pay2_apply _ _

theorem lsStats0_1 (s sq : Vec Ideal S1x128 .f32) (q : Fin 128) :
    stOut0 s sq (ix2 (1 : Fin 2) q) = max (sq (ix2 0 q) * invN - (s (ix2 0 q) * invN) * (s (ix2 0 q) * invN)) 0 := by
  rw [stOut0_eq, lsRowEmb0_1, View.canon_cons_emb]
  exact k0_pay3_apply _ _ _

/-- The whole statistics array: row 0 the column means, row 1 the clamped column variances of the output matrix. -/
def lsS0 (V : EntryVal Ideal) (c : Dev nD) : S2x128.Idx → EReal :=
  fun i => if (i 0).val = 0 then meanK (lsYV0 V c) (i 1) else varK (lsYV0 V c) (i 1)

/-- What the last point leaves in the statistics window's buffer is the whole statistics array. -/
theorem lsStatsAt0 (V : EntryVal Ideal) (c : Dev nD) (t : Fin cfg0.N) (h7 : t.val = 7) (p : Fin 2) (q : Fin 128) :
    stOut0 (SQ0 V c (t.val + 1)).1 (SQ0 V c (t.val + 1)).2 (ix2 p q) = lsS0 V c (ix2 p q) := by
  have hle : t.val + 1 ≤ cfg0.N := t.isLt
  have h1 : (SQ0 V c (t.val + 1)).1 (ix2 0 q) = csum (lsYV0 V c) q := by
    rw [(lsAcc0 V c q (t.val + 1) hle).1, h7]; exact lsTotal0 V c q
  have h2 : (SQ0 V c (t.val + 1)).2 (ix2 0 q) = csumsq (lsYV0 V c) q := by
    rw [(lsAcc0 V c q (t.val + 1) hle).2, h7]; exact lsTotalSq0 V c q
  rcases p with ⟨_ | _ | p, hp⟩
  · refine (lsStats0_0 _ _ q).trans ?_
    rw [h1]; rfl
  · refine (lsStats0_1 _ _ q).trans ?_
    rw [h1, h2]; rfl
  · omega

theorem lsEmb0_6 (t : Fin cfg0.N) (p : Fin 2) (q : Fin 128) :
    ((cfg0.win 6).blk t).view.emb (ix2 p q) = ix2 p q := by
  obtain ⟨-, -, -, -, -, -, -, -, -, -, -, -, e0, e1⟩ := lsIdx0 t
  refine funext fun a => Fin.ext ?_
  match a with
  | ⟨0, _⟩ => show win0_6.index t (0 : Fin 2) * 2 + 1 * p.val = p.val; rw [e0]; omega
  | ⟨1, _⟩ => show win0_6.index t (1 : Fin 2) * 128 + 1 * q.val = q.val; rw [e1]; omega

/-- What the one flushing point writes back of the statistics is the whole statistics array. -/
theorem lsFlushed0_6 (V : EntryVal Ideal) (c : Dev nD) (t : Fin cfg0.N) (hf : (cfg0.win 6).flush t = true) :
    (dat0 V c).flushed 6 t = ((cfg0.win 6).blk t).view.read (Elt Ideal) (lsS0 V c) := by
  have h7 : t.val = 7 := by have h := (flush0_6 t).mp hf; have := lsPt0 t; omega
  show (cfg0.win 6).cut (grid0.coords t) ((dat0 V c).after 6 t) = _
  rw [after0_6]
  funext j
  obtain ⟨p, q, rfl⟩ : ∃ (p : Fin 2) (q : Fin 128), j = ix2 p q := ⟨j 0, j 1, eq_ix2 j⟩
  show stOut0 (SQ0 V c (t.val + 1)).1 (SQ0 V c (t.val + 1)).2 (ix2 p q) = lsS0 V c (((cfg0.win 6).blk t).view.emb (ix2 p q))
  rw [lsEmb0_6]
  exact lsStatsAt0 V c t h7 p q

theorem lsMem0_6 (t : Fin cfg0.N) (i : S2x128.Idx) :
    i ∈ ((cfg0.win 6).blk t).view.set ↔ ∀ a : Fin 2, win0_6.index t a * S2x128.size a ≤ (i a).val ∧ (i a).val < win0_6.index t a * S2x128.size a + S2x128.size a := by
  show i ∈ ((View.whole main_v37_1).slice (win0_6.rect t)).set ↔ _
  rw [View.set_slice_whole, Rect.mem_set_unit]
  exact Iff.rfl

/-- The last point's block is the whole statistics array. -/
theorem lsCover0_6 (i : S2x128.Idx) : ∃ t : Fin cfg0.N, (cfg0.win 6).flush t = true ∧ i ∈ ((cfg0.win 6).blk t).view.set := by
  have hi0 : (i 0).val < 2 := (i 0).isLt
  have hi1 : (i 1).val < 128 := (i 1).isLt
  let t : Fin cfg0.N := ⟨7, by rw [show cfg0.N = 8 from N_0]; omega⟩
  obtain ⟨-, -, -, -, -, -, -, -, -, -, -, -, e0, e1⟩ := lsIdx0 t
  refine ⟨t, (flush0_6 t).mpr rfl, ?_⟩
  rw [lsMem0_6]
  intro a
  match a with
  | ⟨0, _⟩ => show win0_6.index t (0 : Fin 2) * 2 ≤ (i 0).val ∧ (i 0).val < win0_6.index t (0 : Fin 2) * 2 + 2; rw [e0]; omega
  | ⟨1, _⟩ => show win0_6.index t (1 : Fin 2) * 128 ≤ (i 1).val ∧ (i 1).val < win0_6.index t (1 : Fin 2) * 128 + 128; rw [e1]; omega

/-- The statistics array after the region: the column means and clamped column variances of the output matrix. -/
theorem final0_stats (V : EntryVal Ideal) (c : Dev nD) (j : Fin 128) :
    (dat0 V c).arrAt 6 cfg0.N (ix2 0 j)
        = meanK (lin (comb (V c (Pipeline.arrRef spec0 2) (ix2 0 0)) (toMat (V c (Pipeline.arrRef spec0 0))) (toMat (V c (Pipeline.arrRef spec0 1))))
          (toWt (V c (Pipeline.arrRef spec0 3))) (toRow (V c (Pipeline.arrRef spec0 4)))) j
      ∧ (dat0 V c).arrAt 6 cfg0.N (ix2 1 j)
        = varK (lin (comb (V c (Pipeline.arrRef spec0 2) (ix2 0 0)) (toMat (V c (Pipeline.arrRef spec0 0))) (toMat (V c (Pipeline.arrRef spec0 1))))
          (toWt (V c (Pipeline.arrRef spec0 3))) (toRow (V c (Pipeline.arrRef spec0 4)))) j := by
  rw [(dat0 V c).arrAt_eq_of_cover 6 (lsS0 V c) (fun t hf => lsFlushed0_6 V c t hf) lsCover0_6]
  exact ⟨rfl, rfl⟩

end Cert.KernelIdeal.Hand

end
-- ==== Proof.KI.Pay1.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec
import proofs.«110361_j29403346109051_2_alg».proof.Proof.KI.Pay0

noncomputable section

open Idealize.ShloMosaic Idealize.ShloMosaic.ValueIdx Cert.KernelIdeal Cert.KernelIdeal.Gen Cert.Spec

namespace Cert.KernelIdeal.Hand

/-- The second linear map with its rectifiers at an entry: max(max(bn(y), 0) · W + b, 0). -/
theorem k1_pay7_apply (mu var g : Vec Ideal S1x128 .f32) (yb : Vec Ideal S5000x128 .f32) (bt : Vec Ideal S1x128 .f32)
    (w : Vec Ideal S128x128 .f32) (b : Vec Ideal S1x128 .f32) (p : Fin 5000) (q : Fin 128) :
    k1_pay7 mu var g yb bt w b (ix2 p q)
      = max ((∑ k : Fin 128, max (g (ix2 0 k) * (yb (ix2 p k) - mu (ix2 0 k)) * Ideal.rsqrt (var (ix2 0 k) + epsB) + bt (ix2 0 k)) 0
          * w (ix2 k q)) + b (ix2 0 q)) 0 := by
  unfold k1_pay7
  simp only [shapeCast_self]
  rw [maximumf_apply, addf_apply, broadcastTo_1b_ab_apply, broadcast_apply]
  refine (congrArg (max _) Ideal.ofBits_zero_f32).trans ?_
  refine congrArg (fun z => max (z + b (ix2 0 q)) 0) ?_
  refine (matmul_zero_apply _ _ p q).trans ?_
  refine Finset.sum_congr rfl fun k _ => congrArg (· * w (ix2 k q)) ?_
  rw [maximumf_apply, addf_apply, mulf_apply, mulf_apply, subf_apply, broadcast_apply,
    broadcastTo_1b_ab_apply, broadcastTo_1b_ab_apply, broadcastTo_1b_ab_apply, broadcastTo_1b_ab_apply]
  exact congrArg (max _) Ideal.ofBits_zero_f32

/-- The running column sums after a block. -/
theorem k1_pay1_apply (t2b : FVec Ideal S5000x128 .f32) (acc : Vec Ideal S1x128 .f32) (q : Fin 128) :
    k1_pay1 t2b acc (ix2 0 q) = acc (ix2 0 q) + ∑ p : Fin 5000, t2b (ix2 p q) := by
  unfold k1_pay1
  simp only [shapeCast_self]
  rw [addf_apply]
  exact congrArg (acc (ix2 0 q) + ·) (colsum_apply _ _ _ q)

/-- The running column sums of squares after a block. -/
theorem k1_pay2_apply (t2b : FVec Ideal S5000x128 .f32) (acc : Vec Ideal S1x128 .f32) (q : Fin 128) :
    k1_pay2 t2b acc (ix2 0 q) = acc (ix2 0 q) + ∑ p : Fin 5000, t2b (ix2 p q) * t2b (ix2 p q) := by
  unfold k1_pay2
  simp only [shapeCast_self]
  rw [addf_apply]
  refine congrArg (acc (ix2 0 q) + ·) ((colsum_apply _ _ _ q).trans ?_)
  exact Finset.sum_congr rfl fun p _ => mulf_apply _ _ _

/-- The column mean: the column sum times 1/40000. -/
theorem k1_pay3_apply (s : Vec Ideal S1x128 .f32) (q : Fin 128) : k1_pay3 s (ix2 0 q) = s (ix2 0 q) * invN := by
  simp only [k1_pay3, mulf_apply, broadcast_apply]
  exact congrArg (s (ix2 0 q) * ·) inv_n

/-- The column variance: mean of squares minus square of mean, clamped at 0. -/
theorem k1_pay4_apply (s sq : Vec Ideal S1x128 .f32) (q : Fin 128) :
    k1_pay4 s sq (ix2 0 q) = max (sq (ix2 0 q) * invN - (s (ix2 0 q) * invN) * (s (ix2 0 q) * invN)) 0 := by
  simp only [k1_pay4, maximumf_apply, subf_apply, mulf_apply, broadcast_apply, k1_pay3_apply, inv_n]
  exact congrArg (max _) Ideal.ofBits_zero_f32

theorem k1_pay5_apply (i : S1x128.Idx) : (k1_pay5 (F := Ideal)) i = 0 := by
  simp only [k1_pay5, shapeCast_self, broadcast_apply]
  exact Ideal.ofBits_zero_f32

theorem k1_pay6_apply (i : S1x128.Idx) : (k1_pay6 (F := Ideal)) i = 0 := by
  simp only [k1_pay6, shapeCast_self, broadcast_apply]
  exact Ideal.ofBits_zero_f32

end Cert.KernelIdeal.Hand

end
-- ==== Proof.KI.Val1.lean ====
import proofs.«110361_j29403346109051_2_alg».proof.Proof.KI.Reg1
import proofs.«110361_j29403346109051_2_alg».proof.Proof.Spec
import proofs.«110361_j29403346109051_2_alg».proof.Proof.LibBlockSum
import proofs.«110361_j29403346109051_2_alg».proof.Proof.KI.Pay1
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 1's values: the output array is the second linear map of the rectified normalised input, rectified;
the statistics array holds its column means and clamped column variances -/

/-- A whole-block access starts at the origin. -/
theorem bsrOrigin1 : (![0, 0] : Fin 2 → Nat) = fun _ => 0 := funext fun a => by fin_cases a <;> rfl

/-- The grid has eight points. -/
theorem bsrPt1 (t : Fin cfg1.N) : t.val < 8 := lt_of_lt_of_eq t.isLt N_1

/-- The array row that row `p` of point `t`'s block is. -/
def bsrRow1 (t : Fin cfg1.N) (p : Fin 5000) : Fin 40000 := ⟨5000 * t.val + p.val, by have := bsrPt1 t; have := p.isLt; omega⟩

/-- Row 0 of the statistics block, loaded, at a column. -/
theorem bsrLdM1 (x1 : Vec Ideal S2x128 .f32) (q : Fin 128) : View.ld x1 rS1_0 (ix2 (0 : Fin 1) q) = x1 (ix2 (0 : Fin 2) q) := by
  show x1 (rS1_0.idx (ix2 (0 : Fin 1) q)) = _
  refine congrArg x1 (funext fun a => Fin.ext ?_)
  match a with
  | ⟨0, _⟩ => rfl
  | ⟨1, _⟩ => show 0 + 1 * q.val = q.val; omega

/-- Row 1 of the statistics block, loaded, at a column. -/
theorem bsrLdV1 (x1 : Vec Ideal S2x128 .f32) (q : Fin 128) : View.ld x1 rS1_1 (ix2 (0 : Fin 1) q) = x1 (ix2 (1 : Fin 2) q) := by
  show x1 (rS1_1.idx (ix2 (0 : Fin 1) q)) = _
  refine congrArg x1 (funext fun a => Fin.ext ?_)
  match a with
  | ⟨0, _⟩ => rfl
  | ⟨1, _⟩ => show 0 + 1 * q.val = q.val; omega

/-- The block the body stores, at an entry, from the input blocks. -/
theorem bsrBlk1 (x0 : Vec Ideal S5000x128 .f32) (x1 : Vec Ideal S2x128 .f32) (x2 x3 : Vec Ideal S1x128 .f32)
    (x4 : Vec Ideal S128x128 .f32) (x5 : Vec Ideal S1x128 .f32) (p : Fin 5000) (q : Fin 128) :
    blk1 x0 x1 x2 x3 x4 x5 (ix2 p q)
      = max ((∑ k : Fin 128, max (x2 (ix2 0 k) * (x0 (ix2 p k) - x1 (ix2 0 k)) * Ideal.rsqrt (x1 (ix2 1 k) + epsB) + x3 (ix2 0 k)) 0
          * x4 (ix2 k q)) + x5 (ix2 0 q)) 0 := by
  unfold blk1
  simp only [View.ld_unit_zero (S := S5000x128) bsrOrigin1, View.ld_unit_zero (S := S1x128) bsrOrigin1,
    View.ld_unit_zero (S := S128x128) bsrOrigin1]
  rw [k1_pay7_apply]
  refine congrArg (fun z => max (z + x5 (ix2 0 q)) 0) (Finset.sum_congr rfl fun k _ => ?_)
  rw [bsrLdM1, bsrLdV1]

/-- The whole output matrix as one function of the input arrays. -/
def bsrT1 (a0 : S40000x128.Idx → EReal) (a1 : S2x128.Idx → EReal) (a2 a3 : S1x128.Idx → EReal)
    (a4 : S128x128.Idx → EReal) (a5 : S1x128.Idx → EReal) : Mat :=
  relu (lin (relu (bn (toMat a0) (fun j => a1 (ix2 0 j)) (fun j => a1 (ix2 1 j)) (toRow a2) (toRow a3))) (toWt a4) (toRow a5))

theorem bsrT1_apply (a0 : S40000x128.Idx → EReal) (a1 : S2x128.Idx → EReal) (a2 a3 : S1x128.Idx → EReal)
    (a4 : S128x128.Idx → EReal) (a5 : S1x128.Idx → EReal) (r : Fin 40000) (q : Fin 128) :
    bsrT1 a0 a1 a2 a3 a4 a5 r q
      = max ((∑ k : Fin 128, max (a2 (ix2 0 k) * (a0 (ix2 r k) - a1 (ix2 0 k)) * Ideal.rsqrt (a1 (ix2 1 k) + epsB) + a3 (ix2 0 k)) 0
          * a4 (ix2 k q)) + a5 (ix2 0 q)) 0 := rfl

/-- That matrix of the arrays as the region finds them. -/
def bsrTV1 (V : EntryVal Ideal) (c : Dev nD) : Mat :=
  bsrT1 (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5))

/-- The printed index maps, decided over the grid: the row-block windows are at block (t, 0), the others at (0, 0). -/
theorem bsrIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0 :=
  (by decide +kernel : ∀ t : Fin grid1.N, _)

/-- The input blocks, read at an entry, are the arrays' entries there. -/
theorem bsrRd1_0 (V : EntryVal Ideal) (c : Dev nD) (t : Fin cfg1.N) (p : Fin 5000) (q : Fin 128) :
    iblk1 V c 0 t (ix2 p q) = V c (Pipeline.arrRef spec1 0) (ix2 (bsrRow1 t p) q) := by
  obtain ⟨e0, e1, -⟩ := bsrIdx1 t
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

theorem bsrRd1_1 (V : EntryVal Ideal) (c : Dev nD) (t : Fin cfg1.N) (p : Fin 2) (q : Fin 128) :
    iblk1 V c 1 t (ix2 p q) = V c (Pipeline.arrRef spec1 1) (ix2 p q) := by
  obtain ⟨-, -, e0, e1, -⟩ := bsrIdx1 t
  show V c (Pipeline.arrRef spec1 1) (((cfg1.win 1).blk t).view.emb (ix2 p q)) = _
  refine congrArg (V c (Pipeline.arrRef spec1 1)) (funext fun a => Fin.ext ?_)
  match a with
  | ⟨0, _⟩ => show win1_1.index t (0 : Fin 2) * 2 + 1 * p.val = p.val; rw [e0]; omega
  | ⟨1, _⟩ => show win1_1.index t (1 : Fin 2) * 128 + 1 * q.val = q.val; rw [e1]; omega

theorem bsrRd1_2 (V : EntryVal Ideal) (c : Dev nD) (t : Fin cfg1.N) (p : Fin 1) (q : Fin 128) :
    iblk1 V c 2 t (ix2 p q) = V c (Pipeline.arrRef spec1 2) (ix2 p q) := by
  obtain ⟨-, -, -, -, e0, e1, -⟩ := bsrIdx1 t
  show V c (Pipeline.arrRef spec1 2) (((cfg1.win 2).blk t).view.emb (ix2 p q)) = _
  refine congrArg (V c (Pipeline.arrRef spec1 2)) (funext fun a => Fin.ext ?_)
  match a with
  | ⟨0, _⟩ => show win1_2.index t (0 : Fin 2) * 1 + 1 * p.val = p.val; rw [e0]; omega
  | ⟨1, _⟩ => show win1_2.index t (1 : Fin 2) * 128 + 1 * q.val = q.val; rw [e1]; omega

theorem bsrRd1_3 (V : EntryVal Ideal) (c : Dev nD) (t : Fin cfg1.N) (p : Fin 1) (q : Fin 128) :
    iblk1 V c 3 t (ix2 p q) = V c (Pipeline.arrRef spec1 3) (ix2 p q) := by
  obtain ⟨-, -, -, -, -, -, e0, e1, -⟩ := bsrIdx1 t
  show V c (Pipeline.arrRef spec1 3) (((cfg1.win 3).blk t).view.emb (ix2 p q)) = _
  refine congrArg (V c (Pipeline.arrRef spec1 3)) (funext fun a => Fin.ext ?_)
  match a with
  | ⟨0, _⟩ => show win1_3.index t (0 : Fin 2) * 1 + 1 * p.val = p.val; rw [e0]; omega
  | ⟨1, _⟩ => show win1_3.index t (1 : Fin 2) * 128 + 1 * q.val = q.val; rw [e1]; omega

theorem bsrRd1_4 (V : EntryVal Ideal) (c : Dev nD) (t : Fin cfg1.N) (p : Fin 128) (q : Fin 128) :
    iblk1 V c 4 t (ix2 p q) = V c (Pipeline.arrRef spec1 4) (ix2 p q) := by
  obtain ⟨-, -, -, -, -, -, -, -, e0, e1, -⟩ := bsrIdx1 t
  show V c (Pipeline.arrRef spec1 4) (((cfg1.win 4).blk t).view.emb (ix2 p q)) = _
  refine congrArg (V c (Pipeline.arrRef spec1 4)) (funext fun a => Fin.ext ?_)
  match a with
  | ⟨0, _⟩ => show win1_4.index t (0 : Fin 2) * 128 + 1 * p.val = p.val; rw [e0]; omega
  | ⟨1, _⟩ => show win1_4.index t (1 : Fin 2) * 128 + 1 * q.val = q.val; rw [e1]; omega

theorem bsrRd1_5 (V : EntryVal Ideal) (c : Dev nD) (t : Fin cfg1.N) (p : Fin 1) (q : Fin 128) :
    iblk1 V c 5 t (ix2 p q) = V c (Pipeline.arrRef spec1 5) (ix2 p q) := by
  obtain ⟨-, -, -, -, -, -, -, -, -, -, e0, e1, -⟩ := bsrIdx1 t
  show V c (Pipeline.arrRef spec1 5) (((cfg1.win 5).blk t).view.emb (ix2 p q)) = _
  refine congrArg (V c (Pipeline.arrRef spec1 5)) (funext fun a => Fin.ext ?_)
  match a with
  | ⟨0, _⟩ => show win1_5.index t (0 : Fin 2) * 1 + 1 * p.val = p.val; rw [e0]; omega
  | ⟨1, _⟩ => show win1_5.index t (1 : Fin 2) * 128 + 1 * q.val = q.val; rw [e1]; omega

/-- The block stored at point `t` is block `t` of the whole output matrix. -/
theorem bsrTblk1 (V : EntryVal Ideal) (c : Dev nD) (t : Fin cfg1.N) (p : Fin 5000) (q : Fin 128) :
    tblk1 V c t (ix2 p q) = bsrTV1 V c (bsrRow1 t p) q := by
  unfold tblk1
  refine (bsrBlk1 (iblk1 V c 0 t) (iblk1 V c 1 t) (iblk1 V c 2 t) (iblk1 V c 3 t) (iblk1 V c 4 t) (iblk1 V c 5 t) p q).trans ?_
  unfold bsrTV1
  rw [bsrT1_apply]
  simp only [bsrRd1_0, bsrRd1_1, bsrRd1_2, bsrRd1_3, bsrRd1_4, bsrRd1_5]

/-! ## The output array -/

theorem bsrAfter1_6 (V : EntryVal Ideal) (c : Dev nD) (t : Fin cfg1.N) :
    (dat1 V c).after 6 t = View.canon [⟨rA1, tblk1 V c t⟩] := by dsimp only [dat1]
theorem bsrAfter1_7 (V : EntryVal Ideal) (c : Dev nD) (t : Fin cfg1.N) :
    (dat1 V c).after 7 t = stats1 (acc1 V c t.val t.isLt).1 (acc1 V c t.val t.isLt).2 := by dsimp only [dat1]

/-- The whole output array. -/
def bsrG1 (V : EntryVal Ideal) (c : Dev nD) : S40000x128.Idx → EReal := fun i => bsrTV1 V c (i 0) (i 1)

/-- Where an entry of point `t`'s output block sits in the array. -/
theorem bsrEmb1_6 (t : Fin cfg1.N) (p : Fin 5000) (q : Fin 128) :
    ((cfg1.win 6).blk t).view.emb (ix2 p q) = ix2 (bsrRow1 t p) q := by
  obtain ⟨-, -, -, -, -, -, -, -, -, -, -, -, e0, e1, -⟩ := bsrIdx1 t
  refine funext fun a => Fin.ext ?_
  match a with
  | ⟨0, _⟩ => show win1_6.index t (0 : Fin 2) * 5000 + 1 * p.val = 5000 * t.val + p.val; rw [e0]; omega
  | ⟨1, _⟩ => show win1_6.index t (1 : Fin 2) * 128 + 1 * q.val = q.val; rw [e1]; omega

/-- What point `t` writes back of the output is block `t` of the whole output array. -/
theorem bsrFlushed1_6 (V : EntryVal Ideal) (c : Dev nD) (t : Fin cfg1.N) :
    (dat1 V c).flushed 6 t = ((cfg1.win 6).blk t).view.read (Elt Ideal) (bsrG1 V c) := by
  show (cfg1.win 6).cut (grid1.coords t) ((dat1 V c).after 6 t) = _
  rw [bsrAfter1_6, View.canon_unit_zero bsrOrigin1]
  funext j
  obtain ⟨p, q, rfl⟩ : ∃ (p : Fin 5000) (q : Fin 128), j = ix2 p q := ⟨j 0, j 1, eq_ix2 j⟩
  show tblk1 V c t (ix2 p q) = bsrG1 V c (((cfg1.win 6).blk t).view.emb (ix2 p q))
  rw [bsrEmb1_6, bsrTblk1]
  rfl

/-- An index of the output array is in point `t`'s block iff each coordinate is in the block's range on its axis. -/
theorem bsrMem1_6 (t : Fin cfg1.N) (i : S40000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v40_0).slice (win1_6.rect t)).set ↔ _
  rw [View.set_slice_whole, Rect.mem_set_unit]
  exact Iff.rfl

/-- Every row of the output array is in the block of the point its number divided by 5000 names. -/
theorem bsrCover1_6 (i : S40000x128.Idx) : ∃ t : Fin cfg1.N, (cfg1.win 6).flush t = true ∧ i ∈ ((cfg1.win 6).blk t).view.set := by
  have hi0 : (i 0).val < 40000 := (i 0).isLt
  have hi1 : (i 1).val < 128 := (i 1).isLt
  let t : Fin cfg1.N := ⟨(i 0).val / 5000, by rw [show cfg1.N = 8 from N_1]; omega⟩
  obtain ⟨-, -, -, -, -, -, -, -, -, -, -, -, e0, e1, -⟩ := bsrIdx1 t
  have ht : t.val = (i 0).val / 5000 := rfl
  refine ⟨t, flush1_6 t, ?_⟩
  rw [bsrMem1_6]
  intro a
  match a with
  | ⟨0, _⟩ => show win1_6.index t (0 : Fin 2) * 5000 ≤ (i 0).val ∧ (i 0).val < win1_6.index t (0 : Fin 2) * 5000 + 5000; rw [e0]; omega
  | ⟨1, _⟩ => show win1_6.index t (1 : Fin 2) * 128 ≤ (i 1).val ∧ (i 1).val < win1_6.index t (1 : Fin 2) * 128 + 128; rw [e1]; omega

/-- The output array after the region. -/
theorem final1_t2 (V : EntryVal Ideal) (c : Dev nD) :
    toMat ((dat1 V c).arrAt 6 cfg1.N)
      = relu (lin (relu (bn (toMat (V c (Pipeline.arrRef spec1 0))) (fun j => V c (Pipeline.arrRef spec1 1) (ix2 0 j))
          (fun j => V c (Pipeline.arrRef spec1 1) (ix2 1 j)) (toRow (V c (Pipeline.arrRef spec1 2))) (toRow (V c (Pipeline.arrRef spec1 3)))))
          (toWt (V c (Pipeline.arrRef spec1 4))) (toRow (V c (Pipeline.arrRef spec1 5)))) := by
  rw [(dat1 V c).arrAt_eq_of_cover 6 (bsrG1 V c) (fun t _ => bsrFlushed1_6 V c t) bsrCover1_6]
  rfl

/-! ## The statistics array -/

/-- The accumulators' reset values are zero. -/
theorem bsrSum0_1 (q : Fin 128) : (sum0_1 (F := Ideal)) (ix2 0 q) = 0 := by
  unfold sum0_1; rw [View.canon_unit_zero bsrOrigin1]; exact k1_pay5_apply _
theorem bsrSq0_1 (q : Fin 128) : (sq0_1 (F := Ideal)) (ix2 0 q) = 0 := by
  unfold sq0_1; rw [View.canon_unit_zero bsrOrigin1]; exact k1_pay6_apply _

/-- One point adds its block's column sums (of squares) to the accumulator. -/
theorem bsrSumStep1 (y : FVec Ideal S5000x128 .f32) (s : Vec Ideal S1x128 .f32) (q : Fin 128) :
    sumStep1 y s (ix2 0 q) = s (ix2 0 q) + ∑ p : Fin 5000, y (ix2 p q) := by
  unfold sumStep1; rw [View.canon_unit_zero bsrOrigin1]
  simp only [View.ld_unit_zero (S := S1x128) bsrOrigin1]
  exact k1_pay1_apply _ _ _
theorem bsrSqStep1 (y : FVec Ideal S5000x128 .f32) (s : Vec Ideal S1x128 .f32) (q : Fin 128) :
    sqStep1 y s (ix2 0 q) = s (ix2 0 q) + ∑ p : Fin 5000, y (ix2 p q) * y (ix2 p q) := by
  unfold sqStep1; rw [View.canon_unit_zero bsrOrigin1]
  simp only [View.ld_unit_zero (S := S1x128) bsrOrigin1]
  exact k1_pay2_apply _ _ _

/-- Point `t`'s block's column sum, and column sum of squares, at column `q` (zero past the grid). -/
def bsrB1 (V : EntryVal Ideal) (c : Dev nD) (q : Fin 128) (t : ℕ) : EReal :=
  if h : t < cfg1.N then ∑ p : Fin 5000, tblk1 V c ⟨t, h⟩ (ix2 p q) else 0
def bsrBq1 (V : EntryVal Ideal) (c : Dev nD) (q : Fin 128) (t : ℕ) : EReal :=
  if h : t < cfg1.N then ∑ p : Fin 5000, tblk1 V c ⟨t, h⟩ (ix2 p q) * tblk1 V c ⟨t, h⟩ (ix2 p q) else 0

/-- The accumulators after point `n` hold the sums of the blocks' column sums up to it. -/
theorem bsrAcc1 (V : EntryVal Ideal) (c : Dev nD) (q : Fin 128) : ∀ (n : ℕ) (hn : n < cfg1.N),
    (acc1 V c n hn).1 (ix2 0 q) = ∑ s ∈ Finset.range (n + 1), bsrB1 V c q s
      ∧ (acc1 V c n hn).2 (ix2 0 q) = ∑ s ∈ Finset.range (n + 1), bsrBq1 V c q s
  | 0, hn => by
    rw [Finset.sum_range_one, Finset.sum_range_one]
    unfold bsrB1 bsrBq1
    rw [dif_pos hn, dif_pos hn, acc1]
    show sumStep1 _ _ (ix2 0 q) = _ ∧ sqStep1 _ _ (ix2 0 q) = _
    rw [bsrSumStep1, bsrSqStep1, bsrSum0_1, bsrSq0_1, zero_add, zero_add]
    exact ⟨rfl, rfl⟩
  | n + 1, hn => by
    obtain ⟨h1, h2⟩ := bsrAcc1 V c q n (Nat.lt_of_succ_lt hn)
    rw [Finset.sum_range_succ _ (n + 1), Finset.sum_range_succ _ (n + 1), ← h1, ← h2]
    unfold bsrB1 bsrBq1
    rw [dif_pos hn, dif_pos hn, acc1]
    show sumStep1 _ _ (ix2 0 q) = _ ∧ sqStep1 _ _ (ix2 0 q) = _
    rw [bsrSumStep1, bsrSqStep1]
    exact ⟨rfl, rfl⟩

/-- The eight blocks' column sums add up to the column sums over all rows. -/
theorem bsrTotal1 (V : EntryVal Ideal) (c : Dev nD) (q : Fin 128) :
    ∑ s ∈ Finset.range (7 + 1), bsrB1 V c q s = csum (bsrTV1 V c) q := by
  unfold csum
  refine Cert.Lib.sum_range_blocks_of_eq (nb := 8) (bs := 5000) (N := 40000) rfl (fun r => bsrTV1 V c r q) (bsrB1 V c q) ?_
  intro t ht
  have ht' : t < cfg1.N := lt_of_lt_of_eq ht N_1.symm
  unfold bsrB1
  rw [dif_pos ht']
  exact Finset.sum_congr rfl fun p _ => bsrTblk1 V c ⟨t, ht'⟩ p q

theorem bsrTotalSq1 (V : EntryVal Ideal) (c : Dev nD) (q : Fin 128) :
    ∑ s ∈ Finset.range (7 + 1), bsrBq1 V c q s = csumsq (bsrTV1 V c) q := by
  unfold csumsq
  refine Cert.Lib.sum_range_blocks_of_eq (nb := 8) (bs := 5000) (N := 40000) rfl (fun r => bsrTV1 V c r q * bsrTV1 V c r q) (bsrBq1 V c q) ?_
  intro t ht
  have ht' : t < cfg1.N := lt_of_lt_of_eq ht N_1.symm
  unfold bsrBq1
  rw [dif_pos ht']
  exact Finset.sum_congr rfl fun p _ => by rw [bsrTblk1 V c ⟨t, ht'⟩ p q]; rfl

/-- Rows 0 and 1 of the statistics block as the images of the row block under the two row rectangles. -/
theorem bsrRowEmb1_0 (q : Fin 128) : (ix2 (0 : Fin 2) q : S2x128.Idx) = rS1_0.emb (ix2 (0 : Fin 1) q) :=
  funext fun a => Fin.ext (by
    match a with
    | ⟨0, _⟩ => rfl
    | ⟨1, _⟩ => show q.val = 0 + 1 * q.val; omega)
theorem bsrRowEmb1_1 (q : Fin 128) : (ix2 (1 : Fin 2) q : S2x128.Idx) = rS1_1.emb (ix2 (0 : Fin 1) q) :=
  funext fun a => Fin.ext (by
    match a with
    | ⟨0, _⟩ => rfl
    | ⟨1, _⟩ => show q.val = 0 + 1 * q.val; omega)

/-- Row 0 is not under the store of row 1. -/
theorem bsrRowNot1 (q : Fin 128) : (ix2 (0 : Fin 2) q : S2x128.Idx) ∉ rS1_1.set := by
  rw [Rect.mem_set_unit]
  intro h
  have h0 : (1 : ℕ) ≤ 0 := (h 0).1
  omega

/-- Off the last store's rectangle, the contents are what the earlier stores left. -/
theorem bsrCanonOff1 {S : Shape} {e : EltTy} (r : Rect S) (w : r.shape.Idx → Elt Ideal e) (L : List (View.Piece (Elt Ideal) S e))
    {y : S.Idx} (h : y ∉ r.set) : View.canon (⟨r, w⟩ :: L) y = View.canon L y :=
  View.canon_cons_of_not_mem ⟨r, w⟩ L h

/-- The statistics block the last point stores, row by row, from the accumulators. -/
theorem bsrStats1_0 (s sq : Vec Ideal S1x128 .f32) (q : Fin 128) : stats1 s sq (ix2 (0 : Fin 2) q) = s (ix2 0 q) * invN := by
  unfold stats1
  rw [bsrCanonOff1 _ _ _ (bsrRowNot1 q), bsrRowEmb1_0, View.canon_cons_emb]
  simp only [View.ld_unit_zero (S := S1x128) bsrOrigin1]
  exact k1_pay3_apply _ _

theorem bsrStats1_1 (s sq : Vec Ideal S1x128 .f32) (q : Fin 128) :
    stats1 s sq (ix2 (1 : Fin 2) q) = max (sq (ix2 0 q) * invN - (s (ix2 0 q) * invN) * (s (ix2 0 q) * invN)) 0 := by
  unfold stats1
  rw [bsrRowEmb1_1, View.canon_cons_emb]
  simp only [View.ld_unit_zero (S := S1x128) bsrOrigin1]
  exact k1_pay4_apply _ _ _

/-- The whole statistics array: row 0 the column means, row 1 the clamped column variances of the output matrix. -/
def bsrS1 (V : EntryVal Ideal) (c : Dev nD) : S2x128.Idx → EReal :=
  fun i => if (i 0).val = 0 then meanK (bsrTV1 V c) (i 1) else varK (bsrTV1 V c) (i 1)

/-- What the last point leaves in the statistics window's buffer is the whole statistics array. -/
theorem bsrStatsAt1 (V : EntryVal Ideal) (c : Dev nD) (t : Fin cfg1.N) (h7 : t.val = 7) (p : Fin 2) (q : Fin 128) :
    stats1 (acc1 V c t.val t.isLt).1 (acc1 V c t.val t.isLt).2 (ix2 p q) = bsrS1 V c (ix2 p q) := by
  have h1 : (acc1 V c t.val t.isLt).1 (ix2 0 q) = csum (bsrTV1 V c) q := by
    rw [(bsrAcc1 V c q t.val t.isLt).1, h7]; exact bsrTotal1 V c q
  have h2 : (acc1 V c t.val t.isLt).2 (ix2 0 q) = csumsq (bsrTV1 V c) q := by
    rw [(bsrAcc1 V c q t.val t.isLt).2, h7]; exact bsrTotalSq1 V c q
  rcases p with ⟨_ | _ | p, hp⟩
  · refine (bsrStats1_0 _ _ q).trans ?_
    rw [h1]; rfl
  · refine (bsrStats1_1 _ _ q).trans ?_
    rw [h1, h2]; rfl
  · omega

theorem bsrEmb1_7 (t : Fin cfg1.N) (p : Fin 2) (q : Fin 128) :
    ((cfg1.win 7).blk t).view.emb (ix2 p q) = ix2 p q := by
  obtain ⟨-, -, -, -, -, -, -, -, -, -, -, -, -, -, e0, e1⟩ := bsrIdx1 t
  refine funext fun a => Fin.ext ?_
  match a with
  | ⟨0, _⟩ => show win1_7.index t (0 : Fin 2) * 2 + 1 * p.val = p.val; rw [e0]; omega
  | ⟨1, _⟩ => show win1_7.index t (1 : Fin 2) * 128 + 1 * q.val = q.val; rw [e1]; omega

/-- What the one flushing point writes back of the statistics is the whole statistics array. -/
theorem bsrFlushed1_7 (V : EntryVal Ideal) (c : Dev nD) (t : Fin cfg1.N) (hf : (cfg1.win 7).flush t = true) :
    (dat1 V c).flushed 7 t = ((cfg1.win 7).blk t).view.read (Elt Ideal) (bsrS1 V c) := by
  have h7 : t.val = 7 := by have h := (flush1_7 t).mp hf; have := bsrPt1 t; omega
  show (cfg1.win 7).cut (grid1.coords t) ((dat1 V c).after 7 t) = _
  rw [bsrAfter1_7]
  funext j
  obtain ⟨p, q, rfl⟩ : ∃ (p : Fin 2) (q : Fin 128), j = ix2 p q := ⟨j 0, j 1, eq_ix2 j⟩
  show stats1 (acc1 V c t.val t.isLt).1 (acc1 V c t.val t.isLt).2 (ix2 p q) = bsrS1 V c (((cfg1.win 7).blk t).view.emb (ix2 p q))
  rw [bsrEmb1_7]
  exact bsrStatsAt1 V c t h7 p q

theorem bsrMem1_7 (t : Fin cfg1.N) (i : S2x128.Idx) :
    i ∈ ((cfg1.win 7).blk t).view.set ↔ ∀ a : Fin 2, win1_7.index t a * S2x128.size a ≤ (i a).val ∧ (i a).val < win1_7.index t a * S2x128.size a + S2x128.size a := by
  show i ∈ ((View.whole main_v40_1).slice (win1_7.rect t)).set ↔ _
  rw [View.set_slice_whole, Rect.mem_set_unit]
  exact Iff.rfl

/-- The last point's block is the whole statistics array. -/
theorem bsrCover1_7 (i : S2x128.Idx) : ∃ t : Fin cfg1.N, (cfg1.win 7).flush t = true ∧ i ∈ ((cfg1.win 7).blk t).view.set := by
  have hi0 : (i 0).val < 2 := (i 0).isLt
  have hi1 : (i 1).val < 128 := (i 1).isLt
  let t : Fin cfg1.N := ⟨7, by rw [show cfg1.N = 8 from N_1]; omega⟩
  obtain ⟨-, -, -, -, -, -, -, -, -, -, -, -, -, -, e0, e1⟩ := bsrIdx1 t
  refine ⟨t, (flush1_7 t).mpr rfl, ?_⟩
  rw [bsrMem1_7]
  intro a
  match a with
  | ⟨0, _⟩ => show win1_7.index t (0 : Fin 2) * 2 ≤ (i 0).val ∧ (i 0).val < win1_7.index t (0 : Fin 2) * 2 + 2; rw [e0]; omega
  | ⟨1, _⟩ => show win1_7.index t (1 : Fin 2) * 128 ≤ (i 1).val ∧ (i 1).val < win1_7.index t (1 : Fin 2) * 128 + 128; rw [e1]; omega

/-- The statistics array after the region: the column means and clamped column variances of the output matrix. -/
theorem final1_stats (V : EntryVal Ideal) (c : Dev nD) (j : Fin 128) :
    (dat1 V c).arrAt 7 cfg1.N (ix2 0 j)
        = meanK (relu (lin (relu (bn (toMat (V c (Pipeline.arrRef spec1 0))) (fun j => V c (Pipeline.arrRef spec1 1) (ix2 0 j))
          (fun j => V c (Pipeline.arrRef spec1 1) (ix2 1 j)) (toRow (V c (Pipeline.arrRef spec1 2))) (toRow (V c (Pipeline.arrRef spec1 3)))))
          (toWt (V c (Pipeline.arrRef spec1 4))) (toRow (V c (Pipeline.arrRef spec1 5))))) j
      ∧ (dat1 V c).arrAt 7 cfg1.N (ix2 1 j)
        = varK (relu (lin (relu (bn (toMat (V c (Pipeline.arrRef spec1 0))) (fun j => V c (Pipeline.arrRef spec1 1) (ix2 0 j))
          (fun j => V c (Pipeline.arrRef spec1 1) (ix2 1 j)) (toRow (V c (Pipeline.arrRef spec1 2))) (toRow (V c (Pipeline.arrRef spec1 3)))))
          (toWt (V c (Pipeline.arrRef spec1 4))) (toRow (V c (Pipeline.arrRef spec1 5))))) j := by
  rw [(dat1 V c).arrAt_eq_of_cover 7 (bsrS1 V c) (fun t hf => bsrFlushed1_7 V c t hf) bsrCover1_7]
  exact ⟨rfl, rfl⟩

end Cert.KernelIdeal.Hand

end
-- ==== Proof.KI.Pay2.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec

noncomputable section

open Idealize.ShloMosaic Idealize.ShloMosaic.ValueIdx Cert.KernelIdeal Cert.KernelIdeal.Gen Cert.Spec

namespace Cert.KernelIdeal.Hand

/-- The final normalisation and rectifier at an entry: max(g · (t − μ) · (σ² + ε)^(-1/2) + β, 0). -/
theorem k2_pay1_apply (mu var g : Vec Ideal S1x128 .f32) (tb : Vec Ideal S5000x128 .f32) (bt : Vec Ideal S1x128 .f32)
    (p : Fin 5000) (q : Fin 128) :
    k2_pay1 mu var g tb bt (ix2 p q)
      = max (g (ix2 0 q) * (tb (ix2 p q) - mu (ix2 0 q)) * Ideal.rsqrt (var (ix2 0 q) + epsB) + bt (ix2 0 q)) 0 := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg (max _) Ideal.ofBits_zero_f32

end Cert.KernelIdeal.Hand

end
-- ==== Proof.KI.Val2.lean ====
import proofs.«110361_j29403346109051_2_alg».proof.Proof.KI.Reg2
import proofs.«110361_j29403346109051_2_alg».proof.Proof.Spec
import proofs.«110361_j29403346109051_2_alg».proof.Proof.KI.Pay2
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 2's value: the output array is the rectified batch normalisation of the input array, entry by entry -/

/-- A whole-block access starts at the origin. -/
theorem bnfOrigin2 : (![0, 0] : Fin 2 → Nat) = fun _ => 0 := funext fun a => by fin_cases a <;> rfl

/-- The grid has eight points. -/
theorem bnfPt2 (t : Fin cfg2.N) : t.val < 8 := lt_of_lt_of_eq t.isLt N_2

/-- The array row that row `p` of point `t`'s block is. -/
def bnfRow2 (t : Fin cfg2.N) (p : Fin 5000) : Fin 40000 := ⟨t.val * 5000 + p.val, by have := bnfPt2 t; have := p.isLt; omega⟩

/-- Row 0 of the statistics block, loaded, at a column. -/
theorem bnfLdM2 (x1 : Vec Ideal S2x128 .f32) (q : Fin 128) : View.ld x1 r2_m (ix2 (0 : Fin 1) q) = x1 (ix2 (0 : Fin 2) q) := by
  show x1 (r2_m.idx (ix2 (0 : Fin 1) q)) = _
  refine congrArg x1 (funext fun a => Fin.ext ?_)
  match a with
  | ⟨0, _⟩ => rfl
  | ⟨1, _⟩ => show 0 + 1 * q.val = q.val; omega

/-- Row 1 of the statistics block, loaded, at a column. -/
theorem bnfLdV2 (x1 : Vec Ideal S2x128 .f32) (q : Fin 128) : View.ld x1 r2_v (ix2 (0 : Fin 1) q) = x1 (ix2 (1 : Fin 2) q) := by
  show x1 (r2_v.idx (ix2 (0 : Fin 1) q)) = _
  refine congrArg x1 (funext fun a => Fin.ext ?_)
  match a with
  | ⟨0, _⟩ => rfl
  | ⟨1, _⟩ => show 0 + 1 * q.val = q.val; omega

/-- What the body leaves in the output's buffer, at an entry, from the input blocks. -/
theorem bnfOut2 (x0 : Vec Ideal S5000x128 .f32) (x1 : Vec Ideal S2x128 .f32) (x2 x3 : Vec Ideal S1x128 .f32) (p : Fin 5000) (q : Fin 128) :
    out2_4 x0 x1 x2 x3 (ix2 p q)
      = max (x2 (ix2 0 q) * (x0 (ix2 p q) - x1 (ix2 0 q)) * Ideal.rsqrt (x1 (ix2 1 q) + epsB) + x3 (ix2 0 q)) 0 := by
  unfold out2_4
  rw [View.canon_unit_zero bnfOrigin2]
  simp only [View.ld_unit_zero (S := S5000x128) bnfOrigin2, View.ld_unit_zero (S := S1x128) bnfOrigin2]
  rw [k2_pay1_apply, bnfLdM2, bnfLdV2]

/-- The whole output array as one function of the input arrays. -/
def bnfG2 (a0 : S40000x128.Idx → EReal) (a1 : S2x128.Idx → EReal) (a2 a3 : S1x128.Idx → EReal) : S40000x128.Idx → EReal :=
  fun i => relu (bn (toMat a0) (fun j => a1 (ix2 0 j)) (fun j => a1 (ix2 1 j)) (toRow a2) (toRow a3)) (i 0) (i 1)

theorem bnfG2_apply (a0 : S40000x128.Idx → EReal) (a1 : S2x128.Idx → EReal) (a2 a3 : S1x128.Idx → EReal) (r : Fin 40000) (q : Fin 128) :
    bnfG2 a0 a1 a2 a3 (ix2 r q)
      = max (a2 (ix2 0 q) * (a0 (ix2 r q) - a1 (ix2 0 q)) * Ideal.rsqrt (a1 (ix2 1 q) + epsB) + a3 (ix2 0 q)) 0 := rfl

/-- The printed index maps, decided over the grid: the row-block windows are at block (t, 0), the row windows at (0, 0). -/
theorem bnfIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The input blocks, read at an entry, are the arrays' entries there. -/
theorem bnfBlk2_0 (V : EntryVal Ideal) (c : Dev nD) (t : Fin cfg2.N) (p : Fin 5000) (q : Fin 128) :
    iblk2 V c 0 t (ix2 p q) = V c (Pipeline.arrRef spec2 0) (ix2 (bnfRow2 t p) q) := by
  obtain ⟨e0, e1, -⟩ := bnfIdx2 t
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

theorem bnfBlk2_1 (V : EntryVal Ideal) (c : Dev nD) (t : Fin cfg2.N) (p : Fin 2) (q : Fin 128) :
    iblk2 V c 1 t (ix2 p q) = V c (Pipeline.arrRef spec2 1) (ix2 p q) := by
  obtain ⟨-, -, e0, e1, -⟩ := bnfIdx2 t
  show V c (Pipeline.arrRef spec2 1) (((cfg2.win 1).blk t).view.emb (ix2 p q)) = _
  refine congrArg (V c (Pipeline.arrRef spec2 1)) (funext fun a => Fin.ext ?_)
  match a with
  | ⟨0, _⟩ => show win2_1.index t (0 : Fin 2) * 2 + 1 * p.val = p.val; rw [e0]; omega
  | ⟨1, _⟩ => show win2_1.index t (1 : Fin 2) * 128 + 1 * q.val = q.val; rw [e1]; omega

theorem bnfBlk2_2 (V : EntryVal Ideal) (c : Dev nD) (t : Fin cfg2.N) (p : Fin 1) (q : Fin 128) :
    iblk2 V c 2 t (ix2 p q) = V c (Pipeline.arrRef spec2 2) (ix2 p q) := by
  obtain ⟨-, -, -, -, e0, e1, -⟩ := bnfIdx2 t
  show V c (Pipeline.arrRef spec2 2) (((cfg2.win 2).blk t).view.emb (ix2 p q)) = _
  refine congrArg (V c (Pipeline.arrRef spec2 2)) (funext fun a => Fin.ext ?_)
  match a with
  | ⟨0, _⟩ => show win2_2.index t (0 : Fin 2) * 1 + 1 * p.val = p.val; rw [e0]; omega
  | ⟨1, _⟩ => show win2_2.index t (1 : Fin 2) * 128 + 1 * q.val = q.val; rw [e1]; omega

theorem bnfBlk2_3 (V : EntryVal Ideal) (c : Dev nD) (t : Fin cfg2.N) (p : Fin 1) (q : Fin 128) :
    iblk2 V c 3 t (ix2 p q) = V c (Pipeline.arrRef spec2 3) (ix2 p q) := by
  obtain ⟨-, -, -, -, -, -, e0, e1, -⟩ := bnfIdx2 t
  show V c (Pipeline.arrRef spec2 3) (((cfg2.win 3).blk t).view.emb (ix2 p q)) = _
  refine congrArg (V c (Pipeline.arrRef spec2 3)) (funext fun a => Fin.ext ?_)
  match a with
  | ⟨0, _⟩ => show win2_3.index t (0 : Fin 2) * 1 + 1 * p.val = p.val; rw [e0]; omega
  | ⟨1, _⟩ => show win2_3.index t (1 : Fin 2) * 128 + 1 * q.val = q.val; rw [e1]; omega

/-- Where an entry of point `t`'s output block sits in the array. -/
theorem bnfEmb2 (t : Fin cfg2.N) (p : Fin 5000) (q : Fin 128) :
    ((cfg2.win 4).blk t).view.emb (ix2 p q) = ix2 (bnfRow2 t p) q := by
  obtain ⟨-, -, -, -, -, -, -, -, e0, e1⟩ := bnfIdx2 t
  refine funext fun a => Fin.ext ?_
  match a with
  | ⟨0, _⟩ => show win2_4.index t (0 : Fin 2) * 5000 + 1 * p.val = t.val * 5000 + p.val; rw [e0]; omega
  | ⟨1, _⟩ => show win2_4.index t (1 : Fin 2) * 128 + 1 * q.val = q.val; rw [e1]; omega

/-- What point `t` writes back is block `t` of the whole-array function of the arrays as the region finds them. -/
theorem bnfFlushed2 (V : EntryVal Ideal) (c : Dev nD) (t : Fin cfg2.N) :
    (dat2 V c).flushed 4 t = ((cfg2.win 4).blk t).view.read (Elt Ideal)
      (bnfG2 (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  funext j
  obtain ⟨p, q, rfl⟩ : ∃ (p : Fin 5000) (q : Fin 128), j = ix2 p q := ⟨j 0, j 1, eq_ix2 j⟩
  show out2_4 (iblk2 V c 0 t) (iblk2 V c 1 t) (iblk2 V c 2 t) (iblk2 V c 3 t) (ix2 p q)
    = bnfG2 (V c (Pipeline.arrRef spec2 0)) (V c (Pipeline.arrRef spec2 1)) (V c (Pipeline.arrRef spec2 2)) (V c (Pipeline.arrRef spec2 3))
        (((cfg2.win 4).blk t).view.emb (ix2 p q))
  refine (bnfOut2 (iblk2 V c 0 t) (iblk2 V c 1 t) (iblk2 V c 2 t) (iblk2 V c 3 t) p q).trans ?_
  rw [bnfEmb2, bnfG2_apply, bnfBlk2_0, bnfBlk2_1, bnfBlk2_1, bnfBlk2_2, bnfBlk2_3]

/-- An index of the array is in point `t`'s block iff each coordinate is in the block's range on its axis. -/
theorem bnfMem2 (t : Fin cfg2.N) (i : S40000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v41).slice (win2_4.rect t)).set ↔ _
  rw [View.set_slice_whole, Rect.mem_set_unit]
  exact Iff.rfl

/-- Every row of the array is in the block of the point its number divided by 5000 names. -/
theorem bnfCover2 (i : S40000x128.Idx) : ∃ t : Fin cfg2.N, (cfg2.win 4).flush t = true ∧ i ∈ ((cfg2.win 4).blk t).view.set := by
  have hi0 : (i 0).val < 40000 := (i 0).isLt
  have hi1 : (i 1).val < 128 := (i 1).isLt
  let t : Fin cfg2.N := ⟨(i 0).val / 5000, by rw [show cfg2.N = 8 from N_2]; omega⟩
  obtain ⟨-, -, -, -, -, -, -, -, e0, e1⟩ := bnfIdx2 t
  have ht : t.val = (i 0).val / 5000 := rfl
  refine ⟨t, flush2_4 t, ?_⟩
  rw [bnfMem2]
  intro a
  match a with
  | ⟨0, _⟩ => show win2_4.index t (0 : Fin 2) * 5000 ≤ (i 0).val ∧ (i 0).val < win2_4.index t (0 : Fin 2) * 5000 + 5000; rw [e0]; omega
  | ⟨1, _⟩ => show win2_4.index t (1 : Fin 2) * 128 ≤ (i 1).val ∧ (i 1).val < win2_4.index t (1 : Fin 2) * 128 + 128; rw [e1]; omega

/-- The output array after the region: the rectified batch normalisation of the input array with the statistics rows,
    the scale and the shift as the region finds them. -/
theorem final2 (V : EntryVal Ideal) (c : Dev nD) :
    toMat ((dat2 V c).arrAt 4 cfg2.N)
      = relu (bn (toMat (V c (Pipeline.arrRef spec2 0))) (fun j => V c (Pipeline.arrRef spec2 1) (ix2 0 j)) (fun j => V c (Pipeline.arrRef spec2 1) (ix2 1 j))
          (toRow (V c (Pipeline.arrRef spec2 2))) (toRow (V c (Pipeline.arrRef spec2 3)))) := by
  rw [(dat2 V c).arrAt_eq_of_cover 4
    (bnfG2 (V c (Pipeline.arrRef spec2 0)) (V c (Pipeline.arrRef spec2 1)) (V c (Pipeline.arrRef spec2 2)) (V c (Pipeline.arrRef spec2 3)))
    (fun t _ => bnfFlushed2 V c t) bnfCover2]
  rfl

end Cert.KernelIdeal.Hand

end
-- ==== Proof.KI.Pay3.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec
import proofs.«110361_j29403346109051_2_alg».proof.Proof.KI.Pay0

noncomputable section

open Idealize.ShloMosaic Idealize.ShloMosaic.ValueIdx Cert.KernelIdeal Cert.KernelIdeal.Gen Cert.Spec

namespace Cert.KernelIdeal.Hand

/-- The first linear map at an entry: (c · h + agg) · W + b. -/
theorem k3_pay6_apply (coef : Vec Ideal S1x1 .f32) (hb ab : Vec Ideal S5000x128 .f32) (w : Vec Ideal S128x128 .f32)
    (b : Vec Ideal S1x128 .f32) (p : Fin 5000) (q : Fin 128) :
    k3_pay6 coef hb ab w b (ix2 p q)
      = (∑ k : Fin 128, (coef (ix2 0 0) * hb (ix2 p k) + ab (ix2 p k)) * w (ix2 k q)) + b (ix2 0 q) := by
  unfold k3_pay6
  simp only [shapeCast_self]
  rw [addf_apply, broadcastTo_1b_ab_apply]
  refine congrArg (· + b (ix2 0 q)) ?_
  refine (matmul_zero_apply _ _ p q).trans ?_
  refine Finset.sum_congr rfl fun k _ => ?_
  rw [addf_apply, mulf_apply, broadcastTo_11_ab_apply]

/-- The running column sums after a block: what was there plus the block's column sums. -/
theorem k3_pay7_apply (coef : Vec Ideal S1x1 .f32) (hb ab : Vec Ideal S5000x128 .f32) (w : Vec Ideal S128x128 .f32)
    (b : Vec Ideal S1x128 .f32) (acc : Vec Ideal S1x128 .f32) (q : Fin 128) :
    k3_pay7 coef hb ab w b acc (ix2 0 q) = acc (ix2 0 q) + ∑ p : Fin 5000, k3_pay6 coef hb ab w b (ix2 p q) := by
  unfold k3_pay7
  simp only [shapeCast_self]
  rw [addf_apply]
  exact congrArg (acc (ix2 0 q) + ·) (colsum_apply _ _ _ q)

/-- The running column sums of squares after a block. -/
theorem k3_pay8_apply (coef : Vec Ideal S1x1 .f32) (hb ab : Vec Ideal S5000x128 .f32) (w : Vec Ideal S128x128 .f32)
    (b : Vec Ideal S1x128 .f32) (acc : Vec Ideal S1x128 .f32) (q : Fin 128) :
    k3_pay8 coef hb ab w b acc (ix2 0 q)
      = acc (ix2 0 q) + ∑ p : Fin 5000, k3_pay6 coef hb ab w b (ix2 p q) * k3_pay6 coef hb ab w b (ix2 p q) := by
  unfold k3_pay8
  simp only [addf_apply]
  refine congrArg (acc (ix2 0 q) + ·) ((colsum_apply _ _ _ q).trans ?_)
  exact Finset.sum_congr rfl fun p _ => mulf_apply _ _ _

theorem k3_pay1_apply (v : FVec Ideal S1x128 .f32) (i : S1x128.Idx) : k3_pay1 v i = v i := by
  simp only [k3_pay1, shapeCast_self]

theorem k3_pay4_apply (i : S1x128.Idx) : (k3_pay4 (F := Ideal)) i = 0 := by
  simp only [k3_pay4, shapeCast_self, broadcast_apply]
  exact Ideal.ofBits_zero_f32

theorem k3_pay5_apply (i : S1x128.Idx) : (k3_pay5 (F := Ideal)) i = 0 := by
  simp only [k3_pay5, shapeCast_self, broadcast_apply]
  exact Ideal.ofBits_zero_f32

/-- The column mean: the column sum times 1/40000. -/
theorem k3_pay2_apply (s : Vec Ideal S1x128 .f32) (q : Fin 128) : k3_pay2 s (ix2 0 q) = s (ix2 0 q) * invN := by
  simp only [k3_pay2, mulf_apply, broadcast_apply]
  exact congrArg (s (ix2 0 q) * ·) inv_n

/-- The column variance: mean of squares minus square of mean, clamped at 0. -/
theorem k3_pay3_apply (s sq : Vec Ideal S1x128 .f32) (q : Fin 128) :
    k3_pay3 s sq (ix2 0 q) = max (sq (ix2 0 q) * invN - (s (ix2 0 q) * invN) * (s (ix2 0 q) * invN)) 0 := by
  simp only [k3_pay3, maximumf_apply, subf_apply, mulf_apply, broadcast_apply, k3_pay2_apply, inv_n]
  exact congrArg (max _) Ideal.ofBits_zero_f32

end Cert.KernelIdeal.Hand

end
-- ==== Proof.KI.Val3.lean ====
import proofs.«110361_j29403346109051_2_alg».proof.Proof.KI.Reg3
import proofs.«110361_j29403346109051_2_alg».proof.Proof.Spec
import proofs.«110361_j29403346109051_2_alg».proof.Proof.LibBlockSum
import proofs.«110361_j29403346109051_2_alg».proof.Proof.KI.Pay3
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 3's values: the output array is the first linear map of the combined features; the statistics array
holds its column means and clamped column variances -/

/-- The grid has eight points. -/
theorem lsPt3 (t : Fin cfg3.N) : t.val < 8 := lt_of_lt_of_eq t.isLt N_3

/-- The array row that row `p` of point `t`'s block is. -/
def lsRow3 (t : Fin cfg3.N) (p : Fin 5000) : Fin 40000 := ⟨5000 * t.val + p.val, by have := lsPt3 t; have := p.isLt; omega⟩

/-- The whole output matrix as one function of the input arrays. -/
def lsY3 (a0 a1 : S40000x128.Idx → EReal) (a2 : S1x1.Idx → EReal) (a3 : S128x128.Idx → EReal) (a4 : S1x128.Idx → EReal) : Mat :=
  lin (comb (a2 (ix2 0 0)) (toMat a0) (toMat a1)) (toWt a3) (toRow a4)

theorem lsY3_apply (a0 a1 : S40000x128.Idx → EReal) (a2 : S1x1.Idx → EReal) (a3 : S128x128.Idx → EReal) (a4 : S1x128.Idx → EReal)
    (r : Fin 40000) (q : Fin 128) :
    lsY3 a0 a1 a2 a3 a4 r q = (∑ k : Fin 128, (a2 (ix2 0 0) * a0 (ix2 r k) + a1 (ix2 r k)) * a3 (ix2 k q)) + a4 (ix2 0 q) := rfl

/-- That matrix of the arrays as the region finds them. -/
def lsYV3 (V : EntryVal Ideal) (c : Dev nD) : Mat :=
  lsY3 (V c (Pipeline.arrRef spec3 0)) (V c (Pipeline.arrRef spec3 1)) (V c (Pipeline.arrRef spec3 2)) (V c (Pipeline.arrRef spec3 3))
    (V c (Pipeline.arrRef spec3 4))

/-- The printed index maps, decided over the grid: the row-block windows are at block (t, 0), the others at (0, 0). -/
theorem lsIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0 :=
  (by decide +kernel : ∀ t : Fin grid3.N, _)

/-- The input blocks, read at an entry, are the arrays' entries there. -/
theorem lsRd3_0 (V : EntryVal Ideal) (c : Dev nD) (t : Fin cfg3.N) (p : Fin 5000) (q : Fin 128) :
    xb3_0 V c t (ix2 p q) = V c (Pipeline.arrRef spec3 0) (ix2 (lsRow3 t p) q) := by
  obtain ⟨e0, e1, -⟩ := lsIdx3 t
  show V c (Pipeline.arrRef spec3 0) (((cfg3.win 0).blk t).view.emb (ix2 p q)) = _
  refine congrArg (V c (Pipeline.arrRef spec3 0)) (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 128 + 1 * q.val = q.val; rw [e1]; omega

theorem lsRd3_1 (V : EntryVal Ideal) (c : Dev nD) (t : Fin cfg3.N) (p : Fin 5000) (q : Fin 128) :
    xb3_1 V c t (ix2 p q) = V c (Pipeline.arrRef spec3 1) (ix2 (lsRow3 t p) q) := by
  obtain ⟨-, -, e0, e1, -⟩ := lsIdx3 t
  show V c (Pipeline.arrRef spec3 1) (((cfg3.win 1).blk t).view.emb (ix2 p q)) = _
  refine congrArg (V c (Pipeline.arrRef spec3 1)) (funext fun a => Fin.ext ?_)
  match a with
  | ⟨0, _⟩ => show win3_1.index t (0 : Fin 2) * 5000 + 1 * p.val = 5000 * t.val + p.val; rw [e0]; omega
  | ⟨1, _⟩ => show win3_1.index t (1 : Fin 2) * 128 + 1 * q.val = q.val; rw [e1]; omega

theorem lsRd3_2 (V : EntryVal Ideal) (c : Dev nD) (t : Fin cfg3.N) (p : Fin 1) (q : Fin 1) :
    xb3_2 V c t (ix2 p q) = V c (Pipeline.arrRef spec3 2) (ix2 p q) := by
  obtain ⟨-, -, -, -, e0, e1, -⟩ := lsIdx3 t
  show V c (Pipeline.arrRef spec3 2) (((cfg3.win 2).blk t).view.emb (ix2 p q)) = _
  refine congrArg (V c (Pipeline.arrRef spec3 2)) (funext fun a => Fin.ext ?_)
  match a with
  | ⟨0, _⟩ => show win3_2.index t (0 : Fin 2) * 1 + 1 * p.val = p.val; rw [e0]; omega
  | ⟨1, _⟩ => show win3_2.index t (1 : Fin 2) * 1 + 1 * q.val = q.val; rw [e1]; omega

theorem lsRd3_3 (V : EntryVal Ideal) (c : Dev nD) (t : Fin cfg3.N) (p : Fin 128) (q : Fin 128) :
    xb3_3 V c t (ix2 p q) = V c (Pipeline.arrRef spec3 3) (ix2 p q) := by
  obtain ⟨-, -, -, -, -, -, e0, e1, -⟩ := lsIdx3 t
  show V c (Pipeline.arrRef spec3 3) (((cfg3.win 3).blk t).view.emb (ix2 p q)) = _
  refine congrArg (V c (Pipeline.arrRef spec3 3)) (funext fun a => Fin.ext ?_)
  match a with
  | ⟨0, _⟩ => show win3_3.index t (0 : Fin 2) * 128 + 1 * p.val = p.val; rw [e0]; omega
  | ⟨1, _⟩ => show win3_3.index t (1 : Fin 2) * 128 + 1 * q.val = q.val; rw [e1]; omega

theorem lsRd3_4 (V : EntryVal Ideal) (c : Dev nD) (t : Fin cfg3.N) (p : Fin 1) (q : Fin 128) :
    xb3_4 V c t (ix2 p q) = V c (Pipeline.arrRef spec3 4) (ix2 p q) := by
  obtain ⟨-, -, -, -, -, -, -, -, e0, e1, -⟩ := lsIdx3 t
  show V c (Pipeline.arrRef spec3 4) (((cfg3.win 4).blk t).view.emb (ix2 p q)) = _
  refine congrArg (V c (Pipeline.arrRef spec3 4)) (funext fun a => Fin.ext ?_)
  match a with
  | ⟨0, _⟩ => show win3_4.index t (0 : Fin 2) * 1 + 1 * p.val = p.val; rw [e0]; omega
  | ⟨1, _⟩ => show win3_4.index t (1 : Fin 2) * 128 + 1 * q.val = q.val; rw [e1]; omega

/-- The block the body stores at point `t`, at an entry (the payload at the five input blocks). -/
def lsBlk3 (V : EntryVal Ideal) (c : Dev nD) (t : Fin cfg3.N) : FVec Ideal S5000x128 .f32 :=
  k3_pay6 (xb3_2 V c t) (xb3_0 V c t) (xb3_1 V c t) (xb3_3 V c t) (xb3_4 V c t)

/-- It is block `t` of the whole output matrix. -/
theorem lsBlk3_apply (V : EntryVal Ideal) (c : Dev nD) (t : Fin cfg3.N) (p : Fin 5000) (q : Fin 128) :
    lsBlk3 V c t (ix2 p q) = lsYV3 V c (lsRow3 t p) q := by
  unfold lsBlk3
  rw [k3_pay6_apply]
  unfold lsYV3
  rw [lsY3_apply]
  simp only [lsRd3_0, lsRd3_1, lsRd3_2, lsRd3_3, lsRd3_4]

/-! ## The output array -/

/-- The whole output array. -/
def lsG3 (V : EntryVal Ideal) (c : Dev nD) : S40000x128.Idx → EReal := fun i => lsYV3 V c (i 0) (i 1)

/-- Where an entry of point `t`'s output block sits in the array. -/
theorem lsEmb3_5 (t : Fin cfg3.N) (p : Fin 5000) (q : Fin 128) :
    ((cfg3.win 5).blk t).view.emb (ix2 p q) = ix2 (lsRow3 t p) q := by
  obtain ⟨-, -, -, -, -, -, -, -, -, -, e0, e1, -⟩ := lsIdx3 t
  refine funext fun a => Fin.ext ?_
  match a with
  | ⟨0, _⟩ => show win3_5.index t (0 : Fin 2) * 5000 + 1 * p.val = 5000 * t.val + p.val; rw [e0]; omega
  | ⟨1, _⟩ => show win3_5.index t (1 : Fin 2) * 128 + 1 * q.val = q.val; rw [e1]; omega

set_option maxHeartbeats 1000000 in
/-- What point `t` writes back of the output is block `t` of the whole output array. -/
theorem lsFlushed3_5 (V : EntryVal Ideal) (c : Dev nD) (t : Fin cfg3.N) :
    (dat3 V c).flushed 5 t = ((cfg3.win 5).blk t).view.read (Elt Ideal) (lsG3 V c) := by
  show (cfg3.win 5).cut (grid3.coords t) ((dat3 V c).after 5 t) = _
  rw [after3_5, yOut3_eq]
  funext j
  obtain ⟨p, q, rfl⟩ : ∃ (p : Fin 5000) (q : Fin 128), j = ix2 p q := ⟨j 0, j 1, eq_ix2 j⟩
  show lsBlk3 V c t (ix2 p q) = lsG3 V c (((cfg3.win 5).blk t).view.emb (ix2 p q))
  rw [lsEmb3_5, lsBlk3_apply]
  rfl

/-- An index of the output array is in point `t`'s block iff each coordinate is in the block's range on its axis. -/
theorem lsMem3_5 (t : Fin cfg3.N) (i : S40000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v79_0).slice (win3_5.rect t)).set ↔ _
  rw [View.set_slice_whole, Rect.mem_set_unit]
  exact Iff.rfl

/-- Every row of the output array is in the block of the point its number divided by 5000 names. -/
theorem lsCover3_5 (i : S40000x128.Idx) : ∃ t : Fin cfg3.N, (cfg3.win 5).flush t = true ∧ i ∈ ((cfg3.win 5).blk t).view.set := by
  have hi0 : (i 0).val < 40000 := (i 0).isLt
  have hi1 : (i 1).val < 128 := (i 1).isLt
  let t : Fin cfg3.N := ⟨(i 0).val / 5000, by rw [show cfg3.N = 8 from N_3]; omega⟩
  obtain ⟨-, -, -, -, -, -, -, -, -, -, e0, e1, -⟩ := lsIdx3 t
  have ht : t.val = (i 0).val / 5000 := rfl
  refine ⟨t, flush3_5 t, ?_⟩
  rw [lsMem3_5]
  intro a
  match a with
  | ⟨0, _⟩ => show win3_5.index t (0 : Fin 2) * 5000 ≤ (i 0).val ∧ (i 0).val < win3_5.index t (0 : Fin 2) * 5000 + 5000; rw [e0]; omega
  | ⟨1, _⟩ => show win3_5.index t (1 : Fin 2) * 128 ≤ (i 1).val ∧ (i 1).val < win3_5.index t (1 : Fin 2) * 128 + 128; rw [e1]; omega

/-- The output array after the region. -/
theorem final3_y (V : EntryVal Ideal) (c : Dev nD) :
    toMat ((dat3 V c).arrAt 5 cfg3.N)
      = lin (comb (V c (Pipeline.arrRef spec3 2) (ix2 0 0)) (toMat (V c (Pipeline.arrRef spec3 0))) (toMat (V c (Pipeline.arrRef spec3 1))))
          (toWt (V c (Pipeline.arrRef spec3 3))) (toRow (V c (Pipeline.arrRef spec3 4))) := by
  rw [(dat3 V c).arrAt_eq_of_cover 5 (lsG3 V c) (fun t _ => lsFlushed3_5 V c t) lsCover3_5]
  rfl

/-! ## The statistics array -/

/-- Point `t`'s block's column sum, and column sum of squares, at column `q` (zero past the grid). -/
def lsB3 (V : EntryVal Ideal) (c : Dev nD) (q : Fin 128) (t : ℕ) : EReal :=
  if h : t < cfg3.N then ∑ p : Fin 5000, lsBlk3 V c ⟨t, h⟩ (ix2 p q) else 0
def lsBq3 (V : EntryVal Ideal) (c : Dev nD) (q : Fin 128) (t : ℕ) : EReal :=
  if h : t < cfg3.N then ∑ p : Fin 5000, lsBlk3 V c ⟨t, h⟩ (ix2 p q) * lsBlk3 V c ⟨t, h⟩ (ix2 p q) else 0

/-- The accumulators before point `n` hold the sums of the earlier blocks' column sums. -/
theorem lsAcc3 (V : EntryVal Ideal) (c : Dev nD) (q : Fin 128) : ∀ (n : ℕ), n ≤ cfg3.N →
    (SQ3 V c n).1 (ix2 0 q) = ∑ s ∈ Finset.range n, lsB3 V c q s
      ∧ (SQ3 V c n).2 (ix2 0 q) = ∑ s ∈ Finset.range n, lsBq3 V c q s
  | 0, _ => by
    rw [SQ3_zero, Finset.sum_range_zero, Finset.sum_range_zero]
    exact ⟨k3_pay4_apply (ix2 0 q), k3_pay5_apply (ix2 0 q)⟩
  | n + 1, hn => by
    have h : n < cfg3.N := hn
    obtain ⟨h1, h2⟩ := lsAcc3 V c q n (Nat.le_of_lt h)
    have e1 := SQ3_succ_fst V c ⟨n, h⟩
    have e2 := SQ3_succ_snd V c ⟨n, h⟩
    dsimp only at e1 e2
    rw [Finset.sum_range_succ, Finset.sum_range_succ, ← h1, ← h2, e1, e2, sOut3_eq, qOut3_eq]
    unfold lsB3 lsBq3
    rw [dif_pos h, dif_pos h]
    exact ⟨k3_pay7_apply _ _ _ _ _ _ q, (k3_pay1_apply _ _).trans (k3_pay8_apply _ _ _ _ _ _ q)⟩

/-- The eight blocks' column sums add up to the column sums over all rows. -/
theorem lsTotal3 (V : EntryVal Ideal) (c : Dev nD) (q : Fin 128) :
    ∑ s ∈ Finset.range (7 + 1), lsB3 V c q s = csum (lsYV3 V c) q := by
  unfold csum
  refine Cert.Lib.sum_range_blocks_of_eq (nb := 8) (bs := 5000) (N := 40000) rfl (fun r => lsYV3 V c r q) (lsB3 V c q) ?_
  intro t ht
  have ht' : t < cfg3.N := lt_of_lt_of_eq ht N_3.symm
  unfold lsB3
  rw [dif_pos ht']
  exact Finset.sum_congr rfl fun p _ => lsBlk3_apply V c ⟨t, ht'⟩ p q

theorem lsTotalSq3 (V : EntryVal Ideal) (c : Dev nD) (q : Fin 128) :
    ∑ s ∈ Finset.range (7 + 1), lsBq3 V c q s = csumsq (lsYV3 V c) q := by
  unfold csumsq
  refine Cert.Lib.sum_range_blocks_of_eq (nb := 8) (bs := 5000) (N := 40000) rfl (fun r => lsYV3 V c r q * lsYV3 V c r q) (lsBq3 V c q) ?_
  intro t ht
  have ht' : t < cfg3.N := lt_of_lt_of_eq ht N_3.symm
  unfold lsBq3
  rw [dif_pos ht']
  exact Finset.sum_congr rfl fun p _ => by rw [lsBlk3_apply V c ⟨t, ht'⟩ p q]; rfl

/-- Rows 0 and 1 of the statistics block as the images of the row block under the two row rectangles. -/
theorem lsRowEmb3_0 (q : Fin 128) : (ix2 (0 : Fin 2) q : S2x128.Idx) = rSt3_0.emb (ix2 (0 : Fin 1) q) :=
  funext fun a => Fin.ext (by
    match a with
    | ⟨0, _⟩ => rfl
    | ⟨1, _⟩ => show q.val = 0 + 1 * q.val; omega)
theorem lsRowEmb3_1 (q : Fin 128) : (ix2 (1 : Fin 2) q : S2x128.Idx) = rSt3_1.emb (ix2 (0 : Fin 1) q) :=
  funext fun a => Fin.ext (by
    match a with
    | ⟨0, _⟩ => rfl
    | ⟨1, _⟩ => show q.val = 0 + 1 * q.val; omega)

/-- Row 0 is not under the store of row 1. -/
theorem lsRowNot3 (q : Fin 128) : (ix2 (0 : Fin 2) q : S2x128.Idx) ∉ rSt3_1.set := by
  rw [Rect.mem_set_unit]
  intro h
  have h0 : (1 : ℕ) ≤ 0 := (h 0).1
  omega

/-- Off the last store's rectangle, the contents are what the earlier stores left. -/
theorem lsCanonOff3 {S : Shape} {e : EltTy} (r : Rect S) (w : r.shape.Idx → Elt Ideal e) (L : List (View.Piece (Elt Ideal) S e))
    {y : S.Idx} (h : y ∉ r.set) : View.canon (⟨r, w⟩ :: L) y = View.canon L y :=
  View.canon_cons_of_not_mem ⟨r, w⟩ L h

/-- The statistics block the last point stores, row by row, from the accumulators. -/
theorem lsStats3_0 (s sq : Vec Ideal S1x128 .f32) (q : Fin 128) : stOut3 s sq (ix2 (0 : Fin 2) q) = s (ix2 0 q) * invN := by
  rw [stOut3_eq, lsCanonOff3 _ _ _ (lsRowNot3 q), lsRowEmb3_0, View.canon_cons_emb]
  exact k3_pay2_apply _ _

theorem lsStats3_1 (s sq : Vec Ideal S1x128 .f32) (q : Fin 128) :
    stOut3 s sq (ix2 (1 : Fin 2) q) = max (sq (ix2 0 q) * invN - (s (ix2 0 q) * invN) * (s (ix2 0 q) * invN)) 0 := by
  rw [stOut3_eq, lsRowEmb3_1, View.canon_cons_emb]
  exact k3_pay3_apply _ _ _

/-- The whole statistics array: row 0 the column means, row 1 the clamped column variances of the output matrix. -/
def lsS3 (V : EntryVal Ideal) (c : Dev nD) : S2x128.Idx → EReal :=
  fun i => if (i 0).val = 0 then meanK (lsYV3 V c) (i 1) else varK (lsYV3 V c) (i 1)

/-- What the last point leaves in the statistics window's buffer is the whole statistics array. -/
theorem lsStatsAt3 (V : EntryVal Ideal) (c : Dev nD) (t : Fin cfg3.N) (h7 : t.val = 7) (p : Fin 2) (q : Fin 128) :
    stOut3 (SQ3 V c (t.val + 1)).1 (SQ3 V c (t.val + 1)).2 (ix2 p q) = lsS3 V c (ix2 p q) := by
  have hle : t.val + 1 ≤ cfg3.N := t.isLt
  have h1 : (SQ3 V c (t.val + 1)).1 (ix2 0 q) = csum (lsYV3 V c) q := by
    rw [(lsAcc3 V c q (t.val + 1) hle).1, h7]; exact lsTotal3 V c q
  have h2 : (SQ3 V c (t.val + 1)).2 (ix2 0 q) = csumsq (lsYV3 V c) q := by
    rw [(lsAcc3 V c q (t.val + 1) hle).2, h7]; exact lsTotalSq3 V c q
  rcases p with ⟨_ | _ | p, hp⟩
  · refine (lsStats3_0 _ _ q).trans ?_
    rw [h1]; rfl
  · refine (lsStats3_1 _ _ q).trans ?_
    rw [h1, h2]; rfl
  · omega

theorem lsEmb3_6 (t : Fin cfg3.N) (p : Fin 2) (q : Fin 128) :
    ((cfg3.win 6).blk t).view.emb (ix2 p q) = ix2 p q := by
  obtain ⟨-, -, -, -, -, -, -, -, -, -, -, -, e0, e1⟩ := lsIdx3 t
  refine funext fun a => Fin.ext ?_
  match a with
  | ⟨0, _⟩ => show win3_6.index t (0 : Fin 2) * 2 + 1 * p.val = p.val; rw [e0]; omega
  | ⟨1, _⟩ => show win3_6.index t (1 : Fin 2) * 128 + 1 * q.val = q.val; rw [e1]; omega

set_option maxHeartbeats 1000000 in
/-- What the one flushing point writes back of the statistics is the whole statistics array. -/
theorem lsFlushed3_6 (V : EntryVal Ideal) (c : Dev nD) (t : Fin cfg3.N) (hf : (cfg3.win 6).flush t = true) :
    (dat3 V c).flushed 6 t = ((cfg3.win 6).blk t).view.read (Elt Ideal) (lsS3 V c) := by
  have h7 : t.val = 7 := by have h := (flush3_6 t).mp hf; have := lsPt3 t; omega
  show (cfg3.win 6).cut (grid3.coords t) ((dat3 V c).after 6 t) = _
  rw [after3_6]
  funext j
  obtain ⟨p, q, rfl⟩ : ∃ (p : Fin 2) (q : Fin 128), j = ix2 p q := ⟨j 0, j 1, eq_ix2 j⟩
  show stOut3 (SQ3 V c (t.val + 1)).1 (SQ3 V c (t.val + 1)).2 (ix2 p q) = lsS3 V c (((cfg3.win 6).blk t).view.emb (ix2 p q))
  rw [lsEmb3_6]
  exact lsStatsAt3 V c t h7 p q

theorem lsMem3_6 (t : Fin cfg3.N) (i : S2x128.Idx) :
    i ∈ ((cfg3.win 6).blk t).view.set ↔ ∀ a : Fin 2, win3_6.index t a * S2x128.size a ≤ (i a).val ∧ (i a).val < win3_6.index t a * S2x128.size a + S2x128.size a := by
  show i ∈ ((View.whole main_v79_1).slice (win3_6.rect t)).set ↔ _
  rw [View.set_slice_whole, Rect.mem_set_unit]
  exact Iff.rfl

/-- The last point's block is the whole statistics array. -/
theorem lsCover3_6 (i : S2x128.Idx) : ∃ t : Fin cfg3.N, (cfg3.win 6).flush t = true ∧ i ∈ ((cfg3.win 6).blk t).view.set := by
  have hi0 : (i 0).val < 2 := (i 0).isLt
  have hi1 : (i 1).val < 128 := (i 1).isLt
  let t : Fin cfg3.N := ⟨7, by rw [show cfg3.N = 8 from N_3]; omega⟩
  obtain ⟨-, -, -, -, -, -, -, -, -, -, -, -, e0, e1⟩ := lsIdx3 t
  refine ⟨t, (flush3_6 t).mpr rfl, ?_⟩
  rw [lsMem3_6]
  intro a
  match a with
  | ⟨0, _⟩ => show win3_6.index t (0 : Fin 2) * 2 ≤ (i 0).val ∧ (i 0).val < win3_6.index t (0 : Fin 2) * 2 + 2; rw [e0]; omega
  | ⟨1, _⟩ => show win3_6.index t (1 : Fin 2) * 128 ≤ (i 1).val ∧ (i 1).val < win3_6.index t (1 : Fin 2) * 128 + 128; rw [e1]; omega

/-- The statistics array after the region: the column means and clamped column variances of the output matrix. -/
theorem final3_stats (V : EntryVal Ideal) (c : Dev nD) (j : Fin 128) :
    (dat3 V c).arrAt 6 cfg3.N (ix2 0 j)
        = meanK (lin (comb (V c (Pipeline.arrRef spec3 2) (ix2 0 0)) (toMat (V c (Pipeline.arrRef spec3 0))) (toMat (V c (Pipeline.arrRef spec3 1))))
          (toWt (V c (Pipeline.arrRef spec3 3))) (toRow (V c (Pipeline.arrRef spec3 4)))) j
      ∧ (dat3 V c).arrAt 6 cfg3.N (ix2 1 j)
        = varK (lin (comb (V c (Pipeline.arrRef spec3 2) (ix2 0 0)) (toMat (V c (Pipeline.arrRef spec3 0))) (toMat (V c (Pipeline.arrRef spec3 1))))
          (toWt (V c (Pipeline.arrRef spec3 3))) (toRow (V c (Pipeline.arrRef spec3 4)))) j := by
  rw [(dat3 V c).arrAt_eq_of_cover 6 (lsS3 V c) (fun t hf => lsFlushed3_6 V c t hf) lsCover3_6]
  exact ⟨rfl, rfl⟩

end Cert.KernelIdeal.Hand

end
-- ==== Proof.KI.Pay4.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec
import proofs.«110361_j29403346109051_2_alg».proof.Proof.KI.Pay0

noncomputable section

open Idealize.ShloMosaic Idealize.ShloMosaic.ValueIdx Cert.KernelIdeal Cert.KernelIdeal.Gen Cert.Spec

namespace Cert.KernelIdeal.Hand

/-- The second linear map with its rectifiers at an entry: max(max(bn(y), 0) · W + b, 0). -/
theorem k4_pay7_apply (mu var g : Vec Ideal S1x128 .f32) (yb : Vec Ideal S5000x128 .f32) (bt : Vec Ideal S1x128 .f32)
    (w : Vec Ideal S128x128 .f32) (b : Vec Ideal S1x128 .f32) (p : Fin 5000) (q : Fin 128) :
    k4_pay7 mu var g yb bt w b (ix2 p q)
      = max ((∑ k : Fin 128, max (g (ix2 0 k) * (yb (ix2 p k) - mu (ix2 0 k)) * Ideal.rsqrt (var (ix2 0 k) + epsB) + bt (ix2 0 k)) 0
          * w (ix2 k q)) + b (ix2 0 q)) 0 := by
  unfold k4_pay7
  simp only [shapeCast_self]
  rw [maximumf_apply, addf_apply, broadcastTo_1b_ab_apply, broadcast_apply]
  refine (congrArg (max _) Ideal.ofBits_zero_f32).trans ?_
  refine congrArg (fun z => max (z + b (ix2 0 q)) 0) ?_
  refine (matmul_zero_apply _ _ p q).trans ?_
  refine Finset.sum_congr rfl fun k _ => congrArg (· * w (ix2 k q)) ?_
  rw [maximumf_apply, addf_apply, mulf_apply, mulf_apply, subf_apply, broadcast_apply,
    broadcastTo_1b_ab_apply, broadcastTo_1b_ab_apply, broadcastTo_1b_ab_apply, broadcastTo_1b_ab_apply]
  exact congrArg (max _) Ideal.ofBits_zero_f32

/-- The running column sums after a block. -/
theorem k4_pay1_apply (t2b : FVec Ideal S5000x128 .f32) (acc : Vec Ideal S1x128 .f32) (q : Fin 128) :
    k4_pay1 t2b acc (ix2 0 q) = acc (ix2 0 q) + ∑ p : Fin 5000, t2b (ix2 p q) := by
  unfold k4_pay1
  simp only [shapeCast_self]
  rw [addf_apply]
  exact congrArg (acc (ix2 0 q) + ·) (colsum_apply _ _ _ q)

/-- The running column sums of squares after a block. -/
theorem k4_pay2_apply (t2b : FVec Ideal S5000x128 .f32) (acc : Vec Ideal S1x128 .f32) (q : Fin 128) :
    k4_pay2 t2b acc (ix2 0 q) = acc (ix2 0 q) + ∑ p : Fin 5000, t2b (ix2 p q) * t2b (ix2 p q) := by
  unfold k4_pay2
  simp only [shapeCast_self]
  rw [addf_apply]
  refine congrArg (acc (ix2 0 q) + ·) ((colsum_apply _ _ _ q).trans ?_)
  exact Finset.sum_congr rfl fun p _ => mulf_apply _ _ _

/-- The column mean: the column sum times 1/40000. -/
theorem k4_pay3_apply (s : Vec Ideal S1x128 .f32) (q : Fin 128) : k4_pay3 s (ix2 0 q) = s (ix2 0 q) * invN := by
  simp only [k4_pay3, mulf_apply, broadcast_apply]
  exact congrArg (s (ix2 0 q) * ·) inv_n

/-- The column variance: mean of squares minus square of mean, clamped at 0. -/
theorem k4_pay4_apply (s sq : Vec Ideal S1x128 .f32) (q : Fin 128) :
    k4_pay4 s sq (ix2 0 q) = max (sq (ix2 0 q) * invN - (s (ix2 0 q) * invN) * (s (ix2 0 q) * invN)) 0 := by
  simp only [k4_pay4, maximumf_apply, subf_apply, mulf_apply, broadcast_apply, k4_pay3_apply, inv_n]
  exact congrArg (max _) Ideal.ofBits_zero_f32

theorem k4_pay5_apply (i : S1x128.Idx) : (k4_pay5 (F := Ideal)) i = 0 := by
  simp only [k4_pay5, shapeCast_self, broadcast_apply]
  exact Ideal.ofBits_zero_f32

theorem k4_pay6_apply (i : S1x128.Idx) : (k4_pay6 (F := Ideal)) i = 0 := by
  simp only [k4_pay6, shapeCast_self, broadcast_apply]
  exact Ideal.ofBits_zero_f32

end Cert.KernelIdeal.Hand

end
-- ==== Proof.KI.Val4.lean ====
import proofs.«110361_j29403346109051_2_alg».proof.Proof.KI.Reg4
import proofs.«110361_j29403346109051_2_alg».proof.Proof.Spec
import proofs.«110361_j29403346109051_2_alg».proof.Proof.LibBlockSum
import proofs.«110361_j29403346109051_2_alg».proof.Proof.KI.Pay4
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 4's values: the output array is the second linear map of the rectified normalised input, rectified;
the statistics array holds its column means and clamped column variances -/

/-- A whole-block access starts at the origin. -/
theorem bsrOrigin4 : (![0, 0] : Fin 2 → Nat) = fun _ => 0 := funext fun a => by fin_cases a <;> rfl

/-- The grid has eight points. -/
theorem bsrPt4 (t : Fin cfg4.N) : t.val < 8 := lt_of_lt_of_eq t.isLt N_4

/-- The array row that row `p` of point `t`'s block is. -/
def bsrRow4 (t : Fin cfg4.N) (p : Fin 5000) : Fin 40000 := ⟨5000 * t.val + p.val, by have := bsrPt4 t; have := p.isLt; omega⟩

/-- Row 0 of the statistics block, loaded, at a column. -/
theorem bsrLdM4 (x1 : Vec Ideal S2x128 .f32) (q : Fin 128) : View.ld x1 rS4_0 (ix2 (0 : Fin 1) q) = x1 (ix2 (0 : Fin 2) q) := by
  show x1 (rS4_0.idx (ix2 (0 : Fin 1) q)) = _
  refine congrArg x1 (funext fun a => Fin.ext ?_)
  match a with
  | ⟨0, _⟩ => rfl
  | ⟨1, _⟩ => show 0 + 1 * q.val = q.val; omega

/-- Row 1 of the statistics block, loaded, at a column. -/
theorem bsrLdV4 (x1 : Vec Ideal S2x128 .f32) (q : Fin 128) : View.ld x1 rS4_1 (ix2 (0 : Fin 1) q) = x1 (ix2 (1 : Fin 2) q) := by
  show x1 (rS4_1.idx (ix2 (0 : Fin 1) q)) = _
  refine congrArg x1 (funext fun a => Fin.ext ?_)
  match a with
  | ⟨0, _⟩ => rfl
  | ⟨1, _⟩ => show 0 + 1 * q.val = q.val; omega

/-- The block the body stores, at an entry, from the input blocks. -/
theorem bsrBlk4 (x0 : Vec Ideal S5000x128 .f32) (x1 : Vec Ideal S2x128 .f32) (x2 x3 : Vec Ideal S1x128 .f32)
    (x4 : Vec Ideal S128x128 .f32) (x5 : Vec Ideal S1x128 .f32) (p : Fin 5000) (q : Fin 128) :
    blk4 x0 x1 x2 x3 x4 x5 (ix2 p q)
      = max ((∑ k : Fin 128, max (x2 (ix2 0 k) * (x0 (ix2 p k) - x1 (ix2 0 k)) * Ideal.rsqrt (x1 (ix2 1 k) + epsB) + x3 (ix2 0 k)) 0
          * x4 (ix2 k q)) + x5 (ix2 0 q)) 0 := by
  unfold blk4
  simp only [View.ld_unit_zero (S := S5000x128) bsrOrigin4, View.ld_unit_zero (S := S1x128) bsrOrigin4,
    View.ld_unit_zero (S := S128x128) bsrOrigin4]
  rw [k4_pay7_apply]
  refine congrArg (fun z => max (z + x5 (ix2 0 q)) 0) (Finset.sum_congr rfl fun k _ => ?_)
  rw [bsrLdM4, bsrLdV4]

/-- The whole output matrix as one function of the input arrays. -/
def bsrT4 (a0 : S40000x128.Idx → EReal) (a1 : S2x128.Idx → EReal) (a2 a3 : S1x128.Idx → EReal)
    (a4 : S128x128.Idx → EReal) (a5 : S1x128.Idx → EReal) : Mat :=
  relu (lin (relu (bn (toMat a0) (fun j => a1 (ix2 0 j)) (fun j => a1 (ix2 1 j)) (toRow a2) (toRow a3))) (toWt a4) (toRow a5))

theorem bsrT4_apply (a0 : S40000x128.Idx → EReal) (a1 : S2x128.Idx → EReal) (a2 a3 : S1x128.Idx → EReal)
    (a4 : S128x128.Idx → EReal) (a5 : S1x128.Idx → EReal) (r : Fin 40000) (q : Fin 128) :
    bsrT4 a0 a1 a2 a3 a4 a5 r q
      = max ((∑ k : Fin 128, max (a2 (ix2 0 k) * (a0 (ix2 r k) - a1 (ix2 0 k)) * Ideal.rsqrt (a1 (ix2 1 k) + epsB) + a3 (ix2 0 k)) 0
          * a4 (ix2 k q)) + a5 (ix2 0 q)) 0 := rfl

/-- That matrix of the arrays as the region finds them. -/
def bsrTV4 (V : EntryVal Ideal) (c : Dev nD) : Mat :=
  bsrT4 (V c (Pipeline.arrRef spec4 0)) (V c (Pipeline.arrRef spec4 1)) (V c (Pipeline.arrRef spec4 2)) (V c (Pipeline.arrRef spec4 3))
    (V c (Pipeline.arrRef spec4 4)) (V c (Pipeline.arrRef spec4 5))

/-- The printed index maps, decided over the grid: the row-block windows are at block (t, 0), the others at (0, 0). -/
theorem bsrIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0 :=
  (by decide +kernel : ∀ t : Fin grid4.N, _)

/-- The input blocks, read at an entry, are the arrays' entries there. -/
theorem bsrRd4_0 (V : EntryVal Ideal) (c : Dev nD) (t : Fin cfg4.N) (p : Fin 5000) (q : Fin 128) :
    iblk4 V c 0 t (ix2 p q) = V c (Pipeline.arrRef spec4 0) (ix2 (bsrRow4 t p) q) := by
  obtain ⟨e0, e1, -⟩ := bsrIdx4 t
  show V c (Pipeline.arrRef spec4 0) (((cfg4.win 0).blk t).view.emb (ix2 p q)) = _
  refine congrArg (V c (Pipeline.arrRef spec4 0)) (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 128 + 1 * q.val = q.val; rw [e1]; omega

theorem bsrRd4_1 (V : EntryVal Ideal) (c : Dev nD) (t : Fin cfg4.N) (p : Fin 2) (q : Fin 128) :
    iblk4 V c 1 t (ix2 p q) = V c (Pipeline.arrRef spec4 1) (ix2 p q) := by
  obtain ⟨-, -, e0, e1, -⟩ := bsrIdx4 t
  show V c (Pipeline.arrRef spec4 1) (((cfg4.win 1).blk t).view.emb (ix2 p q)) = _
  refine congrArg (V c (Pipeline.arrRef spec4 1)) (funext fun a => Fin.ext ?_)
  match a with
  | ⟨0, _⟩ => show win4_1.index t (0 : Fin 2) * 2 + 1 * p.val = p.val; rw [e0]; omega
  | ⟨1, _⟩ => show win4_1.index t (1 : Fin 2) * 128 + 1 * q.val = q.val; rw [e1]; omega

theorem bsrRd4_2 (V : EntryVal Ideal) (c : Dev nD) (t : Fin cfg4.N) (p : Fin 1) (q : Fin 128) :
    iblk4 V c 2 t (ix2 p q) = V c (Pipeline.arrRef spec4 2) (ix2 p q) := by
  obtain ⟨-, -, -, -, e0, e1, -⟩ := bsrIdx4 t
  show V c (Pipeline.arrRef spec4 2) (((cfg4.win 2).blk t).view.emb (ix2 p q)) = _
  refine congrArg (V c (Pipeline.arrRef spec4 2)) (funext fun a => Fin.ext ?_)
  match a with
  | ⟨0, _⟩ => show win4_2.index t (0 : Fin 2) * 1 + 1 * p.val = p.val; rw [e0]; omega
  | ⟨1, _⟩ => show win4_2.index t (1 : Fin 2) * 128 + 1 * q.val = q.val; rw [e1]; omega

theorem bsrRd4_3 (V : EntryVal Ideal) (c : Dev nD) (t : Fin cfg4.N) (p : Fin 1) (q : Fin 128) :
    iblk4 V c 3 t (ix2 p q) = V c (Pipeline.arrRef spec4 3) (ix2 p q) := by
  obtain ⟨-, -, -, -, -, -, e0, e1, -⟩ := bsrIdx4 t
  show V c (Pipeline.arrRef spec4 3) (((cfg4.win 3).blk t).view.emb (ix2 p q)) = _
  refine congrArg (V c (Pipeline.arrRef spec4 3)) (funext fun a => Fin.ext ?_)
  match a with
  | ⟨0, _⟩ => show win4_3.index t (0 : Fin 2) * 1 + 1 * p.val = p.val; rw [e0]; omega
  | ⟨1, _⟩ => show win4_3.index t (1 : Fin 2) * 128 + 1 * q.val = q.val; rw [e1]; omega

theorem bsrRd4_4 (V : EntryVal Ideal) (c : Dev nD) (t : Fin cfg4.N) (p : Fin 128) (q : Fin 128) :
    iblk4 V c 4 t (ix2 p q) = V c (Pipeline.arrRef spec4 4) (ix2 p q) := by
  obtain ⟨-, -, -, -, -, -, -, -, e0, e1, -⟩ := bsrIdx4 t
  show V c (Pipeline.arrRef spec4 4) (((cfg4.win 4).blk t).view.emb (ix2 p q)) = _
  refine congrArg (V c (Pipeline.arrRef spec4 4)) (funext fun a => Fin.ext ?_)
  match a with
  | ⟨0, _⟩ => show win4_4.index t (0 : Fin 2) * 128 + 1 * p.val = p.val; rw [e0]; omega
  | ⟨1, _⟩ => show win4_4.index t (1 : Fin 2) * 128 + 1 * q.val = q.val; rw [e1]; omega

theorem bsrRd4_5 (V : EntryVal Ideal) (c : Dev nD) (t : Fin cfg4.N) (p : Fin 1) (q : Fin 128) :
    iblk4 V c 5 t (ix2 p q) = V c (Pipeline.arrRef spec4 5) (ix2 p q) := by
  obtain ⟨-, -, -, -, -, -, -, -, -, -, e0, e1, -⟩ := bsrIdx4 t
  show V c (Pipeline.arrRef spec4 5) (((cfg4.win 5).blk t).view.emb (ix2 p q)) = _
  refine congrArg (V c (Pipeline.arrRef spec4 5)) (funext fun a => Fin.ext ?_)
  match a with
  | ⟨0, _⟩ => show win4_5.index t (0 : Fin 2) * 1 + 1 * p.val = p.val; rw [e0]; omega
  | ⟨1, _⟩ => show win4_5.index t (1 : Fin 2) * 128 + 1 * q.val = q.val; rw [e1]; omega

/-- The block stored at point `t` is block `t` of the whole output matrix. -/
theorem bsrTblk4 (V : EntryVal Ideal) (c : Dev nD) (t : Fin cfg4.N) (p : Fin 5000) (q : Fin 128) :
    tblk4 V c t (ix2 p q) = bsrTV4 V c (bsrRow4 t p) q := by
  unfold tblk4
  refine (bsrBlk4 (iblk4 V c 0 t) (iblk4 V c 1 t) (iblk4 V c 2 t) (iblk4 V c 3 t) (iblk4 V c 4 t) (iblk4 V c 5 t) p q).trans ?_
  unfold bsrTV4
  rw [bsrT4_apply]
  simp only [bsrRd4_0, bsrRd4_1, bsrRd4_2, bsrRd4_3, bsrRd4_4, bsrRd4_5]

/-! ## The output array -/

theorem bsrAfter4_6 (V : EntryVal Ideal) (c : Dev nD) (t : Fin cfg4.N) :
    (dat4 V c).after 6 t = View.canon [⟨rA4, tblk4 V c t⟩] := by dsimp only [dat4]
theorem bsrAfter4_7 (V : EntryVal Ideal) (c : Dev nD) (t : Fin cfg4.N) :
    (dat4 V c).after 7 t = stats4 (acc4 V c t.val t.isLt).1 (acc4 V c t.val t.isLt).2 := by dsimp only [dat4]

/-- The whole output array. -/
def bsrG4 (V : EntryVal Ideal) (c : Dev nD) : S40000x128.Idx → EReal := fun i => bsrTV4 V c (i 0) (i 1)

/-- Where an entry of point `t`'s output block sits in the array. -/
theorem bsrEmb4_6 (t : Fin cfg4.N) (p : Fin 5000) (q : Fin 128) :
    ((cfg4.win 6).blk t).view.emb (ix2 p q) = ix2 (bsrRow4 t p) q := by
  obtain ⟨-, -, -, -, -, -, -, -, -, -, -, -, e0, e1, -⟩ := bsrIdx4 t
  refine funext fun a => Fin.ext ?_
  match a with
  | ⟨0, _⟩ => show win4_6.index t (0 : Fin 2) * 5000 + 1 * p.val = 5000 * t.val + p.val; rw [e0]; omega
  | ⟨1, _⟩ => show win4_6.index t (1 : Fin 2) * 128 + 1 * q.val = q.val; rw [e1]; omega

set_option maxHeartbeats 1000000 in
/-- What point `t` writes back of the output is block `t` of the whole output array. -/
theorem bsrFlushed4_6 (V : EntryVal Ideal) (c : Dev nD) (t : Fin cfg4.N) :
    (dat4 V c).flushed 6 t = ((cfg4.win 6).blk t).view.read (Elt Ideal) (bsrG4 V c) := by
  show (cfg4.win 6).cut (grid4.coords t) ((dat4 V c).after 6 t) = _
  rw [bsrAfter4_6, View.canon_unit_zero bsrOrigin4]
  funext j
  obtain ⟨p, q, rfl⟩ : ∃ (p : Fin 5000) (q : Fin 128), j = ix2 p q := ⟨j 0, j 1, eq_ix2 j⟩
  show tblk4 V c t (ix2 p q) = bsrG4 V c (((cfg4.win 6).blk t).view.emb (ix2 p q))
  rw [bsrEmb4_6, bsrTblk4]
  rfl

/-- An index of the output array is in point `t`'s block iff each coordinate is in the block's range on its axis. -/
theorem bsrMem4_6 (t : Fin cfg4.N) (i : S40000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v82_0).slice (win4_6.rect t)).set ↔ _
  rw [View.set_slice_whole, Rect.mem_set_unit]
  exact Iff.rfl

/-- Every row of the output array is in the block of the point its number divided by 5000 names. -/
theorem bsrCover4_6 (i : S40000x128.Idx) : ∃ t : Fin cfg4.N, (cfg4.win 6).flush t = true ∧ i ∈ ((cfg4.win 6).blk t).view.set := by
  have hi0 : (i 0).val < 40000 := (i 0).isLt
  have hi1 : (i 1).val < 128 := (i 1).isLt
  let t : Fin cfg4.N := ⟨(i 0).val / 5000, by rw [show cfg4.N = 8 from N_4]; omega⟩
  obtain ⟨-, -, -, -, -, -, -, -, -, -, -, -, e0, e1, -⟩ := bsrIdx4 t
  have ht : t.val = (i 0).val / 5000 := rfl
  refine ⟨t, flush4_6 t, ?_⟩
  rw [bsrMem4_6]
  intro a
  match a with
  | ⟨0, _⟩ => show win4_6.index t (0 : Fin 2) * 5000 ≤ (i 0).val ∧ (i 0).val < win4_6.index t (0 : Fin 2) * 5000 + 5000; rw [e0]; omega
  | ⟨1, _⟩ => show win4_6.index t (1 : Fin 2) * 128 ≤ (i 1).val ∧ (i 1).val < win4_6.index t (1 : Fin 2) * 128 + 128; rw [e1]; omega

set_option maxHeartbeats 1000000 in
/-- The output array after the region. -/
theorem final4_t2 (V : EntryVal Ideal) (c : Dev nD) :
    toMat ((dat4 V c).arrAt 6 cfg4.N)
      = relu (lin (relu (bn (toMat (V c (Pipeline.arrRef spec4 0))) (fun j => V c (Pipeline.arrRef spec4 1) (ix2 0 j))
          (fun j => V c (Pipeline.arrRef spec4 1) (ix2 1 j)) (toRow (V c (Pipeline.arrRef spec4 2))) (toRow (V c (Pipeline.arrRef spec4 3)))))
          (toWt (V c (Pipeline.arrRef spec4 4))) (toRow (V c (Pipeline.arrRef spec4 5)))) := by
  rw [(dat4 V c).arrAt_eq_of_cover 6 (bsrG4 V c) (fun t _ => bsrFlushed4_6 V c t) bsrCover4_6]
  rfl

/-! ## The statistics array -/

/-- The accumulators' reset values are zero. -/
theorem bsrSum0_4 (q : Fin 128) : (sum0_4 (F := Ideal)) (ix2 0 q) = 0 := by
  unfold sum0_4; rw [View.canon_unit_zero bsrOrigin4]; exact k4_pay5_apply _
theorem bsrSq0_4 (q : Fin 128) : (sq0_4 (F := Ideal)) (ix2 0 q) = 0 := by
  unfold sq0_4; rw [View.canon_unit_zero bsrOrigin4]; exact k4_pay6_apply _

/-- One point adds its block's column sums (of squares) to the accumulator. -/
theorem bsrSumStep4 (y : FVec Ideal S5000x128 .f32) (s : Vec Ideal S1x128 .f32) (q : Fin 128) :
    sumStep4 y s (ix2 0 q) = s (ix2 0 q) + ∑ p : Fin 5000, y (ix2 p q) := by
  unfold sumStep4; rw [View.canon_unit_zero bsrOrigin4]
  simp only [View.ld_unit_zero (S := S1x128) bsrOrigin4]
  exact k4_pay1_apply _ _ _
theorem bsrSqStep4 (y : FVec Ideal S5000x128 .f32) (s : Vec Ideal S1x128 .f32) (q : Fin 128) :
    sqStep4 y s (ix2 0 q) = s (ix2 0 q) + ∑ p : Fin 5000, y (ix2 p q) * y (ix2 p q) := by
  unfold sqStep4; rw [View.canon_unit_zero bsrOrigin4]
  simp only [View.ld_unit_zero (S := S1x128) bsrOrigin4]
  exact k4_pay2_apply _ _ _

/-- Point `t`'s block's column sum, and column sum of squares, at column `q` (zero past the grid). -/
def bsrB4 (V : EntryVal Ideal) (c : Dev nD) (q : Fin 128) (t : ℕ) : EReal :=
  if h : t < cfg4.N then ∑ p : Fin 5000, tblk4 V c ⟨t, h⟩ (ix2 p q) else 0
def bsrBq4 (V : EntryVal Ideal) (c : Dev nD) (q : Fin 128) (t : ℕ) : EReal :=
  if h : t < cfg4.N then ∑ p : Fin 5000, tblk4 V c ⟨t, h⟩ (ix2 p q) * tblk4 V c ⟨t, h⟩ (ix2 p q) else 0

/-- The accumulators after point `n` hold the sums of the blocks' column sums up to it. -/
theorem bsrAcc4 (V : EntryVal Ideal) (c : Dev nD) (q : Fin 128) : ∀ (n : ℕ) (hn : n < cfg4.N),
    (acc4 V c n hn).1 (ix2 0 q) = ∑ s ∈ Finset.range (n + 1), bsrB4 V c q s
      ∧ (acc4 V c n hn).2 (ix2 0 q) = ∑ s ∈ Finset.range (n + 1), bsrBq4 V c q s
  | 0, hn => by
    rw [Finset.sum_range_one, Finset.sum_range_one]
    unfold bsrB4 bsrBq4
    rw [dif_pos hn, dif_pos hn, acc4]
    show sumStep4 _ _ (ix2 0 q) = _ ∧ sqStep4 _ _ (ix2 0 q) = _
    rw [bsrSumStep4, bsrSqStep4, bsrSum0_4, bsrSq0_4, zero_add, zero_add]
    exact ⟨rfl, rfl⟩
  | n + 1, hn => by
    obtain ⟨h1, h2⟩ := bsrAcc4 V c q n (Nat.lt_of_succ_lt hn)
    rw [Finset.sum_range_succ _ (n + 1), Finset.sum_range_succ _ (n + 1), ← h1, ← h2]
    unfold bsrB4 bsrBq4
    rw [dif_pos hn, dif_pos hn, acc4]
    show sumStep4 _ _ (ix2 0 q) = _ ∧ sqStep4 _ _ (ix2 0 q) = _
    rw [bsrSumStep4, bsrSqStep4]
    exact ⟨rfl, rfl⟩

/-- The eight blocks' column sums add up to the column sums over all rows. -/
theorem bsrTotal4 (V : EntryVal Ideal) (c : Dev nD) (q : Fin 128) :
    ∑ s ∈ Finset.range (7 + 1), bsrB4 V c q s = csum (bsrTV4 V c) q := by
  unfold csum
  refine Cert.Lib.sum_range_blocks_of_eq (nb := 8) (bs := 5000) (N := 40000) rfl (fun r => bsrTV4 V c r q) (bsrB4 V c q) ?_
  intro t ht
  have ht' : t < cfg4.N := lt_of_lt_of_eq ht N_4.symm
  unfold bsrB4
  rw [dif_pos ht']
  exact Finset.sum_congr rfl fun p _ => bsrTblk4 V c ⟨t, ht'⟩ p q

theorem bsrTotalSq4 (V : EntryVal Ideal) (c : Dev nD) (q : Fin 128) :
    ∑ s ∈ Finset.range (7 + 1), bsrBq4 V c q s = csumsq (bsrTV4 V c) q := by
  unfold csumsq
  refine Cert.Lib.sum_range_blocks_of_eq (nb := 8) (bs := 5000) (N := 40000) rfl (fun r => bsrTV4 V c r q * bsrTV4 V c r q) (bsrBq4 V c q) ?_
  intro t ht
  have ht' : t < cfg4.N := lt_of_lt_of_eq ht N_4.symm
  unfold bsrBq4
  rw [dif_pos ht']
  exact Finset.sum_congr rfl fun p _ => by rw [bsrTblk4 V c ⟨t, ht'⟩ p q]; rfl

/-- Rows 0 and 1 of the statistics block as the images of the row block under the two row rectangles. -/
theorem bsrRowEmb4_0 (q : Fin 128) : (ix2 (0 : Fin 2) q : S2x128.Idx) = rS4_0.emb (ix2 (0 : Fin 1) q) :=
  funext fun a => Fin.ext (by
    match a with
    | ⟨0, _⟩ => rfl
    | ⟨1, _⟩ => show q.val = 0 + 1 * q.val; omega)
theorem bsrRowEmb4_1 (q : Fin 128) : (ix2 (1 : Fin 2) q : S2x128.Idx) = rS4_1.emb (ix2 (0 : Fin 1) q) :=
  funext fun a => Fin.ext (by
    match a with
    | ⟨0, _⟩ => rfl
    | ⟨1, _⟩ => show q.val = 0 + 1 * q.val; omega)

/-- Row 0 is not under the store of row 1. -/
theorem bsrRowNot4 (q : Fin 128) : (ix2 (0 : Fin 2) q : S2x128.Idx) ∉ rS4_1.set := by
  rw [Rect.mem_set_unit]
  intro h
  have h0 : (1 : ℕ) ≤ 0 := (h 0).1
  omega

/-- Off the last store's rectangle, the contents are what the earlier stores left. -/
theorem bsrCanonOff4 {S : Shape} {e : EltTy} (r : Rect S) (w : r.shape.Idx → Elt Ideal e) (L : List (View.Piece (Elt Ideal) S e))
    {y : S.Idx} (h : y ∉ r.set) : View.canon (⟨r, w⟩ :: L) y = View.canon L y :=
  View.canon_cons_of_not_mem ⟨r, w⟩ L h

/-- The statistics block the last point stores, row by row, from the accumulators. -/
theorem bsrStats4_0 (s sq : Vec Ideal S1x128 .f32) (q : Fin 128) : stats4 s sq (ix2 (0 : Fin 2) q) = s (ix2 0 q) * invN := by
  unfold stats4
  rw [bsrCanonOff4 _ _ _ (bsrRowNot4 q), bsrRowEmb4_0, View.canon_cons_emb]
  simp only [View.ld_unit_zero (S := S1x128) bsrOrigin4]
  exact k4_pay3_apply _ _

theorem bsrStats4_1 (s sq : Vec Ideal S1x128 .f32) (q : Fin 128) :
    stats4 s sq (ix2 (1 : Fin 2) q) = max (sq (ix2 0 q) * invN - (s (ix2 0 q) * invN) * (s (ix2 0 q) * invN)) 0 := by
  unfold stats4
  rw [bsrRowEmb4_1, View.canon_cons_emb]
  simp only [View.ld_unit_zero (S := S1x128) bsrOrigin4]
  exact k4_pay4_apply _ _ _

/-- The whole statistics array: row 0 the column means, row 1 the clamped column variances of the output matrix. -/
def bsrS4 (V : EntryVal Ideal) (c : Dev nD) : S2x128.Idx → EReal :=
  fun i => if (i 0).val = 0 then meanK (bsrTV4 V c) (i 1) else varK (bsrTV4 V c) (i 1)

/-- What the last point leaves in the statistics window's buffer is the whole statistics array. -/
theorem bsrStatsAt4 (V : EntryVal Ideal) (c : Dev nD) (t : Fin cfg4.N) (h7 : t.val = 7) (p : Fin 2) (q : Fin 128) :
    stats4 (acc4 V c t.val t.isLt).1 (acc4 V c t.val t.isLt).2 (ix2 p q) = bsrS4 V c (ix2 p q) := by
  have h1 : (acc4 V c t.val t.isLt).1 (ix2 0 q) = csum (bsrTV4 V c) q := by
    rw [(bsrAcc4 V c q t.val t.isLt).1, h7]; exact bsrTotal4 V c q
  have h2 : (acc4 V c t.val t.isLt).2 (ix2 0 q) = csumsq (bsrTV4 V c) q := by
    rw [(bsrAcc4 V c q t.val t.isLt).2, h7]; exact bsrTotalSq4 V c q
  rcases p with ⟨_ | _ | p, hp⟩
  · refine (bsrStats4_0 _ _ q).trans ?_
    rw [h1]; rfl
  · refine (bsrStats4_1 _ _ q).trans ?_
    rw [h1, h2]; rfl
  · omega

theorem bsrEmb4_7 (t : Fin cfg4.N) (p : Fin 2) (q : Fin 128) :
    ((cfg4.win 7).blk t).view.emb (ix2 p q) = ix2 p q := by
  obtain ⟨-, -, -, -, -, -, -, -, -, -, -, -, -, -, e0, e1⟩ := bsrIdx4 t
  refine funext fun a => Fin.ext ?_
  match a with
  | ⟨0, _⟩ => show win4_7.index t (0 : Fin 2) * 2 + 1 * p.val = p.val; rw [e0]; omega
  | ⟨1, _⟩ => show win4_7.index t (1 : Fin 2) * 128 + 1 * q.val = q.val; rw [e1]; omega

set_option maxHeartbeats 1000000 in
/-- What the one flushing point writes back of the statistics is the whole statistics array. -/
theorem bsrFlushed4_7 (V : EntryVal Ideal) (c : Dev nD) (t : Fin cfg4.N) (hf : (cfg4.win 7).flush t = true) :
    (dat4 V c).flushed 7 t = ((cfg4.win 7).blk t).view.read (Elt Ideal) (bsrS4 V c) := by
  have h7 : t.val = 7 := by have h := (flush4_7 t).mp hf; have := bsrPt4 t; omega
  show (cfg4.win 7).cut (grid4.coords t) ((dat4 V c).after 7 t) = _
  rw [bsrAfter4_7]
  funext j
  obtain ⟨p, q, rfl⟩ : ∃ (p : Fin 2) (q : Fin 128), j = ix2 p q := ⟨j 0, j 1, eq_ix2 j⟩
  show stats4 (acc4 V c t.val t.isLt).1 (acc4 V c t.val t.isLt).2 (ix2 p q) = bsrS4 V c (((cfg4.win 7).blk t).view.emb (ix2 p q))
  rw [bsrEmb4_7]
  exact bsrStatsAt4 V c t h7 p q

theorem bsrMem4_7 (t : Fin cfg4.N) (i : S2x128.Idx) :
    i ∈ ((cfg4.win 7).blk t).view.set ↔ ∀ a : Fin 2, win4_7.index t a * S2x128.size a ≤ (i a).val ∧ (i a).val < win4_7.index t a * S2x128.size a + S2x128.size a := by
  show i ∈ ((View.whole main_v82_1).slice (win4_7.rect t)).set ↔ _
  rw [View.set_slice_whole, Rect.mem_set_unit]
  exact Iff.rfl

/-- The last point's block is the whole statistics array. -/
theorem bsrCover4_7 (i : S2x128.Idx) : ∃ t : Fin cfg4.N, (cfg4.win 7).flush t = true ∧ i ∈ ((cfg4.win 7).blk t).view.set := by
  have hi0 : (i 0).val < 2 := (i 0).isLt
  have hi1 : (i 1).val < 128 := (i 1).isLt
  let t : Fin cfg4.N := ⟨7, by rw [show cfg4.N = 8 from N_4]; omega⟩
  obtain ⟨-, -, -, -, -, -, -, -, -, -, -, -, -, -, e0, e1⟩ := bsrIdx4 t
  refine ⟨t, (flush4_7 t).mpr rfl, ?_⟩
  rw [bsrMem4_7]
  intro a
  match a with
  | ⟨0, _⟩ => show win4_7.index t (0 : Fin 2) * 2 ≤ (i 0).val ∧ (i 0).val < win4_7.index t (0 : Fin 2) * 2 + 2; rw [e0]; omega
  | ⟨1, _⟩ => show win4_7.index t (1 : Fin 2) * 128 ≤ (i 1).val ∧ (i 1).val < win4_7.index t (1 : Fin 2) * 128 + 128; rw [e1]; omega

set_option maxHeartbeats 1000000 in
/-- The statistics array after the region: the column means and clamped column variances of the output matrix. -/
theorem final4_stats (V : EntryVal Ideal) (c : Dev nD) (j : Fin 128) :
    (dat4 V c).arrAt 7 cfg4.N (ix2 0 j)
        = meanK (relu (lin (relu (bn (toMat (V c (Pipeline.arrRef spec4 0))) (fun j => V c (Pipeline.arrRef spec4 1) (ix2 0 j))
          (fun j => V c (Pipeline.arrRef spec4 1) (ix2 1 j)) (toRow (V c (Pipeline.arrRef spec4 2))) (toRow (V c (Pipeline.arrRef spec4 3)))))
          (toWt (V c (Pipeline.arrRef spec4 4))) (toRow (V c (Pipeline.arrRef spec4 5))))) j
      ∧ (dat4 V c).arrAt 7 cfg4.N (ix2 1 j)
        = varK (relu (lin (relu (bn (toMat (V c (Pipeline.arrRef spec4 0))) (fun j => V c (Pipeline.arrRef spec4 1) (ix2 0 j))
          (fun j => V c (Pipeline.arrRef spec4 1) (ix2 1 j)) (toRow (V c (Pipeline.arrRef spec4 2))) (toRow (V c (Pipeline.arrRef spec4 3)))))
          (toWt (V c (Pipeline.arrRef spec4 4))) (toRow (V c (Pipeline.arrRef spec4 5))))) j := by
  rw [(dat4 V c).arrAt_eq_of_cover 7 (bsrS4 V c) (fun t hf => bsrFlushed4_7 V c t hf) bsrCover4_7]
  exact ⟨rfl, rfl⟩

end Cert.KernelIdeal.Hand

end
-- ==== Proof.KI.Pay5.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec

noncomputable section

open Idealize.ShloMosaic Idealize.ShloMosaic.ValueIdx Cert.KernelIdeal Cert.KernelIdeal.Gen Cert.Spec

namespace Cert.KernelIdeal.Hand

/-- The final normalisation and rectifier at an entry: max(g · (t − μ) · (σ² + ε)^(-1/2) + β, 0). -/
theorem k5_pay1_apply (mu var g : Vec Ideal S1x128 .f32) (tb : Vec Ideal S5000x128 .f32) (bt : Vec Ideal S1x128 .f32)
    (p : Fin 5000) (q : Fin 128) :
    k5_pay1 mu var g tb bt (ix2 p q)
      = max (g (ix2 0 q) * (tb (ix2 p q) - mu (ix2 0 q)) * Ideal.rsqrt (var (ix2 0 q) + epsB) + bt (ix2 0 q)) 0 := by
  unfold k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg (max _) Ideal.ofBits_zero_f32

end Cert.KernelIdeal.Hand

end
-- ==== Proof.KI.Val5.lean ====
import proofs.«110361_j29403346109051_2_alg».proof.Proof.KI.Reg5
import proofs.«110361_j29403346109051_2_alg».proof.Proof.Spec
import proofs.«110361_j29403346109051_2_alg».proof.Proof.KI.Pay5
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 5's value: the output array is the rectified batch normalisation of the input array, entry by entry -/

/-- A whole-block access starts at the origin. -/
theorem bnfOrigin5 : (![0, 0] : Fin 2 → Nat) = fun _ => 0 := funext fun a => by fin_cases a <;> rfl

/-- The grid has eight points. -/
theorem bnfPt5 (t : Fin cfg5.N) : t.val < 8 := lt_of_lt_of_eq t.isLt N_5

/-- The array row that row `p` of point `t`'s block is. -/
def bnfRow5 (t : Fin cfg5.N) (p : Fin 5000) : Fin 40000 := ⟨t.val * 5000 + p.val, by have := bnfPt5 t; have := p.isLt; omega⟩

/-- Row 0 of the statistics block, loaded, at a column. -/
theorem bnfLdM5 (x1 : Vec Ideal S2x128 .f32) (q : Fin 128) : View.ld x1 r5_m (ix2 (0 : Fin 1) q) = x1 (ix2 (0 : Fin 2) q) := by
  show x1 (r5_m.idx (ix2 (0 : Fin 1) q)) = _
  refine congrArg x1 (funext fun a => Fin.ext ?_)
  match a with
  | ⟨0, _⟩ => rfl
  | ⟨1, _⟩ => show 0 + 1 * q.val = q.val; omega

/-- Row 1 of the statistics block, loaded, at a column. -/
theorem bnfLdV5 (x1 : Vec Ideal S2x128 .f32) (q : Fin 128) : View.ld x1 r5_v (ix2 (0 : Fin 1) q) = x1 (ix2 (1 : Fin 2) q) := by
  show x1 (r5_v.idx (ix2 (0 : Fin 1) q)) = _
  refine congrArg x1 (funext fun a => Fin.ext ?_)
  match a with
  | ⟨0, _⟩ => rfl
  | ⟨1, _⟩ => show 0 + 1 * q.val = q.val; omega

/-- What the body leaves in the output's buffer, at an entry, from the input blocks. -/
theorem bnfOut5 (x0 : Vec Ideal S5000x128 .f32) (x1 : Vec Ideal S2x128 .f32) (x2 x3 : Vec Ideal S1x128 .f32) (p : Fin 5000) (q : Fin 128) :
    out5_4 x0 x1 x2 x3 (ix2 p q)
      = max (x2 (ix2 0 q) * (x0 (ix2 p q) - x1 (ix2 0 q)) * Ideal.rsqrt (x1 (ix2 1 q) + epsB) + x3 (ix2 0 q)) 0 := by
  unfold out5_4
  rw [View.canon_unit_zero bnfOrigin5]
  simp only [View.ld_unit_zero (S := S5000x128) bnfOrigin5, View.ld_unit_zero (S := S1x128) bnfOrigin5]
  rw [k5_pay1_apply, bnfLdM5, bnfLdV5]

/-- The whole output array as one function of the input arrays. -/
def bnfG5 (a0 : S40000x128.Idx → EReal) (a1 : S2x128.Idx → EReal) (a2 a3 : S1x128.Idx → EReal) : S40000x128.Idx → EReal :=
  fun i => relu (bn (toMat a0) (fun j => a1 (ix2 0 j)) (fun j => a1 (ix2 1 j)) (toRow a2) (toRow a3)) (i 0) (i 1)

theorem bnfG5_apply (a0 : S40000x128.Idx → EReal) (a1 : S2x128.Idx → EReal) (a2 a3 : S1x128.Idx → EReal) (r : Fin 40000) (q : Fin 128) :
    bnfG5 a0 a1 a2 a3 (ix2 r q)
      = max (a2 (ix2 0 q) * (a0 (ix2 r q) - a1 (ix2 0 q)) * Ideal.rsqrt (a1 (ix2 1 q) + epsB) + a3 (ix2 0 q)) 0 := rfl

/-- The printed index maps, decided over the grid: the row-block windows are at block (t, 0), the row windows at (0, 0). -/
theorem bnfIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The input blocks, read at an entry, are the arrays' entries there. -/
theorem bnfBlk5_0 (V : EntryVal Ideal) (c : Dev nD) (t : Fin cfg5.N) (p : Fin 5000) (q : Fin 128) :
    iblk5 V c 0 t (ix2 p q) = V c (Pipeline.arrRef spec5 0) (ix2 (bnfRow5 t p) q) := by
  obtain ⟨e0, e1, -⟩ := bnfIdx5 t
  show V c (Pipeline.arrRef spec5 0) (((cfg5.win 0).blk t).view.emb (ix2 p q)) = _
  refine congrArg (V c (Pipeline.arrRef spec5 0)) (funext fun a => Fin.ext ?_)
  match a with
  | ⟨0, _⟩ => show win5_0.index t (0 : Fin 2) * 5000 + 1 * p.val = t.val * 5000 + p.val; rw [e0]; omega
  | ⟨1, _⟩ => show win5_0.index t (1 : Fin 2) * 128 + 1 * q.val = q.val; rw [e1]; omega

theorem bnfBlk5_1 (V : EntryVal Ideal) (c : Dev nD) (t : Fin cfg5.N) (p : Fin 2) (q : Fin 128) :
    iblk5 V c 1 t (ix2 p q) = V c (Pipeline.arrRef spec5 1) (ix2 p q) := by
  obtain ⟨-, -, e0, e1, -⟩ := bnfIdx5 t
  show V c (Pipeline.arrRef spec5 1) (((cfg5.win 1).blk t).view.emb (ix2 p q)) = _
  refine congrArg (V c (Pipeline.arrRef spec5 1)) (funext fun a => Fin.ext ?_)
  match a with
  | ⟨0, _⟩ => show win5_1.index t (0 : Fin 2) * 2 + 1 * p.val = p.val; rw [e0]; omega
  | ⟨1, _⟩ => show win5_1.index t (1 : Fin 2) * 128 + 1 * q.val = q.val; rw [e1]; omega

theorem bnfBlk5_2 (V : EntryVal Ideal) (c : Dev nD) (t : Fin cfg5.N) (p : Fin 1) (q : Fin 128) :
    iblk5 V c 2 t (ix2 p q) = V c (Pipeline.arrRef spec5 2) (ix2 p q) := by
  obtain ⟨-, -, -, -, e0, e1, -⟩ := bnfIdx5 t
  show V c (Pipeline.arrRef spec5 2) (((cfg5.win 2).blk t).view.emb (ix2 p q)) = _
  refine congrArg (V c (Pipeline.arrRef spec5 2)) (funext fun a => Fin.ext ?_)
  match a with
  | ⟨0, _⟩ => show win5_2.index t (0 : Fin 2) * 1 + 1 * p.val = p.val; rw [e0]; omega
  | ⟨1, _⟩ => show win5_2.index t (1 : Fin 2) * 128 + 1 * q.val = q.val; rw [e1]; omega

theorem bnfBlk5_3 (V : EntryVal Ideal) (c : Dev nD) (t : Fin cfg5.N) (p : Fin 1) (q : Fin 128) :
    iblk5 V c 3 t (ix2 p q) = V c (Pipeline.arrRef spec5 3) (ix2 p q) := by
  obtain ⟨-, -, -, -, -, -, e0, e1, -⟩ := bnfIdx5 t
  show V c (Pipeline.arrRef spec5 3) (((cfg5.win 3).blk t).view.emb (ix2 p q)) = _
  refine congrArg (V c (Pipeline.arrRef spec5 3)) (funext fun a => Fin.ext ?_)
  match a with
  | ⟨0, _⟩ => show win5_3.index t (0 : Fin 2) * 1 + 1 * p.val = p.val; rw [e0]; omega
  | ⟨1, _⟩ => show win5_3.index t (1 : Fin 2) * 128 + 1 * q.val = q.val; rw [e1]; omega

/-- Where an entry of point `t`'s output block sits in the array. -/
theorem bnfEmb5 (t : Fin cfg5.N) (p : Fin 5000) (q : Fin 128) :
    ((cfg5.win 4).blk t).view.emb (ix2 p q) = ix2 (bnfRow5 t p) q := by
  obtain ⟨-, -, -, -, -, -, -, -, e0, e1⟩ := bnfIdx5 t
  refine funext fun a => Fin.ext ?_
  match a with
  | ⟨0, _⟩ => show win5_4.index t (0 : Fin 2) * 5000 + 1 * p.val = t.val * 5000 + p.val; rw [e0]; omega
  | ⟨1, _⟩ => show win5_4.index t (1 : Fin 2) * 128 + 1 * q.val = q.val; rw [e1]; omega

set_option maxHeartbeats 1000000 in
/-- What point `t` writes back is block `t` of the whole-array function of the arrays as the region finds them. -/
theorem bnfFlushed5 (V : EntryVal Ideal) (c : Dev nD) (t : Fin cfg5.N) :
    (dat5 V c).flushed 4 t = ((cfg5.win 4).blk t).view.read (Elt Ideal)
      (bnfG5 (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  funext j
  obtain ⟨p, q, rfl⟩ : ∃ (p : Fin 5000) (q : Fin 128), j = ix2 p q := ⟨j 0, j 1, eq_ix2 j⟩
  show out5_4 (iblk5 V c 0 t) (iblk5 V c 1 t) (iblk5 V c 2 t) (iblk5 V c 3 t) (ix2 p q)
    = bnfG5 (V c (Pipeline.arrRef spec5 0)) (V c (Pipeline.arrRef spec5 1)) (V c (Pipeline.arrRef spec5 2)) (V c (Pipeline.arrRef spec5 3))
        (((cfg5.win 4).blk t).view.emb (ix2 p q))
  refine (bnfOut5 (iblk5 V c 0 t) (iblk5 V c 1 t) (iblk5 V c 2 t) (iblk5 V c 3 t) p q).trans ?_
  rw [bnfEmb5, bnfG5_apply, bnfBlk5_0, bnfBlk5_1, bnfBlk5_1, bnfBlk5_2, bnfBlk5_3]

/-- An index of the array is in point `t`'s block iff each coordinate is in the block's range on its axis. -/
theorem bnfMem5 (t : Fin cfg5.N) (i : S40000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v83).slice (win5_4.rect t)).set ↔ _
  rw [View.set_slice_whole, Rect.mem_set_unit]
  exact Iff.rfl

/-- Every row of the array is in the block of the point its number divided by 5000 names. -/
theorem bnfCover5 (i : S40000x128.Idx) : ∃ t : Fin cfg5.N, (cfg5.win 4).flush t = true ∧ i ∈ ((cfg5.win 4).blk t).view.set := by
  have hi0 : (i 0).val < 40000 := (i 0).isLt
  have hi1 : (i 1).val < 128 := (i 1).isLt
  let t : Fin cfg5.N := ⟨(i 0).val / 5000, by rw [show cfg5.N = 8 from N_5]; omega⟩
  obtain ⟨-, -, -, -, -, -, -, -, e0, e1⟩ := bnfIdx5 t
  have ht : t.val = (i 0).val / 5000 := rfl
  refine ⟨t, flush5_4 t, ?_⟩
  rw [bnfMem5]
  intro a
  match a with
  | ⟨0, _⟩ => show win5_4.index t (0 : Fin 2) * 5000 ≤ (i 0).val ∧ (i 0).val < win5_4.index t (0 : Fin 2) * 5000 + 5000; rw [e0]; omega
  | ⟨1, _⟩ => show win5_4.index t (1 : Fin 2) * 128 ≤ (i 1).val ∧ (i 1).val < win5_4.index t (1 : Fin 2) * 128 + 128; rw [e1]; omega

/-- The output array after the region: the rectified batch normalisation of the input array with the statistics rows,
    the scale and the shift as the region finds them. -/
theorem final5 (V : EntryVal Ideal) (c : Dev nD) :
    toMat ((dat5 V c).arrAt 4 cfg5.N)
      = relu (bn (toMat (V c (Pipeline.arrRef spec5 0))) (fun j => V c (Pipeline.arrRef spec5 1) (ix2 0 j)) (fun j => V c (Pipeline.arrRef spec5 1) (ix2 1 j))
          (toRow (V c (Pipeline.arrRef spec5 2))) (toRow (V c (Pipeline.arrRef spec5 3)))) := by
  rw [(dat5 V c).arrAt_eq_of_cover 4
    (bnfG5 (V c (Pipeline.arrRef spec5 0)) (V c (Pipeline.arrRef spec5 1)) (V c (Pipeline.arrRef spec5 2)) (V c (Pipeline.arrRef spec5 3)))
    (fun t _ => bnfFlushed5 V c t) bnfCover5]
  rfl

end Cert.KernelIdeal.Hand

end
-- ==== Proof.KI.Pay6.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec
import proofs.«110361_j29403346109051_2_alg».proof.Proof.KI.Pay0

noncomputable section

open Idealize.ShloMosaic Idealize.ShloMosaic.ValueIdx Cert.KernelIdeal Cert.KernelIdeal.Gen Cert.Spec

namespace Cert.KernelIdeal.Hand

/-- The first linear map at an entry: (c · h + agg) · W + b. -/
theorem k6_pay6_apply (coef : Vec Ideal S1x1 .f32) (hb ab : Vec Ideal S5000x128 .f32) (w : Vec Ideal S128x128 .f32)
    (b : Vec Ideal S1x128 .f32) (p : Fin 5000) (q : Fin 128) :
    k6_pay6 coef hb ab w b (ix2 p q)
      = (∑ k : Fin 128, (coef (ix2 0 0) * hb (ix2 p k) + ab (ix2 p k)) * w (ix2 k q)) + b (ix2 0 q) := by
  unfold k6_pay6
  simp only [shapeCast_self]
  rw [addf_apply, broadcastTo_1b_ab_apply]
  refine congrArg (· + b (ix2 0 q)) ?_
  refine (matmul_zero_apply _ _ p q).trans ?_
  refine Finset.sum_congr rfl fun k _ => ?_
  rw [addf_apply, mulf_apply, broadcastTo_11_ab_apply]

/-- The running column sums after a block: what was there plus the block's column sums. -/
theorem k6_pay7_apply (coef : Vec Ideal S1x1 .f32) (hb ab : Vec Ideal S5000x128 .f32) (w : Vec Ideal S128x128 .f32)
    (b : Vec Ideal S1x128 .f32) (acc : Vec Ideal S1x128 .f32) (q : Fin 128) :
    k6_pay7 coef hb ab w b acc (ix2 0 q) = acc (ix2 0 q) + ∑ p : Fin 5000, k6_pay6 coef hb ab w b (ix2 p q) := by
  unfold k6_pay7
  simp only [shapeCast_self]
  rw [addf_apply]
  exact congrArg (acc (ix2 0 q) + ·) (colsum_apply _ _ _ q)

/-- The running column sums of squares after a block. -/
theorem k6_pay8_apply (coef : Vec Ideal S1x1 .f32) (hb ab : Vec Ideal S5000x128 .f32) (w : Vec Ideal S128x128 .f32)
    (b : Vec Ideal S1x128 .f32) (acc : Vec Ideal S1x128 .f32) (q : Fin 128) :
    k6_pay8 coef hb ab w b acc (ix2 0 q)
      = acc (ix2 0 q) + ∑ p : Fin 5000, k6_pay6 coef hb ab w b (ix2 p q) * k6_pay6 coef hb ab w b (ix2 p q) := by
  unfold k6_pay8
  simp only [addf_apply]
  refine congrArg (acc (ix2 0 q) + ·) ((colsum_apply _ _ _ q).trans ?_)
  exact Finset.sum_congr rfl fun p _ => mulf_apply _ _ _

theorem k6_pay1_apply (v : FVec Ideal S1x128 .f32) (i : S1x128.Idx) : k6_pay1 v i = v i := by
  simp only [k6_pay1, shapeCast_self]

theorem k6_pay4_apply (i : S1x128.Idx) : (k6_pay4 (F := Ideal)) i = 0 := by
  simp only [k6_pay4, shapeCast_self, broadcast_apply]
  exact Ideal.ofBits_zero_f32

theorem k6_pay5_apply (i : S1x128.Idx) : (k6_pay5 (F := Ideal)) i = 0 := by
  simp only [k6_pay5, shapeCast_self, broadcast_apply]
  exact Ideal.ofBits_zero_f32

/-- The column mean: the column sum times 1/40000. -/
theorem k6_pay2_apply (s : Vec Ideal S1x128 .f32) (q : Fin 128) : k6_pay2 s (ix2 0 q) = s (ix2 0 q) * invN := by
  simp only [k6_pay2, mulf_apply, broadcast_apply]
  exact congrArg (s (ix2 0 q) * ·) inv_n

/-- The column variance: mean of squares minus square of mean, clamped at 0. -/
theorem k6_pay3_apply (s sq : Vec Ideal S1x128 .f32) (q : Fin 128) :
    k6_pay3 s sq (ix2 0 q) = max (sq (ix2 0 q) * invN - (s (ix2 0 q) * invN) * (s (ix2 0 q) * invN)) 0 := by
  simp only [k6_pay3, maximumf_apply, subf_apply, mulf_apply, broadcast_apply, k6_pay2_apply, inv_n]
  exact congrArg (max _) Ideal.ofBits_zero_f32

end Cert.KernelIdeal.Hand

end
-- ==== Proof.KI.Val6.lean ====
import proofs.«110361_j29403346109051_2_alg».proof.Proof.KI.Reg6
import proofs.«110361_j29403346109051_2_alg».proof.Proof.Spec
import proofs.«110361_j29403346109051_2_alg».proof.Proof.LibBlockSum
import proofs.«110361_j29403346109051_2_alg».proof.Proof.KI.Pay6
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 6's values: the output array is the first linear map of the combined features; the statistics array
holds its column means and clamped column variances -/

/-- The grid has eight points. -/
theorem lsPt6 (t : Fin cfg6.N) : t.val < 8 := lt_of_lt_of_eq t.isLt N_6

/-- The array row that row `p` of point `t`'s block is. -/
def lsRow6 (t : Fin cfg6.N) (p : Fin 5000) : Fin 40000 := ⟨5000 * t.val + p.val, by have := lsPt6 t; have := p.isLt; omega⟩

/-- The whole output matrix as one function of the input arrays. -/
def lsY6 (a0 a1 : S40000x128.Idx → EReal) (a2 : S1x1.Idx → EReal) (a3 : S128x128.Idx → EReal) (a4 : S1x128.Idx → EReal) : Mat :=
  lin (comb (a2 (ix2 0 0)) (toMat a0) (toMat a1)) (toWt a3) (toRow a4)

theorem lsY6_apply (a0 a1 : S40000x128.Idx → EReal) (a2 : S1x1.Idx → EReal) (a3 : S128x128.Idx → EReal) (a4 : S1x128.Idx → EReal)
    (r : Fin 40000) (q : Fin 128) :
    lsY6 a0 a1 a2 a3 a4 r q = (∑ k : Fin 128, (a2 (ix2 0 0) * a0 (ix2 r k) + a1 (ix2 r k)) * a3 (ix2 k q)) + a4 (ix2 0 q) := rfl

/-- That matrix of the arrays as the region finds them. -/
def lsYV6 (V : EntryVal Ideal) (c : Dev nD) : Mat :=
  lsY6 (V c (Pipeline.arrRef spec6 0)) (V c (Pipeline.arrRef spec6 1)) (V c (Pipeline.arrRef spec6 2)) (V c (Pipeline.arrRef spec6 3))
    (V c (Pipeline.arrRef spec6 4))

/-- The printed index maps, decided over the grid: the row-block windows are at block (t, 0), the others at (0, 0). -/
theorem lsIdx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0 :=
  (by decide +kernel : ∀ t : Fin grid6.N, _)

/-- The input blocks, read at an entry, are the arrays' entries there. -/
theorem lsRd6_0 (V : EntryVal Ideal) (c : Dev nD) (t : Fin cfg6.N) (p : Fin 5000) (q : Fin 128) :
    xb6_0 V c t (ix2 p q) = V c (Pipeline.arrRef spec6 0) (ix2 (lsRow6 t p) q) := by
  obtain ⟨e0, e1, -⟩ := lsIdx6 t
  show V c (Pipeline.arrRef spec6 0) (((cfg6.win 0).blk t).view.emb (ix2 p q)) = _
  refine congrArg (V c (Pipeline.arrRef spec6 0)) (funext fun a => Fin.ext ?_)
  match a with
  | ⟨0, _⟩ => show win6_0.index t (0 : Fin 2) * 5000 + 1 * p.val = 5000 * t.val + p.val; rw [e0]; omega
  | ⟨1, _⟩ => show win6_0.index t (1 : Fin 2) * 128 + 1 * q.val = q.val; rw [e1]; omega

theorem lsRd6_1 (V : EntryVal Ideal) (c : Dev nD) (t : Fin cfg6.N) (p : Fin 5000) (q : Fin 128) :
    xb6_1 V c t (ix2 p q) = V c (Pipeline.arrRef spec6 1) (ix2 (lsRow6 t p) q) := by
  obtain ⟨-, -, e0, e1, -⟩ := lsIdx6 t
  show V c (Pipeline.arrRef spec6 1) (((cfg6.win 1).blk t).view.emb (ix2 p q)) = _
  refine congrArg (V c (Pipeline.arrRef spec6 1)) (funext fun a => Fin.ext ?_)
  match a with
  | ⟨0, _⟩ => show win6_1.index t (0 : Fin 2) * 5000 + 1 * p.val = 5000 * t.val + p.val; rw [e0]; omega
  | ⟨1, _⟩ => show win6_1.index t (1 : Fin 2) * 128 + 1 * q.val = q.val; rw [e1]; omega

theorem lsRd6_2 (V : EntryVal Ideal) (c : Dev nD) (t : Fin cfg6.N) (p : Fin 1) (q : Fin 1) :
    xb6_2 V c t (ix2 p q) = V c (Pipeline.arrRef spec6 2) (ix2 p q) := by
  obtain ⟨-, -, -, -, e0, e1, -⟩ := lsIdx6 t
  show V c (Pipeline.arrRef spec6 2) (((cfg6.win 2).blk t).view.emb (ix2 p q)) = _
  refine congrArg (V c (Pipeline.arrRef spec6 2)) (funext fun a => Fin.ext ?_)
  match a with
  | ⟨0, _⟩ => show win6_2.index t (0 : Fin 2) * 1 + 1 * p.val = p.val; rw [e0]; omega
  | ⟨1, _⟩ => show win6_2.index t (1 : Fin 2) * 1 + 1 * q.val = q.val; rw [e1]; omega

theorem lsRd6_3 (V : EntryVal Ideal) (c : Dev nD) (t : Fin cfg6.N) (p : Fin 128) (q : Fin 128) :
    xb6_3 V c t (ix2 p q) = V c (Pipeline.arrRef spec6 3) (ix2 p q) := by
  obtain ⟨-, -, -, -, -, -, e0, e1, -⟩ := lsIdx6 t
  show V c (Pipeline.arrRef spec6 3) (((cfg6.win 3).blk t).view.emb (ix2 p q)) = _
  refine congrArg (V c (Pipeline.arrRef spec6 3)) (funext fun a => Fin.ext ?_)
  match a with
  | ⟨0, _⟩ => show win6_3.index t (0 : Fin 2) * 128 + 1 * p.val = p.val; rw [e0]; omega
  | ⟨1, _⟩ => show win6_3.index t (1 : Fin 2) * 128 + 1 * q.val = q.val; rw [e1]; omega

theorem lsRd6_4 (V : EntryVal Ideal) (c : Dev nD) (t : Fin cfg6.N) (p : Fin 1) (q : Fin 128) :
    xb6_4 V c t (ix2 p q) = V c (Pipeline.arrRef spec6 4) (ix2 p q) := by
  obtain ⟨-, -, -, -, -, -, -, -, e0, e1, -⟩ := lsIdx6 t
  show V c (Pipeline.arrRef spec6 4) (((cfg6.win 4).blk t).view.emb (ix2 p q)) = _
  refine congrArg (V c (Pipeline.arrRef spec6 4)) (funext fun a => Fin.ext ?_)
  match a with
  | ⟨0, _⟩ => show win6_4.index t (0 : Fin 2) * 1 + 1 * p.val = p.val; rw [e0]; omega
  | ⟨1, _⟩ => show win6_4.index t (1 : Fin 2) * 128 + 1 * q.val = q.val; rw [e1]; omega

/-- The block the body stores at point `t`, at an entry (the payload at the five input blocks). -/
def lsBlk6 (V : EntryVal Ideal) (c : Dev nD) (t : Fin cfg6.N) : FVec Ideal S5000x128 .f32 :=
  k6_pay6 (xb6_2 V c t) (xb6_0 V c t) (xb6_1 V c t) (xb6_3 V c t) (xb6_4 V c t)

/-- It is block `t` of the whole output matrix. -/
theorem lsBlk6_apply (V : EntryVal Ideal) (c : Dev nD) (t : Fin cfg6.N) (p : Fin 5000) (q : Fin 128) :
    lsBlk6 V c t (ix2 p q) = lsYV6 V c (lsRow6 t p) q := by
  unfold lsBlk6
  rw [k6_pay6_apply]
  unfold lsYV6
  rw [lsY6_apply]
  simp only [lsRd6_0, lsRd6_1, lsRd6_2, lsRd6_3, lsRd6_4]

/-! ## The output array -/

/-- The whole output array. -/
def lsG6 (V : EntryVal Ideal) (c : Dev nD) : S40000x128.Idx → EReal := fun i => lsYV6 V c (i 0) (i 1)

/-- Where an entry of point `t`'s output block sits in the array. -/
theorem lsEmb6_5 (t : Fin cfg6.N) (p : Fin 5000) (q : Fin 128) :
    ((cfg6.win 5).blk t).view.emb (ix2 p q) = ix2 (lsRow6 t p) q := by
  obtain ⟨-, -, -, -, -, -, -, -, -, -, e0, e1, -⟩ := lsIdx6 t
  refine funext fun a => Fin.ext ?_
  match a with
  | ⟨0, _⟩ => show win6_5.index t (0 : Fin 2) * 5000 + 1 * p.val = 5000 * t.val + p.val; rw [e0]; omega
  | ⟨1, _⟩ => show win6_5.index t (1 : Fin 2) * 128 + 1 * q.val = q.val; rw [e1]; omega

set_option maxHeartbeats 1000000 in
/-- What point `t` writes back of the output is block `t` of the whole output array. -/
theorem lsFlushed6_5 (V : EntryVal Ideal) (c : Dev nD) (t : Fin cfg6.N) :
    (dat6 V c).flushed 5 t = ((cfg6.win 5).blk t).view.read (Elt Ideal) (lsG6 V c) := by
  show (cfg6.win 5).cut (grid6.coords t) ((dat6 V c).after 5 t) = _
  rw [after6_5, yOut6_eq]
  funext j
  obtain ⟨p, q, rfl⟩ : ∃ (p : Fin 5000) (q : Fin 128), j = ix2 p q := ⟨j 0, j 1, eq_ix2 j⟩
  show lsBlk6 V c t (ix2 p q) = lsG6 V c (((cfg6.win 5).blk t).view.emb (ix2 p q))
  rw [lsEmb6_5, lsBlk6_apply]
  rfl

/-- An index of the output array is in point `t`'s block iff each coordinate is in the block's range on its axis. -/
theorem lsMem6_5 (t : Fin cfg6.N) (i : S40000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v121_0).slice (win6_5.rect t)).set ↔ _
  rw [View.set_slice_whole, Rect.mem_set_unit]
  exact Iff.rfl

/-- Every row of the output array is in the block of the point its number divided by 5000 names. -/
theorem lsCover6_5 (i : S40000x128.Idx) : ∃ t : Fin cfg6.N, (cfg6.win 5).flush t = true ∧ i ∈ ((cfg6.win 5).blk t).view.set := by
  have hi0 : (i 0).val < 40000 := (i 0).isLt
  have hi1 : (i 1).val < 128 := (i 1).isLt
  let t : Fin cfg6.N := ⟨(i 0).val / 5000, by rw [show cfg6.N = 8 from N_6]; omega⟩
  obtain ⟨-, -, -, -, -, -, -, -, -, -, e0, e1, -⟩ := lsIdx6 t
  have ht : t.val = (i 0).val / 5000 := rfl
  refine ⟨t, flush6_5 t, ?_⟩
  rw [lsMem6_5]
  intro a
  match a with
  | ⟨0, _⟩ => show win6_5.index t (0 : Fin 2) * 5000 ≤ (i 0).val ∧ (i 0).val < win6_5.index t (0 : Fin 2) * 5000 + 5000; rw [e0]; omega
  | ⟨1, _⟩ => show win6_5.index t (1 : Fin 2) * 128 ≤ (i 1).val ∧ (i 1).val < win6_5.index t (1 : Fin 2) * 128 + 128; rw [e1]; omega

/-- The output array after the region. -/
theorem final6_y (V : EntryVal Ideal) (c : Dev nD) :
    toMat ((dat6 V c).arrAt 5 cfg6.N)
      = lin (comb (V c (Pipeline.arrRef spec6 2) (ix2 0 0)) (toMat (V c (Pipeline.arrRef spec6 0))) (toMat (V c (Pipeline.arrRef spec6 1))))
          (toWt (V c (Pipeline.arrRef spec6 3))) (toRow (V c (Pipeline.arrRef spec6 4))) := by
  rw [(dat6 V c).arrAt_eq_of_cover 5 (lsG6 V c) (fun t _ => lsFlushed6_5 V c t) lsCover6_5]
  rfl

/-! ## The statistics array -/

/-- Point `t`'s block's column sum, and column sum of squares, at column `q` (zero past the grid). -/
def lsB6 (V : EntryVal Ideal) (c : Dev nD) (q : Fin 128) (t : ℕ) : EReal :=
  if h : t < cfg6.N then ∑ p : Fin 5000, lsBlk6 V c ⟨t, h⟩ (ix2 p q) else 0
def lsBq6 (V : EntryVal Ideal) (c : Dev nD) (q : Fin 128) (t : ℕ) : EReal :=
  if h : t < cfg6.N then ∑ p : Fin 5000, lsBlk6 V c ⟨t, h⟩ (ix2 p q) * lsBlk6 V c ⟨t, h⟩ (ix2 p q) else 0

/-- The accumulators before point `n` hold the sums of the earlier blocks' column sums. -/
theorem lsAcc6 (V : EntryVal Ideal) (c : Dev nD) (q : Fin 128) : ∀ (n : ℕ), n ≤ cfg6.N →
    (SQ6 V c n).1 (ix2 0 q) = ∑ s ∈ Finset.range n, lsB6 V c q s
      ∧ (SQ6 V c n).2 (ix2 0 q) = ∑ s ∈ Finset.range n, lsBq6 V c q s
  | 0, _ => by
    rw [SQ6_zero, Finset.sum_range_zero, Finset.sum_range_zero]
    exact ⟨k6_pay4_apply (ix2 0 q), k6_pay5_apply (ix2 0 q)⟩
  | n + 1, hn => by
    have h : n < cfg6.N := hn
    obtain ⟨h1, h2⟩ := lsAcc6 V c q n (Nat.le_of_lt h)
    have e1 := SQ6_succ_fst V c ⟨n, h⟩
    have e2 := SQ6_succ_snd V c ⟨n, h⟩
    dsimp only at e1 e2
    rw [Finset.sum_range_succ, Finset.sum_range_succ, ← h1, ← h2, e1, e2, sOut6_eq, qOut6_eq]
    unfold lsB6 lsBq6
    rw [dif_pos h, dif_pos h]
    exact ⟨k6_pay7_apply _ _ _ _ _ _ q, (k6_pay1_apply _ _).trans (k6_pay8_apply _ _ _ _ _ _ q)⟩

/-- The eight blocks' column sums add up to the column sums over all rows. -/
theorem lsTotal6 (V : EntryVal Ideal) (c : Dev nD) (q : Fin 128) :
    ∑ s ∈ Finset.range (7 + 1), lsB6 V c q s = csum (lsYV6 V c) q := by
  unfold csum
  refine Cert.Lib.sum_range_blocks_of_eq (nb := 8) (bs := 5000) (N := 40000) rfl (fun r => lsYV6 V c r q) (lsB6 V c q) ?_
  intro t ht
  have ht' : t < cfg6.N := lt_of_lt_of_eq ht N_6.symm
  unfold lsB6
  rw [dif_pos ht']
  exact Finset.sum_congr rfl fun p _ => lsBlk6_apply V c ⟨t, ht'⟩ p q

theorem lsTotalSq6 (V : EntryVal Ideal) (c : Dev nD) (q : Fin 128) :
    ∑ s ∈ Finset.range (7 + 1), lsBq6 V c q s = csumsq (lsYV6 V c) q := by
  unfold csumsq
  refine Cert.Lib.sum_range_blocks_of_eq (nb := 8) (bs := 5000) (N := 40000) rfl (fun r => lsYV6 V c r q * lsYV6 V c r q) (lsBq6 V c q) ?_
  intro t ht
  have ht' : t < cfg6.N := lt_of_lt_of_eq ht N_6.symm
  unfold lsBq6
  rw [dif_pos ht']
  exact Finset.sum_congr rfl fun p _ => by rw [lsBlk6_apply V c ⟨t, ht'⟩ p q]; rfl

/-- Rows 0 and 1 of the statistics block as the images of the row block under the two row rectangles. -/
theorem lsRowEmb6_0 (q : Fin 128) : (ix2 (0 : Fin 2) q : S2x128.Idx) = rSt6_0.emb (ix2 (0 : Fin 1) q) :=
  funext fun a => Fin.ext (by
    match a with
    | ⟨0, _⟩ => rfl
    | ⟨1, _⟩ => show q.val = 0 + 1 * q.val; omega)
theorem lsRowEmb6_1 (q : Fin 128) : (ix2 (1 : Fin 2) q : S2x128.Idx) = rSt6_1.emb (ix2 (0 : Fin 1) q) :=
  funext fun a => Fin.ext (by
    match a with
    | ⟨0, _⟩ => rfl
    | ⟨1, _⟩ => show q.val = 0 + 1 * q.val; omega)

/-- Row 0 is not under the store of row 1. -/
theorem lsRowNot6 (q : Fin 128) : (ix2 (0 : Fin 2) q : S2x128.Idx) ∉ rSt6_1.set := by
  rw [Rect.mem_set_unit]
  intro h
  have h0 : (1 : ℕ) ≤ 0 := (h 0).1
  omega

/-- Off the last store's rectangle, the contents are what the earlier stores left. -/
theorem lsCanonOff6 {S : Shape} {e : EltTy} (r : Rect S) (w : r.shape.Idx → Elt Ideal e) (L : List (View.Piece (Elt Ideal) S e))
    {y : S.Idx} (h : y ∉ r.set) : View.canon (⟨r, w⟩ :: L) y = View.canon L y :=
  View.canon_cons_of_not_mem ⟨r, w⟩ L h

/-- The statistics block the last point stores, row by row, from the accumulators. -/
theorem lsStats6_0 (s sq : Vec Ideal S1x128 .f32) (q : Fin 128) : stOut6 s sq (ix2 (0 : Fin 2) q) = s (ix2 0 q) * invN := by
  rw [stOut6_eq, lsCanonOff6 _ _ _ (lsRowNot6 q), lsRowEmb6_0, View.canon_cons_emb]
  exact k6_pay2_apply _ _

theorem lsStats6_1 (s sq : Vec Ideal S1x128 .f32) (q : Fin 128) :
    stOut6 s sq (ix2 (1 : Fin 2) q) = max (sq (ix2 0 q) * invN - (s (ix2 0 q) * invN) * (s (ix2 0 q) * invN)) 0 := by
  rw [stOut6_eq, lsRowEmb6_1, View.canon_cons_emb]
  exact k6_pay3_apply _ _ _

/-- The whole statistics array: row 0 the column means, row 1 the clamped column variances of the output matrix. -/
def lsS6 (V : EntryVal Ideal) (c : Dev nD) : S2x128.Idx → EReal :=
  fun i => if (i 0).val = 0 then meanK (lsYV6 V c) (i 1) else varK (lsYV6 V c) (i 1)

/-- What the last point leaves in the statistics window's buffer is the whole statistics array. -/
theorem lsStatsAt6 (V : EntryVal Ideal) (c : Dev nD) (t : Fin cfg6.N) (h7 : t.val = 7) (p : Fin 2) (q : Fin 128) :
    stOut6 (SQ6 V c (t.val + 1)).1 (SQ6 V c (t.val + 1)).2 (ix2 p q) = lsS6 V c (ix2 p q) := by
  have hle : t.val + 1 ≤ cfg6.N := t.isLt
  have h1 : (SQ6 V c (t.val + 1)).1 (ix2 0 q) = csum (lsYV6 V c) q := by
    rw [(lsAcc6 V c q (t.val + 1) hle).1, h7]; exact lsTotal6 V c q
  have h2 : (SQ6 V c (t.val + 1)).2 (ix2 0 q) = csumsq (lsYV6 V c) q := by
    rw [(lsAcc6 V c q (t.val + 1) hle).2, h7]; exact lsTotalSq6 V c q
  rcases p with ⟨_ | _ | p, hp⟩
  · refine (lsStats6_0 _ _ q).trans ?_
    rw [h1]; rfl
  · refine (lsStats6_1 _ _ q).trans ?_
    rw [h1, h2]; rfl
  · omega

theorem lsEmb6_6 (t : Fin cfg6.N) (p : Fin 2) (q : Fin 128) :
    ((cfg6.win 6).blk t).view.emb (ix2 p q) = ix2 p q := by
  obtain ⟨-, -, -, -, -, -, -, -, -, -, -, -, e0, e1⟩ := lsIdx6 t
  refine funext fun a => Fin.ext ?_
  match a with
  | ⟨0, _⟩ => show win6_6.index t (0 : Fin 2) * 2 + 1 * p.val = p.val; rw [e0]; omega
  | ⟨1, _⟩ => show win6_6.index t (1 : Fin 2) * 128 + 1 * q.val = q.val; rw [e1]; omega

set_option maxHeartbeats 1000000 in
/-- What the one flushing point writes back of the statistics is the whole statistics array. -/
theorem lsFlushed6_6 (V : EntryVal Ideal) (c : Dev nD) (t : Fin cfg6.N) (hf : (cfg6.win 6).flush t = true) :
    (dat6 V c).flushed 6 t = ((cfg6.win 6).blk t).view.read (Elt Ideal) (lsS6 V c) := by
  have h7 : t.val = 7 := by have h := (flush6_6 t).mp hf; have := lsPt6 t; omega
  show (cfg6.win 6).cut (grid6.coords t) ((dat6 V c).after 6 t) = _
  rw [after6_6]
  funext j
  obtain ⟨p, q, rfl⟩ : ∃ (p : Fin 2) (q : Fin 128), j = ix2 p q := ⟨j 0, j 1, eq_ix2 j⟩
  show stOut6 (SQ6 V c (t.val + 1)).1 (SQ6 V c (t.val + 1)).2 (ix2 p q) = lsS6 V c (((cfg6.win 6).blk t).view.emb (ix2 p q))
  rw [lsEmb6_6]
  exact lsStatsAt6 V c t h7 p q

theorem lsMem6_6 (t : Fin cfg6.N) (i : S2x128.Idx) :
    i ∈ ((cfg6.win 6).blk t).view.set ↔ ∀ a : Fin 2, win6_6.index t a * S2x128.size a ≤ (i a).val ∧ (i a).val < win6_6.index t a * S2x128.size a + S2x128.size a := by
  show i ∈ ((View.whole main_v121_1).slice (win6_6.rect t)).set ↔ _
  rw [View.set_slice_whole, Rect.mem_set_unit]
  exact Iff.rfl

/-- The last point's block is the whole statistics array. -/
theorem lsCover6_6 (i : S2x128.Idx) : ∃ t : Fin cfg6.N, (cfg6.win 6).flush t = true ∧ i ∈ ((cfg6.win 6).blk t).view.set := by
  have hi0 : (i 0).val < 2 := (i 0).isLt
  have hi1 : (i 1).val < 128 := (i 1).isLt
  let t : Fin cfg6.N := ⟨7, by rw [show cfg6.N = 8 from N_6]; omega⟩
  obtain ⟨-, -, -, -, -, -, -, -, -, -, -, -, e0, e1⟩ := lsIdx6 t
  refine ⟨t, (flush6_6 t).mpr rfl, ?_⟩
  rw [lsMem6_6]
  intro a
  match a with
  | ⟨0, _⟩ => show win6_6.index t (0 : Fin 2) * 2 ≤ (i 0).val ∧ (i 0).val < win6_6.index t (0 : Fin 2) * 2 + 2; rw [e0]; omega
  | ⟨1, _⟩ => show win6_6.index t (1 : Fin 2) * 128 ≤ (i 1).val ∧ (i 1).val < win6_6.index t (1 : Fin 2) * 128 + 128; rw [e1]; omega

/-- The statistics array after the region: the column means and clamped column variances of the output matrix. -/
theorem final6_stats (V : EntryVal Ideal) (c : Dev nD) (j : Fin 128) :
    (dat6 V c).arrAt 6 cfg6.N (ix2 0 j)
        = meanK (lin (comb (V c (Pipeline.arrRef spec6 2) (ix2 0 0)) (toMat (V c (Pipeline.arrRef spec6 0))) (toMat (V c (Pipeline.arrRef spec6 1))))
          (toWt (V c (Pipeline.arrRef spec6 3))) (toRow (V c (Pipeline.arrRef spec6 4)))) j
      ∧ (dat6 V c).arrAt 6 cfg6.N (ix2 1 j)
        = varK (lin (comb (V c (Pipeline.arrRef spec6 2) (ix2 0 0)) (toMat (V c (Pipeline.arrRef spec6 0))) (toMat (V c (Pipeline.arrRef spec6 1))))
          (toWt (V c (Pipeline.arrRef spec6 3))) (toRow (V c (Pipeline.arrRef spec6 4)))) j := by
  rw [(dat6 V c).arrAt_eq_of_cover 6 (lsS6 V c) (fun t hf => lsFlushed6_6 V c t hf) lsCover6_6]
  exact ⟨rfl, rfl⟩

end Cert.KernelIdeal.Hand

end
-- ==== Proof.KI.Pay7.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec
import proofs.«110361_j29403346109051_2_alg».proof.Proof.KI.Pay0

noncomputable section

open Idealize.ShloMosaic Idealize.ShloMosaic.ValueIdx Cert.KernelIdeal Cert.KernelIdeal.Gen Cert.Spec

namespace Cert.KernelIdeal.Hand

/-- The second linear map with its rectifiers at an entry: max(max(bn(y), 0) · W + b, 0). -/
theorem k7_pay7_apply (mu var g : Vec Ideal S1x128 .f32) (yb : Vec Ideal S5000x128 .f32) (bt : Vec Ideal S1x128 .f32)
    (w : Vec Ideal S128x128 .f32) (b : Vec Ideal S1x128 .f32) (p : Fin 5000) (q : Fin 128) :
    k7_pay7 mu var g yb bt w b (ix2 p q)
      = max ((∑ k : Fin 128, max (g (ix2 0 k) * (yb (ix2 p k) - mu (ix2 0 k)) * Ideal.rsqrt (var (ix2 0 k) + epsB) + bt (ix2 0 k)) 0
          * w (ix2 k q)) + b (ix2 0 q)) 0 := by
  unfold k7_pay7
  simp only [shapeCast_self]
  rw [maximumf_apply, addf_apply, broadcastTo_1b_ab_apply, broadcast_apply]
  refine (congrArg (max _) Ideal.ofBits_zero_f32).trans ?_
  refine congrArg (fun z => max (z + b (ix2 0 q)) 0) ?_
  refine (matmul_zero_apply _ _ p q).trans ?_
  refine Finset.sum_congr rfl fun k _ => congrArg (· * w (ix2 k q)) ?_
  rw [maximumf_apply, addf_apply, mulf_apply, mulf_apply, subf_apply, broadcast_apply,
    broadcastTo_1b_ab_apply, broadcastTo_1b_ab_apply, broadcastTo_1b_ab_apply, broadcastTo_1b_ab_apply]
  exact congrArg (max _) Ideal.ofBits_zero_f32

/-- The running column sums after a block. -/
theorem k7_pay1_apply (t2b : FVec Ideal S5000x128 .f32) (acc : Vec Ideal S1x128 .f32) (q : Fin 128) :
    k7_pay1 t2b acc (ix2 0 q) = acc (ix2 0 q) + ∑ p : Fin 5000, t2b (ix2 p q) := by
  unfold k7_pay1
  simp only [shapeCast_self]
  rw [addf_apply]
  exact congrArg (acc (ix2 0 q) + ·) (colsum_apply _ _ _ q)

/-- The running column sums of squares after a block. -/
theorem k7_pay2_apply (t2b : FVec Ideal S5000x128 .f32) (acc : Vec Ideal S1x128 .f32) (q : Fin 128) :
    k7_pay2 t2b acc (ix2 0 q) = acc (ix2 0 q) + ∑ p : Fin 5000, t2b (ix2 p q) * t2b (ix2 p q) := by
  unfold k7_pay2
  simp only [shapeCast_self]
  rw [addf_apply]
  refine congrArg (acc (ix2 0 q) + ·) ((colsum_apply _ _ _ q).trans ?_)
  exact Finset.sum_congr rfl fun p _ => mulf_apply _ _ _

/-- The column mean: the column sum times 1/40000. -/
theorem k7_pay3_apply (s : Vec Ideal S1x128 .f32) (q : Fin 128) : k7_pay3 s (ix2 0 q) = s (ix2 0 q) * invN := by
  simp only [k7_pay3, mulf_apply, broadcast_apply]
  exact congrArg (s (ix2 0 q) * ·) inv_n

/-- The column variance: mean of squares minus square of mean, clamped at 0. -/
theorem k7_pay4_apply (s sq : Vec Ideal S1x128 .f32) (q : Fin 128) :
    k7_pay4 s sq (ix2 0 q) = max (sq (ix2 0 q) * invN - (s (ix2 0 q) * invN) * (s (ix2 0 q) * invN)) 0 := by
  simp only [k7_pay4, maximumf_apply, subf_apply, mulf_apply, broadcast_apply, k7_pay3_apply, inv_n]
  exact congrArg (max _) Ideal.ofBits_zero_f32

theorem k7_pay5_apply (i : S1x128.Idx) : (k7_pay5 (F := Ideal)) i = 0 := by
  simp only [k7_pay5, shapeCast_self, broadcast_apply]
  exact Ideal.ofBits_zero_f32

theorem k7_pay6_apply (i : S1x128.Idx) : (k7_pay6 (F := Ideal)) i = 0 := by
  simp only [k7_pay6, shapeCast_self, broadcast_apply]
  exact Ideal.ofBits_zero_f32

end Cert.KernelIdeal.Hand

end
-- ==== Proof.KI.Val7.lean ====
import proofs.«110361_j29403346109051_2_alg».proof.Proof.KI.Reg7
import proofs.«110361_j29403346109051_2_alg».proof.Proof.Spec
import proofs.«110361_j29403346109051_2_alg».proof.Proof.LibBlockSum
import proofs.«110361_j29403346109051_2_alg».proof.Proof.KI.Pay7
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 7's values: the output array is the second linear map of the rectified normalised input, rectified;
the statistics array holds its column means and clamped column variances -/

/-- A whole-block access starts at the origin. -/
theorem bsrOrigin7 : (![0, 0] : Fin 2 → Nat) = fun _ => 0 := funext fun a => by fin_cases a <;> rfl

/-- The grid has eight points. -/
theorem bsrPt7 (t : Fin cfg7.N) : t.val < 8 := lt_of_lt_of_eq t.isLt N_7

/-- The array row that row `p` of point `t`'s block is. -/
def bsrRow7 (t : Fin cfg7.N) (p : Fin 5000) : Fin 40000 := ⟨5000 * t.val + p.val, by have := bsrPt7 t; have := p.isLt; omega⟩

/-- Row 0 of the statistics block, loaded, at a column. -/
theorem bsrLdM7 (x1 : Vec Ideal S2x128 .f32) (q : Fin 128) : View.ld x1 rS7_0 (ix2 (0 : Fin 1) q) = x1 (ix2 (0 : Fin 2) q) := by
  show x1 (rS7_0.idx (ix2 (0 : Fin 1) q)) = _
  refine congrArg x1 (funext fun a => Fin.ext ?_)
  match a with
  | ⟨0, _⟩ => rfl
  | ⟨1, _⟩ => show 0 + 1 * q.val = q.val; omega

/-- Row 1 of the statistics block, loaded, at a column. -/
theorem bsrLdV7 (x1 : Vec Ideal S2x128 .f32) (q : Fin 128) : View.ld x1 rS7_1 (ix2 (0 : Fin 1) q) = x1 (ix2 (1 : Fin 2) q) := by
  show x1 (rS7_1.idx (ix2 (0 : Fin 1) q)) = _
  refine congrArg x1 (funext fun a => Fin.ext ?_)
  match a with
  | ⟨0, _⟩ => rfl
  | ⟨1, _⟩ => show 0 + 1 * q.val = q.val; omega

/-- The block the body stores, at an entry, from the input blocks. -/
theorem bsrBlk7 (x0 : Vec Ideal S5000x128 .f32) (x1 : Vec Ideal S2x128 .f32) (x2 x3 : Vec Ideal S1x128 .f32)
    (x4 : Vec Ideal S128x128 .f32) (x5 : Vec Ideal S1x128 .f32) (p : Fin 5000) (q : Fin 128) :
    blk7 x0 x1 x2 x3 x4 x5 (ix2 p q)
      = max ((∑ k : Fin 128, max (x2 (ix2 0 k) * (x0 (ix2 p k) - x1 (ix2 0 k)) * Ideal.rsqrt (x1 (ix2 1 k) + epsB) + x3 (ix2 0 k)) 0
          * x4 (ix2 k q)) + x5 (ix2 0 q)) 0 := by
  unfold blk7
  simp only [View.ld_unit_zero (S := S5000x128) bsrOrigin7, View.ld_unit_zero (S := S1x128) bsrOrigin7,
    View.ld_unit_zero (S := S128x128) bsrOrigin7]
  rw [k7_pay7_apply]
  refine congrArg (fun z => max (z + x5 (ix2 0 q)) 0) (Finset.sum_congr rfl fun k _ => ?_)
  rw [bsrLdM7, bsrLdV7]

/-- The whole output matrix as one function of the input arrays. -/
def bsrT7 (a0 : S40000x128.Idx → EReal) (a1 : S2x128.Idx → EReal) (a2 a3 : S1x128.Idx → EReal)
    (a4 : S128x128.Idx → EReal) (a5 : S1x128.Idx → EReal) : Mat :=
  relu (lin (relu (bn (toMat a0) (fun j => a1 (ix2 0 j)) (fun j => a1 (ix2 1 j)) (toRow a2) (toRow a3))) (toWt a4) (toRow a5))

theorem bsrT7_apply (a0 : S40000x128.Idx → EReal) (a1 : S2x128.Idx → EReal) (a2 a3 : S1x128.Idx → EReal)
    (a4 : S128x128.Idx → EReal) (a5 : S1x128.Idx → EReal) (r : Fin 40000) (q : Fin 128) :
    bsrT7 a0 a1 a2 a3 a4 a5 r q
      = max ((∑ k : Fin 128, max (a2 (ix2 0 k) * (a0 (ix2 r k) - a1 (ix2 0 k)) * Ideal.rsqrt (a1 (ix2 1 k) + epsB) + a3 (ix2 0 k)) 0
          * a4 (ix2 k q)) + a5 (ix2 0 q)) 0 := rfl

/-- That matrix of the arrays as the region finds them. -/
def bsrTV7 (V : EntryVal Ideal) (c : Dev nD) : Mat :=
  bsrT7 (V c (Pipeline.arrRef spec7 0)) (V c (Pipeline.arrRef spec7 1)) (V c (Pipeline.arrRef spec7 2)) (V c (Pipeline.arrRef spec7 3))
    (V c (Pipeline.arrRef spec7 4)) (V c (Pipeline.arrRef spec7 5))

/-- The printed index maps, decided over the grid: the row-block windows are at block (t, 0), the others at (0, 0). -/
theorem bsrIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0
    ∧ win7_7.index t (0 : Fin 2) = 0 ∧ win7_7.index t (1 : Fin 2) = 0 :=
  (by decide +kernel : ∀ t : Fin grid7.N, _)

/-- The input blocks, read at an entry, are the arrays' entries there. -/
theorem bsrRd7_0 (V : EntryVal Ideal) (c : Dev nD) (t : Fin cfg7.N) (p : Fin 5000) (q : Fin 128) :
    iblk7 V c 0 t (ix2 p q) = V c (Pipeline.arrRef spec7 0) (ix2 (bsrRow7 t p) q) := by
  obtain ⟨e0, e1, -⟩ := bsrIdx7 t
  show V c (Pipeline.arrRef spec7 0) (((cfg7.win 0).blk t).view.emb (ix2 p q)) = _
  refine congrArg (V c (Pipeline.arrRef spec7 0)) (funext fun a => Fin.ext ?_)
  match a with
  | ⟨0, _⟩ => show win7_0.index t (0 : Fin 2) * 5000 + 1 * p.val = 5000 * t.val + p.val; rw [e0]; omega
  | ⟨1, _⟩ => show win7_0.index t (1 : Fin 2) * 128 + 1 * q.val = q.val; rw [e1]; omega

theorem bsrRd7_1 (V : EntryVal Ideal) (c : Dev nD) (t : Fin cfg7.N) (p : Fin 2) (q : Fin 128) :
    iblk7 V c 1 t (ix2 p q) = V c (Pipeline.arrRef spec7 1) (ix2 p q) := by
  obtain ⟨-, -, e0, e1, -⟩ := bsrIdx7 t
  show V c (Pipeline.arrRef spec7 1) (((cfg7.win 1).blk t).view.emb (ix2 p q)) = _
  refine congrArg (V c (Pipeline.arrRef spec7 1)) (funext fun a => Fin.ext ?_)
  match a with
  | ⟨0, _⟩ => show win7_1.index t (0 : Fin 2) * 2 + 1 * p.val = p.val; rw [e0]; omega
  | ⟨1, _⟩ => show win7_1.index t (1 : Fin 2) * 128 + 1 * q.val = q.val; rw [e1]; omega

theorem bsrRd7_2 (V : EntryVal Ideal) (c : Dev nD) (t : Fin cfg7.N) (p : Fin 1) (q : Fin 128) :
    iblk7 V c 2 t (ix2 p q) = V c (Pipeline.arrRef spec7 2) (ix2 p q) := by
  obtain ⟨-, -, -, -, e0, e1, -⟩ := bsrIdx7 t
  show V c (Pipeline.arrRef spec7 2) (((cfg7.win 2).blk t).view.emb (ix2 p q)) = _
  refine congrArg (V c (Pipeline.arrRef spec7 2)) (funext fun a => Fin.ext ?_)
  match a with
  | ⟨0, _⟩ => show win7_2.index t (0 : Fin 2) * 1 + 1 * p.val = p.val; rw [e0]; omega
  | ⟨1, _⟩ => show win7_2.index t (1 : Fin 2) * 128 + 1 * q.val = q.val; rw [e1]; omega

theorem bsrRd7_3 (V : EntryVal Ideal) (c : Dev nD) (t : Fin cfg7.N) (p : Fin 1) (q : Fin 128) :
    iblk7 V c 3 t (ix2 p q) = V c (Pipeline.arrRef spec7 3) (ix2 p q) := by
  obtain ⟨-, -, -, -, -, -, e0, e1, -⟩ := bsrIdx7 t
  show V c (Pipeline.arrRef spec7 3) (((cfg7.win 3).blk t).view.emb (ix2 p q)) = _
  refine congrArg (V c (Pipeline.arrRef spec7 3)) (funext fun a => Fin.ext ?_)
  match a with
  | ⟨0, _⟩ => show win7_3.index t (0 : Fin 2) * 1 + 1 * p.val = p.val; rw [e0]; omega
  | ⟨1, _⟩ => show win7_3.index t (1 : Fin 2) * 128 + 1 * q.val = q.val; rw [e1]; omega

theorem bsrRd7_4 (V : EntryVal Ideal) (c : Dev nD) (t : Fin cfg7.N) (p : Fin 128) (q : Fin 128) :
    iblk7 V c 4 t (ix2 p q) = V c (Pipeline.arrRef spec7 4) (ix2 p q) := by
  obtain ⟨-, -, -, -, -, -, -, -, e0, e1, -⟩ := bsrIdx7 t
  show V c (Pipeline.arrRef spec7 4) (((cfg7.win 4).blk t).view.emb (ix2 p q)) = _
  refine congrArg (V c (Pipeline.arrRef spec7 4)) (funext fun a => Fin.ext ?_)
  match a with
  | ⟨0, _⟩ => show win7_4.index t (0 : Fin 2) * 128 + 1 * p.val = p.val; rw [e0]; omega
  | ⟨1, _⟩ => show win7_4.index t (1 : Fin 2) * 128 + 1 * q.val = q.val; rw [e1]; omega

theorem bsrRd7_5 (V : EntryVal Ideal) (c : Dev nD) (t : Fin cfg7.N) (p : Fin 1) (q : Fin 128) :
    iblk7 V c 5 t (ix2 p q) = V c (Pipeline.arrRef spec7 5) (ix2 p q) := by
  obtain ⟨-, -, -, -, -, -, -, -, -, -, e0, e1, -⟩ := bsrIdx7 t
  show V c (Pipeline.arrRef spec7 5) (((cfg7.win 5).blk t).view.emb (ix2 p q)) = _
  refine congrArg (V c (Pipeline.arrRef spec7 5)) (funext fun a => Fin.ext ?_)
  match a with
  | ⟨0, _⟩ => show win7_5.index t (0 : Fin 2) * 1 + 1 * p.val = p.val; rw [e0]; omega
  | ⟨1, _⟩ => show win7_5.index t (1 : Fin 2) * 128 + 1 * q.val = q.val; rw [e1]; omega

/-- The block stored at point `t` is block `t` of the whole output matrix. -/
theorem bsrTblk7 (V : EntryVal Ideal) (c : Dev nD) (t : Fin cfg7.N) (p : Fin 5000) (q : Fin 128) :
    tblk7 V c t (ix2 p q) = bsrTV7 V c (bsrRow7 t p) q := by
  unfold tblk7
  refine (bsrBlk7 (iblk7 V c 0 t) (iblk7 V c 1 t) (iblk7 V c 2 t) (iblk7 V c 3 t) (iblk7 V c 4 t) (iblk7 V c 5 t) p q).trans ?_
  unfold bsrTV7
  rw [bsrT7_apply]
  simp only [bsrRd7_0, bsrRd7_1, bsrRd7_2, bsrRd7_3, bsrRd7_4, bsrRd7_5]

/-! ## The output array -/

theorem bsrAfter7_6 (V : EntryVal Ideal) (c : Dev nD) (t : Fin cfg7.N) :
    (dat7 V c).after 6 t = View.canon [⟨rA7, tblk7 V c t⟩] := by dsimp only [dat7]
theorem bsrAfter7_7 (V : EntryVal Ideal) (c : Dev nD) (t : Fin cfg7.N) :
    (dat7 V c).after 7 t = stats7 (acc7 V c t.val t.isLt).1 (acc7 V c t.val t.isLt).2 := by dsimp only [dat7]

/-- The whole output array. -/
def bsrG7 (V : EntryVal Ideal) (c : Dev nD) : S40000x128.Idx → EReal := fun i => bsrTV7 V c (i 0) (i 1)

/-- Where an entry of point `t`'s output block sits in the array. -/
theorem bsrEmb7_6 (t : Fin cfg7.N) (p : Fin 5000) (q : Fin 128) :
    ((cfg7.win 6).blk t).view.emb (ix2 p q) = ix2 (bsrRow7 t p) q := by
  obtain ⟨-, -, -, -, -, -, -, -, -, -, -, -, e0, e1, -⟩ := bsrIdx7 t
  refine funext fun a => Fin.ext ?_
  match a with
  | ⟨0, _⟩ => show win7_6.index t (0 : Fin 2) * 5000 + 1 * p.val = 5000 * t.val + p.val; rw [e0]; omega
  | ⟨1, _⟩ => show win7_6.index t (1 : Fin 2) * 128 + 1 * q.val = q.val; rw [e1]; omega

set_option maxHeartbeats 1000000 in
/-- What point `t` writes back of the output is block `t` of the whole output array. -/
theorem bsrFlushed7_6 (V : EntryVal Ideal) (c : Dev nD) (t : Fin cfg7.N) :
    (dat7 V c).flushed 6 t = ((cfg7.win 6).blk t).view.read (Elt Ideal) (bsrG7 V c) := by
  show (cfg7.win 6).cut (grid7.coords t) ((dat7 V c).after 6 t) = _
  rw [bsrAfter7_6, View.canon_unit_zero bsrOrigin7]
  funext j
  obtain ⟨p, q, rfl⟩ : ∃ (p : Fin 5000) (q : Fin 128), j = ix2 p q := ⟨j 0, j 1, eq_ix2 j⟩
  show tblk7 V c t (ix2 p q) = bsrG7 V c (((cfg7.win 6).blk t).view.emb (ix2 p q))
  rw [bsrEmb7_6, bsrTblk7]
  rfl

/-- An index of the output array is in point `t`'s block iff each coordinate is in the block's range on its axis. -/
theorem bsrMem7_6 (t : Fin cfg7.N) (i : S40000x128.Idx) :
    i ∈ ((cfg7.win 6).blk t).view.set ↔ ∀ a : Fin 2, win7_6.index t a * S5000x128.size a ≤ (i a).val ∧ (i a).val < win7_6.index t a * S5000x128.size a + S5000x128.size a := by
  show i ∈ ((View.whole main_v124_0).slice (win7_6.rect t)).set ↔ _
  rw [View.set_slice_whole, Rect.mem_set_unit]
  exact Iff.rfl

/-- Every row of the output array is in the block of the point its number divided by 5000 names. -/
theorem bsrCover7_6 (i : S40000x128.Idx) : ∃ t : Fin cfg7.N, (cfg7.win 6).flush t = true ∧ i ∈ ((cfg7.win 6).blk t).view.set := by
  have hi0 : (i 0).val < 40000 := (i 0).isLt
  have hi1 : (i 1).val < 128 := (i 1).isLt
  let t : Fin cfg7.N := ⟨(i 0).val / 5000, by rw [show cfg7.N = 8 from N_7]; omega⟩
  obtain ⟨-, -, -, -, -, -, -, -, -, -, -, -, e0, e1, -⟩ := bsrIdx7 t
  have ht : t.val = (i 0).val / 5000 := rfl
  refine ⟨t, flush7_6 t, ?_⟩
  rw [bsrMem7_6]
  intro a
  match a with
  | ⟨0, _⟩ => show win7_6.index t (0 : Fin 2) * 5000 ≤ (i 0).val ∧ (i 0).val < win7_6.index t (0 : Fin 2) * 5000 + 5000; rw [e0]; omega
  | ⟨1, _⟩ => show win7_6.index t (1 : Fin 2) * 128 ≤ (i 1).val ∧ (i 1).val < win7_6.index t (1 : Fin 2) * 128 + 128; rw [e1]; omega

/-- The output array after the region. -/
theorem final7_t2 (V : EntryVal Ideal) (c : Dev nD) :
    toMat ((dat7 V c).arrAt 6 cfg7.N)
      = relu (lin (relu (bn (toMat (V c (Pipeline.arrRef spec7 0))) (fun j => V c (Pipeline.arrRef spec7 1) (ix2 0 j))
          (fun j => V c (Pipeline.arrRef spec7 1) (ix2 1 j)) (toRow (V c (Pipeline.arrRef spec7 2))) (toRow (V c (Pipeline.arrRef spec7 3)))))
          (toWt (V c (Pipeline.arrRef spec7 4))) (toRow (V c (Pipeline.arrRef spec7 5)))) := by
  rw [(dat7 V c).arrAt_eq_of_cover 6 (bsrG7 V c) (fun t _ => bsrFlushed7_6 V c t) bsrCover7_6]
  rfl

/-! ## The statistics array -/

/-- The accumulators' reset values are zero. -/
theorem bsrSum0_7 (q : Fin 128) : (sum0_7 (F := Ideal)) (ix2 0 q) = 0 := by
  unfold sum0_7; rw [View.canon_unit_zero bsrOrigin7]; exact k7_pay5_apply _
theorem bsrSq0_7 (q : Fin 128) : (sq0_7 (F := Ideal)) (ix2 0 q) = 0 := by
  unfold sq0_7; rw [View.canon_unit_zero bsrOrigin7]; exact k7_pay6_apply _

/-- One point adds its block's column sums (of squares) to the accumulator. -/
theorem bsrSumStep7 (y : FVec Ideal S5000x128 .f32) (s : Vec Ideal S1x128 .f32) (q : Fin 128) :
    sumStep7 y s (ix2 0 q) = s (ix2 0 q) + ∑ p : Fin 5000, y (ix2 p q) := by
  unfold sumStep7; rw [View.canon_unit_zero bsrOrigin7]
  simp only [View.ld_unit_zero (S := S1x128) bsrOrigin7]
  exact k7_pay1_apply _ _ _
theorem bsrSqStep7 (y : FVec Ideal S5000x128 .f32) (s : Vec Ideal S1x128 .f32) (q : Fin 128) :
    sqStep7 y s (ix2 0 q) = s (ix2 0 q) + ∑ p : Fin 5000, y (ix2 p q) * y (ix2 p q) := by
  unfold sqStep7; rw [View.canon_unit_zero bsrOrigin7]
  simp only [View.ld_unit_zero (S := S1x128) bsrOrigin7]
  exact k7_pay2_apply _ _ _

/-- Point `t`'s block's column sum, and column sum of squares, at column `q` (zero past the grid). -/
def bsrB7 (V : EntryVal Ideal) (c : Dev nD) (q : Fin 128) (t : ℕ) : EReal :=
  if h : t < cfg7.N then ∑ p : Fin 5000, tblk7 V c ⟨t, h⟩ (ix2 p q) else 0
def bsrBq7 (V : EntryVal Ideal) (c : Dev nD) (q : Fin 128) (t : ℕ) : EReal :=
  if h : t < cfg7.N then ∑ p : Fin 5000, tblk7 V c ⟨t, h⟩ (ix2 p q) * tblk7 V c ⟨t, h⟩ (ix2 p q) else 0

/-- The accumulators after point `n` hold the sums of the blocks' column sums up to it. -/
theorem bsrAcc7 (V : EntryVal Ideal) (c : Dev nD) (q : Fin 128) : ∀ (n : ℕ) (hn : n < cfg7.N),
    (acc7 V c n hn).1 (ix2 0 q) = ∑ s ∈ Finset.range (n + 1), bsrB7 V c q s
      ∧ (acc7 V c n hn).2 (ix2 0 q) = ∑ s ∈ Finset.range (n + 1), bsrBq7 V c q s
  | 0, hn => by
    rw [Finset.sum_range_one, Finset.sum_range_one]
    unfold bsrB7 bsrBq7
    rw [dif_pos hn, dif_pos hn, acc7]
    show sumStep7 _ _ (ix2 0 q) = _ ∧ sqStep7 _ _ (ix2 0 q) = _
    rw [bsrSumStep7, bsrSqStep7, bsrSum0_7, bsrSq0_7, zero_add, zero_add]
    exact ⟨rfl, rfl⟩
  | n + 1, hn => by
    obtain ⟨h1, h2⟩ := bsrAcc7 V c q n (Nat.lt_of_succ_lt hn)
    rw [Finset.sum_range_succ _ (n + 1), Finset.sum_range_succ _ (n + 1), ← h1, ← h2]
    unfold bsrB7 bsrBq7
    rw [dif_pos hn, dif_pos hn, acc7]
    show sumStep7 _ _ (ix2 0 q) = _ ∧ sqStep7 _ _ (ix2 0 q) = _
    rw [bsrSumStep7, bsrSqStep7]
    exact ⟨rfl, rfl⟩

/-- The eight blocks' column sums add up to the column sums over all rows. -/
theorem bsrTotal7 (V : EntryVal Ideal) (c : Dev nD) (q : Fin 128) :
    ∑ s ∈ Finset.range (7 + 1), bsrB7 V c q s = csum (bsrTV7 V c) q := by
  unfold csum
  refine Cert.Lib.sum_range_blocks_of_eq (nb := 8) (bs := 5000) (N := 40000) rfl (fun r => bsrTV7 V c r q) (bsrB7 V c q) ?_
  intro t ht
  have ht' : t < cfg7.N := lt_of_lt_of_eq ht N_7.symm
  unfold bsrB7
  rw [dif_pos ht']
  exact Finset.sum_congr rfl fun p _ => bsrTblk7 V c ⟨t, ht'⟩ p q

theorem bsrTotalSq7 (V : EntryVal Ideal) (c : Dev nD) (q : Fin 128) :
    ∑ s ∈ Finset.range (7 + 1), bsrBq7 V c q s = csumsq (bsrTV7 V c) q := by
  unfold csumsq
  refine Cert.Lib.sum_range_blocks_of_eq (nb := 8) (bs := 5000) (N := 40000) rfl (fun r => bsrTV7 V c r q * bsrTV7 V c r q) (bsrBq7 V c q) ?_
  intro t ht
  have ht' : t < cfg7.N := lt_of_lt_of_eq ht N_7.symm
  unfold bsrBq7
  rw [dif_pos ht']
  exact Finset.sum_congr rfl fun p _ => by rw [bsrTblk7 V c ⟨t, ht'⟩ p q]; rfl

/-- Rows 0 and 1 of the statistics block as the images of the row block under the two row rectangles. -/
theorem bsrRowEmb7_0 (q : Fin 128) : (ix2 (0 : Fin 2) q : S2x128.Idx) = rS7_0.emb (ix2 (0 : Fin 1) q) :=
  funext fun a => Fin.ext (by
    match a with
    | ⟨0, _⟩ => rfl
    | ⟨1, _⟩ => show q.val = 0 + 1 * q.val; omega)
theorem bsrRowEmb7_1 (q : Fin 128) : (ix2 (1 : Fin 2) q : S2x128.Idx) = rS7_1.emb (ix2 (0 : Fin 1) q) :=
  funext fun a => Fin.ext (by
    match a with
    | ⟨0, _⟩ => rfl
    | ⟨1, _⟩ => show q.val = 0 + 1 * q.val; omega)

/-- Row 0 is not under the store of row 1. -/
theorem bsrRowNot7 (q : Fin 128) : (ix2 (0 : Fin 2) q : S2x128.Idx) ∉ rS7_1.set := by
  rw [Rect.mem_set_unit]
  intro h
  have h0 : (1 : ℕ) ≤ 0 := (h 0).1
  omega

/-- Off the last store's rectangle, the contents are what the earlier stores left. -/
theorem bsrCanonOff7 {S : Shape} {e : EltTy} (r : Rect S) (w : r.shape.Idx → Elt Ideal e) (L : List (View.Piece (Elt Ideal) S e))
    {y : S.Idx} (h : y ∉ r.set) : View.canon (⟨r, w⟩ :: L) y = View.canon L y :=
  View.canon_cons_of_not_mem ⟨r, w⟩ L h

/-- The statistics block the last point stores, row by row, from the accumulators. -/
theorem bsrStats7_0 (s sq : Vec Ideal S1x128 .f32) (q : Fin 128) : stats7 s sq (ix2 (0 : Fin 2) q) = s (ix2 0 q) * invN := by
  unfold stats7
  rw [bsrCanonOff7 _ _ _ (bsrRowNot7 q), bsrRowEmb7_0, View.canon_cons_emb]
  simp only [View.ld_unit_zero (S := S1x128) bsrOrigin7]
  exact k7_pay3_apply _ _

theorem bsrStats7_1 (s sq : Vec Ideal S1x128 .f32) (q : Fin 128) :
    stats7 s sq (ix2 (1 : Fin 2) q) = max (sq (ix2 0 q) * invN - (s (ix2 0 q) * invN) * (s (ix2 0 q) * invN)) 0 := by
  unfold stats7
  rw [bsrRowEmb7_1, View.canon_cons_emb]
  simp only [View.ld_unit_zero (S := S1x128) bsrOrigin7]
  exact k7_pay4_apply _ _ _

/-- The whole statistics array: row 0 the column means, row 1 the clamped column variances of the output matrix. -/
def bsrS7 (V : EntryVal Ideal) (c : Dev nD) : S2x128.Idx → EReal :=
  fun i => if (i 0).val = 0 then meanK (bsrTV7 V c) (i 1) else varK (bsrTV7 V c) (i 1)

/-- What the last point leaves in the statistics window's buffer is the whole statistics array. -/
theorem bsrStatsAt7 (V : EntryVal Ideal) (c : Dev nD) (t : Fin cfg7.N) (h7 : t.val = 7) (p : Fin 2) (q : Fin 128) :
    stats7 (acc7 V c t.val t.isLt).1 (acc7 V c t.val t.isLt).2 (ix2 p q) = bsrS7 V c (ix2 p q) := by
  have h1 : (acc7 V c t.val t.isLt).1 (ix2 0 q) = csum (bsrTV7 V c) q := by
    rw [(bsrAcc7 V c q t.val t.isLt).1, h7]; exact bsrTotal7 V c q
  have h2 : (acc7 V c t.val t.isLt).2 (ix2 0 q) = csumsq (bsrTV7 V c) q := by
    rw [(bsrAcc7 V c q t.val t.isLt).2, h7]; exact bsrTotalSq7 V c q
  rcases p with ⟨_ | _ | p, hp⟩
  · refine (bsrStats7_0 _ _ q).trans ?_
    rw [h1]; rfl
  · refine (bsrStats7_1 _ _ q).trans ?_
    rw [h1, h2]; rfl
  · omega

theorem bsrEmb7_7 (t : Fin cfg7.N) (p : Fin 2) (q : Fin 128) :
    ((cfg7.win 7).blk t).view.emb (ix2 p q) = ix2 p q := by
  obtain ⟨-, -, -, -, -, -, -, -, -, -, -, -, -, -, e0, e1⟩ := bsrIdx7 t
  refine funext fun a => Fin.ext ?_
  match a with
  | ⟨0, _⟩ => show win7_7.index t (0 : Fin 2) * 2 + 1 * p.val = p.val; rw [e0]; omega
  | ⟨1, _⟩ => show win7_7.index t (1 : Fin 2) * 128 + 1 * q.val = q.val; rw [e1]; omega

set_option maxHeartbeats 1000000 in
/-- What the one flushing point writes back of the statistics is the whole statistics array. -/
theorem bsrFlushed7_7 (V : EntryVal Ideal) (c : Dev nD) (t : Fin cfg7.N) (hf : (cfg7.win 7).flush t = true) :
    (dat7 V c).flushed 7 t = ((cfg7.win 7).blk t).view.read (Elt Ideal) (bsrS7 V c) := by
  have h7 : t.val = 7 := by have h := (flush7_7 t).mp hf; have := bsrPt7 t; omega
  show (cfg7.win 7).cut (grid7.coords t) ((dat7 V c).after 7 t) = _
  rw [bsrAfter7_7]
  funext j
  obtain ⟨p, q, rfl⟩ : ∃ (p : Fin 2) (q : Fin 128), j = ix2 p q := ⟨j 0, j 1, eq_ix2 j⟩
  show stats7 (acc7 V c t.val t.isLt).1 (acc7 V c t.val t.isLt).2 (ix2 p q) = bsrS7 V c (((cfg7.win 7).blk t).view.emb (ix2 p q))
  rw [bsrEmb7_7]
  exact bsrStatsAt7 V c t h7 p q

theorem bsrMem7_7 (t : Fin cfg7.N) (i : S2x128.Idx) :
    i ∈ ((cfg7.win 7).blk t).view.set ↔ ∀ a : Fin 2, win7_7.index t a * S2x128.size a ≤ (i a).val ∧ (i a).val < win7_7.index t a * S2x128.size a + S2x128.size a := by
  show i ∈ ((View.whole main_v124_1).slice (win7_7.rect t)).set ↔ _
  rw [View.set_slice_whole, Rect.mem_set_unit]
  exact Iff.rfl

/-- The last point's block is the whole statistics array. -/
theorem bsrCover7_7 (i : S2x128.Idx) : ∃ t : Fin cfg7.N, (cfg7.win 7).flush t = true ∧ i ∈ ((cfg7.win 7).blk t).view.set := by
  have hi0 : (i 0).val < 2 := (i 0).isLt
  have hi1 : (i 1).val < 128 := (i 1).isLt
  let t : Fin cfg7.N := ⟨7, by rw [show cfg7.N = 8 from N_7]; omega⟩
  obtain ⟨-, -, -, -, -, -, -, -, -, -, -, -, -, -, e0, e1⟩ := bsrIdx7 t
  refine ⟨t, (flush7_7 t).mpr rfl, ?_⟩
  rw [bsrMem7_7]
  intro a
  match a with
  | ⟨0, _⟩ => show win7_7.index t (0 : Fin 2) * 2 ≤ (i 0).val ∧ (i 0).val < win7_7.index t (0 : Fin 2) * 2 + 2; rw [e0]; omega
  | ⟨1, _⟩ => show win7_7.index t (1 : Fin 2) * 128 ≤ (i 1).val ∧ (i 1).val < win7_7.index t (1 : Fin 2) * 128 + 128; rw [e1]; omega

/-- The statistics array after the region: the column means and clamped column variances of the output matrix. -/
theorem final7_stats (V : EntryVal Ideal) (c : Dev nD) (j : Fin 128) :
    (dat7 V c).arrAt 7 cfg7.N (ix2 0 j)
        = meanK (relu (lin (relu (bn (toMat (V c (Pipeline.arrRef spec7 0))) (fun j => V c (Pipeline.arrRef spec7 1) (ix2 0 j))
          (fun j => V c (Pipeline.arrRef spec7 1) (ix2 1 j)) (toRow (V c (Pipeline.arrRef spec7 2))) (toRow (V c (Pipeline.arrRef spec7 3)))))
          (toWt (V c (Pipeline.arrRef spec7 4))) (toRow (V c (Pipeline.arrRef spec7 5))))) j
      ∧ (dat7 V c).arrAt 7 cfg7.N (ix2 1 j)
        = varK (relu (lin (relu (bn (toMat (V c (Pipeline.arrRef spec7 0))) (fun j => V c (Pipeline.arrRef spec7 1) (ix2 0 j))
          (fun j => V c (Pipeline.arrRef spec7 1) (ix2 1 j)) (toRow (V c (Pipeline.arrRef spec7 2))) (toRow (V c (Pipeline.arrRef spec7 3)))))
          (toWt (V c (Pipeline.arrRef spec7 4))) (toRow (V c (Pipeline.arrRef spec7 5))))) j := by
  rw [(dat7 V c).arrAt_eq_of_cover 7 (bsrS7 V c) (fun t hf => bsrFlushed7_7 V c t hf) bsrCover7_7]
  exact ⟨rfl, rfl⟩

end Cert.KernelIdeal.Hand

end
-- ==== Proof.KI.Pay8.lean ====
import proofs.«110361_j29403346109051_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110361_j29403346109051_2_alg».proof.Proof.Spec

noncomputable section

open Idealize.ShloMosaic Idealize.ShloMosaic.ValueIdx Cert.KernelIdeal Cert.KernelIdeal.Gen Cert.Spec

namespace Cert.KernelIdeal.Hand

/-- The final normalisation and rectifier at an entry: max(g · (t − μ) · (σ² + ε)^(-1/2) + β, 0). -/
theorem k8_pay1_apply (mu var g : Vec Ideal S1x128 .f32) (tb : Vec Ideal S5000x128 .f32) (bt : Vec Ideal S1x128 .f32)
    (p : Fin 5000) (q : Fin 128) :
    k8_pay1 mu var g tb bt (ix2 p q)
      = max (g (ix2 0 q) * (tb (ix2 p q) - mu (ix2 0 q)) * Ideal.rsqrt (var (ix2 0 q) + epsB) + bt (ix2 0 q)) 0 := by
  unfold k8_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg (max _) Ideal.ofBits_zero_f32

end Cert.KernelIdeal.Hand

end
-- ==== Proof.KI.Val8.lean ====
import proofs.«110361_j29403346109051_2_alg».proof.Proof.KI.Reg8
import proofs.«110361_j29403346109051_2_alg».proof.Proof.Spec
import proofs.«110361_j29403346109051_2_alg».proof.Proof.KI.Pay8
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

/-! # Region 8's value: the output array is the rectified batch normalisation of the input array, entry by entry -/

/-- A whole-block access starts at the origin. -/
theorem bnfOrigin8 : (![0, 0] : Fin 2 → Nat) = fun _ => 0 := funext fun a => by fin_cases a <;> rfl

/-- The grid has eight points. -/
theorem bnfPt8 (t : Fin cfg8.N) : t.val < 8 := lt_of_lt_of_eq t.isLt N_8

/-- The array row that row `p` of point `t`'s block is. -/
def bnfRow8 (t : Fin cfg8.N) (p : Fin 5000) : Fin 40000 := ⟨t.val * 5000 + p.val, by have := bnfPt8 t; have := p.isLt; omega⟩

/-- Row 0 of the statistics block, loaded, at a column. -/
theorem bnfLdM8 (x1 : Vec Ideal S2x128 .f32) (q : Fin 128) : View.ld x1 r8_m (ix2 (0 : Fin 1) q) = x1 (ix2 (0 : Fin 2) q) := by
  show x1 (r8_m.idx (ix2 (0 : Fin 1) q)) = _
  refine congrArg x1 (funext fun a => Fin.ext ?_)
  match a with
  | ⟨0, _⟩ => rfl
  | ⟨1, _⟩ => show 0 + 1 * q.val = q.val; omega

/-- Row 1 of the statistics block, loaded, at a column. -/
theorem bnfLdV8 (x1 : Vec Ideal S2x128 .f32) (q : Fin 128) : View.ld x1 r8_v (ix2 (0 : Fin 1) q) = x1 (ix2 (1 : Fin 2) q) := by
  show x1 (r8_v.idx (ix2 (0 : Fin 1) q)) = _
  refine congrArg x1 (funext fun a => Fin.ext ?_)
  match a with
  | ⟨0, _⟩ => rfl
  | ⟨1, _⟩ => show 0 + 1 * q.val = q.val; omega

/-- What the body leaves in the output's buffer, at an entry, from the input blocks. -/
theorem bnfOut8 (x0 : Vec Ideal S5000x128 .f32) (x1 : Vec Ideal S2x128 .f32) (x2 x3 : Vec Ideal S1x128 .f32) (p : Fin 5000) (q : Fin 128) :
    out8_4 x0 x1 x2 x3 (ix2 p q)
      = max (x2 (ix2 0 q) * (x0 (ix2 p q) - x1 (ix2 0 q)) * Ideal.rsqrt (x1 (ix2 1 q) + epsB) + x3 (ix2 0 q)) 0 := by
  unfold out8_4
  rw [View.canon_unit_zero bnfOrigin8]
  simp only [View.ld_unit_zero (S := S5000x128) bnfOrigin8, View.ld_unit_zero (S := S1x128) bnfOrigin8]
  rw [k8_pay1_apply, bnfLdM8, bnfLdV8]

/-- The whole output array as one function of the input arrays. -/
def bnfG8 (a0 : S40000x128.Idx → EReal) (a1 : S2x128.Idx → EReal) (a2 a3 : S1x128.Idx → EReal) : S40000x128.Idx → EReal :=
  fun i => relu (bn (toMat a0) (fun j => a1 (ix2 0 j)) (fun j => a1 (ix2 1 j)) (toRow a2) (toRow a3)) (i 0) (i 1)

theorem bnfG8_apply (a0 : S40000x128.Idx → EReal) (a1 : S2x128.Idx → EReal) (a2 a3 : S1x128.Idx → EReal) (r : Fin 40000) (q : Fin 128) :
    bnfG8 a0 a1 a2 a3 (ix2 r q)
      = max (a2 (ix2 0 q) * (a0 (ix2 r q) - a1 (ix2 0 q)) * Ideal.rsqrt (a1 (ix2 1 q) + epsB) + a3 (ix2 0 q)) 0 := rfl

/-- The printed index maps, decided over the grid: the row-block windows are at block (t, 0), the row windows at (0, 0). -/
theorem bnfIdx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- The input blocks, read at an entry, are the arrays' entries there. -/
theorem bnfBlk8_0 (V : EntryVal Ideal) (c : Dev nD) (t : Fin cfg8.N) (p : Fin 5000) (q : Fin 128) :
    iblk8 V c 0 t (ix2 p q) = V c (Pipeline.arrRef spec8 0) (ix2 (bnfRow8 t p) q) := by
  obtain ⟨e0, e1, -⟩ := bnfIdx8 t
  show V c (Pipeline.arrRef spec8 0) (((cfg8.win 0).blk t).view.emb (ix2 p q)) = _
  refine congrArg (V c (Pipeline.arrRef spec8 0)) (funext fun a => Fin.ext ?_)
  match a with
  | ⟨0, _⟩ => show win8_0.index t (0 : Fin 2) * 5000 + 1 * p.val = t.val * 5000 + p.val; rw [e0]; omega
  | ⟨1, _⟩ => show win8_0.index t (1 : Fin 2) * 128 + 1 * q.val = q.val; rw [e1]; omega

theorem bnfBlk8_1 (V : EntryVal Ideal) (c : Dev nD) (t : Fin cfg8.N) (p : Fin 2) (q : Fin 128) :
    iblk8 V c 1 t (ix2 p q) = V c (Pipeline.arrRef spec8 1) (ix2 p q) := by
  obtain ⟨-, -, e0, e1, -⟩ := bnfIdx8 t
  show V c (Pipeline.arrRef spec8 1) (((cfg8.win 1).blk t).view.emb (ix2 p q)) = _
  refine congrArg (V c (Pipeline.arrRef spec8 1)) (funext fun a => Fin.ext ?_)
  match a with
  | ⟨0, _⟩ => show win8_1.index t (0 : Fin 2) * 2 + 1 * p.val = p.val; rw [e0]; omega
  | ⟨1, _⟩ => show win8_1.index t (1 : Fin 2) * 128 + 1 * q.val = q.val; rw [e1]; omega

theorem bnfBlk8_2 (V : EntryVal Ideal) (c : Dev nD) (t : Fin cfg8.N) (p : Fin 1) (q : Fin 128) :
    iblk8 V c 2 t (ix2 p q) = V c (Pipeline.arrRef spec8 2) (ix2 p q) := by
  obtain ⟨-, -, -, -, e0, e1, -⟩ := bnfIdx8 t
  show V c (Pipeline.arrRef spec8 2) (((cfg8.win 2).blk t).view.emb (ix2 p q)) = _
  refine congrArg (V c (Pipeline.arrRef spec8 2)) (funext fun a => Fin.ext ?_)
  match a with
  | ⟨0, _⟩ => show win8_2.index t (0 : Fin 2) * 1 + 1 * p.val = p.val; rw [e0]; omega
  | ⟨1, _⟩ => show win8_2.index t (1 : Fin 2) * 128 + 1 * q.val = q.val; rw [e1]; omega

theorem bnfBlk8_3 (V : EntryVal Ideal) (c : Dev nD) (t : Fin cfg8.N) (p : Fin 1) (q : Fin 128) :
    iblk8 V c 3 t (ix2 p q) = V c (Pipeline.arrRef spec8 3) (ix2 p q) := by
  obtain ⟨-, -, -, -, -, -, e0, e1, -⟩ := bnfIdx8 t
  show V c (Pipeline.arrRef spec8 3) (((cfg8.win 3).blk t).view.emb (ix2 p q)) = _
  refine congrArg (V c (Pipeline.arrRef spec8 3)) (funext fun a => Fin.ext ?_)
  match a with
  | ⟨0, _⟩ => show win8_3.index t (0 : Fin 2) * 1 + 1 * p.val = p.val; rw [e0]; omega
  | ⟨1, _⟩ => show win8_3.index t (1 : Fin 2) * 128 + 1 * q.val = q.val; rw [e1]; omega

/-- Where an entry of point `t`'s output block sits in the array. -/
theorem bnfEmb8 (t : Fin cfg8.N) (p : Fin 5000) (q : Fin 128) :
    ((cfg8.win 4).blk t).view.emb (ix2 p q) = ix2 (bnfRow8 t p) q := by
  obtain ⟨-, -, -, -, -, -, -, -, e0, e1⟩ := bnfIdx8 t
  refine funext fun a => Fin.ext ?_
  match a with
  | ⟨0, _⟩ => show win8_4.index t (0 : Fin 2) * 5000 + 1 * p.val = t.val * 5000 + p.val; rw [e0]; omega
  | ⟨1, _⟩ => show win8_4.index t (1 : Fin 2) * 128 + 1 * q.val = q.val; rw [e1]; omega

/-- What point `t` writes back is block `t` of the whole-array function of the arrays as the region finds them. -/
theorem bnfFlushed8 (V : EntryVal Ideal) (c : Dev nD) (t : Fin cfg8.N) :
    (dat8 V c).flushed 4 t = ((cfg8.win 4).blk t).view.read (Elt Ideal)
      (bnfG8 (V c (Pipeline.arrRef spec8 0)) (V c (Pipeline.arrRef spec8 1)) (V c (Pipeline.arrRef spec8 2)) (V c (Pipeline.arrRef spec8 3))) := by
  show (cfg8.win 4).cut (grid8.coords t) ((dat8 V c).after 4 t) = _
  rw [after8_4]
  funext j
  obtain ⟨p, q, rfl⟩ : ∃ (p : Fin 5000) (q : Fin 128), j = ix2 p q := ⟨j 0, j 1, eq_ix2 j⟩
  show out8_4 (iblk8 V c 0 t) (iblk8 V c 1 t) (iblk8 V c 2 t) (iblk8 V c 3 t) (ix2 p q)
    = bnfG8 (V c (Pipeline.arrRef spec8 0)) (V c (Pipeline.arrRef spec8 1)) (V c (Pipeline.arrRef spec8 2)) (V c (Pipeline.arrRef spec8 3))
        (((cfg8.win 4).blk t).view.emb (ix2 p q))
  refine (bnfOut8 (iblk8 V c 0 t) (iblk8 V c 1 t) (iblk8 V c 2 t) (iblk8 V c 3 t) p q).trans ?_
  rw [bnfEmb8, bnfG8_apply, bnfBlk8_0, bnfBlk8_1, bnfBlk8_1, bnfBlk8_2, bnfBlk8_3]

/-- An index of the array is in point `t`'s block iff each coordinate is in the block's range on its axis. -/
theorem bnfMem8 (t : Fin cfg8.N) (i : S40000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v125).slice (win8_4.rect t)).set ↔ _
  rw [View.set_slice_whole, Rect.mem_set_unit]
  exact Iff.rfl

/-- Every row of the array is in the block of the point its number divided by 5000 names. -/
theorem bnfCover8 (i : S40000x128.Idx) : ∃ t : Fin cfg8.N, (cfg8.win 4).flush t = true ∧ i ∈ ((cfg8.win 4).blk t).view.set := by
  have hi0 : (i 0).val < 40000 := (i 0).isLt
  have hi1 : (i 1).val < 128 := (i 1).isLt
  let t : Fin cfg8.N := ⟨(i 0).val / 5000, by rw [show cfg8.N = 8 from N_8]; omega⟩
  obtain ⟨-, -, -, -, -, -, -, -, e0, e1⟩ := bnfIdx8 t
  have ht : t.val = (i 0).val / 5000 := rfl
  refine ⟨t, flush8_4 t, ?_⟩
  rw [bnfMem8]
  intro a
  match a with
  | ⟨0, _⟩ => show win8_4.index t (0 : Fin 2) * 5000 ≤ (i 0).val ∧ (i 0).val < win8_4.index t (0 : Fin 2) * 5000 + 5000; rw [e0]; omega
  | ⟨1, _⟩ => show win8_4.index t (1 : Fin 2) * 128 ≤ (i 1).val ∧ (i 1).val < win8_4.index t (1 : Fin 2) * 128 + 128; rw [e1]; omega

/-- The output array after the region: the rectified batch normalisation of the input array with the statistics rows,
    the scale and the shift as the region finds them. -/
theorem final8 (V : EntryVal Ideal) (c : Dev nD) :
    toMat ((dat8 V c).arrAt 4 cfg8.N)
      = relu (bn (toMat (V c (Pipeline.arrRef spec8 0))) (fun j => V c (Pipeline.arrRef spec8 1) (ix2 0 j)) (fun j => V c (Pipeline.arrRef spec8 1) (ix2 1 j))
          (toRow (V c (Pipeline.arrRef spec8 2))) (toRow (V c (Pipeline.arrRef spec8 3)))) := by
  rw [(dat8 V c).arrAt_eq_of_cover 4
    (bnfG8 (V c (Pipeline.arrRef spec8 0)) (V c (Pipeline.arrRef spec8 1)) (V c (Pipeline.arrRef spec8 2)) (V c (Pipeline.arrRef spec8 3)))
    (fun t _ => bnfFlushed8 V c t) bnfCover8]
  rfl

end Cert.KernelIdeal.Hand

end
-- ==== Proof.Algebra.lean ====
/-
  The two arrangements of the column statistics agree on real data, so the two arrangements of a layer agree, and a
  layer of real data with real parameters is real.  For a column z of 40000 real numbers with mean mu = (∑ z)/40000:
  (∑ z) · (1/40000) = (∑ z)/40000, and (∑ z²)/40000 − mu² = (∑ (z − mu)²)/40000 ≥ 0, so clamping it at 0 changes nothing.
-/
import proofs.«110361_j29403346109051_2_alg».proof.Proof.SpecAgg

noncomputable section

open Idealize.ShloMosaic Cert.Lib

namespace Cert.Spec

/-- Every entry of a matrix is a real number. -/
def MReal (x : Mat) : Prop := ∀ r k, IsReal (x r k)
/-- Every entry of a row is a real number. -/
def RReal (x : Row) : Prop := ∀ j, IsReal (x j)
/-- Every entry of a weight matrix is a real number. -/
def WReal (x : Wt) : Prop := ∀ k j, IsReal (x k j)

theorem nN_cast : (40000 : ℝ) = ((40000 : ℕ) : ℝ) := by norm_num

/-- The product with 1/40000 is the quotient by 40000. -/
theorem mul_invN (x : EReal) : x * invN = Ideal.div x nN := by
  unfold invN nN
  rw [Ideal.div_coe (by norm_num : (40000 : ℝ) ≠ 0)]

/-- The stabiliser is a positive real number. -/
theorem epsB_pos : ∃ e : ℝ, 0 < e ∧ epsB = (e : EReal) := ofBits_eps

theorem meanK_eq_meanR (y : Mat) : meanK y = meanR y := by
  funext j
  unfold meanK meanR
  exact mul_invN _

/-- On real data the clamped "mean of squares minus square of mean" is the mean of squared deviations, and it is the
    image of a real number that is not negative. -/
theorem varK_eq_varR_val (y : Mat) (hy : MReal y) (j : Fin 128) :
    ∃ v : ℝ, 0 ≤ v ∧ varK y j = (v : EReal) ∧ varR y j = (v : EReal) := by
  obtain ⟨v, hv, h1, h2⟩ := variance_identity_val (n := 40000) (by norm_num) (fun r => y r j) (fun r => hy r j)
    (40000 : ℝ) nN_cast
  refine ⟨v, hv, ?_, ?_⟩
  · unfold varK
    rw [meanK_eq_meanR]
    unfold meanR csumsq csum
    rw [mul_invN]
    unfold nN
    rw [h2]
    exact max_eq_left (EReal.coe_nonneg.mpr hv)
  · unfold varR meanR csum nN
    exact h1

theorem varK_eq_varR (y : Mat) (hy : MReal y) : varK y = varR y := by
  funext j
  obtain ⟨v, _, h1, h2⟩ := varK_eq_varR_val y hy j
  rw [h1, h2]

theorem meanR_real (y : Mat) (hy : MReal y) : RReal (meanR y) := fun j =>
  (isReal_sum_univ _ (fun r => hy r j)).div (by norm_num)

/-! ### Real data stay real -/

theorem comb_real {c : EReal} {h a : Mat} (hc : IsReal c) (hh : MReal h) (ha : MReal a) : MReal (comb c h a) :=
  fun r k => (hc.mul (hh r k)).add (ha r k)

theorem lin_real {x : Mat} {w : Wt} {b : Row} (hx : MReal x) (hw : WReal w) (hb : RReal b) : MReal (lin x w b) :=
  fun r j => (isReal_sum_univ _ (fun k => (hx r k).mul (hw k j))).add (hb j)

theorem relu_real {x : Mat} (hx : MReal x) : MReal (relu x) := fun r j => (hx r j).max isReal_zero

theorem bn_real {y : Mat} {mu var g bt : Row} (hy : MReal y) (hmu : RReal mu)
    (hvar : ∀ j, ∃ v : ℝ, 0 ≤ v ∧ var j = (v : EReal)) (hg : RReal g) (hbt : RReal bt) : MReal (bn y mu var g bt) := by
  intro r j
  obtain ⟨e, he, hE⟩ := epsB_pos
  obtain ⟨v, hv, hV⟩ := hvar j
  unfold bn
  rw [hV, hE]
  exact (((hg j).mul ((hy r j).sub (hmu j))).mul (isReal_rsqrt_add hv he)).add (hbt j)

/-- Batch normalisation of real data by its own column statistics, in either arrangement, is the same real matrix. -/
theorem bn_stats (y : Mat) (hy : MReal y) (g bt : Row) (hg : RReal g) (hbt : RReal bt) :
    bn y (meanK y) (varK y) g bt = bn y (meanR y) (varR y) g bt ∧ MReal (bn y (meanR y) (varR y) g bt) := by
  refine ⟨by rw [meanK_eq_meanR, varK_eq_varR y hy], ?_⟩
  exact bn_real hy (meanR_real y hy) (fun j => by
    obtain ⟨v, hv, _, h2⟩ := varK_eq_varR_val y hy j; exact ⟨v, hv, h2⟩) hg hbt

/-- One layer on real data with real parameters: the two arrangements agree and the result is real. -/
theorem layer_eq (c : EReal) (h a : Mat) (w1 : Wt) (b1 g1 bt1 : Row) (w2 : Wt) (b2 g2 bt2 : Row)
    (hc : IsReal c) (hh : MReal h) (ha : MReal a) (hw1 : WReal w1) (hb1 : RReal b1) (hg1 : RReal g1) (hbt1 : RReal bt1)
    (hw2 : WReal w2) (hb2 : RReal b2) (hg2 : RReal g2) (hbt2 : RReal bt2) :
    layerK c h a w1 b1 g1 bt1 w2 b2 g2 bt2 = layerR c h a w1 b1 g1 bt1 w2 b2 g2 bt2
      ∧ MReal (layerR c h a w1 b1 g1 bt1 w2 b2 g2 bt2) := by
  have hy1 : MReal (lin (comb c h a) w1 b1) := lin_real (comb_real hc hh ha) hw1 hb1
  obtain ⟨e1, r1⟩ := bn_stats _ hy1 g1 bt1 hg1 hbt1
  have ht2 : MReal (relu (lin (relu (bn (lin (comb c h a) w1 b1) (meanR _) (varR _) g1 bt1)) w2 b2)) :=
    relu_real (lin_real (relu_real r1) hw2 hb2)
  obtain ⟨e2, r2⟩ := bn_stats _ ht2 g2 bt2 hg2 hbt2
  unfold layerK layerR
  dsimp only
  rw [e1, e2]
  exact ⟨rfl, relu_real r2⟩

end Cert.Spec

end
-- ==== Proof.Net.lean ====
/-
  The three layers composed, each reading row l of the parameter arrays, in both arrangements of the statistics; on
  real inputs the two compositions agree.
-/
import proofs.«110361_j29403346109051_2_alg».proof.Proof.Algebra

noncomputable section

open Idealize.ShloMosaic Idealize.ShloMosaic.ValueIdx Cert.Lib

namespace Cert.Spec

/-- The index arrays and float arrays of the network, as functions of an index. -/
abbrev EdgeI := (⟨1, ![640000]⟩ : Shape).Idx → BitVec 32
abbrev EdgeF := (⟨1, ![640000]⟩ : Shape).Idx → EReal
abbrev P3 := (⟨1, ![3]⟩ : Shape).Idx → EReal
abbrev P3x128 := (⟨2, ![3, 128]⟩ : Shape).Idx → EReal
abbrev P3x128x128 := (⟨3, ![3, 128, 128]⟩ : Shape).Idx → EReal

/-- Layer l, first arrangement. -/
def stepK (l : Fin 3) (a1 a2 : EdgeI) (a3 : EdgeF) (a4 : P3) (a5 : P3x128x128) (a6 a7 a8 : P3x128) (a9 : P3x128x128)
    (a10 a11 a12 : P3x128) (h : Mat) : Mat :=
  layerK (1 + a4 (ix1 l)) h (agg h (fun p => a1 (ix1 p)) (fun p => a2 (ix1 p)) (fun p => a3 (ix1 p)))
    (fun k j => a5 (ix3 l k j)) (fun j => a6 (ix2 l j)) (fun j => a7 (ix2 l j)) (fun j => a8 (ix2 l j))
    (fun k j => a9 (ix3 l k j)) (fun j => a10 (ix2 l j)) (fun j => a11 (ix2 l j)) (fun j => a12 (ix2 l j))

/-- Layer l, second arrangement. -/
def stepR (l : Fin 3) (a1 a2 : EdgeI) (a3 : EdgeF) (a4 : P3) (a5 : P3x128x128) (a6 a7 a8 : P3x128) (a9 : P3x128x128)
    (a10 a11 a12 : P3x128) (h : Mat) : Mat :=
  layerR (1 + a4 (ix1 l)) h (agg h (fun p => a1 (ix1 p)) (fun p => a2 (ix1 p)) (fun p => a3 (ix1 p)))
    (fun k j => a5 (ix3 l k j)) (fun j => a6 (ix2 l j)) (fun j => a7 (ix2 l j)) (fun j => a8 (ix2 l j))
    (fun k j => a9 (ix3 l k j)) (fun j => a10 (ix2 l j)) (fun j => a11 (ix2 l j)) (fun j => a12 (ix2 l j))

section
variable (a1 a2 : EdgeI) (a3 : EdgeF) (a4 : P3) (a5 : P3x128x128) (a6 a7 a8 : P3x128) (a9 : P3x128x128) (a10 a11 a12 : P3x128)
variable (h3 : ∀ i, IsReal (a3 i)) (h4 : ∀ i, IsReal (a4 i)) (h5 : ∀ i, IsReal (a5 i)) (h6 : ∀ i, IsReal (a6 i))
  (h7 : ∀ i, IsReal (a7 i)) (h8 : ∀ i, IsReal (a8 i)) (h9 : ∀ i, IsReal (a9 i)) (h10 : ∀ i, IsReal (a10 i))
  (h11 : ∀ i, IsReal (a11 i)) (h12 : ∀ i, IsReal (a12 i))

include h3 h4 h5 h6 h7 h8 h9 h10 h11 h12 in
/-- One layer on real features with real parameters. -/
theorem step_eq (l : Fin 3) (h : Mat) (hh : MReal h) :
    stepK l a1 a2 a3 a4 a5 a6 a7 a8 a9 a10 a11 a12 h = stepR l a1 a2 a3 a4 a5 a6 a7 a8 a9 a10 a11 a12 h
      ∧ MReal (stepR l a1 a2 a3 a4 a5 a6 a7 a8 a9 a10 a11 a12 h) := by
  unfold stepK stepR
  exact layer_eq _ _ _ _ _ _ _ _ _ _ _ (isReal_one.add (h4 _)) hh (isReal_agg _ _ _ _ hh (fun p => h3 _))
    (fun k j => h5 _) (fun j => h6 _) (fun j => h7 _) (fun j => h8 _) (fun k j => h9 _) (fun j => h10 _)
    (fun j => h11 _) (fun j => h12 _)

include h3 h4 h5 h6 h7 h8 h9 h10 h11 h12 in
/-- The three layers composed: the two arrangements agree on real inputs. -/
theorem net_eq (h : Mat) (hh : MReal h) :
    stepK 2 a1 a2 a3 a4 a5 a6 a7 a8 a9 a10 a11 a12 (stepK 1 a1 a2 a3 a4 a5 a6 a7 a8 a9 a10 a11 a12
        (stepK 0 a1 a2 a3 a4 a5 a6 a7 a8 a9 a10 a11 a12 h))
      = stepR 2 a1 a2 a3 a4 a5 a6 a7 a8 a9 a10 a11 a12 (stepR 1 a1 a2 a3 a4 a5 a6 a7 a8 a9 a10 a11 a12
        (stepR 0 a1 a2 a3 a4 a5 a6 a7 a8 a9 a10 a11 a12 h)) := by
  obtain ⟨e0, r0⟩ := step_eq a1 a2 a3 a4 a5 a6 a7 a8 a9 a10 a11 a12 h3 h4 h5 h6 h7 h8 h9 h10 h11 h12 0 h hh
  obtain ⟨e1, r1⟩ := step_eq a1 a2 a3 a4 a5 a6 a7 a8 a9 a10 a11 a12 h3 h4 h5 h6 h7 h8 h9 h10 h11 h12 1 _ r0
  obtain ⟨e2, _⟩ := step_eq a1 a2 a3 a4 a5 a6 a7 a8 a9 a10 a11 a12 h3 h4 h5 h6 h7 h8 h9 h10 h11 h12 2 _ r1
  rw [e0, e1, e2]

end

end Cert.Spec

end
-- ==== Proof.KI.Chain.lean ====
/- One layer of the network as the kernel computes it: the three kernel regions of a layer, joined through the
   buffers between them, compute the layer function with the statistics in the "mean of squares minus square of
   mean" arrangement. -/
import proofs.«110361_j29403346109051_2_alg».proof.Proof.Gen.KernelIdeal.Regions
import proofs.«110361_j29403346109051_2_alg».proof.Proof.KI.Host
import proofs.«110361_j29403346109051_2_alg».proof.Proof.KI.Val0
import proofs.«110361_j29403346109051_2_alg».proof.Proof.KI.Val1
import proofs.«110361_j29403346109051_2_alg».proof.Proof.KI.Val2
import proofs.«110361_j29403346109051_2_alg».proof.Proof.KI.Val3
import proofs.«110361_j29403346109051_2_alg».proof.Proof.KI.Val4
import proofs.«110361_j29403346109051_2_alg».proof.Proof.KI.Val5
import proofs.«110361_j29403346109051_2_alg».proof.Proof.KI.Val6
import proofs.«110361_j29403346109051_2_alg».proof.Proof.KI.Val7
import proofs.«110361_j29403346109051_2_alg».proof.Proof.KI.Val8
import proofs.«110361_j29403346109051_2_alg».proof.Proof.Net

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)
/-! # One layer from its five stages -/

/-- If y is the linear map of the combined features, st1 holds the column statistics of y, t2 is the rectified second
    linear map of the rectified normalisation of y by st1, st2 holds the column statistics of t2, and out is the
    rectified normalisation of t2 by st2, then out is the layer function of the features. -/
theorem layer_of_stages (coef : EReal) (hin aggm : Mat) (w1 : Wt) (b1 g1 bt1 : Row) (w2 : Wt) (b2 g2 bt2 : Row)
    (y t2 out : Mat) (m1 v1 m2 v2 : Row)
    (hy : y = lin (comb coef hin aggm) w1 b1)
    (hm1 : m1 = meanK (lin (comb coef hin aggm) w1 b1)) (hv1 : v1 = varK (lin (comb coef hin aggm) w1 b1))
    (ht2 : t2 = relu (lin (relu (bn y m1 v1 g1 bt1)) w2 b2))
    (hm2 : m2 = meanK (relu (lin (relu (bn y m1 v1 g1 bt1)) w2 b2)))
    (hv2 : v2 = varK (relu (lin (relu (bn y m1 v1 g1 bt1)) w2 b2)))
    (hout : out = relu (bn t2 m2 v2 g2 bt2)) :
    out = layerK coef hin aggm w1 b1 g1 bt1 w2 b2 g2 bt2 := by
  subst hy hm1 hv1
  subst ht2 hm2 hv2
  subst hout
  rfl

/-- The first stage depends only on its five inputs. -/
theorem lin_comb_congr {c c' : EReal} {h h' g g' : Mat} {w w' : Wt} {b b' : Row}
    (hc : c = c') (hh : h = h') (hg : g = g') (hw : w = w') (hb : b = b') :
    lin (comb c h g) w b = lin (comb c' h' g') w' b' := by
  subst hc hh hg hw hb; rfl

/-- The second stage depends only on its seven inputs. -/
theorem second_congr {y y' : Mat} {m1 m1' v1 v1' g g' bt bt' : Row} {w w' : Wt} {b b' : Row}
    (hy : y = y') (hm : m1 = m1') (hv : v1 = v1') (hg : g = g') (hbt : bt = bt') (hw : w = w') (hb : b = b') :
    relu (lin (relu (bn y m1 v1 g bt)) w b) = relu (lin (relu (bn y' m1' v1' g' bt')) w' b') := by
  subst hy hm hv hg hbt hw hb; rfl

/-- The third stage depends only on its five inputs. -/
theorem third_congr {t t' : Mat} {m2 m2' v2 v2' g g' bt bt' : Row}
    (ht : t = t') (hm : m2 = m2') (hv : v2 = v2') (hg : g = g') (hbt : bt = bt') :
    relu (bn t m2 v2 g bt) = relu (bn t' m2' v2' g' bt') := by
  subst ht hm hv hg hbt; rfl

/-! # Layer 0: what its regions leave in their output arrays, as propositions -/

section
variable (m : (ℓ : Loc nD τ sig) → Buf (Elt Ideal) ℓ) (outs : Gen.Outs (F := Ideal)) (c : Dev nD)

/-- After region 0 its first output array holds the region's write-backs. -/
def Out0_5 : Prop := Gen.V2 m outs c (Pipeline.arrRef spec0 5) = (dat0 (fun c b => Gen.V1 m c b) c).arrAt 5 cfg0.N
/-- After region 0 its second output array holds the region's write-backs. -/
def Out0_6 : Prop := Gen.V2 m outs c (Pipeline.arrRef spec0 6) = (dat0 (fun c b => Gen.V1 m c b) c).arrAt 6 cfg0.N
/-- After region 1 its first output array holds the region's write-backs. -/
def Out1_6 : Prop := Gen.V4 m outs c (Pipeline.arrRef spec1 6) = (dat1 (fun c b => Gen.V3 m outs c b) c).arrAt 6 cfg1.N
/-- After region 1 its second output array holds the region's write-backs. -/
def Out1_7 : Prop := Gen.V4 m outs c (Pipeline.arrRef spec1 7) = (dat1 (fun c b => Gen.V3 m outs c b) c).arrAt 7 cfg1.N
/-- After region 2 its output array holds the region's write-backs. -/
def Out2_4 : Prop := Gen.V5 m outs c (Pipeline.arrRef spec2 4) = (dat2 (fun c b => Gen.V4 m outs c b) c).arrAt 4 cfg2.N
end

/-! # Layer 0: the regions' values with the arrays behind their windows named -/

set_option maxHeartbeats 1000000 in
/-- Region 0's first output is the linear map of the combined features it finds. -/
theorem final0_y_named (V : EntryVal Ideal) (c : Dev nD) :
    toMat ((dat0 V c).arrAt 5 cfg0.N) = (lin (comb (V c main_v16 (ix2 0 0)) (toMat (V c main_arg0)) (toMat (V c main_v12))) (toWt (V c main_v36)) (toRow (V c main_v19))) := final0_y V c

set_option maxHeartbeats 1000000 in
/-- Region 0's second output holds the column means and variances of the first. -/
theorem final0_stats_named (V : EntryVal Ideal) (c : Dev nD) (j : Fin 128) :
    ((dat0 V c).arrAt 6 cfg0.N : S2x128.Idx → EReal) (ix2 0 j) = meanK (lin (comb (V c main_v16 (ix2 0 0)) (toMat (V c main_arg0)) (toMat (V c main_v12))) (toWt (V c main_v36)) (toRow (V c main_v19))) j
      ∧ ((dat0 V c).arrAt 6 cfg0.N : S2x128.Idx → EReal) (ix2 1 j) = varK (lin (comb (V c main_v16 (ix2 0 0)) (toMat (V c main_arg0)) (toMat (V c main_v12))) (toWt (V c main_v36)) (toRow (V c main_v19))) j := final0_stats V c j

set_option maxHeartbeats 1000000 in
/-- Region 1's first output: normalise, rectify, second linear map, rectify. -/
theorem final1_t2_named (V : EntryVal Ideal) (c : Dev nD) :
    toMat ((dat1 V c).arrAt 6 cfg1.N) = (relu (lin (relu (bn (toMat (V c main_v37_0)) (fun j => V c main_v37_1 (ix2 0 j)) (fun j => V c main_v37_1 (ix2 1 j)) (toRow (V c main_v22)) (toRow (V c main_v25)))) (toWt (V c main_v39)) (toRow (V c main_v28)))) := final1_t2 V c

set_option maxHeartbeats 1000000 in
/-- Region 1's second output holds the column means and variances of the first. -/
theorem final1_stats_named (V : EntryVal Ideal) (c : Dev nD) (j : Fin 128) :
    ((dat1 V c).arrAt 7 cfg1.N : S2x128.Idx → EReal) (ix2 0 j) = meanK (relu (lin (relu (bn (toMat (V c main_v37_0)) (fun j => V c main_v37_1 (ix2 0 j)) (fun j => V c main_v37_1 (ix2 1 j)) (toRow (V c main_v22)) (toRow (V c main_v25)))) (toWt (V c main_v39)) (toRow (V c main_v28)))) j
      ∧ ((dat1 V c).arrAt 7 cfg1.N : S2x128.Idx → EReal) (ix2 1 j) = varK (relu (lin (relu (bn (toMat (V c main_v37_0)) (fun j => V c main_v37_1 (ix2 0 j)) (fun j => V c main_v37_1 (ix2 1 j)) (toRow (V c main_v22)) (toRow (V c main_v25)))) (toWt (V c main_v39)) (toRow (V c main_v28)))) j := final1_stats V c j

set_option maxHeartbeats 1000000 in
/-- Region 2's output: normalise and rectify. -/
theorem final2_named (V : EntryVal Ideal) (c : Dev nD) :
    toMat ((dat2 V c).arrAt 4 cfg2.N) = (relu (bn (toMat (V c main_v40_0)) (fun j => V c main_v40_1 (ix2 0 j)) (fun j => V c main_v40_1 (ix2 1 j)) (toRow (V c main_v31)) (toRow (V c main_v34)))) := final2 V c

/-! # Layer 1: what its regions leave in their output arrays, as propositions -/

section
variable (m : (ℓ : Loc nD τ sig) → Buf (Elt Ideal) ℓ) (outs : Gen.Outs (F := Ideal)) (c : Dev nD)

/-- After region 3 its first output array holds the region's write-backs. -/
def Out3_5 : Prop := Gen.V7 m outs c (Pipeline.arrRef spec3 5) = (dat3 (fun c b => Gen.V6 m outs c b) c).arrAt 5 cfg3.N
/-- After region 3 its second output array holds the region's write-backs. -/
def Out3_6 : Prop := Gen.V7 m outs c (Pipeline.arrRef spec3 6) = (dat3 (fun c b => Gen.V6 m outs c b) c).arrAt 6 cfg3.N
/-- After region 4 its first output array holds the region's write-backs. -/
def Out4_6 : Prop := Gen.V9 m outs c (Pipeline.arrRef spec4 6) = (dat4 (fun c b => Gen.V8 m outs c b) c).arrAt 6 cfg4.N
/-- After region 4 its second output array holds the region's write-backs. -/
def Out4_7 : Prop := Gen.V9 m outs c (Pipeline.arrRef spec4 7) = (dat4 (fun c b => Gen.V8 m outs c b) c).arrAt 7 cfg4.N
/-- After region 5 its output array holds the region's write-backs. -/
def Out5_4 : Prop := Gen.V10 m outs c (Pipeline.arrRef spec5 4) = (dat5 (fun c b => Gen.V9 m outs c b) c).arrAt 4 cfg5.N
end

/-! # Layer 1: the regions' values with the arrays behind their windows named -/

set_option maxHeartbeats 1000000 in
/-- Region 3's first output is the linear map of the combined features it finds. -/
theorem final3_y_named (V : EntryVal Ideal) (c : Dev nD) :
    toMat ((dat3 V c).arrAt 5 cfg3.N) = (lin (comb (V c main_v58 (ix2 0 0)) (toMat (V c main_v41)) (toMat (V c main_v54))) (toWt (V c main_v78)) (toRow (V c main_v61))) := final3_y V c

set_option maxHeartbeats 1000000 in
/-- Region 3's second output holds the column means and variances of the first. -/
theorem final3_stats_named (V : EntryVal Ideal) (c : Dev nD) (j : Fin 128) :
    ((dat3 V c).arrAt 6 cfg3.N : S2x128.Idx → EReal) (ix2 0 j) = meanK (lin (comb (V c main_v58 (ix2 0 0)) (toMat (V c main_v41)) (toMat (V c main_v54))) (toWt (V c main_v78)) (toRow (V c main_v61))) j
      ∧ ((dat3 V c).arrAt 6 cfg3.N : S2x128.Idx → EReal) (ix2 1 j) = varK (lin (comb (V c main_v58 (ix2 0 0)) (toMat (V c main_v41)) (toMat (V c main_v54))) (toWt (V c main_v78)) (toRow (V c main_v61))) j := final3_stats V c j

set_option maxHeartbeats 1000000 in
/-- Region 4's first output: normalise, rectify, second linear map, rectify. -/
theorem final4_t2_named (V : EntryVal Ideal) (c : Dev nD) :
    toMat ((dat4 V c).arrAt 6 cfg4.N) = (relu (lin (relu (bn (toMat (V c main_v79_0)) (fun j => V c main_v79_1 (ix2 0 j)) (fun j => V c main_v79_1 (ix2 1 j)) (toRow (V c main_v64)) (toRow (V c main_v67)))) (toWt (V c main_v81)) (toRow (V c main_v70)))) := final4_t2 V c

set_option maxHeartbeats 1000000 in
/-- Region 4's second output holds the column means and variances of the first. -/
theorem final4_stats_named (V : EntryVal Ideal) (c : Dev nD) (j : Fin 128) :
    ((dat4 V c).arrAt 7 cfg4.N : S2x128.Idx → EReal) (ix2 0 j) = meanK (relu (lin (relu (bn (toMat (V c main_v79_0)) (fun j => V c main_v79_1 (ix2 0 j)) (fun j => V c main_v79_1 (ix2 1 j)) (toRow (V c main_v64)) (toRow (V c main_v67)))) (toWt (V c main_v81)) (toRow (V c main_v70)))) j
      ∧ ((dat4 V c).arrAt 7 cfg4.N : S2x128.Idx → EReal) (ix2 1 j) = varK (relu (lin (relu (bn (toMat (V c main_v79_0)) (fun j => V c main_v79_1 (ix2 0 j)) (fun j => V c main_v79_1 (ix2 1 j)) (toRow (V c main_v64)) (toRow (V c main_v67)))) (toWt (V c main_v81)) (toRow (V c main_v70)))) j := final4_stats V c j

set_option maxHeartbeats 1000000 in
/-- Region 5's output: normalise and rectify. -/
theorem final5_named (V : EntryVal Ideal) (c : Dev nD) :
    toMat ((dat5 V c).arrAt 4 cfg5.N) = (relu (bn (toMat (V c main_v82_0)) (fun j => V c main_v82_1 (ix2 0 j)) (fun j => V c main_v82_1 (ix2 1 j)) (toRow (V c main_v73)) (toRow (V c main_v76)))) := final5 V c

/-! # Layer 2: what its regions leave in their output arrays, as propositions -/

section
variable (m : (ℓ : Loc nD τ sig) → Buf (Elt Ideal) ℓ) (outs : Gen.Outs (F := Ideal)) (c : Dev nD)

/-- After region 6 its first output array holds the region's write-backs. -/
def Out6_5 : Prop := Gen.V12 m outs c (Pipeline.arrRef spec6 5) = (dat6 (fun c b => Gen.V11 m outs c b) c).arrAt 5 cfg6.N
/-- After region 6 its second output array holds the region's write-backs. -/
def Out6_6 : Prop := Gen.V12 m outs c (Pipeline.arrRef spec6 6) = (dat6 (fun c b => Gen.V11 m outs c b) c).arrAt 6 cfg6.N
/-- After region 7 its first output array holds the region's write-backs. -/
def Out7_6 : Prop := Gen.V14 m outs c (Pipeline.arrRef spec7 6) = (dat7 (fun c b => Gen.V13 m outs c b) c).arrAt 6 cfg7.N
/-- After region 7 its second output array holds the region's write-backs. -/
def Out7_7 : Prop := Gen.V14 m outs c (Pipeline.arrRef spec7 7) = (dat7 (fun c b => Gen.V13 m outs c b) c).arrAt 7 cfg7.N
/-- After region 8 its output array holds the region's write-backs. -/
def Out8_4 : Prop := Gen.V15 m outs c (Pipeline.arrRef spec8 4) = (dat8 (fun c b => Gen.V14 m outs c b) c).arrAt 4 cfg8.N
end

/-! # Layer 2: the regions' values with the arrays behind their windows named -/

set_option maxHeartbeats 1000000 in
/-- Region 6's first output is the linear map of the combined features it finds. -/
theorem final6_y_named (V : EntryVal Ideal) (c : Dev nD) :
    toMat ((dat6 V c).arrAt 5 cfg6.N) = (lin (comb (V c main_v100 (ix2 0 0)) (toMat (V c main_v83)) (toMat (V c main_v96))) (toWt (V c main_v120)) (toRow (V c main_v103))) := final6_y V c

set_option maxHeartbeats 1000000 in
/-- Region 6's second output holds the column means and variances of the first. -/
theorem final6_stats_named (V : EntryVal Ideal) (c : Dev nD) (j : Fin 128) :
    ((dat6 V c).arrAt 6 cfg6.N : S2x128.Idx → EReal) (ix2 0 j) = meanK (lin (comb (V c main_v100 (ix2 0 0)) (toMat (V c main_v83)) (toMat (V c main_v96))) (toWt (V c main_v120)) (toRow (V c main_v103))) j
      ∧ ((dat6 V c).arrAt 6 cfg6.N : S2x128.Idx → EReal) (ix2 1 j) = varK (lin (comb (V c main_v100 (ix2 0 0)) (toMat (V c main_v83)) (toMat (V c main_v96))) (toWt (V c main_v120)) (toRow (V c main_v103))) j := final6_stats V c j

set_option maxHeartbeats 1000000 in
/-- Region 7's first output: normalise, rectify, second linear map, rectify. -/
theorem final7_t2_named (V : EntryVal Ideal) (c : Dev nD) :
    toMat ((dat7 V c).arrAt 6 cfg7.N) = (relu (lin (relu (bn (toMat (V c main_v121_0)) (fun j => V c main_v121_1 (ix2 0 j)) (fun j => V c main_v121_1 (ix2 1 j)) (toRow (V c main_v106)) (toRow (V c main_v109)))) (toWt (V c main_v123)) (toRow (V c main_v112)))) := final7_t2 V c

set_option maxHeartbeats 1000000 in
/-- Region 7's second output holds the column means and variances of the first. -/
theorem final7_stats_named (V : EntryVal Ideal) (c : Dev nD) (j : Fin 128) :
    ((dat7 V c).arrAt 7 cfg7.N : S2x128.Idx → EReal) (ix2 0 j) = meanK (relu (lin (relu (bn (toMat (V c main_v121_0)) (fun j => V c main_v121_1 (ix2 0 j)) (fun j => V c main_v121_1 (ix2 1 j)) (toRow (V c main_v106)) (toRow (V c main_v109)))) (toWt (V c main_v123)) (toRow (V c main_v112)))) j
      ∧ ((dat7 V c).arrAt 7 cfg7.N : S2x128.Idx → EReal) (ix2 1 j) = varK (relu (lin (relu (bn (toMat (V c main_v121_0)) (fun j => V c main_v121_1 (ix2 0 j)) (fun j => V c main_v121_1 (ix2 1 j)) (toRow (V c main_v106)) (toRow (V c main_v109)))) (toWt (V c main_v123)) (toRow (V c main_v112)))) j := final7_stats V c j

set_option maxHeartbeats 1000000 in
/-- Region 8's output: normalise and rectify. -/
theorem final8_named (V : EntryVal Ideal) (c : Dev nD) :
    toMat ((dat8 V c).arrAt 4 cfg8.N) = (relu (bn (toMat (V c main_v124_0)) (fun j => V c main_v124_1 (ix2 0 j)) (fun j => V c main_v124_1 (ix2 1 j)) (toRow (V c main_v115)) (toRow (V c main_v118)))) := final8 V c

section Chain
variable (m : (ℓ : Loc nD τ sig) → Buf (Elt Ideal) ℓ) (outs : Gen.Outs (F := Ideal)) (c : Dev nD)

/-! # Layer 0 -/

set_option maxHeartbeats 2000000 in
/-- Layer 0's three regions, joined: what the third region leaves in its output array is the layer function of
    the features the first region finds. -/
theorem layer0_chain
    (out0_5 : Out0_5 m outs c) (out0_6 : Out0_6 m outs c) (out1_6 : Out1_6 m outs c) (out1_7 : Out1_7 m outs c)
    (out2_4 : Out2_4 m outs c) :
    toMat (outs 5 main_v41 c) = stepK 0 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (toMat ((m ((c : Thread nD τ).loc main_arg0) : S40000x128.Idx → EReal))) := by
  have ey : (outs 2 main_v37_0 c : S40000x128.Idx → EReal) = (dat0 (fun c b => Gen.V1 m c b) c).arrAt 5 cfg0.N := (V2_v37_0 m outs c).symm.trans out0_5
  have es1 : (outs 2 main_v37_1 c : S2x128.Idx → EReal) = (dat0 (fun c b => Gen.V1 m c b) c).arrAt 6 cfg0.N := (V2_v37_1 m outs c).symm.trans out0_6
  have et : (outs 4 main_v40_0 c : S40000x128.Idx → EReal) = (dat1 (fun c b => Gen.V3 m outs c b) c).arrAt 6 cfg1.N := (V4_v40_0 m outs c).symm.trans out1_6
  have es2 : (outs 4 main_v40_1 c : S2x128.Idx → EReal) = (dat1 (fun c b => Gen.V3 m outs c b) c).arrAt 7 cfg1.N := (V4_v40_1 m outs c).symm.trans out1_7
  have eo : (outs 5 main_v41 c : S40000x128.Idx → EReal) = (dat2 (fun c b => Gen.V4 m outs c b) c).arrAt 4 cfg2.N := (V5_v41 m outs c).symm.trans out2_4
  have hY : (lin (comb (Gen.V1 m c main_v16 (ix2 0 0)) (toMat (Gen.V1 m c main_arg0)) (toMat (Gen.V1 m c main_v12))) (toWt (Gen.V1 m c main_v36)) (toRow (Gen.V1 m c main_v19))) = (lin (comb (1 + (m ((c : Thread nD τ).loc main_arg4) : P3) (ix1 0)) (toMat ((m ((c : Thread nD τ).loc main_arg0) : S40000x128.Idx → EReal))) (agg (toMat ((m ((c : Thread nD τ).loc main_arg0) : S40000x128.Idx → EReal))) (fun p => (m ((c : Thread nD τ).loc main_arg1) : EdgeI) (ix1 p)) (fun p => (m ((c : Thread nD τ).loc main_arg2) : EdgeI) (ix1 p)) (fun p => (m ((c : Thread nD τ).loc main_arg3) : EdgeF) (ix1 p)))) (fun k j => (m ((c : Thread nD τ).loc main_arg5) : P3x128x128) (ix3 0 k j)) (fun j => (m ((c : Thread nD τ).loc main_arg6) : P3x128) (ix2 0 j))) :=
    lin_comb_congr (h0_coef m c) (congrArg toMat (h0_h m c)) (h0_agg m c) (h0_w1 m c) (h0_b1 m c)
  have hT : (relu (lin (relu (bn (toMat (Gen.V3 m outs c main_v37_0)) (fun j => Gen.V3 m outs c main_v37_1 (ix2 0 j)) (fun j => Gen.V3 m outs c main_v37_1 (ix2 1 j)) (toRow (Gen.V3 m outs c main_v22)) (toRow (Gen.V3 m outs c main_v25)))) (toWt (Gen.V3 m outs c main_v39)) (toRow (Gen.V3 m outs c main_v28)))) = (relu (lin (relu (bn (toMat (outs 2 main_v37_0 c)) (fun j => outs 2 main_v37_1 c (ix2 0 j)) (fun j => outs 2 main_v37_1 c (ix2 1 j)) (fun j => (m ((c : Thread nD τ).loc main_arg7) : P3x128) (ix2 0 j)) (fun j => (m ((c : Thread nD τ).loc main_arg8) : P3x128) (ix2 0 j)))) (fun k j => (m ((c : Thread nD τ).loc main_arg9) : P3x128x128) (ix3 0 k j)) (fun j => (m ((c : Thread nD τ).loc main_arg10) : P3x128) (ix2 0 j)))) :=
    second_congr (congrArg toMat (h1_y m outs c)) (funext fun j => congrFun (h1_stats m outs c) (ix2 0 j))
      (funext fun j => congrFun (h1_stats m outs c) (ix2 1 j)) (h1_g m outs c) (h1_bt m outs c) (h1_w2 m outs c) (h1_b2 m outs c)
  have hH : (relu (bn (toMat (Gen.V4 m outs c main_v40_0)) (fun j => Gen.V4 m outs c main_v40_1 (ix2 0 j)) (fun j => Gen.V4 m outs c main_v40_1 (ix2 1 j)) (toRow (Gen.V4 m outs c main_v31)) (toRow (Gen.V4 m outs c main_v34)))) = (relu (bn (toMat (outs 4 main_v40_0 c)) (fun j => outs 4 main_v40_1 c (ix2 0 j)) (fun j => outs 4 main_v40_1 c (ix2 1 j)) (fun j => (m ((c : Thread nD τ).loc main_arg11) : P3x128) (ix2 0 j)) (fun j => (m ((c : Thread nD τ).loc main_arg12) : P3x128) (ix2 0 j)))) :=
    third_congr (congrArg toMat (h2_t2 m outs c)) (funext fun j => congrFun (h2_stats m outs c) (ix2 0 j))
      (funext fun j => congrFun (h2_stats m outs c) (ix2 1 j)) (h2_g m outs c) (h2_bt m outs c)
  have f0 := final0_y_named (fun c b => Gen.V1 m c b) c
  have s0 := final0_stats_named (fun c b => Gen.V1 m c b) c
  have f1 := final1_t2_named (fun c b => Gen.V3 m outs c b) c
  have s1 := final1_stats_named (fun c b => Gen.V3 m outs c b) c
  have f2 := final2_named (fun c b => Gen.V4 m outs c b) c
  exact layer_of_stages (1 + (m ((c : Thread nD τ).loc main_arg4) : P3) (ix1 0)) (toMat ((m ((c : Thread nD τ).loc main_arg0) : S40000x128.Idx → EReal))) (agg (toMat ((m ((c : Thread nD τ).loc main_arg0) : S40000x128.Idx → EReal))) (fun p => (m ((c : Thread nD τ).loc main_arg1) : EdgeI) (ix1 p)) (fun p => (m ((c : Thread nD τ).loc main_arg2) : EdgeI) (ix1 p)) (fun p => (m ((c : Thread nD τ).loc main_arg3) : EdgeF) (ix1 p))) (fun k j => (m ((c : Thread nD τ).loc main_arg5) : P3x128x128) (ix3 0 k j)) (fun j => (m ((c : Thread nD τ).loc main_arg6) : P3x128) (ix2 0 j))
    (fun j => (m ((c : Thread nD τ).loc main_arg7) : P3x128) (ix2 0 j)) (fun j => (m ((c : Thread nD τ).loc main_arg8) : P3x128) (ix2 0 j)) (fun k j => (m ((c : Thread nD τ).loc main_arg9) : P3x128x128) (ix3 0 k j)) (fun j => (m ((c : Thread nD τ).loc main_arg10) : P3x128) (ix2 0 j))
    (fun j => (m ((c : Thread nD τ).loc main_arg11) : P3x128) (ix2 0 j)) (fun j => (m ((c : Thread nD τ).loc main_arg12) : P3x128) (ix2 0 j))
    (toMat (outs 2 main_v37_0 c)) (toMat (outs 4 main_v40_0 c)) (toMat (outs 5 main_v41 c))
    (fun j => outs 2 main_v37_1 c (ix2 0 j)) (fun j => outs 2 main_v37_1 c (ix2 1 j))
    (fun j => outs 4 main_v40_1 c (ix2 0 j)) (fun j => outs 4 main_v40_1 c (ix2 1 j))
    ((congrArg toMat ey).trans (f0.trans hY))
    (funext fun j => (congrFun es1 (ix2 0 j)).trans ((s0 j).1.trans (congrFun (congrArg meanK hY) j)))
    (funext fun j => (congrFun es1 (ix2 1 j)).trans ((s0 j).2.trans (congrFun (congrArg varK hY) j)))
    ((congrArg toMat et).trans (f1.trans hT))
    (funext fun j => (congrFun es2 (ix2 0 j)).trans ((s1 j).1.trans (congrFun (congrArg meanK hT) j)))
    (funext fun j => (congrFun es2 (ix2 1 j)).trans ((s1 j).2.trans (congrFun (congrArg varK hT) j)))
    ((congrArg toMat eo).trans (f2.trans hH))

/-! # Layer 1 -/

set_option maxHeartbeats 2000000 in
/-- Layer 1's three regions, joined: what the third region leaves in its output array is the layer function of
    the features the first region finds. -/
theorem layer1_chain
    (out3_5 : Out3_5 m outs c) (out3_6 : Out3_6 m outs c) (out4_6 : Out4_6 m outs c) (out4_7 : Out4_7 m outs c)
    (out5_4 : Out5_4 m outs c) :
    toMat (outs 10 main_v83 c) = stepK 1 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (toMat (outs 5 main_v41 c)) := by
  have ey : (outs 7 main_v79_0 c : S40000x128.Idx → EReal) = (dat3 (fun c b => Gen.V6 m outs c b) c).arrAt 5 cfg3.N := (V7_v79_0 m outs c).symm.trans out3_5
  have es1 : (outs 7 main_v79_1 c : S2x128.Idx → EReal) = (dat3 (fun c b => Gen.V6 m outs c b) c).arrAt 6 cfg3.N := (V7_v79_1 m outs c).symm.trans out3_6
  have et : (outs 9 main_v82_0 c : S40000x128.Idx → EReal) = (dat4 (fun c b => Gen.V8 m outs c b) c).arrAt 6 cfg4.N := (V9_v82_0 m outs c).symm.trans out4_6
  have es2 : (outs 9 main_v82_1 c : S2x128.Idx → EReal) = (dat4 (fun c b => Gen.V8 m outs c b) c).arrAt 7 cfg4.N := (V9_v82_1 m outs c).symm.trans out4_7
  have eo : (outs 10 main_v83 c : S40000x128.Idx → EReal) = (dat5 (fun c b => Gen.V9 m outs c b) c).arrAt 4 cfg5.N := (V10_v83 m outs c).symm.trans out5_4
  have hY : (lin (comb (Gen.V6 m outs c main_v58 (ix2 0 0)) (toMat (Gen.V6 m outs c main_v41)) (toMat (Gen.V6 m outs c main_v54))) (toWt (Gen.V6 m outs c main_v78)) (toRow (Gen.V6 m outs c main_v61))) = (lin (comb (1 + (m ((c : Thread nD τ).loc main_arg4) : P3) (ix1 1)) (toMat (outs 5 main_v41 c)) (agg (toMat (outs 5 main_v41 c)) (fun p => (m ((c : Thread nD τ).loc main_arg1) : EdgeI) (ix1 p)) (fun p => (m ((c : Thread nD τ).loc main_arg2) : EdgeI) (ix1 p)) (fun p => (m ((c : Thread nD τ).loc main_arg3) : EdgeF) (ix1 p)))) (fun k j => (m ((c : Thread nD τ).loc main_arg5) : P3x128x128) (ix3 1 k j)) (fun j => (m ((c : Thread nD τ).loc main_arg6) : P3x128) (ix2 1 j))) :=
    lin_comb_congr (h3_coef m outs c) (congrArg toMat (h3_h m outs c)) (h3_agg m outs c) (h3_w1 m outs c) (h3_b1 m outs c)
  have hT : (relu (lin (relu (bn (toMat (Gen.V8 m outs c main_v79_0)) (fun j => Gen.V8 m outs c main_v79_1 (ix2 0 j)) (fun j => Gen.V8 m outs c main_v79_1 (ix2 1 j)) (toRow (Gen.V8 m outs c main_v64)) (toRow (Gen.V8 m outs c main_v67)))) (toWt (Gen.V8 m outs c main_v81)) (toRow (Gen.V8 m outs c main_v70)))) = (relu (lin (relu (bn (toMat (outs 7 main_v79_0 c)) (fun j => outs 7 main_v79_1 c (ix2 0 j)) (fun j => outs 7 main_v79_1 c (ix2 1 j)) (fun j => (m ((c : Thread nD τ).loc main_arg7) : P3x128) (ix2 1 j)) (fun j => (m ((c : Thread nD τ).loc main_arg8) : P3x128) (ix2 1 j)))) (fun k j => (m ((c : Thread nD τ).loc main_arg9) : P3x128x128) (ix3 1 k j)) (fun j => (m ((c : Thread nD τ).loc main_arg10) : P3x128) (ix2 1 j)))) :=
    second_congr (congrArg toMat (h4_y m outs c)) (funext fun j => congrFun (h4_stats m outs c) (ix2 0 j))
      (funext fun j => congrFun (h4_stats m outs c) (ix2 1 j)) (h4_g m outs c) (h4_bt m outs c) (h4_w2 m outs c) (h4_b2 m outs c)
  have hH : (relu (bn (toMat (Gen.V9 m outs c main_v82_0)) (fun j => Gen.V9 m outs c main_v82_1 (ix2 0 j)) (fun j => Gen.V9 m outs c main_v82_1 (ix2 1 j)) (toRow (Gen.V9 m outs c main_v73)) (toRow (Gen.V9 m outs c main_v76)))) = (relu (bn (toMat (outs 9 main_v82_0 c)) (fun j => outs 9 main_v82_1 c (ix2 0 j)) (fun j => outs 9 main_v82_1 c (ix2 1 j)) (fun j => (m ((c : Thread nD τ).loc main_arg11) : P3x128) (ix2 1 j)) (fun j => (m ((c : Thread nD τ).loc main_arg12) : P3x128) (ix2 1 j)))) :=
    third_congr (congrArg toMat (h5_t2 m outs c)) (funext fun j => congrFun (h5_stats m outs c) (ix2 0 j))
      (funext fun j => congrFun (h5_stats m outs c) (ix2 1 j)) (h5_g m outs c) (h5_bt m outs c)
  have f0 := final3_y_named (fun c b => Gen.V6 m outs c b) c
  have s0 := final3_stats_named (fun c b => Gen.V6 m outs c b) c
  have f1 := final4_t2_named (fun c b => Gen.V8 m outs c b) c
  have s1 := final4_stats_named (fun c b => Gen.V8 m outs c b) c
  have f2 := final5_named (fun c b => Gen.V9 m outs c b) c
  exact layer_of_stages (1 + (m ((c : Thread nD τ).loc main_arg4) : P3) (ix1 1)) (toMat (outs 5 main_v41 c)) (agg (toMat (outs 5 main_v41 c)) (fun p => (m ((c : Thread nD τ).loc main_arg1) : EdgeI) (ix1 p)) (fun p => (m ((c : Thread nD τ).loc main_arg2) : EdgeI) (ix1 p)) (fun p => (m ((c : Thread nD τ).loc main_arg3) : EdgeF) (ix1 p))) (fun k j => (m ((c : Thread nD τ).loc main_arg5) : P3x128x128) (ix3 1 k j)) (fun j => (m ((c : Thread nD τ).loc main_arg6) : P3x128) (ix2 1 j))
    (fun j => (m ((c : Thread nD τ).loc main_arg7) : P3x128) (ix2 1 j)) (fun j => (m ((c : Thread nD τ).loc main_arg8) : P3x128) (ix2 1 j)) (fun k j => (m ((c : Thread nD τ).loc main_arg9) : P3x128x128) (ix3 1 k j)) (fun j => (m ((c : Thread nD τ).loc main_arg10) : P3x128) (ix2 1 j))
    (fun j => (m ((c : Thread nD τ).loc main_arg11) : P3x128) (ix2 1 j)) (fun j => (m ((c : Thread nD τ).loc main_arg12) : P3x128) (ix2 1 j))
    (toMat (outs 7 main_v79_0 c)) (toMat (outs 9 main_v82_0 c)) (toMat (outs 10 main_v83 c))
    (fun j => outs 7 main_v79_1 c (ix2 0 j)) (fun j => outs 7 main_v79_1 c (ix2 1 j))
    (fun j => outs 9 main_v82_1 c (ix2 0 j)) (fun j => outs 9 main_v82_1 c (ix2 1 j))
    ((congrArg toMat ey).trans (f0.trans hY))
    (funext fun j => (congrFun es1 (ix2 0 j)).trans ((s0 j).1.trans (congrFun (congrArg meanK hY) j)))
    (funext fun j => (congrFun es1 (ix2 1 j)).trans ((s0 j).2.trans (congrFun (congrArg varK hY) j)))
    ((congrArg toMat et).trans (f1.trans hT))
    (funext fun j => (congrFun es2 (ix2 0 j)).trans ((s1 j).1.trans (congrFun (congrArg meanK hT) j)))
    (funext fun j => (congrFun es2 (ix2 1 j)).trans ((s1 j).2.trans (congrFun (congrArg varK hT) j)))
    ((congrArg toMat eo).trans (f2.trans hH))

/-! # Layer 2 -/

set_option maxHeartbeats 2000000 in
/-- Layer 2's three regions, joined: what the third region leaves in its output array is the layer function of
    the features the first region finds. -/
theorem layer2_chain
    (out6_5 : Out6_5 m outs c) (out6_6 : Out6_6 m outs c) (out7_6 : Out7_6 m outs c) (out7_7 : Out7_7 m outs c)
    (out8_4 : Out8_4 m outs c) :
    toMat (outs 15 main_v125 c) = stepK 2 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (toMat (outs 10 main_v83 c)) := by
  have ey : (outs 12 main_v121_0 c : S40000x128.Idx → EReal) = (dat6 (fun c b => Gen.V11 m outs c b) c).arrAt 5 cfg6.N := (V12_v121_0 m outs c).symm.trans out6_5
  have es1 : (outs 12 main_v121_1 c : S2x128.Idx → EReal) = (dat6 (fun c b => Gen.V11 m outs c b) c).arrAt 6 cfg6.N := (V12_v121_1 m outs c).symm.trans out6_6
  have et : (outs 14 main_v124_0 c : S40000x128.Idx → EReal) = (dat7 (fun c b => Gen.V13 m outs c b) c).arrAt 6 cfg7.N := (V14_v124_0 m outs c).symm.trans out7_6
  have es2 : (outs 14 main_v124_1 c : S2x128.Idx → EReal) = (dat7 (fun c b => Gen.V13 m outs c b) c).arrAt 7 cfg7.N := (V14_v124_1 m outs c).symm.trans out7_7
  have eo : (outs 15 main_v125 c : S40000x128.Idx → EReal) = (dat8 (fun c b => Gen.V14 m outs c b) c).arrAt 4 cfg8.N := (V15_v125 m outs c).symm.trans out8_4
  have hY : (lin (comb (Gen.V11 m outs c main_v100 (ix2 0 0)) (toMat (Gen.V11 m outs c main_v83)) (toMat (Gen.V11 m outs c main_v96))) (toWt (Gen.V11 m outs c main_v120)) (toRow (Gen.V11 m outs c main_v103))) = (lin (comb (1 + (m ((c : Thread nD τ).loc main_arg4) : P3) (ix1 2)) (toMat (outs 10 main_v83 c)) (agg (toMat (outs 10 main_v83 c)) (fun p => (m ((c : Thread nD τ).loc main_arg1) : EdgeI) (ix1 p)) (fun p => (m ((c : Thread nD τ).loc main_arg2) : EdgeI) (ix1 p)) (fun p => (m ((c : Thread nD τ).loc main_arg3) : EdgeF) (ix1 p)))) (fun k j => (m ((c : Thread nD τ).loc main_arg5) : P3x128x128) (ix3 2 k j)) (fun j => (m ((c : Thread nD τ).loc main_arg6) : P3x128) (ix2 2 j))) :=
    lin_comb_congr (h6_coef m outs c) (congrArg toMat (h6_h m outs c)) (h6_agg m outs c) (h6_w1 m outs c) (h6_b1 m outs c)
  have hT : (relu (lin (relu (bn (toMat (Gen.V13 m outs c main_v121_0)) (fun j => Gen.V13 m outs c main_v121_1 (ix2 0 j)) (fun j => Gen.V13 m outs c main_v121_1 (ix2 1 j)) (toRow (Gen.V13 m outs c main_v106)) (toRow (Gen.V13 m outs c main_v109)))) (toWt (Gen.V13 m outs c main_v123)) (toRow (Gen.V13 m outs c main_v112)))) = (relu (lin (relu (bn (toMat (outs 12 main_v121_0 c)) (fun j => outs 12 main_v121_1 c (ix2 0 j)) (fun j => outs 12 main_v121_1 c (ix2 1 j)) (fun j => (m ((c : Thread nD τ).loc main_arg7) : P3x128) (ix2 2 j)) (fun j => (m ((c : Thread nD τ).loc main_arg8) : P3x128) (ix2 2 j)))) (fun k j => (m ((c : Thread nD τ).loc main_arg9) : P3x128x128) (ix3 2 k j)) (fun j => (m ((c : Thread nD τ).loc main_arg10) : P3x128) (ix2 2 j)))) :=
    second_congr (congrArg toMat (h7_y m outs c)) (funext fun j => congrFun (h7_stats m outs c) (ix2 0 j))
      (funext fun j => congrFun (h7_stats m outs c) (ix2 1 j)) (h7_g m outs c) (h7_bt m outs c) (h7_w2 m outs c) (h7_b2 m outs c)
  have hH : (relu (bn (toMat (Gen.V14 m outs c main_v124_0)) (fun j => Gen.V14 m outs c main_v124_1 (ix2 0 j)) (fun j => Gen.V14 m outs c main_v124_1 (ix2 1 j)) (toRow (Gen.V14 m outs c main_v115)) (toRow (Gen.V14 m outs c main_v118)))) = (relu (bn (toMat (outs 14 main_v124_0 c)) (fun j => outs 14 main_v124_1 c (ix2 0 j)) (fun j => outs 14 main_v124_1 c (ix2 1 j)) (fun j => (m ((c : Thread nD τ).loc main_arg11) : P3x128) (ix2 2 j)) (fun j => (m ((c : Thread nD τ).loc main_arg12) : P3x128) (ix2 2 j)))) :=
    third_congr (congrArg toMat (h8_t2 m outs c)) (funext fun j => congrFun (h8_stats m outs c) (ix2 0 j))
      (funext fun j => congrFun (h8_stats m outs c) (ix2 1 j)) (h8_g m outs c) (h8_bt m outs c)
  have f0 := final6_y_named (fun c b => Gen.V11 m outs c b) c
  have s0 := final6_stats_named (fun c b => Gen.V11 m outs c b) c
  have f1 := final7_t2_named (fun c b => Gen.V13 m outs c b) c
  have s1 := final7_stats_named (fun c b => Gen.V13 m outs c b) c
  have f2 := final8_named (fun c b => Gen.V14 m outs c b) c
  exact layer_of_stages (1 + (m ((c : Thread nD τ).loc main_arg4) : P3) (ix1 2)) (toMat (outs 10 main_v83 c)) (agg (toMat (outs 10 main_v83 c)) (fun p => (m ((c : Thread nD τ).loc main_arg1) : EdgeI) (ix1 p)) (fun p => (m ((c : Thread nD τ).loc main_arg2) : EdgeI) (ix1 p)) (fun p => (m ((c : Thread nD τ).loc main_arg3) : EdgeF) (ix1 p))) (fun k j => (m ((c : Thread nD τ).loc main_arg5) : P3x128x128) (ix3 2 k j)) (fun j => (m ((c : Thread nD τ).loc main_arg6) : P3x128) (ix2 2 j))
    (fun j => (m ((c : Thread nD τ).loc main_arg7) : P3x128) (ix2 2 j)) (fun j => (m ((c : Thread nD τ).loc main_arg8) : P3x128) (ix2 2 j)) (fun k j => (m ((c : Thread nD τ).loc main_arg9) : P3x128x128) (ix3 2 k j)) (fun j => (m ((c : Thread nD τ).loc main_arg10) : P3x128) (ix2 2 j))
    (fun j => (m ((c : Thread nD τ).loc main_arg11) : P3x128) (ix2 2 j)) (fun j => (m ((c : Thread nD τ).loc main_arg12) : P3x128) (ix2 2 j))
    (toMat (outs 12 main_v121_0 c)) (toMat (outs 14 main_v124_0 c)) (toMat (outs 15 main_v125 c))
    (fun j => outs 12 main_v121_1 c (ix2 0 j)) (fun j => outs 12 main_v121_1 c (ix2 1 j))
    (fun j => outs 14 main_v124_1 c (ix2 0 j)) (fun j => outs 14 main_v124_1 c (ix2 1 j))
    ((congrArg toMat ey).trans (f0.trans hY))
    (funext fun j => (congrFun es1 (ix2 0 j)).trans ((s0 j).1.trans (congrFun (congrArg meanK hY) j)))
    (funext fun j => (congrFun es1 (ix2 1 j)).trans ((s0 j).2.trans (congrFun (congrArg varK hY) j)))
    ((congrArg toMat et).trans (f1.trans hT))
    (funext fun j => (congrFun es2 (ix2 0 j)).trans ((s1 j).1.trans (congrFun (congrArg meanK hT) j)))
    (funext fun j => (congrFun es2 (ix2 1 j)).trans ((s1 j).2.trans (congrFun (congrArg varK hT) j)))
    ((congrArg toMat eo).trans (f2.trans hH))

/-! # The three layers -/

set_option maxHeartbeats 2000000 in
/-- The kernel's value: given what each of the nine regions leaves in its output arrays, the array the last region
    writes holds the three layers, statistics in the first arrangement, applied to the node features. -/
theorem kernel_value_of
    (out0_5 : Out0_5 m outs c) (out0_6 : Out0_6 m outs c) (out1_6 : Out1_6 m outs c) (out1_7 : Out1_7 m outs c) (out2_4 : Out2_4 m outs c) (out3_5 : Out3_5 m outs c) (out3_6 : Out3_6 m outs c) (out4_6 : Out4_6 m outs c) (out4_7 : Out4_7 m outs c) (out5_4 : Out5_4 m outs c) (out6_5 : Out6_5 m outs c) (out6_6 : Out6_6 m outs c) (out7_6 : Out7_6 m outs c) (out7_7 : Out7_7 m outs c) (out8_4 : Out8_4 m outs c) :
    toMat (Gen.V15 m outs c main_v125)
      = stepK 2 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (stepK 1 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (stepK 0 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (toMat (m ((c : Thread nD τ).loc main_arg0) : S40000x128.Idx → EReal)))) := by
  have e2 := layer2_chain m outs c out6_5 out6_6 out7_6 out7_7 out8_4
  have e1 := layer1_chain m outs c out3_5 out3_6 out4_6 out4_7 out5_4
  have e0 := layer0_chain m outs c out0_5 out0_6 out1_6 out1_7 out2_4
  rw [e1, e0] at e2
  exact (congrArg toMat (V15_v125 m outs c)).trans e2

end Chain

end Cert.KernelIdeal.Hand

end
-- ==== Proof.KI.ChainRun.lean ====
/- The kernel's value with the regions' output contents of the run put in. -/
import proofs.«110361_j29403346109051_2_alg».proof.Proof.KI.Chain
import proofs.«110361_j29403346109051_2_alg».proof.Proof.KI.Run1

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx

section
variable (m : (ℓ : Loc nD τ sig) → Buf (Elt Ideal) ℓ) (c : Dev nD)

set_option maxHeartbeats 2000000 in
/-- What the kernel leaves in its result array: the three layers, statistics in the first arrangement, applied to the
    node features. -/
theorem kernel_value :
    toMat (Gen.V15 m (outs m) c main_v125)
      = stepK 2 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (stepK 1 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (stepK 0 (m ((c : Thread nD τ).loc main_arg1) : EdgeI) (m ((c : Thread nD τ).loc main_arg2) : EdgeI) (m ((c : Thread nD τ).loc main_arg3) : EdgeF) (m ((c : Thread nD τ).loc main_arg4) : P3) (m ((c : Thread nD τ).loc main_arg5) : P3x128x128) (m ((c : Thread nD τ).loc main_arg6) : P3x128) (m ((c : Thread nD τ).loc main_arg7) : P3x128) (m ((c : Thread nD τ).loc main_arg8) : P3x128) (m ((c : Thread nD τ).loc main_arg9) : P3x128x128) (m ((c : Thread nD τ).loc main_arg10) : P3x128) (m ((c : Thread nD τ).loc main_arg11) : P3x128) (m ((c : Thread nD τ).loc main_arg12) : P3x128) (toMat (m ((c : Thread nD τ).loc main_arg0) : S40000x128.Idx → EReal)))) :=
  kernel_value_of m (outs m) c (arrOut0_5 m c) (arrOut0_6 m c) (arrOut1_6 m c) (arrOut1_7 m c) (arrOut2_4 m c) (arrOut3_5 m c) (arrOut3_6 m c) (arrOut4_6 m c) (arrOut4_7 m c) (arrOut5_4 m c) (arrOut6_5 m c) (arrOut6_6 m c) (arrOut7_6 m c) (arrOut7_7 m c) (arrOut8_4 m c)

end

end Cert.KernelIdeal.Hand

end
-- ==== Proof.Ref.Ops0.lean ====
import proofs.«110361_j29403346109051_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Statements 1 … 60 of @main as a list of host operations, in program order: each call of a module-local
    function replaced by the callee's operations over that call's buffer record (the variance's by its twenty and the
    three of the select inside it, the rectifier's by its three). -/
abbrev ops0 : List (HloOp τ sig (Elt F)) :=
  [
    StableHlo.unary main_arg3 main_v0 (broadcastInDim S640000x1 ![0] bcast_S640000_S640000x1_0 : (⟨S640000, .f32⟩ : BufTy).Contents (Elt F) → (⟨S640000x1, .f32⟩ : BufTy).Contents (Elt F)),
    StableHlo.nullary main_c (constantI S_ 32 0#32),
    StableHlo.unary main_c main_v1 (broadcastInDim S640000 ![] bcast_S_S640000 : (⟨S_, .i32⟩ : BufTy).Contents (Elt F) → (⟨S640000, .i32⟩ : BufTy).Contents (Elt F)),
    StableHlo.binary main_arg1 main_v1 main_v2 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 40000#32),
    StableHlo.unary main_c_0 main_v3 (broadcastInDim S640000 ![] bcast_S_S640000 : (⟨S_, .i32⟩ : BufTy).Contents (Elt F) → (⟨S640000, .i32⟩ : BufTy).Contents (Elt F)),
    StableHlo.binary main_arg1 main_v3 main_v4 (addi : (⟨S640000, .i32⟩ : BufTy).Contents (Elt F) → (⟨S640000, .i32⟩ : BufTy).Contents (Elt F) → (⟨S640000, .i32⟩ : BufTy).Contents (Elt F)),
    StableHlo.ternary main_v2 main_v4 main_arg1 main_v5 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v5 main_v6 (broadcastInDim S640000x1 ![0] bcast_S640000_S640000x1_0 : (⟨S640000, .i32⟩ : BufTy).Contents (Elt F) → (⟨S640000x1, .i32⟩ : BufTy).Contents (Elt F)),
    StableHlo.binary main_arg0 main_v6 main_v7 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v0 main_v8 (broadcastInDim S640000x128 ![0, 1] bcast_S640000x1_S640000x128_0_1 : (⟨S640000x1, .f32⟩ : BufTy).Contents (Elt F) → (⟨S640000x128, .f32⟩ : BufTy).Contents (Elt F)),
    StableHlo.binary main_v8 main_v7 main_v9 (mulf : (⟨S640000x128, .f32⟩ : BufTy).Contents (Elt F) → (⟨S640000x128, .f32⟩ : BufTy).Contents (Elt F) → (⟨S640000x128, .f32⟩ : BufTy).Contents (Elt F)),
    StableHlo.nullary main_cst (constant S_ .f32 0x00000000#32),
    StableHlo.unary main_cst main_v10 (broadcastInDim S40000x128 ![] bcast_S_S40000x128 : (⟨S_, .f32⟩ : BufTy).Contents (Elt F) → (⟨S40000x128, .f32⟩ : BufTy).Contents (Elt F)),
    StableHlo.unary main_arg2 main_v11 (broadcastInDim S640000x1 ![0] bcast_S640000_S640000x1_0 : (⟨S640000, .i32⟩ : BufTy).Contents (Elt F) → (⟨S640000x1, .i32⟩ : BufTy).Contents (Elt F)),
    StableHlo.ternary main_v10 main_v11 main_v9 main_v12 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_arg4 main_v13 ((extractStridedSlice S1 ![0] · slices_S3_S1_0) : (⟨S3, .f32⟩ : BufTy).Contents (Elt F) → (⟨S1, .f32⟩ : BufTy).Contents (Elt F)),
    StableHlo.reshape main_v13 main_v14 rfl shapeCasts_S1_S_,
    StableHlo.nullary main_cst_1 (constant S_ .f32 0x3F800000#32),
    StableHlo.binary main_cst_1 main_v14 main_v15 (addf : (⟨S_, .f32⟩ : BufTy).Contents (Elt F) → (⟨S_, .f32⟩ : BufTy).Contents (Elt F) → (⟨S_, .f32⟩ : BufTy).Contents (Elt F)),
    StableHlo.unary main_v15 main_v16 (broadcastInDim S40000x128 ![] bcast_S_S40000x128 : (⟨S_, .f32⟩ : BufTy).Contents (Elt F) → (⟨S40000x128, .f32⟩ : BufTy).Contents (Elt F)),
    StableHlo.binary main_v16 main_arg0 main_v17 (mulf : (⟨S40000x128, .f32⟩ : BufTy).Contents (Elt F) → (⟨S40000x128, .f32⟩ : BufTy).Contents (Elt F) → (⟨S40000x128, .f32⟩ : BufTy).Contents (Elt F)),
    StableHlo.binary main_v17 main_v12 main_v18 (addf : (⟨S40000x128, .f32⟩ : BufTy).Contents (Elt F) → (⟨S40000x128, .f32⟩ : BufTy).Contents (Elt F) → (⟨S40000x128, .f32⟩ : BufTy).Contents (Elt F)),
    StableHlo.unary main_arg5 main_v19 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v19 main_v20 rfl shapeCasts_S1x128x128_S128x128,
    StableHlo.binary main_v18 main_v20 main_v21 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg6 main_v22 ((extractStridedSlice S1x128 ![0, 0] · slices_S3x128_S1x128_0_0) : (⟨S3x128, .f32⟩ : BufTy).Contents (Elt F) → (⟨S1x128, .f32⟩ : BufTy).Contents (Elt F)),
    StableHlo.reshape main_v22 main_v23 rfl shapeCasts_S1x128_S128,
    StableHlo.unary main_v23 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S40000x128 ![0, 1] bcast_S1x128_S40000x128_0_1 : (⟨S1x128, .f32⟩ : BufTy).Contents (Elt F) → (⟨S40000x128, .f32⟩ : BufTy).Contents (Elt F)),
    StableHlo.binary main_v21 main_v25 main_v26 (addf : (⟨S40000x128, .f32⟩ : BufTy).Contents (Elt F) → (⟨S40000x128, .f32⟩ : BufTy).Contents (Elt F) → (⟨S40000x128, .f32⟩ : BufTy).Contents (Elt F)),
    StableHlo.unary main_arg7 main_v27 ((extractStridedSlice S1x128 ![0, 0] · slices_S3x128_S1x128_0_0) : (⟨S3x128, .f32⟩ : BufTy).Contents (Elt F) → (⟨S1x128, .f32⟩ : BufTy).Contents (Elt F)),
    StableHlo.reshape main_v27 main_v28 rfl shapeCasts_S1x128_S128,
    StableHlo.unary main_arg8 main_v29 ((extractStridedSlice S1x128 ![0, 0] · slices_S3x128_S1x128_0_0) : (⟨S3x128, .f32⟩ : BufTy).Contents (Elt F) → (⟨S1x128, .f32⟩ : BufTy).Contents (Elt F)),
    StableHlo.reshape main_v29 main_v30 rfl shapeCasts_S1x128_S128,
    StableHlo.nullary main_cst_2 (constant S_ .f32 0x00000000#32),
    StableHlo.binary main_v26 main_cst_2 main_v31 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_3 (constant S_ .f32 0x471C4000#32),
    StableHlo.unary main_cst_3 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v26) main_call0.cst main_call0.v0 (fun x v => Host.reduceAdd x v reducesTo_S40000x128_S128_d0 h_S_),
    StableHlo.TRef.unary main_call0.v0 main_call0.v1 (broadcastInDim S1x128 ![1] bcast_S128_S1x128_1),
    StableHlo.TRef.nullary main_call0.cst_0 (constant S_ .f32 0x471C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S40000x128 ![0, 1] bcast_S1x128_S40000x128_0_1),
    StableHlo.TRef.binary (.of main_v26) main_call0.v4 main_call0.v5 subf,
    StableHlo.TRef.binary main_call0.v5 main_call0.v5 main_call0.v6 mulf,
    StableHlo.TRef.unary (.of main_c_4) main_call0.v7 (sitofp .f32),
    StableHlo.TRef.nullary main_call0.cst_1 (constant S_ .f32 0x471C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S40000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S40000x128 ![0, 1] bcast_S1x128_S40000x128_0_1 : (⟨S1x128, .f32⟩ : BufTy).Contents (Elt F) → (⟨S40000x128, .f32⟩ : BufTy).Contents (Elt F)),
    StableHlo.binary main_v26 main_v36 main_v37 (subf : (⟨S40000x128, .f32⟩ : BufTy).Contents (Elt F) → (⟨S40000x128, .f32⟩ : BufTy).Contents (Elt F) → (⟨S40000x128, .f32⟩ : BufTy).Contents (Elt F)),
    StableHlo.unary main_v28 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S40000x128 ![0, 1] bcast_S1x128_S40000x128_0_1 : (⟨S1x128, .f32⟩ : BufTy).Contents (Elt F) → (⟨S40000x128, .f32⟩ : BufTy).Contents (Elt F)),
    StableHlo.binary main_v39 main_v37 main_v40 (mulf : (⟨S40000x128, .f32⟩ : BufTy).Contents (Elt F) → (⟨S40000x128, .f32⟩ : BufTy).Contents (Elt F) → (⟨S40000x128, .f32⟩ : BufTy).Contents (Elt F)),
    StableHlo.nullary main_cst_5 (constant S_ .f32 0x3727C5AC#32),
    StableHlo.unary main_cst_5 main_v41 (broadcastInDim S128 ![] bcast_S_S128 : (⟨S_, .f32⟩ : BufTy).Contents (Elt F) → (⟨S128, .f32⟩ : BufTy).Contents (Elt F)),
    StableHlo.binary main_v34 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S40000x128 ![0, 1] bcast_S1x128_S40000x128_0_1 : (⟨S1x128, .f32⟩ : BufTy).Contents (Elt F) → (⟨S40000x128, .f32⟩ : BufTy).Contents (Elt F)),
    StableHlo.binary main_v40 main_v45 main_v46 (mulf : (⟨S40000x128, .f32⟩ : BufTy).Contents (Elt F) → (⟨S40000x128, .f32⟩ : BufTy).Contents (Elt F) → (⟨S40000x128, .f32⟩ : BufTy).Contents (Elt F)),
    StableHlo.unary main_v30 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S40000x128 ![0, 1] bcast_S1x128_S40000x128_0_1 : (⟨S1x128, .f32⟩ : BufTy).Contents (Elt F) → (⟨S40000x128, .f32⟩ : BufTy).Contents (Elt F)),
    StableHlo.binary main_v46 main_v48 main_v49 (addf : (⟨S40000x128, .f32⟩ : BufTy).Contents (Elt F) → (⟨S40000x128, .f32⟩ : BufTy).Contents (Elt F) → (⟨S40000x128, .f32⟩ : BufTy).Contents (Elt F)),
    StableHlo.TRef.nullary main_call1.cst (constant S_ .f32 0x00000000#32),
    StableHlo.TRef.unary main_call1.cst main_call1.v0 (broadcastInDim S40000x128 ![] bcast_S_S40000x128),
    StableHlo.TRef.binary (.of main_v49) main_call1.v0 main_call1.v1 maximumf,
    StableHlo.unary main_arg9 main_v51 ((extractStridedSlice S1x128x128 ![0, 0, 0] · slices_S3x128x128_S1x128x128_0_0_0) : (⟨S3x128x128, .f32⟩ : BufTy).Contents (Elt F) → (⟨S1x128x128, .f32⟩ : BufTy).Contents (Elt F))
  ]

set_option maxRecDepth 4096 in
set_option maxHeartbeats 4000000 in
/-- The window is that straight line: the callees' definitions unfolded at their calls, the sequencing reassociated. -/
theorem part0_eq (c : Dev nD) : main_part0 (F := F) c = seq ops0 := by
  simp only [main_part0, fn_var.body, fn_where.body, fn_relu.body, seq, bind_assoc, pure_bind]
  rfl

/-- Every operation of the window touches TensorCore buffers only. -/
theorem ops0_sub : (ops0 : List (HloOp τ sig (Elt F))).Forall fun op => op.bufs ⊆ tcRefs τ sig :=
  ⟨
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., reshape_bufs_sub ..,
    nullary_bufs_sub .., binary_bufs_sub .., unary_bufs_sub .., binary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., unary_bufs_sub ..
  ⟩

end Cert.ReferenceIdeal.Hand

end
-- ==== Proof.Ref.Stages.lean ====
import proofs.«110361_j29403346109051_2_alg».proof.ReferenceIdeal

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F] [Facts]

/-- The contents of a tensor value of shape `s` and element type `e`. -/
local notation "𝕋[" s ", " e "]" => BufTy.Contents (Elt F) (⟨s, e⟩ : BufTy)

/-! ## The stages of one layer

Each is the composition, in program order, of the host operations @main runs for it; the three layers differ only
in which row of the parameter arrays they slice. -/

/-- The source indices wrapped: a negative index counts from the end (40000 added). -/
def wrapIdx (src : 𝕋[S640000, .i32]) : 𝕋[S640000, .i32] :=
  select (cmpi .slt src (broadcastInDim S640000 ![] bcast_S_S640000 (constantI S_ 32 0#32)))
    (addi src (broadcastInDim S640000 ![] bcast_S_S640000 (constantI S_ 32 40000#32))) src

/-- One message per edge: the edge weight times the source node's row. -/
def msgs (h : 𝕋[S40000x128, .f32]) (src : 𝕋[S640000, .i32]) (ew : 𝕋[S640000, .f32]) : 𝕋[S640000x128, .f32] :=
  mulf (broadcastInDim S640000x128 ![0, 1] bcast_S640000x1_S640000x128_0_1 (broadcastInDim S640000x1 ![0] bcast_S640000_S640000x1_0 ew))
    (Host.gather gather_S40000x128_S640000x1_S640000x128_1_0_n_n_0_1_1128 h
      (broadcastInDim S640000x1 ![0] bcast_S640000_S640000x1_0 (wrapIdx src)))

/-- The messages summed at their destination nodes (a segment sum: scatter-add into zeros). -/
def agg (h : 𝕋[S40000x128, .f32]) (src dst : 𝕋[S640000, .i32]) (ew : 𝕋[S640000, .f32]) : 𝕋[S40000x128, .f32] :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 dst) (msgs h src ew)

/-- The layer's input to its first linear map: `(1 + ε)·h + agg`. -/
def xin (e : 𝕋[S_, .f32]) (h a : 𝕋[S40000x128, .f32]) : 𝕋[S40000x128, .f32] :=
  addf (mulf (broadcastInDim S40000x128 ![] bcast_S_S40000x128 (addf (constant S_ .f32 0x3F800000#32) e)) h) a

/-- A vector of 128 repeated along the 40000 rows. -/
def rowB (v : 𝕋[S128, .f32]) : 𝕋[S40000x128, .f32] :=
  broadcastInDim S40000x128 ![0, 1] bcast_S1x128_S40000x128_0_1 (broadcastInDim S1x128 ![1] bcast_S128_S1x128_1 v)

/-- A linear map: `x · W + b`. -/
def lin (x : 𝕋[S40000x128, .f32]) (W : 𝕋[S128x128, .f32]) (b : 𝕋[S128, .f32]) : 𝕋[S40000x128, .f32] :=
  addf (Host.dotGeneral dot_S40000x128_S128x128_S40000x128_1_0_0_1_n_n none x W) (rowB b)

/-- The column sums. -/
def colSum (y : 𝕋[S40000x128, .f32]) : 𝕋[S128, .f32] :=
  Host.reduceAdd y (constant S_ .f32 0x00000000#32) reducesTo_S40000x128_S128_d0 h_S_

/-- The column means: the column sums over 40000. -/
def colMean (y : 𝕋[S40000x128, .f32]) : 𝕋[S128, .f32] :=
  Host.divf (colSum y) (broadcastInDim S128 ![] bcast_S_S128 (constant S_ .f32 0x471C4000#32))

/-- The deviation from the column mean, as the variance computes it (the mean kept as a 1×128 row). -/
def devMean (y : 𝕋[S40000x128, .f32]) : 𝕋[S40000x128, .f32] :=
  subf y (broadcastInDim S40000x128 ![0, 1] bcast_S1x128_S40000x128_0_1
    (Host.divf (broadcastInDim S1x128 ![1] bcast_S128_S1x128_1 (colSum y))
      (broadcastInDim S1x128 ![] bcast_S_S1x128 (constant S_ .f32 0x471C4000#32))))

/-- The variance's divisor: 40000 minus the degrees-of-freedom correction, which is 0. -/
def varN : 𝕋[S_, .f32] :=
  subf (constant S_ .f32 0x471C4000#32) (sitofp .f32 (constantI S_ 32 0#32 : 𝕋[S_, .i32]))

/-- The column variances: the mean squared deviation, NaN where the divisor is not positive. -/
def colVar (y : 𝕋[S40000x128, .f32]) : 𝕋[S128, .f32] :=
  select (broadcastInDim S128 ![] bcast_S_S128 (cmpf .ogt (varN (F := F)) (constant S_ .f32 0x00000000#32)))
    (Host.divf (colSum (mulf (devMean y) (devMean y))) (broadcastInDim S128 ![] bcast_S_S128 (varN (F := F))))
    (broadcastInDim S128 ![] bcast_S_S128 (id (constant S_ .f32 0x7FC00000#32)))

/-- The deviation from the column mean, as the normalization computes it. -/
def centered (y : 𝕋[S40000x128, .f32]) : 𝕋[S40000x128, .f32] := subf y (rowB (colMean y))

/-- The end of a batch normalization, from the scaled deviation `gc = g · (y − mean)`, the variance and the shift:
    `gc · rsqrt (var + 1e-5) + bt`. -/
def bnTail (gc : 𝕋[S40000x128, .f32]) (var bt : 𝕋[S128, .f32]) : 𝕋[S40000x128, .f32] :=
  addf (mulf gc (rowB (Host.rsqrt (addf var (broadcastInDim S128 ![] bcast_S_S128 (constant S_ .f32 0x3727C5AC#32)))))) (rowB bt)

/-- Batch normalization over the rows: `g · (y − mean) · rsqrt (var + 1e-5) + bt`. -/
def bn (y : 𝕋[S40000x128, .f32]) (g bt : 𝕋[S128, .f32]) : 𝕋[S40000x128, .f32] :=
  bnTail (mulf (rowB g) (centered y)) (colVar y) bt

/-- The rectifier: the maximum with zero. -/
def relu (x : 𝕋[S40000x128, .f32]) : 𝕋[S40000x128, .f32] :=
  maximumf x (broadcastInDim S40000x128 ![] bcast_S_S40000x128 (constant S_ .f32 0x00000000#32))

/-! ## The parameter rows -/

/-- Entry `o` of a vector of three, as a scalar. -/
def scalarAt (a : 𝕋[S3, .f32]) (o : Fin S3.rank → Nat) (ho : S3.Slices o S1) : 𝕋[S_, .f32] :=
  fun i => shapeCast S_ (extractStridedSlice S1 o a ho) shapeCasts_S1_S_ i

/-- A 1×128×128 slice as its 128×128 matrix. -/
def matOf (x : 𝕋[S1x128x128, .f32]) : 𝕋[S128x128, .f32] :=
  fun i => shapeCast S128x128 x shapeCasts_S1x128x128_S128x128 i

/-- Matrix `o` of three 128×128 matrices. -/
def matAt (a : 𝕋[S3x128x128, .f32]) (o : Fin S3x128x128.rank → Nat) (ho : S3x128x128.Slices o S1x128x128) : 𝕋[S128x128, .f32] :=
  matOf (extractStridedSlice S1x128x128 o a ho)

/-- Row `o` of three rows of 128. -/
def rowAt (a : 𝕋[S3x128, .f32]) (o : Fin S3x128.rank → Nat) (ho : S3x128.Slices o S1x128) : 𝕋[S128, .f32] :=
  fun i => shapeCast S128 (extractStridedSlice S1x128 o a ho) shapeCasts_S1x128_S128 i

/-! ## A layer, and the three composed -/

/-- The first half of a layer: aggregate, first linear map, batch normalization, rectifier. -/
def half1 (h : 𝕋[S40000x128, .f32]) (src dst : 𝕋[S640000, .i32]) (ew : 𝕋[S640000, .f32]) (e : 𝕋[S_, .f32])
    (W1 : 𝕋[S128x128, .f32]) (b1 g1 bt1 : 𝕋[S128, .f32]) : 𝕋[S40000x128, .f32] :=
  relu (bn (lin (xin e h (agg h src dst ew)) W1 b1) g1 bt1)

/-- The second half: second linear map, rectifier, batch normalization, rectifier. -/
def half2 (t : 𝕋[S40000x128, .f32]) (W2 : 𝕋[S128x128, .f32]) (b2 g2 bt2 : 𝕋[S128, .f32]) : 𝕋[S40000x128, .f32] :=
  relu (bn (relu (lin t W2 b2)) g2 bt2)

/-- One layer on the node features `h`, its parameters already sliced. -/
def refLayer (h : 𝕋[S40000x128, .f32]) (src dst : 𝕋[S640000, .i32]) (ew : 𝕋[S640000, .f32]) (e : 𝕋[S_, .f32])
    (W1 : 𝕋[S128x128, .f32]) (b1 g1 bt1 : 𝕋[S128, .f32]) (W2 : 𝕋[S128x128, .f32]) (b2 g2 bt2 : 𝕋[S128, .f32]) :
    𝕋[S40000x128, .f32] :=
  half2 (half1 h src dst ew e W1 b1 g1 bt1) W2 b2 g2 bt2

/-- Layer 0: its parameters are row 0 of each parameter array. -/
def refLayer0 (h : 𝕋[S40000x128, .f32]) (a1 a2 : 𝕋[S640000, .i32]) (a3 : 𝕋[S640000, .f32]) (a4 : 𝕋[S3, .f32])
    (a5 : 𝕋[S3x128x128, .f32]) (a6 a7 a8 : 𝕋[S3x128, .f32]) (a9 : 𝕋[S3x128x128, .f32]) (a10 a11 a12 : 𝕋[S3x128, .f32]) :
    𝕋[S40000x128, .f32] :=
  refLayer h a1 a2 a3 (scalarAt a4 ![0] slices_S3_S1_0)
    (matAt a5 ![0, 0, 0] slices_S3x128x128_S1x128x128_0_0_0) (rowAt a6 ![0, 0] slices_S3x128_S1x128_0_0)
    (rowAt a7 ![0, 0] slices_S3x128_S1x128_0_0) (rowAt a8 ![0, 0] slices_S3x128_S1x128_0_0)
    (matAt a9 ![0, 0, 0] slices_S3x128x128_S1x128x128_0_0_0) (rowAt a10 ![0, 0] slices_S3x128_S1x128_0_0)
    (rowAt a11 ![0, 0] slices_S3x128_S1x128_0_0) (rowAt a12 ![0, 0] slices_S3x128_S1x128_0_0)

/-- Layer 1: its parameters are row 1 of each parameter array. -/
def refLayer1 (h : 𝕋[S40000x128, .f32]) (a1 a2 : 𝕋[S640000, .i32]) (a3 : 𝕋[S640000, .f32]) (a4 : 𝕋[S3, .f32])
    (a5 : 𝕋[S3x128x128, .f32]) (a6 a7 a8 : 𝕋[S3x128, .f32]) (a9 : 𝕋[S3x128x128, .f32]) (a10 a11 a12 : 𝕋[S3x128, .f32]) :
    𝕋[S40000x128, .f32] :=
  refLayer h a1 a2 a3 (scalarAt a4 ![1] slices_S3_S1_1)
    (matAt a5 ![1, 0, 0] slices_S3x128x128_S1x128x128_1_0_0) (rowAt a6 ![1, 0] slices_S3x128_S1x128_1_0)
    (rowAt a7 ![1, 0] slices_S3x128_S1x128_1_0) (rowAt a8 ![1, 0] slices_S3x128_S1x128_1_0)
    (matAt a9 ![1, 0, 0] slices_S3x128x128_S1x128x128_1_0_0) (rowAt a10 ![1, 0] slices_S3x128_S1x128_1_0)
    (rowAt a11 ![1, 0] slices_S3x128_S1x128_1_0) (rowAt a12 ![1, 0] slices_S3x128_S1x128_1_0)

/-- Layer 2: its parameters are row 2 of each parameter array. -/
def refLayer2 (h : 𝕋[S40000x128, .f32]) (a1 a2 : 𝕋[S640000, .i32]) (a3 : 𝕋[S640000, .f32]) (a4 : 𝕋[S3, .f32])
    (a5 : 𝕋[S3x128x128, .f32]) (a6 a7 a8 : 𝕋[S3x128, .f32]) (a9 : 𝕋[S3x128x128, .f32]) (a10 a11 a12 : 𝕋[S3x128, .f32]) :
    𝕋[S40000x128, .f32] :=
  refLayer h a1 a2 a3 (scalarAt a4 ![2] slices_S3_S1_2)
    (matAt a5 ![2, 0, 0] slices_S3x128x128_S1x128x128_2_0_0) (rowAt a6 ![2, 0] slices_S3x128_S1x128_2_0)
    (rowAt a7 ![2, 0] slices_S3x128_S1x128_2_0) (rowAt a8 ![2, 0] slices_S3x128_S1x128_2_0)
    (matAt a9 ![2, 0, 0] slices_S3x128x128_S1x128x128_2_0_0) (rowAt a10 ![2, 0] slices_S3x128_S1x128_2_0)
    (rowAt a11 ![2, 0] slices_S3x128_S1x128_2_0) (rowAt a12 ![2, 0] slices_S3x128_S1x128_2_0)

/-- The reference's result as one term of its 13 arguments: the three layers composed. -/
def refVal (a0 : 𝕋[S40000x128, .f32]) (a1 a2 : 𝕋[S640000, .i32]) (a3 : 𝕋[S640000, .f32]) (a4 : 𝕋[S3, .f32])
    (a5 : 𝕋[S3x128x128, .f32]) (a6 a7 a8 : 𝕋[S3x128, .f32]) (a9 : 𝕋[S3x128x128, .f32]) (a10 a11 a12 : 𝕋[S3x128, .f32]) :
    𝕋[S40000x128, .f32] :=
  refLayer2 (refLayer1 (refLayer0 a0 a1 a2 a3 a4 a5 a6 a7 a8 a9 a10 a11 a12) a1 a2 a3 a4 a5 a6 a7 a8 a9 a10 a11 a12)
    a1 a2 a3 a4 a5 a6 a7 a8 a9 a10 a11 a12

end Cert.ReferenceIdeal.Hand

end
-- ==== Proof.Ref.Res0.lean ====
import proofs.«110361_j29403346109051_2_alg».proof.Proof.Ref.Ops0
import proofs.«110361_j29403346109051_2_alg».proof.Proof.Ref.Stages

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The device's buffer contents after window 0 (statements 1 … 60 of @main), from contents `V`. -/
def step0 (V : Valuation τ sig (Elt F)) : Valuation τ sig (Elt F) := after (ops0 (F := F)) V

/-! What window 0 leaves for the later ones: the first half of layer 0, and layer 0's slice of the second weights. -/

set_option maxRecDepth 8192 in
theorem step0_v50 (V : Valuation τ sig (Elt F)) :
    step0 V (Proc.devRef .tc main_v50) = half1 (V (Proc.devRef .tc main_arg0)) (V (Proc.devRef .tc main_arg1)) (V (Proc.devRef .tc main_arg2)) (V (Proc.devRef .tc main_arg3)) (scalarAt (V (Proc.devRef .tc main_arg4)) ![0] slices_S3_S1_0)
      (matAt (V (Proc.devRef .tc main_arg5)) ![0, 0, 0] slices_S3x128x128_S1x128x128_0_0_0) (rowAt (V (Proc.devRef .tc main_arg6)) ![0, 0] slices_S3x128_S1x128_0_0) (rowAt (V (Proc.devRef .tc main_arg7)) ![0, 0] slices_S3x128_S1x128_0_0) (rowAt (V (Proc.devRef .tc main_arg8)) ![0, 0] slices_S3x128_S1x128_0_0) := by
  show after (ops0 (F := F)) V _ = _
  after_results_simp <;> rfl

theorem step0_v51 (V : Valuation τ sig (Elt F)) :
    step0 V (Proc.devRef .tc main_v51) = extractStridedSlice S1x128x128 ![0, 0, 0] (V (Proc.devRef .tc main_arg9)) slices_S3x128x128_S1x128x128_0_0_0 := by
  show after (ops0 (F := F)) V _ = _
  after_results_simp <;> rfl

/-- Every operation of the window determines what it writes (none allocates a buffer with unspecified contents). -/
theorem ops0_fresh : (ops0 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl
  ⟩

/-- An operation that writes one buffer, a member of the list `W`, writes inside `W`. -/
private theorem writes_sub_of_mem {op : HloOp τ sig (Elt F)} {y : Ref sig .tc} {W : List (Ref sig .tc)}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- The buffers window 0 writes: one per operation. -/
abbrev writes0 : List (Ref sig .tc) :=
  [
    main_v0, main_c, main_v1, main_v2, main_c_0, main_v3, main_v4, main_v5,
    main_v6, main_v7, main_v8, main_v9, main_cst, main_v10, main_v11, main_v12,
    main_v13, main_v14, main_cst_1, main_v15, main_v16, main_v17, main_v18, main_v19,
    main_v20, main_v21, main_v22, main_v23, main_v24, main_v25, main_v26, main_v27,
    main_v28, main_v29, main_v30, main_cst_2, main_v31, main_cst_3, main_v32, main_v33,
    main_c_4, main_call0_cst, main_call0_v0, main_call0_v1, main_call0_cst_0, main_call0_v2, main_call0_v3, main_call0_v4,
    main_call0_v5, main_call0_v6, main_call0_v7, main_call0_cst_1, main_call0_v8, main_call0_cst_2, main_call0_v9, main_call0_v10,
    main_call0_v11, main_call0_cst_3, main_call0_v12, main_call0_cst_4, main_call0_call0_v0, main_call0_call0_v1, main_v34, main_v35,
    main_v36, main_v37, main_v38, main_v39, main_v40, main_cst_5, main_v41, main_v42,
    main_v43, main_v44, main_v45, main_v46, main_v47, main_v48, main_v49, main_call1_cst,
    main_call1_v0, main_v50, main_v51
  ]

theorem ops0_writes : (ops0 : List (HloOp τ sig (Elt F))).Forall fun op =>
    op.writes ⊆ (writes0.map (Proc.devRef (τ := τ) .tc)).toFinset :=
  ⟨
    writes_sub_of_mem (unary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (unary_writes ..) (by decide), writes_sub_of_mem (ternary_writes ..) (by decide),
    writes_sub_of_mem (unary_writes ..) (by decide), writes_sub_of_mem (reshape_writes ..) (by decide),
    writes_sub_of_mem (nullary_writes ..) (by decide), writes_sub_of_mem (binary_writes ..) (by decide),
    writes_sub_of_mem (unary_writes ..) (by decide), writes_sub_of_mem (binary_writes ..) (by decide),
    writes_sub_of_mem (binary_writes ..) (by decide), writes_sub_of_mem (unary_writes ..) (by decide),
    writes_sub_of_mem (reshape_writes ..) (by decide), writes_sub_of_mem (binary_writes ..) (by decide),
    writes_sub_of_mem (unary_writes ..) (by decide), writes_sub_of_mem (reshape_writes ..) (by decide),
    writes_sub_of_mem (unary_writes ..) (by decide), writes_sub_of_mem (unary_writes ..) (by decide),
    writes_sub_of_mem (binary_writes ..) (by decide), writes_sub_of_mem (unary_writes ..) (by decide),
    writes_sub_of_mem (reshape_writes ..) (by decide), writes_sub_of_mem (unary_writes ..) (by decide),
    writes_sub_of_mem (reshape_writes ..) (by decide), writes_sub_of_mem (nullary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (nullary_writes ..) (by decide),
    writes_sub_of_mem (binary_writes ..) (by decide), writes_sub_of_mem (unary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (binary_writes ..) (by decide), writes_sub_of_mem (binary_writes ..) (by decide),
    writes_sub_of_mem (unary_writes ..) (by decide), writes_sub_of_mem (nullary_writes ..) (by decide),
    writes_sub_of_mem (binary_writes ..) (by decide), writes_sub_of_mem (nullary_writes ..) (by decide),
    writes_sub_of_mem (binary_writes ..) (by decide), writes_sub_of_mem (unary_writes ..) (by decide),
    writes_sub_of_mem (binary_writes ..) (by decide), writes_sub_of_mem (nullary_writes ..) (by decide),
    writes_sub_of_mem (binary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (unary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide)
  ⟩

/-! No window writes an argument: each keeps its contents. -/

theorem step0_arg0 (V : Valuation τ sig (Elt F)) :
    step0 V (Proc.devRef .tc main_arg0) = V (Proc.devRef .tc main_arg0) :=
  after_of_writes_sub ops0 V ops0_writes (by decide)

theorem step0_arg1 (V : Valuation τ sig (Elt F)) :
    step0 V (Proc.devRef .tc main_arg1) = V (Proc.devRef .tc main_arg1) :=
  after_of_writes_sub ops0 V ops0_writes (by decide)

theorem step0_arg2 (V : Valuation τ sig (Elt F)) :
    step0 V (Proc.devRef .tc main_arg2) = V (Proc.devRef .tc main_arg2) :=
  after_of_writes_sub ops0 V ops0_writes (by decide)

theorem step0_arg3 (V : Valuation τ sig (Elt F)) :
    step0 V (Proc.devRef .tc main_arg3) = V (Proc.devRef .tc main_arg3) :=
  after_of_writes_sub ops0 V ops0_writes (by decide)

theorem step0_arg4 (V : Valuation τ sig (Elt F)) :
    step0 V (Proc.devRef .tc main_arg4) = V (Proc.devRef .tc main_arg4) :=
  after_of_writes_sub ops0 V ops0_writes (by decide)

theorem step0_arg5 (V : Valuation τ sig (Elt F)) :
    step0 V (Proc.devRef .tc main_arg5) = V (Proc.devRef .tc main_arg5) :=
  after_of_writes_sub ops0 V ops0_writes (by decide)

theorem step0_arg6 (V : Valuation τ sig (Elt F)) :
    step0 V (Proc.devRef .tc main_arg6) = V (Proc.devRef .tc main_arg6) :=
  after_of_writes_sub ops0 V ops0_writes (by decide)

theorem step0_arg7 (V : Valuation τ sig (Elt F)) :
    step0 V (Proc.devRef .tc main_arg7) = V (Proc.devRef .tc main_arg7) :=
  after_of_writes_sub ops0 V ops0_writes (by decide)

theorem step0_arg8 (V : Valuation τ sig (Elt F)) :
    step0 V (Proc.devRef .tc main_arg8) = V (Proc.devRef .tc main_arg8) :=
  after_of_writes_sub ops0 V ops0_writes (by decide)

theorem step0_arg9 (V : Valuation τ sig (Elt F)) :
    step0 V (Proc.devRef .tc main_arg9) = V (Proc.devRef .tc main_arg9) :=
  after_of_writes_sub ops0 V ops0_writes (by decide)

theorem step0_arg10 (V : Valuation τ sig (Elt F)) :
    step0 V (Proc.devRef .tc main_arg10) = V (Proc.devRef .tc main_arg10) :=
  after_of_writes_sub ops0 V ops0_writes (by decide)

theorem step0_arg11 (V : Valuation τ sig (Elt F)) :
    step0 V (Proc.devRef .tc main_arg11) = V (Proc.devRef .tc main_arg11) :=
  after_of_writes_sub ops0 V ops0_writes (by decide)

theorem step0_arg12 (V : Valuation τ sig (Elt F)) :
    step0 V (Proc.devRef .tc main_arg12) = V (Proc.devRef .tc main_arg12) :=
  after_of_writes_sub ops0 V ops0_writes (by decide)

end Cert.ReferenceIdeal.Hand

end
-- ==== Proof.Ref.Ops1.lean ====
import proofs.«110361_j29403346109051_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Statements 61 … 120 of @main as a list of host operations, in program order: each call of a module-local
    function replaced by the callee's operations over that call's buffer record (the variance's by its twenty and the
    three of the select inside it, the rectifier's by its three). -/
abbrev ops1 : List (HloOp τ sig (Elt F)) :=
  [
    StableHlo.reshape main_v51 main_v52 rfl shapeCasts_S1x128x128_S128x128,
    StableHlo.binary main_v50 main_v52 main_v53 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg10 main_v54 ((extractStridedSlice S1x128 ![0, 0] · slices_S3x128_S1x128_0_0) : (⟨S3x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S40000x128 ![0, 1] bcast_S1x128_S40000x128_0_1 : (⟨S1x128, .f32⟩ : BufTy).Contents (Elt F) → (⟨S40000x128, .f32⟩ : BufTy).Contents (Elt F)),
    StableHlo.binary main_v53 main_v57 main_v58 (addf : (⟨S40000x128, .f32⟩ : BufTy).Contents (Elt F) → (⟨S40000x128, .f32⟩ : BufTy).Contents (Elt F) → (⟨S40000x128, .f32⟩ : BufTy).Contents (Elt F)),
    StableHlo.TRef.nullary main_call2.cst (constant S_ .f32 0x00000000#32),
    StableHlo.TRef.unary main_call2.cst main_call2.v0 (broadcastInDim S40000x128 ![] bcast_S_S40000x128),
    StableHlo.TRef.binary (.of main_v58) main_call2.v0 main_call2.v1 maximumf,
    StableHlo.unary main_arg11 main_v60 ((extractStridedSlice S1x128 ![0, 0] · slices_S3x128_S1x128_0_0) : (⟨S3x128, .f32⟩ : BufTy).Contents (Elt F) → (⟨S1x128, .f32⟩ : BufTy).Contents (Elt F)),
    StableHlo.reshape main_v60 main_v61 rfl shapeCasts_S1x128_S128,
    StableHlo.unary main_arg12 main_v62 ((extractStridedSlice S1x128 ![0, 0] · slices_S3x128_S1x128_0_0) : (⟨S3x128, .f32⟩ : BufTy).Contents (Elt F) → (⟨S1x128, .f32⟩ : BufTy).Contents (Elt F)),
    StableHlo.reshape main_v62 main_v63 rfl shapeCasts_S1x128_S128,
    StableHlo.nullary main_cst_6 (constant S_ .f32 0x00000000#32),
    StableHlo.binary main_v59 main_cst_6 main_v64 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_7 (constant S_ .f32 0x471C4000#32),
    StableHlo.unary main_cst_7 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call3.cst (constant S_ .f32 0x00000000#32),
    StableHlo.TRef.binary (.of main_v59) main_call3.cst main_call3.v0 (fun x v => Host.reduceAdd x v reducesTo_S40000x128_S128_d0 h_S_),
    StableHlo.TRef.unary main_call3.v0 main_call3.v1 (broadcastInDim S1x128 ![1] bcast_S128_S1x128_1),
    StableHlo.TRef.nullary main_call3.cst_0 (constant S_ .f32 0x471C4000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S40000x128 ![0, 1] bcast_S1x128_S40000x128_0_1),
    StableHlo.TRef.binary (.of main_v59) main_call3.v4 main_call3.v5 subf,
    StableHlo.TRef.binary main_call3.v5 main_call3.v5 main_call3.v6 mulf,
    StableHlo.TRef.unary (.of main_c_8) main_call3.v7 (sitofp .f32),
    StableHlo.TRef.nullary main_call3.cst_1 (constant S_ .f32 0x471C4000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S40000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S40000x128 ![0, 1] bcast_S1x128_S40000x128_0_1 : (⟨S1x128, .f32⟩ : BufTy).Contents (Elt F) → (⟨S40000x128, .f32⟩ : BufTy).Contents (Elt F)),
    StableHlo.binary main_v59 main_v69 main_v70 (subf : (⟨S40000x128, .f32⟩ : BufTy).Contents (Elt F) → (⟨S40000x128, .f32⟩ : BufTy).Contents (Elt F) → (⟨S40000x128, .f32⟩ : BufTy).Contents (Elt F)),
    StableHlo.unary main_v61 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S40000x128 ![0, 1] bcast_S1x128_S40000x128_0_1 : (⟨S1x128, .f32⟩ : BufTy).Contents (Elt F) → (⟨S40000x128, .f32⟩ : BufTy).Contents (Elt F)),
    StableHlo.binary main_v72 main_v70 main_v73 (mulf : (⟨S40000x128, .f32⟩ : BufTy).Contents (Elt F) → (⟨S40000x128, .f32⟩ : BufTy).Contents (Elt F) → (⟨S40000x128, .f32⟩ : BufTy).Contents (Elt F)),
    StableHlo.nullary main_cst_9 (constant S_ .f32 0x3727C5AC#32),
    StableHlo.unary main_cst_9 main_v74 (broadcastInDim S128 ![] bcast_S_S128 : (⟨S_, .f32⟩ : BufTy).Contents (Elt F) → (⟨S128, .f32⟩ : BufTy).Contents (Elt F)),
    StableHlo.binary main_v67 main_v74 main_v75 (addf : (⟨S128, .f32⟩ : BufTy).Contents (Elt F) → (⟨S128, .f32⟩ : BufTy).Contents (Elt F) → (⟨S128, .f32⟩ : BufTy).Contents (Elt F)),
    StableHlo.unary main_v75 main_v76 (Host.rsqrt : (⟨S128, .f32⟩ : BufTy).Contents (Elt F) → (⟨S128, .f32⟩ : BufTy).Contents (Elt F)),
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S40000x128 ![0, 1] bcast_S1x128_S40000x128_0_1 : (⟨S1x128, .f32⟩ : BufTy).Contents (Elt F) → (⟨S40000x128, .f32⟩ : BufTy).Contents (Elt F)),
    StableHlo.binary main_v73 main_v78 main_v79 (mulf : (⟨S40000x128, .f32⟩ : BufTy).Contents (Elt F) → (⟨S40000x128, .f32⟩ : BufTy).Contents (Elt F) → (⟨S40000x128, .f32⟩ : BufTy).Contents (Elt F)),
    StableHlo.unary main_v63 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S40000x128 ![0, 1] bcast_S1x128_S40000x128_0_1 : (⟨S1x128, .f32⟩ : BufTy).Contents (Elt F) → (⟨S40000x128, .f32⟩ : BufTy).Contents (Elt F)),
    StableHlo.binary main_v79 main_v81 main_v82 (addf : (⟨S40000x128, .f32⟩ : BufTy).Contents (Elt F) → (⟨S40000x128, .f32⟩ : BufTy).Contents (Elt F) → (⟨S40000x128, .f32⟩ : BufTy).Contents (Elt F)),
    StableHlo.TRef.nullary main_call4.cst (constant S_ .f32 0x00000000#32),
    StableHlo.TRef.unary main_call4.cst main_call4.v0 (broadcastInDim S40000x128 ![] bcast_S_S40000x128),
    StableHlo.TRef.binary (.of main_v82) main_call4.v0 main_call4.v1 maximumf,
    StableHlo.unary main_arg3 main_v84 (broadcastInDim S640000x1 ![0] bcast_S640000_S640000x1_0 : (⟨S640000, .f32⟩ : BufTy).Contents (Elt F) → (⟨S640000x1, .f32⟩ : BufTy).Contents (Elt F)),
    StableHlo.nullary main_c_10 (constantI S_ 32 0#32),
    StableHlo.unary main_c_10 main_v85 (broadcastInDim S640000 ![] bcast_S_S640000 : (⟨S_, .i32⟩ : BufTy).Contents (Elt F) → (⟨S640000, .i32⟩ : BufTy).Contents (Elt F)),
    StableHlo.binary main_arg1 main_v85 main_v86 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 40000#32),
    StableHlo.unary main_c_11 main_v87 (broadcastInDim S640000 ![] bcast_S_S640000 : (⟨S_, .i32⟩ : BufTy).Contents (Elt F) → (⟨S640000, .i32⟩ : BufTy).Contents (Elt F)),
    StableHlo.binary main_arg1 main_v87 main_v88 (addi : (⟨S640000, .i32⟩ : BufTy).Contents (Elt F) → (⟨S640000, .i32⟩ : BufTy).Contents (Elt F) → (⟨S640000, .i32⟩ : BufTy).Contents (Elt F)),
    StableHlo.ternary main_v86 main_v88 main_arg1 main_v89 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v89 main_v90 (broadcastInDim S640000x1 ![0] bcast_S640000_S640000x1_0 : (⟨S640000, .i32⟩ : BufTy).Contents (Elt F) → (⟨S640000x1, .i32⟩ : BufTy).Contents (Elt F)),
    StableHlo.binary main_v83 main_v90 main_v91 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v84 main_v92 (broadcastInDim S640000x128 ![0, 1] bcast_S640000x1_S640000x128_0_1 : (⟨S640000x1, .f32⟩ : BufTy).Contents (Elt F) → (⟨S640000x128, .f32⟩ : BufTy).Contents (Elt F)),
    StableHlo.binary main_v92 main_v91 main_v93 (mulf : (⟨S640000x128, .f32⟩ : BufTy).Contents (Elt F) → (⟨S640000x128, .f32⟩ : BufTy).Contents (Elt F) → (⟨S640000x128, .f32⟩ : BufTy).Contents (Elt F)),
    StableHlo.nullary main_cst_12 (constant S_ .f32 0x00000000#32),
    StableHlo.unary main_cst_12 main_v94 (broadcastInDim S40000x128 ![] bcast_S_S40000x128 : (⟨S_, .f32⟩ : BufTy).Contents (Elt F) → (⟨S40000x128, .f32⟩ : BufTy).Contents (Elt F)),
    StableHlo.unary main_arg2 main_v95 (broadcastInDim S640000x1 ![0] bcast_S640000_S640000x1_0 : (⟨S640000, .i32⟩ : BufTy).Contents (Elt F) → (⟨S640000x1, .i32⟩ : BufTy).Contents (Elt F)),
    StableHlo.ternary main_v94 main_v95 main_v93 main_v96 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_arg4 main_v97 ((extractStridedSlice S1 ![1] · slices_S3_S1_1) : (⟨S3, .f32⟩ : BufTy).Contents (Elt F) → (⟨S1, .f32⟩ : BufTy).Contents (Elt F)),
    StableHlo.reshape main_v97 main_v98 rfl shapeCasts_S1_S_,
    StableHlo.nullary main_cst_13 (constant S_ .f32 0x3F800000#32),
    StableHlo.binary main_cst_13 main_v98 main_v99 (addf : (⟨S_, .f32⟩ : BufTy).Contents (Elt F) → (⟨S_, .f32⟩ : BufTy).Contents (Elt F) → (⟨S_, .f32⟩ : BufTy).Contents (Elt F)),
    StableHlo.unary main_v99 main_v100 (broadcastInDim S40000x128 ![] bcast_S_S40000x128 : (⟨S_, .f32⟩ : BufTy).Contents (Elt F) → (⟨S40000x128, .f32⟩ : BufTy).Contents (Elt F)),
    StableHlo.binary main_v100 main_v83 main_v101 (mulf : (⟨S40000x128, .f32⟩ : BufTy).Contents (Elt F) → (⟨S40000x128, .f32⟩ : BufTy).Contents (Elt F) → (⟨S40000x128, .f32⟩ : BufTy).Contents (Elt F)),
    StableHlo.binary main_v101 main_v96 main_v102 (addf : (⟨S40000x128, .f32⟩ : BufTy).Contents (Elt F) → (⟨S40000x128, .f32⟩ : BufTy).Contents (Elt F) → (⟨S40000x128, .f32⟩ : BufTy).Contents (Elt F)),
    StableHlo.unary main_arg5 main_v103 ((extractStridedSlice S1x128x128 ![1, 0, 0] · slices_S3x128x128_S1x128x128_1_0_0) : (⟨S3x128x128, .f32⟩ : BufTy).Contents (Elt F) → (⟨S1x128x128, .f32⟩ : BufTy).Contents (Elt F))
  ]

set_option maxRecDepth 4096 in
set_option maxHeartbeats 4000000 in
/-- The window is that straight line: the callees' definitions unfolded at their calls, the sequencing reassociated. -/
theorem part1_eq (c : Dev nD) : main_part1 (F := F) c = seq ops1 := by
  simp only [main_part1, fn_var.body, fn_where.body, fn_relu.body, seq, bind_assoc, pure_bind]
  rfl

/-- Every operation of the window touches TensorCore buffers only. -/
theorem ops1_sub : (ops1 : List (HloOp τ sig (Elt F))).Forall fun op => op.bufs ⊆ tcRefs τ sig :=
  ⟨
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., nullary_bufs_sub .., binary_bufs_sub .., unary_bufs_sub .., binary_bufs_sub .., binary_bufs_sub ..,
    unary_bufs_sub ..
  ⟩

end Cert.ReferenceIdeal.Hand

end
-- ==== Proof.Ref.Res1.lean ====
import proofs.«110361_j29403346109051_2_alg».proof.Proof.Ref.Ops1
import proofs.«110361_j29403346109051_2_alg».proof.Proof.Ref.Stages

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The device's buffer contents after window 1 (statements 61 … 120 of @main), from contents `V`. -/
def step1 (V : Valuation τ sig (Elt F)) : Valuation τ sig (Elt F) := after (ops1 (F := F)) V

/-! What window 1 leaves: layer 1's input to its first linear map (layer 0's output `h` scaled, plus its aggregate),
    and layer 1's slice of the first weights. -/

set_option maxRecDepth 8192 in
theorem step1_v102 (V : Valuation τ sig (Elt F)) :
    step1 V (Proc.devRef .tc main_v102) = xin (scalarAt (V (Proc.devRef .tc main_arg4)) ![1] slices_S3_S1_1)
      (half2 (V (Proc.devRef .tc main_v50)) (matOf (V (Proc.devRef .tc main_v51))) (rowAt (V (Proc.devRef .tc main_arg10)) ![0, 0] slices_S3x128_S1x128_0_0) (rowAt (V (Proc.devRef .tc main_arg11)) ![0, 0] slices_S3x128_S1x128_0_0) (rowAt (V (Proc.devRef .tc main_arg12)) ![0, 0] slices_S3x128_S1x128_0_0))
      (agg (half2 (V (Proc.devRef .tc main_v50)) (matOf (V (Proc.devRef .tc main_v51))) (rowAt (V (Proc.devRef .tc main_arg10)) ![0, 0] slices_S3x128_S1x128_0_0) (rowAt (V (Proc.devRef .tc main_arg11)) ![0, 0] slices_S3x128_S1x128_0_0) (rowAt (V (Proc.devRef .tc main_arg12)) ![0, 0] slices_S3x128_S1x128_0_0))
        (V (Proc.devRef .tc main_arg1)) (V (Proc.devRef .tc main_arg2)) (V (Proc.devRef .tc main_arg3))) := by
  show after (ops1 (F := F)) V _ = _
  after_results_simp <;> rfl

theorem step1_v103 (V : Valuation τ sig (Elt F)) :
    step1 V (Proc.devRef .tc main_v103) = extractStridedSlice S1x128x128 ![1, 0, 0] (V (Proc.devRef .tc main_arg5)) slices_S3x128x128_S1x128x128_1_0_0 := by
  show after (ops1 (F := F)) V _ = _
  after_results_simp <;> rfl

/-- Every operation of the window determines what it writes (none allocates a buffer with unspecified contents). -/
theorem ops1_fresh : (ops1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl
  ⟩

/-- An operation that writes one buffer, a member of the list `W`, writes inside `W`. -/
private theorem writes_sub_of_mem {op : HloOp τ sig (Elt F)} {y : Ref sig .tc} {W : List (Ref sig .tc)}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- The buffers window 1 writes: one per operation. -/
abbrev writes1 : List (Ref sig .tc) :=
  [
    main_v52, main_v53, main_v54, main_v55, main_v56, main_v57, main_v58, main_call2_cst,
    main_call2_v0, main_v59, main_v60, main_v61, main_v62, main_v63, main_cst_6, main_v64,
    main_cst_7, main_v65, main_v66, main_c_8, main_call3_cst, main_call3_v0, main_call3_v1, main_call3_cst_0,
    main_call3_v2, main_call3_v3, main_call3_v4, main_call3_v5, main_call3_v6, main_call3_v7, main_call3_cst_1, main_call3_v8,
    main_call3_cst_2, main_call3_v9, main_call3_v10, main_call3_v11, main_call3_cst_3, main_call3_v12, main_call3_cst_4, main_call3_call0_v0,
    main_call3_call0_v1, main_v67, main_v68, main_v69, main_v70, main_v71, main_v72, main_v73,
    main_cst_9, main_v74, main_v75, main_v76, main_v77, main_v78, main_v79, main_v80,
    main_v81, main_v82, main_call4_cst, main_call4_v0, main_v83, main_v84, main_c_10, main_v85,
    main_v86, main_c_11, main_v87, main_v88, main_v89, main_v90, main_v91, main_v92,
    main_v93, main_cst_12, main_v94, main_v95, main_v96, main_v97, main_v98, main_cst_13,
    main_v99, main_v100, main_v101, main_v102, main_v103
  ]

theorem ops1_writes : (ops1 : List (HloOp τ sig (Elt F))).Forall fun op =>
    op.writes ⊆ (writes1.map (Proc.devRef (τ := τ) .tc)).toFinset :=
  ⟨
    writes_sub_of_mem (reshape_writes ..) (by decide), writes_sub_of_mem (binary_writes ..) (by decide),
    writes_sub_of_mem (unary_writes ..) (by decide), writes_sub_of_mem (reshape_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (reshape_writes ..) (by decide),
    writes_sub_of_mem (unary_writes ..) (by decide), writes_sub_of_mem (reshape_writes ..) (by decide),
    writes_sub_of_mem (nullary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (nullary_writes ..) (by decide), writes_sub_of_mem (binary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (unary_writes ..) (by decide), writes_sub_of_mem (binary_writes ..) (by decide),
    writes_sub_of_mem (binary_writes ..) (by decide), writes_sub_of_mem (unary_writes ..) (by decide),
    writes_sub_of_mem (nullary_writes ..) (by decide), writes_sub_of_mem (binary_writes ..) (by decide),
    writes_sub_of_mem (nullary_writes ..) (by decide), writes_sub_of_mem (binary_writes ..) (by decide),
    writes_sub_of_mem (unary_writes ..) (by decide), writes_sub_of_mem (binary_writes ..) (by decide),
    writes_sub_of_mem (nullary_writes ..) (by decide), writes_sub_of_mem (binary_writes ..) (by decide),
    writes_sub_of_mem (nullary_writes ..) (by decide), writes_sub_of_mem (unary_writes ..) (by decide),
    writes_sub_of_mem (unary_writes ..) (by decide), writes_sub_of_mem (ternary_writes ..) (by decide),
    writes_sub_of_mem (unary_writes ..) (by decide), writes_sub_of_mem (unary_writes ..) (by decide),
    writes_sub_of_mem (binary_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (unary_writes ..) (by decide), writes_sub_of_mem (unary_writes ..) (by decide),
    writes_sub_of_mem (binary_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (binary_writes ..) (by decide), writes_sub_of_mem (unary_writes ..) (by decide),
    writes_sub_of_mem (binary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (unary_writes ..) (by decide),
    writes_sub_of_mem (reshape_writes ..) (by decide), writes_sub_of_mem (nullary_writes ..) (by decide),
    writes_sub_of_mem (binary_writes ..) (by decide), writes_sub_of_mem (unary_writes ..) (by decide),
    writes_sub_of_mem (binary_writes ..) (by decide), writes_sub_of_mem (binary_writes ..) (by decide),
    writes_sub_of_mem (unary_writes ..) (by decide)
  ⟩

/-! No window writes an argument: each keeps its contents. -/

theorem step1_arg0 (V : Valuation τ sig (Elt F)) :
    step1 V (Proc.devRef .tc main_arg0) = V (Proc.devRef .tc main_arg0) :=
  after_of_writes_sub ops1 V ops1_writes (by decide)

theorem step1_arg1 (V : Valuation τ sig (Elt F)) :
    step1 V (Proc.devRef .tc main_arg1) = V (Proc.devRef .tc main_arg1) :=
  after_of_writes_sub ops1 V ops1_writes (by decide)

theorem step1_arg2 (V : Valuation τ sig (Elt F)) :
    step1 V (Proc.devRef .tc main_arg2) = V (Proc.devRef .tc main_arg2) :=
  after_of_writes_sub ops1 V ops1_writes (by decide)

theorem step1_arg3 (V : Valuation τ sig (Elt F)) :
    step1 V (Proc.devRef .tc main_arg3) = V (Proc.devRef .tc main_arg3) :=
  after_of_writes_sub ops1 V ops1_writes (by decide)

theorem step1_arg4 (V : Valuation τ sig (Elt F)) :
    step1 V (Proc.devRef .tc main_arg4) = V (Proc.devRef .tc main_arg4) :=
  after_of_writes_sub ops1 V ops1_writes (by decide)

theorem step1_arg5 (V : Valuation τ sig (Elt F)) :
    step1 V (Proc.devRef .tc main_arg5) = V (Proc.devRef .tc main_arg5) :=
  after_of_writes_sub ops1 V ops1_writes (by decide)

theorem step1_arg6 (V : Valuation τ sig (Elt F)) :
    step1 V (Proc.devRef .tc main_arg6) = V (Proc.devRef .tc main_arg6) :=
  after_of_writes_sub ops1 V ops1_writes (by decide)

theorem step1_arg7 (V : Valuation τ sig (Elt F)) :
    step1 V (Proc.devRef .tc main_arg7) = V (Proc.devRef .tc main_arg7) :=
  after_of_writes_sub ops1 V ops1_writes (by decide)

theorem step1_arg8 (V : Valuation τ sig (Elt F)) :
    step1 V (Proc.devRef .tc main_arg8) = V (Proc.devRef .tc main_arg8) :=
  after_of_writes_sub ops1 V ops1_writes (by decide)

theorem step1_arg9 (V : Valuation τ sig (Elt F)) :
    step1 V (Proc.devRef .tc main_arg9) = V (Proc.devRef .tc main_arg9) :=
  after_of_writes_sub ops1 V ops1_writes (by decide)

theorem step1_arg10 (V : Valuation τ sig (Elt F)) :
    step1 V (Proc.devRef .tc main_arg10) = V (Proc.devRef .tc main_arg10) :=
  after_of_writes_sub ops1 V ops1_writes (by decide)

theorem step1_arg11 (V : Valuation τ sig (Elt F)) :
    step1 V (Proc.devRef .tc main_arg11) = V (Proc.devRef .tc main_arg11) :=
  after_of_writes_sub ops1 V ops1_writes (by decide)

theorem step1_arg12 (V : Valuation τ sig (Elt F)) :
    step1 V (Proc.devRef .tc main_arg12) = V (Proc.devRef .tc main_arg12) :=
  after_of_writes_sub ops1 V ops1_writes (by decide)

end Cert.ReferenceIdeal.Hand

end
-- ==== Proof.Ref.Ops2.lean ====
import proofs.«110361_j29403346109051_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Statements 121 … 180 of @main as a list of host operations, in program order: each call of a module-local
    function replaced by the callee's operations over that call's buffer record (the variance's by its twenty and the
    three of the select inside it, the rectifier's by its three). -/
abbrev ops2 : List (HloOp τ sig (Elt F)) :=
  [
    StableHlo.reshape main_v103 main_v104 rfl shapeCasts_S1x128x128_S128x128,
    StableHlo.binary main_v102 main_v104 main_v105 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg6 main_v106 ((extractStridedSlice S1x128 ![1, 0] · slices_S3x128_S1x128_1_0) : (⟨S3x128, .f32⟩ : BufTy).Contents (Elt F) → (⟨S1x128, .f32⟩ : BufTy).Contents (Elt F)),
    StableHlo.reshape main_v106 main_v107 rfl shapeCasts_S1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S40000x128 ![0, 1] bcast_S1x128_S40000x128_0_1 : (⟨S1x128, .f32⟩ : BufTy).Contents (Elt F) → (⟨S40000x128, .f32⟩ : BufTy).Contents (Elt F)),
    StableHlo.binary main_v105 main_v109 main_v110 (addf : (⟨S40000x128, .f32⟩ : BufTy).Contents (Elt F) → (⟨S40000x128, .f32⟩ : BufTy).Contents (Elt F) → (⟨S40000x128, .f32⟩ : BufTy).Contents (Elt F)),
    StableHlo.unary main_arg7 main_v111 ((extractStridedSlice S1x128 ![1, 0] · slices_S3x128_S1x128_1_0) : (⟨S3x128, .f32⟩ : BufTy).Contents (Elt F) → (⟨S1x128, .f32⟩ : BufTy).Contents (Elt F)),
    StableHlo.reshape main_v111 main_v112 rfl shapeCasts_S1x128_S128,
    StableHlo.unary main_arg8 main_v113 ((extractStridedSlice S1x128 ![1, 0] · slices_S3x128_S1x128_1_0) : (⟨S3x128, .f32⟩ : BufTy).Contents (Elt F) → (⟨S1x128, .f32⟩ : BufTy).Contents (Elt F)),
    StableHlo.reshape main_v113 main_v114 rfl shapeCasts_S1x128_S128,
    StableHlo.nullary main_cst_14 (constant S_ .f32 0x00000000#32),
    StableHlo.binary main_v110 main_cst_14 main_v115 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_15 (constant S_ .f32 0x471C4000#32),
    StableHlo.unary main_cst_15 main_v116 (broadcastInDim S128 ![] bcast_S_S128 : (⟨S_, .f32⟩ : BufTy).Contents (Elt F) → (⟨S128, .f32⟩ : BufTy).Contents (Elt F)),
    StableHlo.binary main_v115 main_v116 main_v117 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call5.cst (constant S_ .f32 0x00000000#32),
    StableHlo.TRef.binary (.of main_v110) main_call5.cst main_call5.v0 (fun x v => Host.reduceAdd x v reducesTo_S40000x128_S128_d0 h_S_),
    StableHlo.TRef.unary main_call5.v0 main_call5.v1 (broadcastInDim S1x128 ![1] bcast_S128_S1x128_1),
    StableHlo.TRef.nullary main_call5.cst_0 (constant S_ .f32 0x471C4000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S40000x128 ![0, 1] bcast_S1x128_S40000x128_0_1),
    StableHlo.TRef.binary (.of main_v110) main_call5.v4 main_call5.v5 subf,
    StableHlo.TRef.binary main_call5.v5 main_call5.v5 main_call5.v6 mulf,
    StableHlo.TRef.unary (.of main_c_16) main_call5.v7 (sitofp .f32),
    StableHlo.TRef.nullary main_call5.cst_1 (constant S_ .f32 0x471C4000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S40000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v117 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S40000x128 ![0, 1] bcast_S1x128_S40000x128_0_1 : (⟨S1x128, .f32⟩ : BufTy).Contents (Elt F) → (⟨S40000x128, .f32⟩ : BufTy).Contents (Elt F)),
    StableHlo.binary main_v110 main_v120 main_v121 (subf : (⟨S40000x128, .f32⟩ : BufTy).Contents (Elt F) → (⟨S40000x128, .f32⟩ : BufTy).Contents (Elt F) → (⟨S40000x128, .f32⟩ : BufTy).Contents (Elt F)),
    StableHlo.unary main_v112 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S40000x128 ![0, 1] bcast_S1x128_S40000x128_0_1 : (⟨S1x128, .f32⟩ : BufTy).Contents (Elt F) → (⟨S40000x128, .f32⟩ : BufTy).Contents (Elt F)),
    StableHlo.binary main_v123 main_v121 main_v124 (mulf : (⟨S40000x128, .f32⟩ : BufTy).Contents (Elt F) → (⟨S40000x128, .f32⟩ : BufTy).Contents (Elt F) → (⟨S40000x128, .f32⟩ : BufTy).Contents (Elt F)),
    StableHlo.nullary main_cst_17 (constant S_ .f32 0x3727C5AC#32),
    StableHlo.unary main_cst_17 main_v125 (broadcastInDim S128 ![] bcast_S_S128 : (⟨S_, .f32⟩ : BufTy).Contents (Elt F) → (⟨S128, .f32⟩ : BufTy).Contents (Elt F)),
    StableHlo.binary main_v118 main_v125 main_v126 (addf : (⟨S128, .f32⟩ : BufTy).Contents (Elt F) → (⟨S128, .f32⟩ : BufTy).Contents (Elt F) → (⟨S128, .f32⟩ : BufTy).Contents (Elt F)),
    StableHlo.unary main_v126 main_v127 (Host.rsqrt : (⟨S128, .f32⟩ : BufTy).Contents (Elt F) → (⟨S128, .f32⟩ : BufTy).Contents (Elt F)),
    StableHlo.unary main_v127 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S40000x128 ![0, 1] bcast_S1x128_S40000x128_0_1 : (⟨S1x128, .f32⟩ : BufTy).Contents (Elt F) → (⟨S40000x128, .f32⟩ : BufTy).Contents (Elt F)),
    StableHlo.binary main_v124 main_v129 main_v130 (mulf : (⟨S40000x128, .f32⟩ : BufTy).Contents (Elt F) → (⟨S40000x128, .f32⟩ : BufTy).Contents (Elt F) → (⟨S40000x128, .f32⟩ : BufTy).Contents (Elt F)),
    StableHlo.unary main_v114 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S40000x128 ![0, 1] bcast_S1x128_S40000x128_0_1 : (⟨S1x128, .f32⟩ : BufTy).Contents (Elt F) → (⟨S40000x128, .f32⟩ : BufTy).Contents (Elt F)),
    StableHlo.binary main_v130 main_v132 main_v133 (addf : (⟨S40000x128, .f32⟩ : BufTy).Contents (Elt F) → (⟨S40000x128, .f32⟩ : BufTy).Contents (Elt F) → (⟨S40000x128, .f32⟩ : BufTy).Contents (Elt F)),
    StableHlo.TRef.nullary main_call6.cst (constant S_ .f32 0x00000000#32),
    StableHlo.TRef.unary main_call6.cst main_call6.v0 (broadcastInDim S40000x128 ![] bcast_S_S40000x128),
    StableHlo.TRef.binary (.of main_v133) main_call6.v0 main_call6.v1 maximumf,
    StableHlo.unary main_arg9 main_v135 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v135 main_v136 rfl shapeCasts_S1x128x128_S128x128,
    StableHlo.binary main_v134 main_v136 main_v137 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg10 main_v138 ((extractStridedSlice S1x128 ![1, 0] · slices_S3x128_S1x128_1_0) : (⟨S3x128, .f32⟩ : BufTy).Contents (Elt F) → (⟨S1x128, .f32⟩ : BufTy).Contents (Elt F)),
    StableHlo.reshape main_v138 main_v139 rfl shapeCasts_S1x128_S128,
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S40000x128 ![0, 1] bcast_S1x128_S40000x128_0_1 : (⟨S1x128, .f32⟩ : BufTy).Contents (Elt F) → (⟨S40000x128, .f32⟩ : BufTy).Contents (Elt F)),
    StableHlo.binary main_v137 main_v141 main_v142 (addf : (⟨S40000x128, .f32⟩ : BufTy).Contents (Elt F) → (⟨S40000x128, .f32⟩ : BufTy).Contents (Elt F) → (⟨S40000x128, .f32⟩ : BufTy).Contents (Elt F)),
    StableHlo.TRef.nullary main_call7.cst (constant S_ .f32 0x00000000#32),
    StableHlo.TRef.unary main_call7.cst main_call7.v0 (broadcastInDim S40000x128 ![] bcast_S_S40000x128),
    StableHlo.TRef.binary (.of main_v142) main_call7.v0 main_call7.v1 maximumf,
    StableHlo.unary main_arg11 main_v144 ((extractStridedSlice S1x128 ![1, 0] · slices_S3x128_S1x128_1_0) : (⟨S3x128, .f32⟩ : BufTy).Contents (Elt F) → (⟨S1x128, .f32⟩ : BufTy).Contents (Elt F)),
    StableHlo.reshape main_v144 main_v145 rfl shapeCasts_S1x128_S128,
    StableHlo.unary main_arg12 main_v146 ((extractStridedSlice S1x128 ![1, 0] · slices_S3x128_S1x128_1_0) : (⟨S3x128, .f32⟩ : BufTy).Contents (Elt F) → (⟨S1x128, .f32⟩ : BufTy).Contents (Elt F)),
    StableHlo.reshape main_v146 main_v147 rfl shapeCasts_S1x128_S128,
    StableHlo.nullary main_cst_18 (constant S_ .f32 0x00000000#32),
    StableHlo.binary main_v143 main_cst_18 main_v148 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_19 (constant S_ .f32 0x471C4000#32),
    StableHlo.unary main_cst_19 main_v149 (broadcastInDim S128 ![] bcast_S_S128 : (⟨S_, .f32⟩ : BufTy).Contents (Elt F) → (⟨S128, .f32⟩ : BufTy).Contents (Elt F)),
    StableHlo.binary main_v148 main_v149 main_v150 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call8.cst (constant S_ .f32 0x00000000#32),
    StableHlo.TRef.binary (.of main_v143) main_call8.cst main_call8.v0 (fun x v => Host.reduceAdd x v reducesTo_S40000x128_S128_d0 h_S_),
    StableHlo.TRef.unary main_call8.v0 main_call8.v1 (broadcastInDim S1x128 ![1] bcast_S128_S1x128_1),
    StableHlo.TRef.nullary main_call8.cst_0 (constant S_ .f32 0x471C4000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S40000x128 ![0, 1] bcast_S1x128_S40000x128_0_1),
    StableHlo.TRef.binary (.of main_v143) main_call8.v4 main_call8.v5 subf,
    StableHlo.TRef.binary main_call8.v5 main_call8.v5 main_call8.v6 mulf,
    StableHlo.TRef.unary (.of main_c_20) main_call8.v7 (sitofp .f32),
    StableHlo.TRef.nullary main_call8.cst_1 (constant S_ .f32 0x471C4000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S40000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v150 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S40000x128 ![0, 1] bcast_S1x128_S40000x128_0_1 : (⟨S1x128, .f32⟩ : BufTy).Contents (Elt F) → (⟨S40000x128, .f32⟩ : BufTy).Contents (Elt F)),
    StableHlo.binary main_v143 main_v153 main_v154 (subf : (⟨S40000x128, .f32⟩ : BufTy).Contents (Elt F) → (⟨S40000x128, .f32⟩ : BufTy).Contents (Elt F) → (⟨S40000x128, .f32⟩ : BufTy).Contents (Elt F)),
    StableHlo.unary main_v145 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S40000x128 ![0, 1] bcast_S1x128_S40000x128_0_1 : (⟨S1x128, .f32⟩ : BufTy).Contents (Elt F) → (⟨S40000x128, .f32⟩ : BufTy).Contents (Elt F))
  ]

set_option maxRecDepth 4096 in
set_option maxHeartbeats 4000000 in
/-- The window is that straight line: the callees' definitions unfolded at their calls, the sequencing reassociated. -/
theorem part2_eq (c : Dev nD) : main_part2 (F := F) c = seq ops2 := by
  simp only [main_part2, fn_var.body, fn_where.body, fn_relu.body, seq, bind_assoc, pure_bind]
  rfl

/-- Every operation of the window touches TensorCore buffers only. -/
theorem ops2_sub : (ops2 : List (HloOp τ sig (Elt F))).Forall fun op => op.bufs ⊆ tcRefs τ sig :=
  ⟨
    reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub ..
  ⟩

end Cert.ReferenceIdeal.Hand

end
-- ==== Proof.Ref.Res2.lean ====
import proofs.«110361_j29403346109051_2_alg».proof.Proof.Ref.Ops2
import proofs.«110361_j29403346109051_2_alg».proof.Proof.Ref.Stages

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The device's buffer contents after window 2 (statements 121 … 180 of @main), from contents `V`. -/
def step2 (V : Valuation τ sig (Elt F)) : Valuation τ sig (Elt F) := after (ops2 (F := F)) V

/-! What window 2 leaves, `z` being layer 1's second linear map rectified: the scale row repeated, `z` centered, `z`'s
    variance, and the shift row. -/

theorem step2_v156 (V : Valuation τ sig (Elt F)) :
    step2 V (Proc.devRef .tc main_v156) = rowB (rowAt (V (Proc.devRef .tc main_arg11)) ![1, 0] slices_S3x128_S1x128_1_0) := by
  show after (ops2 (F := F)) V _ = _
  after_results_simp <;> rfl

set_option maxRecDepth 8192 in
theorem step2_v154 (V : Valuation τ sig (Elt F)) :
    step2 V (Proc.devRef .tc main_v154) = centered (relu (lin (relu (bn (lin (V (Proc.devRef .tc main_v102)) (matOf (V (Proc.devRef .tc main_v103))) (rowAt (V (Proc.devRef .tc main_arg6)) ![1, 0] slices_S3x128_S1x128_1_0)) (rowAt (V (Proc.devRef .tc main_arg7)) ![1, 0] slices_S3x128_S1x128_1_0) (rowAt (V (Proc.devRef .tc main_arg8)) ![1, 0] slices_S3x128_S1x128_1_0))) (matAt (V (Proc.devRef .tc main_arg9)) ![1, 0, 0] slices_S3x128x128_S1x128x128_1_0_0) (rowAt (V (Proc.devRef .tc main_arg10)) ![1, 0] slices_S3x128_S1x128_1_0))) := by
  show after (ops2 (F := F)) V _ = _
  after_results_simp <;> rfl

set_option maxRecDepth 8192 in
theorem step2_v151 (V : Valuation τ sig (Elt F)) :
    step2 V (Proc.devRef .tc main_v151) = colVar (relu (lin (relu (bn (lin (V (Proc.devRef .tc main_v102)) (matOf (V (Proc.devRef .tc main_v103))) (rowAt (V (Proc.devRef .tc main_arg6)) ![1, 0] slices_S3x128_S1x128_1_0)) (rowAt (V (Proc.devRef .tc main_arg7)) ![1, 0] slices_S3x128_S1x128_1_0) (rowAt (V (Proc.devRef .tc main_arg8)) ![1, 0] slices_S3x128_S1x128_1_0))) (matAt (V (Proc.devRef .tc main_arg9)) ![1, 0, 0] slices_S3x128x128_S1x128x128_1_0_0) (rowAt (V (Proc.devRef .tc main_arg10)) ![1, 0] slices_S3x128_S1x128_1_0))) := by
  show after (ops2 (F := F)) V _ = _
  after_results_simp <;> rfl

theorem step2_v147 (V : Valuation τ sig (Elt F)) :
    step2 V (Proc.devRef .tc main_v147) = rowAt (V (Proc.devRef .tc main_arg12)) ![1, 0] slices_S3x128_S1x128_1_0 := by
  show after (ops2 (F := F)) V _ = _
  after_results_simp <;> rfl

/-- Every operation of the window determines what it writes (none allocates a buffer with unspecified contents). -/
theorem ops2_fresh : (ops2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl
  ⟩

/-- An operation that writes one buffer, a member of the list `W`, writes inside `W`. -/
private theorem writes_sub_of_mem {op : HloOp τ sig (Elt F)} {y : Ref sig .tc} {W : List (Ref sig .tc)}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- The buffers window 2 writes: one per operation. -/
abbrev writes2 : List (Ref sig .tc) :=
  [
    main_v104, main_v105, main_v106, main_v107, main_v108, main_v109, main_v110, main_v111,
    main_v112, main_v113, main_v114, main_cst_14, main_v115, main_cst_15, main_v116, main_v117,
    main_c_16, main_call5_cst, main_call5_v0, main_call5_v1, main_call5_cst_0, main_call5_v2, main_call5_v3, main_call5_v4,
    main_call5_v5, main_call5_v6, main_call5_v7, main_call5_cst_1, main_call5_v8, main_call5_cst_2, main_call5_v9, main_call5_v10,
    main_call5_v11, main_call5_cst_3, main_call5_v12, main_call5_cst_4, main_call5_call0_v0, main_call5_call0_v1, main_v118, main_v119,
    main_v120, main_v121, main_v122, main_v123, main_v124, main_cst_17, main_v125, main_v126,
    main_v127, main_v128, main_v129, main_v130, main_v131, main_v132, main_v133, main_call6_cst,
    main_call6_v0, main_v134, main_v135, main_v136, main_v137, main_v138, main_v139, main_v140,
    main_v141, main_v142, main_call7_cst, main_call7_v0, main_v143, main_v144, main_v145, main_v146,
    main_v147, main_cst_18, main_v148, main_cst_19, main_v149, main_v150, main_c_20, main_call8_cst,
    main_call8_v0, main_call8_v1, main_call8_cst_0, main_call8_v2, main_call8_v3, main_call8_v4, main_call8_v5, main_call8_v6,
    main_call8_v7, main_call8_cst_1, main_call8_v8, main_call8_cst_2, main_call8_v9, main_call8_v10, main_call8_v11, main_call8_cst_3,
    main_call8_v12, main_call8_cst_4, main_call8_call0_v0, main_call8_call0_v1, main_v151, main_v152, main_v153, main_v154,
    main_v155, main_v156
  ]

theorem ops2_writes : (ops2 : List (HloOp τ sig (Elt F))).Forall fun op =>
    op.writes ⊆ (writes2.map (Proc.devRef (τ := τ) .tc)).toFinset :=
  ⟨
    writes_sub_of_mem (reshape_writes ..) (by decide), writes_sub_of_mem (binary_writes ..) (by decide),
    writes_sub_of_mem (unary_writes ..) (by decide), writes_sub_of_mem (reshape_writes ..) (by decide),
    writes_sub_of_mem (unary_writes ..) (by decide), writes_sub_of_mem (unary_writes ..) (by decide),
    writes_sub_of_mem (binary_writes ..) (by decide), writes_sub_of_mem (unary_writes ..) (by decide),
    writes_sub_of_mem (reshape_writes ..) (by decide), writes_sub_of_mem (unary_writes ..) (by decide),
    writes_sub_of_mem (reshape_writes ..) (by decide), writes_sub_of_mem (nullary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (nullary_writes ..) (by decide),
    writes_sub_of_mem (binary_writes ..) (by decide), writes_sub_of_mem (unary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (binary_writes ..) (by decide), writes_sub_of_mem (binary_writes ..) (by decide),
    writes_sub_of_mem (unary_writes ..) (by decide), writes_sub_of_mem (nullary_writes ..) (by decide),
    writes_sub_of_mem (binary_writes ..) (by decide), writes_sub_of_mem (nullary_writes ..) (by decide),
    writes_sub_of_mem (binary_writes ..) (by decide), writes_sub_of_mem (unary_writes ..) (by decide),
    writes_sub_of_mem (binary_writes ..) (by decide), writes_sub_of_mem (nullary_writes ..) (by decide),
    writes_sub_of_mem (binary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (unary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (reshape_writes ..) (by decide),
    writes_sub_of_mem (binary_writes ..) (by decide), writes_sub_of_mem (unary_writes ..) (by decide),
    writes_sub_of_mem (reshape_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (reshape_writes ..) (by decide), writes_sub_of_mem (unary_writes ..) (by decide),
    writes_sub_of_mem (reshape_writes ..) (by decide), writes_sub_of_mem (nullary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (nullary_writes ..) (by decide),
    writes_sub_of_mem (binary_writes ..) (by decide), writes_sub_of_mem (unary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (binary_writes ..) (by decide), writes_sub_of_mem (binary_writes ..) (by decide),
    writes_sub_of_mem (unary_writes ..) (by decide), writes_sub_of_mem (nullary_writes ..) (by decide),
    writes_sub_of_mem (binary_writes ..) (by decide), writes_sub_of_mem (nullary_writes ..) (by decide),
    writes_sub_of_mem (binary_writes ..) (by decide), writes_sub_of_mem (unary_writes ..) (by decide),
    writes_sub_of_mem (binary_writes ..) (by decide), writes_sub_of_mem (nullary_writes ..) (by decide),
    writes_sub_of_mem (binary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (unary_writes ..) (by decide),
    writes_sub_of_mem (unary_writes ..) (by decide), writes_sub_of_mem (binary_writes ..) (by decide),
    writes_sub_of_mem (unary_writes ..) (by decide), writes_sub_of_mem (unary_writes ..) (by decide)
  ⟩

/-! No window writes an argument: each keeps its contents. -/

theorem step2_arg0 (V : Valuation τ sig (Elt F)) :
    step2 V (Proc.devRef .tc main_arg0) = V (Proc.devRef .tc main_arg0) :=
  after_of_writes_sub ops2 V ops2_writes (by decide)

theorem step2_arg1 (V : Valuation τ sig (Elt F)) :
    step2 V (Proc.devRef .tc main_arg1) = V (Proc.devRef .tc main_arg1) :=
  after_of_writes_sub ops2 V ops2_writes (by decide)

theorem step2_arg2 (V : Valuation τ sig (Elt F)) :
    step2 V (Proc.devRef .tc main_arg2) = V (Proc.devRef .tc main_arg2) :=
  after_of_writes_sub ops2 V ops2_writes (by decide)

theorem step2_arg3 (V : Valuation τ sig (Elt F)) :
    step2 V (Proc.devRef .tc main_arg3) = V (Proc.devRef .tc main_arg3) :=
  after_of_writes_sub ops2 V ops2_writes (by decide)

theorem step2_arg4 (V : Valuation τ sig (Elt F)) :
    step2 V (Proc.devRef .tc main_arg4) = V (Proc.devRef .tc main_arg4) :=
  after_of_writes_sub ops2 V ops2_writes (by decide)

theorem step2_arg5 (V : Valuation τ sig (Elt F)) :
    step2 V (Proc.devRef .tc main_arg5) = V (Proc.devRef .tc main_arg5) :=
  after_of_writes_sub ops2 V ops2_writes (by decide)

theorem step2_arg6 (V : Valuation τ sig (Elt F)) :
    step2 V (Proc.devRef .tc main_arg6) = V (Proc.devRef .tc main_arg6) :=
  after_of_writes_sub ops2 V ops2_writes (by decide)

theorem step2_arg7 (V : Valuation τ sig (Elt F)) :
    step2 V (Proc.devRef .tc main_arg7) = V (Proc.devRef .tc main_arg7) :=
  after_of_writes_sub ops2 V ops2_writes (by decide)

theorem step2_arg8 (V : Valuation τ sig (Elt F)) :
    step2 V (Proc.devRef .tc main_arg8) = V (Proc.devRef .tc main_arg8) :=
  after_of_writes_sub ops2 V ops2_writes (by decide)

theorem step2_arg9 (V : Valuation τ sig (Elt F)) :
    step2 V (Proc.devRef .tc main_arg9) = V (Proc.devRef .tc main_arg9) :=
  after_of_writes_sub ops2 V ops2_writes (by decide)

theorem step2_arg10 (V : Valuation τ sig (Elt F)) :
    step2 V (Proc.devRef .tc main_arg10) = V (Proc.devRef .tc main_arg10) :=
  after_of_writes_sub ops2 V ops2_writes (by decide)

theorem step2_arg11 (V : Valuation τ sig (Elt F)) :
    step2 V (Proc.devRef .tc main_arg11) = V (Proc.devRef .tc main_arg11) :=
  after_of_writes_sub ops2 V ops2_writes (by decide)

theorem step2_arg12 (V : Valuation τ sig (Elt F)) :
    step2 V (Proc.devRef .tc main_arg12) = V (Proc.devRef .tc main_arg12) :=
  after_of_writes_sub ops2 V ops2_writes (by decide)

end Cert.ReferenceIdeal.Hand

end
-- ==== Proof.Ref.Ops3.lean ====
import proofs.«110361_j29403346109051_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Statements 181 … 240 of @main as a list of host operations, in program order: each call of a module-local
    function replaced by the callee's operations over that call's buffer record (the variance's by its twenty and the
    three of the select inside it, the rectifier's by its three). -/
abbrev ops3 : List (HloOp τ sig (Elt F)) :=
  [
    StableHlo.binary main_v156 main_v154 main_v157 (mulf : (⟨S40000x128, .f32⟩ : BufTy).Contents (Elt F) → (⟨S40000x128, .f32⟩ : BufTy).Contents (Elt F) → (⟨S40000x128, .f32⟩ : BufTy).Contents (Elt F)),
    StableHlo.nullary main_cst_21 (constant S_ .f32 0x3727C5AC#32),
    StableHlo.unary main_cst_21 main_v158 (broadcastInDim S128 ![] bcast_S_S128 : (⟨S_, .f32⟩ : BufTy).Contents (Elt F) → (⟨S128, .f32⟩ : BufTy).Contents (Elt F)),
    StableHlo.binary main_v151 main_v158 main_v159 (addf : (⟨S128, .f32⟩ : BufTy).Contents (Elt F) → (⟨S128, .f32⟩ : BufTy).Contents (Elt F) → (⟨S128, .f32⟩ : BufTy).Contents (Elt F)),
    StableHlo.unary main_v159 main_v160 (Host.rsqrt : (⟨S128, .f32⟩ : BufTy).Contents (Elt F) → (⟨S128, .f32⟩ : BufTy).Contents (Elt F)),
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S40000x128 ![0, 1] bcast_S1x128_S40000x128_0_1 : (⟨S1x128, .f32⟩ : BufTy).Contents (Elt F) → (⟨S40000x128, .f32⟩ : BufTy).Contents (Elt F)),
    StableHlo.binary main_v157 main_v162 main_v163 (mulf : (⟨S40000x128, .f32⟩ : BufTy).Contents (Elt F) → (⟨S40000x128, .f32⟩ : BufTy).Contents (Elt F) → (⟨S40000x128, .f32⟩ : BufTy).Contents (Elt F)),
    StableHlo.unary main_v147 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S40000x128 ![0, 1] bcast_S1x128_S40000x128_0_1 : (⟨S1x128, .f32⟩ : BufTy).Contents (Elt F) → (⟨S40000x128, .f32⟩ : BufTy).Contents (Elt F)),
    StableHlo.binary main_v163 main_v165 main_v166 (addf : (⟨S40000x128, .f32⟩ : BufTy).Contents (Elt F) → (⟨S40000x128, .f32⟩ : BufTy).Contents (Elt F) → (⟨S40000x128, .f32⟩ : BufTy).Contents (Elt F)),
    StableHlo.TRef.nullary main_call9.cst (constant S_ .f32 0x00000000#32),
    StableHlo.TRef.unary main_call9.cst main_call9.v0 (broadcastInDim S40000x128 ![] bcast_S_S40000x128),
    StableHlo.TRef.binary (.of main_v166) main_call9.v0 main_call9.v1 maximumf,
    StableHlo.unary main_arg3 main_v168 (broadcastInDim S640000x1 ![0] bcast_S640000_S640000x1_0 : (⟨S640000, .f32⟩ : BufTy).Contents (Elt F) → (⟨S640000x1, .f32⟩ : BufTy).Contents (Elt F)),
    StableHlo.nullary main_c_22 (constantI S_ 32 0#32),
    StableHlo.unary main_c_22 main_v169 (broadcastInDim S640000 ![] bcast_S_S640000 : (⟨S_, .i32⟩ : BufTy).Contents (Elt F) → (⟨S640000, .i32⟩ : BufTy).Contents (Elt F)),
    StableHlo.binary main_arg1 main_v169 main_v170 (cmpi .slt : (⟨S640000, .i32⟩ : BufTy).Contents (Elt F) → (⟨S640000, .i32⟩ : BufTy).Contents (Elt F) → (⟨S640000, .i1⟩ : BufTy).Contents (Elt F)),
    StableHlo.nullary main_c_23 (constantI S_ 32 40000#32),
    StableHlo.unary main_c_23 main_v171 (broadcastInDim S640000 ![] bcast_S_S640000 : (⟨S_, .i32⟩ : BufTy).Contents (Elt F) → (⟨S640000, .i32⟩ : BufTy).Contents (Elt F)),
    StableHlo.binary main_arg1 main_v171 main_v172 (addi : (⟨S640000, .i32⟩ : BufTy).Contents (Elt F) → (⟨S640000, .i32⟩ : BufTy).Contents (Elt F) → (⟨S640000, .i32⟩ : BufTy).Contents (Elt F)),
    StableHlo.ternary main_v170 main_v172 main_arg1 main_v173 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v173 main_v174 (broadcastInDim S640000x1 ![0] bcast_S640000_S640000x1_0 : (⟨S640000, .i32⟩ : BufTy).Contents (Elt F) → (⟨S640000x1, .i32⟩ : BufTy).Contents (Elt F)),
    StableHlo.binary main_v167 main_v174 main_v175 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v168 main_v176 (broadcastInDim S640000x128 ![0, 1] bcast_S640000x1_S640000x128_0_1 : (⟨S640000x1, .f32⟩ : BufTy).Contents (Elt F) → (⟨S640000x128, .f32⟩ : BufTy).Contents (Elt F)),
    StableHlo.binary main_v176 main_v175 main_v177 (mulf : (⟨S640000x128, .f32⟩ : BufTy).Contents (Elt F) → (⟨S640000x128, .f32⟩ : BufTy).Contents (Elt F) → (⟨S640000x128, .f32⟩ : BufTy).Contents (Elt F)),
    StableHlo.nullary main_cst_24 (constant S_ .f32 0x00000000#32),
    StableHlo.unary main_cst_24 main_v178 (broadcastInDim S40000x128 ![] bcast_S_S40000x128 : (⟨S_, .f32⟩ : BufTy).Contents (Elt F) → (⟨S40000x128, .f32⟩ : BufTy).Contents (Elt F)),
    StableHlo.unary main_arg2 main_v179 (broadcastInDim S640000x1 ![0] bcast_S640000_S640000x1_0 : (⟨S640000, .i32⟩ : BufTy).Contents (Elt F) → (⟨S640000x1, .i32⟩ : BufTy).Contents (Elt F)),
    StableHlo.ternary main_v178 main_v179 main_v177 main_v180 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_arg4 main_v181 ((extractStridedSlice S1 ![2] · slices_S3_S1_2) : (⟨S3, .f32⟩ : BufTy).Contents (Elt F) → (⟨S1, .f32⟩ : BufTy).Contents (Elt F)),
    StableHlo.reshape main_v181 main_v182 rfl shapeCasts_S1_S_,
    StableHlo.nullary main_cst_25 (constant S_ .f32 0x3F800000#32),
    StableHlo.binary main_cst_25 main_v182 main_v183 (addf : (⟨S_, .f32⟩ : BufTy).Contents (Elt F) → (⟨S_, .f32⟩ : BufTy).Contents (Elt F) → (⟨S_, .f32⟩ : BufTy).Contents (Elt F)),
    StableHlo.unary main_v183 main_v184 (broadcastInDim S40000x128 ![] bcast_S_S40000x128 : (⟨S_, .f32⟩ : BufTy).Contents (Elt F) → (⟨S40000x128, .f32⟩ : BufTy).Contents (Elt F)),
    StableHlo.binary main_v184 main_v167 main_v185 (mulf : (⟨S40000x128, .f32⟩ : BufTy).Contents (Elt F) → (⟨S40000x128, .f32⟩ : BufTy).Contents (Elt F) → (⟨S40000x128, .f32⟩ : BufTy).Contents (Elt F)),
    StableHlo.binary main_v185 main_v180 main_v186 (addf : (⟨S40000x128, .f32⟩ : BufTy).Contents (Elt F) → (⟨S40000x128, .f32⟩ : BufTy).Contents (Elt F) → (⟨S40000x128, .f32⟩ : BufTy).Contents (Elt F)),
    StableHlo.unary main_arg5 main_v187 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v187 main_v188 rfl shapeCasts_S1x128x128_S128x128,
    StableHlo.binary main_v186 main_v188 main_v189 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg6 main_v190 ((extractStridedSlice S1x128 ![2, 0] · slices_S3x128_S1x128_2_0) : (⟨S3x128, .f32⟩ : BufTy).Contents (Elt F) → (⟨S1x128, .f32⟩ : BufTy).Contents (Elt F)),
    StableHlo.reshape main_v190 main_v191 rfl shapeCasts_S1x128_S128,
    StableHlo.unary main_v191 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S40000x128 ![0, 1] bcast_S1x128_S40000x128_0_1 : (⟨S1x128, .f32⟩ : BufTy).Contents (Elt F) → (⟨S40000x128, .f32⟩ : BufTy).Contents (Elt F)),
    StableHlo.binary main_v189 main_v193 main_v194 (addf : (⟨S40000x128, .f32⟩ : BufTy).Contents (Elt F) → (⟨S40000x128, .f32⟩ : BufTy).Contents (Elt F) → (⟨S40000x128, .f32⟩ : BufTy).Contents (Elt F)),
    StableHlo.unary main_arg7 main_v195 ((extractStridedSlice S1x128 ![2, 0] · slices_S3x128_S1x128_2_0) : (⟨S3x128, .f32⟩ : BufTy).Contents (Elt F) → (⟨S1x128, .f32⟩ : BufTy).Contents (Elt F)),
    StableHlo.reshape main_v195 main_v196 rfl shapeCasts_S1x128_S128,
    StableHlo.unary main_arg8 main_v197 ((extractStridedSlice S1x128 ![2, 0] · slices_S3x128_S1x128_2_0) : (⟨S3x128, .f32⟩ : BufTy).Contents (Elt F) → (⟨S1x128, .f32⟩ : BufTy).Contents (Elt F)),
    StableHlo.reshape main_v197 main_v198 rfl shapeCasts_S1x128_S128,
    StableHlo.nullary main_cst_26 (constant S_ .f32 0x00000000#32),
    StableHlo.binary main_v194 main_cst_26 main_v199 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_27 (constant S_ .f32 0x471C4000#32),
    StableHlo.unary main_cst_27 main_v200 (broadcastInDim S128 ![] bcast_S_S128 : (⟨S_, .f32⟩ : BufTy).Contents (Elt F) → (⟨S128, .f32⟩ : BufTy).Contents (Elt F)),
    StableHlo.binary main_v199 main_v200 main_v201 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call10.cst (constant S_ .f32 0x00000000#32),
    StableHlo.TRef.binary (.of main_v194) main_call10.cst main_call10.v0 (fun x v => Host.reduceAdd x v reducesTo_S40000x128_S128_d0 h_S_),
    StableHlo.TRef.unary main_call10.v0 main_call10.v1 (broadcastInDim S1x128 ![1] bcast_S128_S1x128_1),
    StableHlo.TRef.nullary main_call10.cst_0 (constant S_ .f32 0x471C4000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S40000x128 ![0, 1] bcast_S1x128_S40000x128_0_1),
    StableHlo.TRef.binary (.of main_v194) main_call10.v4 main_call10.v5 subf,
    StableHlo.TRef.binary main_call10.v5 main_call10.v5 main_call10.v6 mulf,
    StableHlo.TRef.unary (.of main_c_28) main_call10.v7 (sitofp .f32),
    StableHlo.TRef.nullary main_call10.cst_1 (constant S_ .f32 0x471C4000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S40000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v201 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S40000x128 ![0, 1] bcast_S1x128_S40000x128_0_1 : (⟨S1x128, .f32⟩ : BufTy).Contents (Elt F) → (⟨S40000x128, .f32⟩ : BufTy).Contents (Elt F)),
    StableHlo.binary main_v194 main_v204 main_v205 (subf : (⟨S40000x128, .f32⟩ : BufTy).Contents (Elt F) → (⟨S40000x128, .f32⟩ : BufTy).Contents (Elt F) → (⟨S40000x128, .f32⟩ : BufTy).Contents (Elt F)),
    StableHlo.unary main_v196 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S40000x128 ![0, 1] bcast_S1x128_S40000x128_0_1 : (⟨S1x128, .f32⟩ : BufTy).Contents (Elt F) → (⟨S40000x128, .f32⟩ : BufTy).Contents (Elt F)),
    StableHlo.binary main_v207 main_v205 main_v208 (mulf : (⟨S40000x128, .f32⟩ : BufTy).Contents (Elt F) → (⟨S40000x128, .f32⟩ : BufTy).Contents (Elt F) → (⟨S40000x128, .f32⟩ : BufTy).Contents (Elt F))
  ]

set_option maxRecDepth 4096 in
set_option maxHeartbeats 4000000 in
/-- The window is that straight line: the callees' definitions unfolded at their calls, the sequencing reassociated. -/
theorem part3_eq (c : Dev nD) : main_part3 (F := F) c = seq ops3 := by
  simp only [main_part3, fn_var.body, fn_where.body, fn_relu.body, seq, bind_assoc, pure_bind]
  rfl

/-- Every operation of the window touches TensorCore buffers only. -/
theorem ops3_sub : (ops3 : List (HloOp τ sig (Elt F))).Forall fun op => op.bufs ⊆ tcRefs τ sig :=
  ⟨
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., reshape_bufs_sub .., nullary_bufs_sub .., binary_bufs_sub .., unary_bufs_sub .., binary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub ..
  ⟩

end Cert.ReferenceIdeal.Hand

end
-- ==== Proof.Ref.Res3.lean ====
import proofs.«110361_j29403346109051_2_alg».proof.Proof.Ref.Ops3
import proofs.«110361_j29403346109051_2_alg».proof.Proof.Ref.Stages

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The device's buffer contents after window 3 (statements 181 … 240 of @main), from contents `V`. -/
def step3 (V : Valuation τ sig (Elt F)) : Valuation τ sig (Elt F) := after (ops3 (F := F)) V

/-! What window 3 leaves, `y` being layer 2's first linear map (of layer 1's output, itself finished here): `y`'s
    variance, `y` centered and scaled, and the shift row. -/

set_option maxRecDepth 8192 in
theorem step3_v202 (V : Valuation τ sig (Elt F)) :
    step3 V (Proc.devRef .tc main_v202) = colVar (lin (xin (scalarAt (V (Proc.devRef .tc main_arg4)) ![2] slices_S3_S1_2) (relu (bnTail (mulf (V (Proc.devRef .tc main_v156)) (V (Proc.devRef .tc main_v154))) (V (Proc.devRef .tc main_v151)) (V (Proc.devRef .tc main_v147)))) (agg (relu (bnTail (mulf (V (Proc.devRef .tc main_v156)) (V (Proc.devRef .tc main_v154))) (V (Proc.devRef .tc main_v151)) (V (Proc.devRef .tc main_v147)))) (V (Proc.devRef .tc main_arg1)) (V (Proc.devRef .tc main_arg2)) (V (Proc.devRef .tc main_arg3)))) (matAt (V (Proc.devRef .tc main_arg5)) ![2, 0, 0] slices_S3x128x128_S1x128x128_2_0_0) (rowAt (V (Proc.devRef .tc main_arg6)) ![2, 0] slices_S3x128_S1x128_2_0)) := by
  show after (ops3 (F := F)) V _ = _
  after_results_simp <;> rfl

set_option maxRecDepth 8192 in
theorem step3_v208 (V : Valuation τ sig (Elt F)) :
    step3 V (Proc.devRef .tc main_v208) = mulf (rowB (rowAt (V (Proc.devRef .tc main_arg7)) ![2, 0] slices_S3x128_S1x128_2_0)) (centered (lin (xin (scalarAt (V (Proc.devRef .tc main_arg4)) ![2] slices_S3_S1_2) (relu (bnTail (mulf (V (Proc.devRef .tc main_v156)) (V (Proc.devRef .tc main_v154))) (V (Proc.devRef .tc main_v151)) (V (Proc.devRef .tc main_v147)))) (agg (relu (bnTail (mulf (V (Proc.devRef .tc main_v156)) (V (Proc.devRef .tc main_v154))) (V (Proc.devRef .tc main_v151)) (V (Proc.devRef .tc main_v147)))) (V (Proc.devRef .tc main_arg1)) (V (Proc.devRef .tc main_arg2)) (V (Proc.devRef .tc main_arg3)))) (matAt (V (Proc.devRef .tc main_arg5)) ![2, 0, 0] slices_S3x128x128_S1x128x128_2_0_0) (rowAt (V (Proc.devRef .tc main_arg6)) ![2, 0] slices_S3x128_S1x128_2_0))) := by
  show after (ops3 (F := F)) V _ = _
  after_results_simp <;> rfl

theorem step3_v198 (V : Valuation τ sig (Elt F)) :
    step3 V (Proc.devRef .tc main_v198) = rowAt (V (Proc.devRef .tc main_arg8)) ![2, 0] slices_S3x128_S1x128_2_0 := by
  show after (ops3 (F := F)) V _ = _
  after_results_simp <;> rfl

/-- Every operation of the window determines what it writes (none allocates a buffer with unspecified contents). -/
theorem ops3_fresh : (ops3 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl
  ⟩

/-- An operation that writes one buffer, a member of the list `W`, writes inside `W`. -/
private theorem writes_sub_of_mem {op : HloOp τ sig (Elt F)} {y : Ref sig .tc} {W : List (Ref sig .tc)}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- The buffers window 3 writes: one per operation. -/
abbrev writes3 : List (Ref sig .tc) :=
  [
    main_v157, main_cst_21, main_v158, main_v159, main_v160, main_v161, main_v162, main_v163,
    main_v164, main_v165, main_v166, main_call9_cst, main_call9_v0, main_v167, main_v168, main_c_22,
    main_v169, main_v170, main_c_23, main_v171, main_v172, main_v173, main_v174, main_v175,
    main_v176, main_v177, main_cst_24, main_v178, main_v179, main_v180, main_v181, main_v182,
    main_cst_25, main_v183, main_v184, main_v185, main_v186, main_v187, main_v188, main_v189,
    main_v190, main_v191, main_v192, main_v193, main_v194, main_v195, main_v196, main_v197,
    main_v198, main_cst_26, main_v199, main_cst_27, main_v200, main_v201, main_c_28, main_call10_cst,
    main_call10_v0, main_call10_v1, main_call10_cst_0, main_call10_v2, main_call10_v3, main_call10_v4, main_call10_v5, main_call10_v6,
    main_call10_v7, main_call10_cst_1, main_call10_v8, main_call10_cst_2, main_call10_v9, main_call10_v10, main_call10_v11, main_call10_cst_3,
    main_call10_v12, main_call10_cst_4, main_call10_call0_v0, main_call10_call0_v1, main_v202, main_v203, main_v204, main_v205,
    main_v206, main_v207, main_v208
  ]

theorem ops3_writes : (ops3 : List (HloOp τ sig (Elt F))).Forall fun op =>
    op.writes ⊆ (writes3.map (Proc.devRef (τ := τ) .tc)).toFinset :=
  ⟨
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (unary_writes ..) (by decide), writes_sub_of_mem (ternary_writes ..) (by decide),
    writes_sub_of_mem (unary_writes ..) (by decide), writes_sub_of_mem (reshape_writes ..) (by decide),
    writes_sub_of_mem (nullary_writes ..) (by decide), writes_sub_of_mem (binary_writes ..) (by decide),
    writes_sub_of_mem (unary_writes ..) (by decide), writes_sub_of_mem (binary_writes ..) (by decide),
    writes_sub_of_mem (binary_writes ..) (by decide), writes_sub_of_mem (unary_writes ..) (by decide),
    writes_sub_of_mem (reshape_writes ..) (by decide), writes_sub_of_mem (binary_writes ..) (by decide),
    writes_sub_of_mem (unary_writes ..) (by decide), writes_sub_of_mem (reshape_writes ..) (by decide),
    writes_sub_of_mem (unary_writes ..) (by decide), writes_sub_of_mem (unary_writes ..) (by decide),
    writes_sub_of_mem (binary_writes ..) (by decide), writes_sub_of_mem (unary_writes ..) (by decide),
    writes_sub_of_mem (reshape_writes ..) (by decide), writes_sub_of_mem (unary_writes ..) (by decide),
    writes_sub_of_mem (reshape_writes ..) (by decide), writes_sub_of_mem (nullary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (nullary_writes ..) (by decide),
    writes_sub_of_mem (binary_writes ..) (by decide), writes_sub_of_mem (unary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (binary_writes ..) (by decide), writes_sub_of_mem (binary_writes ..) (by decide),
    writes_sub_of_mem (unary_writes ..) (by decide), writes_sub_of_mem (nullary_writes ..) (by decide),
    writes_sub_of_mem (binary_writes ..) (by decide), writes_sub_of_mem (nullary_writes ..) (by decide),
    writes_sub_of_mem (binary_writes ..) (by decide), writes_sub_of_mem (unary_writes ..) (by decide),
    writes_sub_of_mem (binary_writes ..) (by decide), writes_sub_of_mem (nullary_writes ..) (by decide),
    writes_sub_of_mem (binary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (unary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (binary_writes ..) (by decide)
  ⟩

/-! No window writes an argument: each keeps its contents. -/

theorem step3_arg0 (V : Valuation τ sig (Elt F)) :
    step3 V (Proc.devRef .tc main_arg0) = V (Proc.devRef .tc main_arg0) :=
  after_of_writes_sub ops3 V ops3_writes (by decide)

theorem step3_arg1 (V : Valuation τ sig (Elt F)) :
    step3 V (Proc.devRef .tc main_arg1) = V (Proc.devRef .tc main_arg1) :=
  after_of_writes_sub ops3 V ops3_writes (by decide)

theorem step3_arg2 (V : Valuation τ sig (Elt F)) :
    step3 V (Proc.devRef .tc main_arg2) = V (Proc.devRef .tc main_arg2) :=
  after_of_writes_sub ops3 V ops3_writes (by decide)

theorem step3_arg3 (V : Valuation τ sig (Elt F)) :
    step3 V (Proc.devRef .tc main_arg3) = V (Proc.devRef .tc main_arg3) :=
  after_of_writes_sub ops3 V ops3_writes (by decide)

theorem step3_arg4 (V : Valuation τ sig (Elt F)) :
    step3 V (Proc.devRef .tc main_arg4) = V (Proc.devRef .tc main_arg4) :=
  after_of_writes_sub ops3 V ops3_writes (by decide)

theorem step3_arg5 (V : Valuation τ sig (Elt F)) :
    step3 V (Proc.devRef .tc main_arg5) = V (Proc.devRef .tc main_arg5) :=
  after_of_writes_sub ops3 V ops3_writes (by decide)

theorem step3_arg6 (V : Valuation τ sig (Elt F)) :
    step3 V (Proc.devRef .tc main_arg6) = V (Proc.devRef .tc main_arg6) :=
  after_of_writes_sub ops3 V ops3_writes (by decide)

theorem step3_arg7 (V : Valuation τ sig (Elt F)) :
    step3 V (Proc.devRef .tc main_arg7) = V (Proc.devRef .tc main_arg7) :=
  after_of_writes_sub ops3 V ops3_writes (by decide)

theorem step3_arg8 (V : Valuation τ sig (Elt F)) :
    step3 V (Proc.devRef .tc main_arg8) = V (Proc.devRef .tc main_arg8) :=
  after_of_writes_sub ops3 V ops3_writes (by decide)

theorem step3_arg9 (V : Valuation τ sig (Elt F)) :
    step3 V (Proc.devRef .tc main_arg9) = V (Proc.devRef .tc main_arg9) :=
  after_of_writes_sub ops3 V ops3_writes (by decide)

theorem step3_arg10 (V : Valuation τ sig (Elt F)) :
    step3 V (Proc.devRef .tc main_arg10) = V (Proc.devRef .tc main_arg10) :=
  after_of_writes_sub ops3 V ops3_writes (by decide)

theorem step3_arg11 (V : Valuation τ sig (Elt F)) :
    step3 V (Proc.devRef .tc main_arg11) = V (Proc.devRef .tc main_arg11) :=
  after_of_writes_sub ops3 V ops3_writes (by decide)

theorem step3_arg12 (V : Valuation τ sig (Elt F)) :
    step3 V (Proc.devRef .tc main_arg12) = V (Proc.devRef .tc main_arg12) :=
  after_of_writes_sub ops3 V ops3_writes (by decide)

end Cert.ReferenceIdeal.Hand

end
-- ==== Proof.Ref.Ops4.lean ====
import proofs.«110361_j29403346109051_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Statements 241 … 289 of @main as a list of host operations, in program order: each call of a module-local
    function replaced by the callee's operations over that call's buffer record (the variance's by its twenty and the
    three of the select inside it, the rectifier's by its three). -/
abbrev ops4 : List (HloOp τ sig (Elt F)) :=
  [
    StableHlo.nullary main_cst_29 (constant S_ .f32 0x3727C5AC#32),
    StableHlo.unary main_cst_29 main_v209 (broadcastInDim S128 ![] bcast_S_S128 : (⟨S_, .f32⟩ : BufTy).Contents (Elt F) → (⟨S128, .f32⟩ : BufTy).Contents (Elt F)),
    StableHlo.binary main_v202 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S40000x128 ![0, 1] bcast_S1x128_S40000x128_0_1 : (⟨S1x128, .f32⟩ : BufTy).Contents (Elt F) → (⟨S40000x128, .f32⟩ : BufTy).Contents (Elt F)),
    StableHlo.binary main_v208 main_v213 main_v214 (mulf : (⟨S40000x128, .f32⟩ : BufTy).Contents (Elt F) → (⟨S40000x128, .f32⟩ : BufTy).Contents (Elt F) → (⟨S40000x128, .f32⟩ : BufTy).Contents (Elt F)),
    StableHlo.unary main_v198 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S40000x128 ![0, 1] bcast_S1x128_S40000x128_0_1 : (⟨S1x128, .f32⟩ : BufTy).Contents (Elt F) → (⟨S40000x128, .f32⟩ : BufTy).Contents (Elt F)),
    StableHlo.binary main_v214 main_v216 main_v217 (addf : (⟨S40000x128, .f32⟩ : BufTy).Contents (Elt F) → (⟨S40000x128, .f32⟩ : BufTy).Contents (Elt F) → (⟨S40000x128, .f32⟩ : BufTy).Contents (Elt F)),
    StableHlo.TRef.nullary main_call11.cst (constant S_ .f32 0x00000000#32),
    StableHlo.TRef.unary main_call11.cst main_call11.v0 (broadcastInDim S40000x128 ![] bcast_S_S40000x128),
    StableHlo.TRef.binary (.of main_v217) main_call11.v0 main_call11.v1 maximumf,
    StableHlo.unary main_arg9 main_v219 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v219 main_v220 rfl shapeCasts_S1x128x128_S128x128,
    StableHlo.binary main_v218 main_v220 main_v221 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg10 main_v222 ((extractStridedSlice S1x128 ![2, 0] · slices_S3x128_S1x128_2_0) : (⟨S3x128, .f32⟩ : BufTy).Contents (Elt F) → (⟨S1x128, .f32⟩ : BufTy).Contents (Elt F)),
    StableHlo.reshape main_v222 main_v223 rfl shapeCasts_S1x128_S128,
    StableHlo.unary main_v223 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S40000x128 ![0, 1] bcast_S1x128_S40000x128_0_1 : (⟨S1x128, .f32⟩ : BufTy).Contents (Elt F) → (⟨S40000x128, .f32⟩ : BufTy).Contents (Elt F)),
    StableHlo.binary main_v221 main_v225 main_v226 (addf : (⟨S40000x128, .f32⟩ : BufTy).Contents (Elt F) → (⟨S40000x128, .f32⟩ : BufTy).Contents (Elt F) → (⟨S40000x128, .f32⟩ : BufTy).Contents (Elt F)),
    StableHlo.TRef.nullary main_call12.cst (constant S_ .f32 0x00000000#32),
    StableHlo.TRef.unary main_call12.cst main_call12.v0 (broadcastInDim S40000x128 ![] bcast_S_S40000x128),
    StableHlo.TRef.binary (.of main_v226) main_call12.v0 main_call12.v1 maximumf,
    StableHlo.unary main_arg11 main_v228 ((extractStridedSlice S1x128 ![2, 0] · slices_S3x128_S1x128_2_0) : (⟨S3x128, .f32⟩ : BufTy).Contents (Elt F) → (⟨S1x128, .f32⟩ : BufTy).Contents (Elt F)),
    StableHlo.reshape main_v228 main_v229 rfl shapeCasts_S1x128_S128,
    StableHlo.unary main_arg12 main_v230 ((extractStridedSlice S1x128 ![2, 0] · slices_S3x128_S1x128_2_0) : (⟨S3x128, .f32⟩ : BufTy).Contents (Elt F) → (⟨S1x128, .f32⟩ : BufTy).Contents (Elt F)),
    StableHlo.reshape main_v230 main_v231 rfl shapeCasts_S1x128_S128,
    StableHlo.nullary main_cst_30 (constant S_ .f32 0x00000000#32),
    StableHlo.binary main_v227 main_cst_30 main_v232 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_31 (constant S_ .f32 0x471C4000#32),
    StableHlo.unary main_cst_31 main_v233 (broadcastInDim S128 ![] bcast_S_S128 : (⟨S_, .f32⟩ : BufTy).Contents (Elt F) → (⟨S128, .f32⟩ : BufTy).Contents (Elt F)),
    StableHlo.binary main_v232 main_v233 main_v234 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call13.cst (constant S_ .f32 0x00000000#32),
    StableHlo.TRef.binary (.of main_v227) main_call13.cst main_call13.v0 (fun x v => Host.reduceAdd x v reducesTo_S40000x128_S128_d0 h_S_),
    StableHlo.TRef.unary main_call13.v0 main_call13.v1 (broadcastInDim S1x128 ![1] bcast_S128_S1x128_1),
    StableHlo.TRef.nullary main_call13.cst_0 (constant S_ .f32 0x471C4000#32),
    StableHlo.TRef.unary main_call13.cst_0 main_call13.v2 (broadcastInDim S1x128 ![] bcast_S_S1x128),
    StableHlo.TRef.binary main_call13.v1 main_call13.v2 main_call13.v3 Host.divf,
    StableHlo.TRef.unary main_call13.v3 main_call13.v4 (broadcastInDim S40000x128 ![0, 1] bcast_S1x128_S40000x128_0_1),
    StableHlo.TRef.binary (.of main_v227) main_call13.v4 main_call13.v5 subf,
    StableHlo.TRef.binary main_call13.v5 main_call13.v5 main_call13.v6 mulf,
    StableHlo.TRef.unary (.of main_c_32) main_call13.v7 (sitofp .f32),
    StableHlo.TRef.nullary main_call13.cst_1 (constant S_ .f32 0x471C4000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S40000x128_S128_d0 h_S_),
    StableHlo.TRef.unary main_call13.v8 main_call13.v10 (broadcastInDim S128 ![] bcast_S_S128),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S128 ![] bcast_S_S128),
    StableHlo.TRef.ternary main_call13.v12 main_call13.v11 main_call13.call0.v1 main_call13.call0.v2 (fun p a b => select (broadcastInDim S128 ![] bcast_S_S128 p) a b),
    StableHlo.unary main_v234 main_v236 (broadcastInDim S1x128 ![1] bcast_S128_S1x128_1 : (⟨S128, .f32⟩ : BufTy).Contents (Elt F) → (⟨S1x128, .f32⟩ : BufTy).Contents (Elt F)),
    StableHlo.unary main_v236 main_v237 (broadcastInDim S40000x128 ![0, 1] bcast_S1x128_S40000x128_0_1 : (⟨S1x128, .f32⟩ : BufTy).Contents (Elt F) → (⟨S40000x128, .f32⟩ : BufTy).Contents (Elt F)),
    StableHlo.binary main_v227 main_v237 main_v238 (subf : (⟨S40000x128, .f32⟩ : BufTy).Contents (Elt F) → (⟨S40000x128, .f32⟩ : BufTy).Contents (Elt F) → (⟨S40000x128, .f32⟩ : BufTy).Contents (Elt F)),
    StableHlo.unary main_v229 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S40000x128 ![0, 1] bcast_S1x128_S40000x128_0_1 : (⟨S1x128, .f32⟩ : BufTy).Contents (Elt F) → (⟨S40000x128, .f32⟩ : BufTy).Contents (Elt F)),
    StableHlo.binary main_v240 main_v238 main_v241 (mulf : (⟨S40000x128, .f32⟩ : BufTy).Contents (Elt F) → (⟨S40000x128, .f32⟩ : BufTy).Contents (Elt F) → (⟨S40000x128, .f32⟩ : BufTy).Contents (Elt F)),
    StableHlo.nullary main_cst_33 (constant S_ .f32 0x3727C5AC#32),
    StableHlo.unary main_cst_33 main_v242 (broadcastInDim S128 ![] bcast_S_S128 : (⟨S_, .f32⟩ : BufTy).Contents (Elt F) → (⟨S128, .f32⟩ : BufTy).Contents (Elt F)),
    StableHlo.binary main_v235 main_v242 main_v243 (addf : (⟨S128, .f32⟩ : BufTy).Contents (Elt F) → (⟨S128, .f32⟩ : BufTy).Contents (Elt F) → (⟨S128, .f32⟩ : BufTy).Contents (Elt F)),
    StableHlo.unary main_v243 main_v244 (Host.rsqrt : (⟨S128, .f32⟩ : BufTy).Contents (Elt F) → (⟨S128, .f32⟩ : BufTy).Contents (Elt F)),
    StableHlo.unary main_v244 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S40000x128 ![0, 1] bcast_S1x128_S40000x128_0_1 : (⟨S1x128, .f32⟩ : BufTy).Contents (Elt F) → (⟨S40000x128, .f32⟩ : BufTy).Contents (Elt F)),
    StableHlo.binary main_v241 main_v246 main_v247 (mulf : (⟨S40000x128, .f32⟩ : BufTy).Contents (Elt F) → (⟨S40000x128, .f32⟩ : BufTy).Contents (Elt F) → (⟨S40000x128, .f32⟩ : BufTy).Contents (Elt F)),
    StableHlo.unary main_v231 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S40000x128 ![0, 1] bcast_S1x128_S40000x128_0_1 : (⟨S1x128, .f32⟩ : BufTy).Contents (Elt F) → (⟨S40000x128, .f32⟩ : BufTy).Contents (Elt F)),
    StableHlo.binary main_v247 main_v249 main_v250 (addf : (⟨S40000x128, .f32⟩ : BufTy).Contents (Elt F) → (⟨S40000x128, .f32⟩ : BufTy).Contents (Elt F) → (⟨S40000x128, .f32⟩ : BufTy).Contents (Elt F)),
    StableHlo.TRef.nullary main_call14.cst (constant S_ .f32 0x00000000#32),
    StableHlo.TRef.unary main_call14.cst main_call14.v0 (broadcastInDim S40000x128 ![] bcast_S_S40000x128),
    StableHlo.TRef.binary (.of main_v250) main_call14.v0 main_call14.v1 maximumf
  ]

set_option maxRecDepth 4096 in
set_option maxHeartbeats 4000000 in
/-- The window is that straight line: the callees' definitions unfolded at their calls, the sequencing reassociated. -/
theorem part4_eq (c : Dev nD) : main_part4 (F := F) c = seq ops4 := by
  simp only [main_part4, fn_var.body, fn_where.body, fn_relu.body, seq, bind_assoc, pure_bind]

/-- Every operation of the window touches TensorCore buffers only. -/
theorem ops4_sub : (ops4 : List (HloOp τ sig (Elt F))).Forall fun op => op.bufs ⊆ tcRefs τ sig :=
  ⟨
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub ..
  ⟩

end Cert.ReferenceIdeal.Hand

end
-- ==== Proof.Ref.Res4.lean ====
import proofs.«110361_j29403346109051_2_alg».proof.Proof.Ref.Ops4
import proofs.«110361_j29403346109051_2_alg».proof.Proof.Ref.Stages

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The device's buffer contents after window 4 (statements 241 … 289 of @main), from contents `V`. -/
def step4 (V : Valuation τ sig (Elt F)) : Valuation τ sig (Elt F) := after (ops4 (F := F)) V

/-! Window 4 ends layer 2: the result. -/

set_option maxRecDepth 8192 in
theorem step4_v251 (V : Valuation τ sig (Elt F)) :
    step4 V (Proc.devRef .tc main_v251) = half2 (relu (bnTail (V (Proc.devRef .tc main_v208)) (V (Proc.devRef .tc main_v202)) (V (Proc.devRef .tc main_v198)))) (matAt (V (Proc.devRef .tc main_arg9)) ![2, 0, 0] slices_S3x128x128_S1x128x128_2_0_0) (rowAt (V (Proc.devRef .tc main_arg10)) ![2, 0] slices_S3x128_S1x128_2_0) (rowAt (V (Proc.devRef .tc main_arg11)) ![2, 0] slices_S3x128_S1x128_2_0) (rowAt (V (Proc.devRef .tc main_arg12)) ![2, 0] slices_S3x128_S1x128_2_0) := by
  show after (ops4 (F := F)) V _ = _
  after_results_simp <;> rfl

/-- Every operation of the window determines what it writes (none allocates a buffer with unspecified contents). -/
theorem ops4_fresh : (ops4 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl
  ⟩

/-- An operation that writes one buffer, a member of the list `W`, writes inside `W`. -/
private theorem writes_sub_of_mem {op : HloOp τ sig (Elt F)} {y : Ref sig .tc} {W : List (Ref sig .tc)}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- The buffers window 4 writes: one per operation. -/
abbrev writes4 : List (Ref sig .tc) :=
  [
    main_cst_29, main_v209, main_v210, main_v211, main_v212, main_v213, main_v214, main_v215,
    main_v216, main_v217, main_call11_cst, main_call11_v0, main_v218, main_v219, main_v220, main_v221,
    main_v222, main_v223, main_v224, main_v225, main_v226, main_call12_cst, main_call12_v0, main_v227,
    main_v228, main_v229, main_v230, main_v231, main_cst_30, main_v232, main_cst_31, main_v233,
    main_v234, main_c_32, main_call13_cst, main_call13_v0, main_call13_v1, main_call13_cst_0, main_call13_v2, main_call13_v3,
    main_call13_v4, main_call13_v5, main_call13_v6, main_call13_v7, main_call13_cst_1, main_call13_v8, main_call13_cst_2, main_call13_v9,
    main_call13_v10, main_call13_v11, main_call13_cst_3, main_call13_v12, main_call13_cst_4, main_call13_call0_v0, main_call13_call0_v1, main_v235,
    main_v236, main_v237, main_v238, main_v239, main_v240, main_v241, main_cst_33, main_v242,
    main_v243, main_v244, main_v245, main_v246, main_v247, main_v248, main_v249, main_v250,
    main_call14_cst, main_call14_v0, main_v251
  ]

theorem ops4_writes : (ops4 : List (HloOp τ sig (Elt F))).Forall fun op =>
    op.writes ⊆ (writes4.map (Proc.devRef (τ := τ) .tc)).toFinset :=
  ⟨
    writes_sub_of_mem (nullary_writes ..) (by decide), writes_sub_of_mem (unary_writes ..) (by decide),
    writes_sub_of_mem (binary_writes ..) (by decide), writes_sub_of_mem (unary_writes ..) (by decide),
    writes_sub_of_mem (unary_writes ..) (by decide), writes_sub_of_mem (unary_writes ..) (by decide),
    writes_sub_of_mem (binary_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (reshape_writes ..) (by decide), writes_sub_of_mem (binary_writes ..) (by decide),
    writes_sub_of_mem (unary_writes ..) (by decide), writes_sub_of_mem (reshape_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (reshape_writes ..) (by decide),
    writes_sub_of_mem (unary_writes ..) (by decide), writes_sub_of_mem (reshape_writes ..) (by decide),
    writes_sub_of_mem (nullary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (nullary_writes ..) (by decide), writes_sub_of_mem (binary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (unary_writes ..) (by decide), writes_sub_of_mem (binary_writes ..) (by decide),
    writes_sub_of_mem (binary_writes ..) (by decide), writes_sub_of_mem (unary_writes ..) (by decide),
    writes_sub_of_mem (nullary_writes ..) (by decide), writes_sub_of_mem (binary_writes ..) (by decide),
    writes_sub_of_mem (nullary_writes ..) (by decide), writes_sub_of_mem (binary_writes ..) (by decide),
    writes_sub_of_mem (unary_writes ..) (by decide), writes_sub_of_mem (binary_writes ..) (by decide),
    writes_sub_of_mem (nullary_writes ..) (by decide), writes_sub_of_mem (binary_writes ..) (by decide),
    writes_sub_of_mem (nullary_writes ..) (by decide), writes_sub_of_mem (unary_writes ..) (by decide),
    writes_sub_of_mem (unary_writes ..) (by decide), writes_sub_of_mem (ternary_writes ..) (by decide),
    writes_sub_of_mem (unary_writes ..) (by decide), writes_sub_of_mem (unary_writes ..) (by decide),
    writes_sub_of_mem (binary_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (unary_writes ..) (by decide), writes_sub_of_mem (unary_writes ..) (by decide),
    writes_sub_of_mem (binary_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide)
  ⟩

/-! No window writes an argument: each keeps its contents. -/

theorem step4_arg0 (V : Valuation τ sig (Elt F)) :
    step4 V (Proc.devRef .tc main_arg0) = V (Proc.devRef .tc main_arg0) :=
  after_of_writes_sub ops4 V ops4_writes (by decide)

theorem step4_arg1 (V : Valuation τ sig (Elt F)) :
    step4 V (Proc.devRef .tc main_arg1) = V (Proc.devRef .tc main_arg1) :=
  after_of_writes_sub ops4 V ops4_writes (by decide)

theorem step4_arg2 (V : Valuation τ sig (Elt F)) :
    step4 V (Proc.devRef .tc main_arg2) = V (Proc.devRef .tc main_arg2) :=
  after_of_writes_sub ops4 V ops4_writes (by decide)

theorem step4_arg3 (V : Valuation τ sig (Elt F)) :
    step4 V (Proc.devRef .tc main_arg3) = V (Proc.devRef .tc main_arg3) :=
  after_of_writes_sub ops4 V ops4_writes (by decide)

theorem step4_arg4 (V : Valuation τ sig (Elt F)) :
    step4 V (Proc.devRef .tc main_arg4) = V (Proc.devRef .tc main_arg4) :=
  after_of_writes_sub ops4 V ops4_writes (by decide)

theorem step4_arg5 (V : Valuation τ sig (Elt F)) :
    step4 V (Proc.devRef .tc main_arg5) = V (Proc.devRef .tc main_arg5) :=
  after_of_writes_sub ops4 V ops4_writes (by decide)

theorem step4_arg6 (V : Valuation τ sig (Elt F)) :
    step4 V (Proc.devRef .tc main_arg6) = V (Proc.devRef .tc main_arg6) :=
  after_of_writes_sub ops4 V ops4_writes (by decide)

theorem step4_arg7 (V : Valuation τ sig (Elt F)) :
    step4 V (Proc.devRef .tc main_arg7) = V (Proc.devRef .tc main_arg7) :=
  after_of_writes_sub ops4 V ops4_writes (by decide)

theorem step4_arg8 (V : Valuation τ sig (Elt F)) :
    step4 V (Proc.devRef .tc main_arg8) = V (Proc.devRef .tc main_arg8) :=
  after_of_writes_sub ops4 V ops4_writes (by decide)

theorem step4_arg9 (V : Valuation τ sig (Elt F)) :
    step4 V (Proc.devRef .tc main_arg9) = V (Proc.devRef .tc main_arg9) :=
  after_of_writes_sub ops4 V ops4_writes (by decide)

theorem step4_arg10 (V : Valuation τ sig (Elt F)) :
    step4 V (Proc.devRef .tc main_arg10) = V (Proc.devRef .tc main_arg10) :=
  after_of_writes_sub ops4 V ops4_writes (by decide)

theorem step4_arg11 (V : Valuation τ sig (Elt F)) :
    step4 V (Proc.devRef .tc main_arg11) = V (Proc.devRef .tc main_arg11) :=
  after_of_writes_sub ops4 V ops4_writes (by decide)

theorem step4_arg12 (V : Valuation τ sig (Elt F)) :
    step4 V (Proc.devRef .tc main_arg12) = V (Proc.devRef .tc main_arg12) :=
  after_of_writes_sub ops4 V ops4_writes (by decide)

end Cert.ReferenceIdeal.Hand

end
-- ==== Proof.Ref.Run.lean ====
import proofs.«110361_j29403346109051_2_alg».proof.Proof.Ref.Res0
import proofs.«110361_j29403346109051_2_alg».proof.Proof.Ref.Res1
import proofs.«110361_j29403346109051_2_alg».proof.Proof.Ref.Res2
import proofs.«110361_j29403346109051_2_alg».proof.Proof.Ref.Res3
import proofs.«110361_j29403346109051_2_alg».proof.Proof.Ref.Res4
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- @main's operations: the five windows in order. -/
def ops : List (HloOp τ sig (Elt F)) := ops0 ++ (ops1 ++ (ops2 ++ (ops3 ++ ops4)))

/-- @main is that straight line: its five windows, each the line of its own operations, run one after the other. -/
theorem main_eq (c : Dev nD) : main (F := F) c = seq ops := by
  simp only [main, ops, seq_append, part0_eq, part1_eq, part2_eq, part3_eq, part4_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h

theorem ops_fresh : ∀ op ∈ (ops : List (HloOp τ sig (Elt F))), op.fresh = ∅ := by
  intro op h
  simp only [ops, List.mem_append] at h
  rcases h with h | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h

/-- The contents after all of @main: the five windows' steps composed. -/
theorem after_ops (V : Valuation τ sig (Elt F)) :
    after (ops (F := F)) V = step4 (step3 (step2 (step1 (step0 V)))) := by
  simp only [ops, StableHlo.after_append, step0, step1, step2, step3, step4]

set_option maxRecDepth 8192 in
/-- The result buffer ends at the three layers composed, over the launch contents of the arguments: each window's
    results substituted into the next window's, then the layers' definitions opened on the other side. -/
theorem out_eq (V : Valuation τ sig (Elt F)) :
    after (ops (F := F)) V (Proc.devRef .tc main_v251)
      = refVal (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  rw [step4_v251, step3_v208, step3_v202, step3_v198, step3_arg9, step3_arg10, step3_arg11, step3_arg12,
    step2_v156, step2_v154, step2_v151, step2_v147, step2_arg1, step2_arg2, step2_arg3, step2_arg4, step2_arg5, step2_arg6, step2_arg7, step2_arg8, step2_arg9, step2_arg10, step2_arg11, step2_arg12,
    step1_v102, step1_v103, step1_arg1, step1_arg2, step1_arg3, step1_arg4, step1_arg5, step1_arg6, step1_arg7, step1_arg8, step1_arg9, step1_arg10, step1_arg11, step1_arg12,
    step0_v50, step0_v51, step0_arg1, step0_arg2, step0_arg3, step0_arg4, step0_arg5, step0_arg6, step0_arg7, step0_arg8, step0_arg9, step0_arg10, step0_arg11, step0_arg12]
  simp only [refVal, refLayer0, refLayer1, refLayer2, refLayer, half1, half2, bn, matAt]

theorem arg0_eq (V : Valuation τ sig (Elt F)) :
    after (ops (F := F)) V (Proc.devRef .tc main_arg0) = V (Proc.devRef .tc main_arg0) := by
  rw [after_ops, step4_arg0, step3_arg0, step2_arg0, step1_arg0, step0_arg0]

theorem arg1_eq (V : Valuation τ sig (Elt F)) :
    after (ops (F := F)) V (Proc.devRef .tc main_arg1) = V (Proc.devRef .tc main_arg1) := by
  rw [after_ops, step4_arg1, step3_arg1, step2_arg1, step1_arg1, step0_arg1]

theorem arg2_eq (V : Valuation τ sig (Elt F)) :
    after (ops (F := F)) V (Proc.devRef .tc main_arg2) = V (Proc.devRef .tc main_arg2) := by
  rw [after_ops, step4_arg2, step3_arg2, step2_arg2, step1_arg2, step0_arg2]

theorem arg3_eq (V : Valuation τ sig (Elt F)) :
    after (ops (F := F)) V (Proc.devRef .tc main_arg3) = V (Proc.devRef .tc main_arg3) := by
  rw [after_ops, step4_arg3, step3_arg3, step2_arg3, step1_arg3, step0_arg3]

theorem arg4_eq (V : Valuation τ sig (Elt F)) :
    after (ops (F := F)) V (Proc.devRef .tc main_arg4) = V (Proc.devRef .tc main_arg4) := by
  rw [after_ops, step4_arg4, step3_arg4, step2_arg4, step1_arg4, step0_arg4]

theorem arg5_eq (V : Valuation τ sig (Elt F)) :
    after (ops (F := F)) V (Proc.devRef .tc main_arg5) = V (Proc.devRef .tc main_arg5) := by
  rw [after_ops, step4_arg5, step3_arg5, step2_arg5, step1_arg5, step0_arg5]

theorem arg6_eq (V : Valuation τ sig (Elt F)) :
    after (ops (F := F)) V (Proc.devRef .tc main_arg6) = V (Proc.devRef .tc main_arg6) := by
  rw [after_ops, step4_arg6, step3_arg6, step2_arg6, step1_arg6, step0_arg6]

theorem arg7_eq (V : Valuation τ sig (Elt F)) :
    after (ops (F := F)) V (Proc.devRef .tc main_arg7) = V (Proc.devRef .tc main_arg7) := by
  rw [after_ops, step4_arg7, step3_arg7, step2_arg7, step1_arg7, step0_arg7]

theorem arg8_eq (V : Valuation τ sig (Elt F)) :
    after (ops (F := F)) V (Proc.devRef .tc main_arg8) = V (Proc.devRef .tc main_arg8) := by
  rw [after_ops, step4_arg8, step3_arg8, step2_arg8, step1_arg8, step0_arg8]

theorem arg9_eq (V : Valuation τ sig (Elt F)) :
    after (ops (F := F)) V (Proc.devRef .tc main_arg9) = V (Proc.devRef .tc main_arg9) := by
  rw [after_ops, step4_arg9, step3_arg9, step2_arg9, step1_arg9, step0_arg9]

theorem arg10_eq (V : Valuation τ sig (Elt F)) :
    after (ops (F := F)) V (Proc.devRef .tc main_arg10) = V (Proc.devRef .tc main_arg10) := by
  rw [after_ops, step4_arg10, step3_arg10, step2_arg10, step1_arg10, step0_arg10]

theorem arg11_eq (V : Valuation τ sig (Elt F)) :
    after (ops (F := F)) V (Proc.devRef .tc main_arg11) = V (Proc.devRef .tc main_arg11) := by
  rw [after_ops, step4_arg11, step3_arg11, step2_arg11, step1_arg11, step0_arg11]

theorem arg12_eq (V : Valuation τ sig (Elt F)) :
    after (ops (F := F)) V (Proc.devRef .tc main_arg12) = V (Proc.devRef .tc main_arg12) := by
  rw [after_ops, step4_arg12, step3_arg12, step2_arg12, step1_arg12, step0_arg12]

/-- On every device, for any float values, from any memory with zero counters: every weakly fair execution of
    @main terminates with the result buffer at `refVal` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v251) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v251).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ (fun _ => ops_fresh))

end Cert.ReferenceIdeal.Hand

end
-- ==== Proof.Ref.ReadLin.lean ====
import proofs.«110361_j29403346109051_2_alg».proof.Proof.Ref.Stages
import proofs.«110361_j29403346109051_2_alg».proof.Proof.Spec
import Idealize.ShloMosaic.Lib.IdealHost
import Idealize.ShloMosaic.Lib.Pipeline.Value

noncomputable section

namespace Cert.ReferenceIdeal.Hand

open Cert.ReferenceIdeal Idealize.ShloMosaic Idealize.SL.Sem
open Cert.ReferenceIdeal.Facts₀ Cert.ReferenceIdeal.Facts
open Cert.Spec Idealize.ShloMosaic.ValueIdx

variable [Facts]

/-- The contents of a tensor value of shape `s` and element type `e`, at the ideal values. -/
local notation "𝕋[" s ", " e "]" => BufTy.Contents (Elt Ideal) (⟨s, e⟩ : BufTy)

/-! ## Broadcasts read at an index -/

/-- A row of 128 repeated along the rows reads its entry at the column. -/
theorem rowB_apply (v : FVec Ideal S128 .f32) (r : Fin 40000) (j : Fin 128) : rowB (F := Ideal) v (ix2 r j) = v (ix1 j) := by
  unfold rowB
  refine (broadcastInDim_apply _ _ _ (ix2 r j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- A scalar broadcast to the node features reads the scalar. -/
theorem bS_apply {α : Type} (x : S_.Idx → α) (i : S40000x128.Idx) :
    broadcastInDim S40000x128 ![] bcast_S_S40000x128 x i = x ix0 := broadcastInDim_scalar_apply _ _ _

/-- A scalar broadcast to a row reads the scalar. -/
theorem bS128_apply {α : Type} (x : S_.Idx → α) (i : S128.Idx) :
    broadcastInDim S128 ![] bcast_S_S128 x i = x ix0 := broadcastInDim_scalar_apply _ _ _

/-! ## The pointwise stages -/

/-- The rectifier at an entry. -/
theorem relu_apply (x : FVec Ideal S40000x128 .f32) (r : Fin 40000) (j : Fin 128) :
    relu (F := Ideal) x (ix2 r j) = max (x (ix2 r j)) 0 := by
  unfold relu
  rw [maximumf_apply, bS_apply, constant_apply, Ideal.ofBits_zero_f32]

theorem relu_read (x : 𝕋[S40000x128, .f32]) : toMat (relu (F := Ideal) x) = Cert.Spec.relu (toMat x) := by
  funext r j
  exact relu_apply x r j

/-- The combined features at an entry. -/
theorem xin_apply (e : FVec Ideal S_ .f32) (h a : FVec Ideal S40000x128 .f32) (r : Fin 40000) (j : Fin 128) :
    xin (F := Ideal) e h a (ix2 r j) = (1 + e ix0) * h (ix2 r j) + a (ix2 r j) := by
  unfold xin
  rw [addf_apply, mulf_apply, bS_apply, addf_apply, constant_apply, Ideal.ofBits_one_f32]

theorem xin_read (e : 𝕋[S_, .f32]) (h a : 𝕋[S40000x128, .f32]) :
    toMat (xin (F := Ideal) e h a) = comb (1 + e ix0) (toMat h) (toMat a) := by
  funext r j
  exact xin_apply e h a r j

/-! ## The linear map -/

/-- The product's dimension numbers: rows of the features against columns of the weights. -/
abbrev dotD := dot_S40000x128_S128x128_S40000x128_1_0_0_1_n_n

/-- The contraction index of the product is a column of the features. -/
abbrev dotK : dotD.contr.Idx ≃ Fin 128 := contrEquiv1 dotD 128 rfl rfl

theorem dot_lhs (p : Fin 40000) (q k : Fin 128) : dotD.lhsIdx (ix2 p q) (dotK.symm k) = ix2 p k := by
  funext a
  match a with
  | ⟨0, _⟩ => exact Fin.ext rfl
  | ⟨1, _⟩ => exact Fin.ext ((dotD.lhsIdx_val_of_single (cl := ⟨1, by decide⟩) rfl _ _).trans (contrEquiv1_symm_val dotD 128 rfl rfl k))

theorem dot_rhs (p : Fin 40000) (q k : Fin 128) : dotD.rhsIdx (ix2 p q) (dotK.symm k) = ix2 k q := by
  funext a
  match a with
  | ⟨0, _⟩ => exact Fin.ext ((dotD.rhsIdx_val_of_single (cr := ⟨0, by decide⟩) rfl _ _).trans (contrEquiv1_symm_val dotD 128 rfl rfl k))
  | ⟨1, _⟩ => exact Fin.ext rfl

/-- The host's product at an entry: the sum over the shared index. -/
theorem dot_apply (x : FVec Ideal S40000x128 .f32) (w : FVec Ideal S128x128 .f32) (p : Fin 40000) (q : Fin 128) :
    Host.dotGeneral (F := Ideal) dotD none x w (ix2 p q) = ∑ k : Fin 128, x (ix2 p k) * w (ix2 k q) := by
  simp only [Host.dotGeneral]
  refine (Ideal.dotGeneral_apply _ _ _ _ _ _).trans ?_
  refine (Equiv.sum_comp dotK.symm _).symm.trans ?_
  refine Finset.sum_congr rfl fun k _ => ?_
  rw [dot_lhs, dot_rhs]

/-- The linear map at an entry. -/
theorem lin_apply (x : FVec Ideal S40000x128 .f32) (W : FVec Ideal S128x128 .f32) (b : FVec Ideal S128 .f32)
    (r : Fin 40000) (j : Fin 128) :
    lin (F := Ideal) x W b (ix2 r j) = (∑ k : Fin 128, x (ix2 r k) * W (ix2 k j)) + b (ix1 j) := by
  unfold lin
  rw [addf_apply, rowB_apply]
  exact congrArg (· + b (ix1 j)) (dot_apply x W r j)

theorem lin_read (x : 𝕋[S40000x128, .f32]) (W : 𝕋[S128x128, .f32]) (b : 𝕋[S128, .f32]) :
    toMat (lin (F := Ideal) x W b) = Cert.Spec.lin (toMat x) (toWt W) (fun j => b (ix1 j)) := by
  funext r j
  exact lin_apply x W b r j

end Cert.ReferenceIdeal.Hand

end
-- ==== Proof.Ref.ReadStats.lean ====
import proofs.«110361_j29403346109051_2_alg».proof.Proof.Ref.ReadLin
import Idealize.ShloMosaic.Lib.ValueLayout

noncomputable section

namespace Cert.ReferenceIdeal.Hand

open Cert.ReferenceIdeal Idealize.ShloMosaic Idealize.SL.Sem
open Cert.ReferenceIdeal.Facts₀ Cert.ReferenceIdeal.Facts
open Cert.Spec Idealize.ShloMosaic.ValueIdx

variable [Facts]

/-- The contents of a tensor value of shape `s` and element type `e`, at the ideal values. -/
local notation "𝕋[" s ", " e "]" => BufTy.Contents (Elt Ideal) (⟨s, e⟩ : BufTy)

/-! ## The words of the statistics -/

/-- The single-precision word 0x471C4000 is 40000. -/
theorem ofBits_40000 : Ideal.ofBits .f32 0x471C4000#32 = ((40000 : ℝ) : EReal) := by
  simp [Ideal.ofBits, Ideal.ieee, -EReal.coe_mul]; norm_num

/-- The column reduction's shape fact in the form that names the inserted index. -/
theorem redW : S40000x128.Reduces [0] S128 := by decide

/-- A row of 128 as a 1×128 array reads its entry at the column. -/
theorem b128_apply (v : FVec Ideal S128 .f32) (j : Fin 128) :
    broadcastInDim S1x128 ![1] bcast_S128_S1x128_1 v (ix2 (0 : Fin 1) j) = v (ix1 j) := by
  refine broadcastInDim_apply _ _ _ (ix2 (0 : Fin 1) j) (ix1 j) fun a => ?_
  match a with
  | ⟨0, _⟩ => rfl

/-- A 1×128 array repeated along the rows reads its entry at the column. -/
theorem b1x128_apply (v : FVec Ideal S1x128 .f32) (r : Fin 40000) (j : Fin 128) :
    broadcastInDim S40000x128 ![0, 1] bcast_S1x128_S40000x128_0_1 v (ix2 r j) = v (ix2 (0 : Fin 1) j) := by
  refine broadcastInDim_apply _ _ _ (ix2 r j) (ix2 (0 : Fin 1) j) fun a => ?_
  match a with
  | ⟨0, _⟩ => rfl
  | ⟨1, _⟩ => rfl

/-- A scalar broadcast to a 1×128 array reads the scalar. -/
theorem bS1x128_apply {α : Type} (x : S_.Idx → α) (i : S1x128.Idx) :
    broadcastInDim S1x128 ![] bcast_S_S1x128 x i = x ix0 := broadcastInDim_scalar_apply _ _ _

/-- The host's reciprocal square root at an entry. -/
theorem hostRsqrt_apply {s : Shape} (x : FVec Ideal s .f32) (i : s.Idx) : Host.rsqrt x i = Ideal.rsqrt (x i) := rfl

/-! ## Column sums, means and variances -/

/-- A column sum is the sum down the column. -/
theorem colSum_apply (y : FVec Ideal S40000x128 .f32) (j : Fin 128) :
    colSum (F := Ideal) y (ix1 j) = ∑ r : Fin 40000, y (ix2 r j) := by
  unfold colSum
  refine (hostReduceAdd_apply _ _ _ _ _).trans ?_
  refine (Ideal.hostReduceAdd_single reducesTo_S40000x128_S128_d0 redW y _ (ix1 j)).trans ?_
  rw [constant_apply, Ideal.ofBits_zero_f32, zero_add]
  refine Finset.sum_congr rfl fun r _ => congrArg y ?_
  funext c
  match c with
  | ⟨0, _⟩ => exact Fin.ext rfl
  | ⟨1, _⟩ => exact Fin.ext rfl

/-- A column mean is the column sum over 40000. -/
theorem colMean_apply (y : FVec Ideal S40000x128 .f32) (j : Fin 128) :
    colMean (F := Ideal) y (ix1 j) = meanR (toMat y) j := by
  show _ = Ideal.div (∑ r : Fin 40000, y (ix2 r j)) ((40000 : ℝ) : EReal)
  unfold colMean
  rw [hostDivf_apply, colSum_apply, bS128_apply, constant_apply, ofBits_40000]

theorem colMean_read (y : 𝕋[S40000x128, .f32]) (j : Fin 128) : colMean (F := Ideal) y (ix1 j) = meanR (toMat y) j :=
  colMean_apply y j

/-- The deviation the variance squares is the deviation from the column mean. -/
theorem devMean_apply (y : FVec Ideal S40000x128 .f32) (r : Fin 40000) (j : Fin 128) :
    devMean (F := Ideal) y (ix2 r j) = y (ix2 r j) - meanR (toMat y) j := by
  show _ = y (ix2 r j) - Ideal.div (∑ r' : Fin 40000, y (ix2 r' j)) ((40000 : ℝ) : EReal)
  unfold devMean
  rw [subf_apply, b1x128_apply, hostDivf_apply, b128_apply, colSum_apply, bS1x128_apply, constant_apply, ofBits_40000]

/-- The signed integer zero converts to the real zero. -/
theorem sitofp_zero32 : FloatOps.sitofp (F := Ideal) .f32 (0#32 : BitVec 32) = 0 := by
  show (((0#32 : BitVec 32).toInt : ℝ) : EReal) = 0
  simp

/-- The variance's divisor is 40000. -/
theorem varN_apply : varN (F := Ideal) ix0 = nN := by
  unfold varN nN
  rw [subf_apply, constant_apply, ofBits_40000, sitofp_apply, constantI_apply, sitofp_zero32, sub_zero]

/-- 40000 is greater than zero, as the comparison's bit. -/
theorem cmp_nN : FloatOps.cmpf (F := Ideal) (φ := .f32) .ogt nN 0 = 1#1 := by
  show BitVec.ofBool (decide ((0 : EReal) < nN)) = 1#1
  rw [decide_eq_true (show (0 : EReal) < nN by unfold nN; exact EReal.coe_pos.mpr (by norm_num))]
  rfl

/-- A column variance is the mean squared deviation from the column mean. -/
theorem colVar_apply (y : FVec Ideal S40000x128 .f32) (j : Fin 128) :
    colVar (F := Ideal) y (ix1 j) = varR (toMat y) j := by
  show _ = Ideal.div (∑ r : Fin 40000, (y (ix2 r j) - meanR (toMat y) j) * (y (ix2 r j) - meanR (toMat y) j)) nN
  unfold colVar
  rw [select_apply, bS128_apply, cmpf_apply, varN_apply, constant_apply, Ideal.ofBits_zero_f32, cmp_nN, select_one,
    hostDivf_apply, bS128_apply, varN_apply, colSum_apply]
  refine congrArg (Ideal.div · nN) (Finset.sum_congr rfl fun r _ => ?_)
  rw [mulf_apply, devMean_apply]

theorem colVar_read (y : 𝕋[S40000x128, .f32]) (j : Fin 128) : colVar (F := Ideal) y (ix1 j) = varR (toMat y) j :=
  colVar_apply y j

/-! ## Batch normalization -/

/-- Batch normalization at an entry. -/
theorem bn_apply (y : FVec Ideal S40000x128 .f32) (g bt : FVec Ideal S128 .f32) (r : Fin 40000) (j : Fin 128) :
    bn (F := Ideal) y g bt (ix2 r j)
      = g (ix1 j) * (y (ix2 r j) - meanR (toMat y) j) * Ideal.rsqrt (varR (toMat y) j + epsB) + bt (ix1 j) := by
  unfold bn bnTail centered epsB
  simp only [addf_apply, mulf_apply, subf_apply, rowB_apply, hostRsqrt_apply, colMean_apply, colVar_apply]
  rw [bS128_apply, constant_apply]

theorem bn_read (y : 𝕋[S40000x128, .f32]) (g bt : 𝕋[S128, .f32]) :
    toMat (bn (F := Ideal) y g bt)
      = Cert.Spec.bn (toMat y) (meanR (toMat y)) (varR (toMat y)) (fun j => g (ix1 j)) (fun j => bt (ix1 j)) := by
  funext r j
  exact bn_apply y g bt r j

end Cert.ReferenceIdeal.Hand

end
-- ==== Proof.Ref.ReadAgg.lean ====
import proofs.«110361_j29403346109051_2_alg».proof.Proof.Ref.ReadLin
import proofs.«110361_j29403346109051_2_alg».proof.Proof.SpecAgg
import proofs.«110361_j29403346109051_2_alg».proof.Proof.LibGatherRows
import proofs.«110361_j29403346109051_2_alg».proof.Proof.LibScatterRows
import Idealize.ShloMosaic.Lib.ValueLayout

noncomputable section

namespace Cert.ReferenceIdeal.Hand

open Cert.ReferenceIdeal Idealize.ShloMosaic Idealize.SL.Sem
open Cert.ReferenceIdeal.Facts₀ Cert.ReferenceIdeal.Facts
open Cert.Spec Idealize.ShloMosaic.ValueIdx

variable [Facts]

/-- The contents of a tensor value of shape `s` and element type `e`, at the ideal values. -/
local notation "𝕋[" s ", " e "]" => BufTy.Contents (Elt Ideal) (⟨s, e⟩ : BufTy)

/-! ## The source index wrapped -/

/-- A word selected on its sign: a negative source index has 40000 added. -/
theorem wrap_word (s : BitVec 32) :
    Scalar.select (IntOp.cmpi .slt s 0#32) (IntOp.addi s 40000#32) s = if s.toInt < 0 then s + 40000#32 else s := by
  show (if BitVec.ofBool (s.slt 0#32) = 1 then s + 40000#32 else s) = _
  by_cases h : s.toInt < 0
  · have hs : s.slt 0#32 = true := by simp [BitVec.slt, h]
    rw [hs, if_pos h]
    first | rfl | simp
  · have hs : s.slt 0#32 = false := by simp [BitVec.slt, h]
    rw [hs, if_neg h]
    first | rfl | simp

/-- The wrapped source index of an edge. -/
theorem wrapIdx_apply (src : IVec S640000 32) (p : Fin 640000) :
    wrapIdx (F := Ideal) src (ix1 p) = if (src (ix1 p)).toInt < 0 then src (ix1 p) + 40000#32 else src (ix1 p) := by
  unfold wrapIdx
  exact wrap_word (src (ix1 p))

/-! ## Per-edge arrays read at an index -/

/-- A per-edge vector as a one-column array reads the edge's entry. -/
theorem b640000_apply {α : Type} (v : S640000.Idx → α) (p : Fin 640000) :
    broadcastInDim S640000x1 ![0] bcast_S640000_S640000x1_0 v (ix2 p (0 : Fin 1)) = v (ix1 p) := by
  refine broadcastInDim_apply _ _ _ (ix2 p (0 : Fin 1)) (ix1 p) fun a => ?_
  match a with
  | ⟨0, _⟩ => rfl

/-- A one-column per-edge array repeated along 128 columns reads the edge's entry. -/
theorem b640000x1_apply {α : Type} (v : S640000x1.Idx → α) (p : Fin 640000) (k : Fin 128) :
    broadcastInDim S640000x128 ![0, 1] bcast_S640000x1_S640000x128_0_1 v (ix2 p k) = v (ix2 p (0 : Fin 1)) := by
  refine broadcastInDim_apply _ _ _ (ix2 p k) (ix2 p (0 : Fin 1)) fun a => ?_
  match a with
  | ⟨0, _⟩ => rfl
  | ⟨1, _⟩ => rfl

/-- The gather's dimension numbers: whole rows of the features by row number. -/
abbrev gatherD := gather_S40000x128_S640000x1_S640000x128_1_0_n_n_0_1_1128

/-- The scatter's dimension numbers: whole rows added at a row number. -/
abbrev scatterD := scatter_S40000x128_S640000x1_S640000x128_1_0_0_1

/-- An edge's message: its weight times its source node's row. -/
theorem msgs_apply (h : FVec Ideal S40000x128 .f32) (src : IVec S640000 32) (ew : FVec Ideal S640000 .f32)
    (p : Fin 640000) (k : Fin 128) :
    msgs (F := Ideal) h src ew (ix2 p k) = ew (ix1 p) * h (ix2 (srcRow (src (ix1 p))) k) := by
  unfold msgs
  rw [mulf_apply, b640000x1_apply, b640000_apply]
  refine congrArg (ew (ix1 p) * ·) ?_
  refine (Cert.LibGatherRows.hostGather_rows_apply (R := 40000) (N := 640000) (K := 128) (by decide) gatherD
    rfl rfl rfl rfl rfl rfl rfl h _ p k).trans ?_
  refine congrArg (fun q => h (ix2 q k)) (Fin.ext ?_)
  unfold srcRow
  show min (_ : Nat) 39999 = min _ 39999
  rw [b640000_apply, wrapIdx_apply]

/-- The aggregate at an entry: the sum of the messages of the edges that arrive at the node. -/
theorem agg_apply (h : FVec Ideal S40000x128 .f32) (src dst : IVec S640000 32) (ew : FVec Ideal S640000 .f32)
    (r : Fin 40000) (k : Fin 128) :
    agg (F := Ideal) h src dst ew (ix2 r k)
      = ∑ p ∈ Finset.univ.filter (fun p : Fin 640000 => (dst (ix1 p)).toInt = (r.val : Int)),
          ew (ix1 p) * h (ix2 (srcRow (src (ix1 p))) k) := by
  unfold agg
  have e : ∀ (z : FVec Ideal S40000x128 .f32) (idx : IVec S640000x1 32) (upd : FVec Ideal S640000x128 .f32),
      Host.scatterAdd (F := Ideal) scatterD z idx upd = Ideal.hostScatterAdd scatterD z idx upd := fun _ _ _ => rfl
  rw [e]
  refine (Cert.LibScatterRows.hostScatterAdd_rows_apply scatterD rfl rfl rfl rfl _ _ _ r k).trans ?_
  rw [bS_apply, constant_apply, Ideal.ofBits_zero_f32, zero_add]
  refine Finset.sum_congr ?_ ?_
  · refine Finset.filter_congr ?_
    intro p _
    rw [b640000_apply]
  · intro p _
    exact msgs_apply h src ew p k

theorem agg_read (h : 𝕋[S40000x128, .f32]) (src dst : 𝕋[S640000, .i32]) (ew : 𝕋[S640000, .f32]) :
    toMat (agg (F := Ideal) h src dst ew)
      = Cert.Spec.agg (toMat h) (fun p => src (ix1 p)) (fun p => dst (ix1 p)) (fun p => ew (ix1 p)) := by
  funext r k
  exact agg_apply h src dst ew r k

end Cert.ReferenceIdeal.Hand

end
-- ==== Proof.Ref.ReadParams.lean ====
import proofs.«110361_j29403346109051_2_alg».proof.Proof.Ref.Stages
import proofs.«110361_j29403346109051_2_alg».proof.Proof.Spec
import Idealize.ShloMosaic.Lib.IdealHost
import Idealize.ShloMosaic.Lib.Pipeline.Value
import Idealize.ShloMosaic.Lib.ValueLayout

noncomputable section

namespace Cert.ReferenceIdeal.Hand

open Cert.ReferenceIdeal Idealize.ShloMosaic Idealize.SL.Sem
open Cert.ReferenceIdeal.Facts₀ Cert.ReferenceIdeal.Facts
open Cert.Spec Idealize.ShloMosaic.ValueIdx

variable [Facts]

/-- The contents of a tensor value of shape `s` and element type `e`, at the ideal values. -/
local notation "𝕋[" s ", " e "]" => BufTy.Contents (Elt Ideal) (⟨s, e⟩ : BufTy)

/-! ## The parameter rows read at an index -/

/-- Entry `l` of a vector of three, as a scalar. -/
theorem scalarAt_apply (a : FVec Ideal S3 .f32) (n : Nat) (ho : S3.Slices ![n] S1) (l : Fin 3) (hl : l.val = n) :
    scalarAt (F := Ideal) a ![n] ho ix0 = a (ix1 l) := by
  show shapeCast S_ (extractStridedSlice S1 ![n] a ho) shapeCasts_S1_S_ ix0 = _
  refine (shapeCast_dropUnit_apply ![] _ _ ix0).trans ?_
  refine extractStridedSlice_apply _ _ _ _ (ix1 l) fun ax => ?_
  match ax with
  | ⟨0, _⟩ =>
    show l.val = n + 0
    omega

/-- Matrix `l` of three 128×128 matrices, at an entry. -/
theorem matAt_apply (a : FVec Ideal S3x128x128 .f32) (n : Nat) (ho : S3x128x128.Slices ![n, 0, 0] S1x128x128)
    (l : Fin 3) (hl : l.val = n) (k j : Fin 128) :
    matAt (F := Ideal) a ![n, 0, 0] ho (ix2 k j) = a (ix3 l k j) := by
  show shapeCast S128x128 (extractStridedSlice S1x128x128 ![n, 0, 0] a ho) shapeCasts_S1x128x128_S128x128 (ix2 k j) = _
  refine (shapeCast_1ab_ab_apply _ _ k j).trans ?_
  refine extractStridedSlice_apply _ _ _ (ix3 (0 : Fin 1) k j) (ix3 l k j) fun ax => ?_
  match ax with
  | ⟨0, _⟩ =>
    show l.val = n + 0
    omega
  | ⟨1, _⟩ =>
    show k.val = 0 + k.val
    omega
  | ⟨2, _⟩ =>
    show j.val = 0 + j.val
    omega

/-- Matrix `l` of three, as a weight matrix. -/
theorem toWt_matAt (a : 𝕋[S3x128x128, .f32]) (n : Nat) (ho : S3x128x128.Slices ![n, 0, 0] S1x128x128)
    (l : Fin 3) (hl : l.val = n) :
    toWt (matAt (F := Ideal) a ![n, 0, 0] ho) = fun k j => a (ix3 l k j) := by
  funext k j
  exact matAt_apply a n ho l hl k j

/-- Row `l` of three rows of 128, at an entry. -/
theorem rowAt_apply (a : FVec Ideal S3x128 .f32) (n : Nat) (ho : S3x128.Slices ![n, 0] S1x128) (l : Fin 3) (hl : l.val = n)
    (j : Fin 128) : rowAt (F := Ideal) a ![n, 0] ho (ix1 j) = a (ix2 l j) := by
  show shapeCast S128 (extractStridedSlice S1x128 ![n, 0] a ho) shapeCasts_S1x128_S128 (ix1 j) = _
  refine (shapeCast_1a_a_apply _ _ j).trans ?_
  exact slice2_axis0_apply n a ho (0 : Fin 1) j l (by
    show l.val = n + 0
    omega)

/-- Row `l` of three rows of 128, as a row. -/
theorem rowAt_fun (a : 𝕋[S3x128, .f32]) (n : Nat) (ho : S3x128.Slices ![n, 0] S1x128) (l : Fin 3) (hl : l.val = n) :
    (fun j : Fin 128 => rowAt (F := Ideal) a ![n, 0] ho (ix1 j)) = fun j => a (ix2 l j) := by
  funext j
  exact rowAt_apply a n ho l hl j

end Cert.ReferenceIdeal.Hand

end
-- ==== Proof.Ref.ReadLayer.lean ====
import proofs.«110361_j29403346109051_2_alg».proof.Proof.Ref.ReadLin
import proofs.«110361_j29403346109051_2_alg».proof.Proof.Ref.ReadStats
import proofs.«110361_j29403346109051_2_alg».proof.Proof.Ref.ReadAgg
import proofs.«110361_j29403346109051_2_alg».proof.Proof.Ref.ReadParams

noncomputable section

namespace Cert.ReferenceIdeal.Hand

open Cert.ReferenceIdeal Idealize.ShloMosaic Idealize.SL.Sem
open Cert.ReferenceIdeal.Facts₀ Cert.ReferenceIdeal.Facts
open Cert.Spec Idealize.ShloMosaic.ValueIdx

variable [Facts]

/-- The contents of a tensor value of shape `s` and element type `e`, at the ideal values. -/
local notation "𝕋[" s ", " e "]" => BufTy.Contents (Elt Ideal) (⟨s, e⟩ : BufTy)

/-! ## One layer -/

/-- One layer of the reference, its parameters already sliced, is the layer function of the network. -/
theorem refLayer_read (h : 𝕋[S40000x128, .f32]) (src dst : 𝕋[S640000, .i32]) (ew : 𝕋[S640000, .f32]) (e : 𝕋[S_, .f32])
    (W1 : 𝕋[S128x128, .f32]) (b1 g1 bt1 : 𝕋[S128, .f32]) (W2 : 𝕋[S128x128, .f32]) (b2 g2 bt2 : 𝕋[S128, .f32]) :
    toMat (refLayer (F := Ideal) h src dst ew e W1 b1 g1 bt1 W2 b2 g2 bt2)
      = layerR (1 + e ix0) (toMat h)
          (Cert.Spec.agg (toMat h) (fun p => src (ix1 p)) (fun p => dst (ix1 p)) (fun p => ew (ix1 p)))
          (toWt W1) (fun j => b1 (ix1 j)) (fun j => g1 (ix1 j)) (fun j => bt1 (ix1 j))
          (toWt W2) (fun j => b2 (ix1 j)) (fun j => g2 (ix1 j)) (fun j => bt2 (ix1 j)) := by
  unfold refLayer half2 half1
  rw [relu_read, bn_read, relu_read, lin_read, relu_read, bn_read, lin_read, xin_read, agg_read] <;> rfl

/-! ## The three layers -/

/-- Layer 0 of the reference is the layer function on row 0 of each parameter array. -/
theorem refLayer0_read (h : 𝕋[S40000x128, .f32]) (a1 a2 : 𝕋[S640000, .i32]) (a3 : 𝕋[S640000, .f32]) (a4 : 𝕋[S3, .f32])
    (a5 : 𝕋[S3x128x128, .f32]) (a6 a7 a8 : 𝕋[S3x128, .f32]) (a9 : 𝕋[S3x128x128, .f32]) (a10 a11 a12 : 𝕋[S3x128, .f32]) :
    toMat (refLayer0 (F := Ideal) h a1 a2 a3 a4 a5 a6 a7 a8 a9 a10 a11 a12)
      = layerR (1 + a4 (ix1 0)) (toMat h)
          (Cert.Spec.agg (toMat h) (fun p => a1 (ix1 p)) (fun p => a2 (ix1 p)) (fun p => a3 (ix1 p)))
          (fun k j => a5 (ix3 0 k j)) (fun j => a6 (ix2 0 j)) (fun j => a7 (ix2 0 j)) (fun j => a8 (ix2 0 j))
          (fun k j => a9 (ix3 0 k j)) (fun j => a10 (ix2 0 j)) (fun j => a11 (ix2 0 j)) (fun j => a12 (ix2 0 j)) := by
  unfold refLayer0
  rw [refLayer_read, scalarAt_apply a4 0 _ 0 rfl, toWt_matAt a5 0 _ 0 rfl, toWt_matAt a9 0 _ 0 rfl,
    rowAt_fun a6 0 _ 0 rfl, rowAt_fun a7 0 _ 0 rfl, rowAt_fun a8 0 _ 0 rfl,
    rowAt_fun a10 0 _ 0 rfl, rowAt_fun a11 0 _ 0 rfl, rowAt_fun a12 0 _ 0 rfl]

/-- Layer 1 of the reference is the layer function on row 1 of each parameter array. -/
theorem refLayer1_read (h : 𝕋[S40000x128, .f32]) (a1 a2 : 𝕋[S640000, .i32]) (a3 : 𝕋[S640000, .f32]) (a4 : 𝕋[S3, .f32])
    (a5 : 𝕋[S3x128x128, .f32]) (a6 a7 a8 : 𝕋[S3x128, .f32]) (a9 : 𝕋[S3x128x128, .f32]) (a10 a11 a12 : 𝕋[S3x128, .f32]) :
    toMat (refLayer1 (F := Ideal) h a1 a2 a3 a4 a5 a6 a7 a8 a9 a10 a11 a12)
      = layerR (1 + a4 (ix1 1)) (toMat h)
          (Cert.Spec.agg (toMat h) (fun p => a1 (ix1 p)) (fun p => a2 (ix1 p)) (fun p => a3 (ix1 p)))
          (fun k j => a5 (ix3 1 k j)) (fun j => a6 (ix2 1 j)) (fun j => a7 (ix2 1 j)) (fun j => a8 (ix2 1 j))
          (fun k j => a9 (ix3 1 k j)) (fun j => a10 (ix2 1 j)) (fun j => a11 (ix2 1 j)) (fun j => a12 (ix2 1 j)) := by
  unfold refLayer1
  rw [refLayer_read, scalarAt_apply a4 1 _ 1 rfl, toWt_matAt a5 1 _ 1 rfl, toWt_matAt a9 1 _ 1 rfl,
    rowAt_fun a6 1 _ 1 rfl, rowAt_fun a7 1 _ 1 rfl, rowAt_fun a8 1 _ 1 rfl,
    rowAt_fun a10 1 _ 1 rfl, rowAt_fun a11 1 _ 1 rfl, rowAt_fun a12 1 _ 1 rfl]

/-- Layer 2 of the reference is the layer function on row 2 of each parameter array. -/
theorem refLayer2_read (h : 𝕋[S40000x128, .f32]) (a1 a2 : 𝕋[S640000, .i32]) (a3 : 𝕋[S640000, .f32]) (a4 : 𝕋[S3, .f32])
    (a5 : 𝕋[S3x128x128, .f32]) (a6 a7 a8 : 𝕋[S3x128, .f32]) (a9 : 𝕋[S3x128x128, .f32]) (a10 a11 a12 : 𝕋[S3x128, .f32]) :
    toMat (refLayer2 (F := Ideal) h a1 a2 a3 a4 a5 a6 a7 a8 a9 a10 a11 a12)
      = layerR (1 + a4 (ix1 2)) (toMat h)
          (Cert.Spec.agg (toMat h) (fun p => a1 (ix1 p)) (fun p => a2 (ix1 p)) (fun p => a3 (ix1 p)))
          (fun k j => a5 (ix3 2 k j)) (fun j => a6 (ix2 2 j)) (fun j => a7 (ix2 2 j)) (fun j => a8 (ix2 2 j))
          (fun k j => a9 (ix3 2 k j)) (fun j => a10 (ix2 2 j)) (fun j => a11 (ix2 2 j)) (fun j => a12 (ix2 2 j)) := by
  unfold refLayer2
  rw [refLayer_read, scalarAt_apply a4 2 _ 2 rfl, toWt_matAt a5 2 _ 2 rfl, toWt_matAt a9 2 _ 2 rfl,
    rowAt_fun a6 2 _ 2 rfl, rowAt_fun a7 2 _ 2 rfl, rowAt_fun a8 2 _ 2 rfl,
    rowAt_fun a10 2 _ 2 rfl, rowAt_fun a11 2 _ 2 rfl, rowAt_fun a12 2 _ 2 rfl]

end Cert.ReferenceIdeal.Hand

end
-- ==== Proof.Ref.Read.lean ====
import proofs.«110361_j29403346109051_2_alg».proof.Proof.Ref.ReadLayer
-- ==== Proof.Finite.lean ====
/- Finiteness of the float inputs, read back from the precondition. The precondition computes, for each float
   argument, the conjunction over all entries x of the comparison |x| < +∞, and the conjunction of these eleven
   bits. Over the extended reals, |x| = max x (-x) is below +∞ exactly when x is neither infinity, that is, when x
   is (the image of) a real number. So a precondition that is 1 makes every entry of every float argument real. -/
import proofs.«110361_j29403346109051_2_alg».proof.Pre_finite_inputs
import proofs.«110361_j29403346109051_2_alg».proof.Proof.Gen.Pre_finite_inputs
import proofs.«110361_j29403346109051_2_alg».proof.Proof.LibStats
import Idealize.ShloMosaic.Lib.ReduceAll
import Idealize.ShloMosaic.Lib.ValueIdx

namespace Cert.Proof.Finite

open Idealize.ShloMosaic Cert.Pre_finite_inputs

/-- The result shape of a reduction over all axes has one index. -/
instance : Subsingleton S_.Idx := ⟨fun a b => funext fun d => d.elim0⟩

/-- The word with all exponent bits set and no fraction bit denotes +∞. -/
theorem inf_word : Ideal.ofBits .f32 0x7F800000#32 = (⊤ : EReal) := by
  simp [Ideal.ofBits, Ideal.ieee]

/-- An extended real whose absolute value compares below +∞ is a real number: both infinities have absolute value +∞. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : Cert.Lib.IsReal x := by
  have h' : BitVec.ofBool (decide (max x (-x) < Ideal.ofBits .f32 0x7F800000#32)) = 1#1 := h
  rw [inf_word] at h'
  have hlt : max x (-x) < (⊤ : EReal) := by
    by_contra hn
    rw [decide_eq_false hn] at h'
    exact absurd h' (by decide)
  induction x using EReal.rec with
  | bot => simp at hlt
  | coe r => exact ⟨r, rfl⟩
  | top => simp at hlt

/-- If the conjunction over all entries of an array of the comparison |x| < +∞ is 1, every entry is real. -/
theorem all_real {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .olt (Host.absf x) (broadcastInDim s ![] bc (constant (F := Ideal) S_ .f32 0x7F800000#32)))
        (constantI S_ 1 1#1) hr hu ValueIdx.ix0 = 1#1) (i : s.Idx) : Cert.Lib.IsReal (x i) :=
  real_of_abs_lt (x i) (Host.reduce_andi_all _ _ hr hu _ e i)

/-- A conjunction of two one-bit arrays that is 1 at an index has both at 1 there. -/
theorem and_split {s : Shape} (p q : IVec s 1) (i : s.Idx) (h : andi p q i = 1#1) : p i = 1#1 ∧ q i = 1#1 :=
  IntOp.andi_eq_one.1 h

/-- Under the precondition every entry of every float argument is a real number. -/
theorem real_of_pre [hP : Cert.Pre_finite_inputs.Facts] (a0 : FVec Ideal S40000x128 .f32) (a1 a2 : IVec S640000 32)
    (a3 : FVec Ideal S640000 .f32) (a4 : FVec Ideal S3 .f32) (a5 : FVec Ideal S3x128x128 .f32)
    (a6 a7 a8 : FVec Ideal S3x128 .f32) (a9 : FVec Ideal S3x128x128 .f32) (a10 a11 a12 : FVec Ideal S3x128 .f32)
    (h : Cert.Pre_finite_inputs.fn (F := Ideal) a0 a1 a2 a3 a4 a5 a6 a7 a8 a9 a10 a11 a12 = (fun _ => 1#1)) :
    (∀ i, Cert.Lib.IsReal (a0 i)) ∧ (∀ i, Cert.Lib.IsReal (a3 i)) ∧ (∀ i, Cert.Lib.IsReal (a4 i)) ∧
    (∀ i, Cert.Lib.IsReal (a5 i)) ∧ (∀ i, Cert.Lib.IsReal (a6 i)) ∧ (∀ i, Cert.Lib.IsReal (a7 i)) ∧
    (∀ i, Cert.Lib.IsReal (a8 i)) ∧ (∀ i, Cert.Lib.IsReal (a9 i)) ∧ (∀ i, Cert.Lib.IsReal (a10 i)) ∧
    (∀ i, Cert.Lib.IsReal (a11 i)) ∧ (∀ i, Cert.Lib.IsReal (a12 i)) := by
  have h0 := congrFun h ValueIdx.ix0
  dsimp only [fn, fn_part1, fn_part2, fn_part3] at h0
  obtain ⟨h0, h12⟩ := and_split _ _ _ h0
  obtain ⟨h0, h11⟩ := and_split _ _ _ h0
  obtain ⟨h0, h10⟩ := and_split _ _ _ h0
  obtain ⟨h0, h9⟩ := and_split _ _ _ h0
  obtain ⟨h0, h8⟩ := and_split _ _ _ h0
  obtain ⟨h0, h7⟩ := and_split _ _ _ h0
  obtain ⟨h0, h6⟩ := and_split _ _ _ h0
  obtain ⟨h0, h5⟩ := and_split _ _ _ h0
  obtain ⟨h0, h4⟩ := and_split _ _ _ h0
  obtain ⟨h0, h3⟩ := and_split _ _ _ h0
  exact ⟨all_real a0 _ _ _ h0, all_real a3 _ _ _ h3, all_real a4 _ _ _ h4, all_real a5 _ _ _ h5,
    all_real a6 _ _ _ h6, all_real a7 _ _ _ h7, all_real a8 _ _ _ h8, all_real a9 _ _ _ h9,
    all_real a10 _ _ _ h10, all_real a11 _ _ _ h11, all_real a12 _ _ _ h12⟩

end Cert.Proof.Finite
-- ==== Proof.Bridge.lean ====
/-
  The two idealised programs compute the same array.  The reference's result is the three layers of the network with
  every column variance taken as the mean squared deviation; the kernel program's result is the three layers with the
  variance taken as mean of squares minus square of mean, clamped at 0.  On finite inputs every entry met on the way is a
  real number and the two arrangements give the same numbers, so the results agree entry by entry.
-/
import proofs.«110361_j29403346109051_2_alg».proof.Defs
import proofs.«110361_j29403346109051_2_alg».proof.Proof.Gen.KernelIdeal
import proofs.«110361_j29403346109051_2_alg».proof.Proof.Gen.ReferenceIdeal
import proofs.«110361_j29403346109051_2_alg».proof.Proof.Gen.Pre_finite_inputs
import proofs.«110361_j29403346109051_2_alg».proof.Proof.KI.Run
import proofs.«110361_j29403346109051_2_alg».proof.Proof.KI.ChainRun
import proofs.«110361_j29403346109051_2_alg».proof.Proof.Ref.Run
import proofs.«110361_j29403346109051_2_alg».proof.Proof.Ref.Read
import proofs.«110361_j29403346109051_2_alg».proof.Proof.Net
import proofs.«110361_j29403346109051_2_alg».proof.Proof.Finite

noncomputable section

namespace Cert.Proof.Bridge

open Idealize.ShloMosaic Idealize.ShloMosaic.TcCoe Idealize.SL.Sem Idealize.ShloMosaic.ValueIdx Cert.Spec

/-- The contents of a tensor value of shape `s` and element type `e`, at the extended reals. -/
local notation "𝕋[" s ", " e "]" => BufTy.Contents (Elt Ideal) (⟨s, e⟩ : BufTy)

/-- An array of 40000 × 128 entries is determined by its matrix of entries. -/
theorem eq_of_toMat {A B : (⟨2, ![40000, 128]⟩ : Shape).Idx → EReal} (h : toMat A = toMat B) : A = B := by
  funext i
  rw [eq_ix2 i]
  exact congrFun (congrFun h (i 0)) (i 1)

/-- The idealised kernel program runs and leaves its arguments as they were. -/
theorem frame_ki : Cert.frame_KernelIdeal (hKernelIdeal := Cert.KernelIdeal.Gen.facts)
    (hPre_finite_inputs := Cert.Pre_finite_inputs.Gen.facts) :=
  fun m ρ _ => (θ_run Cert.KernelIdeal.defs _ _).mono (fun _ h c => (h c).2) (Cert.KernelIdeal.Hand.run_main (F := Ideal) m ρ)

/-- The idealised reference program runs and leaves its arguments as they were. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- The reference's result is the three layers of the network, statistics in the second arrangement, applied to its
    first argument. -/
theorem reference_value (a0 : 𝕋[Cert.ReferenceIdeal.S40000x128, .f32]) (a1 a2 : 𝕋[Cert.ReferenceIdeal.S640000, .i32]) (a3 : 𝕋[Cert.ReferenceIdeal.S640000, .f32]) (a4 : 𝕋[Cert.ReferenceIdeal.S3, .f32])
    (a5 : 𝕋[Cert.ReferenceIdeal.S3x128x128, .f32]) (a6 a7 a8 : 𝕋[Cert.ReferenceIdeal.S3x128, .f32]) (a9 : 𝕋[Cert.ReferenceIdeal.S3x128x128, .f32]) (a10 a11 a12 : 𝕋[Cert.ReferenceIdeal.S3x128, .f32]) :
    toMat (Cert.ReferenceIdeal.Hand.refVal (F := Ideal) a0 a1 a2 a3 a4 a5 a6 a7 a8 a9 a10 a11 a12)
      = stepR 2 a1 a2 a3 a4 a5 a6 a7 a8 a9 a10 a11 a12 (stepR 1 a1 a2 a3 a4 a5 a6 a7 a8 a9 a10 a11 a12 (stepR 0 a1 a2 a3 a4 a5 a6 a7 a8 a9 a10 a11 a12 (toMat a0))) := by
  unfold Cert.ReferenceIdeal.Hand.refVal
  rw [Cert.ReferenceIdeal.Hand.refLayer2_read, Cert.ReferenceIdeal.Hand.refLayer1_read,
    Cert.ReferenceIdeal.Hand.refLayer0_read]
  rfl

/-- On finite inputs the reference's result and the kernel program's result are the same array: both are the three
    layers applied to the first argument, and on real inputs the two arrangements of the statistics agree. -/
theorem value_eq (m : (ℓ : Loc Cert.KernelIdeal.nD Cert.KernelIdeal.τ Cert.KernelIdeal.sig) → Buf (Elt Ideal) ℓ) (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = (fun _ => 1#1)) :
    Cert.ReferenceIdeal.Hand.refVal (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      = Cert.KernelIdeal.Gen.V15 m (Cert.KernelIdeal.Hand.outs m) c Cert.KernelIdeal.main_v125 := by
  obtain ⟨r0, r3, r4, r5, r6, r7, r8, r9, r10, r11, r12⟩ := Cert.Proof.Finite.real_of_pre _ _ _ _ _ _ _ _ _ _ _ _ _ hp
  refine eq_of_toMat ?_
  refine (reference_value _ _ _ _ _ _ _ _ _ _ _ _ _).trans ?_
  refine (Cert.Spec.net_eq _ _ _ _ _ _ _ _ _ _ _ _ r3 r4 r5 r6 r7 r8 r9 r10 r11 r12 _ (fun r k => r0 (ix2 r k))).symm.trans ?_
  exact (Cert.KernelIdeal.Hand.kernel_value m c).symm

/-- From memories that agree on the arguments, finite, both idealised programs run, leave their arguments as they were,
    and end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hag
  refine ⟨fun c => Cert.KernelIdeal.Gen.V15 m (Cert.KernelIdeal.Hand.outs m) c Cert.KernelIdeal.main_v125,
    Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12⟩ := hag c
  rw [e0, e1, e2, e3, e4, e5, e6, e7, e8, e9, e10, e11, e12]
  exact value_eq m c (hpre c)

end Cert.Proof.Bridge

end
-- ==== Proof.K.Base.lean ====
import proofs.«110361_j29403346109051_2_alg».proof.Proof.Gen.Kernel.Launch

noncomputable section

namespace Cert.Kernel.Hand

open Cert.Kernel
open Idealize.ShloMosaic Idealize.ShloMosaic.TcCoe

/-- The contents of every TensorCore buffer on every core at the moment a region is entered. -/
abbrev EntryVal (F : FTy → Type) : Type :=
  (c : Dev nD) → (b : Ref sig .tc) → Buf (Elt F) ((c : Thread nD τ).loc b)

end Cert.Kernel.Hand

end
-- ==== Proof.K.Reg0.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The frame of kernel region 0: the affine map of the combined rows, block by block, with its column statistics

The kernel runs over 8 row blocks. At each point it stores the block's affine image and adds the block's column
sums and column sums of squares to two running sums it carries between the points in two scratch buffers, which it
resets at the first point; at the last point it stores the mean and the clamped variance computed from the two
running sums. The proof data names what the two scratch buffers hold before each point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinate -/

/-- The condition of the first `scf.if` (the grid coordinate is 0), as the kernel's scalar chain computes it. -/
abbrev condA0 (i : grid0.Coords) : Prop := (Scalar.cmpi .ne (Scalar.extui (Scalar.cmpi .eq (BitVec.ofNat 32 (i 0).val) 0#32)) 0#32) = 1#1
/-- The condition of the second `scf.if` (the grid coordinate is 7). -/
abbrev condB0 (i : grid0.Coords) : Prop := k0_cond2 i = 1#1

/-! ## The rectangles of the body's accesses and what a whole-buffer access reads and leaves -/

theorem zz0 : (![0, 0] : Fin 2 → Nat) = fun _ => 0 := by funext a; fin_cases a <;> rfl

abbrev rBlk0 : Rect S5000x128 := Rect.unit (s := S5000x128) ![0, 0] S5000x128.size inb_S5000x128_S5000x128_0_0
abbrev rRow0 : Rect S1x128 := Rect.unit (s := S1x128) ![0, 0] S1x128.size inb_S1x128_S1x128_0_0
abbrev rOne0 : Rect S1x1 := Rect.unit (s := S1x1) ![0, 0] S1x1.size inb_S1x1_S1x1_0_0
abbrev rWt0 : Rect S128x128 := Rect.unit (s := S128x128) ![0, 0] S128x128.size inb_S128x128_S128x128_0_0
abbrev rSt0_0 : Rect S2x128 := Rect.unit (s := S2x128) ![0, 0] S1x128.size inb_S2x128_S1x128_0_0
abbrev rSt0_1 : Rect S2x128 := Rect.unit (s := S2x128) ![1, 0] S1x128.size inb_S2x128_S1x128_1_0

/-- A load through the whole buffer reads its contents. -/
theorem ldBlk0 (X : Vec F S5000x128 .f32) : View.ld X rBlk0 = X := View.ld_unit_zero zz0 _ X
theorem ldRow0 (X : Vec F S1x128 .f32) : View.ld X rRow0 = X := View.ld_unit_zero zz0 _ X
theorem ldOne0 (X : Vec F S1x1 .f32) : View.ld X rOne0 = X := View.ld_unit_zero zz0 _ X
theorem ldWt0 (X : Vec F S128x128 .f32) : View.ld X rWt0 = X := View.ld_unit_zero zz0 _ X

/-! ## What the body leaves, from what it reads -/

/-- The output block: the affine map of the combined input rows. -/
def yOut0 (x0 x1 : Vec F S5000x128 .f32) (x2 : Vec F S1x1 .f32) (x3 : Vec F S128x128 .f32) (x4 : Vec F S1x128 .f32) : Vec F S5000x128 .f32 :=
  k0_pay6 (View.ld x2 rOne0) (View.ld x0 rBlk0) (View.ld x1 rBlk0) (View.ld x3 rWt0) (View.ld x4 rRow0)
/-- The running column sums after the block is added to `s`. -/
def sOut0 (x0 x1 : Vec F S5000x128 .f32) (x2 : Vec F S1x1 .f32) (x3 : Vec F S128x128 .f32) (x4 : Vec F S1x128 .f32) (s : Vec F S1x128 .f32) : Vec F S1x128 .f32 :=
  k0_pay7 (View.ld x2 rOne0) (View.ld x0 rBlk0) (View.ld x1 rBlk0) (View.ld x3 rWt0) (View.ld x4 rRow0) (View.ld s rRow0)
/-- The running column sums of squares after the block's squares are added to `q`. -/
def qOut0 (x0 x1 : Vec F S5000x128 .f32) (x2 : Vec F S1x1 .f32) (x3 : Vec F S128x128 .f32) (x4 : Vec F S1x128 .f32) (q : Vec F S1x128 .f32) : Vec F S1x128 .f32 :=
  k0_pay1 (k0_pay8 (View.ld x2 rOne0) (View.ld x0 rBlk0) (View.ld x1 rBlk0) (View.ld x3 rWt0) (View.ld x4 rRow0) (View.ld q rRow0))
/-- The statistics block from the two running sums: row 0 the mean, row 1 the clamped variance (the two row stores, last first). -/
def stOut0 (s q : Vec F S1x128 .f32) : Vec F S2x128 .f32 :=
  View.canon [⟨rSt0_1, k0_pay3 (View.ld s rRow0) (View.ld q rRow0)⟩, ⟨rSt0_0, k0_pay2 (View.ld s rRow0)⟩]

theorem yOut0_eq (x0 x1 : Vec F S5000x128 .f32) (x2 : Vec F S1x1 .f32) (x3 : Vec F S128x128 .f32) (x4 : Vec F S1x128 .f32) :
    yOut0 x0 x1 x2 x3 x4 = k0_pay6 x2 x0 x1 x3 x4 := by
  unfold yOut0; rw [ldOne0, ldBlk0, ldBlk0, ldWt0, ldRow0]
theorem sOut0_eq (x0 x1 : Vec F S5000x128 .f32) (x2 : Vec F S1x1 .f32) (x3 : Vec F S128x128 .f32) (x4 : Vec F S1x128 .f32) (s : Vec F S1x128 .f32) :
    sOut0 x0 x1 x2 x3 x4 s = k0_pay7 x2 x0 x1 x3 x4 s := by
  unfold sOut0; rw [ldOne0, ldBlk0, ldBlk0, ldWt0, ldRow0, ldRow0]
theorem qOut0_eq (x0 x1 : Vec F S5000x128 .f32) (x2 : Vec F S1x1 .f32) (x3 : Vec F S128x128 .f32) (x4 : Vec F S1x128 .f32) (q : Vec F S1x128 .f32) :
    qOut0 x0 x1 x2 x3 x4 q = k0_pay1 (k0_pay8 x2 x0 x1 x3 x4 q) := by
  unfold qOut0; rw [ldOne0, ldBlk0, ldBlk0, ldWt0, ldRow0, ldRow0]
theorem stOut0_eq (s q : Vec F S1x128 .f32) :
    stOut0 s q = View.canon [⟨rSt0_1, k0_pay3 s q⟩, ⟨rSt0_0, k0_pay2 s⟩] := by
  unfold stOut0; rw [ldRow0, ldRow0]

/-- The two row stores cover the statistics block. -/
theorem coverSt0 (p1 p0 : Vec F S1x128 .f32) (y : S2x128.Idx) :
    ∃ pc ∈ ([⟨rSt0_1, p1⟩, ⟨rSt0_0, p0⟩] : List (View.Piece (Elt F) S2x128 .f32)), y ∈ pc.1.set :=
  View.cover_of_tiled [⟨rSt0_1, p1⟩, ⟨rSt0_0, p0⟩] S1x128.size (by rfl) y

/-- One store through the whole buffer leaves its payload, whatever the buffer held. -/
theorem wrBlk0 {κ : Kind} {sp : Space} (v : View sig κ sp S5000x128 .f32) (f : v.ty.Contents (Elt F)) (w : Vec F S5000x128 .f32) :
    v.read (Elt F) (v.writes (Elt F) f [⟨rBlk0, w⟩]) = w :=
  (View.read_writes_eq_canon v f _ (View.cover_of_tiled [⟨rBlk0, w⟩] S5000x128.size (by rfl))).trans (View.canon_unit_zero zz0 _ w)
theorem wrRow0 {κ : Kind} {sp : Space} (v : View sig κ sp S1x128 .f32) (f : v.ty.Contents (Elt F)) (w : Vec F S1x128 .f32) :
    v.read (Elt F) (v.writes (Elt F) f [⟨rRow0, w⟩]) = w :=
  (View.read_writes_eq_canon v f _ (View.cover_of_tiled [⟨rRow0, w⟩] S1x128.size (by rfl))).trans (View.canon_unit_zero zz0 _ w)
/-- Two stores through the whole buffer leave the later payload. -/
theorem wrRowTwo0 {κ : Kind} {sp : Space} (v : View sig κ sp S1x128 .f32) (f : v.ty.Contents (Elt F)) (w w' : Vec F S1x128 .f32) :
    v.read (Elt F) (v.writes (Elt F) f [⟨rRow0, w⟩, ⟨rRow0, w'⟩]) = w :=
  (View.read_writes_eq_canon v f _ (fun y => by
    obtain ⟨p, hp, hy⟩ := View.cover_of_tiled [(⟨rRow0, w⟩ : View.Piece (Elt F) S1x128 .f32)] S1x128.size (by rfl) y
    exact ⟨p, List.mem_cons.mpr (Or.inl (List.mem_singleton.mp hp)), hy⟩)).trans (View.canon_cons_unit_zero zz0 _ w _)
/-- A load through the whole buffer after one store through it reads the payload. -/
theorem rcRow0 {κ : Kind} {sp : Space} (v : View sig κ sp S1x128 .f32) (w : Vec F S1x128 .f32) :
    v.readCov [(⟨rRow0, w⟩ : View.Piece (Elt F) S1x128 .f32)] rRow0.toLoadRect = View.ld w rRow0 :=
  (View.readCov_unit_zero v zz0 _ w).trans (ldRow0 w).symm

/-- A store through the whole buffer, LAST, leaves its payload whatever the earlier stores were. -/
theorem wrRowCons0 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow0, w⟩ :: L)) = w :=
  (View.read_writes_eq_canon v f _ (fun y => by
    obtain ⟨p, hp, hy⟩ := View.cover_of_tiled [(⟨rRow0, w⟩ : View.Piece (Elt F) S1x128 .f32)] S1x128.size (by rfl) y
    exact ⟨p, List.mem_cons.mpr (Or.inl (List.mem_singleton.mp hp)), hy⟩)).trans (View.canon_cons_unit_zero zz0 _ w L)

/-! ## The windows' blocks -/

/-- Window `w`'s block at point `t`, read off its array as the region finds it (`V`). -/
def iblk0 (V : EntryVal F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five input blocks at point `t`, at their literal vector types. -/
def xb0_0 (V : EntryVal F) (c : Dev nD) (t : Fin cfg0.N) : Vec F S5000x128 .f32 := iblk0 V c 0 t
def xb0_1 (V : EntryVal F) (c : Dev nD) (t : Fin cfg0.N) : Vec F S5000x128 .f32 := iblk0 V c 1 t
def xb0_2 (V : EntryVal F) (c : Dev nD) (t : Fin cfg0.N) : Vec F S1x1 .f32 := iblk0 V c 2 t
def xb0_3 (V : EntryVal F) (c : Dev nD) (t : Fin cfg0.N) : Vec F S128x128 .f32 := iblk0 V c 3 t
def xb0_4 (V : EntryVal F) (c : Dev nD) (t : Fin cfg0.N) : Vec F S1x128 .f32 := iblk0 V c 4 t

/-! ## The two running sums, point by point -/

/-- What the two scratch buffers hold BEFORE the accumulation at position `n`: zeros at the first point (the body
    resets them there), afterwards what the point before left. -/
def SQ0 (V : EntryVal F) (c : Dev nD) : ℕ → Vec F S1x128 .f32 × Vec F S1x128 .f32
  | 0 => (k0_pay4, k0_pay5)
  | n + 1 =>
    if h : n < cfg0.N then
      (sOut0 (xb0_0 V c ⟨n, h⟩) (xb0_1 V c ⟨n, h⟩) (xb0_2 V c ⟨n, h⟩) (xb0_3 V c ⟨n, h⟩) (xb0_4 V c ⟨n, h⟩) (SQ0 V c n).1,
       qOut0 (xb0_0 V c ⟨n, h⟩) (xb0_1 V c ⟨n, h⟩) (xb0_2 V c ⟨n, h⟩) (xb0_3 V c ⟨n, h⟩) (xb0_4 V c ⟨n, h⟩) (SQ0 V c n).2)
    else SQ0 V c n

theorem SQ0_zero (V : EntryVal F) (c : Dev nD) : SQ0 V c 0 = (k0_pay4, k0_pay5) := rfl

theorem SQ0_succ (V : EntryVal F) (c : Dev nD) (t : Fin cfg0.N) :
    SQ0 V c (t.val + 1) =
      (sOut0 (xb0_0 V c t) (xb0_1 V c t) (xb0_2 V c t) (xb0_3 V c t) (xb0_4 V c t) (SQ0 V c t.val).1,
       qOut0 (xb0_0 V c t) (xb0_1 V c t) (xb0_2 V c t) (xb0_3 V c t) (xb0_4 V c t) (SQ0 V c t.val).2) := by
  rw [SQ0, dif_pos t.isLt]

/-! ## The invariant -/

abbrev scr0_0 : Memref sig .tc .vmem S1x128 .f32 := Memref.whole cc0_scratch0
abbrev scr0_1 : Memref sig .tc .vmem S1x128 .f32 := Memref.whole cc0_scratch1

/-- The region invariant before position `n`: before the first point the generator register and the scoped rest
    (the two scratch buffers at anything); afterwards the two scratch buffers at the running sums and the scoped rest
    without them. -/
def Phi0 (V : EntryVal F) (c : Dev nD) : ℕ → sProp 𝕄
  | 0 => iprop((∃ r, prngReg c r) ∗ Pipeline.scopedRest (Ix := Unit) (Name := ℕ) (U := UR sig nD τ) (Lvl := ℕ) (Val := Elt F) spec0 c)
  | n + 1 => iprop((∃ r, prngReg c r)
      ∗ iprop(owns (c : Thread nD τ) scr0_0 fullShare (SQ0 V c (n + 1)).1 ∗ owns (c : Thread nD τ) scr0_1 fullShare (SQ0 V c (n + 1)).2)
      ∗ Pipeline.scopedRestBut (Ix := Unit) (Name := ℕ) (U := UR sig nD τ) (Lvl := ℕ) (Val := Elt F) spec0 c [cc0_scratch0, cc0_scratch1])

theorem Phi0_zero (V : EntryVal F) (c : Dev nD) :
    Phi0 V c 0 = iprop((∃ r, prngReg c r) ∗ Pipeline.scopedRest (Ix := Unit) (Name := ℕ) (U := UR sig nD τ) (Lvl := ℕ) (Val := Elt F) spec0 c) := rfl

theorem Phi0_succ (V : EntryVal F) (c : Dev nD) (n : ℕ) :
    Phi0 V c (n + 1) = iprop((∃ r, prngReg c r)
      ∗ iprop(owns (c : Thread nD τ) scr0_0 fullShare (SQ0 V c (n + 1)).1 ∗ owns (c : Thread nD τ) scr0_1 fullShare (SQ0 V c (n + 1)).2)
      ∗ Pipeline.scopedRestBut (Ix := Unit) (Name := ℕ) (U := UR sig nD τ) (Lvl := ℕ) (Val := Elt F) spec0 c [cc0_scratch0, cc0_scratch1]) := rfl

/-- The scoped rest with the two scratch operands as memrefs owned at some contents. -/
theorem scopedRest0_owns (c : Dev nD) :
    (Pipeline.scopedRest (Ix := Unit) (Name := ℕ) (U := UR sig nD τ) (Lvl := ℕ) (Val := Elt F) spec0 c : sProp 𝕄)
      = iprop(iprop((∃ d, owns (c : Thread nD τ) scr0_0 fullShare d) ∗ (∃ d, owns (c : Thread nD τ) scr0_1 fullShare d))
          ∗ Pipeline.scopedRestBut (Ix := Unit) (Name := ℕ) (U := UR sig nD τ) (Lvl := ℕ) (Val := Elt F) spec0 c [cc0_scratch0, cc0_scratch1]) := by
  rw [scopedRest0_split]; simp only [scr0_0, scr0_1, owns_whole]; try rfl

/-! ## The pipeline's proof data -/

/-- Region 0's proof data on core `c`, at the contents `V` the region is entered with: the arrays as the region
    finds them; after the body at point `t` each input's buffer at its block, the output block at the affine map of
    the input blocks, the statistics block at the statistics of the two running sums after the point; the invariant
    carries the two running sums; nothing owed; full shares. -/
def dat0 (V : EntryVal F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => yOut0 (xb0_0 V c t) (xb0_1 V c t) (xb0_2 V c t) (xb0_3 V c t) (xb0_4 V c t)
    | ⟨6, _⟩ => stOut0 (SQ0 V c (t.val + 1)).1 (SQ0 V c (t.val + 1)).2
  Φ t := Phi0 V c t.val
  q _ := fullShare
  owed _ := 0

theorem A_eq0 (V : EntryVal F) (c : Dev nD) (w : Fin cfg0.W) : (dat0 V c).A w = V c (Pipeline.arrRef spec0 w) := by
  dsimp only [dat0]

theorem q_eq0 (V : EntryVal F) (c : Dev nD) (w : Fin cfg0.W) : (dat0 V c).q w = fullShare := by
  dsimp only [dat0]

theorem owed_eq0 (V : EntryVal F) (c : Dev nD) (t : Fin (cfg0.N + 1)) : (dat0 V c).owed t = 0 := by
  dsimp only [dat0]

theorem Phi_eq0 (V : EntryVal F) (c : Dev nD) (t : Fin (cfg0.N + 1)) : (dat0 V c).Φ t = Phi0 V c t.val := by
  dsimp only [dat0]

/-- What the launch hands the region is the invariant before the first point. -/
theorem hin0 (V : EntryVal F) (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [Phi_eq0, Fin.val_zero, Phi0_zero]

/-- After the last point the invariant gives it back: the running sums' named contents are forgotten. -/
theorem hout0 (V : EntryVal F) (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [Phi_eq0, Fin.val_last, show cfg0.N = 7 + 1 from N_0, Phi0_succ, scopedRest0_owns]
  iintro ⟨Hg, ⟨HS0, HS1⟩, Hr⟩
  isplitl [Hg]; · iexact Hg
  isplitr [Hr]
  · isplitl [HS0]
    · iexists _; iexact HS0
    · iexists _; iexact HS1
  · iexact Hr

/-! ## The conditions and the schedule, decided over the grid -/

/-- The first condition holds at the first point only. -/
theorem hcondA0 : ∀ t : Fin cfg0.N, condA0 (grid0.coords t) ↔ t.val % 8 = 0 :=
  (by decide +kernel : ∀ t : Fin grid0.N, condA0 (grid0.coords t) ↔ t.val % 8 = 0)
/-- The second condition holds at the last point only. -/
theorem hcondB0 : ∀ t : Fin cfg0.N, condB0 (grid0.coords t) ↔ t.val % 8 = 7 :=
  (by decide +kernel : ∀ t : Fin grid0.N, condB0 (grid0.coords t) ↔ t.val % 8 = 7)

/-- Windows 0–5 are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the second condition fails the statistics window is idle and not written back; where it holds, live. -/
theorem idleAt0_6 : ∀ t : Fin cfg0.N, ¬condB0 (grid0.coords t) → cfg0.idle 6 (grid0.coords t) = true := by decide +kernel
theorem noFlush0_6 : ∀ t : Fin cfg0.N, ¬condB0 (grid0.coords t) → (cfg0.win 6).flush t = false := by decide +kernel
theorem liveAt0_6 : ∀ t : Fin cfg0.N, condB0 (grid0.coords t) → cfg0.idle 6 (grid0.coords t) = false := by decide +kernel

/-- What the body leaves, window by window. -/
theorem after0_0 (V : EntryVal F) (c : Dev nD) (t : Fin cfg0.N) : (dat0 V c).after 0 t = iblk0 V c 0 t := by dsimp only [dat0]
theorem after0_1 (V : EntryVal F) (c : Dev nD) (t : Fin cfg0.N) : (dat0 V c).after 1 t = iblk0 V c 1 t := by dsimp only [dat0]
theorem after0_2 (V : EntryVal F) (c : Dev nD) (t : Fin cfg0.N) : (dat0 V c).after 2 t = iblk0 V c 2 t := by dsimp only [dat0]
theorem after0_3 (V : EntryVal F) (c : Dev nD) (t : Fin cfg0.N) : (dat0 V c).after 3 t = iblk0 V c 3 t := by dsimp only [dat0]
theorem after0_4 (V : EntryVal F) (c : Dev nD) (t : Fin cfg0.N) : (dat0 V c).after 4 t = iblk0 V c 4 t := by dsimp only [dat0]
theorem after0_5 (V : EntryVal F) (c : Dev nD) (t : Fin cfg0.N) :
    (dat0 V c).after 5 t = yOut0 (xb0_0 V c t) (xb0_1 V c t) (xb0_2 V c t) (xb0_3 V c t) (xb0_4 V c t) := by dsimp only [dat0]
theorem after0_6 (V : EntryVal F) (c : Dev nD) (t : Fin cfg0.N) :
    (dat0 V c).after 6 t = stOut0 (SQ0 V c (t.val + 1)).1 (SQ0 V c (t.val + 1)).2 := by dsimp only [dat0]

/-- Each input's current staging buffer holds its block at every point, fetched there or not: an input window of a body
    that leaves its block in place, uncut and never idle. -/
theorem before0_0 (V : EntryVal F) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (V : EntryVal F) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (V : EntryVal F) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (V : EntryVal F) (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (V : EntryVal F) (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

theorem SQ0_succ_fst (V : EntryVal F) (c : Dev nD) (t : Fin cfg0.N) :
    (SQ0 V c (t.val + 1)).1 = sOut0 (xb0_0 V c t) (xb0_1 V c t) (xb0_2 V c t) (xb0_3 V c t) (xb0_4 V c t) (SQ0 V c t.val).1 := by
  rw [SQ0_succ]
theorem SQ0_succ_snd (V : EntryVal F) (c : Dev nD) (t : Fin cfg0.N) :
    (SQ0 V c (t.val + 1)).2 = qOut0 (xb0_0 V c t) (xb0_1 V c t) (xb0_2 V c t) (xb0_3 V c t) (xb0_4 V c t) (SQ0 V c t.val).2 := by
  rw [SQ0_succ]

theorem Phi0_pos (V : EntryVal F) (c : Dev nD) (n : ℕ) (hn : n ≠ 0) :
    Phi0 V c n = iprop((∃ r, prngReg c r)
      ∗ iprop(owns (c : Thread nD τ) scr0_0 fullShare (SQ0 V c n).1 ∗ owns (c : Thread nD τ) scr0_1 fullShare (SQ0 V c n).2)
      ∗ Pipeline.scopedRestBut (Ix := Unit) (Name := ℕ) (U := UR sig nD τ) (Lvl := ℕ) (Val := Elt F) spec0 c [cc0_scratch0, cc0_scratch1]) := by
  cases n with
  | zero => exact absurd rfl hn
  | succ n => rfl

/-! ## The body's triple, case by case -/

set_option maxHeartbeats 1000000 in
/-- The body at a middle point (neither condition holds): the block is computed and stored, the two running sums are
    advanced; the statistics block is not touched. -/
theorem runMid0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA0 i) (hc2 : ¬condB0 i)
    (x0 x1 : Vec F S5000x128 .f32) (x2 : Vec F S1x1 .f32) (x3 : Vec F S128x128 .f32) (x4 : Vec F S1x128 .f32) (x6 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut0 x0 x1 x2 x3 x4) ∗ owns (c : Thread nD τ) arg7 fullShare x6 ∗ owns (c : Thread nD τ) arg8 fullShare (sOut0 x0 x1 x2 x3 x4 s) ∗ owns (c : Thread nD τ) arg9 fullShare (qOut0 x0 x1 x2 x3 x4 q)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf0; subst hf1; subst hf2; subst hf3; subst hf4; subst hf6; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk0 _ _ _).trans ?_
    rfl
  isplitl [H6]; · iexists f6; isplitr; · ipureintro; rfl
                  iexact H6
  isplitl [H7]
  · iexists _; isplitr
    swap; · iexact H7
    ipureintro
    refine (wrRow0 _ _ _).trans ?_
    rfl
  · iexists _; isplitr
    swap; · iexact H8
    ipureintro
    refine (wrRow0 _ _ _).trans ?_
    rfl

set_option maxHeartbeats 1000000 in
/-- The body at the first point: the two running sums are reset to zero, whatever they held, then as at a middle point. -/
theorem runFirst0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : condA0 i) (hc2 : ¬condB0 i)
    (x0 x1 : Vec F S5000x128 .f32) (x2 : Vec F S1x1 .f32) (x3 : Vec F S128x128 .f32) (x4 : Vec F S1x128 .f32) (x6 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut0 x0 x1 x2 x3 x4) ∗ owns (c : Thread nD τ) arg7 fullShare x6 ∗ owns (c : Thread nD τ) arg8 fullShare (sOut0 x0 x1 x2 x3 x4 k0_pay4) ∗ owns (c : Thread nD τ) arg9 fullShare (qOut0 x0 x1 x2 x3 x4 k0_pay5)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  subst hf0; subst hf1; subst hf2; subst hf3; subst hf4; subst hf6
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk0 _ _ _).trans ?_
    rfl
  isplitl [H6]; · iexists f6; isplitr; · ipureintro; rfl
                  iexact H6
  isplitl [H7]
  · iexists _; isplitr
    swap; · iexact H7
    ipureintro
    refine (wrRowCons0 _ _ _ _).trans ?_
    sl_unfold_run_names
    first | rfl | (rw [rcRow0]; rfl)
  · iexists _; isplitr
    swap; · iexact H8
    ipureintro
    refine (wrRowCons0 _ _ _ _).trans ?_
    sl_unfold_run_names
    first | rfl | (rw [rcRow0]; rfl)

set_option maxHeartbeats 1000000 in
/-- The body at the last point: as at a middle point, then the statistics are computed from the two running sums and
    stored as the two rows of the statistics block, whatever it held. -/
theorem runLast0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA0 i) (hc2 : condB0 i)
    (x0 x1 : Vec F S5000x128 .f32) (x2 : Vec F S1x1 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut0 x0 x1 x2 x3 x4) ∗ owns (c : Thread nD τ) arg7 fullShare (stOut0 (sOut0 x0 x1 x2 x3 x4 s) (qOut0 x0 x1 x2 x3 x4 q)) ∗ owns (c : Thread nD τ) arg8 fullShare (sOut0 x0 x1 x2 x3 x4 s) ∗ owns (c : Thread nD τ) arg9 fullShare (qOut0 x0 x1 x2 x3 x4 q)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk0 _ _ _).trans ?_
    rfl
  isplitl [H6]
  · iexists _; isplitr
    swap; · iexact H6
    ipureintro
    refine (View.read_writes_eq_canon _ _ _ (coverSt0 _ _)).trans ?_
    sl_unfold_run_names
    first | rfl | (rw [rcRow0, rcRow0]; rfl)
  isplitl [H7]
  · iexists _; isplitr
    swap; · iexact H7
    ipureintro
    refine (wrRow0 _ _ _).trans ?_
    rfl
  · iexists _; isplitr
    swap; · iexact H8
    ipureintro
    refine (wrRow0 _ _ _).trans ?_
    rfl

/-! ## The body obligation, at a generic point -/

/-- What the body is called with at point `t` (the body obligation's precondition, the windows one by one), -/
def bodyPre0 (V : EntryVal F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (V : EntryVal F) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point: the inputs' memrefs hold their blocks; the closed forms of the two conditions say which case
    the point is in; the invariant hands the body the two running sums at what the point before left (at anything at the
    first point) and takes them back advanced; the statistics window is handed back as found where it is idle, and at
    the statistics of the two running sums at the last point; the core owes nothing throughout. -/
theorem sound_body0 (V : EntryVal F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [Phi_eq0 V c t.succ, Phi_eq0 V c t.castSucc, Fin.val_succ, Fin.val_castSucc, Phi0_succ, SQ0_succ_fst, SQ0_succ_snd]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  have hN : t.val < 8 := lt_of_lt_of_eq t.isLt (show cfg0.N = 8 from N_0)
  by_cases h0 : t.val % 8 = 0
  · have hA : condA0 (grid0.coords t) := (hcondA0 t).mpr h0
    have hB : ¬condB0 (grid0.coords t) := fun h => by have := (hcondB0 t).mp h; omega
    have hz : t.val = 0 := by omega
    rw [Dat.leavesExact_idle (dat0 V c) 6 t (idleAt0_6 t hB) (noFlush0_6 t hB)]
    rw [hz, Phi0_zero, SQ0_zero, scopedRest0_owns]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (runFirst0 c Set.univ (grid0.coords t) _ _ _ _ _ _ _ _ _ _ _ _ _ _ _ _ _ _ hA hB (xb0_0 V c t) (xb0_1 V c t) (xb0_2 V c t) (xb0_3 V c t) (xb0_4 V c t) ((dat0 V c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, H5, H6, HS0, HS1⟩
    isplitl [Hg HS0 HS1 Hr]
    · isplitl [Hg]; · iexact Hg
      isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hA : ¬condA0 (grid0.coords t) := fun h => h0 ((hcondA0 t).mp h)
    have hz : t.val ≠ 0 := fun h => h0 (by rw [h])
    rw [Phi0_pos V c t.val hz]
    by_cases h7 : t.val % 8 = 7
    · have hB : condB0 (grid0.coords t) := (hcondB0 t).mpr h7
      rw [show (dat0 V c).leavesExact 6 t = owns (c : Thread nD τ) (st0_6 t) fullShare ((dat0 V c).after 6 t) from by
        unfold Dat.leavesExact; rw [liveAt0_6 t hB], after0_6, SQ0_succ_fst, SQ0_succ_snd]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runLast0 c Set.univ (grid0.coords t) _ _ _ _ _ _ _ _ _ _ _ _ _ _ _ _ _ _ hA hB (xb0_0 V c t) (xb0_1 V c t) (xb0_2 V c t) (xb0_3 V c t) (xb0_4 V c t) (SQ0 V c t.val).1 (SQ0 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hB : ¬condB0 (grid0.coords t) := fun h => h7 ((hcondB0 t).mp h)
      rw [Dat.leavesExact_idle (dat0 V c) 6 t (idleAt0_6 t hB) (noFlush0_6 t hB)]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runMid0 c Set.univ (grid0.coords t) _ _ _ _ _ _ _ _ _ _ _ _ _ _ _ _ _ _ hA hB (xb0_0 V c t) (xb0_1 V c t) (xb0_2 V c t) (xb0_3 V c t) (xb0_4 V c t) ((dat0 V c).before 6 t d6) (SQ0 V c t.val).1 (SQ0 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (V : EntryVal F) (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the second kernel of a layer (normalise, relu, linear, relu, column statistics) -/

/-! ## The windows' blocks -/

/-- Window `w`'s block at point `t`, read off its array as the region finds it (`V`). -/
def iblk1 (V : EntryVal F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev rA1 : Rect S5000x128 := Rect.unit (s := S5000x128) ![0, 0] S5000x128.size inb_S5000x128_S5000x128_0_0
abbrev rR1 : Rect S1x128 := Rect.unit (s := S1x128) ![0, 0] S1x128.size inb_S1x128_S1x128_0_0
abbrev rW1 : Rect S128x128 := Rect.unit (s := S128x128) ![0, 0] S128x128.size inb_S128x128_S128x128_0_0
abbrev rS1_0 : Rect S2x128 := Rect.unit (s := S2x128) ![0, 0] S1x128.size inb_S2x128_S1x128_0_0
abbrev rS1_1 : Rect S2x128 := Rect.unit (s := S2x128) ![1, 0] S1x128.size inb_S2x128_S1x128_1_0

/-- The scratch operands: whole scoped buffers of the kernel's own, passed beside the windows. -/
abbrev scM1_0 : Memref sig .tc .vmem S1x128 .f32 := Memref.whole cc1_scratch0
abbrev scM1_1 : Memref sig .tc .vmem S1x128 .f32 := Memref.whole cc1_scratch1

/-! ## What the body computes -/

/-- The block of the output the body stores at a point, from the input windows' blocks. -/
def blk1 (x0 : Vec F S5000x128 .f32) (x1 : Vec F S2x128 .f32) (x2 x3 : Vec F S1x128 .f32) (x4 : Vec F S128x128 .f32) (x5 : Vec F S1x128 .f32) : FVec F S5000x128 .f32 :=
  k1_pay7 (View.ld x1 rS1_0) (View.ld x1 rS1_1) (View.ld x2 rR1) (View.ld x0 rA1) (View.ld x3 rR1) (View.ld x4 rW1) (View.ld x5 rR1)

/-- The running column sums after a point, from the block stored there and what they were before. -/
def sumStep1 (y : FVec F S5000x128 .f32) (s : Vec F S1x128 .f32) : Vec F S1x128 .f32 :=
  View.canon [⟨rR1, k1_pay1 y (View.ld s rR1)⟩]

/-- The running column sums of squares after a point. -/
def sqStep1 (y : FVec F S5000x128 .f32) (s : Vec F S1x128 .f32) : Vec F S1x128 .f32 :=
  View.canon [⟨rR1, k1_pay2 y (View.ld s rR1)⟩]

/-- What the first point resets the two accumulators to. -/
def sum0_1 : Vec F S1x128 .f32 := View.canon [⟨rR1, k1_pay5 (F := F)⟩]
def sq0_1 : Vec F S1x128 .f32 := View.canon [⟨rR1, k1_pay6 (F := F)⟩]

/-- The statistics the last point stores, from the two accumulators: row 0 then row 1. -/
def stats1 (s q : Vec F S1x128 .f32) : Vec F S2x128 .f32 :=
  View.canon [⟨rS1_1, k1_pay4 (View.ld s rR1) (View.ld q rR1)⟩, ⟨rS1_0, k1_pay3 (View.ld s rR1)⟩]

/-- The block stored at point `t`, from the arrays as the region finds them. -/
def tblk1 (V : EntryVal F) (c : Dev nD) (t : Fin cfg1.N) : FVec F S5000x128 .f32 :=
  blk1 (iblk1 V c 0 t) (iblk1 V c 1 t) (iblk1 V c 2 t) (iblk1 V c 3 t) (iblk1 V c 4 t) (iblk1 V c 5 t)

/-- The two accumulators after the body at position `n`: reset at the first point, then each point's block added. -/
def acc1 (V : EntryVal F) (c : Dev nD) : (n : ℕ) → n < cfg1.N → Vec F S1x128 .f32 × Vec F S1x128 .f32
  | 0, hn => (sumStep1 (tblk1 V c ⟨0, hn⟩) sum0_1, sqStep1 (tblk1 V c ⟨0, hn⟩) sq0_1)
  | n + 1, hn => (sumStep1 (tblk1 V c ⟨n + 1, hn⟩) (acc1 V c n (Nat.lt_of_succ_lt hn)).1,
      sqStep1 (tblk1 V c ⟨n + 1, hn⟩) (acc1 V c n (Nat.lt_of_succ_lt hn)).2)

/-! ## The region invariant -/

/-- Before the first point: the generator register at some state and the scoped rest, as the launch hands them;
    afterwards the two accumulators at what the point before left, the remainder of the scoped rest unopened. -/
def Phi1 (V : EntryVal F) (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r)
      ∗ iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1])

theorem Phi1_zero (V : EntryVal F) (c : Dev nD) (n : ℕ) (h : n ≤ cfg1.N) (hz : n = 0) :
    Phi1 V c n h = iprop((∃ r, prngReg c r) ∗ Pipeline.scopedRest (Ix := Unit) (Name := ℕ) (U := UR sig nD τ) (Lvl := ℕ) (Val := Elt F) spec1 c) := by
  subst hz; rfl

theorem Phi1_succ (V : EntryVal F) (c : Dev nD) (n : ℕ) (hn : n < cfg1.N) :
    Phi1 V c (n + 1) hn = iprop((∃ r, prngReg c r)
      ∗ iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) := rfl

theorem Phi1_pos (V : EntryVal F) (c : Dev nD) (n : ℕ) (h : n ≤ cfg1.N) (hz : n ≠ 0) :
    Phi1 V c n h = iprop((∃ r, prngReg c r)
      ∗ iprop(owns (c : Thread nD τ) scM1_0 fullShare (acc1 V c (n - 1) (by omega)).1 ∗ owns (c : Thread nD τ) scM1_1 fullShare (acc1 V c (n - 1) (by omega)).2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-! ## The pipeline's proof data -/

/-- Region 1's proof data on core `c`, at the contents `V` the region is entered with. -/
def dat1 (V : EntryVal F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => View.canon [⟨rA1, tblk1 V c t⟩]
    | ⟨7, _⟩ => stats1 (acc1 V c t.val t.isLt).1 (acc1 V c t.val t.isLt).2
  Φ t := Phi1 V c t.val (Nat.le_of_lt_succ t.isLt)
  q _ := fullShare
  owed _ := 0

theorem A_eq1 (V : EntryVal F) (c : Dev nD) (w : Fin cfg1.W) : (dat1 V c).A w = V c (Pipeline.arrRef spec1 w) := by
  dsimp only [dat1]

theorem q_eq1 (V : EntryVal F) (c : Dev nD) (w : Fin cfg1.W) : (dat1 V c).q w = fullShare := by
  dsimp only [dat1]

theorem owed_eq1 (V : EntryVal F) (c : Dev nD) (t : Fin (cfg1.N + 1)) : (dat1 V c).owed t = 0 := by
  dsimp only [dat1]

theorem hin1 (V : EntryVal F) (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = Phi1 V c 0 (Nat.zero_le _) from rfl, Phi1_zero V c 0 _ rfl]
  try exact Idealize.SL.BI.Entails.refl _

/-- After any point the invariant gives the launch's form back: the accumulators' named contents are forgotten. -/
theorem Phi1_out (V : EntryVal F) (c : Dev nD) (t : Fin (cfg1.N + 1)) (ht : t.val ≠ 0) :
    ((dat1 V c).Φ t : sProp 𝕄)
      ⊢ iprop((∃ r, prngReg c r) ∗ Pipeline.scopedRest (Ix := Unit) (Name := ℕ) (U := UR sig nD τ) (Lvl := ℕ) (Val := Elt F) spec1 c) := by
  rw [show (dat1 V c).Φ t = Phi1 V c t.val (Nat.le_of_lt_succ t.isLt) from rfl, Phi1_pos V c _ _ ht, scopedRest1_split]
  simp only [scM1_0, scM1_1, owns_whole]
  iintro ⟨Hg, ⟨HS0, HS1⟩, Hr⟩
  isplitl [Hg]; · iexact Hg
  isplitl [HS0 HS1]
  · isplitl [HS0]
    · iexists _; iexact HS0
    · iexists _; iexact HS1
  iexact Hr

theorem hout1 (V : EntryVal F) (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) :=
  Phi1_out V c _ (by rw [Fin.val_last]; have : cfg1.N = 8 := N_1; omega)

/-! ## The body's branch conditions -/

/-- The condition of the body's first `scf.if` (the accumulators are reset), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (the statistics are stored). -/
abbrev cond1_1 (i : grid1.Coords) : Prop := k1_cond2 i = 1#1
/-- It holds at the last point only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Where the statistics are not stored the statistics window is idle and not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The body's stores cover their buffers -/

theorem cover1_A (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

theorem cover1_R (p0 : Vec F S1x128 .f32) (y : S1x128.Idx) :
    ∃ pc ∈ ([⟨rR1, p0⟩] : List (View.Piece (Elt F) S1x128 .f32)), y ∈ pc.1.set :=
  View.cover_of_tiled [⟨rR1, p0⟩] S1x128.size (by rfl) y

theorem cover1_R2 (p0 p1 : Vec F S1x128 .f32) (y : S1x128.Idx) :
    ∃ pc ∈ ([⟨rR1, p0⟩, ⟨rR1, p1⟩] : List (View.Piece (Elt F) S1x128 .f32)), y ∈ pc.1.set :=
  View.cover_of_tiled [⟨rR1, p0⟩, ⟨rR1, p1⟩] S1x128.size (by rfl) y

theorem cover1_S (p0 p1 : Vec F S1x128 .f32) (y : S2x128.Idx) :
    ∃ pc ∈ ([⟨rS1_1, p1⟩, ⟨rS1_0, p0⟩] : List (View.Piece (Elt F) S2x128 .f32)), y ∈ pc.1.set :=
  View.cover_of_tiled [⟨rS1_1, p1⟩, ⟨rS1_0, p0⟩] S1x128.size (by rfl) y

/-- A whole-buffer store shadows whatever was stored before it. -/
theorem canon1_R_cons (p : Vec F S1x128 .f32) (L : List (View.Piece (Elt F) S1x128 .f32)) :
    View.canon (⟨rR1, p⟩ :: L) = View.canon [⟨rR1, p⟩] := by
  funext y
  obtain ⟨pc, hpc, hy⟩ := cover1_R p y
  simp only [List.mem_cons, List.not_mem_nil, or_false] at hpc
  subst hpc
  obtain ⟨x, rfl⟩ : ∃ x, (rR1).emb x = y := (rR1).exists_idx_of_mem hy
  rw [View.canon_cons_emb, View.canon_cons_emb]

/-- A load of an accumulator after a whole-buffer store into it reads what the store leaves. -/
theorem readCov1_R (v : View sig .tc .vmem S1x128 .f32) (p : Vec F S1x128 .f32) :
    v.readCov [⟨rR1, p⟩] (rR1).toLoadRect = View.ld (View.canon [⟨rR1, p⟩]) rR1 :=
  View.readCov_eq_canon_ld v _ rR1 (cover1_R p)

/-- The first point's accumulators, with the load that follows the reset spelt as the run finds it. -/
theorem sumStep1_first (v : View sig .tc .vmem S1x128 .f32) (y : FVec F S5000x128 .f32) :
    sumStep1 y (sum0_1 (F := F)) = View.canon [⟨rR1, k1_pay1 y (v.readCov [⟨rR1, k1_pay5 (F := F)⟩] (rR1).toLoadRect)⟩] := by
  unfold sumStep1 sum0_1; rw [readCov1_R]

theorem sqStep1_first (v : View sig .tc .vmem S1x128 .f32) (y : FVec F S5000x128 .f32) :
    sqStep1 y (sq0_1 (F := F)) = View.canon [⟨rR1, k1_pay2 y (v.readCov [⟨rR1, k1_pay6 (F := F)⟩] (rR1).toLoadRect)⟩] := by
  unfold sqStep1 sq0_1; rw [readCov1_R]

/-- The statistics, with the loads of the two accumulators after their last stores spelt as the run finds them. -/
theorem stats1_eq (v9 v10 : View sig .tc .vmem S1x128 .f32) (y : FVec F S5000x128 .f32) (s q : Vec F S1x128 .f32) :
    stats1 (sumStep1 y s) (sqStep1 y q)
      = View.canon [⟨rS1_1, k1_pay4 (v9.readCov [⟨rR1, k1_pay1 y (View.ld s rR1)⟩] (rR1).toLoadRect) (v10.readCov [⟨rR1, k1_pay2 y (View.ld q rR1)⟩] (rR1).toLoadRect)⟩,
          ⟨rS1_0, k1_pay3 (v9.readCov [⟨rR1, k1_pay1 y (View.ld s rR1)⟩] (rR1).toLoadRect)⟩] := by
  unfold stats1 sumStep1 sqStep1; rw [readCov1_R, readCov1_R]

set_option maxHeartbeats 1000000 in
/-- The body at the first point: both accumulators are reset, then the block is stored and added; the statistics
    window is handed back untouched. -/
theorem run1_first (c : Dev nD) (E : Set ℕ) (i : grid1.Coords) (hc0 : cond1_0 i) (hc1 : ¬cond1_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA1, blk1 x0 x1 x2 x3 x4 x5⟩]) ∗ owns (c : Thread nD τ) arg8 fullShare xi7
            ∗ owns (c : Thread nD τ) arg9 fullShare (sumStep1 (blk1 x0 x1 x2 x3 x4 x5) sum0_1) ∗ owns (c : Thread nD τ) arg10 fullShare (sqStep1 (blk1 x0 x1 x2 x3 x4 x5) sq0_1)) -∗ K ⟨⟩))
      ⊢ wp frame (wpE (defs₀ (F := F)) Variants.none c none) E (cc1__bn_relu_linear_stats_kernel i arg1 harg1 arg2 harg2 arg3 harg3 arg4 harg4 arg5 harg5 arg6 harg6 arg7 harg7 arg8 harg8 arg9 harg9 arg10 harg10) K := by
  simp only [cc1__bn_relu_linear_stats_kernel_eq_skeleton]; unfold cc1__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_A _)).trans ?_
    sl_unfold_run_names
    rfl
  isplitl [H7]
  · iexists f7; isplitr; · ipureintro; rfl
    iexact H7
  isplitl [H8]
  · iexists _; isplitr
    swap; · iexact H8
    ipureintro
    sl_unfold_run_names
    refine (View.read_writes_eq_canon _ _ _ (cover1_R2 _ _)).trans ?_
    refine (canon1_R_cons _ _).trans ?_
    refine Eq.trans ?_ (sumStep1_first arg9.view _).symm
    rfl
  · iexists _; isplitr
    swap; · iexact H9
    ipureintro
    sl_unfold_run_names
    refine (View.read_writes_eq_canon _ _ _ (cover1_R2 _ _)).trans ?_
    refine (canon1_R_cons _ _).trans ?_
    refine Eq.trans ?_ (sqStep1_first arg10.view _).symm
    rfl

set_option maxHeartbeats 1000000 in
/-- The body at a point that is neither the first nor the last: the block is stored, the accumulators grow, the
    statistics window is handed back untouched. -/
theorem run1_mid (c : Dev nD) (E : Set ℕ) (i : grid1.Coords) (hc0 : ¬cond1_0 i) (hc1 : ¬cond1_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA1, blk1 x0 x1 x2 x3 x4 x5⟩]) ∗ owns (c : Thread nD τ) arg8 fullShare xi7
            ∗ owns (c : Thread nD τ) arg9 fullShare (sumStep1 (blk1 x0 x1 x2 x3 x4 x5) s) ∗ owns (c : Thread nD τ) arg10 fullShare (sqStep1 (blk1 x0 x1 x2 x3 x4 x5) q)) -∗ K ⟨⟩))
      ⊢ wp frame (wpE (defs₀ (F := F)) Variants.none c none) E (cc1__bn_relu_linear_stats_kernel i arg1 harg1 arg2 harg2 arg3 harg3 arg4 harg4 arg5 harg5 arg6 harg6 arg7 harg7 arg8 harg8 arg9 harg9 arg10 harg10) K := by
  simp only [cc1__bn_relu_linear_stats_kernel_eq_skeleton]; unfold cc1__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_A _)).trans ?_
    sl_unfold_run_names
    rfl
  isplitl [H7]
  · iexists f7; isplitr; · ipureintro; rfl
    iexact H7
  isplitl [H8]
  · iexists _; isplitr
    swap; · iexact H8
    ipureintro
    refine (View.read_writes_eq_canon _ _ _ (cover1_R _)).trans ?_
    sl_unfold_run_names
    rfl
  · iexists _; isplitr
    swap; · iexact H9
    ipureintro
    refine (View.read_writes_eq_canon _ _ _ (cover1_R _)).trans ?_
    sl_unfold_run_names
    rfl

set_option maxHeartbeats 1000000 in
/-- The body at the last point: the block is stored and added, then the statistics are computed from the two
    accumulators and stored as the two rows of the statistics window. -/
theorem run1_last (c : Dev nD) (E : Set ℕ) (i : grid1.Coords) (hc0 : ¬cond1_0 i) (hc1 : cond1_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA1, blk1 x0 x1 x2 x3 x4 x5⟩])
            ∗ owns (c : Thread nD τ) arg8 fullShare (stats1 (sumStep1 (blk1 x0 x1 x2 x3 x4 x5) s) (sqStep1 (blk1 x0 x1 x2 x3 x4 x5) q))
            ∗ owns (c : Thread nD τ) arg9 fullShare (sumStep1 (blk1 x0 x1 x2 x3 x4 x5) s) ∗ owns (c : Thread nD τ) arg10 fullShare (sqStep1 (blk1 x0 x1 x2 x3 x4 x5) q)) -∗ K ⟨⟩))
      ⊢ wp frame (wpE (defs₀ (F := F)) Variants.none c none) E (cc1__bn_relu_linear_stats_kernel i arg1 harg1 arg2 harg2 arg3 harg3 arg4 harg4 arg5 harg5 arg6 harg6 arg7 harg7 arg8 harg8 arg9 harg9 arg10 harg10) K := by
  simp only [cc1__bn_relu_linear_stats_kernel_eq_skeleton]; unfold cc1__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0 hf1 hf2 hf3 hf4 hf5 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_A _)).trans ?_
    sl_unfold_run_names
    rfl
  isplitl [H7]
  · iexists _; isplitr
    swap; · iexact H7
    ipureintro
    sl_unfold_run_names
    refine (View.read_writes_eq_canon _ _ _ (cover1_S _ _)).trans ?_
    refine Eq.trans ?_ (stats1_eq arg9.view arg10.view _ _ _).symm
    rfl
  isplitl [H8]
  · iexists _; isplitr
    swap; · iexact H8
    ipureintro
    refine (View.read_writes_eq_canon _ _ _ (cover1_R _)).trans ?_
    sl_unfold_run_names
    rfl
  · iexists _; isplitr
    swap; · iexact H9
    ipureintro
    refine (View.read_writes_eq_canon _ _ _ (cover1_R _)).trans ?_
    sl_unfold_run_names
    rfl

/-! ## What the inputs' staging buffers hold at a point -/

theorem before1_0_of (V : EntryVal F) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of (V : EntryVal F) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of (V : EntryVal F) {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of (V : EntryVal F) {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of (V : EntryVal F) {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of (V : EntryVal F) {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem after1_0 (V : EntryVal F) (c : Dev nD) (t : Fin cfg1.N) : (dat1 V c).after 0 t = iblk1 V c 0 t := by dsimp only [dat1]
theorem after1_1 (V : EntryVal F) (c : Dev nD) (t : Fin cfg1.N) : (dat1 V c).after 1 t = iblk1 V c 1 t := by dsimp only [dat1]
theorem after1_2 (V : EntryVal F) (c : Dev nD) (t : Fin cfg1.N) : (dat1 V c).after 2 t = iblk1 V c 2 t := by dsimp only [dat1]
theorem after1_3 (V : EntryVal F) (c : Dev nD) (t : Fin cfg1.N) : (dat1 V c).after 3 t = iblk1 V c 3 t := by dsimp only [dat1]
theorem after1_4 (V : EntryVal F) (c : Dev nD) (t : Fin cfg1.N) : (dat1 V c).after 4 t = iblk1 V c 4 t := by dsimp only [dat1]
theorem after1_5 (V : EntryVal F) (c : Dev nD) (t : Fin cfg1.N) : (dat1 V c).after 5 t = iblk1 V c 5 t := by dsimp only [dat1]
theorem after1_6 (V : EntryVal F) (c : Dev nD) (t : Fin cfg1.N) : (dat1 V c).after 6 t = View.canon [⟨rA1, tblk1 V c t⟩] := by dsimp only [dat1]
theorem after1_7 (V : EntryVal F) (c : Dev nD) (t : Fin cfg1.N) : (dat1 V c).after 7 t = stats1 (acc1 V c t.val t.isLt).1 (acc1 V c t.val t.isLt).2 := by dsimp only [dat1]

theorem before1_0 (V : EntryVal F) (c : Dev nD) (t : Fin cfg1.N) (d) : (dat1 V c).before 0 t d = iblk1 V c 0 t :=
  before1_0_of V (dat1 V c) (A_eq1 V c 0) (after1_0 V c) t d
theorem before1_1 (V : EntryVal F) (c : Dev nD) (t : Fin cfg1.N) (d) : (dat1 V c).before 1 t d = iblk1 V c 1 t :=
  before1_1_of V (dat1 V c) (A_eq1 V c 1) (after1_1 V c) t d
theorem before1_2 (V : EntryVal F) (c : Dev nD) (t : Fin cfg1.N) (d) : (dat1 V c).before 2 t d = iblk1 V c 2 t :=
  before1_2_of V (dat1 V c) (A_eq1 V c 2) (after1_2 V c) t d
theorem before1_3 (V : EntryVal F) (c : Dev nD) (t : Fin cfg1.N) (d) : (dat1 V c).before 3 t d = iblk1 V c 3 t :=
  before1_3_of V (dat1 V c) (A_eq1 V c 3) (after1_3 V c) t d
theorem before1_4 (V : EntryVal F) (c : Dev nD) (t : Fin cfg1.N) (d) : (dat1 V c).before 4 t d = iblk1 V c 4 t :=
  before1_4_of V (dat1 V c) (A_eq1 V c 4) (after1_4 V c) t d
theorem before1_5 (V : EntryVal F) (c : Dev nD) (t : Fin cfg1.N) (d) : (dat1 V c).before 5 t d = iblk1 V c 5 t :=
  before1_5_of V (dat1 V c) (A_eq1 V c 5) (after1_5 V c) t d

/-! ## The accumulators, point by point -/

theorem acc1_first (V : EntryVal F) (c : Dev nD) (t : Fin cfg1.N) (hz : t.val = 0) :
    acc1 V c t.val t.isLt = (sumStep1 (tblk1 V c t) sum0_1, sqStep1 (tblk1 V c t) sq0_1) := by
  obtain ⟨n, hn⟩ := t
  cases n with
  | zero => rfl
  | succ n => exact absurd hz (Nat.succ_ne_zero n)

theorem acc1_pos (V : EntryVal F) (c : Dev nD) (t : Fin cfg1.N) (hz : t.val ≠ 0) :
    acc1 V c t.val t.isLt = (sumStep1 (tblk1 V c t) (acc1 V c (t.val - 1) (Nat.lt_of_le_of_lt (Nat.sub_le _ _) t.isLt)).1,
      sqStep1 (tblk1 V c t) (acc1 V c (t.val - 1) (Nat.lt_of_le_of_lt (Nat.sub_le _ _) t.isLt)).2) := by
  obtain ⟨n, hn⟩ := t
  cases n with
  | zero => exact absurd rfl hz
  | succ n => rfl

/-- The launch's form of the invariant with the two accumulators as memrefs owned at some contents. -/
theorem Phi1_first_eq (c : Dev nD) :
    (iprop((∃ r, prngReg c r) ∗ Pipeline.scopedRest (Ix := Unit) (Name := ℕ) (U := UR sig nD τ) (Lvl := ℕ) (Val := Elt F) spec1 c) : sProp 𝕄)
      = iprop((∃ r, prngReg c r)
          ∗ iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

theorem Phi1_castSucc (V : EntryVal F) (c : Dev nD) (t : Fin cfg1.N) :
    (dat1 V c).Φ t.castSucc = Phi1 V c t.val (Nat.le_of_lt t.isLt) := by
  dsimp only [dat1]; simp only [Fin.coe_castSucc]

/-! ## The body obligation, at a generic point -/

def bodyPre1 (V : EntryVal F) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (V : EntryVal F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the point's position says which case it is in; the
    invariant hands the body the two accumulators at what the point before left (at anything at the first point) and
    takes them back at this point's contents; the core owes nothing throughout. -/
theorem sound_body1 (V : EntryVal F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  have hN : t.val < 8 := lt_of_lt_of_eq t.isLt (show cfg1.N = 8 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  by_cases h0 : t.val % 8 = 0
  · have hz : t.val = 0 := by omega
    have h1 : ¬t.val % 8 = 7 := by omega
    rw [Dat.leavesExact_idle (dat1 V c) 7 t (idleAt1_7 t (fun h => h1 ((hcond1_1 t).mp h))) (noFlush1_7 t (fun h => h1 ((hcond1_1 t).mp h)))]
    rw [acc1_first V c t hz]
    rw [Phi1_castSucc V c t, Phi1_zero V c _ _ hz, Phi1_first_eq]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_first c Set.univ (grid1.coords t) ((hcond1_0 t).mpr h0) (fun h => h1 ((hcond1_1 t).mp h)) _ _ _ _ _ _ _ _ _ _ _ _ _ _ _ _ _ _ _ _
      (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 8 = 7
    · have hz : t.val ≠ 0 := by omega
      rw [show (dat1 V c).leavesExact 7 t = owns (c : Thread nD τ) (st1_7 t) fullShare ((dat1 V c).after 7 t) from by
        unfold Dat.leavesExact; rw [liveAt1_7 t ((hcond1_1 t).mpr h1)], after1_7]
      rw [acc1_pos V c t hz]
      rw [Phi1_castSucc V c t, Phi1_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_last c Set.univ (grid1.coords t) (fun h => h0 ((hcond1_0 t).mp h)) ((hcond1_1 t).mpr h1) _ _ _ _ _ _ _ _ _ _ _ _ _ _ _ _ _ _ _ _
        (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hz : t.val ≠ 0 := by omega
      rw [Dat.leavesExact_idle (dat1 V c) 7 t (idleAt1_7 t (fun h => h1 ((hcond1_1 t).mp h))) (noFlush1_7 t (fun h => h1 ((hcond1_1 t).mp h)))]
      rw [acc1_pos V c t hz]
      rw [Phi1_castSucc V c t, Phi1_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_mid c Set.univ (grid1.coords t) (fun h => h0 ((hcond1_0 t).mp h)) (fun h => h1 ((hcond1_1 t).mp h)) _ _ _ _ _ _ _ _ _ _ _ _ _ _ _ _ _ _ _ _
        (iblk1 V c 0 t) (iblk1 V c 1 t) (iblk1 V c 2 t) (iblk1 V c 3 t) (iblk1 V c 4 t) (iblk1 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (V : EntryVal F) (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the final batch-normalisation kernel (five windows: the activations' row block, the two statistics
rows, the scale row, the shift row; the output's row block) -/

/-! ## The windows' blocks -/

/-- Window `w`'s block at point `t`, read off its array as the region finds it. -/
def iblk2 (V : EntryVal F) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is the entry contents and whose body leaves the
    block in place. One lemma per input window. -/
theorem before2_0_of (V : EntryVal F) {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of (V : EntryVal F) {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of (V : EntryVal F) {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of (V : EntryVal F) {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Row 0 of the statistics block (the mean). -/
abbrev r2_m : Rect S2x128 := Rect.unit (s := S2x128) ![0, 0] S1x128.size inb_S2x128_S1x128_0_0
/-- Row 1 of the statistics block (the variance). -/
abbrev r2_v : Rect S2x128 := Rect.unit (s := S2x128) ![1, 0] S1x128.size inb_S2x128_S1x128_1_0
/-- A whole row vector. -/
abbrev r2_r : Rect S1x128 := Rect.unit (s := S1x128) ![0, 0] S1x128.size inb_S1x128_S1x128_0_0
/-- A whole row block. -/
abbrev r2_b : Rect S5000x128 := Rect.unit (s := S5000x128) ![0, 0] S5000x128.size inb_S5000x128_S5000x128_0_0

/-! ## What the body leaves in the output window's buffer -/

/-- The output's staging buffer after the body, from the input windows' blocks: its one store, of the payload
    at the five values loaded. -/
def out2_4 (x0 : Vec F S5000x128 .f32) (x1 : Vec F S2x128 .f32) (x2 : Vec F S1x128 .f32) (x3 : Vec F S1x128 .f32) : Vec F S5000x128 .f32 :=
  View.canon [⟨r2_b, k2_pay1 (View.ld x1 r2_m) (View.ld x1 r2_v) (View.ld x2 r2_r) (View.ld x0 r2_b) (View.ld x3 r2_r)⟩]

/-- The store is of the whole buffer, so it covers it. -/
theorem cover2_4 (p0 : Vec F S5000x128 .f32) (y : S5000x128.Idx) :
    ∃ pc ∈ ([⟨r2_b, p0⟩] : List (View.Piece (Elt F) S5000x128 .f32)), y ∈ pc.1.set :=
  View.cover_of_tiled [⟨r2_b, p0⟩] S5000x128.size (by rfl) y

/-! ## The body's triple -/

set_option maxHeartbeats 1000000 in
/-- The kernel body on whole staging memrefs, the inputs' at read contents and the output's at anything, runs to
    the continuation holding the inputs' as they were and the output's at `out2_4` of the inputs' (the value it
    loads from the output's buffer before storing is not used). -/
theorem sound_kernel2 (c : Dev nD) (E : Set ℕ) (i : grid2.Coords)
    (arg1 : Memref sig .tc .vmem S5000x128 .f32) (harg1 : arg1.IsWhole) (arg2 : Memref sig .tc .vmem S2x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bn_relu_final_kernel i arg1 harg1 arg2 harg2 arg3 harg3 arg4 harg4 arg5 harg5) K := by
  simp only [cc2__bn_relu_final_kernel_eq_skeleton]; unfold cc2__bn_relu_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- Region 2's proof data on core `c`, at the contents `V` the region is entered with: after the body at a point
    each input's buffer holds its block and the output's `out2_4` of the input blocks; the invariant is the scoped
    rest and the generator register, untouched; nothing owed; full shares. -/
def dat2 (V : EntryVal F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (V : EntryVal F) (c : Dev nD) (w : Fin cfg2.W) : (dat2 V c).A w = V c (Pipeline.arrRef spec2 w) := by
  dsimp only [dat2]

theorem q_eq2 (V : EntryVal F) (c : Dev nD) (w : Fin cfg2.W) : (dat2 V c).q w = fullShare := by
  dsimp only [dat2]

theorem owed_eq2 (V : EntryVal F) (c : Dev nD) (t : Fin (cfg2.N + 1)) : (dat2 V c).owed t = 0 := by
  dsimp only [dat2]

/-- What the body leaves, window by window. -/
theorem after2_0 (V : EntryVal F) (c : Dev nD) (t : Fin cfg2.N) : (dat2 V c).after 0 t = iblk2 V c 0 t := by dsimp only [dat2]
theorem after2_1 (V : EntryVal F) (c : Dev nD) (t : Fin cfg2.N) : (dat2 V c).after 1 t = iblk2 V c 1 t := by dsimp only [dat2]
theorem after2_2 (V : EntryVal F) (c : Dev nD) (t : Fin cfg2.N) : (dat2 V c).after 2 t = iblk2 V c 2 t := by dsimp only [dat2]
theorem after2_3 (V : EntryVal F) (c : Dev nD) (t : Fin cfg2.N) : (dat2 V c).after 3 t = iblk2 V c 3 t := by dsimp only [dat2]
theorem after2_4 (V : EntryVal F) (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (V : EntryVal F) (c : Dev nD) (t : Fin cfg2.N) (d) : (dat2 V c).before 0 t d = iblk2 V c 0 t :=
  before2_0_of V (dat2 V c) (A_eq2 V c 0) (after2_0 V c) t d
theorem before2_1 (V : EntryVal F) (c : Dev nD) (t : Fin cfg2.N) (d) : (dat2 V c).before 1 t d = iblk2 V c 1 t :=
  before2_1_of V (dat2 V c) (A_eq2 V c 1) (after2_1 V c) t d
theorem before2_2 (V : EntryVal F) (c : Dev nD) (t : Fin cfg2.N) (d) : (dat2 V c).before 2 t d = iblk2 V c 2 t :=
  before2_2_of V (dat2 V c) (A_eq2 V c 2) (after2_2 V c) t d
theorem before2_3 (V : EntryVal F) (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (V : EntryVal F) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (V : EntryVal F) (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the kernel's triple applies; the invariant and
    the core's tallies pass through unread. -/
theorem sound_body2 (V : EntryVal F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (V : EntryVal F) (c : Dev nD) : BodyObligation (dat2 (F := F) V c) (defs₀ (F := F)) Variants.none () Set.univ := fun t => by
  rw [bigSep_W2, bigSep_W2]
  exact sound_body2 V c t

theorem hin2 (V : EntryVal F) (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp

theorem hout2 (V : EntryVal F) (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

end Cert.Kernel.Hand

end
-- ==== Proof.K.Reg3.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The frame of kernel region 3: the affine map of the combined rows, block by block, with its column statistics

The kernel runs over 8 row blocks. At each point it stores the block's affine image and adds the block's column
sums and column sums of squares to two running sums it carries between the points in two scratch buffers, which it
resets at the first point; at the last point it stores the mean and the clamped variance computed from the two
running sums. The proof data names what the two scratch buffers hold before each point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinate -/

/-- The condition of the first `scf.if` (the grid coordinate is 0), as the kernel's scalar chain computes it. -/
abbrev condA3 (i : grid3.Coords) : Prop := (Scalar.cmpi .ne (Scalar.extui (Scalar.cmpi .eq (BitVec.ofNat 32 (i 0).val) 0#32)) 0#32) = 1#1
/-- The condition of the second `scf.if` (the grid coordinate is 7). -/
abbrev condB3 (i : grid3.Coords) : Prop := k3_cond2 i = 1#1

/-! ## The rectangles of the body's accesses and what a whole-buffer access reads and leaves -/

theorem zz3 : (![0, 0] : Fin 2 → Nat) = fun _ => 0 := by funext a; fin_cases a <;> rfl

abbrev rBlk3 : Rect S5000x128 := Rect.unit (s := S5000x128) ![0, 0] S5000x128.size inb_S5000x128_S5000x128_0_0
abbrev rRow3 : Rect S1x128 := Rect.unit (s := S1x128) ![0, 0] S1x128.size inb_S1x128_S1x128_0_0
abbrev rOne3 : Rect S1x1 := Rect.unit (s := S1x1) ![0, 0] S1x1.size inb_S1x1_S1x1_0_0
abbrev rWt3 : Rect S128x128 := Rect.unit (s := S128x128) ![0, 0] S128x128.size inb_S128x128_S128x128_0_0
abbrev rSt3_0 : Rect S2x128 := Rect.unit (s := S2x128) ![0, 0] S1x128.size inb_S2x128_S1x128_0_0
abbrev rSt3_1 : Rect S2x128 := Rect.unit (s := S2x128) ![1, 0] S1x128.size inb_S2x128_S1x128_1_0

/-- A load through the whole buffer reads its contents. -/
theorem ldBlk3 (X : Vec F S5000x128 .f32) : View.ld X rBlk3 = X := View.ld_unit_zero zz3 _ X
theorem ldRow3 (X : Vec F S1x128 .f32) : View.ld X rRow3 = X := View.ld_unit_zero zz3 _ X
theorem ldOne3 (X : Vec F S1x1 .f32) : View.ld X rOne3 = X := View.ld_unit_zero zz3 _ X
theorem ldWt3 (X : Vec F S128x128 .f32) : View.ld X rWt3 = X := View.ld_unit_zero zz3 _ X

/-! ## What the body leaves, from what it reads -/

/-- The output block: the affine map of the combined input rows. -/
def yOut3 (x0 x1 : Vec F S5000x128 .f32) (x2 : Vec F S1x1 .f32) (x3 : Vec F S128x128 .f32) (x4 : Vec F S1x128 .f32) : Vec F S5000x128 .f32 :=
  k3_pay6 (View.ld x2 rOne3) (View.ld x0 rBlk3) (View.ld x1 rBlk3) (View.ld x3 rWt3) (View.ld x4 rRow3)
/-- The running column sums after the block is added to `s`. -/
def sOut3 (x0 x1 : Vec F S5000x128 .f32) (x2 : Vec F S1x1 .f32) (x3 : Vec F S128x128 .f32) (x4 : Vec F S1x128 .f32) (s : Vec F S1x128 .f32) : Vec F S1x128 .f32 :=
  k3_pay7 (View.ld x2 rOne3) (View.ld x0 rBlk3) (View.ld x1 rBlk3) (View.ld x3 rWt3) (View.ld x4 rRow3) (View.ld s rRow3)
/-- The running column sums of squares after the block's squares are added to `q`. -/
def qOut3 (x0 x1 : Vec F S5000x128 .f32) (x2 : Vec F S1x1 .f32) (x3 : Vec F S128x128 .f32) (x4 : Vec F S1x128 .f32) (q : Vec F S1x128 .f32) : Vec F S1x128 .f32 :=
  k3_pay1 (k3_pay8 (View.ld x2 rOne3) (View.ld x0 rBlk3) (View.ld x1 rBlk3) (View.ld x3 rWt3) (View.ld x4 rRow3) (View.ld q rRow3))
/-- The statistics block from the two running sums: row 0 the mean, row 1 the clamped variance (the two row stores, last first). -/
def stOut3 (s q : Vec F S1x128 .f32) : Vec F S2x128 .f32 :=
  View.canon [⟨rSt3_1, k3_pay3 (View.ld s rRow3) (View.ld q rRow3)⟩, ⟨rSt3_0, k3_pay2 (View.ld s rRow3)⟩]

theorem yOut3_eq (x0 x1 : Vec F S5000x128 .f32) (x2 : Vec F S1x1 .f32) (x3 : Vec F S128x128 .f32) (x4 : Vec F S1x128 .f32) :
    yOut3 x0 x1 x2 x3 x4 = k3_pay6 x2 x0 x1 x3 x4 := by
  unfold yOut3; rw [ldOne3, ldBlk3, ldBlk3, ldWt3, ldRow3]
theorem sOut3_eq (x0 x1 : Vec F S5000x128 .f32) (x2 : Vec F S1x1 .f32) (x3 : Vec F S128x128 .f32) (x4 : Vec F S1x128 .f32) (s : Vec F S1x128 .f32) :
    sOut3 x0 x1 x2 x3 x4 s = k3_pay7 x2 x0 x1 x3 x4 s := by
  unfold sOut3; rw [ldOne3, ldBlk3, ldBlk3, ldWt3, ldRow3, ldRow3]
theorem qOut3_eq (x0 x1 : Vec F S5000x128 .f32) (x2 : Vec F S1x1 .f32) (x3 : Vec F S128x128 .f32) (x4 : Vec F S1x128 .f32) (q : Vec F S1x128 .f32) :
    qOut3 x0 x1 x2 x3 x4 q = k3_pay1 (k3_pay8 x2 x0 x1 x3 x4 q) := by
  unfold qOut3; rw [ldOne3, ldBlk3, ldBlk3, ldWt3, ldRow3, ldRow3]
theorem stOut3_eq (s q : Vec F S1x128 .f32) :
    stOut3 s q = View.canon [⟨rSt3_1, k3_pay3 s q⟩, ⟨rSt3_0, k3_pay2 s⟩] := by
  unfold stOut3; rw [ldRow3, ldRow3]

/-- The two row stores cover the statistics block. -/
theorem coverSt3 (p1 p0 : Vec F S1x128 .f32) (y : S2x128.Idx) :
    ∃ pc ∈ ([⟨rSt3_1, p1⟩, ⟨rSt3_0, p0⟩] : List (View.Piece (Elt F) S2x128 .f32)), y ∈ pc.1.set :=
  View.cover_of_tiled [⟨rSt3_1, p1⟩, ⟨rSt3_0, p0⟩] S1x128.size (by rfl) y

/-- One store through the whole buffer leaves its payload, whatever the buffer held. -/
theorem wrBlk3 {κ : Kind} {sp : Space} (v : View sig κ sp S5000x128 .f32) (f : v.ty.Contents (Elt F)) (w : Vec F S5000x128 .f32) :
    v.read (Elt F) (v.writes (Elt F) f [⟨rBlk3, w⟩]) = w :=
  (View.read_writes_eq_canon v f _ (View.cover_of_tiled [⟨rBlk3, w⟩] S5000x128.size (by rfl))).trans (View.canon_unit_zero zz3 _ w)
theorem wrRow3 {κ : Kind} {sp : Space} (v : View sig κ sp S1x128 .f32) (f : v.ty.Contents (Elt F)) (w : Vec F S1x128 .f32) :
    v.read (Elt F) (v.writes (Elt F) f [⟨rRow3, w⟩]) = w :=
  (View.read_writes_eq_canon v f _ (View.cover_of_tiled [⟨rRow3, w⟩] S1x128.size (by rfl))).trans (View.canon_unit_zero zz3 _ w)
/-- Two stores through the whole buffer leave the later payload. -/
theorem wrRowTwo3 {κ : Kind} {sp : Space} (v : View sig κ sp S1x128 .f32) (f : v.ty.Contents (Elt F)) (w w' : Vec F S1x128 .f32) :
    v.read (Elt F) (v.writes (Elt F) f [⟨rRow3, w⟩, ⟨rRow3, w'⟩]) = w :=
  (View.read_writes_eq_canon v f _ (fun y => by
    obtain ⟨p, hp, hy⟩ := View.cover_of_tiled [(⟨rRow3, w⟩ : View.Piece (Elt F) S1x128 .f32)] S1x128.size (by rfl) y
    exact ⟨p, List.mem_cons.mpr (Or.inl (List.mem_singleton.mp hp)), hy⟩)).trans (View.canon_cons_unit_zero zz3 _ w _)
/-- A load through the whole buffer after one store through it reads the payload. -/
theorem rcRow3 {κ : Kind} {sp : Space} (v : View sig κ sp S1x128 .f32) (w : Vec F S1x128 .f32) :
    v.readCov [(⟨rRow3, w⟩ : View.Piece (Elt F) S1x128 .f32)] rRow3.toLoadRect = View.ld w rRow3 :=
  (View.readCov_unit_zero v zz3 _ w).trans (ldRow3 w).symm

/-- A store through the whole buffer, LAST, leaves its payload whatever the earlier stores were. -/
theorem wrRowCons3 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow3, w⟩ :: L)) = w :=
  (View.read_writes_eq_canon v f _ (fun y => by
    obtain ⟨p, hp, hy⟩ := View.cover_of_tiled [(⟨rRow3, w⟩ : View.Piece (Elt F) S1x128 .f32)] S1x128.size (by rfl) y
    exact ⟨p, List.mem_cons.mpr (Or.inl (List.mem_singleton.mp hp)), hy⟩)).trans (View.canon_cons_unit_zero zz3 _ w L)

/-! ## The windows' blocks -/

/-- Window `w`'s block at point `t`, read off its array as the region finds it (`V`). -/
def iblk3 (V : EntryVal F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The five input blocks at point `t`, at their literal vector types. -/
def xb3_0 (V : EntryVal F) (c : Dev nD) (t : Fin cfg3.N) : Vec F S5000x128 .f32 := iblk3 V c 0 t
def xb3_1 (V : EntryVal F) (c : Dev nD) (t : Fin cfg3.N) : Vec F S5000x128 .f32 := iblk3 V c 1 t
def xb3_2 (V : EntryVal F) (c : Dev nD) (t : Fin cfg3.N) : Vec F S1x1 .f32 := iblk3 V c 2 t
def xb3_3 (V : EntryVal F) (c : Dev nD) (t : Fin cfg3.N) : Vec F S128x128 .f32 := iblk3 V c 3 t
def xb3_4 (V : EntryVal F) (c : Dev nD) (t : Fin cfg3.N) : Vec F S1x128 .f32 := iblk3 V c 4 t

/-! ## The two running sums, point by point -/

/-- What the two scratch buffers hold BEFORE the accumulation at position `n`: zeros at the first point (the body
    resets them there), afterwards what the point before left. -/
def SQ3 (V : EntryVal F) (c : Dev nD) : ℕ → Vec F S1x128 .f32 × Vec F S1x128 .f32
  | 0 => (k3_pay4, k3_pay5)
  | n + 1 =>
    if h : n < cfg3.N then
      (sOut3 (xb3_0 V c ⟨n, h⟩) (xb3_1 V c ⟨n, h⟩) (xb3_2 V c ⟨n, h⟩) (xb3_3 V c ⟨n, h⟩) (xb3_4 V c ⟨n, h⟩) (SQ3 V c n).1,
       qOut3 (xb3_0 V c ⟨n, h⟩) (xb3_1 V c ⟨n, h⟩) (xb3_2 V c ⟨n, h⟩) (xb3_3 V c ⟨n, h⟩) (xb3_4 V c ⟨n, h⟩) (SQ3 V c n).2)
    else SQ3 V c n

theorem SQ3_zero (V : EntryVal F) (c : Dev nD) : SQ3 V c 0 = (k3_pay4, k3_pay5) := rfl

theorem SQ3_succ (V : EntryVal F) (c : Dev nD) (t : Fin cfg3.N) :
    SQ3 V c (t.val + 1) =
      (sOut3 (xb3_0 V c t) (xb3_1 V c t) (xb3_2 V c t) (xb3_3 V c t) (xb3_4 V c t) (SQ3 V c t.val).1,
       qOut3 (xb3_0 V c t) (xb3_1 V c t) (xb3_2 V c t) (xb3_3 V c t) (xb3_4 V c t) (SQ3 V c t.val).2) := by
  rw [SQ3, dif_pos t.isLt]

/-! ## The invariant -/

abbrev scr3_0 : Memref sig .tc .vmem S1x128 .f32 := Memref.whole cc3_scratch0
abbrev scr3_1 : Memref sig .tc .vmem S1x128 .f32 := Memref.whole cc3_scratch1

/-- The region invariant before position `n`: before the first point the generator register and the scoped rest
    (the two scratch buffers at anything); afterwards the two scratch buffers at the running sums and the scoped rest
    without them. -/
def Phi3 (V : EntryVal F) (c : Dev nD) : ℕ → sProp 𝕄
  | 0 => iprop((∃ r, prngReg c r) ∗ Pipeline.scopedRest (Ix := Unit) (Name := ℕ) (U := UR sig nD τ) (Lvl := ℕ) (Val := Elt F) spec3 c)
  | n + 1 => iprop((∃ r, prngReg c r)
      ∗ iprop(owns (c : Thread nD τ) scr3_0 fullShare (SQ3 V c (n + 1)).1 ∗ owns (c : Thread nD τ) scr3_1 fullShare (SQ3 V c (n + 1)).2)
      ∗ Pipeline.scopedRestBut (Ix := Unit) (Name := ℕ) (U := UR sig nD τ) (Lvl := ℕ) (Val := Elt F) spec3 c [cc3_scratch0, cc3_scratch1])

theorem Phi3_zero (V : EntryVal F) (c : Dev nD) :
    Phi3 V c 0 = iprop((∃ r, prngReg c r) ∗ Pipeline.scopedRest (Ix := Unit) (Name := ℕ) (U := UR sig nD τ) (Lvl := ℕ) (Val := Elt F) spec3 c) := rfl

theorem Phi3_succ (V : EntryVal F) (c : Dev nD) (n : ℕ) :
    Phi3 V c (n + 1) = iprop((∃ r, prngReg c r)
      ∗ iprop(owns (c : Thread nD τ) scr3_0 fullShare (SQ3 V c (n + 1)).1 ∗ owns (c : Thread nD τ) scr3_1 fullShare (SQ3 V c (n + 1)).2)
      ∗ Pipeline.scopedRestBut (Ix := Unit) (Name := ℕ) (U := UR sig nD τ) (Lvl := ℕ) (Val := Elt F) spec3 c [cc3_scratch0, cc3_scratch1]) := rfl

/-- The scoped rest with the two scratch operands as memrefs owned at some contents. -/
theorem scopedRest3_owns (c : Dev nD) :
    (Pipeline.scopedRest (Ix := Unit) (Name := ℕ) (U := UR sig nD τ) (Lvl := ℕ) (Val := Elt F) spec3 c : sProp 𝕄)
      = iprop(iprop((∃ d, owns (c : Thread nD τ) scr3_0 fullShare d) ∗ (∃ d, owns (c : Thread nD τ) scr3_1 fullShare d))
          ∗ Pipeline.scopedRestBut (Ix := Unit) (Name := ℕ) (U := UR sig nD τ) (Lvl := ℕ) (Val := Elt F) spec3 c [cc3_scratch0, cc3_scratch1]) := by
  rw [scopedRest3_split]; simp only [scr3_0, scr3_1, owns_whole]; try rfl

/-! ## The pipeline's proof data -/

/-- Region 3's proof data on core `c`, at the contents `V` the region is entered with: the arrays as the region
    finds them; after the body at point `t` each input's buffer at its block, the output block at the affine map of
    the input blocks, the statistics block at the statistics of the two running sums after the point; the invariant
    carries the two running sums; nothing owed; full shares. -/
def dat3 (V : EntryVal F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => yOut3 (xb3_0 V c t) (xb3_1 V c t) (xb3_2 V c t) (xb3_3 V c t) (xb3_4 V c t)
    | ⟨6, _⟩ => stOut3 (SQ3 V c (t.val + 1)).1 (SQ3 V c (t.val + 1)).2
  Φ t := Phi3 V c t.val
  q _ := fullShare
  owed _ := 0

theorem A_eq3 (V : EntryVal F) (c : Dev nD) (w : Fin cfg3.W) : (dat3 V c).A w = V c (Pipeline.arrRef spec3 w) := by
  dsimp only [dat3]

theorem q_eq3 (V : EntryVal F) (c : Dev nD) (w : Fin cfg3.W) : (dat3 V c).q w = fullShare := by
  dsimp only [dat3]

theorem owed_eq3 (V : EntryVal F) (c : Dev nD) (t : Fin (cfg3.N + 1)) : (dat3 V c).owed t = 0 := by
  dsimp only [dat3]

theorem Phi_eq3 (V : EntryVal F) (c : Dev nD) (t : Fin (cfg3.N + 1)) : (dat3 V c).Φ t = Phi3 V c t.val := by
  dsimp only [dat3]

/-- What the launch hands the region is the invariant before the first point. -/
theorem hin3 (V : EntryVal F) (c : Dev nD) :
    iprop((∃ r, prngReg c r) ∗ Pipeline.scopedRest (Ix := Unit) (Name := ℕ) (U := UR sig nD τ) (Lvl := ℕ) (Val := Elt F) spec3 c)
      ⊢ ((dat3 V c).Φ 0 : sProp 𝕄) := by
  rw [Phi_eq3, Fin.val_zero, Phi3_zero]

/-- After the last point the invariant gives it back: the running sums' named contents are forgotten. -/
theorem hout3 (V : EntryVal F) (c : Dev nD) :
    ((dat3 V c).Φ (Fin.last cfg3.N) : sProp 𝕄)
      ⊢ iprop((∃ r, prngReg c r) ∗ Pipeline.scopedRest (Ix := Unit) (Name := ℕ) (U := UR sig nD τ) (Lvl := ℕ) (Val := Elt F) spec3 c) := by
  rw [Phi_eq3, Fin.val_last, show cfg3.N = 7 + 1 from N_3, Phi3_succ, scopedRest3_owns]
  iintro ⟨Hg, ⟨HS0, HS1⟩, Hr⟩
  isplitl [Hg]; · iexact Hg
  isplitr [Hr]
  · isplitl [HS0]
    · iexists _; iexact HS0
    · iexists _; iexact HS1
  · iexact Hr

/-! ## The conditions and the schedule, decided over the grid -/

/-- The first condition holds at the first point only. -/
theorem hcondA3 : ∀ t : Fin cfg3.N, condA3 (grid3.coords t) ↔ t.val % 8 = 0 :=
  (by decide +kernel : ∀ t : Fin grid3.N, condA3 (grid3.coords t) ↔ t.val % 8 = 0)
/-- The second condition holds at the last point only. -/
theorem hcondB3 : ∀ t : Fin cfg3.N, condB3 (grid3.coords t) ↔ t.val % 8 = 7 :=
  (by decide +kernel : ∀ t : Fin grid3.N, condB3 (grid3.coords t) ↔ t.val % 8 = 7)

/-- Windows 0–5 are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
/-- Where the second condition fails the statistics window is idle and not written back; where it holds, live. -/
theorem idleAt3_6 : ∀ t : Fin cfg3.N, ¬condB3 (grid3.coords t) → cfg3.idle 6 (grid3.coords t) = true := by decide +kernel
theorem noFlush3_6 : ∀ t : Fin cfg3.N, ¬condB3 (grid3.coords t) → (cfg3.win 6).flush t = false := by decide +kernel
theorem liveAt3_6 : ∀ t : Fin cfg3.N, condB3 (grid3.coords t) → cfg3.idle 6 (grid3.coords t) = false := by decide +kernel

/-- What the body leaves, window by window. -/
theorem after3_0 (V : EntryVal F) (c : Dev nD) (t : Fin cfg3.N) : (dat3 V c).after 0 t = iblk3 V c 0 t := by dsimp only [dat3]
theorem after3_1 (V : EntryVal F) (c : Dev nD) (t : Fin cfg3.N) : (dat3 V c).after 1 t = iblk3 V c 1 t := by dsimp only [dat3]
theorem after3_2 (V : EntryVal F) (c : Dev nD) (t : Fin cfg3.N) : (dat3 V c).after 2 t = iblk3 V c 2 t := by dsimp only [dat3]
theorem after3_3 (V : EntryVal F) (c : Dev nD) (t : Fin cfg3.N) : (dat3 V c).after 3 t = iblk3 V c 3 t := by dsimp only [dat3]
theorem after3_4 (V : EntryVal F) (c : Dev nD) (t : Fin cfg3.N) : (dat3 V c).after 4 t = iblk3 V c 4 t := by dsimp only [dat3]
theorem after3_5 (V : EntryVal F) (c : Dev nD) (t : Fin cfg3.N) :
    (dat3 V c).after 5 t = yOut3 (xb3_0 V c t) (xb3_1 V c t) (xb3_2 V c t) (xb3_3 V c t) (xb3_4 V c t) := by dsimp only [dat3]
theorem after3_6 (V : EntryVal F) (c : Dev nD) (t : Fin cfg3.N) :
    (dat3 V c).after 6 t = stOut3 (SQ3 V c (t.val + 1)).1 (SQ3 V c (t.val + 1)).2 := by dsimp only [dat3]

/-- Each input's current staging buffer holds its block at every point, fetched there or not: an input window of a body
    that leaves its block in place, uncut and never idle. -/
theorem before3_0 (V : EntryVal F) (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (V : EntryVal F) (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (V : EntryVal F) (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (V : EntryVal F) (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (V : EntryVal F) (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

theorem SQ3_succ_fst (V : EntryVal F) (c : Dev nD) (t : Fin cfg3.N) :
    (SQ3 V c (t.val + 1)).1 = sOut3 (xb3_0 V c t) (xb3_1 V c t) (xb3_2 V c t) (xb3_3 V c t) (xb3_4 V c t) (SQ3 V c t.val).1 := by
  rw [SQ3_succ]
theorem SQ3_succ_snd (V : EntryVal F) (c : Dev nD) (t : Fin cfg3.N) :
    (SQ3 V c (t.val + 1)).2 = qOut3 (xb3_0 V c t) (xb3_1 V c t) (xb3_2 V c t) (xb3_3 V c t) (xb3_4 V c t) (SQ3 V c t.val).2 := by
  rw [SQ3_succ]

theorem Phi3_pos (V : EntryVal F) (c : Dev nD) (n : ℕ) (hn : n ≠ 0) :
    Phi3 V c n = iprop((∃ r, prngReg c r)
      ∗ iprop(owns (c : Thread nD τ) scr3_0 fullShare (SQ3 V c n).1 ∗ owns (c : Thread nD τ) scr3_1 fullShare (SQ3 V c n).2)
      ∗ Pipeline.scopedRestBut (Ix := Unit) (Name := ℕ) (U := UR sig nD τ) (Lvl := ℕ) (Val := Elt F) spec3 c [cc3_scratch0, cc3_scratch1]) := by
  cases n with
  | zero => exact absurd rfl hn
  | succ n => rfl

/-! ## The body's triple, case by case -/

set_option maxHeartbeats 1000000 in
/-- The body at a middle point (neither condition holds): the block is computed and stored, the two running sums are
    advanced; the statistics block is not touched. -/
theorem runMid3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA3 i) (hc2 : ¬condB3 i)
    (x0 x1 : Vec F S5000x128 .f32) (x2 : Vec F S1x1 .f32) (x3 : Vec F S128x128 .f32) (x4 : Vec F S1x128 .f32) (x6 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut3 x0 x1 x2 x3 x4) ∗ owns (c : Thread nD τ) arg7 fullShare x6 ∗ owns (c : Thread nD τ) arg8 fullShare (sOut3 x0 x1 x2 x3 x4 s) ∗ owns (c : Thread nD τ) arg9 fullShare (qOut3 x0 x1 x2 x3 x4 q)) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf0; subst hf1; subst hf2; subst hf3; subst hf4; subst hf6; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk3 _ _ _).trans ?_
    rfl
  isplitl [H6]; · iexists f6; isplitr; · ipureintro; rfl
                  iexact H6
  isplitl [H7]
  · iexists _; isplitr
    swap; · iexact H7
    ipureintro
    refine (wrRow3 _ _ _).trans ?_
    rfl
  · iexists _; isplitr
    swap; · iexact H8
    ipureintro
    refine (wrRow3 _ _ _).trans ?_
    rfl

set_option maxHeartbeats 1000000 in
/-- The body at the first point: the two running sums are reset to zero, whatever they held, then as at a middle point. -/
theorem runFirst3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : condA3 i) (hc2 : ¬condB3 i)
    (x0 x1 : Vec F S5000x128 .f32) (x2 : Vec F S1x1 .f32) (x3 : Vec F S128x128 .f32) (x4 : Vec F S1x128 .f32) (x6 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut3 x0 x1 x2 x3 x4) ∗ owns (c : Thread nD τ) arg7 fullShare x6 ∗ owns (c : Thread nD τ) arg8 fullShare (sOut3 x0 x1 x2 x3 x4 k3_pay4) ∗ owns (c : Thread nD τ) arg9 fullShare (qOut3 x0 x1 x2 x3 x4 k3_pay5)) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  subst hf0; subst hf1; subst hf2; subst hf3; subst hf4; subst hf6
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk3 _ _ _).trans ?_
    rfl
  isplitl [H6]; · iexists f6; isplitr; · ipureintro; rfl
                  iexact H6
  isplitl [H7]
  · iexists _; isplitr
    swap; · iexact H7
    ipureintro
    refine (wrRowCons3 _ _ _ _).trans ?_
    sl_unfold_run_names
    first | rfl | (rw [rcRow3]; rfl)
  · iexists _; isplitr
    swap; · iexact H8
    ipureintro
    refine (wrRowCons3 _ _ _ _).trans ?_
    sl_unfold_run_names
    first | rfl | (rw [rcRow3]; rfl)

set_option maxHeartbeats 1000000 in
/-- The body at the last point: as at a middle point, then the statistics are computed from the two running sums and
    stored as the two rows of the statistics block, whatever it held. -/
theorem runLast3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA3 i) (hc2 : condB3 i)
    (x0 x1 : Vec F S5000x128 .f32) (x2 : Vec F S1x1 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut3 x0 x1 x2 x3 x4) ∗ owns (c : Thread nD τ) arg7 fullShare (stOut3 (sOut3 x0 x1 x2 x3 x4 s) (qOut3 x0 x1 x2 x3 x4 q)) ∗ owns (c : Thread nD τ) arg8 fullShare (sOut3 x0 x1 x2 x3 x4 s) ∗ owns (c : Thread nD τ) arg9 fullShare (qOut3 x0 x1 x2 x3 x4 q)) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk3 _ _ _).trans ?_
    rfl
  isplitl [H6]
  · iexists _; isplitr
    swap; · iexact H6
    ipureintro
    refine (View.read_writes_eq_canon _ _ _ (coverSt3 _ _)).trans ?_
    sl_unfold_run_names
    first | rfl | (rw [rcRow3, rcRow3]; rfl)
  isplitl [H7]
  · iexists _; isplitr
    swap; · iexact H7
    ipureintro
    refine (wrRow3 _ _ _).trans ?_
    rfl
  · iexists _; isplitr
    swap; · iexact H8
    ipureintro
    refine (wrRow3 _ _ _).trans ?_
    rfl

/-! ## The body obligation, at a generic point -/

/-- What the body is called with at point `t` (the body obligation's precondition, the windows one by one), -/
def bodyPre3 (V : EntryVal F) (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (V : EntryVal F) (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
/-- The body at any point: the inputs' memrefs hold their blocks; the closed forms of the two conditions say which case
    the point is in; the invariant hands the body the two running sums at what the point before left (at anything at the
    first point) and takes them back advanced; the statistics window is handed back as found where it is idle, and at
    the statistics of the two running sums at the last point; the core owes nothing throughout. -/
theorem sound_body3 (V : EntryVal F) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [Phi_eq3 V c t.succ, Phi_eq3 V c t.castSucc, Fin.val_succ, Fin.val_castSucc, Phi3_succ, SQ3_succ_fst, SQ3_succ_snd]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 8 := lt_of_lt_of_eq t.isLt (show cfg3.N = 8 from N_3)
  by_cases h0 : t.val % 8 = 0
  · have hA : condA3 (grid3.coords t) := (hcondA3 t).mpr h0
    have hB : ¬condB3 (grid3.coords t) := fun h => by have := (hcondB3 t).mp h; omega
    have hz : t.val = 0 := by omega
    rw [Dat.leavesExact_idle (dat3 V c) 6 t (idleAt3_6 t hB) (noFlush3_6 t hB)]
    rw [hz, Phi3_zero, SQ3_zero, scopedRest3_owns]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (runFirst3 c Set.univ (grid3.coords t) _ _ _ _ _ _ _ _ _ _ _ _ _ _ _ _ _ _ hA hB (xb3_0 V c t) (xb3_1 V c t) (xb3_2 V c t) (xb3_3 V c t) (xb3_4 V c t) ((dat3 V c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, H5, H6, HS0, HS1⟩
    isplitl [Hg HS0 HS1 Hr]
    · isplitl [Hg]; · iexact Hg
      isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hA : ¬condA3 (grid3.coords t) := fun h => h0 ((hcondA3 t).mp h)
    have hz : t.val ≠ 0 := fun h => h0 (by rw [h])
    rw [Phi3_pos V c t.val hz]
    by_cases h7 : t.val % 8 = 7
    · have hB : condB3 (grid3.coords t) := (hcondB3 t).mpr h7
      rw [show (dat3 V c).leavesExact 6 t = owns (c : Thread nD τ) (st3_6 t) fullShare ((dat3 V c).after 6 t) from by
        unfold Dat.leavesExact; rw [liveAt3_6 t hB], after3_6, SQ3_succ_fst, SQ3_succ_snd]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runLast3 c Set.univ (grid3.coords t) _ _ _ _ _ _ _ _ _ _ _ _ _ _ _ _ _ _ hA hB (xb3_0 V c t) (xb3_1 V c t) (xb3_2 V c t) (xb3_3 V c t) (xb3_4 V c t) (SQ3 V c t.val).1 (SQ3 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hB : ¬condB3 (grid3.coords t) := fun h => h7 ((hcondB3 t).mp h)
      rw [Dat.leavesExact_idle (dat3 V c) 6 t (idleAt3_6 t hB) (noFlush3_6 t hB)]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runMid3 c Set.univ (grid3.coords t) _ _ _ _ _ _ _ _ _ _ _ _ _ _ _ _ _ _ hA hB (xb3_0 V c t) (xb3_1 V c t) (xb3_2 V c t) (xb3_3 V c t) (xb3_4 V c t) ((dat3 V c).before 6 t d6) (SQ3 V c t.val).1 (SQ3 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (V : EntryVal F) (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the second kernel of a layer (normalise, relu, linear, relu, column statistics) -/

/-! ## The windows' blocks -/

/-- Window `w`'s block at point `t`, read off its array as the region finds it (`V`). -/
def iblk4 (V : EntryVal F) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses -/

abbrev rA4 : Rect S5000x128 := Rect.unit (s := S5000x128) ![0, 0] S5000x128.size inb_S5000x128_S5000x128_0_0
abbrev rR4 : Rect S1x128 := Rect.unit (s := S1x128) ![0, 0] S1x128.size inb_S1x128_S1x128_0_0
abbrev rW4 : Rect S128x128 := Rect.unit (s := S128x128) ![0, 0] S128x128.size inb_S128x128_S128x128_0_0
abbrev rS4_0 : Rect S2x128 := Rect.unit (s := S2x128) ![0, 0] S1x128.size inb_S2x128_S1x128_0_0
abbrev rS4_1 : Rect S2x128 := Rect.unit (s := S2x128) ![1, 0] S1x128.size inb_S2x128_S1x128_1_0

/-- The scratch operands: whole scoped buffers of the kernel's own, passed beside the windows. -/
abbrev scM4_0 : Memref sig .tc .vmem S1x128 .f32 := Memref.whole cc4_scratch0
abbrev scM4_1 : Memref sig .tc .vmem S1x128 .f32 := Memref.whole cc4_scratch1

/-! ## What the body computes -/

/-- The block of the output the body stores at a point, from the input windows' blocks. -/
def blk4 (x0 : Vec F S5000x128 .f32) (x1 : Vec F S2x128 .f32) (x2 x3 : Vec F S1x128 .f32) (x4 : Vec F S128x128 .f32) (x5 : Vec F S1x128 .f32) : FVec F S5000x128 .f32 :=
  k4_pay7 (View.ld x1 rS4_0) (View.ld x1 rS4_1) (View.ld x2 rR4) (View.ld x0 rA4) (View.ld x3 rR4) (View.ld x4 rW4) (View.ld x5 rR4)

/-- The running column sums after a point, from the block stored there and what they were before. -/
def sumStep4 (y : FVec F S5000x128 .f32) (s : Vec F S1x128 .f32) : Vec F S1x128 .f32 :=
  View.canon [⟨rR4, k4_pay1 y (View.ld s rR4)⟩]

/-- The running column sums of squares after a point. -/
def sqStep4 (y : FVec F S5000x128 .f32) (s : Vec F S1x128 .f32) : Vec F S1x128 .f32 :=
  View.canon [⟨rR4, k4_pay2 y (View.ld s rR4)⟩]

/-- What the first point resets the two accumulators to. -/
def sum0_4 : Vec F S1x128 .f32 := View.canon [⟨rR4, k4_pay5 (F := F)⟩]
def sq0_4 : Vec F S1x128 .f32 := View.canon [⟨rR4, k4_pay6 (F := F)⟩]

/-- The statistics the last point stores, from the two accumulators: row 0 then row 1. -/
def stats4 (s q : Vec F S1x128 .f32) : Vec F S2x128 .f32 :=
  View.canon [⟨rS4_1, k4_pay4 (View.ld s rR4) (View.ld q rR4)⟩, ⟨rS4_0, k4_pay3 (View.ld s rR4)⟩]

/-- The block stored at point `t`, from the arrays as the region finds them. -/
def tblk4 (V : EntryVal F) (c : Dev nD) (t : Fin cfg4.N) : FVec F S5000x128 .f32 :=
  blk4 (iblk4 V c 0 t) (iblk4 V c 1 t) (iblk4 V c 2 t) (iblk4 V c 3 t) (iblk4 V c 4 t) (iblk4 V c 5 t)

/-- The two accumulators after the body at position `n`: reset at the first point, then each point's block added. -/
def acc4 (V : EntryVal F) (c : Dev nD) : (n : ℕ) → n < cfg4.N → Vec F S1x128 .f32 × Vec F S1x128 .f32
  | 0, hn => (sumStep4 (tblk4 V c ⟨0, hn⟩) sum0_4, sqStep4 (tblk4 V c ⟨0, hn⟩) sq0_4)
  | n + 1, hn => (sumStep4 (tblk4 V c ⟨n + 1, hn⟩) (acc4 V c n (Nat.lt_of_succ_lt hn)).1,
      sqStep4 (tblk4 V c ⟨n + 1, hn⟩) (acc4 V c n (Nat.lt_of_succ_lt hn)).2)

/-! ## The region invariant -/

/-- Before the first point: the generator register at some state and the scoped rest, as the launch hands them;
    afterwards the two accumulators at what the point before left, the remainder of the scoped rest unopened. -/
def Phi4 (V : EntryVal F) (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r)
      ∗ iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1])

theorem Phi4_zero (V : EntryVal F) (c : Dev nD) (n : ℕ) (h : n ≤ cfg4.N) (hz : n = 0) :
    Phi4 V c n h = iprop((∃ r, prngReg c r) ∗ Pipeline.scopedRest (Ix := Unit) (Name := ℕ) (U := UR sig nD τ) (Lvl := ℕ) (Val := Elt F) spec4 c) := by
  subst hz; rfl

theorem Phi4_succ (V : EntryVal F) (c : Dev nD) (n : ℕ) (hn : n < cfg4.N) :
    Phi4 V c (n + 1) hn = iprop((∃ r, prngReg c r)
      ∗ iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) := rfl

theorem Phi4_pos (V : EntryVal F) (c : Dev nD) (n : ℕ) (h : n ≤ cfg4.N) (hz : n ≠ 0) :
    Phi4 V c n h = iprop((∃ r, prngReg c r)
      ∗ iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The pipeline's proof data -/

/-- Region 4's proof data on core `c`, at the contents `V` the region is entered with. -/
def dat4 (V : EntryVal F) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => View.canon [⟨rA4, tblk4 V c t⟩]
    | ⟨7, _⟩ => stats4 (acc4 V c t.val t.isLt).1 (acc4 V c t.val t.isLt).2
  Φ t := Phi4 V c t.val (Nat.le_of_lt_succ t.isLt)
  q _ := fullShare
  owed _ := 0

theorem A_eq4 (V : EntryVal F) (c : Dev nD) (w : Fin cfg4.W) : (dat4 V c).A w = V c (Pipeline.arrRef spec4 w) := by
  dsimp only [dat4]

theorem q_eq4 (V : EntryVal F) (c : Dev nD) (w : Fin cfg4.W) : (dat4 V c).q w = fullShare := by
  dsimp only [dat4]

theorem owed_eq4 (V : EntryVal F) (c : Dev nD) (t : Fin (cfg4.N + 1)) : (dat4 V c).owed t = 0 := by
  dsimp only [dat4]

theorem hin4 (V : EntryVal F) (c : Dev nD) :
    iprop((∃ r, prngReg c r) ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = Phi4 V c 0 (Nat.zero_le _) from rfl, Phi4_zero V c 0 _ rfl]
  try exact Idealize.SL.BI.Entails.refl _

/-- After any point the invariant gives the launch's form back: the accumulators' named contents are forgotten. -/
theorem Phi4_out (V : EntryVal F) (c : Dev nD) (t : Fin (cfg4.N + 1)) (ht : t.val ≠ 0) :
    ((dat4 V c).Φ t : sProp 𝕄)
      ⊢ iprop((∃ r, prngReg c r) ∗ Pipeline.scopedRest (Ix := Unit) (Name := ℕ) (U := UR sig nD τ) (Lvl := ℕ) (Val := Elt F) spec4 c) := by
  rw [show (dat4 V c).Φ t = Phi4 V c t.val (Nat.le_of_lt_succ t.isLt) from rfl, Phi4_pos V c _ _ ht, scopedRest4_split]
  simp only [scM4_0, scM4_1, owns_whole]
  iintro ⟨Hg, ⟨HS0, HS1⟩, Hr⟩
  isplitl [Hg]; · iexact Hg
  isplitl [HS0 HS1]
  · isplitl [HS0]
    · iexists _; iexact HS0
    · iexists _; iexact HS1
  iexact Hr

theorem hout4 (V : EntryVal F) (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) :=
  Phi4_out V c _ (by rw [Fin.val_last]; have : cfg4.N = 8 := N_4; omega)

/-! ## The body's branch conditions -/

/-- The condition of the body's first `scf.if` (the accumulators are reset), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's second `scf.if` (the statistics are stored). -/
abbrev cond4_1 (i : grid4.Coords) : Prop := k4_cond2 i = 1#1
/-- It holds at the last point only. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
/-- Where the statistics are not stored the statistics window is idle and not written back. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7 : ∀ t : Fin cfg4.N, cond4_1 (grid4.coords t) → cfg4.idle 7 (grid4.coords t) = false := by decide +kernel

/-! ## The body's stores cover their buffers -/

theorem cover4_A (p0 : Vec F S5000x128 .f32) (y : S5000x128.Idx) :
    ∃ pc ∈ ([⟨rA4, p0⟩] : List (View.Piece (Elt F) S5000x128 .f32)), y ∈ pc.1.set :=
  View.cover_of_tiled [⟨rA4, p0⟩] S5000x128.size (by rfl) y

theorem cover4_R (p0 : Vec F S1x128 .f32) (y : S1x128.Idx) :
    ∃ pc ∈ ([⟨rR4, p0⟩] : List (View.Piece (Elt F) S1x128 .f32)), y ∈ pc.1.set :=
  View.cover_of_tiled [⟨rR4, p0⟩] S1x128.size (by rfl) y

theorem cover4_R2 (p0 p1 : Vec F S1x128 .f32) (y : S1x128.Idx) :
    ∃ pc ∈ ([⟨rR4, p0⟩, ⟨rR4, p1⟩] : List (View.Piece (Elt F) S1x128 .f32)), y ∈ pc.1.set :=
  View.cover_of_tiled [⟨rR4, p0⟩, ⟨rR4, p1⟩] S1x128.size (by rfl) y

theorem cover4_S (p0 p1 : Vec F S1x128 .f32) (y : S2x128.Idx) :
    ∃ pc ∈ ([⟨rS4_1, p1⟩, ⟨rS4_0, p0⟩] : List (View.Piece (Elt F) S2x128 .f32)), y ∈ pc.1.set :=
  View.cover_of_tiled [⟨rS4_1, p1⟩, ⟨rS4_0, p0⟩] S1x128.size (by rfl) y

/-- A whole-buffer store shadows whatever was stored before it. -/
theorem canon4_R_cons (p : Vec F S1x128 .f32) (L : List (View.Piece (Elt F) S1x128 .f32)) :
    View.canon (⟨rR4, p⟩ :: L) = View.canon [⟨rR4, p⟩] := by
  funext y
  obtain ⟨pc, hpc, hy⟩ := cover4_R p y
  simp only [List.mem_cons, List.not_mem_nil, or_false] at hpc
  subst hpc
  obtain ⟨x, rfl⟩ : ∃ x, (rR4).emb x = y := (rR4).exists_idx_of_mem hy
  rw [View.canon_cons_emb, View.canon_cons_emb]

/-- A load of an accumulator after a whole-buffer store into it reads what the store leaves. -/
theorem readCov4_R (v : View sig .tc .vmem S1x128 .f32) (p : Vec F S1x128 .f32) :
    v.readCov [⟨rR4, p⟩] (rR4).toLoadRect = View.ld (View.canon [⟨rR4, p⟩]) rR4 :=
  View.readCov_eq_canon_ld v _ rR4 (cover4_R p)

/-- The first point's accumulators, with the load that follows the reset spelt as the run finds it. -/
theorem sumStep4_first (v : View sig .tc .vmem S1x128 .f32) (y : FVec F S5000x128 .f32) :
    sumStep4 y (sum0_4 (F := F)) = View.canon [⟨rR4, k4_pay1 y (v.readCov [⟨rR4, k4_pay5 (F := F)⟩] (rR4).toLoadRect)⟩] := by
  unfold sumStep4 sum0_4; rw [readCov4_R]

theorem sqStep4_first (v : View sig .tc .vmem S1x128 .f32) (y : FVec F S5000x128 .f32) :
    sqStep4 y (sq0_4 (F := F)) = View.canon [⟨rR4, k4_pay2 y (v.readCov [⟨rR4, k4_pay6 (F := F)⟩] (rR4).toLoadRect)⟩] := by
  unfold sqStep4 sq0_4; rw [readCov4_R]

/-- The statistics, with the loads of the two accumulators after their last stores spelt as the run finds them. -/
theorem stats4_eq (v9 v10 : View sig .tc .vmem S1x128 .f32) (y : FVec F S5000x128 .f32) (s q : Vec F S1x128 .f32) :
    stats4 (sumStep4 y s) (sqStep4 y q)
      = View.canon [⟨rS4_1, k4_pay4 (v9.readCov [⟨rR4, k4_pay1 y (View.ld s rR4)⟩] (rR4).toLoadRect) (v10.readCov [⟨rR4, k4_pay2 y (View.ld q rR4)⟩] (rR4).toLoadRect)⟩,
          ⟨rS4_0, k4_pay3 (v9.readCov [⟨rR4, k4_pay1 y (View.ld s rR4)⟩] (rR4).toLoadRect)⟩] := by
  unfold stats4 sumStep4 sqStep4; rw [readCov4_R, readCov4_R]

set_option maxHeartbeats 1000000 in
/-- The body at the first point: both accumulators are reset, then the block is stored and added; the statistics
    window is handed back untouched. -/
theorem run4_first (c : Dev nD) (E : Set ℕ) (i : grid4.Coords) (hc0 : cond4_0 i) (hc1 : ¬cond4_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA4, blk4 x0 x1 x2 x3 x4 x5⟩]) ∗ owns (c : Thread nD τ) arg8 fullShare xi7
            ∗ owns (c : Thread nD τ) arg9 fullShare (sumStep4 (blk4 x0 x1 x2 x3 x4 x5) sum0_4) ∗ owns (c : Thread nD τ) arg10 fullShare (sqStep4 (blk4 x0 x1 x2 x3 x4 x5) sq0_4)) -∗ K ⟨⟩))
      ⊢ wp frame (wpE (defs₀ (F := F)) Variants.none c none) E (cc4__bn_relu_linear_stats_kernel i arg1 harg1 arg2 harg2 arg3 harg3 arg4 harg4 arg5 harg5 arg6 harg6 arg7 harg7 arg8 harg8 arg9 harg9 arg10 harg10) K := by
  simp only [cc4__bn_relu_linear_stats_kernel_eq_skeleton]; unfold cc4__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4_A _)).trans ?_
    sl_unfold_run_names
    rfl
  isplitl [H7]
  · iexists f7; isplitr; · ipureintro; rfl
    iexact H7
  isplitl [H8]
  · iexists _; isplitr
    swap; · iexact H8
    ipureintro
    sl_unfold_run_names
    refine (View.read_writes_eq_canon _ _ _ (cover4_R2 _ _)).trans ?_
    refine (canon4_R_cons _ _).trans ?_
    refine Eq.trans ?_ (sumStep4_first arg9.view _).symm
    rfl
  · iexists _; isplitr
    swap; · iexact H9
    ipureintro
    sl_unfold_run_names
    refine (View.read_writes_eq_canon _ _ _ (cover4_R2 _ _)).trans ?_
    refine (canon4_R_cons _ _).trans ?_
    refine Eq.trans ?_ (sqStep4_first arg10.view _).symm
    rfl

set_option maxHeartbeats 1000000 in
/-- The body at a point that is neither the first nor the last: the block is stored, the accumulators grow, the
    statistics window is handed back untouched. -/
theorem run4_mid (c : Dev nD) (E : Set ℕ) (i : grid4.Coords) (hc0 : ¬cond4_0 i) (hc1 : ¬cond4_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA4, blk4 x0 x1 x2 x3 x4 x5⟩]) ∗ owns (c : Thread nD τ) arg8 fullShare xi7
            ∗ owns (c : Thread nD τ) arg9 fullShare (sumStep4 (blk4 x0 x1 x2 x3 x4 x5) s) ∗ owns (c : Thread nD τ) arg10 fullShare (sqStep4 (blk4 x0 x1 x2 x3 x4 x5) q)) -∗ K ⟨⟩))
      ⊢ wp frame (wpE (defs₀ (F := F)) Variants.none c none) E (cc4__bn_relu_linear_stats_kernel i arg1 harg1 arg2 harg2 arg3 harg3 arg4 harg4 arg5 harg5 arg6 harg6 arg7 harg7 arg8 harg8 arg9 harg9 arg10 harg10) K := by
  simp only [cc4__bn_relu_linear_stats_kernel_eq_skeleton]; unfold cc4__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4_A _)).trans ?_
    sl_unfold_run_names
    rfl
  isplitl [H7]
  · iexists f7; isplitr; · ipureintro; rfl
    iexact H7
  isplitl [H8]
  · iexists _; isplitr
    swap; · iexact H8
    ipureintro
    refine (View.read_writes_eq_canon _ _ _ (cover4_R _)).trans ?_
    sl_unfold_run_names
    rfl
  · iexists _; isplitr
    swap; · iexact H9
    ipureintro
    refine (View.read_writes_eq_canon _ _ _ (cover4_R _)).trans ?_
    sl_unfold_run_names
    rfl

set_option maxHeartbeats 1000000 in
/-- The body at the last point: the block is stored and added, then the statistics are computed from the two
    accumulators and stored as the two rows of the statistics window. -/
theorem run4_last (c : Dev nD) (E : Set ℕ) (i : grid4.Coords) (hc0 : ¬cond4_0 i) (hc1 : cond4_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA4, blk4 x0 x1 x2 x3 x4 x5⟩])
            ∗ owns (c : Thread nD τ) arg8 fullShare (stats4 (sumStep4 (blk4 x0 x1 x2 x3 x4 x5) s) (sqStep4 (blk4 x0 x1 x2 x3 x4 x5) q))
            ∗ owns (c : Thread nD τ) arg9 fullShare (sumStep4 (blk4 x0 x1 x2 x3 x4 x5) s) ∗ owns (c : Thread nD τ) arg10 fullShare (sqStep4 (blk4 x0 x1 x2 x3 x4 x5) q)) -∗ K ⟨⟩))
      ⊢ wp frame (wpE (defs₀ (F := F)) Variants.none c none) E (cc4__bn_relu_linear_stats_kernel i arg1 harg1 arg2 harg2 arg3 harg3 arg4 harg4 arg5 harg5 arg6 harg6 arg7 harg7 arg8 harg8 arg9 harg9 arg10 harg10) K := by
  simp only [cc4__bn_relu_linear_stats_kernel_eq_skeleton]; unfold cc4__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0 hf1 hf2 hf3 hf4 hf5 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4_A _)).trans ?_
    sl_unfold_run_names
    rfl
  isplitl [H7]
  · iexists _; isplitr
    swap; · iexact H7
    ipureintro
    sl_unfold_run_names
    refine (View.read_writes_eq_canon _ _ _ (cover4_S _ _)).trans ?_
    refine Eq.trans ?_ (stats4_eq arg9.view arg10.view _ _ _).symm
    rfl
  isplitl [H8]
  · iexists _; isplitr
    swap; · iexact H8
    ipureintro
    refine (View.read_writes_eq_canon _ _ _ (cover4_R _)).trans ?_
    sl_unfold_run_names
    rfl
  · iexists _; isplitr
    swap; · iexact H9
    ipureintro
    refine (View.read_writes_eq_canon _ _ _ (cover4_R _)).trans ?_
    sl_unfold_run_names
    rfl

/-! ## What the inputs' staging buffers hold at a point -/

theorem before4_0_of (V : EntryVal F) {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of (V : EntryVal F) {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of (V : EntryVal F) {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of (V : EntryVal F) {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of (V : EntryVal F) {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of (V : EntryVal F) {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem after4_0 (V : EntryVal F) (c : Dev nD) (t : Fin cfg4.N) : (dat4 V c).after 0 t = iblk4 V c 0 t := by dsimp only [dat4]
theorem after4_1 (V : EntryVal F) (c : Dev nD) (t : Fin cfg4.N) : (dat4 V c).after 1 t = iblk4 V c 1 t := by dsimp only [dat4]
theorem after4_2 (V : EntryVal F) (c : Dev nD) (t : Fin cfg4.N) : (dat4 V c).after 2 t = iblk4 V c 2 t := by dsimp only [dat4]
theorem after4_3 (V : EntryVal F) (c : Dev nD) (t : Fin cfg4.N) : (dat4 V c).after 3 t = iblk4 V c 3 t := by dsimp only [dat4]
theorem after4_4 (V : EntryVal F) (c : Dev nD) (t : Fin cfg4.N) : (dat4 V c).after 4 t = iblk4 V c 4 t := by dsimp only [dat4]
theorem after4_5 (V : EntryVal F) (c : Dev nD) (t : Fin cfg4.N) : (dat4 V c).after 5 t = iblk4 V c 5 t := by dsimp only [dat4]
theorem after4_6 (V : EntryVal F) (c : Dev nD) (t : Fin cfg4.N) : (dat4 V c).after 6 t = View.canon [⟨rA4, tblk4 V c t⟩] := by dsimp only [dat4]
theorem after4_7 (V : EntryVal F) (c : Dev nD) (t : Fin cfg4.N) : (dat4 V c).after 7 t = stats4 (acc4 V c t.val t.isLt).1 (acc4 V c t.val t.isLt).2 := by dsimp only [dat4]

theorem before4_0 (V : EntryVal F) (c : Dev nD) (t : Fin cfg4.N) (d) : (dat4 V c).before 0 t d = iblk4 V c 0 t :=
  before4_0_of V (dat4 V c) (A_eq4 V c 0) (after4_0 V c) t d
theorem before4_1 (V : EntryVal F) (c : Dev nD) (t : Fin cfg4.N) (d) : (dat4 V c).before 1 t d = iblk4 V c 1 t :=
  before4_1_of V (dat4 V c) (A_eq4 V c 1) (after4_1 V c) t d
theorem before4_2 (V : EntryVal F) (c : Dev nD) (t : Fin cfg4.N) (d) : (dat4 V c).before 2 t d = iblk4 V c 2 t :=
  before4_2_of V (dat4 V c) (A_eq4 V c 2) (after4_2 V c) t d
theorem before4_3 (V : EntryVal F) (c : Dev nD) (t : Fin cfg4.N) (d) : (dat4 V c).before 3 t d = iblk4 V c 3 t :=
  before4_3_of V (dat4 V c) (A_eq4 V c 3) (after4_3 V c) t d
theorem before4_4 (V : EntryVal F) (c : Dev nD) (t : Fin cfg4.N) (d) : (dat4 V c).before 4 t d = iblk4 V c 4 t :=
  before4_4_of V (dat4 V c) (A_eq4 V c 4) (after4_4 V c) t d
theorem before4_5 (V : EntryVal F) (c : Dev nD) (t : Fin cfg4.N) (d) : (dat4 V c).before 5 t d = iblk4 V c 5 t :=
  before4_5_of V (dat4 V c) (A_eq4 V c 5) (after4_5 V c) t d

/-! ## The accumulators, point by point -/

theorem acc4_first (V : EntryVal F) (c : Dev nD) (t : Fin cfg4.N) (hz : t.val = 0) :
    acc4 V c t.val t.isLt = (sumStep4 (tblk4 V c t) sum0_4, sqStep4 (tblk4 V c t) sq0_4) := by
  obtain ⟨n, hn⟩ := t
  cases n with
  | zero => rfl
  | succ n => exact absurd hz (Nat.succ_ne_zero n)

theorem acc4_pos (V : EntryVal F) (c : Dev nD) (t : Fin cfg4.N) (hz : t.val ≠ 0) :
    acc4 V c t.val t.isLt = (sumStep4 (tblk4 V c t) (acc4 V c (t.val - 1) (Nat.lt_of_le_of_lt (Nat.sub_le _ _) t.isLt)).1,
      sqStep4 (tblk4 V c t) (acc4 V c (t.val - 1) (Nat.lt_of_le_of_lt (Nat.sub_le _ _) t.isLt)).2) := by
  obtain ⟨n, hn⟩ := t
  cases n with
  | zero => exact absurd rfl hz
  | succ n => rfl

/-- The launch's form of the invariant with the two accumulators as memrefs owned at some contents. -/
theorem Phi4_first_eq (c : Dev nD) :
    (iprop((∃ r, prngReg c r) ∗ Pipeline.scopedRest (Ix := Unit) (Name := ℕ) (U := UR sig nD τ) (Lvl := ℕ) (Val := Elt F) spec4 c) : sProp 𝕄)
      = iprop((∃ r, prngReg c r)
          ∗ iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

theorem Phi4_castSucc (V : EntryVal F) (c : Dev nD) (t : Fin cfg4.N) :
    (dat4 V c).Φ t.castSucc = Phi4 V c t.val (Nat.le_of_lt t.isLt) := by
  dsimp only [dat4]; simp only [Fin.coe_castSucc]

/-! ## The body obligation, at a generic point -/

def bodyPre4 (V : EntryVal F) (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (V : EntryVal F) (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point: the inputs' memrefs hold their blocks; the point's position says which case it is in; the
    invariant hands the body the two accumulators at what the point before left (at anything at the first point) and
    takes them back at this point's contents; the core owes nothing throughout. -/
theorem sound_body4 (V : EntryVal F) (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  have hN : t.val < 8 := lt_of_lt_of_eq t.isLt (show cfg4.N = 8 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  rw [show (dat4 V c).leavesExact 6 t = owns (c : Thread nD τ) (st4_6 t) fullShare ((dat4 V c).after 6 t) from by
    unfold Dat.leavesExact; rw [liveAt4_6 t], after4_6]
  by_cases h0 : t.val % 8 = 0
  · have hz : t.val = 0 := by omega
    have h1 : ¬t.val % 8 = 7 := by omega
    rw [Dat.leavesExact_idle (dat4 V c) 7 t (idleAt4_7 t (fun h => h1 ((hcond4_1 t).mp h))) (noFlush4_7 t (fun h => h1 ((hcond4_1 t).mp h)))]
    rw [acc4_first V c t hz]
    rw [Phi4_castSucc V c t, Phi4_zero V c _ _ hz, Phi4_first_eq]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run4_first c Set.univ (grid4.coords t) ((hcond4_0 t).mpr h0) (fun h => h1 ((hcond4_1 t).mp h)) _ _ _ _ _ _ _ _ _ _ _ _ _ _ _ _ _ _ _ _
      (iblk4 V c 0 t) (iblk4 V c 1 t) (iblk4 V c 2 t) (iblk4 V c 3 t) (iblk4 V c 4 t) (iblk4 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 8 = 7
    · have hz : t.val ≠ 0 := by omega
      rw [show (dat4 V c).leavesExact 7 t = owns (c : Thread nD τ) (st4_7 t) fullShare ((dat4 V c).after 7 t) from by
        unfold Dat.leavesExact; rw [liveAt4_7 t ((hcond4_1 t).mpr h1)], after4_7]
      rw [acc4_pos V c t hz]
      rw [Phi4_castSucc V c t, Phi4_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run4_last c Set.univ (grid4.coords t) (fun h => h0 ((hcond4_0 t).mp h)) ((hcond4_1 t).mpr h1) _ _ _ _ _ _ _ _ _ _ _ _ _ _ _ _ _ _ _ _
        (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hz : t.val ≠ 0 := by omega
      rw [Dat.leavesExact_idle (dat4 V c) 7 t (idleAt4_7 t (fun h => h1 ((hcond4_1 t).mp h))) (noFlush4_7 t (fun h => h1 ((hcond4_1 t).mp h)))]
      rw [acc4_pos V c t hz]
      rw [Phi4_castSucc V c t, Phi4_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run4_mid c Set.univ (grid4.coords t) (fun h => h0 ((hcond4_0 t).mp h)) (fun h => h1 ((hcond4_1 t).mp h)) _ _ _ _ _ _ _ _ _ _ _ _ _ _ _ _ _ _ _ _
        (iblk4 V c 0 t) (iblk4 V c 1 t) (iblk4 V c 2 t) (iblk4 V c 3 t) (iblk4 V c 4 t) (iblk4 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation4 (V : EntryVal F) (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the final batch-normalisation kernel (five windows: the activations' row block, the two statistics
rows, the scale row, the shift row; the output's row block) -/

/-! ## The windows' blocks -/

/-- Window `w`'s block at point `t`, read off its array as the region finds it. -/
def iblk5 (V : EntryVal F) (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- An input window's current staging buffer holds its block at every point, fetched there or not (unfetched, the
    block index has not moved), for any proof data whose array is the entry contents and whose body leaves the
    block in place. One lemma per input window. -/
theorem before5_0_of (V : EntryVal F) {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of (V : EntryVal F) {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of (V : EntryVal F) {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of (V : EntryVal F) {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- Row 0 of the statistics block (the mean). -/
abbrev r5_m : Rect S2x128 := Rect.unit (s := S2x128) ![0, 0] S1x128.size inb_S2x128_S1x128_0_0
/-- Row 1 of the statistics block (the variance). -/
abbrev r5_v : Rect S2x128 := Rect.unit (s := S2x128) ![1, 0] S1x128.size inb_S2x128_S1x128_1_0
/-- A whole row vector. -/
abbrev r5_r : Rect S1x128 := Rect.unit (s := S1x128) ![0, 0] S1x128.size inb_S1x128_S1x128_0_0
/-- A whole row block. -/
abbrev r5_b : Rect S5000x128 := Rect.unit (s := S5000x128) ![0, 0] S5000x128.size inb_S5000x128_S5000x128_0_0

/-! ## What the body leaves in the output window's buffer -/

/-- The output's staging buffer after the body, from the input windows' blocks: its one store, of the payload
    at the five values loaded. -/
def out5_4 (x0 : Vec F S5000x128 .f32) (x1 : Vec F S2x128 .f32) (x2 : Vec F S1x128 .f32) (x3 : Vec F S1x128 .f32) : Vec F S5000x128 .f32 :=
  View.canon [⟨r5_b, k5_pay1 (View.ld x1 r5_m) (View.ld x1 r5_v) (View.ld x2 r5_r) (View.ld x0 r5_b) (View.ld x3 r5_r)⟩]

/-- The store is of the whole buffer, so it covers it. -/
theorem cover5_4 (p0 : Vec F S5000x128 .f32) (y : S5000x128.Idx) :
    ∃ pc ∈ ([⟨r5_b, p0⟩] : List (View.Piece (Elt F) S5000x128 .f32)), y ∈ pc.1.set :=
  View.cover_of_tiled [⟨r5_b, p0⟩] S5000x128.size (by rfl) y

/-! ## The body's triple -/

set_option maxHeartbeats 1000000 in
/-- The kernel body on whole staging memrefs, the inputs' at read contents and the output's at anything, runs to
    the continuation holding the inputs' as they were and the output's at `out5_4` of the inputs' (the value it
    loads from the output's buffer before storing is not used). -/
theorem sound_kernel5 (c : Dev nD) (E : Set ℕ) (i : grid5.Coords)
    (arg1 : Memref sig .tc .vmem S5000x128 .f32) (harg1 : arg1.IsWhole) (arg2 : Memref sig .tc .vmem S2x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__bn_relu_final_kernel i arg1 harg1 arg2 harg2 arg3 harg3 arg4 harg4 arg5 harg5) K := by
  simp only [cc5__bn_relu_final_kernel_eq_skeleton]; unfold cc5__bn_relu_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- Region 5's proof data on core `c`, at the contents `V` the region is entered with: after the body at a point
    each input's buffer holds its block and the output's `out5_4` of the input blocks; the invariant is the scoped
    rest and the generator register, untouched; nothing owed; full shares. -/
def dat5 (V : EntryVal F) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (V : EntryVal F) (c : Dev nD) (w : Fin cfg5.W) : (dat5 V c).A w = V c (Pipeline.arrRef spec5 w) := by
  dsimp only [dat5]

theorem q_eq5 (V : EntryVal F) (c : Dev nD) (w : Fin cfg5.W) : (dat5 V c).q w = fullShare := by
  dsimp only [dat5]

theorem owed_eq5 (V : EntryVal F) (c : Dev nD) (t : Fin (cfg5.N + 1)) : (dat5 V c).owed t = 0 := by
  dsimp only [dat5]

/-- What the body leaves, window by window. -/
theorem after5_0 (V : EntryVal F) (c : Dev nD) (t : Fin cfg5.N) : (dat5 V c).after 0 t = iblk5 V c 0 t := by dsimp only [dat5]
theorem after5_1 (V : EntryVal F) (c : Dev nD) (t : Fin cfg5.N) : (dat5 V c).after 1 t = iblk5 V c 1 t := by dsimp only [dat5]
theorem after5_2 (V : EntryVal F) (c : Dev nD) (t : Fin cfg5.N) : (dat5 V c).after 2 t = iblk5 V c 2 t := by dsimp only [dat5]
theorem after5_3 (V : EntryVal F) (c : Dev nD) (t : Fin cfg5.N) : (dat5 V c).after 3 t = iblk5 V c 3 t := by dsimp only [dat5]
theorem after5_4 (V : EntryVal F) (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (V : EntryVal F) (c : Dev nD) (t : Fin cfg5.N) (d) : (dat5 V c).before 0 t d = iblk5 V c 0 t :=
  before5_0_of V (dat5 V c) (A_eq5 V c 0) (after5_0 V c) t d
theorem before5_1 (V : EntryVal F) (c : Dev nD) (t : Fin cfg5.N) (d) : (dat5 V c).before 1 t d = iblk5 V c 1 t :=
  before5_1_of V (dat5 V c) (A_eq5 V c 1) (after5_1 V c) t d
theorem before5_2 (V : EntryVal F) (c : Dev nD) (t : Fin cfg5.N) (d) : (dat5 V c).before 2 t d = iblk5 V c 2 t :=
  before5_2_of V (dat5 V c) (A_eq5 V c 2) (after5_2 V c) t d
theorem before5_3 (V : EntryVal F) (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (V : EntryVal F) (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (V : EntryVal F) (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the kernel's triple applies; the invariant and
    the core's tallies pass through unread. -/
theorem sound_body5 (V : EntryVal F) (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (V : EntryVal F) (c : Dev nD) : BodyObligation (dat5 (F := F) V c) (defs₀ (F := F)) Variants.none () Set.univ := fun t => by
  rw [bigSep_W5, bigSep_W5]
  exact sound_body5 V c t

theorem hin5 (V : EntryVal F) (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp 𝕄) := by
  rw [show (dat5 V c).Φ 0 = Pipeline.ΦA spec5 c from rfl]; unfold Pipeline.ΦA
  iintro ⟨Hp, Hr⟩
  isplitl [Hr]; · iexact Hr
  iexact Hp

theorem hout5 (V : EntryVal F) (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end Cert.Kernel.Hand

end
-- ==== Proof.K.Reg6.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The frame of kernel region 6: the affine map of the combined rows, block by block, with its column statistics

The kernel runs over 8 row blocks. At each point it stores the block's affine image and adds the block's column
sums and column sums of squares to two running sums it carries between the points in two scratch buffers, which it
resets at the first point; at the last point it stores the mean and the clamped variance computed from the two
running sums. The proof data names what the two scratch buffers hold before each point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinate -/

/-- The condition of the first `scf.if` (the grid coordinate is 0), as the kernel's scalar chain computes it. -/
abbrev condA6 (i : grid6.Coords) : Prop := (Scalar.cmpi .ne (Scalar.extui (Scalar.cmpi .eq (BitVec.ofNat 32 (i 0).val) 0#32)) 0#32) = 1#1
/-- The condition of the second `scf.if` (the grid coordinate is 7). -/
abbrev condB6 (i : grid6.Coords) : Prop := k6_cond2 i = 1#1

/-! ## The rectangles of the body's accesses and what a whole-buffer access reads and leaves -/

theorem zz6 : (![0, 0] : Fin 2 → Nat) = fun _ => 0 := by funext a; fin_cases a <;> rfl

abbrev rBlk6 : Rect S5000x128 := Rect.unit (s := S5000x128) ![0, 0] S5000x128.size inb_S5000x128_S5000x128_0_0
abbrev rRow6 : Rect S1x128 := Rect.unit (s := S1x128) ![0, 0] S1x128.size inb_S1x128_S1x128_0_0
abbrev rOne6 : Rect S1x1 := Rect.unit (s := S1x1) ![0, 0] S1x1.size inb_S1x1_S1x1_0_0
abbrev rWt6 : Rect S128x128 := Rect.unit (s := S128x128) ![0, 0] S128x128.size inb_S128x128_S128x128_0_0
abbrev rSt6_0 : Rect S2x128 := Rect.unit (s := S2x128) ![0, 0] S1x128.size inb_S2x128_S1x128_0_0
abbrev rSt6_1 : Rect S2x128 := Rect.unit (s := S2x128) ![1, 0] S1x128.size inb_S2x128_S1x128_1_0

/-- A load through the whole buffer reads its contents. -/
theorem ldBlk6 (X : Vec F S5000x128 .f32) : View.ld X rBlk6 = X := View.ld_unit_zero zz6 _ X
theorem ldRow6 (X : Vec F S1x128 .f32) : View.ld X rRow6 = X := View.ld_unit_zero zz6 _ X
theorem ldOne6 (X : Vec F S1x1 .f32) : View.ld X rOne6 = X := View.ld_unit_zero zz6 _ X
theorem ldWt6 (X : Vec F S128x128 .f32) : View.ld X rWt6 = X := View.ld_unit_zero zz6 _ X

/-! ## What the body leaves, from what it reads -/

/-- The output block: the affine map of the combined input rows. -/
def yOut6 (x0 x1 : Vec F S5000x128 .f32) (x2 : Vec F S1x1 .f32) (x3 : Vec F S128x128 .f32) (x4 : Vec F S1x128 .f32) : Vec F S5000x128 .f32 :=
  k6_pay6 (View.ld x2 rOne6) (View.ld x0 rBlk6) (View.ld x1 rBlk6) (View.ld x3 rWt6) (View.ld x4 rRow6)
/-- The running column sums after the block is added to `s`. -/
def sOut6 (x0 x1 : Vec F S5000x128 .f32) (x2 : Vec F S1x1 .f32) (x3 : Vec F S128x128 .f32) (x4 : Vec F S1x128 .f32) (s : Vec F S1x128 .f32) : Vec F S1x128 .f32 :=
  k6_pay7 (View.ld x2 rOne6) (View.ld x0 rBlk6) (View.ld x1 rBlk6) (View.ld x3 rWt6) (View.ld x4 rRow6) (View.ld s rRow6)
/-- The running column sums of squares after the block's squares are added to `q`. -/
def qOut6 (x0 x1 : Vec F S5000x128 .f32) (x2 : Vec F S1x1 .f32) (x3 : Vec F S128x128 .f32) (x4 : Vec F S1x128 .f32) (q : Vec F S1x128 .f32) : Vec F S1x128 .f32 :=
  k6_pay1 (k6_pay8 (View.ld x2 rOne6) (View.ld x0 rBlk6) (View.ld x1 rBlk6) (View.ld x3 rWt6) (View.ld x4 rRow6) (View.ld q rRow6))
/-- The statistics block from the two running sums: row 0 the mean, row 1 the clamped variance (the two row stores, last first). -/
def stOut6 (s q : Vec F S1x128 .f32) : Vec F S2x128 .f32 :=
  View.canon [⟨rSt6_1, k6_pay3 (View.ld s rRow6) (View.ld q rRow6)⟩, ⟨rSt6_0, k6_pay2 (View.ld s rRow6)⟩]

theorem yOut6_eq (x0 x1 : Vec F S5000x128 .f32) (x2 : Vec F S1x1 .f32) (x3 : Vec F S128x128 .f32) (x4 : Vec F S1x128 .f32) :
    yOut6 x0 x1 x2 x3 x4 = k6_pay6 x2 x0 x1 x3 x4 := by
  unfold yOut6; rw [ldOne6, ldBlk6, ldBlk6, ldWt6, ldRow6]
theorem sOut6_eq (x0 x1 : Vec F S5000x128 .f32) (x2 : Vec F S1x1 .f32) (x3 : Vec F S128x128 .f32) (x4 : Vec F S1x128 .f32) (s : Vec F S1x128 .f32) :
    sOut6 x0 x1 x2 x3 x4 s = k6_pay7 x2 x0 x1 x3 x4 s := by
  unfold sOut6; rw [ldOne6, ldBlk6, ldBlk6, ldWt6, ldRow6, ldRow6]
theorem qOut6_eq (x0 x1 : Vec F S5000x128 .f32) (x2 : Vec F S1x1 .f32) (x3 : Vec F S128x128 .f32) (x4 : Vec F S1x128 .f32) (q : Vec F S1x128 .f32) :
    qOut6 x0 x1 x2 x3 x4 q = k6_pay1 (k6_pay8 x2 x0 x1 x3 x4 q) := by
  unfold qOut6; rw [ldOne6, ldBlk6, ldBlk6, ldWt6, ldRow6, ldRow6]
theorem stOut6_eq (s q : Vec F S1x128 .f32) :
    stOut6 s q = View.canon [⟨rSt6_1, k6_pay3 s q⟩, ⟨rSt6_0, k6_pay2 s⟩] := by
  unfold stOut6; rw [ldRow6, ldRow6]

/-- The two row stores cover the statistics block. -/
theorem coverSt6 (p1 p0 : Vec F S1x128 .f32) (y : S2x128.Idx) :
    ∃ pc ∈ ([⟨rSt6_1, p1⟩, ⟨rSt6_0, p0⟩] : List (View.Piece (Elt F) S2x128 .f32)), y ∈ pc.1.set :=
  View.cover_of_tiled [⟨rSt6_1, p1⟩, ⟨rSt6_0, p0⟩] S1x128.size (by rfl) y

/-- One store through the whole buffer leaves its payload, whatever the buffer held. -/
theorem wrBlk6 {κ : Kind} {sp : Space} (v : View sig κ sp S5000x128 .f32) (f : v.ty.Contents (Elt F)) (w : Vec F S5000x128 .f32) :
    v.read (Elt F) (v.writes (Elt F) f [⟨rBlk6, w⟩]) = w :=
  (View.read_writes_eq_canon v f _ (View.cover_of_tiled [⟨rBlk6, w⟩] S5000x128.size (by rfl))).trans (View.canon_unit_zero zz6 _ w)
theorem wrRow6 {κ : Kind} {sp : Space} (v : View sig κ sp S1x128 .f32) (f : v.ty.Contents (Elt F)) (w : Vec F S1x128 .f32) :
    v.read (Elt F) (v.writes (Elt F) f [⟨rRow6, w⟩]) = w :=
  (View.read_writes_eq_canon v f _ (View.cover_of_tiled [⟨rRow6, w⟩] S1x128.size (by rfl))).trans (View.canon_unit_zero zz6 _ w)
/-- Two stores through the whole buffer leave the later payload. -/
theorem wrRowTwo6 {κ : Kind} {sp : Space} (v : View sig κ sp S1x128 .f32) (f : v.ty.Contents (Elt F)) (w w' : Vec F S1x128 .f32) :
    v.read (Elt F) (v.writes (Elt F) f [⟨rRow6, w⟩, ⟨rRow6, w'⟩]) = w :=
  (View.read_writes_eq_canon v f _ (fun y => by
    obtain ⟨p, hp, hy⟩ := View.cover_of_tiled [(⟨rRow6, w⟩ : View.Piece (Elt F) S1x128 .f32)] S1x128.size (by rfl) y
    exact ⟨p, List.mem_cons.mpr (Or.inl (List.mem_singleton.mp hp)), hy⟩)).trans (View.canon_cons_unit_zero zz6 _ w _)
/-- A load through the whole buffer after one store through it reads the payload. -/
theorem rcRow6 {κ : Kind} {sp : Space} (v : View sig κ sp S1x128 .f32) (w : Vec F S1x128 .f32) :
    v.readCov [(⟨rRow6, w⟩ : View.Piece (Elt F) S1x128 .f32)] rRow6.toLoadRect = View.ld w rRow6 :=
  (View.readCov_unit_zero v zz6 _ w).trans (ldRow6 w).symm

/-- A store through the whole buffer, LAST, leaves its payload whatever the earlier stores were. -/
theorem wrRowCons6 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow6, w⟩ :: L)) = w :=
  (View.read_writes_eq_canon v f _ (fun y => by
    obtain ⟨p, hp, hy⟩ := View.cover_of_tiled [(⟨rRow6, w⟩ : View.Piece (Elt F) S1x128 .f32)] S1x128.size (by rfl) y
    exact ⟨p, List.mem_cons.mpr (Or.inl (List.mem_singleton.mp hp)), hy⟩)).trans (View.canon_cons_unit_zero zz6 _ w L)

/-! ## The windows' blocks -/

/-- Window `w`'s block at point `t`, read off its array as the region finds it (`V`). -/
def iblk6 (V : EntryVal F) (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The five input blocks at point `t`, at their literal vector types. -/
def xb6_0 (V : EntryVal F) (c : Dev nD) (t : Fin cfg6.N) : Vec F S5000x128 .f32 := iblk6 V c 0 t
def xb6_1 (V : EntryVal F) (c : Dev nD) (t : Fin cfg6.N) : Vec F S5000x128 .f32 := iblk6 V c 1 t
def xb6_2 (V : EntryVal F) (c : Dev nD) (t : Fin cfg6.N) : Vec F S1x1 .f32 := iblk6 V c 2 t
def xb6_3 (V : EntryVal F) (c : Dev nD) (t : Fin cfg6.N) : Vec F S128x128 .f32 := iblk6 V c 3 t
def xb6_4 (V : EntryVal F) (c : Dev nD) (t : Fin cfg6.N) : Vec F S1x128 .f32 := iblk6 V c 4 t

/-! ## The two running sums, point by point -/

/-- What the two scratch buffers hold BEFORE the accumulation at position `n`: zeros at the first point (the body
    resets them there), afterwards what the point before left. -/
def SQ6 (V : EntryVal F) (c : Dev nD) : ℕ → Vec F S1x128 .f32 × Vec F S1x128 .f32
  | 0 => (k6_pay4, k6_pay5)
  | n + 1 =>
    if h : n < cfg6.N then
      (sOut6 (xb6_0 V c ⟨n, h⟩) (xb6_1 V c ⟨n, h⟩) (xb6_2 V c ⟨n, h⟩) (xb6_3 V c ⟨n, h⟩) (xb6_4 V c ⟨n, h⟩) (SQ6 V c n).1,
       qOut6 (xb6_0 V c ⟨n, h⟩) (xb6_1 V c ⟨n, h⟩) (xb6_2 V c ⟨n, h⟩) (xb6_3 V c ⟨n, h⟩) (xb6_4 V c ⟨n, h⟩) (SQ6 V c n).2)
    else SQ6 V c n

theorem SQ6_zero (V : EntryVal F) (c : Dev nD) : SQ6 V c 0 = (k6_pay4, k6_pay5) := rfl

theorem SQ6_succ (V : EntryVal F) (c : Dev nD) (t : Fin cfg6.N) :
    SQ6 V c (t.val + 1) =
      (sOut6 (xb6_0 V c t) (xb6_1 V c t) (xb6_2 V c t) (xb6_3 V c t) (xb6_4 V c t) (SQ6 V c t.val).1,
       qOut6 (xb6_0 V c t) (xb6_1 V c t) (xb6_2 V c t) (xb6_3 V c t) (xb6_4 V c t) (SQ6 V c t.val).2) := by
  rw [SQ6, dif_pos t.isLt]

/-! ## The invariant -/

abbrev scr6_0 : Memref sig .tc .vmem S1x128 .f32 := Memref.whole cc6_scratch0
abbrev scr6_1 : Memref sig .tc .vmem S1x128 .f32 := Memref.whole cc6_scratch1

/-- The region invariant before position `n`: before the first point the generator register and the scoped rest
    (the two scratch buffers at anything); afterwards the two scratch buffers at the running sums and the scoped rest
    without them. -/
def Phi6 (V : EntryVal F) (c : Dev nD) : ℕ → sProp 𝕄
  | 0 => iprop((∃ r, prngReg c r) ∗ Pipeline.scopedRest (Ix := Unit) (Name := ℕ) (U := UR sig nD τ) (Lvl := ℕ) (Val := Elt F) spec6 c)
  | n + 1 => iprop((∃ r, prngReg c r)
      ∗ iprop(owns (c : Thread nD τ) scr6_0 fullShare (SQ6 V c (n + 1)).1 ∗ owns (c : Thread nD τ) scr6_1 fullShare (SQ6 V c (n + 1)).2)
      ∗ Pipeline.scopedRestBut (Ix := Unit) (Name := ℕ) (U := UR sig nD τ) (Lvl := ℕ) (Val := Elt F) spec6 c [cc6_scratch0, cc6_scratch1])

theorem Phi6_zero (V : EntryVal F) (c : Dev nD) :
    Phi6 V c 0 = iprop((∃ r, prngReg c r) ∗ Pipeline.scopedRest (Ix := Unit) (Name := ℕ) (U := UR sig nD τ) (Lvl := ℕ) (Val := Elt F) spec6 c) := rfl

theorem Phi6_succ (V : EntryVal F) (c : Dev nD) (n : ℕ) :
    Phi6 V c (n + 1) = iprop((∃ r, prngReg c r)
      ∗ iprop(owns (c : Thread nD τ) scr6_0 fullShare (SQ6 V c (n + 1)).1 ∗ owns (c : Thread nD τ) scr6_1 fullShare (SQ6 V c (n + 1)).2)
      ∗ Pipeline.scopedRestBut (Ix := Unit) (Name := ℕ) (U := UR sig nD τ) (Lvl := ℕ) (Val := Elt F) spec6 c [cc6_scratch0, cc6_scratch1]) := rfl

/-- The scoped rest with the two scratch operands as memrefs owned at some contents. -/
theorem scopedRest6_owns (c : Dev nD) :
    (Pipeline.scopedRest (Ix := Unit) (Name := ℕ) (U := UR sig nD τ) (Lvl := ℕ) (Val := Elt F) spec6 c : sProp 𝕄)
      = iprop(iprop((∃ d, owns (c : Thread nD τ) scr6_0 fullShare d) ∗ (∃ d, owns (c : Thread nD τ) scr6_1 fullShare d))
          ∗ Pipeline.scopedRestBut (Ix := Unit) (Name := ℕ) (U := UR sig nD τ) (Lvl := ℕ) (Val := Elt F) spec6 c [cc6_scratch0, cc6_scratch1]) := by
  rw [scopedRest6_split]; simp only [scr6_0, scr6_1, owns_whole]; try rfl

/-! ## The pipeline's proof data -/

/-- Region 6's proof data on core `c`, at the contents `V` the region is entered with: the arrays as the region
    finds them; after the body at point `t` each input's buffer at its block, the output block at the affine map of
    the input blocks, the statistics block at the statistics of the two running sums after the point; the invariant
    carries the two running sums; nothing owed; full shares. -/
def dat6 (V : EntryVal F) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => yOut6 (xb6_0 V c t) (xb6_1 V c t) (xb6_2 V c t) (xb6_3 V c t) (xb6_4 V c t)
    | ⟨6, _⟩ => stOut6 (SQ6 V c (t.val + 1)).1 (SQ6 V c (t.val + 1)).2
  Φ t := Phi6 V c t.val
  q _ := fullShare
  owed _ := 0

theorem A_eq6 (V : EntryVal F) (c : Dev nD) (w : Fin cfg6.W) : (dat6 V c).A w = V c (Pipeline.arrRef spec6 w) := by
  dsimp only [dat6]

theorem q_eq6 (V : EntryVal F) (c : Dev nD) (w : Fin cfg6.W) : (dat6 V c).q w = fullShare := by
  dsimp only [dat6]

theorem owed_eq6 (V : EntryVal F) (c : Dev nD) (t : Fin (cfg6.N + 1)) : (dat6 V c).owed t = 0 := by
  dsimp only [dat6]

theorem Phi_eq6 (V : EntryVal F) (c : Dev nD) (t : Fin (cfg6.N + 1)) : (dat6 V c).Φ t = Phi6 V c t.val := by
  dsimp only [dat6]

/-- What the launch hands the region is the invariant before the first point. -/
theorem hin6 (V : EntryVal F) (c : Dev nD) :
    iprop((∃ r, prngReg c r) ∗ Pipeline.scopedRest (Ix := Unit) (Name := ℕ) (U := UR sig nD τ) (Lvl := ℕ) (Val := Elt F) spec6 c)
      ⊢ ((dat6 V c).Φ 0 : sProp 𝕄) := by
  rw [Phi_eq6, Fin.val_zero, Phi6_zero]

/-- After the last point the invariant gives it back: the running sums' named contents are forgotten. -/
theorem hout6 (V : EntryVal F) (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) (Val := Elt F) spec6 c) := by
  rw [Phi_eq6, Fin.val_last, show cfg6.N = 7 + 1 from N_6, Phi6_succ, scopedRest6_owns]
  iintro ⟨Hg, ⟨HS0, HS1⟩, Hr⟩
  isplitl [Hg]; · iexact Hg
  isplitr [Hr]
  · isplitl [HS0]
    · iexists _; iexact HS0
    · iexists _; iexact HS1
  · iexact Hr

/-! ## The conditions and the schedule, decided over the grid -/

/-- The first condition holds at the first point only. -/
theorem hcondA6 : ∀ t : Fin cfg6.N, condA6 (grid6.coords t) ↔ t.val % 8 = 0 :=
  (by decide +kernel : ∀ t : Fin grid6.N, condA6 (grid6.coords t) ↔ t.val % 8 = 0)
/-- The second condition holds at the last point only. -/
theorem hcondB6 : ∀ t : Fin cfg6.N, condB6 (grid6.coords t) ↔ t.val % 8 = 7 :=
  (by decide +kernel : ∀ t : Fin grid6.N, condB6 (grid6.coords t) ↔ t.val % 8 = 7)

/-- Windows 0–5 are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
/-- Where the second condition fails the statistics window is idle and not written back; where it holds, live. -/
theorem idleAt6_6 : ∀ t : Fin cfg6.N, ¬condB6 (grid6.coords t) → cfg6.idle 6 (grid6.coords t) = true := by decide +kernel
theorem noFlush6_6 : ∀ t : Fin cfg6.N, ¬condB6 (grid6.coords t) → (cfg6.win 6).flush t = false := by decide +kernel
theorem liveAt6_6 : ∀ t : Fin cfg6.N, condB6 (grid6.coords t) → cfg6.idle 6 (grid6.coords t) = false := by decide +kernel

/-- What the body leaves, window by window. -/
theorem after6_0 (V : EntryVal F) (c : Dev nD) (t : Fin cfg6.N) : (dat6 V c).after 0 t = iblk6 V c 0 t := by dsimp only [dat6]
theorem after6_1 (V : EntryVal F) (c : Dev nD) (t : Fin cfg6.N) : (dat6 V c).after 1 t = iblk6 V c 1 t := by dsimp only [dat6]
theorem after6_2 (V : EntryVal F) (c : Dev nD) (t : Fin cfg6.N) : (dat6 V c).after 2 t = iblk6 V c 2 t := by dsimp only [dat6]
theorem after6_3 (V : EntryVal F) (c : Dev nD) (t : Fin cfg6.N) : (dat6 V c).after 3 t = iblk6 V c 3 t := by dsimp only [dat6]
theorem after6_4 (V : EntryVal F) (c : Dev nD) (t : Fin cfg6.N) : (dat6 V c).after 4 t = iblk6 V c 4 t := by dsimp only [dat6]
theorem after6_5 (V : EntryVal F) (c : Dev nD) (t : Fin cfg6.N) :
    (dat6 V c).after 5 t = yOut6 (xb6_0 V c t) (xb6_1 V c t) (xb6_2 V c t) (xb6_3 V c t) (xb6_4 V c t) := by dsimp only [dat6]
theorem after6_6 (V : EntryVal F) (c : Dev nD) (t : Fin cfg6.N) :
    (dat6 V c).after 6 t = stOut6 (SQ6 V c (t.val + 1)).1 (SQ6 V c (t.val + 1)).2 := by dsimp only [dat6]

/-- Each input's current staging buffer holds its block at every point, fetched there or not: an input window of a body
    that leaves its block in place, uncut and never idle. -/
theorem before6_0 (V : EntryVal F) (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (V : EntryVal F) (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (V : EntryVal F) (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (V : EntryVal F) (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)
theorem before6_4 (V : EntryVal F) (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)

theorem SQ6_succ_fst (V : EntryVal F) (c : Dev nD) (t : Fin cfg6.N) :
    (SQ6 V c (t.val + 1)).1 = sOut6 (xb6_0 V c t) (xb6_1 V c t) (xb6_2 V c t) (xb6_3 V c t) (xb6_4 V c t) (SQ6 V c t.val).1 := by
  rw [SQ6_succ]
theorem SQ6_succ_snd (V : EntryVal F) (c : Dev nD) (t : Fin cfg6.N) :
    (SQ6 V c (t.val + 1)).2 = qOut6 (xb6_0 V c t) (xb6_1 V c t) (xb6_2 V c t) (xb6_3 V c t) (xb6_4 V c t) (SQ6 V c t.val).2 := by
  rw [SQ6_succ]

theorem Phi6_pos (V : EntryVal F) (c : Dev nD) (n : ℕ) (hn : n ≠ 0) :
    Phi6 V c n = iprop((∃ r, prngReg c r)
      ∗ iprop(owns (c : Thread nD τ) scr6_0 fullShare (SQ6 V c n).1 ∗ owns (c : Thread nD τ) scr6_1 fullShare (SQ6 V c n).2)
      ∗ Pipeline.scopedRestBut (Ix := Unit) (Name := ℕ) (U := UR sig nD τ) (Lvl := ℕ) (Val := Elt F) spec6 c [cc6_scratch0, cc6_scratch1]) := by
  cases n with
  | zero => exact absurd rfl hn
  | succ n => rfl

/-! ## The body's triple, case by case -/

set_option maxHeartbeats 1000000 in
/-- The body at a middle point (neither condition holds): the block is computed and stored, the two running sums are
    advanced; the statistics block is not touched. -/
theorem runMid6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA6 i) (hc2 : ¬condB6 i)
    (x0 x1 : Vec F S5000x128 .f32) (x2 : Vec F S1x1 .f32) (x3 : Vec F S128x128 .f32) (x4 : Vec F S1x128 .f32) (x6 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut6 x0 x1 x2 x3 x4) ∗ owns (c : Thread nD τ) arg7 fullShare x6 ∗ owns (c : Thread nD τ) arg8 fullShare (sOut6 x0 x1 x2 x3 x4 s) ∗ owns (c : Thread nD τ) arg9 fullShare (qOut6 x0 x1 x2 x3 x4 q)) -∗ K ⟨⟩))
      ⊢ wp frame (wpE (defs₀ (F := F)) Variants.none c none) E (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf0; subst hf1; subst hf2; subst hf3; subst hf4; subst hf6; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk6 _ _ _).trans ?_
    rfl
  isplitl [H6]; · iexists f6; isplitr; · ipureintro; rfl
                  iexact H6
  isplitl [H7]
  · iexists _; isplitr
    swap; · iexact H7
    ipureintro
    refine (wrRow6 _ _ _).trans ?_
    rfl
  · iexists _; isplitr
    swap; · iexact H8
    ipureintro
    refine (wrRow6 _ _ _).trans ?_
    rfl

set_option maxHeartbeats 1000000 in
/-- The body at the first point: the two running sums are reset to zero, whatever they held, then as at a middle point. -/
theorem runFirst6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : condA6 i) (hc2 : ¬condB6 i)
    (x0 x1 : Vec F S5000x128 .f32) (x2 : Vec F S1x1 .f32) (x3 : Vec F S128x128 .f32) (x4 : Vec F S1x128 .f32) (x6 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut6 x0 x1 x2 x3 x4) ∗ owns (c : Thread nD τ) arg7 fullShare x6 ∗ owns (c : Thread nD τ) arg8 fullShare (sOut6 x0 x1 x2 x3 x4 k6_pay4) ∗ owns (c : Thread nD τ) arg9 fullShare (qOut6 x0 x1 x2 x3 x4 k6_pay5)) -∗ K ⟨⟩))
      ⊢ wp frame (wpE (defs₀ (F := F)) Variants.none c none) E (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  subst hf0; subst hf1; subst hf2; subst hf3; subst hf4; subst hf6
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk6 _ _ _).trans ?_
    rfl
  isplitl [H6]; · iexists f6; isplitr; · ipureintro; rfl
                  iexact H6
  isplitl [H7]
  · iexists _; isplitr
    swap; · iexact H7
    ipureintro
    refine (wrRowCons6 _ _ _ _).trans ?_
    sl_unfold_run_names
    first | rfl | (rw [rcRow6]; rfl)
  · iexists _; isplitr
    swap; · iexact H8
    ipureintro
    refine (wrRowCons6 _ _ _ _).trans ?_
    sl_unfold_run_names
    first | rfl | (rw [rcRow6]; rfl)

set_option maxHeartbeats 1000000 in
/-- The body at the last point: as at a middle point, then the statistics are computed from the two running sums and
    stored as the two rows of the statistics block, whatever it held. -/
theorem runLast6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (hc1 : ¬condA6 i) (hc2 : condB6 i)
    (x0 x1 : Vec F S5000x128 .f32) (x2 : Vec F S1x1 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (yOut6 x0 x1 x2 x3 x4) ∗ owns (c : Thread nD τ) arg7 fullShare (stOut6 (sOut6 x0 x1 x2 x3 x4 s) (qOut6 x0 x1 x2 x3 x4 q)) ∗ owns (c : Thread nD τ) arg8 fullShare (sOut6 x0 x1 x2 x3 x4 s) ∗ owns (c : Thread nD τ) arg9 fullShare (qOut6 x0 x1 x2 x3 x4 q)) -∗ K ⟨⟩))
      ⊢ wp frame (wpE (defs₀ (F := F)) Variants.none c none) E (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (wrBlk6 _ _ _).trans ?_
    rfl
  isplitl [H6]
  · iexists _; isplitr
    swap; · iexact H6
    ipureintro
    refine (View.read_writes_eq_canon _ _ _ (coverSt6 _ _)).trans ?_
    sl_unfold_run_names
    first | rfl | (rw [rcRow6, rcRow6]; rfl)
  isplitl [H7]
  · iexists _; isplitr
    swap; · iexact H7
    ipureintro
    refine (wrRow6 _ _ _).trans ?_
    rfl
  · iexists _; isplitr
    swap; · iexact H8
    ipureintro
    refine (wrRow6 _ _ _).trans ?_
    rfl

/-! ## The body obligation, at a generic point -/

/-- What the body is called with at point `t` (the body obligation's precondition, the windows one by one), -/
def bodyPre6 (V : EntryVal F) (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (V : EntryVal F) (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4000000 in
/-- The body at any point: the inputs' memrefs hold their blocks; the closed forms of the two conditions say which case
    the point is in; the invariant hands the body the two running sums at what the point before left (at anything at the
    first point) and takes them back advanced; the statistics window is handed back as found where it is idle, and at
    the statistics of the two running sums at the last point; the core owes nothing throughout. -/
theorem sound_body6 (V : EntryVal F) (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [Phi_eq6 V c t.succ, Phi_eq6 V c t.castSucc, Fin.val_succ, Fin.val_castSucc, Phi6_succ, SQ6_succ_fst, SQ6_succ_snd]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  rw [show (dat6 V c).leavesExact 4 t = owns (c : Thread nD τ) (st6_4 t) fullShare ((dat6 V c).after 4 t) from by
    unfold Dat.leavesExact; rw [liveAt6_4 t], after6_4]
  rw [show (dat6 V c).leavesExact 5 t = owns (c : Thread nD τ) (st6_5 t) fullShare ((dat6 V c).after 5 t) from by
    unfold Dat.leavesExact; rw [liveAt6_5 t], after6_5]
  have hN : t.val < 8 := lt_of_lt_of_eq t.isLt (show cfg6.N = 8 from N_6)
  by_cases h0 : t.val % 8 = 0
  · have hA : condA6 (grid6.coords t) := (hcondA6 t).mpr h0
    have hB : ¬condB6 (grid6.coords t) := fun h => by have := (hcondB6 t).mp h; omega
    have hz : t.val = 0 := by omega
    rw [Dat.leavesExact_idle (dat6 V c) 6 t (idleAt6_6 t hB) (noFlush6_6 t hB)]
    rw [hz, Phi6_zero, SQ6_zero, scopedRest6_owns]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (runFirst6 c Set.univ (grid6.coords t) _ _ _ _ _ _ _ _ _ _ _ _ _ _ _ _ _ _ hA hB (xb6_0 V c t) (xb6_1 V c t) (xb6_2 V c t) (xb6_3 V c t) (xb6_4 V c t) ((dat6 V c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, H5, H6, HS0, HS1⟩
    isplitl [Hg HS0 HS1 Hr]
    · isplitl [Hg]; · iexact Hg
      isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hA : ¬condA6 (grid6.coords t) := fun h => h0 ((hcondA6 t).mp h)
    have hz : t.val ≠ 0 := fun h => h0 (by rw [h])
    rw [Phi6_pos V c t.val hz]
    by_cases h7 : t.val % 8 = 7
    · have hB : condB6 (grid6.coords t) := (hcondB6 t).mpr h7
      rw [show (dat6 V c).leavesExact 6 t = owns (c : Thread nD τ) (st6_6 t) fullShare ((dat6 V c).after 6 t) from by
        unfold Dat.leavesExact; rw [liveAt6_6 t hB], after6_6, SQ6_succ_fst, SQ6_succ_snd]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runLast6 c Set.univ (grid6.coords t) _ _ _ _ _ _ _ _ _ _ _ _ _ _ _ _ _ _ hA hB (xb6_0 V c t) (xb6_1 V c t) (xb6_2 V c t) (xb6_3 V c t) (xb6_4 V c t) (SQ6 V c t.val).1 (SQ6 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hB : ¬condB6 (grid6.coords t) := fun h => h7 ((hcondB6 t).mp h)
      rw [Dat.leavesExact_idle (dat6 V c) 6 t (idleAt6_6 t hB) (noFlush6_6 t hB)]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (runMid6 c Set.univ (grid6.coords t) _ _ _ _ _ _ _ _ _ _ _ _ _ _ _ _ _ _ hA hB (xb6_0 V c t) (xb6_1 V c t) (xb6_2 V c t) (xb6_3 V c t) (xb6_4 V c t) ((dat6 V c).before 6 t d6) (SQ6 V c t.val).1 (SQ6 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [Hg HS0 HS1 Hr]
      · isplitl [Hg]; · iexact Hg
        isplitr [Hr]
        · isplitl [HS0]; · iexact HS0
          iexact HS1
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation6 (V : EntryVal F) (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: the second kernel of a layer (normalise, relu, linear, relu, column statistics) -/

/-! ## The windows' blocks -/

/-- Window `w`'s block at point `t`, read off its array as the region finds it (`V`). -/
def iblk7 (V : EntryVal F) (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses -/

abbrev rA7 : Rect S5000x128 := Rect.unit (s := S5000x128) ![0, 0] S5000x128.size inb_S5000x128_S5000x128_0_0
abbrev rR7 : Rect S1x128 := Rect.unit (s := S1x128) ![0, 0] S1x128.size inb_S1x128_S1x128_0_0
abbrev rW7 : Rect S128x128 := Rect.unit (s := S128x128) ![0, 0] S128x128.size inb_S128x128_S128x128_0_0
abbrev rS7_0 : Rect S2x128 := Rect.unit (s := S2x128) ![0, 0] S1x128.size inb_S2x128_S1x128_0_0
abbrev rS7_1 : Rect S2x128 := Rect.unit (s := S2x128) ![1, 0] S1x128.size inb_S2x128_S1x128_1_0

/-- The scratch operands: whole scoped buffers of the kernel's own, passed beside the windows. -/
abbrev scM7_0 : Memref sig .tc .vmem S1x128 .f32 := Memref.whole cc7_scratch0
abbrev scM7_1 : Memref sig .tc .vmem S1x128 .f32 := Memref.whole cc7_scratch1

/-! ## What the body computes -/

/-- The block of the output the body stores at a point, from the input windows' blocks. -/
def blk7 (x0 : Vec F S5000x128 .f32) (x1 : Vec F S2x128 .f32) (x2 x3 : Vec F S1x128 .f32) (x4 : Vec F S128x128 .f32) (x5 : Vec F S1x128 .f32) : FVec F S5000x128 .f32 :=
  k7_pay7 (View.ld x1 rS7_0) (View.ld x1 rS7_1) (View.ld x2 rR7) (View.ld x0 rA7) (View.ld x3 rR7) (View.ld x4 rW7) (View.ld x5 rR7)

/-- The running column sums after a point, from the block stored there and what they were before. -/
def sumStep7 (y : FVec F S5000x128 .f32) (s : Vec F S1x128 .f32) : Vec F S1x128 .f32 :=
  View.canon [⟨rR7, k7_pay1 y (View.ld s rR7)⟩]

/-- The running column sums of squares after a point. -/
def sqStep7 (y : FVec F S5000x128 .f32) (s : Vec F S1x128 .f32) : Vec F S1x128 .f32 :=
  View.canon [⟨rR7, k7_pay2 y (View.ld s rR7)⟩]

/-- What the first point resets the two accumulators to. -/
def sum0_7 : Vec F S1x128 .f32 := View.canon [⟨rR7, k7_pay5 (F := F)⟩]
def sq0_7 : Vec F S1x128 .f32 := View.canon [⟨rR7, k7_pay6 (F := F)⟩]

/-- The statistics the last point stores, from the two accumulators: row 0 then row 1. -/
def stats7 (s q : Vec F S1x128 .f32) : Vec F S2x128 .f32 :=
  View.canon [⟨rS7_1, k7_pay4 (View.ld s rR7) (View.ld q rR7)⟩, ⟨rS7_0, k7_pay3 (View.ld s rR7)⟩]

/-- The block stored at point `t`, from the arrays as the region finds them. -/
def tblk7 (V : EntryVal F) (c : Dev nD) (t : Fin cfg7.N) : FVec F S5000x128 .f32 :=
  blk7 (iblk7 V c 0 t) (iblk7 V c 1 t) (iblk7 V c 2 t) (iblk7 V c 3 t) (iblk7 V c 4 t) (iblk7 V c 5 t)

/-- The two accumulators after the body at position `n`: reset at the first point, then each point's block added. -/
def acc7 (V : EntryVal F) (c : Dev nD) : (n : ℕ) → n < cfg7.N → Vec F S1x128 .f32 × Vec F S1x128 .f32
  | 0, hn => (sumStep7 (tblk7 V c ⟨0, hn⟩) sum0_7, sqStep7 (tblk7 V c ⟨0, hn⟩) sq0_7)
  | n + 1, hn => (sumStep7 (tblk7 V c ⟨n + 1, hn⟩) (acc7 V c n (Nat.lt_of_succ_lt hn)).1,
      sqStep7 (tblk7 V c ⟨n + 1, hn⟩) (acc7 V c n (Nat.lt_of_succ_lt hn)).2)

/-! ## The region invariant -/

/-- Before the first point: the generator register at some state and the scoped rest, as the launch hands them;
    afterwards the two accumulators at what the point before left, the remainder of the scoped rest unopened. -/
def Phi7 (V : EntryVal F) (c : Dev nD) : (n : ℕ) → n ≤ cfg7.N → sProp 𝕄
  | 0, _ => iprop((∃ r, prngReg c r) ∗ Pipeline.scopedRest (Ix := Unit) (Name := ℕ) (U := UR sig nD τ) (Lvl := ℕ) (Val := Elt F) spec7 c)
  | n + 1, hn => iprop((∃ r, prngReg c r)
      ∗ iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1])

theorem Phi7_zero (V : EntryVal F) (c : Dev nD) (n : ℕ) (h : n ≤ cfg7.N) (hz : n = 0) :
    Phi7 V c n h = iprop((∃ r, prngReg c r) ∗ Pipeline.scopedRest (Ix := Unit) (Name := ℕ) (U := UR sig nD τ) (Lvl := ℕ) (Val := Elt F) spec7 c) := by
  subst hz; rfl

theorem Phi7_succ (V : EntryVal F) (c : Dev nD) (n : ℕ) (hn : n < cfg7.N) :
    Phi7 V c (n + 1) hn = iprop((∃ r, prngReg c r)
      ∗ iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) := rfl

theorem Phi7_pos (V : EntryVal F) (c : Dev nD) (n : ℕ) (h : n ≤ cfg7.N) (hz : n ≠ 0) :
    Phi7 V c n h = iprop((∃ r, prngReg c r)
      ∗ iprop(owns (c : Thread nD τ) scM7_0 fullShare (acc7 V c (n - 1) (by omega)).1 ∗ owns (c : Thread nD τ) scM7_1 fullShare (acc7 V c (n - 1) (by omega)).2)
      ∗ Pipeline.scopedRestBut (Ix := Unit) (Name := ℕ) (U := UR sig nD τ) (Lvl := ℕ) (Val := Elt F) spec7 c [cc7_scratch0, cc7_scratch1]) := by
  cases n with
  | zero => exact absurd rfl hz
  | succ n => rfl

/-! ## The pipeline's proof data -/

/-- Region 7's proof data on core `c`, at the contents `V` the region is entered with. -/
def dat7 (V : EntryVal F) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => View.canon [⟨rA7, tblk7 V c t⟩]
    | ⟨7, _⟩ => stats7 (acc7 V c t.val t.isLt).1 (acc7 V c t.val t.isLt).2
  Φ t := Phi7 V c t.val (Nat.le_of_lt_succ t.isLt)
  q _ := fullShare
  owed _ := 0

theorem A_eq7 (V : EntryVal F) (c : Dev nD) (w : Fin cfg7.W) : (dat7 V c).A w = V c (Pipeline.arrRef spec7 w) := by
  dsimp only [dat7]

theorem q_eq7 (V : EntryVal F) (c : Dev nD) (w : Fin cfg7.W) : (dat7 V c).q w = fullShare := by
  dsimp only [dat7]

theorem owed_eq7 (V : EntryVal F) (c : Dev nD) (t : Fin (cfg7.N + 1)) : (dat7 V c).owed t = 0 := by
  dsimp only [dat7]

theorem hin7 (V : EntryVal F) (c : Dev nD) :
    iprop((∃ r, prngReg c r) ∗ Pipeline.scopedRest (Ix := Unit) (Name := ℕ) (U := UR sig nD τ) (Lvl := ℕ) (Val := Elt F) spec7 c)
      ⊢ ((dat7 V c).Φ 0 : sProp 𝕄) := by
  rw [show (dat7 V c).Φ 0 = Phi7 V c 0 (Nat.zero_le _) from rfl, Phi7_zero V c 0 _ rfl]
  try exact Idealize.SL.BI.Entails.refl _

/-- After any point the invariant gives the launch's form back: the accumulators' named contents are forgotten. -/
theorem Phi7_out (V : EntryVal F) (c : Dev nD) (t : Fin (cfg7.N + 1)) (ht : t.val ≠ 0) :
    ((dat7 V c).Φ t : sProp 𝕄)
      ⊢ iprop((∃ r, prngReg c r) ∗ Pipeline.scopedRest (Ix := Unit) (Name := ℕ) (U := UR sig nD τ) (Lvl := ℕ) (Val := Elt F) spec7 c) := by
  rw [show (dat7 V c).Φ t = Phi7 V c t.val (Nat.le_of_lt_succ t.isLt) from rfl, Phi7_pos V c _ _ ht, scopedRest7_split]
  simp only [scM7_0, scM7_1, owns_whole]
  iintro ⟨Hg, ⟨HS0, HS1⟩, Hr⟩
  isplitl [Hg]; · iexact Hg
  isplitl [HS0 HS1]
  · isplitl [HS0]
    · iexists _; iexact HS0
    · iexists _; iexact HS1
  iexact Hr

theorem hout7 (V : EntryVal F) (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) :=
  Phi7_out V c _ (by rw [Fin.val_last]; have : cfg7.N = 8 := N_7; omega)

/-! ## The body's branch conditions -/

/-- The condition of the body's first `scf.if` (the accumulators are reset), from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 8 = 0 :=
  (by decide +kernel : ∀ t : Fin grid7.N, cond7_0 (grid7.coords t) ↔ t.val % 8 = 0)

/-- The condition of the body's second `scf.if` (the statistics are stored). -/
abbrev cond7_1 (i : grid7.Coords) : Prop := k7_cond2 i = 1#1
/-- It holds at the last point only. -/
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl
theorem liveAt7_4 : ∀ t : Fin cfg7.N, cfg7.idle 4 (grid7.coords t) = false := fun _ => rfl
theorem liveAt7_5 : ∀ t : Fin cfg7.N, cfg7.idle 5 (grid7.coords t) = false := fun _ => rfl
theorem liveAt7_6 : ∀ t : Fin cfg7.N, cfg7.idle 6 (grid7.coords t) = false := fun _ => rfl
/-- Where the statistics are not stored the statistics window is idle and not written back. -/
theorem idleAt7_7 : ∀ t : Fin cfg7.N, ¬cond7_1 (grid7.coords t) → cfg7.idle 7 (grid7.coords t) = true := by decide +kernel
theorem noFlush7_7 : ∀ t : Fin cfg7.N, ¬cond7_1 (grid7.coords t) → (cfg7.win 7).flush t = false := by decide +kernel
theorem liveAt7_7 : ∀ t : Fin cfg7.N, cond7_1 (grid7.coords t) → cfg7.idle 7 (grid7.coords t) = false := by decide +kernel

/-! ## The body's stores cover their buffers -/

theorem cover7_A (p0 : Vec F S5000x128 .f32) (y : S5000x128.Idx) :
    ∃ pc ∈ ([⟨rA7, p0⟩] : List (View.Piece (Elt F) S5000x128 .f32)), y ∈ pc.1.set :=
  View.cover_of_tiled [⟨rA7, p0⟩] S5000x128.size (by rfl) y

theorem cover7_R (p0 : Vec F S1x128 .f32) (y : S1x128.Idx) :
    ∃ pc ∈ ([⟨rR7, p0⟩] : List (View.Piece (Elt F) S1x128 .f32)), y ∈ pc.1.set :=
  View.cover_of_tiled [⟨rR7, p0⟩] S1x128.size (by rfl) y

theorem cover7_R2 (p0 p1 : Vec F S1x128 .f32) (y : S1x128.Idx) :
    ∃ pc ∈ ([⟨rR7, p0⟩, ⟨rR7, p1⟩] : List (View.Piece (Elt F) S1x128 .f32)), y ∈ pc.1.set :=
  View.cover_of_tiled [⟨rR7, p0⟩, ⟨rR7, p1⟩] S1x128.size (by rfl) y

theorem cover7_S (p0 p1 : Vec F S1x128 .f32) (y : S2x128.Idx) :
    ∃ pc ∈ ([⟨rS7_1, p1⟩, ⟨rS7_0, p0⟩] : List (View.Piece (Elt F) S2x128 .f32)), y ∈ pc.1.set :=
  View.cover_of_tiled [⟨rS7_1, p1⟩, ⟨rS7_0, p0⟩] S1x128.size (by rfl) y

/-- A whole-buffer store shadows whatever was stored before it. -/
theorem canon7_R_cons (p : Vec F S1x128 .f32) (L : List (View.Piece (Elt F) S1x128 .f32)) :
    View.canon (⟨rR7, p⟩ :: L) = View.canon [⟨rR7, p⟩] := by
  funext y
  obtain ⟨pc, hpc, hy⟩ := cover7_R p y
  simp only [List.mem_cons, List.not_mem_nil, or_false] at hpc
  subst hpc
  obtain ⟨x, rfl⟩ : ∃ x, (rR7).emb x = y := (rR7).exists_idx_of_mem hy
  rw [View.canon_cons_emb, View.canon_cons_emb]

/-- A load of an accumulator after a whole-buffer store into it reads what the store leaves. -/
theorem readCov7_R (v : View sig .tc .vmem S1x128 .f32) (p : Vec F S1x128 .f32) :
    v.readCov [⟨rR7, p⟩] (rR7).toLoadRect = View.ld (View.canon [⟨rR7, p⟩]) rR7 :=
  View.readCov_eq_canon_ld v _ rR7 (cover7_R p)

/-- The first point's accumulators, with the load that follows the reset spelt as the run finds it. -/
theorem sumStep7_first (v : View sig .tc .vmem S1x128 .f32) (y : FVec F S5000x128 .f32) :
    sumStep7 y (sum0_7 (F := F)) = View.canon [⟨rR7, k7_pay1 y (v.readCov [⟨rR7, k7_pay5 (F := F)⟩] (rR7).toLoadRect)⟩] := by
  unfold sumStep7 sum0_7; rw [readCov7_R]

theorem sqStep7_first (v : View sig .tc .vmem S1x128 .f32) (y : FVec F S5000x128 .f32) :
    sqStep7 y (sq0_7 (F := F)) = View.canon [⟨rR7, k7_pay2 y (v.readCov [⟨rR7, k7_pay6 (F := F)⟩] (rR7).toLoadRect)⟩] := by
  unfold sqStep7 sq0_7; rw [readCov7_R]

/-- The statistics, with the loads of the two accumulators after their last stores spelt as the run finds them. -/
theorem stats7_eq (v9 v10 : View sig .tc .vmem S1x128 .f32) (y : FVec F S5000x128 .f32) (s q : Vec F S1x128 .f32) :
    stats7 (sumStep7 y s) (sqStep7 y q)
      = View.canon [⟨rS7_1, k7_pay4 (v9.readCov [⟨rR7, k7_pay1 y (View.ld s rR7)⟩] (rR7).toLoadRect) (v10.readCov [⟨rR7, k7_pay2 y (View.ld q rR7)⟩] (rR7).toLoadRect)⟩,
          ⟨rS7_0, k7_pay3 (v9.readCov [⟨rR7, k7_pay1 y (View.ld s rR7)⟩] (rR7).toLoadRect)⟩] := by
  unfold stats7 sumStep7 sqStep7; rw [readCov7_R, readCov7_R]

set_option maxHeartbeats 1000000 in
/-- The body at the first point: both accumulators are reset, then the block is stored and added; the statistics
    window is handed back untouched. -/
theorem run7_first (c : Dev nD) (E : Set ℕ) (i : grid7.Coords) (hc0 : cond7_0 i) (hc1 : ¬cond7_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA7, blk7 x0 x1 x2 x3 x4 x5⟩]) ∗ owns (c : Thread nD τ) arg8 fullShare xi7
            ∗ owns (c : Thread nD τ) arg9 fullShare (sumStep7 (blk7 x0 x1 x2 x3 x4 x5) sum0_7) ∗ owns (c : Thread nD τ) arg10 fullShare (sqStep7 (blk7 x0 x1 x2 x3 x4 x5) sq0_7)) -∗ K ⟨⟩))
      ⊢ wp frame (wpE (defs₀ (F := F)) Variants.none c none) E (cc7__bn_relu_linear_stats_kernel i arg1 harg1 arg2 harg2 arg3 harg3 arg4 harg4 arg5 harg5 arg6 harg6 arg7 harg7 arg8 harg8 arg9 harg9 arg10 harg10) K := by
  simp only [cc7__bn_relu_linear_stats_kernel_eq_skeleton]; unfold cc7__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover7_A _)).trans ?_
    sl_unfold_run_names
    rfl
  isplitl [H7]
  · iexists f7; isplitr; · ipureintro; rfl
    iexact H7
  isplitl [H8]
  · iexists _; isplitr
    swap; · iexact H8
    ipureintro
    sl_unfold_run_names
    refine (View.read_writes_eq_canon _ _ _ (cover7_R2 _ _)).trans ?_
    refine (canon7_R_cons _ _).trans ?_
    refine Eq.trans ?_ (sumStep7_first arg9.view _).symm
    rfl
  · iexists _; isplitr
    swap; · iexact H9
    ipureintro
    sl_unfold_run_names
    refine (View.read_writes_eq_canon _ _ _ (cover7_R2 _ _)).trans ?_
    refine (canon7_R_cons _ _).trans ?_
    refine Eq.trans ?_ (sqStep7_first arg10.view _).symm
    rfl

set_option maxHeartbeats 1000000 in
/-- The body at a point that is neither the first nor the last: the block is stored, the accumulators grow, the
    statistics window is handed back untouched. -/
theorem run7_mid (c : Dev nD) (E : Set ℕ) (i : grid7.Coords) (hc0 : ¬cond7_0 i) (hc1 : ¬cond7_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (xi7 : Vec F S2x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA7, blk7 x0 x1 x2 x3 x4 x5⟩]) ∗ owns (c : Thread nD τ) arg8 fullShare xi7
            ∗ owns (c : Thread nD τ) arg9 fullShare (sumStep7 (blk7 x0 x1 x2 x3 x4 x5) s) ∗ owns (c : Thread nD τ) arg10 fullShare (sqStep7 (blk7 x0 x1 x2 x3 x4 x5) q)) -∗ K ⟨⟩))
      ⊢ wp frame (wpE (defs₀ (F := F)) Variants.none c none) E (cc7__bn_relu_linear_stats_kernel i arg1 harg1 arg2 harg2 arg3 harg3 arg4 harg4 arg5 harg5 arg6 harg6 arg7 harg7 arg8 harg8 arg9 harg9 arg10 harg10) K := by
  simp only [cc7__bn_relu_linear_stats_kernel_eq_skeleton]; unfold cc7__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover7_A _)).trans ?_
    sl_unfold_run_names
    rfl
  isplitl [H7]
  · iexists f7; isplitr; · ipureintro; rfl
    iexact H7
  isplitl [H8]
  · iexists _; isplitr
    swap; · iexact H8
    ipureintro
    refine (View.read_writes_eq_canon _ _ _ (cover7_R _)).trans ?_
    sl_unfold_run_names
    rfl
  · iexists _; isplitr
    swap; · iexact H9
    ipureintro
    refine (View.read_writes_eq_canon _ _ _ (cover7_R _)).trans ?_
    sl_unfold_run_names
    rfl

set_option maxHeartbeats 1000000 in
/-- The body at the last point: the block is stored and added, then the statistics are computed from the two
    accumulators and stored as the two rows of the statistics window. -/
theorem run7_last (c : Dev nD) (E : Set ℕ) (i : grid7.Coords) (hc0 : ¬cond7_0 i) (hc1 : cond7_1 i) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S1x128 .f32) (harg10 : arg10.IsWhole)
    (x0 : Vec F S5000x128 .f32) (x1 : Vec F S2x128 .f32) (x2 x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ owns (c : Thread nD τ) arg9 fullShare s ∗ owns (c : Thread nD τ) arg10 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon [⟨rA7, blk7 x0 x1 x2 x3 x4 x5⟩])
            ∗ owns (c : Thread nD τ) arg8 fullShare (stats7 (sumStep7 (blk7 x0 x1 x2 x3 x4 x5) s) (sqStep7 (blk7 x0 x1 x2 x3 x4 x5) q))
            ∗ owns (c : Thread nD τ) arg9 fullShare (sumStep7 (blk7 x0 x1 x2 x3 x4 x5) s) ∗ owns (c : Thread nD τ) arg10 fullShare (sqStep7 (blk7 x0 x1 x2 x3 x4 x5) q)) -∗ K ⟨⟩))
      ⊢ wp frame (wpE (defs₀ (F := F)) Variants.none c none) E (cc7__bn_relu_linear_stats_kernel i arg1 harg1 arg2 harg2 arg3 harg3 arg4 harg4 arg5 harg5 arg6 harg6 arg7 harg7 arg8 harg8 arg9 harg9 arg10 harg10) K := by
  simp only [cc7__bn_relu_linear_stats_kernel_eq_skeleton]; unfold cc7__bn_relu_linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0 hf1 hf2 hf3 hf4 hf5 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover7_A _)).trans ?_
    sl_unfold_run_names
    rfl
  isplitl [H7]
  · iexists _; isplitr
    swap; · iexact H7
    ipureintro
    sl_unfold_run_names
    refine (View.read_writes_eq_canon _ _ _ (cover7_S _ _)).trans ?_
    refine Eq.trans ?_ (stats7_eq arg9.view arg10.view _ _ _).symm
    rfl
  isplitl [H8]
  · iexists _; isplitr
    swap; · iexact H8
    ipureintro
    refine (View.read_writes_eq_canon _ _ _ (cover7_R _)).trans ?_
    sl_unfold_run_names
    rfl
  · iexists _; isplitr
    swap; · iexact H9
    ipureintro
    refine (View.read_writes_eq_canon _ _ _ (cover7_R _)).trans ?_
    sl_unfold_run_names
    rfl

/-! ## What the inputs' staging buffers hold at a point -/

theorem before7_0_of (V : EntryVal F) {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of (V : EntryVal F) {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of (V : EntryVal F) {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of (V : EntryVal F) {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of (V : EntryVal F) {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of (V : EntryVal F) {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem after7_0 (V : EntryVal F) (c : Dev nD) (t : Fin cfg7.N) : (dat7 V c).after 0 t = iblk7 V c 0 t := by dsimp only [dat7]
theorem after7_1 (V : EntryVal F) (c : Dev nD) (t : Fin cfg7.N) : (dat7 V c).after 1 t = iblk7 V c 1 t := by dsimp only [dat7]
theorem after7_2 (V : EntryVal F) (c : Dev nD) (t : Fin cfg7.N) : (dat7 V c).after 2 t = iblk7 V c 2 t := by dsimp only [dat7]
theorem after7_3 (V : EntryVal F) (c : Dev nD) (t : Fin cfg7.N) : (dat7 V c).after 3 t = iblk7 V c 3 t := by dsimp only [dat7]
theorem after7_4 (V : EntryVal F) (c : Dev nD) (t : Fin cfg7.N) : (dat7 V c).after 4 t = iblk7 V c 4 t := by dsimp only [dat7]
theorem after7_5 (V : EntryVal F) (c : Dev nD) (t : Fin cfg7.N) : (dat7 V c).after 5 t = iblk7 V c 5 t := by dsimp only [dat7]
theorem after7_6 (V : EntryVal F) (c : Dev nD) (t : Fin cfg7.N) : (dat7 V c).after 6 t = View.canon [⟨rA7, tblk7 V c t⟩] := by dsimp only [dat7]
theorem after7_7 (V : EntryVal F) (c : Dev nD) (t : Fin cfg7.N) : (dat7 V c).after 7 t = stats7 (acc7 V c t.val t.isLt).1 (acc7 V c t.val t.isLt).2 := by dsimp only [dat7]

theorem before7_0 (V : EntryVal F) (c : Dev nD) (t : Fin cfg7.N) (d) : (dat7 V c).before 0 t d = iblk7 V c 0 t :=
  before7_0_of V (dat7 V c) (A_eq7 V c 0) (after7_0 V c) t d
theorem before7_1 (V : EntryVal F) (c : Dev nD) (t : Fin cfg7.N) (d) : (dat7 V c).before 1 t d = iblk7 V c 1 t :=
  before7_1_of V (dat7 V c) (A_eq7 V c 1) (after7_1 V c) t d
theorem before7_2 (V : EntryVal F) (c : Dev nD) (t : Fin cfg7.N) (d) : (dat7 V c).before 2 t d = iblk7 V c 2 t :=
  before7_2_of V (dat7 V c) (A_eq7 V c 2) (after7_2 V c) t d
theorem before7_3 (V : EntryVal F) (c : Dev nD) (t : Fin cfg7.N) (d) : (dat7 V c).before 3 t d = iblk7 V c 3 t :=
  before7_3_of V (dat7 V c) (A_eq7 V c 3) (after7_3 V c) t d
theorem before7_4 (V : EntryVal F) (c : Dev nD) (t : Fin cfg7.N) (d) : (dat7 V c).before 4 t d = iblk7 V c 4 t :=
  before7_4_of V (dat7 V c) (A_eq7 V c 4) (after7_4 V c) t d
theorem before7_5 (V : EntryVal F) (c : Dev nD) (t : Fin cfg7.N) (d) : (dat7 V c).before 5 t d = iblk7 V c 5 t :=
  before7_5_of V (dat7 V c) (A_eq7 V c 5) (after7_5 V c) t d

/-! ## The accumulators, point by point -/

theorem acc7_first (V : EntryVal F) (c : Dev nD) (t : Fin cfg7.N) (hz : t.val = 0) :
    acc7 V c t.val t.isLt = (sumStep7 (tblk7 V c t) sum0_7, sqStep7 (tblk7 V c t) sq0_7) := by
  obtain ⟨n, hn⟩ := t
  cases n with
  | zero => rfl
  | succ n => exact absurd hz (Nat.succ_ne_zero n)

theorem acc7_pos (V : EntryVal F) (c : Dev nD) (t : Fin cfg7.N) (hz : t.val ≠ 0) :
    acc7 V c t.val t.isLt = (sumStep7 (tblk7 V c t) (acc7 V c (t.val - 1) (Nat.lt_of_le_of_lt (Nat.sub_le _ _) t.isLt)).1,
      sqStep7 (tblk7 V c t) (acc7 V c (t.val - 1) (Nat.lt_of_le_of_lt (Nat.sub_le _ _) t.isLt)).2) := by
  obtain ⟨n, hn⟩ := t
  cases n with
  | zero => exact absurd rfl hz
  | succ n => rfl

/-- The launch's form of the invariant with the two accumulators as memrefs owned at some contents. -/
theorem Phi7_first_eq (c : Dev nD) :
    (iprop((∃ r, prngReg c r) ∗ Pipeline.scopedRest (Ix := Unit) (Name := ℕ) (U := UR sig nD τ) (Lvl := ℕ) (Val := Elt F) spec7 c) : sProp 𝕄)
      = iprop((∃ r, prngReg c r)
          ∗ iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) := by
  rw [scopedRest7_split]; simp only [scM7_0, scM7_1, owns_whole]; try rfl

theorem Phi7_castSucc (V : EntryVal F) (c : Dev nD) (t : Fin cfg7.N) :
    (dat7 V c).Φ t.castSucc = Phi7 V c t.val (Nat.le_of_lt t.isLt) := by
  dsimp only [dat7]; simp only [Fin.coe_castSucc]

/-! ## The body obligation, at a generic point -/

def bodyPre7 (V : EntryVal F) (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (V : EntryVal F) (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4800000 in
/-- The body at any point: the inputs' memrefs hold their blocks; the point's position says which case it is in; the
    invariant hands the body the two accumulators at what the point before left (at anything at the first point) and
    takes them back at this point's contents; the core owes nothing throughout. -/
theorem sound_body7 (V : EntryVal F) (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).owesAt () t.succ = (dat7 V c).owesAt () t.castSucc from rfl]
  rw [show (dat7 V c).Φ t.succ = Phi7 V c (t.val + 1) t.isLt from rfl, Phi7_succ]
  have hN : t.val < 8 := lt_of_lt_of_eq t.isLt (show cfg7.N = 8 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  rw [show (dat7 V c).leavesExact 4 t = owns (c : Thread nD τ) (st7_4 t) fullShare ((dat7 V c).after 4 t) from by
    unfold Dat.leavesExact; rw [liveAt7_4 t], after7_4]
  rw [show (dat7 V c).leavesExact 5 t = owns (c : Thread nD τ) (st7_5 t) fullShare ((dat7 V c).after 5 t) from by
    unfold Dat.leavesExact; rw [liveAt7_5 t], after7_5]
  rw [show (dat7 V c).leavesExact 6 t = owns (c : Thread nD τ) (st7_6 t) fullShare ((dat7 V c).after 6 t) from by
    unfold Dat.leavesExact; rw [liveAt7_6 t], after7_6]
  by_cases h0 : t.val % 8 = 0
  · have hz : t.val = 0 := by omega
    have h1 : ¬t.val % 8 = 7 := by omega
    rw [Dat.leavesExact_idle (dat7 V c) 7 t (idleAt7_7 t (fun h => h1 ((hcond7_1 t).mp h))) (noFlush7_7 t (fun h => h1 ((hcond7_1 t).mp h)))]
    rw [acc7_first V c t hz]
    rw [Phi7_castSucc V c t, Phi7_zero V c _ _ hz, Phi7_first_eq]
    iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run7_first c Set.univ (grid7.coords t) ((hcond7_0 t).mpr h0) (fun h => h1 ((hcond7_1 t).mp h)) _ _ _ _ _ _ _ _ _ _ _ _ _ _ _ _ _ _ _ _
      (iblk7 V c 0 t) (iblk7 V c 1 t) (iblk7 V c 2 t) (iblk7 V c 3 t) (iblk7 V c 4 t) (iblk7 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 8 = 7
    · have hz : t.val ≠ 0 := by omega
      rw [show (dat7 V c).leavesExact 7 t = owns (c : Thread nD τ) (st7_7 t) fullShare ((dat7 V c).after 7 t) from by
        unfold Dat.leavesExact; rw [liveAt7_7 t ((hcond7_1 t).mpr h1)], after7_7]
      rw [acc7_pos V c t hz]
      rw [Phi7_castSucc V c t, Phi7_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run7_last c Set.univ (grid7.coords t) (fun h => h0 ((hcond7_0 t).mp h)) ((hcond7_1 t).mpr h1) _ _ _ _ _ _ _ _ _ _ _ _ _ _ _ _ _ _ _ _
        (iblk7 V c 0 t) (iblk7 V c 1 t) (iblk7 V c 2 t) (iblk7 V c 3 t) (iblk7 V c 4 t) (iblk7 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hz : t.val ≠ 0 := by omega
      rw [Dat.leavesExact_idle (dat7 V c) 7 t (idleAt7_7 t (fun h => h1 ((hcond7_1 t).mp h))) (noFlush7_7 t (fun h => h1 ((hcond7_1 t).mp h)))]
      rw [acc7_pos V c t hz]
      rw [Phi7_castSucc V c t, Phi7_pos V c _ _ hz]
      iintro ⟨⟨Hg, ⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run7_mid c Set.univ (grid7.coords t) (fun h => h0 ((hcond7_0 t).mp h)) (fun h => h1 ((hcond7_1 t).mp h)) _ _ _ _ _ _ _ _ _ _ _ _ _ _ _ _ _ _ _ _
        (iblk7 V c 0 t) (iblk7 V c 1 t) (iblk7 V c 2 t) (iblk7 V c 3 t) (iblk7 V c 4 t) (iblk7 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation7 (V : EntryVal F) (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
import proofs.«110361_j29403346109051_2_alg».proof.Proof.Gen.Kernel.Launch
import proofs.«110361_j29403346109051_2_alg».proof.Proof.K.Base
import proofs.«110361_j29403346109051_2_alg».proof.Proof.Gen.Kernel.Skeleton
import proofs.«110361_j29403346109051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the final batch-normalisation kernel (five windows: the activations' row block, the two statistics
rows, the scale row, the shift row; the output's row block) -/

/-! ## The windows' blocks -/

/-- Window `w`'s block at point `t`, read off its array as the region finds it. -/
def iblk8 (V : EntryVal F) (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- An input window's current staging buffer holds its block at every point, fetched there or not (unfetched, the
    block index has not moved), for any proof data whose array is the entry contents and whose body leaves the
    block in place. One lemma per input window. -/
theorem before8_0_of (V : EntryVal F) {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of (V : EntryVal F) {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of (V : EntryVal F) {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of (V : EntryVal F) {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- Row 0 of the statistics block (the mean). -/
abbrev r8_m : Rect S2x128 := Rect.unit (s := S2x128) ![0, 0] S1x128.size inb_S2x128_S1x128_0_0
/-- Row 1 of the statistics block (the variance). -/
abbrev r8_v : Rect S2x128 := Rect.unit (s := S2x128) ![1, 0] S1x128.size inb_S2x128_S1x128_1_0
/-- A whole row vector. -/
abbrev r8_r : Rect S1x128 := Rect.unit (s := S1x128) ![0, 0] S1x128.size inb_S1x128_S1x128_0_0
/-- A whole row block. -/
abbrev r8_b : Rect S5000x128 := Rect.unit (s := S5000x128) ![0, 0] S5000x128.size inb_S5000x128_S5000x128_0_0

/-! ## What the body leaves in the output window's buffer -/

/-- The output's staging buffer after the body, from the input windows' blocks: its one store, of the payload
    at the five values loaded. -/
def out8_4 (x0 : Vec F S5000x128 .f32) (x1 : Vec F S2x128 .f32) (x2 : Vec F S1x128 .f32) (x3 : Vec F S1x128 .f32) : Vec F S5000x128 .f32 :=
  View.canon [⟨r8_b, k8_pay1 (View.ld x1 r8_m) (View.ld x1 r8_v) (View.ld x2 r8_r) (View.ld x0 r8_b) (View.ld x3 r8_r)⟩]

/-- The store is of the whole buffer, so it covers it. -/
theorem cover8_4 (p0 : Vec F S5000x128 .f32) (y : S5000x128.Idx) :
    ∃ pc ∈ ([⟨r8_b, p0⟩] : List (View.Piece (Elt F) S5000x128 .f32)), y ∈ pc.1.set :=
  View.cover_of_tiled [⟨r8_b, p0⟩] S5000x128.size (by rfl) y

/-! ## The body's triple -/

set_option maxHeartbeats 1000000 in
/-- The kernel body on whole staging memrefs, the inputs' at read contents and the output's at anything, runs to
    the continuation holding the inputs' as they were and the output's at `out8_4` of the inputs' (the value it
    loads from the output's buffer before storing is not used). -/
theorem sound_kernel8 (c : Dev nD) (E : Set ℕ) (i : grid8.Coords)
    (arg1 : Memref sig .tc .vmem S5000x128 .f32) (harg1 : arg1.IsWhole) (arg2 : Memref sig .tc .vmem S2x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__bn_relu_final_kernel i arg1 harg1 arg2 harg2 arg3 harg3 arg4 harg4 arg5 harg5) K := by
  simp only [cc8__bn_relu_final_kernel_eq_skeleton]; unfold cc8__bn_relu_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The pipeline's proof data -/

/-- Region 8's proof data on core `c`, at the contents `V` the region is entered with: after the body at a point
    each input's buffer holds its block and the output's `out8_4` of the input blocks; the invariant is the scoped
    rest and the generator register, untouched; nothing owed; full shares. -/
def dat8 (V : EntryVal F) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (V : EntryVal F) (c : Dev nD) (w : Fin cfg8.W) : (dat8 V c).A w = V c (Pipeline.arrRef spec8 w) := by
  dsimp only [dat8]

theorem q_eq8 (V : EntryVal F) (c : Dev nD) (w : Fin cfg8.W) : (dat8 V c).q w = fullShare := by
  dsimp only [dat8]

theorem owed_eq8 (V : EntryVal F) (c : Dev nD) (t : Fin (cfg8.N + 1)) : (dat8 V c).owed t = 0 := by
  dsimp only [dat8]

/-- What the body leaves, window by window. -/
theorem after8_0 (V : EntryVal F) (c : Dev nD) (t : Fin cfg8.N) : (dat8 V c).after 0 t = iblk8 V c 0 t := by dsimp only [dat8]
theorem after8_1 (V : EntryVal F) (c : Dev nD) (t : Fin cfg8.N) : (dat8 V c).after 1 t = iblk8 V c 1 t := by dsimp only [dat8]
theorem after8_2 (V : EntryVal F) (c : Dev nD) (t : Fin cfg8.N) : (dat8 V c).after 2 t = iblk8 V c 2 t := by dsimp only [dat8]
theorem after8_3 (V : EntryVal F) (c : Dev nD) (t : Fin cfg8.N) : (dat8 V c).after 3 t = iblk8 V c 3 t := by dsimp only [dat8]
theorem after8_4 (V : EntryVal F) (c : Dev nD) (t : Fin cfg8.N) :
    (dat8 V c).after 4 t = out8_4 (iblk8 V c 0 t) (iblk8 V c 1 t) (iblk8 V c 2 t) (iblk8 V c 3 t) := by dsimp only [dat8]

/-- Each input's current staging buffer holds its block at every point, fetched there or not. -/
theorem before8_0 (V : EntryVal F) (c : Dev nD) (t : Fin cfg8.N) (d) : (dat8 V c).before 0 t d = iblk8 V c 0 t :=
  before8_0_of V (dat8 V c) (A_eq8 V c 0) (after8_0 V c) t d
theorem before8_1 (V : EntryVal F) (c : Dev nD) (t : Fin cfg8.N) (d) : (dat8 V c).before 1 t d = iblk8 V c 1 t :=
  before8_1_of V (dat8 V c) (A_eq8 V c 1) (after8_1 V c) t d
theorem before8_2 (V : EntryVal F) (c : Dev nD) (t : Fin cfg8.N) (d) : (dat8 V c).before 2 t d = iblk8 V c 2 t :=
  before8_2_of V (dat8 V c) (A_eq8 V c 2) (after8_2 V c) t d
theorem before8_3 (V : EntryVal F) (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t`, the windows one by one, -/
def bodyPre8 (V : EntryVal F) (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (V : EntryVal F) (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks, so the kernel's triple applies; the invariant and
    the core's tallies pass through unread. -/
theorem sound_body8 (V : EntryVal F) (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (V : EntryVal F) (c : Dev nD) : BodyObligation (dat8 (F := F) V c) (defs₀ (F := F)) Variants.none () Set.univ := fun t => by
  rw [bigSep_W8, bigSep_W8]
  exact sound_body8 V c t

theorem hin8 (V : EntryVal F) (c : Dev nD) :
    iprop((∃ r, prngReg c r) ∗ Pipeline.scopedRest (Ix := Unit) (Name := ℕ) (U := UR sig nD τ) (Lvl := ℕ) (Val := Elt F) spec8 c)
      ⊢ ((dat8 V c).Φ 0 : sProp 𝕄) := by
  rw [show (dat8 V c).Φ 0 = Pipeline.ΦA spec8 c from rfl]; unfold Pipeline.ΦA
  iintro ⟨Hp, Hr⟩
  isplitl [Hr]; · iexact Hr
  iexact Hp

theorem hout8 (V : EntryVal F) (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) (Val := Elt F) spec8 c) := by
  rw [show (dat8 V c).Φ (Fin.last _) = Pipeline.ΦA spec8 c from rfl]; unfold Pipeline.ΦA
  iintro ⟨Hr, Hp⟩
  isplitl [Hp]; · iexact Hp
  iexact Hr

end Cert.Kernel.Hand

end
-- ==== Proof.K.Run1.lean ====
import proofs.«110361_j29403346109051_2_alg».proof.Proof.Gen.Kernel.Regions
import proofs.«110361_j29403346109051_2_alg».proof.Proof.K.Reg0
import proofs.«110361_j29403346109051_2_alg».proof.Proof.K.Reg1
import proofs.«110361_j29403346109051_2_alg».proof.Proof.K.Reg2
import proofs.«110361_j29403346109051_2_alg».proof.Proof.K.Reg3
import proofs.«110361_j29403346109051_2_alg».proof.Proof.K.Reg4
import proofs.«110361_j29403346109051_2_alg».proof.Proof.K.Reg5
import proofs.«110361_j29403346109051_2_alg».proof.Proof.K.Reg6
import proofs.«110361_j29403346109051_2_alg».proof.Proof.K.Reg7
import proofs.«110361_j29403346109051_2_alg».proof.Proof.K.Reg8

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of @main: what the regions leave in their outputs

Between two items of @main core `c` holds every unscoped buffer at the generated valuation `Gen.VJ m outs c`,
written over unknowns `outs` for what each region leaves in its output arrays. Those unknowns are fixed here, region
by region in @main's order: a region's outputs hold what its write-backs leave (`Dat.arrAt … N` of its proof data at the
contents the region is entered with); the contents a region is entered with are the generated valuation over the
unknowns fixed so far, which is the valuation over all of them because a valuation reads only the unknowns of the
boundaries before it. -/

/-- Two families of unknowns agree up to boundary `n`. -/
def AgreeLe (n : ℕ) (o o' : Outs (F := F)) : Prop := ∀ J, J ≤ n → ∀ r c, o J r c = o' J r c

theorem AgreeLe.mono {n n' : ℕ} {o o' : Outs (F := F)} (h : AgreeLe n o o') (hn : n' ≤ n) : AgreeLe n' o o' :=
  fun J hJ => h J (le_trans hJ hn)

theorem AgreeLe.symm {n : ℕ} {o o' : Outs (F := F)} (h : AgreeLe n o o') : AgreeLe n o' o :=
  fun J hJ r c => (h J hJ r c).symm

/-! ## A boundary's valuation reads only the unknowns of the boundaries before it -/

theorem Vc2 {o o' : Outs (F := F)} (h : AgreeLe 2 o o') (c : Dev nD) : Gen.V2 m o c = Gen.V2 m o' c := by
  unfold Gen.V2
  rw [h 2 (le_refl _) main_v37_0 c, h 2 (le_refl _) main_v37_1 c]
theorem Vc3 {o o' : Outs (F := F)} (h : AgreeLe 2 o o') (c : Dev nD) : Gen.V3 m o c = Gen.V3 m o' c :=
  congrArg (StableHlo.after hostOps1) (Vc2 m h c)
theorem Vc4 {o o' : Outs (F := F)} (h : AgreeLe 4 o o') (c : Dev nD) : Gen.V4 m o c = Gen.V4 m o' c := by
  unfold Gen.V4
  rw [Vc3 m (h.mono (by decide)) c, h 4 (le_refl _) main_v40_0 c, h 4 (le_refl _) main_v40_1 c]
theorem Vc5 {o o' : Outs (F := F)} (h : AgreeLe 5 o o') (c : Dev nD) : Gen.V5 m o c = Gen.V5 m o' c := by
  unfold Gen.V5
  rw [Vc4 m (h.mono (by decide)) c, h 5 (le_refl _) main_v41 c]
theorem Vc6 {o o' : Outs (F := F)} (h : AgreeLe 5 o o') (c : Dev nD) : Gen.V6 m o c = Gen.V6 m o' c :=
  congrArg (StableHlo.after hostOps3) (Vc5 m h c)
theorem Vc7 {o o' : Outs (F := F)} (h : AgreeLe 7 o o') (c : Dev nD) : Gen.V7 m o c = Gen.V7 m o' c := by
  unfold Gen.V7
  rw [Vc6 m (h.mono (by decide)) c, h 7 (le_refl _) main_v79_0 c, h 7 (le_refl _) main_v79_1 c]
theorem Vc8 {o o' : Outs (F := F)} (h : AgreeLe 7 o o') (c : Dev nD) : Gen.V8 m o c = Gen.V8 m o' c :=
  congrArg (StableHlo.after hostOps4) (Vc7 m h c)
theorem Vc9 {o o' : Outs (F := F)} (h : AgreeLe 9 o o') (c : Dev nD) : Gen.V9 m o c = Gen.V9 m o' c := by
  unfold Gen.V9
  rw [Vc8 m (h.mono (by decide)) c, h 9 (le_refl _) main_v82_0 c, h 9 (le_refl _) main_v82_1 c]
theorem Vc10 {o o' : Outs (F := F)} (h : AgreeLe 10 o o') (c : Dev nD) : Gen.V10 m o c = Gen.V10 m o' c := by
  unfold Gen.V10
  rw [Vc9 m (h.mono (by decide)) c, h 10 (le_refl _) main_v83 c]
theorem Vc11 {o o' : Outs (F := F)} (h : AgreeLe 10 o o') (c : Dev nD) : Gen.V11 m o c = Gen.V11 m o' c :=
  congrArg (StableHlo.after hostOps6) (Vc10 m h c)
theorem Vc12 {o o' : Outs (F := F)} (h : AgreeLe 12 o o') (c : Dev nD) : Gen.V12 m o c = Gen.V12 m o' c := by
  unfold Gen.V12
  rw [Vc11 m (h.mono (by decide)) c, h 12 (le_refl _) main_v121_0 c, h 12 (le_refl _) main_v121_1 c]
theorem Vc13 {o o' : Outs (F := F)} (h : AgreeLe 12 o o') (c : Dev nD) : Gen.V13 m o c = Gen.V13 m o' c :=
  congrArg (StableHlo.after hostOps7) (Vc12 m h c)
theorem Vc14 {o o' : Outs (F := F)} (h : AgreeLe 14 o o') (c : Dev nD) : Gen.V14 m o c = Gen.V14 m o' c := by
  unfold Gen.V14
  rw [Vc13 m (h.mono (by decide)) c, h 14 (le_refl _) main_v124_0 c, h 14 (le_refl _) main_v124_1 c]
theorem Vc15 {o o' : Outs (F := F)} (h : AgreeLe 15 o o') (c : Dev nD) : Gen.V15 m o c = Gen.V15 m o' c := by
  unfold Gen.V15
  rw [Vc14 m (h.mono (by decide)) c, h 15 (le_refl _) main_v125 c]

/-! ## The unknowns, region by region -/

/-- The buffers region 0 is entered with. -/
def ent0 : EntryVal F := fun c b => Gen.V1 m c b
/-- At region 0's exit: each output array as its write-backs leave it, every other buffer as entered. -/
def O2 : EntryVal F := fun c =>
  Function.update (Function.update (ent0 m c) main_v37_0 ((dat0 (ent0 m) c).arrAt (5 : Fin 7) cfg0.N)) main_v37_1 ((dat0 (ent0 m) c).arrAt (6 : Fin 7) cfg0.N)
/-- The unknowns up to region 0. -/
def o2 : Outs (F := F) := fun _ r c => O2 m c r

/-- The buffers region 1 is entered with. -/
def ent1 : EntryVal F := fun c b => Gen.V3 m (o2 m) c b
/-- At region 1's exit: each output array as its write-backs leave it, every other buffer as entered. -/
def O4 : EntryVal F := fun c =>
  Function.update (Function.update (ent1 m c) main_v40_0 ((dat1 (ent1 m) c).arrAt (6 : Fin 8) cfg1.N)) main_v40_1 ((dat1 (ent1 m) c).arrAt (7 : Fin 8) cfg1.N)
/-- The unknowns up to region 1. -/
def o4 : Outs (F := F) := fun J r c => if J = 4 then O4 m c r else o2 m J r c

/-- The buffers region 2 is entered with. -/
def ent2 : EntryVal F := fun c b => Gen.V4 m (o4 m) c b
/-- At region 2's exit: each output array as its write-backs leave it, every other buffer as entered. -/
def O5 : EntryVal F := fun c =>
  Function.update (ent2 m c) main_v41 ((dat2 (ent2 m) c).arrAt (4 : Fin 5) cfg2.N)
/-- The unknowns up to region 2. -/
def o5 : Outs (F := F) := fun J r c => if J = 5 then O5 m c r else o4 m J r c

/-- The buffers region 3 is entered with. -/
def ent3 : EntryVal F := fun c b => Gen.V6 m (o5 m) c b
/-- At region 3's exit: each output array as its write-backs leave it, every other buffer as entered. -/
def O7 : EntryVal F := fun c =>
  Function.update (Function.update (ent3 m c) main_v79_0 ((dat3 (ent3 m) c).arrAt (5 : Fin 7) cfg3.N)) main_v79_1 ((dat3 (ent3 m) c).arrAt (6 : Fin 7) cfg3.N)
/-- The unknowns up to region 3. -/
def o7 : Outs (F := F) := fun J r c => if J = 7 then O7 m c r else o5 m J r c

/-- The buffers region 4 is entered with. -/
def ent4 : EntryVal F := fun c b => Gen.V8 m (o7 m) c b
/-- At region 4's exit: each output array as its write-backs leave it, every other buffer as entered. -/
def O9 : EntryVal F := fun c =>
  Function.update (Function.update (ent4 m c) main_v82_0 ((dat4 (ent4 m) c).arrAt (6 : Fin 8) cfg4.N)) main_v82_1 ((dat4 (ent4 m) c).arrAt (7 : Fin 8) cfg4.N)
/-- The unknowns up to region 4. -/
def o9 : Outs (F := F) := fun J r c => if J = 9 then O9 m c r else o7 m J r c

/-- The buffers region 5 is entered with. -/
def ent5 : EntryVal F := fun c b => Gen.V9 m (o9 m) c b
/-- At region 5's exit: each output array as its write-backs leave it, every other buffer as entered. -/
def O10 : EntryVal F := fun c =>
  Function.update (ent5 m c) main_v83 ((dat5 (ent5 m) c).arrAt (4 : Fin 5) cfg5.N)
/-- The unknowns up to region 5. -/
def o10 : Outs (F := F) := fun J r c => if J = 10 then O10 m c r else o9 m J r c

/-- The buffers region 6 is entered with. -/
def ent6 : EntryVal F := fun c b => Gen.V11 m (o10 m) c b
/-- At region 6's exit: each output array as its write-backs leave it, every other buffer as entered. -/
def O12 : EntryVal F := fun c =>
  Function.update (Function.update (ent6 m c) main_v121_0 ((dat6 (ent6 m) c).arrAt (5 : Fin 7) cfg6.N)) main_v121_1 ((dat6 (ent6 m) c).arrAt (6 : Fin 7) cfg6.N)
/-- The unknowns up to region 6. -/
def o12 : Outs (F := F) := fun J r c => if J = 12 then O12 m c r else o10 m J r c

/-- The buffers region 7 is entered with. -/
def ent7 : EntryVal F := fun c b => Gen.V13 m (o12 m) c b
/-- At region 7's exit: each output array as its write-backs leave it, every other buffer as entered. -/
def O14 : EntryVal F := fun c =>
  Function.update (Function.update (ent7 m c) main_v124_0 ((dat7 (ent7 m) c).arrAt (6 : Fin 8) cfg7.N)) main_v124_1 ((dat7 (ent7 m) c).arrAt (7 : Fin 8) cfg7.N)
/-- The unknowns up to region 7. -/
def o14 : Outs (F := F) := fun J r c => if J = 14 then O14 m c r else o12 m J r c

/-- The buffers region 8 is entered with. -/
def ent8 : EntryVal F := fun c b => Gen.V14 m (o14 m) c b
/-- At region 8's exit: each output array as its write-backs leave it, every other buffer as entered. -/
def O15 : EntryVal F := fun c =>
  Function.update (ent8 m c) main_v125 ((dat8 (ent8 m) c).arrAt (4 : Fin 5) cfg8.N)
/-- THE REGIONS' OUTPUT CONTENTS: `outs m J r c` is what buffer `r` holds on core `c` after item J−1, for the nine
    boundaries J a region ends at. -/
def outs : Outs (F := F) := fun J r c => if J = 15 then O15 m c r else o14 m J r c

/-! ## The unknowns fixed up to a region are those of the whole run, up to that region's exit -/

theorem agree14 : AgreeLe 14 (outs m) (o14 m) := fun J hJ r c => by
  unfold outs; exact if_neg (by omega)
theorem agree12 : AgreeLe 12 (outs m) (o12 m) := fun J hJ r c =>
  (agree14 m J (by omega) r c).trans (by unfold o14; exact if_neg (by omega))
theorem agree10 : AgreeLe 10 (outs m) (o10 m) := fun J hJ r c =>
  (agree12 m J (by omega) r c).trans (by unfold o12; exact if_neg (by omega))
theorem agree9 : AgreeLe 9 (outs m) (o9 m) := fun J hJ r c =>
  (agree10 m J (by omega) r c).trans (by unfold o10; exact if_neg (by omega))
theorem agree7 : AgreeLe 7 (outs m) (o7 m) := fun J hJ r c =>
  (agree9 m J (by omega) r c).trans (by unfold o9; exact if_neg (by omega))
theorem agree5 : AgreeLe 5 (outs m) (o5 m) := fun J hJ r c =>
  (agree7 m J (by omega) r c).trans (by unfold o7; exact if_neg (by omega))
theorem agree4 : AgreeLe 4 (outs m) (o4 m) := fun J hJ r c =>
  (agree5 m J (by omega) r c).trans (by unfold o5; exact if_neg (by omega))
theorem agree2 : AgreeLe 2 (outs m) (o2 m) := fun J hJ r c =>
  (agree4 m J (by omega) r c).trans (by unfold o4; exact if_neg (by omega))

/-! ## The boundary contents at the TensorCore's references, and the proof data family -/

/-- Boundary 1's contents read at the TensorCore's references. -/
abbrev val1 : EntryVal F := fun c b => Gen.V1 m c b
/-- Boundary 2's contents read at the TensorCore's references. -/
abbrev val2 : EntryVal F := fun c b => Gen.V2 m (outs m) c b
/-- Boundary 3's contents read at the TensorCore's references. -/
abbrev val3 : EntryVal F := fun c b => Gen.V3 m (outs m) c b
/-- Boundary 4's contents read at the TensorCore's references. -/
abbrev val4 : EntryVal F := fun c b => Gen.V4 m (outs m) c b
/-- Boundary 5's contents read at the TensorCore's references. -/
abbrev val5 : EntryVal F := fun c b => Gen.V5 m (outs m) c b
/-- Boundary 6's contents read at the TensorCore's references. -/
abbrev val6 : EntryVal F := fun c b => Gen.V6 m (outs m) c b
/-- Boundary 7's contents read at the TensorCore's references. -/
abbrev val7 : EntryVal F := fun c b => Gen.V7 m (outs m) c b
/-- Boundary 8's contents read at the TensorCore's references. -/
abbrev val8 : EntryVal F := fun c b => Gen.V8 m (outs m) c b
/-- Boundary 9's contents read at the TensorCore's references. -/
abbrev val9 : EntryVal F := fun c b => Gen.V9 m (outs m) c b
/-- Boundary 10's contents read at the TensorCore's references. -/
abbrev val10 : EntryVal F := fun c b => Gen.V10 m (outs m) c b
/-- Boundary 11's contents read at the TensorCore's references. -/
abbrev val11 : EntryVal F := fun c b => Gen.V11 m (outs m) c b
/-- Boundary 12's contents read at the TensorCore's references. -/
abbrev val12 : EntryVal F := fun c b => Gen.V12 m (outs m) c b
/-- Boundary 13's contents read at the TensorCore's references. -/
abbrev val13 : EntryVal F := fun c b => Gen.V13 m (outs m) c b
/-- Boundary 14's contents read at the TensorCore's references. -/
abbrev val14 : EntryVal F := fun c b => Gen.V14 m (outs m) c b
/-- Boundary 15's contents read at the TensorCore's references. -/
abbrev val15 : EntryVal F := fun c b => Gen.V15 m (outs m) c b

theorem ent0_eq : ent0 m = val1 m := rfl
theorem outs_2 (r : Ref sig .tc) (c : Dev nD) : outs m 2 r c = O2 m c r :=
  agree2 m 2 (le_refl _) r c
theorem ent1_eq : ent1 m = val3 m :=
  funext fun c => funext fun b => congrFun (Vc3 m (agree2 m).symm c) (Proc.devRef .tc b)
theorem outs_4 (r : Ref sig .tc) (c : Dev nD) : outs m 4 r c = O4 m c r :=
  (agree4 m 4 (le_refl _) r c).trans (by unfold o4; exact if_pos rfl)
theorem ent2_eq : ent2 m = val4 m :=
  funext fun c => funext fun b => congrFun (Vc4 m (agree4 m).symm c) (Proc.devRef .tc b)
theorem outs_5 (r : Ref sig .tc) (c : Dev nD) : outs m 5 r c = O5 m c r :=
  (agree5 m 5 (le_refl _) r c).trans (by unfold o5; exact if_pos rfl)
theorem ent3_eq : ent3 m = val6 m :=
  funext fun c => funext fun b => congrFun (Vc6 m (agree5 m).symm c) (Proc.devRef .tc b)
theorem outs_7 (r : Ref sig .tc) (c : Dev nD) : outs m 7 r c = O7 m c r :=
  (agree7 m 7 (le_refl _) r c).trans (by unfold o7; exact if_pos rfl)
theorem ent4_eq : ent4 m = val8 m :=
  funext fun c => funext fun b => congrFun (Vc8 m (agree7 m).symm c) (Proc.devRef .tc b)
theorem outs_9 (r : Ref sig .tc) (c : Dev nD) : outs m 9 r c = O9 m c r :=
  (agree9 m 9 (le_refl _) r c).trans (by unfold o9; exact if_pos rfl)
theorem ent5_eq : ent5 m = val9 m :=
  funext fun c => funext fun b => congrFun (Vc9 m (agree9 m).symm c) (Proc.devRef .tc b)
theorem outs_10 (r : Ref sig .tc) (c : Dev nD) : outs m 10 r c = O10 m c r :=
  (agree10 m 10 (le_refl _) r c).trans (by unfold o10; exact if_pos rfl)
theorem ent6_eq : ent6 m = val11 m :=
  funext fun c => funext fun b => congrFun (Vc11 m (agree10 m).symm c) (Proc.devRef .tc b)
theorem outs_12 (r : Ref sig .tc) (c : Dev nD) : outs m 12 r c = O12 m c r :=
  (agree12 m 12 (le_refl _) r c).trans (by unfold o12; exact if_pos rfl)
theorem ent7_eq : ent7 m = val13 m :=
  funext fun c => funext fun b => congrFun (Vc13 m (agree12 m).symm c) (Proc.devRef .tc b)
theorem outs_14 (r : Ref sig .tc) (c : Dev nD) : outs m 14 r c = O14 m c r :=
  (agree14 m 14 (le_refl _) r c).trans (by unfold o14; exact if_pos rfl)
theorem ent8_eq : ent8 m = val14 m :=
  funext fun c => funext fun b => congrFun (Vc14 m (agree14 m).symm c) (Proc.devRef .tc b)
theorem outs_15 (r : Ref sig .tc) (c : Dev nD) : outs m 15 r c = O15 m c r := by
  unfold outs; exact if_pos rfl

/-- The prefetched tables' admissible contents: no pallas_call has a table. -/
abbrev adm : (p : Fin 9) → (pcfgs (F := F) p).Adm := Gen.adm
/-- Every pipeline's proof data, each at its region's entry contents: a literal match on the pipeline's index. -/
def pdats : (p : Fin 9) → (c : Dev nD) → Dat τ (Elt F) Unit ℕ (UR sig nD τ) ℕ (cfgs p) c
  | ⟨0, _⟩ => fun c => dat0 (val1 m) c
  | ⟨1, _⟩ => fun c => dat1 (val3 m) c
  | ⟨2, _⟩ => fun c => dat2 (val4 m) c
  | ⟨3, _⟩ => fun c => dat3 (val6 m) c
  | ⟨4, _⟩ => fun c => dat4 (val8 m) c
  | ⟨5, _⟩ => fun c => dat5 (val9 m) c
  | ⟨6, _⟩ => fun c => dat6 (val11 m) c
  | ⟨7, _⟩ => fun c => dat7 (val13 m) c
  | ⟨8, _⟩ => fun c => dat8 (val14 m) c

theorem entry0 (c : Dev nD) : pdats m 0 c = dat0 (fun c b => Gen.V1 m c b) c := rfl
theorem entry1 (c : Dev nD) : pdats m 1 c = dat1 (fun c b => Gen.V3 m (outs m) c b) c := rfl
theorem entry2 (c : Dev nD) : pdats m 2 c = dat2 (fun c b => Gen.V4 m (outs m) c b) c := rfl
theorem entry3 (c : Dev nD) : pdats m 3 c = dat3 (fun c b => Gen.V6 m (outs m) c b) c := rfl
theorem entry4 (c : Dev nD) : pdats m 4 c = dat4 (fun c b => Gen.V8 m (outs m) c b) c := rfl
theorem entry5 (c : Dev nD) : pdats m 5 c = dat5 (fun c b => Gen.V9 m (outs m) c b) c := rfl
theorem entry6 (c : Dev nD) : pdats m 6 c = dat6 (fun c b => Gen.V11 m (outs m) c b) c := rfl
theorem entry7 (c : Dev nD) : pdats m 7 c = dat7 (fun c b => Gen.V13 m (outs m) c b) c := rfl
theorem entry8 (c : Dev nD) : pdats m 8 c = dat8 (fun c b => Gen.V14 m (outs m) c b) c := rfl

/-! ## Each region's outputs at its exit boundary -/

theorem arrOut0_5 (c : Dev nD) :
    Gen.V2 m (outs m) c (Pipeline.arrRef spec0 (5 : Fin 7)) = (dat0 (fun c b => Gen.V1 m c b) c).arrAt (5 : Fin 7) cfg0.N := by
  show Gen.V2 m (outs m) c (Proc.devRef .tc main_v37_0) = _
  unfold Gen.V2
  rw [Function.update_of_ne (StableHlo.devRef_ne_of_ne (by decide : main_v37_0 ≠ main_v37_1))]
  rw [Function.update_self, outs_2]
  unfold O2
  rw [Function.update_of_ne (by decide : main_v37_0 ≠ main_v37_1)]
  rw [Function.update_self, ent0_eq]
theorem arrOut0_6 (c : Dev nD) :
    Gen.V2 m (outs m) c (Pipeline.arrRef spec0 (6 : Fin 7)) = (dat0 (fun c b => Gen.V1 m c b) c).arrAt (6 : Fin 7) cfg0.N := by
  show Gen.V2 m (outs m) c (Proc.devRef .tc main_v37_1) = _
  unfold Gen.V2
  rw [Function.update_self, outs_2]
  unfold O2
  rw [Function.update_self, ent0_eq]
theorem arrOut1_6 (c : Dev nD) :
    Gen.V4 m (outs m) c (Pipeline.arrRef spec1 (6 : Fin 8)) = (dat1 (fun c b => Gen.V3 m (outs m) c b) c).arrAt (6 : Fin 8) cfg1.N := by
  show Gen.V4 m (outs m) c (Proc.devRef .tc main_v40_0) = _
  unfold Gen.V4
  rw [Function.update_of_ne (StableHlo.devRef_ne_of_ne (by decide : main_v40_0 ≠ main_v40_1))]
  rw [Function.update_self, outs_4]
  unfold O4
  rw [Function.update_of_ne (by decide : main_v40_0 ≠ main_v40_1)]
  rw [Function.update_self, ent1_eq]
theorem arrOut1_7 (c : Dev nD) :
    Gen.V4 m (outs m) c (Pipeline.arrRef spec1 (7 : Fin 8)) = (dat1 (fun c b => Gen.V3 m (outs m) c b) c).arrAt (7 : Fin 8) cfg1.N := by
  show Gen.V4 m (outs m) c (Proc.devRef .tc main_v40_1) = _
  unfold Gen.V4
  rw [Function.update_self, outs_4]
  unfold O4
  rw [Function.update_self, ent1_eq]
theorem arrOut2_4 (c : Dev nD) :
    Gen.V5 m (outs m) c (Pipeline.arrRef spec2 (4 : Fin 5)) = (dat2 (fun c b => Gen.V4 m (outs m) c b) c).arrAt (4 : Fin 5) cfg2.N := by
  show Gen.V5 m (outs m) c (Proc.devRef .tc main_v41) = _
  unfold Gen.V5
  rw [Function.update_self, outs_5]
  unfold O5
  rw [Function.update_self, ent2_eq]
theorem arrOut3_5 (c : Dev nD) :
    Gen.V7 m (outs m) c (Pipeline.arrRef spec3 (5 : Fin 7)) = (dat3 (fun c b => Gen.V6 m (outs m) c b) c).arrAt (5 : Fin 7) cfg3.N := by
  show Gen.V7 m (outs m) c (Proc.devRef .tc main_v79_0) = _
  unfold Gen.V7
  rw [Function.update_of_ne (StableHlo.devRef_ne_of_ne (by decide : main_v79_0 ≠ main_v79_1))]
  rw [Function.update_self, outs_7]
  unfold O7
  rw [Function.update_of_ne (by decide : main_v79_0 ≠ main_v79_1)]
  rw [Function.update_self, ent3_eq]
theorem arrOut3_6 (c : Dev nD) :
    Gen.V7 m (outs m) c (Pipeline.arrRef spec3 (6 : Fin 7)) = (dat3 (fun c b => Gen.V6 m (outs m) c b) c).arrAt (6 : Fin 7) cfg3.N := by
  show Gen.V7 m (outs m) c (Proc.devRef .tc main_v79_1) = _
  unfold Gen.V7
  rw [Function.update_self, outs_7]
  unfold O7
  rw [Function.update_self, ent3_eq]
theorem arrOut4_6 (c : Dev nD) :
    Gen.V9 m (outs m) c (Pipeline.arrRef spec4 (6 : Fin 8)) = (dat4 (fun c b => Gen.V8 m (outs m) c b) c).arrAt (6 : Fin 8) cfg4.N := by
  show Gen.V9 m (outs m) c (Proc.devRef .tc main_v82_0) = _
  unfold Gen.V9
  rw [Function.update_of_ne (StableHlo.devRef_ne_of_ne (by decide : main_v82_0 ≠ main_v82_1))]
  rw [Function.update_self, outs_9]
  unfold O9
  rw [Function.update_of_ne (by decide : main_v82_0 ≠ main_v82_1)]
  rw [Function.update_self, ent4_eq]
theorem arrOut4_7 (c : Dev nD) :
    Gen.V9 m (outs m) c (Pipeline.arrRef spec4 (7 : Fin 8)) = (dat4 (fun c b => Gen.V8 m (outs m) c b) c).arrAt (7 : Fin 8) cfg4.N := by
  show Gen.V9 m (outs m) c (Proc.devRef .tc main_v82_1) = _
  unfold Gen.V9
  rw [Function.update_self, outs_9]
  unfold O9
  rw [Function.update_self, ent4_eq]
theorem arrOut5_4 (c : Dev nD) :
    Gen.V10 m (outs m) c (Pipeline.arrRef spec5 (4 : Fin 5)) = (dat5 (fun c b => Gen.V9 m (outs m) c b) c).arrAt (4 : Fin 5) cfg5.N := by
  show Gen.V10 m (outs m) c (Proc.devRef .tc main_v83) = _
  unfold Gen.V10
  rw [Function.update_self, outs_10]
  unfold O10
  rw [Function.update_self, ent5_eq]
theorem arrOut6_5 (c : Dev nD) :
    Gen.V12 m (outs m) c (Pipeline.arrRef spec6 (5 : Fin 7)) = (dat6 (fun c b => Gen.V11 m (outs m) c b) c).arrAt (5 : Fin 7) cfg6.N := by
  show Gen.V12 m (outs m) c (Proc.devRef .tc main_v121_0) = _
  unfold Gen.V12
  rw [Function.update_of_ne (StableHlo.devRef_ne_of_ne (by decide : main_v121_0 ≠ main_v121_1))]
  rw [Function.update_self, outs_12]
  unfold O12
  rw [Function.update_of_ne (by decide : main_v121_0 ≠ main_v121_1)]
  rw [Function.update_self, ent6_eq]
theorem arrOut6_6 (c : Dev nD) :
    Gen.V12 m (outs m) c (Pipeline.arrRef spec6 (6 : Fin 7)) = (dat6 (fun c b => Gen.V11 m (outs m) c b) c).arrAt (6 : Fin 7) cfg6.N := by
  show Gen.V12 m (outs m) c (Proc.devRef .tc main_v121_1) = _
  unfold Gen.V12
  rw [Function.update_self, outs_12]
  unfold O12
  rw [Function.update_self, ent6_eq]
theorem arrOut7_6 (c : Dev nD) :
    Gen.V14 m (outs m) c (Pipeline.arrRef spec7 (6 : Fin 8)) = (dat7 (fun c b => Gen.V13 m (outs m) c b) c).arrAt (6 : Fin 8) cfg7.N := by
  show Gen.V14 m (outs m) c (Proc.devRef .tc main_v124_0) = _
  unfold Gen.V14
  rw [Function.update_of_ne (StableHlo.devRef_ne_of_ne (by decide : main_v124_0 ≠ main_v124_1))]
  rw [Function.update_self, outs_14]
  unfold O14
  rw [Function.update_of_ne (by decide : main_v124_0 ≠ main_v124_1)]
  rw [Function.update_self, ent7_eq]
theorem arrOut7_7 (c : Dev nD) :
    Gen.V14 m (outs m) c (Pipeline.arrRef spec7 (7 : Fin 8)) = (dat7 (fun c b => Gen.V13 m (outs m) c b) c).arrAt (7 : Fin 8) cfg7.N := by
  show Gen.V14 m (outs m) c (Proc.devRef .tc main_v124_1) = _
  unfold Gen.V14
  rw [Function.update_self, outs_14]
  unfold O14
  rw [Function.update_self, ent7_eq]
theorem arrOut8_4 (c : Dev nD) :
    Gen.V15 m (outs m) c (Pipeline.arrRef spec8 (4 : Fin 5)) = (dat8 (fun c b => Gen.V14 m (outs m) c b) c).arrAt (4 : Fin 5) cfg8.N := by
  show Gen.V15 m (outs m) c (Proc.devRef .tc main_v125) = _
  unfold Gen.V15
  rw [Function.update_self, outs_15]
  unfold O15
  rw [Function.update_self, ent8_eq]

/-! ## At a region's exit: each of its arrays holds what the pipeline leaves, every other buffer what it held at entry -/

/-- An input array of region 0 holds at the exit what it held at entry. -/
theorem hFin0 (c : Dev nD) (w : Fin 7) (hin : (cfg0.win w).isOut = false)
    (hne : Pipeline.arrRef spec0 w ∉ ([main_v37_0, main_v37_1] : List (Ref sig .tc))) :
    (dat0 (val1 m) c).arrAt w cfg0.N = val2 m c (Pipeline.arrRef spec0 w) :=
  ((dat0 (val1 m) c).arrAt_in w hin _).trans ((A_eq0 (val1 m) c w).trans (Gen.V2_of m (outs m) c _ hne).symm)
set_option maxHeartbeats 1000000 in
theorem hF0 (c : Dev nD) : ∀ w : Fin 7, (dat0 (val1 m) c).arrAt w cfg0.N = val2 m c (Pipeline.arrRef spec0 w)
  | ⟨0, _⟩ => hFin0 m c 0 (by decide +kernel) (by decide +kernel)
  | ⟨1, _⟩ => hFin0 m c 1 (by decide +kernel) (by decide +kernel)
  | ⟨2, _⟩ => hFin0 m c 2 (by decide +kernel) (by decide +kernel)
  | ⟨3, _⟩ => hFin0 m c 3 (by decide +kernel) (by decide +kernel)
  | ⟨4, _⟩ => hFin0 m c 4 (by decide +kernel) (by decide +kernel)
  | ⟨5, _⟩ => (arrOut0_5 m c).symm
  | ⟨6, _⟩ => (arrOut0_6 m c).symm
  | ⟨_ + 7, h⟩ => absurd h (by omega)
theorem hrest0 (c : Dev nD) : ∀ b, b ∉ Finset.univ.image (Pipeline.arrRef spec0) → val2 m c b = val1 m c b :=
  fun b hb => Gen.V2_of m (outs m) c b fun h => hb (by
    rcases List.mem_cons.mp h with rfl | h
    · exact Finset.mem_image.mpr ⟨(5 : Fin 7), Finset.mem_univ _, rfl⟩
    · rcases List.mem_cons.mp h with rfl | h
      · exact Finset.mem_image.mpr ⟨(6 : Fin 7), Finset.mem_univ _, rfl⟩
      · cases h)

/-- An input array of region 1 holds at the exit what it held at entry. -/
theorem hFin1 (c : Dev nD) (w : Fin 8) (hin : (cfg1.win w).isOut = false)
    (hne : Pipeline.arrRef spec1 w ∉ ([main_v40_0, main_v40_1] : List (Ref sig .tc))) :
    (dat1 (val3 m) c).arrAt w cfg1.N = val4 m c (Pipeline.arrRef spec1 w) :=
  ((dat1 (val3 m) c).arrAt_in w hin _).trans ((A_eq1 (val3 m) c w).trans (Gen.V4_of m (outs m) c _ hne).symm)
set_option maxHeartbeats 1000000 in
theorem hF1 (c : Dev nD) : ∀ w : Fin 8, (dat1 (val3 m) c).arrAt w cfg1.N = val4 m c (Pipeline.arrRef spec1 w)
  | ⟨0, _⟩ => hFin1 m c 0 (by decide +kernel) (by decide +kernel)
  | ⟨1, _⟩ => hFin1 m c 1 (by decide +kernel) (by decide +kernel)
  | ⟨2, _⟩ => hFin1 m c 2 (by decide +kernel) (by decide +kernel)
  | ⟨3, _⟩ => hFin1 m c 3 (by decide +kernel) (by decide +kernel)
  | ⟨4, _⟩ => hFin1 m c 4 (by decide +kernel) (by decide +kernel)
  | ⟨5, _⟩ => hFin1 m c 5 (by decide +kernel) (by decide +kernel)
  | ⟨6, _⟩ => (arrOut1_6 m c).symm
  | ⟨7, _⟩ => (arrOut1_7 m c).symm
  | ⟨_ + 8, h⟩ => absurd h (by omega)
theorem hrest1 (c : Dev nD) : ∀ b, b ∉ Finset.univ.image (Pipeline.arrRef spec1) → val4 m c b = val3 m c b :=
  fun b hb => Gen.V4_of m (outs m) c b fun h => hb (by
    rcases List.mem_cons.mp h with rfl | h
    · exact Finset.mem_image.mpr ⟨(6 : Fin 8), Finset.mem_univ _, rfl⟩
    · rcases List.mem_cons.mp h with rfl | h
      · exact Finset.mem_image.mpr ⟨(7 : Fin 8), Finset.mem_univ _, rfl⟩
      · cases h)

/-- An input array of region 2 holds at the exit what it held at entry. -/
theorem hFin2 (c : Dev nD) (w : Fin 5) (hin : (cfg2.win w).isOut = false)
    (hne : Pipeline.arrRef spec2 w ∉ ([main_v41] : List (Ref sig .tc))) :
    (dat2 (val4 m) c).arrAt w cfg2.N = val5 m c (Pipeline.arrRef spec2 w) :=
  ((dat2 (val4 m) c).arrAt_in w hin _).trans ((A_eq2 (val4 m) c w).trans (Gen.V5_of m (outs m) c _ hne).symm)
set_option maxHeartbeats 1000000 in
theorem hF2 (c : Dev nD) : ∀ w : Fin 5, (dat2 (val4 m) c).arrAt w cfg2.N = val5 m c (Pipeline.arrRef spec2 w)
  | ⟨0, _⟩ => hFin2 m c 0 (by decide +kernel) (by decide +kernel)
  | ⟨1, _⟩ => hFin2 m c 1 (by decide +kernel) (by decide +kernel)
  | ⟨2, _⟩ => hFin2 m c 2 (by decide +kernel) (by decide +kernel)
  | ⟨3, _⟩ => hFin2 m c 3 (by decide +kernel) (by decide +kernel)
  | ⟨4, _⟩ => (arrOut2_4 m c).symm
  | ⟨_ + 5, h⟩ => absurd h (by omega)
theorem hrest2 (c : Dev nD) : ∀ b, b ∉ Finset.univ.image (Pipeline.arrRef spec2) → val5 m c b = val4 m c b :=
  fun b hb => Gen.V5_of m (outs m) c b fun h => hb (by
    rcases List.mem_cons.mp h with rfl | h
    · exact Finset.mem_image.mpr ⟨(4 : Fin 5), Finset.mem_univ _, rfl⟩
    · cases h)

/-- An input array of region 3 holds at the exit what it held at entry. -/
theorem hFin3 (c : Dev nD) (w : Fin 7) (hin : (cfg3.win w).isOut = false)
    (hne : Pipeline.arrRef spec3 w ∉ ([main_v79_0, main_v79_1] : List (Ref sig .tc))) :
    (dat3 (val6 m) c).arrAt w cfg3.N = val7 m c (Pipeline.arrRef spec3 w) :=
  ((dat3 (val6 m) c).arrAt_in w hin _).trans ((A_eq3 (val6 m) c w).trans (Gen.V7_of m (outs m) c _ hne).symm)
set_option maxHeartbeats 1000000 in
theorem hF3 (c : Dev nD) : ∀ w : Fin 7, (dat3 (val6 m) c).arrAt w cfg3.N = val7 m c (Pipeline.arrRef spec3 w)
  | ⟨0, _⟩ => hFin3 m c 0 (by decide +kernel) (by decide +kernel)
  | ⟨1, _⟩ => hFin3 m c 1 (by decide +kernel) (by decide +kernel)
  | ⟨2, _⟩ => hFin3 m c 2 (by decide +kernel) (by decide +kernel)
  | ⟨3, _⟩ => hFin3 m c 3 (by decide +kernel) (by decide +kernel)
  | ⟨4, _⟩ => hFin3 m c 4 (by decide +kernel) (by decide +kernel)
  | ⟨5, _⟩ => (arrOut3_5 m c).symm
  | ⟨6, _⟩ => (arrOut3_6 m c).symm
  | ⟨_ + 7, h⟩ => absurd h (by omega)
theorem hrest3 (c : Dev nD) : ∀ b, b ∉ Finset.univ.image (Pipeline.arrRef spec3) → val7 m c b = val6 m c b :=
  fun b hb => Gen.V7_of m (outs m) c b fun h => hb (by
    rcases List.mem_cons.mp h with rfl | h
    · exact Finset.mem_image.mpr ⟨(5 : Fin 7), Finset.mem_univ _, rfl⟩
    · rcases List.mem_cons.mp h with rfl | h
      · exact Finset.mem_image.mpr ⟨(6 : Fin 7), Finset.mem_univ _, rfl⟩
      · cases h)

/-- An input array of region 4 holds at the exit what it held at entry. -/
theorem hFin4 (c : Dev nD) (w : Fin 8) (hin : (cfg4.win w).isOut = false)
    (hne : Pipeline.arrRef spec4 w ∉ ([main_v82_0, main_v82_1] : List (Ref sig .tc))) :
    (dat4 (val8 m) c).arrAt w cfg4.N = val9 m c (Pipeline.arrRef spec4 w) :=
  ((dat4 (val8 m) c).arrAt_in w hin _).trans ((A_eq4 (val8 m) c w).trans (Gen.V9_of m (outs m) c _ hne).symm)
set_option maxHeartbeats 1000000 in
theorem hF4 (c : Dev nD) : ∀ w : Fin 8, (dat4 (val8 m) c).arrAt w cfg4.N = val9 m c (Pipeline.arrRef spec4 w)
  | ⟨0, _⟩ => hFin4 m c 0 (by decide +kernel) (by decide +kernel)
  | ⟨1, _⟩ => hFin4 m c 1 (by decide +kernel) (by decide +kernel)
  | ⟨2, _⟩ => hFin4 m c 2 (by decide +kernel) (by decide +kernel)
  | ⟨3, _⟩ => hFin4 m c 3 (by decide +kernel) (by decide +kernel)
  | ⟨4, _⟩ => hFin4 m c 4 (by decide +kernel) (by decide +kernel)
  | ⟨5, _⟩ => hFin4 m c 5 (by decide +kernel) (by decide +kernel)
  | ⟨6, _⟩ => (arrOut4_6 m c).symm
  | ⟨7, _⟩ => (arrOut4_7 m c).symm
  | ⟨_ + 8, h⟩ => absurd h (by omega)
theorem hrest4 (c : Dev nD) : ∀ b, b ∉ Finset.univ.image (Pipeline.arrRef spec4) → val9 m c b = val8 m c b :=
  fun b hb => Gen.V9_of m (outs m) c b fun h => hb (by
    rcases List.mem_cons.mp h with rfl | h
    · exact Finset.mem_image.mpr ⟨(6 : Fin 8), Finset.mem_univ _, rfl⟩
    · rcases List.mem_cons.mp h with rfl | h
      · exact Finset.mem_image.mpr ⟨(7 : Fin 8), Finset.mem_univ _, rfl⟩
      · cases h)

/-- An input array of region 5 holds at the exit what it held at entry. -/
theorem hFin5 (c : Dev nD) (w : Fin 5) (hin : (cfg5.win w).isOut = false)
    (hne : Pipeline.arrRef spec5 w ∉ ([main_v83] : List (Ref sig .tc))) :
    (dat5 (val9 m) c).arrAt w cfg5.N = val10 m c (Pipeline.arrRef spec5 w) :=
  ((dat5 (val9 m) c).arrAt_in w hin _).trans ((A_eq5 (val9 m) c w).trans (Gen.V10_of m (outs m) c _ hne).symm)
set_option maxHeartbeats 1000000 in
theorem hF5 (c : Dev nD) : ∀ w : Fin 5, (dat5 (val9 m) c).arrAt w cfg5.N = val10 m c (Pipeline.arrRef spec5 w)
  | ⟨0, _⟩ => hFin5 m c 0 (by decide +kernel) (by decide +kernel)
  | ⟨1, _⟩ => hFin5 m c 1 (by decide +kernel) (by decide +kernel)
  | ⟨2, _⟩ => hFin5 m c 2 (by decide +kernel) (by decide +kernel)
  | ⟨3, _⟩ => hFin5 m c 3 (by decide +kernel) (by decide +kernel)
  | ⟨4, _⟩ => (arrOut5_4 m c).symm
  | ⟨_ + 5, h⟩ => absurd h (by omega)
theorem hrest5 (c : Dev nD) : ∀ b, b ∉ Finset.univ.image (Pipeline.arrRef spec5) → val10 m c b = val9 m c b :=
  fun b hb => Gen.V10_of m (outs m) c b fun h => hb (by
    rcases List.mem_cons.mp h with rfl | h
    · exact Finset.mem_image.mpr ⟨(4 : Fin 5), Finset.mem_univ _, rfl⟩
    · cases h)

/-- An input array of region 6 holds at the exit what it held at entry. -/
theorem hFin6 (c : Dev nD) (w : Fin 7) (hin : (cfg6.win w).isOut = false)
    (hne : Pipeline.arrRef spec6 w ∉ ([main_v121_0, main_v121_1] : List (Ref sig .tc))) :
    (dat6 (val11 m) c).arrAt w cfg6.N = val12 m c (Pipeline.arrRef spec6 w) :=
  ((dat6 (val11 m) c).arrAt_in w hin _).trans ((A_eq6 (val11 m) c w).trans (Gen.V12_of m (outs m) c _ hne).symm)
set_option maxHeartbeats 1000000 in
theorem hF6 (c : Dev nD) : ∀ w : Fin 7, (dat6 (val11 m) c).arrAt w cfg6.N = val12 m c (Pipeline.arrRef spec6 w)
  | ⟨0, _⟩ => hFin6 m c 0 (by decide +kernel) (by decide +kernel)
  | ⟨1, _⟩ => hFin6 m c 1 (by decide +kernel) (by decide +kernel)
  | ⟨2, _⟩ => hFin6 m c 2 (by decide +kernel) (by decide +kernel)
  | ⟨3, _⟩ => hFin6 m c 3 (by decide +kernel) (by decide +kernel)
  | ⟨4, _⟩ => hFin6 m c 4 (by decide +kernel) (by decide +kernel)
  | ⟨5, _⟩ => (arrOut6_5 m c).symm
  | ⟨6, _⟩ => (arrOut6_6 m c).symm
  | ⟨_ + 7, h⟩ => absurd h (by omega)
theorem hrest6 (c : Dev nD) : ∀ b, b ∉ Finset.univ.image (Pipeline.arrRef spec6) → val12 m c b = val11 m c b :=
  fun b hb => Gen.V12_of m (outs m) c b fun h => hb (by
    rcases List.mem_cons.mp h with rfl | h
    · exact Finset.mem_image.mpr ⟨(5 : Fin 7), Finset.mem_univ _, rfl⟩
    · rcases List.mem_cons.mp h with rfl | h
      · exact Finset.mem_image.mpr ⟨(6 : Fin 7), Finset.mem_univ _, rfl⟩
      · cases h)

/-- An input array of region 7 holds at the exit what it held at entry. -/
theorem hFin7 (c : Dev nD) (w : Fin 8) (hin : (cfg7.win w).isOut = false)
    (hne : Pipeline.arrRef spec7 w ∉ ([main_v124_0, main_v124_1] : List (Ref sig .tc))) :
    (dat7 (val13 m) c).arrAt w cfg7.N = val14 m c (Pipeline.arrRef spec7 w) :=
  ((dat7 (val13 m) c).arrAt_in w hin _).trans ((A_eq7 (val13 m) c w).trans (Gen.V14_of m (outs m) c _ hne).symm)
set_option maxHeartbeats 1000000 in
theorem hF7 (c : Dev nD) : ∀ w : Fin 8, (dat7 (val13 m) c).arrAt w cfg7.N = val14 m c (Pipeline.arrRef spec7 w)
  | ⟨0, _⟩ => hFin7 m c 0 (by decide +kernel) (by decide +kernel)
  | ⟨1, _⟩ => hFin7 m c 1 (by decide +kernel) (by decide +kernel)
  | ⟨2, _⟩ => hFin7 m c 2 (by decide +kernel) (by decide +kernel)
  | ⟨3, _⟩ => hFin7 m c 3 (by decide +kernel) (by decide +kernel)
  | ⟨4, _⟩ => hFin7 m c 4 (by decide +kernel) (by decide +kernel)
  | ⟨5, _⟩ => hFin7 m c 5 (by decide +kernel) (by decide +kernel)
  | ⟨6, _⟩ => (arrOut7_6 m c).symm
  | ⟨7, _⟩ => (arrOut7_7 m c).symm
  | ⟨_ + 8, h⟩ => absurd h (by omega)
theorem hrest7 (c : Dev nD) : ∀ b, b ∉ Finset.univ.image (Pipeline.arrRef spec7) → val14 m c b = val13 m c b :=
  fun b hb => Gen.V14_of m (outs m) c b fun h => hb (by
    rcases List.mem_cons.mp h with rfl | h
    · exact Finset.mem_image.mpr ⟨(6 : Fin 8), Finset.mem_univ _, rfl⟩
    · rcases List.mem_cons.mp h with rfl | h
      · exact Finset.mem_image.mpr ⟨(7 : Fin 8), Finset.mem_univ _, rfl⟩
      · cases h)

/-- An input array of region 8 holds at the exit what it held at entry. -/
theorem hFin8 (c : Dev nD) (w : Fin 5) (hin : (cfg8.win w).isOut = false)
    (hne : Pipeline.arrRef spec8 w ∉ ([main_v125] : List (Ref sig .tc))) :
    (dat8 (val14 m) c).arrAt w cfg8.N = val15 m c (Pipeline.arrRef spec8 w) :=
  ((dat8 (val14 m) c).arrAt_in w hin _).trans ((A_eq8 (val14 m) c w).trans (Gen.V15_of m (outs m) c _ hne).symm)
set_option maxHeartbeats 1000000 in
theorem hF8 (c : Dev nD) : ∀ w : Fin 5, (dat8 (val14 m) c).arrAt w cfg8.N = val15 m c (Pipeline.arrRef spec8 w)
  | ⟨0, _⟩ => hFin8 m c 0 (by decide +kernel) (by decide +kernel)
  | ⟨1, _⟩ => hFin8 m c 1 (by decide +kernel) (by decide +kernel)
  | ⟨2, _⟩ => hFin8 m c 2 (by decide +kernel) (by decide +kernel)
  | ⟨3, _⟩ => hFin8 m c 3 (by decide +kernel) (by decide +kernel)
  | ⟨4, _⟩ => (arrOut8_4 m c).symm
  | ⟨_ + 5, h⟩ => absurd h (by omega)
theorem hrest8 (c : Dev nD) : ∀ b, b ∉ Finset.univ.image (Pipeline.arrRef spec8) → val15 m c b = val14 m c b :=
  fun b hb => Gen.V15_of m (outs m) c b fun h => hb (by
    rcases List.mem_cons.mp h with rfl | h
    · exact Finset.mem_image.mpr ⟨(4 : Fin 5), Finset.mem_univ _, rfl⟩
    · cases h)

/-! ## The thread state that rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- The same rest at every boundary. -/
abbrev E : Fin 10 → Dev nD → sProp 𝕄 := fun _ c => R c

end Cert.Kernel.Hand

end
-- ==== Proof.K.Run2a.lean ====
import proofs.«110361_j29403346109051_2_alg».proof.Proof.K.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions of @main as segments -/

-- a library lemma stated over the pinned configuration unifies with the printed one only when unification may
-- unfold plain definitions in a metavariable's type
set_option backward.isDefEq.respectTransparency.types false in
/-- REGION 0 over the thread state: entered from every unscoped buffer at boundary 1's contents, left at boundary
    2's. Its arrays are split out of the unscoped buffers and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (val1 m) c).loose
  hwaits := Pipeline.hwaits_of_owed_zero _ _ _ _ L lv 0 fun c t => owed_eq0 (val1 m) c t
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (val1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (val1 m) c w) (val1 m c) fun w => A_eq0 (val1 m) c w
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (val1 m) c)
    iintro ⟨Hp, -, Hr⟩
    isplitl [Hp]; · iexact Hp
    iexact Hr
  hout c := by
    rw [Pipeline.ownSems0_none]
    refine (hout0 (val1 m) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (val1 m) c w)
      (val1 m c) (val2 m c) ((pdats m 0 c).arrAt · cfg0.N) (hF0 m c) (hrest0 m c)
    rw [Pipeline.unscopedBufs_held c (Gen.V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at boundary 3's contents, left at boundary
    4's. Its arrays are split out of the unscoped buffers and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (val3 m) c).loose
  hwaits := Pipeline.hwaits_of_owed_zero _ _ _ _ L lv 1 fun c t => owed_eq1 (val3 m) c t
  pre c := iprop(StableHlo.held (c : Thread nD τ) (Pipeline.ucRefs τ sig) (Gen.V3 m (outs m) c) ∗ E 1 c)
  post c := iprop(StableHlo.held (c : Thread nD τ) (Pipeline.ucRefs τ sig) (Gen.V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (val3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (val3 m) c w) (val3 m c) fun w => A_eq1 (val3 m) c w
    rw [Pipeline.unscopedBufs_held c (Gen.V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (val3 m) c)
    iintro ⟨Hp, -, Hr⟩
    isplitl [Hp]; · iexact Hp
    iexact Hr
  hout c := by
    rw [Pipeline.ownSems0_none]
    refine (hout1 (val3 m) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (val3 m) c w)
      (val3 m c) (val4 m c) ((pdats m 1 c).arrAt · cfg1.N) (hF1 m c) (hrest1 m c)
    rw [Pipeline.unscopedBufs_held c (Gen.V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at boundary 4's contents, left at boundary
    5's. Its arrays are split out of the unscoped buffers and put back at the exit contents; the generator register
    goes into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (val4 m) c).loose
  hwaits := Pipeline.hwaits_of_owed_zero _ _ _ _ L lv 2 fun c t => owed_eq2 (val4 m) c t
  pre c := iprop(StableHlo.held (c : Thread nD τ) (Pipeline.ucRefs τ sig) (Gen.V4 m (outs m) c) ∗ E 2 c)
  post c := iprop(StableHlo.held (c : Thread nD τ) (Pipeline.ucRefs τ sig) (Gen.V5 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (val4 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (val4 m) c w) (val4 m c) fun w => A_eq2 (val4 m) c w
    rw [Pipeline.unscopedBufs_held c (Gen.V4 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (val4 m) c)
    iintro ⟨Hp, -, Hr⟩
    isplitl [Hp]; · iexact Hp
    iexact Hr
  hout c := by
    rw [Pipeline.ownSems0_none]
    refine (hout2 (val4 m) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (val4 m) c w)
      (val4 m c) (val5 m c) ((pdats m 2 c).arrAt · cfg2.N) (hF2 m c) (hrest2 m c)
    rw [Pipeline.unscopedBufs_held c (Gen.V5 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run2b.lean ====
import proofs.«110361_j29403346109051_2_alg».proof.Proof.K.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions of @main as segments -/

-- a library lemma stated over the pinned configuration unifies with the printed one only when unification may
-- unfold plain definitions in a metavariable's type
set_option backward.isDefEq.respectTransparency.types false in
/-- REGION 3 over the thread state: entered from every unscoped buffer at boundary 6's contents, left at boundary
    7's. Its arrays are split out of the unscoped buffers and put back at the exit contents; the generator register
    goes into the region's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (val6 m) c).loose
  hwaits := Pipeline.hwaits_of_owed_zero _ _ _ _ L lv 3 fun c t => owed_eq3 (val6 m) c t
  pre c := iprop(StableHlo.held (c : Thread nD τ) (Pipeline.ucRefs τ sig) (Gen.V6 m (outs m) c) ∗ E 3 c)
  post c := iprop(StableHlo.held (c : Thread nD τ) (Pipeline.ucRefs τ sig) (Gen.V7 m (outs m) c) ∗ E 4 c)
  X c := iprop(∃ r, prngReg c r)
  Y c := iprop(∃ r, prngReg c r)
  Z c := Pipeline.unscopedRest (Ix := Unit) (Name := ℕ) (U := UR sig nD τ) (Lvl := ℕ) spec3 c (val6 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (val6 m) c w) (val6 m c) fun w => A_eq3 (val6 m) c w
    rw [Pipeline.unscopedBufs_held c (Gen.V6 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (val6 m) c)
    iintro ⟨Hp, -, Hr⟩
    isplitl [Hp]; · iexact Hp
    iexact Hr
  hout c := by
    rw [Pipeline.ownSems0_none]
    refine (hout3 (val6 m) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (val6 m) c w)
      (val6 m c) (val7 m c) ((pdats m 3 c).arrAt · cfg3.N) (hF3 m c) (hrest3 m c)
    rw [Pipeline.unscopedBufs_held c (Gen.V7 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 4 over the thread state: entered from every unscoped buffer at boundary 8's contents, left at boundary
    9's. Its arrays are split out of the unscoped buffers and put back at the exit contents; the generator register
    goes into the region's invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (val8 m) c).loose
  hwaits := Pipeline.hwaits_of_owed_zero _ _ _ _ L lv 4 fun c t => owed_eq4 (val8 m) c t
  pre c := iprop(StableHlo.held (c : Thread nD τ) (Pipeline.ucRefs τ sig) (Gen.V8 m (outs m) c) ∗ E 4 c)
  post c := iprop(StableHlo.held (c : Thread nD τ) (Pipeline.ucRefs τ sig) (Gen.V9 m (outs m) c) ∗ E 5 c)
  X c := iprop(∃ r, prngReg c r)
  Y c := iprop(∃ r, prngReg c r)
  Z c := Pipeline.unscopedRest (Ix := Unit) (Name := ℕ) (U := UR sig nD τ) (Lvl := ℕ) spec4 c (val8 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (val8 m) c w) (val8 m c) fun w => A_eq4 (val8 m) c w
    rw [Pipeline.unscopedBufs_held c (Gen.V8 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (val8 m) c)
    iintro ⟨Hp, -, Hr⟩
    isplitl [Hp]; · iexact Hp
    iexact Hr
  hout c := by
    rw [Pipeline.ownSems0_none]
    refine (hout4 (val8 m) c).trans ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (val8 m) c w)
      (val8 m c) (val9 m c) ((pdats m 4 c).arrAt · cfg4.N) (hF4 m c) (hrest4 m c)
    rw [Pipeline.unscopedBufs_held c (Gen.V9 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 5 over the thread state: entered from every unscoped buffer at boundary 9's contents, left at boundary
    10's. Its arrays are split out of the unscoped buffers and put back at the exit contents; the generator register
    goes into the region's invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (val9 m) c).loose
  hwaits := Pipeline.hwaits_of_owed_zero _ _ _ _ L lv 5 fun c t => owed_eq5 (val9 m) c t
  pre c := iprop(StableHlo.held (c : Thread nD τ) (Pipeline.ucRefs τ sig) (Gen.V9 m (outs m) c) ∗ E 5 c)
  post c := iprop(StableHlo.held (c : Thread nD τ) (Pipeline.ucRefs τ sig) (Gen.V10 m (outs m) c) ∗ E 6 c)
  X c := iprop(∃ r, prngReg c r)
  Y c := iprop(∃ r, prngReg c r)
  Z c := Pipeline.unscopedRest (Ix := Unit) (Name := ℕ) (U := UR sig nD τ) (Lvl := ℕ) spec5 c (val9 m c)
  hentry c := by
    rw [Pipeline.ownSems0_none]
    have hsplit := Pipeline.arrays_of_unscopedBufs (p := 5) (pcfgs (F := F)) adm (pdats m) launch5.win launch5.arr_whole c
      ((pdats m 5 c).share_full fun w => q_eq5 (val9 m) c w) (val9 m c) fun w => A_eq5 (val9 m) c w
    rw [Pipeline.unscopedBufs_held c (Gen.V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (val9 m) c)
    iintro ⟨Hp, -, Hr⟩
    isplitl [Hp]; · iexact Hp
    iexact Hr
  hout c := by
    rw [Pipeline.ownSems0_none]
    refine (hout5 (val9 m) c).trans ?_
    iintro ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun w => q_eq5 (val9 m) c w)
      (val9 m c) (val10 m c) ((pdats m 5 c).arrAt · cfg5.N) (hF5 m c) (hrest5 m c)
    rw [Pipeline.unscopedBufs_held c (Gen.V10 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run2c.lean ====
import proofs.«110361_j29403346109051_2_alg».proof.Proof.K.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The regions of @main as segments -/

-- a library lemma stated over the pinned configuration unifies with the printed one only when unification may
-- unfold plain definitions in a metavariable's type
set_option backward.isDefEq.respectTransparency.types false in
/-- REGION 6 over the thread state: entered from every unscoped buffer at boundary 11's contents, left at boundary
    12's. Its arrays are split out of the unscoped buffers and put back at the exit contents; the generator register
    goes into the region's invariant and comes out; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (val11 m) c).loose
  hwaits := Pipeline.hwaits_of_owed_zero _ _ _ _ L lv 6 fun c t => owed_eq6 (val11 m) c t
  pre c := iprop(StableHlo.held (c : Thread nD τ) (Pipeline.ucRefs τ sig) (Gen.V11 m (outs m) c) ∗ E 6 c)
  post c := iprop(StableHlo.held (c : Thread nD τ) (Pipeline.ucRefs τ sig) (Gen.V12 m (outs m) c) ∗ E 7 c)
  X c := iprop(∃ r, prngReg c r)
  Y c := iprop(∃ r, prngReg c r)
  Z c := Pipeline.unscopedRest (Ix := Unit) (Name := ℕ) (U := UR sig nD τ) (Lvl := ℕ) spec6 c (val11 m c)
  hentry c := by
    rw [Pipeline.ownSems0_none]
    have hsplit := Pipeline.arrays_of_unscopedBufs (p := 6) (pcfgs (F := F)) adm (pdats m) launch6.win launch6.arr_whole c
      ((pdats m 6 c).share_full fun w => q_eq6 (val11 m) c w) (val11 m c) fun w => A_eq6 (val11 m) c w
    rw [Pipeline.unscopedBufs_held c (Gen.V11 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (val11 m) c)
    iintro ⟨Hp, -, Hr⟩
    isplitl [Hp]; · iexact Hp
    iexact Hr
  hout c := by
    rw [Pipeline.ownSems0_none]
    refine (hout6 (val11 m) c).trans ?_
    iintro ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun w => q_eq6 (val11 m) c w)
      (val11 m c) (val12 m c) ((pdats m 6 c).arrAt · cfg6.N) (hF6 m c) (hrest6 m c)
    rw [Pipeline.unscopedBufs_held c (Gen.V12 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 7 over the thread state: entered from every unscoped buffer at boundary 13's contents, left at boundary
    14's. Its arrays are split out of the unscoped buffers and put back at the exit contents; the generator register
    goes into the region's invariant and comes out; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (val13 m) c).loose
  hwaits := Pipeline.hwaits_of_owed_zero _ _ _ _ L lv 7 fun c t => owed_eq7 (val13 m) c t
  pre c := iprop(StableHlo.held (c : Thread nD τ) (Pipeline.ucRefs τ sig) (Gen.V13 m (outs m) c) ∗ E 7 c)
  post c := iprop(StableHlo.held (c : Thread nD τ) (Pipeline.ucRefs τ sig) (Gen.V14 m (outs m) c) ∗ E 8 c)
  X c := iprop(∃ r, prngReg c r)
  Y c := iprop(∃ r, prngReg c r)
  Z c := Pipeline.unscopedRest (Ix := Unit) (Name := ℕ) (U := UR sig nD τ) (Lvl := ℕ) spec7 c (val13 m c)
  hentry c := by
    rw [Pipeline.ownSems0_none]
    have hsplit := Pipeline.arrays_of_unscopedBufs (p := 7) (pcfgs (F := F)) adm (pdats m) launch7.win launch7.arr_whole c
      ((pdats m 7 c).share_full fun w => q_eq7 (val13 m) c w) (val13 m c) fun w => A_eq7 (val13 m) c w
    rw [Pipeline.unscopedBufs_held c (Gen.V13 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (val13 m) c)
    iintro ⟨Hp, -, Hr⟩
    isplitl [Hp]; · iexact Hp
    iexact Hr
  hout c := by
    rw [Pipeline.ownSems0_none]
    refine (hout7 (val13 m) c).trans ?_
    iintro ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun w => q_eq7 (val13 m) c w)
      (val13 m c) (val14 m c) ((pdats m 7 c).arrAt · cfg7.N) (hF7 m c) (hrest7 m c)
    rw [Pipeline.unscopedBufs_held c (Gen.V14 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 8 over the thread state: entered from every unscoped buffer at boundary 14's contents, left at boundary
    15's. Its arrays are split out of the unscoped buffers and put back at the exit contents; the generator register
    goes into the region's invariant and comes out; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (val14 m) c).loose
  hwaits := Pipeline.hwaits_of_owed_zero _ _ _ _ L lv 8 fun c t => owed_eq8 (val14 m) c t
  pre c := iprop(StableHlo.held (c : Thread nD τ) (Pipeline.ucRefs τ sig) (Gen.V14 m (outs m) c) ∗ E 8 c)
  post c := iprop(StableHlo.held (c : Thread nD τ) (Pipeline.ucRefs τ sig) (Gen.V15 m (outs m) c) ∗ E 9 c)
  X c := iprop(∃ r, prngReg c r)
  Y c := iprop(∃ r, prngReg c r)
  Z c := Pipeline.unscopedRest (Ix := Unit) (Name := ℕ) (U := UR sig nD τ) (Lvl := ℕ) spec8 c (val14 m c)
  hentry c := by
    rw [Pipeline.ownSems0_none]
    have hsplit := Pipeline.arrays_of_unscopedBufs (p := 8) (pcfgs (F := F)) adm (pdats m) launch8.win launch8.arr_whole c
      ((pdats m 8 c).share_full fun w => q_eq8 (val14 m) c w) (val14 m c) fun w => A_eq8 (val14 m) c w
    rw [Pipeline.unscopedBufs_held c (Gen.V14 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (val14 m) c)
    iintro ⟨Hp, -, Hr⟩
    isplitl [Hp]; · iexact Hp
    iexact Hr
  hout c := by
    rw [Pipeline.ownSems0_none]
    refine (hout8 (val14 m) c).trans ?_
    iintro ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun w => q_eq8 (val14 m) c w)
      (val14 m c) (val15 m c) ((pdats m 8 c).arrAt · cfg8.N) (hF8 m c) (hrest8 m c)
    rw [Pipeline.unscopedBufs_held c (Gen.V15 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«110361_j29403346109051_2_alg».proof.Proof.K.Run2a
import proofs.«110361_j29403346109051_2_alg».proof.Proof.K.Run2b
import proofs.«110361_j29403346109051_2_alg».proof.Proof.K.Run2c

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of @main from the launch to the return -/

/-- At the last boundary nothing is owed: the dues ride in the rest. -/
theorem hE9 (c : Dev nD) : (E (F := F) 9 c) ⊢ (iprop(∃ W, owes (c : Thread nD τ) (0 : CellTallies nD τ sig Unit) W) : sProp 𝕄) := by
  iintro ⟨-, H⟩; iexact H

-- the kit's implicit arguments are found by unifying its conclusion with this one, which takes unfolding plain
-- definitions in a metavariable's type
set_option backward.isDefEq.respectTransparency.types false in
/-- THE RUN. From any memory `m` with zero counters, every weakly fair execution of @main on the TensorCores terminates,
    nothing faulting, and every final memory holds the result buffer at the last boundary's contents and each argument
    array as launched. -/
theorem run_main (ρ : Dev nD → PrngReg) : θ_run defs (onTc (τ := τ) (main (F := F))) ⟨m, fun _ => 0, ρ⟩ (fun r => ∀ c : Dev nD,
      r.2.mem ((c.tc : Thread nD τ).loc main_v125) = Gen.V15 m (outs m) c main_v125
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m) (reg2 m) (reg3 m) (reg4 m) (reg5 m) (reg6 m) (reg7 m) (reg8 m))
    (fun c Q => by
      rewrite [main_chain c, Pipeline.Seg.run_eq_chain,
        show (Gen.segs m (outs m) 𝒱₀ L lv E () (pdats m) (reg0 m) (reg1 m) (reg2 m) (reg3 m) (reg4 m) (reg5 m) (reg6 m) (reg7 m) (reg8 m) c).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V15 m (outs m) c))
    (hch := fun c => ⟨.rfl, .rfl, .rfl, .rfl, .rfl, .rfl, .rfl, .rfl, .rfl, .rfl, .rfl, .rfl, .rfl, .rfl, .rfl, sep_mono .rfl (hE9 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v125) = Gen.V15 m (outs m) c main_v125
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12))
    (hfin := fun c s' => ?_) (hQ := fun _ h => h)
  -- the end: the result buffer and each argument's buffer read off the last valuation
  unfold StableHlo.held
  iintro ⟨Hh, HSI⟩
  ihave Hr := (pointsTo_read_all (Pipeline.ucRefs τ sig) (fun b => ((c : Thread nD τ).1, b)) (Gen.V15 m (outs m) c) s') $$ [Hh HSI]
  · isplitl [Hh] <;> iassumption
  icases Hr with ⟨%h, HSI⟩
  imodintro
  isplitr
  · ipureintro
    exact ⟨h (Proc.devRef .tc main_v125) (Finset.mem_filter.mpr ⟨StableHlo.devRef_mem_tcRefs main_v125, by decide⟩),
      (h (Proc.devRef .tc main_arg0) (Finset.mem_filter.mpr ⟨StableHlo.devRef_mem_tcRefs main_arg0, by decide⟩)).trans (Gen.V15_main_arg0 m (outs m) c),
      (h (Proc.devRef .tc main_arg1) (Finset.mem_filter.mpr ⟨StableHlo.devRef_mem_tcRefs main_arg1, by decide⟩)).trans (Gen.V15_main_arg1 m (outs m) c),
      (h (Proc.devRef .tc main_arg2) (Finset.mem_filter.mpr ⟨StableHlo.devRef_mem_tcRefs main_arg2, by decide⟩)).trans (Gen.V15_main_arg2 m (outs m) c),
      (h (Proc.devRef .tc main_arg3) (Finset.mem_filter.mpr ⟨StableHlo.devRef_mem_tcRefs main_arg3, by decide⟩)).trans (Gen.V15_main_arg3 m (outs m) c),
      (h (Proc.devRef .tc main_arg4) (Finset.mem_filter.mpr ⟨StableHlo.devRef_mem_tcRefs main_arg4, by decide⟩)).trans (Gen.V15_main_arg4 m (outs m) c),
      (h (Proc.devRef .tc main_arg5) (Finset.mem_filter.mpr ⟨StableHlo.devRef_mem_tcRefs main_arg5, by decide⟩)).trans (Gen.V15_main_arg5 m (outs m) c),
      (h (Proc.devRef .tc main_arg6) (Finset.mem_filter.mpr ⟨StableHlo.devRef_mem_tcRefs main_arg6, by decide⟩)).trans (Gen.V15_main_arg6 m (outs m) c),
      (h (Proc.devRef .tc main_arg7) (Finset.mem_filter.mpr ⟨StableHlo.devRef_mem_tcRefs main_arg7, by decide⟩)).trans (Gen.V15_main_arg7 m (outs m) c),
      (h (Proc.devRef .tc main_arg8) (Finset.mem_filter.mpr ⟨StableHlo.devRef_mem_tcRefs main_arg8, by decide⟩)).trans (Gen.V15_main_arg8 m (outs m) c),
      (h (Proc.devRef .tc main_arg9) (Finset.mem_filter.mpr ⟨StableHlo.devRef_mem_tcRefs main_arg9, by decide⟩)).trans (Gen.V15_main_arg9 m (outs m) c),
      (h (Proc.devRef .tc main_arg10) (Finset.mem_filter.mpr ⟨StableHlo.devRef_mem_tcRefs main_arg10, by decide⟩)).trans (Gen.V15_main_arg10 m (outs m) c),
      (h (Proc.devRef .tc main_arg11) (Finset.mem_filter.mpr ⟨StableHlo.devRef_mem_tcRefs main_arg11, by decide⟩)).trans (Gen.V15_main_arg11 m (outs m) c),
      (h (Proc.devRef .tc main_arg12) (Finset.mem_filter.mpr ⟨StableHlo.devRef_mem_tcRefs main_arg12, by decide⟩)).trans (Gen.V15_main_arg12 m (outs m) c)⟩
  · iexact HSI

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (run_main m ρ)

end Cert.Kernel.Hand

end
-- ==== Proof.lean ====
/-
  The certificate of a three-layer graph network: each layer sums edge-weighted neighbour rows at their destination
  nodes, applies a linear map to (1 + eps)·h + agg, normalises every column by its mean and variance over the 40000
  nodes, rectifies, applies a second linear map and rectifier, and normalises and rectifies again.  The kernel computes a
  column variance as max(E[y²] − (E y)², 0) with the reciprocal 1/40000 as a factor, the reference as the mean squared
  deviation with a quotient by 40000; on finite inputs every intermediate value is a real number, the two forms are the
  same number (the mean squared deviation is not negative), and the two programs end with equal arrays.
-/
import proofs.«110361_j29403346109051_2_alg».proof.Defs
import proofs.«110361_j29403346109051_2_alg».proof.Proof.Gen.Kernel
import proofs.«110361_j29403346109051_2_alg».proof.Proof.Gen.KernelIdeal
import proofs.«110361_j29403346109051_2_alg».proof.Proof.Gen.ReferenceIdeal
import proofs.«110361_j29403346109051_2_alg».proof.Proof.Gen.Pre_finite_inputs
import proofs.«110361_j29403346109051_2_alg».proof.Proof.Preserves
import proofs.«110361_j29403346109051_2_alg».proof.Proof.Bridge
import proofs.«110361_j29403346109051_2_alg».proof.Proof.K.Run

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    Cert.Proof.Bridge.frame_ki,
    Cert.Proof.Bridge.frame_ri,
    Cert.Proof.Preserves.preserves,
    Cert.Proof.Bridge.algebraic⟩

end Cert.Proof

end
